-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)) →
    ∃ (v0 : (c : Dev Cert.KernelIdeal.nD) → Buf (Elt Ideal) ((c.tc : Thread Cert.KernelIdeal.nD Cert.KernelIdeal.τ).loc Cert.KernelIdeal.main_v301)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v301) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v283) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S69785 : Shape := ⟨1, ![69785]⟩
abbrev S30215 : Shape := ⟨1, ![30215]⟩
abbrev S279168 : Shape := ⟨1, ![279168]⟩
abbrev S_ : Shape := ⟨0, ![]⟩
abbrev S79460 : Shape := ⟨1, ![79460]⟩
abbrev S20540 : Shape := ⟨1, ![20540]⟩
abbrev S317997 : Shape := ⟨1, ![317997]⟩
abbrev S74654 : Shape := ⟨1, ![74654]⟩
abbrev S25346 : Shape := ⟨1, ![25346]⟩
abbrev S298662 : Shape := ⟨1, ![298662]⟩
abbrev S256x256 : Shape := ⟨2, ![256, 256]⟩
abbrev S256 : Shape := ⟨1, ![256]⟩
abbrev S512x256 : Shape := ⟨2, ![512, 256]⟩
abbrev S256x2 : Shape := ⟨2, ![256, 2]⟩
abbrev S2 : Shape := ⟨1, ![2]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S69785 : S_.BroadcastsInDim S69785 (![] : Fin 0 → Fin S69785.rank)
  reducesTo_S69785_S_d0 : S69785.ReducesTo [0] S_
  reducesTo_S_S_d : S_.ReducesTo [] S_
  bcast_S_S79460 : S_.BroadcastsInDim S79460 (![] : Fin 0 → Fin S79460.rank)
  reducesTo_S79460_S_d0 : S79460.ReducesTo [0] S_
  bcast_S_S74654 : S_.BroadcastsInDim S74654 (![] : Fin 0 → Fin S74654.rank)
  reducesTo_S74654_S_d0 : S74654.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg34 : FVec F S2 .f32) (main_v100 : IVec S_ 1) (main_v101 : FVec F S256x2 .f32) : IVec S_ 1 :=
  let main_cst_40 : FVec F S_ .f32 := constant S_ .f32 0x7F800000#32
  let main_v102 : FVec F S256x2 .f32 := broadcastInDim S256x2 ![] bcast_S_S256x2 main_cst_40
  let main_v103 : IVec S256x2 1 := cmpf .olt main_v101 main_v102
  let main_c_41 : IVec S_ 1 := constantI S_ 1 1#1
  let main_v104 : IVec S_ 1 := (fun x v => Host.reduce IntOp.andi x v reducesTo_S256x2_S_d0_1 h_S_) main_v103 main_c_41
  let main_v105 : IVec S_ 1 := andi main_v100 main_v104
  let main_v106 : FVec F S2 .f32 := Host.absf main_arg34
  let main_cst_42 : FVec F S_ .f32 := constant S_ .f32 0x7F800000#32
  let main_v107 : FVec F S2 .f32 := broadcastInDim S2 ![] bcast_S_S2 main_cst_42
  let main_v108 : IVec S2 1 := cmpf .olt main_v106 main_v107
  let main_c_43 : IVec S_ 1 := constantI S_ 1 1#1
  let main_v109 : IVec S_ 1 := (fun x v => Host.reduce IntOp.andi x v reducesTo_S2_S_d0 h_S_) main_v108 main_c_43
  let main_v110 : IVec S_ 1 := andi main_v105 main_v109
  main_v110

def fn_part5 {F : FTy → Type} [FloatOps F] (main_arg30 : FVec F S256 .f32) (main_arg31 : FVec F S512x256 .f32) (main_arg32 : FVec F S256 .f32) (main_arg33 : FVec F S256x2 .f32) (main_arg34 : FVec F S2 .f32) (main_v80 : IVec S_ 1) (main_v83 : IVec S512x256 1) (main_c_33 : IVec S_ 1) : IVec S_ 1 :=
  let main_v84 : IVec S_ 1 := (fun x v => Host.reduce IntOp.andi x v reducesTo_S512x256_S_d0_1 h_S_) main_v83 main_c_33
  let main_v85 : IVec S_ 1 := andi main_v80 main_v84
  let main_v86 : FVec F S256 .f32 := Host.absf main_arg30
  let main_cst_34 : FVec F S_ .f32 := constant S_ .f32 0x7F800000#32
  let main_v87 : FVec F S256 .f32 := broadcastInDim S256 ![] bcast_S_S256 main_cst_34
  let main_v88 : IVec S256 1 := cmpf .olt main_v86 main_v87
  let main_c_35 : IVec S_ 1 := constantI S_ 1 1#1
  let main_v89 : IVec S_ 1 := (fun x v => Host.reduce IntOp.andi x v reducesTo_S256_S_d0 h_S_) main_v88 main_c_35
  let main_v90 : IVec S_ 1 := andi main_v85 main_v89
  let main_v91 : FVec F S512x256 .f32 := Host.absf main_arg31
  let main_cst_36 : FVec F S_ .f32 := constant S_ .f32 0x7F800000#32
  let main_v92 : FVec F S512x256 .f32 := broadcastInDim S512x256 ![] bcast_S_S512x256 main_cst_36
  let main_v93 : IVec S512x256 1 := cmpf .olt main_v91 main_v92
  let main_c_37 : IVec S_ 1 := constantI S_ 1 1#1
  let main_v94 : IVec S_ 1 := (fun x v => Host.reduce IntOp.andi x v reducesTo_S512x256_S_d0_1 h_S_) main_v93 main_c_37
  let main_v95 : IVec S_ 1 := andi main_v90 main_v94
  let main_v96 : FVec F S256 .f32 := Host.absf main_arg32
  let main_cst_38 : FVec F S_ .f32 := constant S_ .f32 0x7F800000#32
  let main_v97 : FVec F S256 .f32 := broadcastInDim S256 ![] bcast_S_S256 main_cst_38
  let main_v98 : IVec S256 1 := cmpf .olt main_v96 main_v97
  let main_c_39 : IVec S_ 1 := constantI S_ 1 1#1
  let main_v99 : IVec S_ 1 := (fun x v => Host.reduce IntOp.andi x v reducesTo_S256_S_d0 h_S_) main_v98 main_c_39
  let main_v100 : IVec S_ 1 := andi main_v95 main_v99
  let main_v101 : FVec F S256x2 .f32 := Host.absf main_arg33
  fn_part6 (F := F) main_arg34 main_v100 main_v101

def fn_part4 {F : FTy → Type} [FloatOps F] (main_arg27 : FVec F S512x256 .f32) (main_arg28 : FVec F S256 .f32) (main_arg29 : FVec F S512x256 .f32) (main_arg30 : FVec F S256 .f32) (main_arg31 : FVec F S512x256 .f32) (main_arg32 : FVec F S256 .f32) (main_arg33 : FVec F S256x2 .f32) (main_arg34 : FVec F S2 .f32) (main_v65 : IVec S_ 1) (main_v66 : FVec F S256 .f32) (main_cst_26 : FVec F S_ .f32) : IVec S_ 1 :=
  let main_v67 : FVec F S256 .f32 := broadcastInDim S256 ![] bcast_S_S256 main_cst_26
  let main_v68 : IVec S256 1 := cmpf .olt main_v66 main_v67
  let main_c_27 : IVec S_ 1 := constantI S_ 1 1#1
  let main_v69 : IVec S_ 1 := (fun x v => Host.reduce IntOp.andi x v reducesTo_S256_S_d0 h_S_) main_v68 main_c_27
  let main_v70 : IVec S_ 1 := andi main_v65 main_v69
  let main_v71 : FVec F S512x256 .f32 := Host.absf main_arg27
  let main_cst_28 : FVec F S_ .f32 := constant S_ .f32 0x7F800000#32
  let main_v72 : FVec F S512x256 .f32 := broadcastInDim S512x256 ![] bcast_S_S512x256 main_cst_28
  let main_v73 : IVec S512x256 1 := cmpf .olt main_v71 main_v72
  let main_c_29 : IVec S_ 1 := constantI S_ 1 1#1
  let main_v74 : IVec S_ 1 := (fun x v => Host.reduce IntOp.andi x v reducesTo_S512x256_S_d0_1 h_S_) main_v73 main_c_29
  let main_v75 : IVec S_ 1 := andi main_v70 main_v74
  let main_v76 : FVec F S256 .f32 := Host.absf main_arg28
  let main_cst_30 : FVec F S_ .f32 := constant S_ .f32 0x7F800000#32
  let main_v77 : FVec F S256 .f32 := broadcastInDim S256 ![] bcast_S_S256 main_cst_30
  let main_v78 : IVec S256 1 := cmpf .olt main_v76 main_v77
  let main_c_31 : IVec S_ 1 := constantI S_ 1 1#1
  let main_v79 : IVec S_ 1 := (fun x v => Host.reduce IntOp.andi x v reducesTo_S256_S_d0 h_S_) main_v78 main_c_31
  let main_v80 : IVec S_ 1 := andi main_v75 main_v79
  let main_v81 : FVec F S512x256 .f32 := Host.absf main_arg29
  let main_cst_32 : FVec F S_ .f32 := constant S_ .f32 0x7F800000#32
  let main_v82 : FVec F S512x256 .f32 := broadcastInDim S512x256 ![] bcast_S_S512x256 main_cst_32
  let main_v83 : IVec S512x256 1 := cmpf .olt main_v81 main_v82
  let main_c_33 : IVec S_ 1 := constantI S_ 1 1#1
  fn_part5 (F := F) main_arg30 main_arg31 main_arg32 main_arg33 main_arg34 main_v80 main_v83 main_c_33

def fn_part3 {F : FTy → Type} [FloatOps F] (main_arg23 : FVec F S256x256 .f32) (main_arg24 : FVec F S256 .f32) (main_arg25 : FVec F S256x256 .f32) (main_arg26 : FVec F S256 .f32) (main_arg27 : FVec F S512x256 .f32) (main_arg28 : FVec F S256 .f32) (main_arg29 : FVec F S512x256 .f32) (main_arg30 : FVec F S256 .f32) (main_arg31 : FVec F S512x256 .f32) (main_arg32 : FVec F S256 .f32) (main_arg33 : FVec F S256x2 .f32) (main_arg34 : FVec F S2 .f32) (main_v45 : IVec S_ 1) (main_v49 : IVec S_ 1) : IVec S_ 1 :=
  let main_v50 : IVec S_ 1 := andi main_v45 main_v49
  let main_v51 : FVec F S256x256 .f32 := Host.absf main_arg23
  let main_cst_20 : FVec F S_ .f32 := constant S_ .f32 0x7F800000#32
  let main_v52 : FVec F S256x256 .f32 := broadcastInDim S256x256 ![] bcast_S_S256x256 main_cst_20
  let main_v53 : IVec S256x256 1 := cmpf .olt main_v51 main_v52
  let main_c_21 : IVec S_ 1 := constantI S_ 1 1#1
  let main_v54 : IVec S_ 1 := (fun x v => Host.reduce IntOp.andi x v reducesTo_S256x256_S_d0_1 h_S_) main_v53 main_c_21
  let main_v55 : IVec S_ 1 := andi main_v50 main_v54
  let main_v56 : FVec F S256 .f32 := Host.absf main_arg24
  let main_cst_22 : FVec F S_ .f32 := constant S_ .f32 0x7F800000#32
  let main_v57 : FVec F S256 .f32 := broadcastInDim S256 ![] bcast_S_S256 main_cst_22
  let main_v58 : IVec S256 1 := cmpf .olt main_v56 main_v57
  let main_c_23 : IVec S_ 1 := constantI S_ 1 1#1
  let main_v59 : IVec S_ 1 := (fun x v => Host.reduce IntOp.andi x v reducesTo_S256_S_d0 h_S_) main_v58 main_c_23
  let main_v60 : IVec S_ 1 := andi main_v55 main_v59
  let main_v61 : FVec F S256x256 .f32 := Host.absf main_arg25
  let main_cst_24 : FVec F S_ .f32 := constant S_ .f32 0x7F800000#32
  let main_v62 : FVec F S256x256 .f32 := broadcastInDim S256x256 ![] bcast_S_S256x256 main_cst_24
  let main_v63 : IVec S256x256 1 := cmpf .olt main_v61 main_v62
  let main_c_25 : IVec S_ 1 := constantI S_ 1 1#1
  let main_v64 : IVec S_ 1 := (fun x v => Host.reduce IntOp.andi x v reducesTo_S256x256_S_d0_1 h_S_) main_v63 main_c_25
  let main_v65 : IVec S_ 1 := andi main_v60 main_v64
  let main_v66 : FVec F S256 .f32 := Host.absf main_arg26
  let main_cst_26 : FVec F S_ .f32 := constant S_ .f32 0x7F800000#32
  fn_part4 (F := F) main_arg27 main_arg28 main_arg29 main_arg30 main_arg31 main_arg32 main_arg33 main_arg34 main_v65 main_v66 main_cst_26

def fn_part2 {F : FTy → Type} [FloatOps F] (main_arg20 : FVec F S256 .f32) (main_arg21 : FVec F S256x256 .f32) (main_arg22 : FVec F S256 .f32) (main_arg23 : FVec F S256x256 .f32) (main_arg24 : FVec F S256 .f32) (main_arg25 : FVec F S256x256 .f32) (main_arg26 : FVec F S256 .f32) (main_arg27 : FVec F S512x256 .f32) (main_arg28 : FVec F S256 .f32) (main_arg29 : FVec F S512x256 .f32) (main_arg30 : FVec F S256 .f32) (main_arg31 : FVec F S512x256 .f32) (main_arg32 : FVec F S256 .f32) (main_arg33 : FVec F S256x2 .f32) (main_arg34 : FVec F S2 .f32) (main_v30 : IVec S_ 1) (main_v31 : FVec F S256x256 .f32) (main_v32 : FVec F S256x256 .f32) : IVec S_ 1 :=
  let main_v33 : IVec S256x256 1 := cmpf .olt main_v31 main_v32
  let main_c_13 : IVec S_ 1 := constantI S_ 1 1#1
  let main_v34 : IVec S_ 1 := (fun x v => Host.reduce IntOp.andi x v reducesTo_S256x256_S_d0_1 h_S_) main_v33 main_c_13
  let main_v35 : IVec S_ 1 := andi main_v30 main_v34
  let main_v36 : FVec F S256 .f32 := Host.absf main_arg20
  let main_cst_14 : FVec F S_ .f32 := constant S_ .f32 0x7F800000#32
  let main_v37 : FVec F S256 .f32 := broadcastInDim S256 ![] bcast_S_S256 main_cst_14
  let main_v38 : IVec S256 1 := cmpf .olt main_v36 main_v37
  let main_c_15 : IVec S_ 1 := constantI S_ 1 1#1
  let main_v39 : IVec S_ 1 := (fun x v => Host.reduce IntOp.andi x v reducesTo_S256_S_d0 h_S_) main_v38 main_c_15
  let main_v40 : IVec S_ 1 := andi main_v35 main_v39
  let main_v41 : FVec F S256x256 .f32 := Host.absf main_arg21
  let main_cst_16 : FVec F S_ .f32 := constant S_ .f32 0x7F800000#32
  let main_v42 : FVec F S256x256 .f32 := broadcastInDim S256x256 ![] bcast_S_S256x256 main_cst_16
  let main_v43 : IVec S256x256 1 := cmpf .olt main_v41 main_v42
  let main_c_17 : IVec S_ 1 := constantI S_ 1 1#1
  let main_v44 : IVec S_ 1 := (fun x v => Host.reduce IntOp.andi x v reducesTo_S256x256_S_d0_1 h_S_) main_v43 main_c_17
  let main_v45 : IVec S_ 1 := andi main_v40 main_v44
  let main_v46 : FVec F S256 .f32 := Host.absf main_arg22
  let main_cst_18 : FVec F S_ .f32 := constant S_ .f32 0x7F800000#32
  let main_v47 : FVec F S256 .f32 := broadcastInDim S256 ![] bcast_S_S256 main_cst_18
  let main_v48 : IVec S256 1 := cmpf .olt main_v46 main_v47
  let main_c_19 : IVec S_ 1 := constantI S_ 1 1#1
  let main_v49 : IVec S_ 1 := (fun x v => Host.reduce IntOp.andi x v reducesTo_S256_S_d0 h_S_) main_v48 main_c_19
  fn_part3 (F := F) main_arg23 main_arg24 main_arg25 main_arg26 main_arg27 main_arg28 main_arg29 main_arg30 main_arg31 main_arg32 main_arg33 main_arg34 main_v45 main_v49

def fn_part1 {F : FTy → Type} [FloatOps F] (main_arg12 : FVec F S_ .f32) (main_arg17 : FVec F S74654 .f32) (main_arg18 : FVec F S_ .f32) (main_arg19 : FVec F S256x256 .f32) (main_arg20 : FVec F S256 .f32) (main_arg21 : FVec F S256x256 .f32) (main_arg22 : FVec F S256 .f32) (main_arg23 : FVec F S256x256 .f32) (main_arg24 : FVec F S256 .f32) (main_arg25 : FVec F S256x256 .f32) (main_arg26 : FVec F S256 .f32) (main_arg27 : FVec F S512x256 .f32) (main_arg28 : FVec F S256 .f32) (main_arg29 : FVec F S512x256 .f32) (main_arg30 : FVec F S256 .f32) (main_arg31 : FVec F S512x256 .f32) (main_arg32 : FVec F S256 .f32) (main_arg33 : FVec F S256x2 .f32) (main_arg34 : FVec F S2 .f32) (main_v12 : IVec S_ 1) (main_v15 : IVec S79460 1) (main_c_5 : IVec S_ 1) : IVec S_ 1 :=
  let main_v16 : IVec S_ 1 := (fun x v => Host.reduce IntOp.andi x v reducesTo_S79460_S_d0 h_S_) main_v15 main_c_5
  let main_v17 : IVec S_ 1 := andi main_v12 main_v16
  let main_v18 : FVec F S_ .f32 := Host.absf main_arg12
  let main_cst_6 : FVec F S_ .f32 := constant S_ .f32 0x7F800000#32
  let main_v19 : IVec S_ 1 := cmpf .olt main_v18 main_cst_6
  let main_c_7 : IVec S_ 1 := constantI S_ 1 1#1
  let main_v20 : IVec S_ 1 := (fun x v => Host.reduce IntOp.andi x v reducesTo_S_S_d h_S_) main_v19 main_c_7
  let main_v21 : IVec S_ 1 := andi main_v17 main_v20
  let main_v22 : FVec F S74654 .f32 := Host.absf main_arg17
  let main_cst_8 : FVec F S_ .f32 := constant S_ .f32 0x7F800000#32
  let main_v23 : FVec F S74654 .f32 := broadcastInDim S74654 ![] bcast_S_S74654 main_cst_8
  let main_v24 : IVec S74654 1 := cmpf .olt main_v22 main_v23
  let main_c_9 : IVec S_ 1 := constantI S_ 1 1#1
  let main_v25 : IVec S_ 1 := (fun x v => Host.reduce IntOp.andi x v reducesTo_S74654_S_d0 h_S_) main_v24 main_c_9
  let main_v26 : IVec S_ 1 := andi main_v21 main_v25
  let main_v27 : FVec F S_ .f32 := Host.absf main_arg18
  let main_cst_10 : FVec F S_ .f32 := constant S_ .f32 0x7F800000#32
  let main_v28 : IVec S_ 1 := cmpf .olt main_v27 main_cst_10
  let main_c_11 : IVec S_ 1 := constantI S_ 1 1#1
  let main_v29 : IVec S_ 1 := (fun x v => Host.reduce IntOp.andi x v reducesTo_S_S_d h_S_) main_v28 main_c_11
  let main_v30 : IVec S_ 1 := andi main_v26 main_v29
  let main_v31 : FVec F S256x256 .f32 := Host.absf main_arg19
  let main_cst_12 : FVec F S_ .f32 := constant S_ .f32 0x7F800000#32
  let main_v32 : FVec F S256x256 .f32 := broadcastInDim S256x256 ![] bcast_S_S256x256 main_cst_12
  fn_part2 (F := F) main_arg20 main_arg21 main_arg22 main_arg23 main_arg24 main_arg25 main_arg26 main_arg27 main_arg28 main_arg29 main_arg30 main_arg31 main_arg32 main_arg33 main_arg34 main_v30 main_v31 main_v32

def fn {F : FTy → Type} [FloatOps F] (main_arg0 : FVec F S100000x256 .f32) (main_arg1 : IVec S69785 32) (main_arg2 : IVec S30215 32) (main_arg3 : IVec S279168 32) (main_arg4 : IVec S279168 32) (main_arg5 : FVec F S69785 .f32) (main_arg6 : FVec F S_ .f32) (main_arg7 : IVec S79460 32) (main_arg8 : IVec S20540 32) (main_arg9 : IVec S317997 32) (main_arg10 : IVec S317997 32) (main_arg11 : FVec F S79460 .f32) (main_arg12 : FVec F S_ .f32) (main_arg13 : IVec S74654 32) (main_arg14 : IVec S25346 32) (main_arg15 : IVec S298662 32) (main_arg16 : IVec S298662 32) (main_arg17 : FVec F S74654 .f32) (main_arg18 : FVec F S_ .f32) (main_arg19 : FVec F S256x256 .f32) (main_arg20 : FVec F S256 .f32) (main_arg21 : FVec F S256x256 .f32) (main_arg22 : FVec F S256 .f32) (main_arg23 : FVec F S256x256 .f32) (main_arg24 : FVec F S256 .f32) (main_arg25 : FVec F S256x256 .f32) (main_arg26 : FVec F S256 .f32) (main_arg27 : FVec F S512x256 .f32) (main_arg28 : FVec F S256 .f32) (main_arg29 : FVec F S512x256 .f32) (main_arg30 : FVec F S256 .f32) (main_arg31 : FVec F S512x256 .f32) (main_arg32 : FVec F S256 .f32) (main_arg33 : FVec F S256x2 .f32) (main_arg34 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S69785 .f32 := Host.absf main_arg5
  let main_cst_0 : FVec F S_ .f32 := constant S_ .f32 0x7F800000#32
  let main_v5 : FVec F S69785 .f32 := broadcastInDim S69785 ![] bcast_S_S69785 main_cst_0
  let main_v6 : IVec S69785 1 := cmpf .olt main_v4 main_v5
  let main_c_1 : IVec S_ 1 := constantI S_ 1 1#1
  let main_v7 : IVec S_ 1 := (fun x v => Host.reduce IntOp.andi x v reducesTo_S69785_S_d0 h_S_) main_v6 main_c_1
  let main_v8 : IVec S_ 1 := andi main_v3 main_v7
  let main_v9 : FVec F S_ .f32 := Host.absf main_arg6
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S79460 .f32 := Host.absf main_arg11
  let main_cst_4 : FVec F S_ .f32 := constant S_ .f32 0x7F800000#32
  let main_v14 : FVec F S79460 .f32 := broadcastInDim S79460 ![] bcast_S_S79460 main_cst_4
  let main_v15 : IVec S79460 1 := cmpf .olt main_v13 main_v14
  let main_c_5 : IVec S_ 1 := constantI S_ 1 1#1
  fn_part1 (F := F) main_arg12 main_arg17 main_arg18 main_arg19 main_arg20 main_arg21 main_arg22 main_arg23 main_arg24 main_arg25 main_arg26 main_arg27 main_arg28 main_arg29 main_arg30 main_arg31 main_arg32 main_arg33 main_arg34 main_v12 main_v15 main_c_5
-- ==== Kernel.lean ====
abbrev S100000x256 : Shape := ⟨2, ![100000, 256]⟩
abbrev S69785 : Shape := ⟨1, ![69785]⟩
abbrev S30215 : Shape := ⟨1, ![30215]⟩
abbrev S279168 : Shape := ⟨1, ![279168]⟩
abbrev S_ : Shape := ⟨0, ![]⟩
abbrev S79460 : Shape := ⟨1, ![79460]⟩
abbrev S20540 : Shape := ⟨1, ![20540]⟩
abbrev S317997 : Shape := ⟨1, ![317997]⟩
abbrev S74654 : Shape := ⟨1, ![74654]⟩
abbrev S25346 : Shape := ⟨1, ![25346]⟩
abbrev S298662 : Shape := ⟨1, ![298662]⟩
abbrev S256x256 : Shape := ⟨2, ![256, 256]⟩
abbrev S256 : Shape := ⟨1, ![256]⟩
abbrev S512x256 : Shape := ⟨2, ![512, 256]⟩
abbrev S256x2 : Shape := ⟨2, ![256, 2]⟩
abbrev S2 : Shape := ⟨1, ![2]⟩
abbrev S102400x256 : Shape := ⟨2, ![102400, 256]⟩
abbrev S1x256 : Shape := ⟨2, ![1, 256]⟩
abbrev S4096x256 : Shape := ⟨2, ![4096, 256]⟩
abbrev S69785x1 : Shape := ⟨2, ![69785, 1]⟩
abbrev S69785x256 : Shape := ⟨2, ![69785, 256]⟩
abbrev S30215x1 : Shape := ⟨2, ![30215, 1]⟩
abbrev S30215x256 : Shape := ⟨2, ![30215, 256]⟩
abbrev S279168x1 : Shape := ⟨2, ![279168, 1]⟩
abbrev S279168x256 : Shape := ⟨2, ![279168, 256]⟩
abbrev S73728x256 : Shape := ⟨2, ![73728, 256]⟩
abbrev S32768x256 : Shape := ⟨2, ![32768, 256]⟩
abbrev S79460x1 : Shape := ⟨2, ![79460, 1]⟩
abbrev S79460x256 : Shape := ⟨2, ![79460, 256]⟩
abbrev S20540x1 : Shape := ⟨2, ![20540, 1]⟩
abbrev S20540x256 : Shape := ⟨2, ![20540, 256]⟩
abbrev S317997x1 : Shape := ⟨2, ![317997, 1]⟩
abbrev S317997x256 : Shape := ⟨2, ![317997, 256]⟩
abbrev S81920x256 : Shape := ⟨2, ![81920, 256]⟩
abbrev S24576x256 : Shape := ⟨2, ![24576, 256]⟩
abbrev S74654x1 : Shape := ⟨2, ![74654, 1]⟩
abbrev S74654x256 : Shape := ⟨2, ![74654, 256]⟩
abbrev S25346x1 : Shape := ⟨2, ![25346, 1]⟩
abbrev S25346x256 : Shape := ⟨2, ![25346, 256]⟩
abbrev S298662x1 : Shape := ⟨2, ![298662, 1]⟩
abbrev S298662x256 : Shape := ⟨2, ![298662, 256]⟩
abbrev S77824x256 : Shape := ⟨2, ![77824, 256]⟩
abbrev S28672x256 : Shape := ⟨2, ![28672, 256]⟩
abbrev S1x2 : Shape := ⟨2, ![1, 2]⟩
abbrev S102400x2 : Shape := ⟨2, ![102400, 2]⟩
abbrev S4096x2 : Shape := ⟨2, ![4096, 2]⟩
abbrev S100000x2 : Shape := ⟨2, ![100000, 2]⟩

abbrev nBuf : Space → Nat
  | .hbm => 446
  | .vmem => 166
  | .smem => 0
  | _ => 0

abbrev hbmTy0_0 (i : Nat) : BufTy := match i % 128 with
  | 0 => ⟨S100000x256, .f32⟩
  | 1 => ⟨S69785, .i32⟩
  | 2 => ⟨S30215, .i32⟩
  | 3 => ⟨S279168, .i32⟩
  | 4 => ⟨S279168, .i32⟩
  | 5 => ⟨S69785, .f32⟩
  | 6 => ⟨S_, .f32⟩
  | 7 => ⟨S79460, .i32⟩
  | 8 => ⟨S20540, .i32⟩
  | 9 => ⟨S317997, .i32⟩
  | 10 => ⟨S317997, .i32⟩
  | 11 => ⟨S79460, .f32⟩
  | 12 => ⟨S_, .f32⟩
  | 13 => ⟨S74654, .i32⟩
  | 14 => ⟨S25346, .i32⟩
  | 15 => ⟨S298662, .i32⟩
  | 16 => ⟨S298662, .i32⟩
  | 17 => ⟨S74654, .f32⟩
  | 18 => ⟨S_, .f32⟩
  | 19 => ⟨S256x256, .f32⟩
  | 20 => ⟨S256, .f32⟩
  | 21 => ⟨S256x256, .f32⟩
  | 22 => ⟨S256, .f32⟩
  | 23 => ⟨S256x256, .f32⟩
  | 24 => ⟨S256, .f32⟩
  | 25 => ⟨S256x256, .f32⟩
  | 26 => ⟨S256, .f32⟩
  | 27 => ⟨S512x256, .f32⟩
  | 28 => ⟨S256, .f32⟩
  | 29 => ⟨S512x256, .f32⟩
  | 30 => ⟨S256, .f32⟩
  | 31 => ⟨S512x256, .f32⟩
  | 32 => ⟨S256, .f32⟩
  | 33 => ⟨S256x2, .f32⟩
  | 34 => ⟨S2, .f32⟩
  | 35 => ⟨S_, .i32⟩
  | 36 => ⟨S_, .f32⟩
  | 37 => ⟨S102400x256, .f32⟩
  | 38 => ⟨S1x256, .f32⟩
  | 39 => ⟨S102400x256, .f32⟩
  | 40 => ⟨S100000x256, .f32⟩
  | 41 => ⟨S_, .i32⟩
  | 42 => ⟨S_, .f32⟩
  | 43 => ⟨S102400x256, .f32⟩
  | 44 => ⟨S1x256, .f32⟩
  | 45 => ⟨S102400x256, .f32⟩
  | 46 => ⟨S100000x256, .f32⟩
  | 47 => ⟨S_, .i32⟩
  | 48 => ⟨S69785, .i32⟩
  | 49 => ⟨S69785, .i1⟩
  | 50 => ⟨S_, .i32⟩
  | 51 => ⟨S69785, .i32⟩
  | 52 => ⟨S69785, .i32⟩
  | 53 => ⟨S69785, .i32⟩
  | 54 => ⟨S69785x1, .i32⟩
  | 55 => ⟨S69785x256, .f32⟩
  | 56 => ⟨S_, .i32⟩
  | 57 => ⟨S30215, .i32⟩
  | 58 => ⟨S30215, .i1⟩
  | 59 => ⟨S_, .i32⟩
  | 60 => ⟨S30215, .i32⟩
  | 61 => ⟨S30215, .i32⟩
  | 62 => ⟨S30215, .i32⟩
  | 63 => ⟨S30215x1, .i32⟩
  | 64 => ⟨S30215x256, .f32⟩
  | 65 => ⟨S_, .f32⟩
  | 66 => ⟨S_, .f32⟩
  | 67 => ⟨S256x256, .f32⟩
  | 68 => ⟨S256x256, .f32⟩
  | 69 => ⟨S256x256, .f32⟩
  | 70 => ⟨S256x256, .f32⟩
  | 71 => ⟨S69785x1, .f32⟩
  | 72 => ⟨S69785x256, .f32⟩
  | 73 => ⟨S69785x256, .f32⟩
  | 74 => ⟨S_, .i32⟩
  | 75 => ⟨S279168, .i32⟩
  | 76 => ⟨S279168, .i1⟩
  | 77 => ⟨S_, .i32⟩
  | 78 => ⟨S279168, .i32⟩
  | 79 => ⟨S279168, .i32⟩
  | 80 => ⟨S279168, .i32⟩
  | 81 => ⟨S279168x1, .i32⟩
  | 82 => ⟨S279168x256, .f32⟩
  | 83 => ⟨S_, .f32⟩
  | 84 => ⟨S69785x256, .f32⟩
  | 85 => ⟨S279168x1, .i32⟩
  | 86 => ⟨S69785x256, .f32⟩
  | 87 => ⟨S69785x1, .f32⟩
  | 88 => ⟨S69785x256, .f32⟩
  | 89 => ⟨S69785x256, .f32⟩
  | 90 => ⟨S_, .f32⟩
  | 91 => ⟨S69785x256, .f32⟩
  | 92 => ⟨S69785x256, .f32⟩
  | 93 => ⟨S_, .f32⟩
  | 94 => ⟨S_, .f32⟩
  | 95 => ⟨S69785x256, .f32⟩
  | 96 => ⟨S69785x256, .f32⟩
  | 97 => ⟨S69785x256, .f32⟩
  | 98 => ⟨S_, .i32⟩
  | 99 => ⟨S_, .f32⟩
  | 100 => ⟨S73728x256, .f32⟩
  | 101 => ⟨S_, .i32⟩
  | 102 => ⟨S_, .f32⟩
  | 103 => ⟨S73728x256, .f32⟩
  | 104 => ⟨S1x256, .f32⟩
  | 105 => ⟨S73728x256, .f32⟩
  | 106 => ⟨S69785x256, .f32⟩
  | 107 => ⟨S69785x1, .f32⟩
  | 108 => ⟨S69785x256, .f32⟩
  | 109 => ⟨S69785x256, .f32⟩
  | 110 => ⟨S_, .i32⟩
  | 111 => ⟨S279168, .i32⟩
  | 112 => ⟨S279168, .i1⟩
  | 113 => ⟨S_, .i32⟩
  | 114 => ⟨S279168, .i32⟩
  | 115 => ⟨S279168, .i32⟩
  | 116 => ⟨S279168, .i32⟩
  | 117 => ⟨S279168x1, .i32⟩
  | 118 => ⟨S279168x256, .f32⟩
  | 119 => ⟨S_, .f32⟩
  | 120 => ⟨S69785x256, .f32⟩
  | 121 => ⟨S279168x1, .i32⟩
  | 122 => ⟨S69785x256, .f32⟩
  | 123 => ⟨S69785x1, .f32⟩
  | 124 => ⟨S69785x256, .f32⟩
  | 125 => ⟨S69785x256, .f32⟩
  | 126 => ⟨S_, .f32⟩
  | 127 => ⟨S69785x256, .f32⟩
  | _ => ⟨S100000x256, .f32⟩

abbrev hbmTy0_1 (i : Nat) : BufTy := match i % 128 with
  | 0 => ⟨S69785x256, .f32⟩
  | 1 => ⟨S_, .f32⟩
  | 2 => ⟨S_, .f32⟩
  | 3 => ⟨S69785x256, .f32⟩
  | 4 => ⟨S69785x256, .f32⟩
  | 5 => ⟨S69785x256, .f32⟩
  | 6 => ⟨S_, .i32⟩
  | 7 => ⟨S_, .f32⟩
  | 8 => ⟨S73728x256, .f32⟩
  | 9 => ⟨S_, .i32⟩
  | 10 => ⟨S_, .f32⟩
  | 11 => ⟨S73728x256, .f32⟩
  | 12 => ⟨S1x256, .f32⟩
  | 13 => ⟨S73728x256, .f32⟩
  | 14 => ⟨S69785x256, .f32⟩
  | 15 => ⟨S_, .i32⟩
  | 16 => ⟨S_, .f32⟩
  | 17 => ⟨S32768x256, .f32⟩
  | 18 => ⟨S1x256, .f32⟩
  | 19 => ⟨S32768x256, .f32⟩
  | 20 => ⟨S30215x256, .f32⟩
  | 21 => ⟨S_, .i32⟩
  | 22 => ⟨S_, .f32⟩
  | 23 => ⟨S32768x256, .f32⟩
  | 24 => ⟨S1x256, .f32⟩
  | 25 => ⟨S32768x256, .f32⟩
  | 26 => ⟨S30215x256, .f32⟩
  | 27 => ⟨S256x256, .f32⟩
  | 28 => ⟨S256x256, .f32⟩
  | 29 => ⟨S_, .i32⟩
  | 30 => ⟨S_, .f32⟩
  | 31 => ⟨S73728x256, .f32⟩
  | 32 => ⟨S_, .i32⟩
  | 33 => ⟨S_, .f32⟩
  | 34 => ⟨S73728x256, .f32⟩
  | 35 => ⟨S1x256, .f32⟩
  | 36 => ⟨S73728x256, .f32⟩
  | 37 => ⟨S69785x256, .f32⟩
  | 38 => ⟨S_, .i32⟩
  | 39 => ⟨S_, .f32⟩
  | 40 => ⟨S32768x256, .f32⟩
  | 41 => ⟨S_, .i32⟩
  | 42 => ⟨S_, .f32⟩
  | 43 => ⟨S32768x256, .f32⟩
  | 44 => ⟨S1x256, .f32⟩
  | 45 => ⟨S32768x256, .f32⟩
  | 46 => ⟨S30215x256, .f32⟩
  | 47 => ⟨S100000x256, .f32⟩
  | 48 => ⟨S_, .i32⟩
  | 49 => ⟨S79460, .i32⟩
  | 50 => ⟨S79460, .i1⟩
  | 51 => ⟨S_, .i32⟩
  | 52 => ⟨S79460, .i32⟩
  | 53 => ⟨S79460, .i32⟩
  | 54 => ⟨S79460, .i32⟩
  | 55 => ⟨S79460x1, .i32⟩
  | 56 => ⟨S79460x256, .f32⟩
  | 57 => ⟨S_, .i32⟩
  | 58 => ⟨S20540, .i32⟩
  | 59 => ⟨S20540, .i1⟩
  | 60 => ⟨S_, .i32⟩
  | 61 => ⟨S20540, .i32⟩
  | 62 => ⟨S20540, .i32⟩
  | 63 => ⟨S20540, .i32⟩
  | 64 => ⟨S20540x1, .i32⟩
  | 65 => ⟨S20540x256, .f32⟩
  | 66 => ⟨S_, .f32⟩
  | 67 => ⟨S_, .f32⟩
  | 68 => ⟨S256x256, .f32⟩
  | 69 => ⟨S256x256, .f32⟩
  | 70 => ⟨S256x256, .f32⟩
  | 71 => ⟨S256x256, .f32⟩
  | 72 => ⟨S79460x1, .f32⟩
  | 73 => ⟨S79460x256, .f32⟩
  | 74 => ⟨S79460x256, .f32⟩
  | 75 => ⟨S_, .i32⟩
  | 76 => ⟨S317997, .i32⟩
  | 77 => ⟨S317997, .i1⟩
  | 78 => ⟨S_, .i32⟩
  | 79 => ⟨S317997, .i32⟩
  | 80 => ⟨S317997, .i32⟩
  | 81 => ⟨S317997, .i32⟩
  | 82 => ⟨S317997x1, .i32⟩
  | 83 => ⟨S317997x256, .f32⟩
  | 84 => ⟨S_, .f32⟩
  | 85 => ⟨S79460x256, .f32⟩
  | 86 => ⟨S317997x1, .i32⟩
  | 87 => ⟨S79460x256, .f32⟩
  | 88 => ⟨S79460x1, .f32⟩
  | 89 => ⟨S79460x256, .f32⟩
  | 90 => ⟨S79460x256, .f32⟩
  | 91 => ⟨S_, .f32⟩
  | 92 => ⟨S79460x256, .f32⟩
  | 93 => ⟨S79460x256, .f32⟩
  | 94 => ⟨S_, .f32⟩
  | 95 => ⟨S_, .f32⟩
  | 96 => ⟨S79460x256, .f32⟩
  | 97 => ⟨S79460x256, .f32⟩
  | 98 => ⟨S79460x256, .f32⟩
  | 99 => ⟨S_, .i32⟩
  | 100 => ⟨S_, .f32⟩
  | 101 => ⟨S81920x256, .f32⟩
  | 102 => ⟨S_, .i32⟩
  | 103 => ⟨S_, .f32⟩
  | 104 => ⟨S81920x256, .f32⟩
  | 105 => ⟨S1x256, .f32⟩
  | 106 => ⟨S81920x256, .f32⟩
  | 107 => ⟨S79460x256, .f32⟩
  | 108 => ⟨S79460x1, .f32⟩
  | 109 => ⟨S79460x256, .f32⟩
  | 110 => ⟨S79460x256, .f32⟩
  | 111 => ⟨S_, .i32⟩
  | 112 => ⟨S317997, .i32⟩
  | 113 => ⟨S317997, .i1⟩
  | 114 => ⟨S_, .i32⟩
  | 115 => ⟨S317997, .i32⟩
  | 116 => ⟨S317997, .i32⟩
  | 117 => ⟨S317997, .i32⟩
  | 118 => ⟨S317997x1, .i32⟩
  | 119 => ⟨S317997x256, .f32⟩
  | 120 => ⟨S_, .f32⟩
  | 121 => ⟨S79460x256, .f32⟩
  | 122 => ⟨S317997x1, .i32⟩
  | 123 => ⟨S79460x256, .f32⟩
  | 124 => ⟨S79460x1, .f32⟩
  | 125 => ⟨S79460x256, .f32⟩
  | 126 => ⟨S79460x256, .f32⟩
  | 127 => ⟨S_, .f32⟩
  | _ => ⟨S100000x256, .f32⟩

abbrev hbmTy0_2 (i : Nat) : BufTy := match i % 128 with
  | 0 => ⟨S79460x256, .f32⟩
  | 1 => ⟨S79460x256, .f32⟩
  | 2 => ⟨S_, .f32⟩
  | 3 => ⟨S_, .f32⟩
  | 4 => ⟨S79460x256, .f32⟩
  | 5 => ⟨S79460x256, .f32⟩
  | 6 => ⟨S79460x256, .f32⟩
  | 7 => ⟨S_, .i32⟩
  | 8 => ⟨S_, .f32⟩
  | 9 => ⟨S81920x256, .f32⟩
  | 10 => ⟨S_, .i32⟩
  | 11 => ⟨S_, .f32⟩
  | 12 => ⟨S81920x256, .f32⟩
  | 13 => ⟨S1x256, .f32⟩
  | 14 => ⟨S81920x256, .f32⟩
  | 15 => ⟨S79460x256, .f32⟩
  | 16 => ⟨S_, .i32⟩
  | 17 => ⟨S_, .f32⟩
  | 18 => ⟨S24576x256, .f32⟩
  | 19 => ⟨S1x256, .f32⟩
  | 20 => ⟨S24576x256, .f32⟩
  | 21 => ⟨S20540x256, .f32⟩
  | 22 => ⟨S_, .i32⟩
  | 23 => ⟨S_, .f32⟩
  | 24 => ⟨S24576x256, .f32⟩
  | 25 => ⟨S1x256, .f32⟩
  | 26 => ⟨S24576x256, .f32⟩
  | 27 => ⟨S20540x256, .f32⟩
  | 28 => ⟨S256x256, .f32⟩
  | 29 => ⟨S256x256, .f32⟩
  | 30 => ⟨S_, .i32⟩
  | 31 => ⟨S_, .f32⟩
  | 32 => ⟨S81920x256, .f32⟩
  | 33 => ⟨S_, .i32⟩
  | 34 => ⟨S_, .f32⟩
  | 35 => ⟨S81920x256, .f32⟩
  | 36 => ⟨S1x256, .f32⟩
  | 37 => ⟨S81920x256, .f32⟩
  | 38 => ⟨S79460x256, .f32⟩
  | 39 => ⟨S_, .i32⟩
  | 40 => ⟨S_, .f32⟩
  | 41 => ⟨S24576x256, .f32⟩
  | 42 => ⟨S_, .i32⟩
  | 43 => ⟨S_, .f32⟩
  | 44 => ⟨S24576x256, .f32⟩
  | 45 => ⟨S1x256, .f32⟩
  | 46 => ⟨S24576x256, .f32⟩
  | 47 => ⟨S20540x256, .f32⟩
  | 48 => ⟨S100000x256, .f32⟩
  | 49 => ⟨S_, .i32⟩
  | 50 => ⟨S74654, .i32⟩
  | 51 => ⟨S74654, .i1⟩
  | 52 => ⟨S_, .i32⟩
  | 53 => ⟨S74654, .i32⟩
  | 54 => ⟨S74654, .i32⟩
  | 55 => ⟨S74654, .i32⟩
  | 56 => ⟨S74654x1, .i32⟩
  | 57 => ⟨S74654x256, .f32⟩
  | 58 => ⟨S_, .i32⟩
  | 59 => ⟨S25346, .i32⟩
  | 60 => ⟨S25346, .i1⟩
  | 61 => ⟨S_, .i32⟩
  | 62 => ⟨S25346, .i32⟩
  | 63 => ⟨S25346, .i32⟩
  | 64 => ⟨S25346, .i32⟩
  | 65 => ⟨S25346x1, .i32⟩
  | 66 => ⟨S25346x256, .f32⟩
  | 67 => ⟨S_, .f32⟩
  | 68 => ⟨S_, .f32⟩
  | 69 => ⟨S256x256, .f32⟩
  | 70 => ⟨S256x256, .f32⟩
  | 71 => ⟨S256x256, .f32⟩
  | 72 => ⟨S256x256, .f32⟩
  | 73 => ⟨S74654x1, .f32⟩
  | 74 => ⟨S74654x256, .f32⟩
  | 75 => ⟨S74654x256, .f32⟩
  | 76 => ⟨S_, .i32⟩
  | 77 => ⟨S298662, .i32⟩
  | 78 => ⟨S298662, .i1⟩
  | 79 => ⟨S_, .i32⟩
  | 80 => ⟨S298662, .i32⟩
  | 81 => ⟨S298662, .i32⟩
  | 82 => ⟨S298662, .i32⟩
  | 83 => ⟨S298662x1, .i32⟩
  | 84 => ⟨S298662x256, .f32⟩
  | 85 => ⟨S_, .f32⟩
  | 86 => ⟨S74654x256, .f32⟩
  | 87 => ⟨S298662x1, .i32⟩
  | 88 => ⟨S74654x256, .f32⟩
  | 89 => ⟨S74654x1, .f32⟩
  | 90 => ⟨S74654x256, .f32⟩
  | 91 => ⟨S74654x256, .f32⟩
  | 92 => ⟨S_, .f32⟩
  | 93 => ⟨S74654x256, .f32⟩
  | 94 => ⟨S74654x256, .f32⟩
  | 95 => ⟨S_, .f32⟩
  | 96 => ⟨S_, .f32⟩
  | 97 => ⟨S74654x256, .f32⟩
  | 98 => ⟨S74654x256, .f32⟩
  | 99 => ⟨S74654x256, .f32⟩
  | 100 => ⟨S_, .i32⟩
  | 101 => ⟨S_, .f32⟩
  | 102 => ⟨S77824x256, .f32⟩
  | 103 => ⟨S_, .i32⟩
  | 104 => ⟨S_, .f32⟩
  | 105 => ⟨S77824x256, .f32⟩
  | 106 => ⟨S1x256, .f32⟩
  | 107 => ⟨S77824x256, .f32⟩
  | 108 => ⟨S74654x256, .f32⟩
  | 109 => ⟨S74654x1, .f32⟩
  | 110 => ⟨S74654x256, .f32⟩
  | 111 => ⟨S74654x256, .f32⟩
  | 112 => ⟨S_, .i32⟩
  | 113 => ⟨S298662, .i32⟩
  | 114 => ⟨S298662, .i1⟩
  | 115 => ⟨S_, .i32⟩
  | 116 => ⟨S298662, .i32⟩
  | 117 => ⟨S298662, .i32⟩
  | 118 => ⟨S298662, .i32⟩
  | 119 => ⟨S298662x1, .i32⟩
  | 120 => ⟨S298662x256, .f32⟩
  | 121 => ⟨S_, .f32⟩
  | 122 => ⟨S74654x256, .f32⟩
  | 123 => ⟨S298662x1, .i32⟩
  | 124 => ⟨S74654x256, .f32⟩
  | 125 => ⟨S74654x1, .f32⟩
  | 126 => ⟨S74654x256, .f32⟩
  | 127 => ⟨S74654x256, .f32⟩
  | _ => ⟨S100000x256, .f32⟩

abbrev hbmTy0_3 (i : Nat) : BufTy := match i % 128 with
  | 0 => ⟨S_, .f32⟩
  | 1 => ⟨S74654x256, .f32⟩
  | 2 => ⟨S74654x256, .f32⟩
  | 3 => ⟨S_, .f32⟩
  | 4 => ⟨S_, .f32⟩
  | 5 => ⟨S74654x256, .f32⟩
  | 6 => ⟨S74654x256, .f32⟩
  | 7 => ⟨S74654x256, .f32⟩
  | 8 => ⟨S_, .i32⟩
  | 9 => ⟨S_, .f32⟩
  | 10 => ⟨S77824x256, .f32⟩
  | 11 => ⟨S_, .i32⟩
  | 12 => ⟨S_, .f32⟩
  | 13 => ⟨S77824x256, .f32⟩
  | 14 => ⟨S1x256, .f32⟩
  | 15 => ⟨S77824x256, .f32⟩
  | 16 => ⟨S74654x256, .f32⟩
  | 17 => ⟨S_, .i32⟩
  | 18 => ⟨S_, .f32⟩
  | 19 => ⟨S28672x256, .f32⟩
  | 20 => ⟨S1x256, .f32⟩
  | 21 => ⟨S28672x256, .f32⟩
  | 22 => ⟨S25346x256, .f32⟩
  | 23 => ⟨S_, .i32⟩
  | 24 => ⟨S_, .f32⟩
  | 25 => ⟨S28672x256, .f32⟩
  | 26 => ⟨S1x256, .f32⟩
  | 27 => ⟨S28672x256, .f32⟩
  | 28 => ⟨S25346x256, .f32⟩
  | 29 => ⟨S256x256, .f32⟩
  | 30 => ⟨S256x256, .f32⟩
  | 31 => ⟨S_, .i32⟩
  | 32 => ⟨S_, .f32⟩
  | 33 => ⟨S77824x256, .f32⟩
  | 34 => ⟨S_, .i32⟩
  | 35 => ⟨S_, .f32⟩
  | 36 => ⟨S77824x256, .f32⟩
  | 37 => ⟨S1x256, .f32⟩
  | 38 => ⟨S77824x256, .f32⟩
  | 39 => ⟨S74654x256, .f32⟩
  | 40 => ⟨S_, .i32⟩
  | 41 => ⟨S_, .f32⟩
  | 42 => ⟨S28672x256, .f32⟩
  | 43 => ⟨S_, .i32⟩
  | 44 => ⟨S_, .f32⟩
  | 45 => ⟨S28672x256, .f32⟩
  | 46 => ⟨S1x256, .f32⟩
  | 47 => ⟨S28672x256, .f32⟩
  | 48 => ⟨S25346x256, .f32⟩
  | 49 => ⟨S100000x256, .f32⟩
  | 50 => ⟨S_, .i32⟩
  | 51 => ⟨S_, .f32⟩
  | 52 => ⟨S102400x256, .f32⟩
  | 53 => ⟨S_, .i32⟩
  | 54 => ⟨S_, .f32⟩
  | 55 => ⟨S102400x256, .f32⟩
  | 56 => ⟨S_, .i32⟩
  | 57 => ⟨S_, .f32⟩
  | 58 => ⟨S102400x256, .f32⟩
  | 59 => ⟨S1x2, .f32⟩
  | 60 => ⟨S102400x2, .f32⟩
  | 61 => ⟨S100000x2, .f32⟩
  | _ => ⟨S100000x256, .f32⟩

abbrev hbmTy (i : Nat) : BufTy := match i / 128 with
  | 0 => hbmTy0_0 i
  | 1 => hbmTy0_1 i
  | 2 => hbmTy0_2 i
  | 3 => hbmTy0_3 i
  | _ => ⟨S100000x256, .f32⟩

abbrev vmemTy0_0 (i : Nat) : BufTy := match i % 128 with
  | 0 => ⟨S4096x256, .f32⟩
  | 1 => ⟨S4096x256, .f32⟩
  | 2 => ⟨S256x256, .f32⟩
  | 3 => ⟨S1x256, .f32⟩
  | 4 => ⟨S4096x256, .f32⟩
  | 5 => ⟨S4096x256, .f32⟩
  | 6 => ⟨S4096x256, .f32⟩
  | 7 => ⟨S4096x256, .f32⟩
  | 8 => ⟨S256x256, .f32⟩
  | 9 => ⟨S1x256, .f32⟩
  | 10 => ⟨S4096x256, .f32⟩
  | 11 => ⟨S4096x256, .f32⟩
  | 12 => ⟨S4096x256, .f32⟩
  | 13 => ⟨S4096x256, .f32⟩
  | 14 => ⟨S4096x256, .f32⟩
  | 15 => ⟨S4096x256, .f32⟩
  | 16 => ⟨S256x256, .f32⟩
  | 17 => ⟨S256x256, .f32⟩
  | 18 => ⟨S1x256, .f32⟩
  | 19 => ⟨S4096x256, .f32⟩
  | 20 => ⟨S4096x256, .f32⟩
  | 21 => ⟨S4096x256, .f32⟩
  | 22 => ⟨S4096x256, .f32⟩
  | 23 => ⟨S4096x256, .f32⟩
  | 24 => ⟨S4096x256, .f32⟩
  | 25 => ⟨S256x256, .f32⟩
  | 26 => ⟨S256x256, .f32⟩
  | 27 => ⟨S1x256, .f32⟩
  | 28 => ⟨S4096x256, .f32⟩
  | 29 => ⟨S4096x256, .f32⟩
  | 30 => ⟨S4096x256, .f32⟩
  | 31 => ⟨S4096x256, .f32⟩
  | 32 => ⟨S256x256, .f32⟩
  | 33 => ⟨S1x256, .f32⟩
  | 34 => ⟨S4096x256, .f32⟩
  | 35 => ⟨S4096x256, .f32⟩
  | 36 => ⟨S4096x256, .f32⟩
  | 37 => ⟨S4096x256, .f32⟩
  | 38 => ⟨S256x256, .f32⟩
  | 39 => ⟨S1x256, .f32⟩
  | 40 => ⟨S4096x256, .f32⟩
  | 41 => ⟨S4096x256, .f32⟩
  | 42 => ⟨S4096x256, .f32⟩
  | 43 => ⟨S4096x256, .f32⟩
  | 44 => ⟨S4096x256, .f32⟩
  | 45 => ⟨S4096x256, .f32⟩
  | 46 => ⟨S256x256, .f32⟩
  | 47 => ⟨S256x256, .f32⟩
  | 48 => ⟨S1x256, .f32⟩
  | 49 => ⟨S4096x256, .f32⟩
  | 50 => ⟨S4096x256, .f32⟩
  | 51 => ⟨S4096x256, .f32⟩
  | 52 => ⟨S4096x256, .f32⟩
  | 53 => ⟨S4096x256, .f32⟩
  | 54 => ⟨S4096x256, .f32⟩
  | 55 => ⟨S256x256, .f32⟩
  | 56 => ⟨S256x256, .f32⟩
  | 57 => ⟨S1x256, .f32⟩
  | 58 => ⟨S4096x256, .f32⟩
  | 59 => ⟨S4096x256, .f32⟩
  | 60 => ⟨S4096x256, .f32⟩
  | 61 => ⟨S4096x256, .f32⟩
  | 62 => ⟨S4096x256, .f32⟩
  | 63 => ⟨S4096x256, .f32⟩
  | 64 => ⟨S256x256, .f32⟩
  | 65 => ⟨S256x256, .f32⟩
  | 66 => ⟨S1x256, .f32⟩
  | 67 => ⟨S4096x256, .f32⟩
  | 68 => ⟨S4096x256, .f32⟩
  | 69 => ⟨S4096x256, .f32⟩
  | 70 => ⟨S4096x256, .f32⟩
  | 71 => ⟨S4096x256, .f32⟩
  | 72 => ⟨S4096x256, .f32⟩
  | 73 => ⟨S256x256, .f32⟩
  | 74 => ⟨S256x256, .f32⟩
  | 75 => ⟨S1x256, .f32⟩
  | 76 => ⟨S4096x256, .f32⟩
  | 77 => ⟨S4096x256, .f32⟩
  | 78 => ⟨S4096x256, .f32⟩
  | 79 => ⟨S4096x256, .f32⟩
  | 80 => ⟨S256x256, .f32⟩
  | 81 => ⟨S1x256, .f32⟩
  | 82 => ⟨S4096x256, .f32⟩
  | 83 => ⟨S4096x256, .f32⟩
  | 84 => ⟨S4096x256, .f32⟩
  | 85 => ⟨S4096x256, .f32⟩
  | 86 => ⟨S256x256, .f32⟩
  | 87 => ⟨S1x256, .f32⟩
  | 88 => ⟨S4096x256, .f32⟩
  | 89 => ⟨S4096x256, .f32⟩
  | 90 => ⟨S4096x256, .f32⟩
  | 91 => ⟨S4096x256, .f32⟩
  | 92 => ⟨S4096x256, .f32⟩
  | 93 => ⟨S4096x256, .f32⟩
  | 94 => ⟨S256x256, .f32⟩
  | 95 => ⟨S256x256, .f32⟩
  | 96 => ⟨S1x256, .f32⟩
  | 97 => ⟨S4096x256, .f32⟩
  | 98 => ⟨S4096x256, .f32⟩
  | 99 => ⟨S4096x256, .f32⟩
  | 100 => ⟨S4096x256, .f32⟩
  | 101 => ⟨S4096x256, .f32⟩
  | 102 => ⟨S4096x256, .f32⟩
  | 103 => ⟨S256x256, .f32⟩
  | 104 => ⟨S256x256, .f32⟩
  | 105 => ⟨S1x256, .f32⟩
  | 106 => ⟨S4096x256, .f32⟩
  | 107 => ⟨S4096x256, .f32⟩
  | 108 => ⟨S4096x256, .f32⟩
  | 109 => ⟨S4096x256, .f32⟩
  | 110 => ⟨S4096x256, .f32⟩
  | 111 => ⟨S4096x256, .f32⟩
  | 112 => ⟨S256x256, .f32⟩
  | 113 => ⟨S256x256, .f32⟩
  | 114 => ⟨S1x256, .f32⟩
  | 115 => ⟨S4096x256, .f32⟩
  | 116 => ⟨S4096x256, .f32⟩
  | 117 => ⟨S4096x256, .f32⟩
  | 118 => ⟨S4096x256, .f32⟩
  | 119 => ⟨S4096x256, .f32⟩
  | 120 => ⟨S4096x256, .f32⟩
  | 121 => ⟨S256x256, .f32⟩
  | 122 => ⟨S256x256, .f32⟩
  | 123 => ⟨S1x256, .f32⟩
  | 124 => ⟨S4096x256, .f32⟩
  | 125 => ⟨S4096x256, .f32⟩
  | 126 => ⟨S4096x256, .f32⟩
  | 127 => ⟨S4096x256, .f32⟩
  | _ => ⟨S100000x256, .f32⟩

abbrev vmemTy0_1 (i : Nat) : BufTy := match i % 128 with
  | 0 => ⟨S256x256, .f32⟩
  | 1 => ⟨S1x256, .f32⟩
  | 2 => ⟨S4096x256, .f32⟩
  | 3 => ⟨S4096x256, .f32⟩
  | 4 => ⟨S4096x256, .f32⟩
  | 5 => ⟨S4096x256, .f32⟩
  | 6 => ⟨S256x256, .f32⟩
  | 7 => ⟨S1x256, .f32⟩
  | 8 => ⟨S4096x256, .f32⟩
  | 9 => ⟨S4096x256, .f32⟩
  | 10 => ⟨S4096x256, .f32⟩
  | 11 => ⟨S4096x256, .f32⟩
  | 12 => ⟨S4096x256, .f32⟩
  | 13 => ⟨S4096x256, .f32⟩
  | 14 => ⟨S256x256, .f32⟩
  | 15 => ⟨S256x256, .f32⟩
  | 16 => ⟨S1x256, .f32⟩
  | 17 => ⟨S4096x256, .f32⟩
  | 18 => ⟨S4096x256, .f32⟩
  | 19 => ⟨S4096x256, .f32⟩
  | 20 => ⟨S4096x256, .f32⟩
  | 21 => ⟨S4096x256, .f32⟩
  | 22 => ⟨S4096x256, .f32⟩
  | 23 => ⟨S256x256, .f32⟩
  | 24 => ⟨S256x256, .f32⟩
  | 25 => ⟨S1x256, .f32⟩
  | 26 => ⟨S4096x256, .f32⟩
  | 27 => ⟨S4096x256, .f32⟩
  | 28 => ⟨S4096x256, .f32⟩
  | 29 => ⟨S4096x256, .f32⟩
  | 30 => ⟨S4096x256, .f32⟩
  | 31 => ⟨S4096x256, .f32⟩
  | 32 => ⟨S4096x256, .f32⟩
  | 33 => ⟨S4096x256, .f32⟩
  | 34 => ⟨S256x2, .f32⟩
  | 35 => ⟨S1x2, .f32⟩
  | 36 => ⟨S4096x2, .f32⟩
  | 37 => ⟨S4096x2, .f32⟩
  | _ => ⟨S100000x256, .f32⟩

abbrev vmemTy (i : Nat) : BufTy := match i / 128 with
  | 0 => vmemTy0_0 i
  | 1 => vmemTy0_1 i
  | _ => ⟨S100000x256, .f32⟩

abbrev bufTy : (tb : Table) → Fin (tcTables nBuf tb) → BufTy
  | .hbm, ⟨i, _⟩ => hbmTy i
  | .local _ .vmem, ⟨i, _⟩ => vmemTy i
  | _, _ => ⟨S100000x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 166 → Bool
  | ⟨i, _⟩ => dmaSemScopedAt i

abbrev sig : RefSig :=
  ofTc nBuf bufTy 0 166 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_c : Ref sig .tc := ⟨.hbm, 35, rfl⟩
abbrev main_call0_v0 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_c_0 : Ref sig .tc := ⟨.hbm, 41, rfl⟩
abbrev main_call1_v0 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_c_1 : Ref sig .tc := ⟨.hbm, 47, rfl⟩
abbrev main_v8 : Ref sig .tc := ⟨.hbm, 48, rfl⟩
abbrev main_v9 : Ref sig .tc := ⟨.hbm, 49, rfl⟩
abbrev main_c_2 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_c_3 : Ref sig .tc := ⟨.hbm, 56, rfl⟩
abbrev main_v15 : Ref sig .tc := ⟨.hbm, 57, rfl⟩
abbrev main_v16 : Ref sig .tc := ⟨.hbm, 58, rfl⟩
abbrev main_c_4 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_cst : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_c_5 : Ref sig .tc := ⟨.hbm, 74, rfl⟩
abbrev main_v30 : Ref sig .tc := ⟨.hbm, 75, rfl⟩
abbrev main_v31 : Ref sig .tc := ⟨.hbm, 76, rfl⟩
abbrev main_c_6 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_cst_7 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_cst_8 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_c_9 : Ref sig .tc := ⟨.hbm, 98, rfl⟩
abbrev main_call2_v0 : Ref sig .tc := ⟨.hbm, 99, rfl⟩
abbrev main_v50 : Ref sig .tc := ⟨.hbm, 100, rfl⟩
abbrev main_c_10 : Ref sig .tc := ⟨.hbm, 101, rfl⟩
abbrev main_call3_v0 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_c_11 : Ref sig .tc := ⟨.hbm, 110, rfl⟩
abbrev main_v58 : Ref sig .tc := ⟨.hbm, 111, rfl⟩
abbrev main_v59 : Ref sig .tc := ⟨.hbm, 112, rfl⟩
abbrev main_c_12 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_cst_13 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_cst_14 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_c_15 : Ref sig .tc := ⟨.hbm, 134, rfl⟩
abbrev main_call4_v0 : Ref sig .tc := ⟨.hbm, 135, rfl⟩
abbrev main_v78 : Ref sig .tc := ⟨.hbm, 136, rfl⟩
abbrev main_c_16 : Ref sig .tc := ⟨.hbm, 137, rfl⟩
abbrev main_call5_v0 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_c_17 : Ref sig .tc := ⟨.hbm, 143, rfl⟩
abbrev main_call6_v0 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_c_18 : Ref sig .tc := ⟨.hbm, 149, rfl⟩
abbrev main_call7_v0 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_c_19 : Ref sig .tc := ⟨.hbm, 157, rfl⟩
abbrev main_call8_v0 : Ref sig .tc := ⟨.hbm, 158, rfl⟩
abbrev main_v93 : Ref sig .tc := ⟨.hbm, 159, rfl⟩
abbrev main_c_20 : Ref sig .tc := ⟨.hbm, 160, rfl⟩
abbrev main_call9_v0 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_c_21 : Ref sig .tc := ⟨.hbm, 166, rfl⟩
abbrev main_call10_v0 : Ref sig .tc := ⟨.hbm, 167, rfl⟩
abbrev main_v98 : Ref sig .tc := ⟨.hbm, 168, rfl⟩
abbrev main_c_22 : Ref sig .tc := ⟨.hbm, 169, rfl⟩
abbrev main_call11_v0 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_c_23 : Ref sig .tc := ⟨.hbm, 176, rfl⟩
abbrev main_v104 : Ref sig .tc := ⟨.hbm, 177, rfl⟩
abbrev main_v105 : Ref sig .tc := ⟨.hbm, 178, rfl⟩
abbrev main_c_24 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_c_25 : Ref sig .tc := ⟨.hbm, 185, rfl⟩
abbrev main_v111 : Ref sig .tc := ⟨.hbm, 186, rfl⟩
abbrev main_v112 : Ref sig .tc := ⟨.hbm, 187, rfl⟩
abbrev main_c_26 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_27 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_c_28 : Ref sig .tc := ⟨.hbm, 203, rfl⟩
abbrev main_v126 : Ref sig .tc := ⟨.hbm, 204, rfl⟩
abbrev main_v127 : Ref sig .tc := ⟨.hbm, 205, rfl⟩
abbrev main_c_29 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_cst_30 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_cst_31 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_c_32 : Ref sig .tc := ⟨.hbm, 227, rfl⟩
abbrev main_call12_v0 : Ref sig .tc := ⟨.hbm, 228, rfl⟩
abbrev main_v146 : Ref sig .tc := ⟨.hbm, 229, rfl⟩
abbrev main_c_33 : Ref sig .tc := ⟨.hbm, 230, rfl⟩
abbrev main_call13_v0 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_c_34 : Ref sig .tc := ⟨.hbm, 239, rfl⟩
abbrev main_v154 : Ref sig .tc := ⟨.hbm, 240, rfl⟩
abbrev main_v155 : Ref sig .tc := ⟨.hbm, 241, rfl⟩
abbrev main_c_35 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_cst_36 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_cst_37 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩
abbrev main_v173 : Ref sig .tc := ⟨.hbm, 262, rfl⟩
abbrev main_c_38 : Ref sig .tc := ⟨.hbm, 263, rfl⟩
abbrev main_call14_v0 : Ref sig .tc := ⟨.hbm, 264, rfl⟩
abbrev main_v174 : Ref sig .tc := ⟨.hbm, 265, rfl⟩
abbrev main_c_39 : Ref sig .tc := ⟨.hbm, 266, rfl⟩
abbrev main_call15_v0 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_c_40 : Ref sig .tc := ⟨.hbm, 272, rfl⟩
abbrev main_call16_v0 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_c_41 : Ref sig .tc := ⟨.hbm, 278, rfl⟩
abbrev main_call17_v0 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_c_42 : Ref sig .tc := ⟨.hbm, 286, rfl⟩
abbrev main_call18_v0 : Ref sig .tc := ⟨.hbm, 287, rfl⟩
abbrev main_v189 : Ref sig .tc := ⟨.hbm, 288, rfl⟩
abbrev main_c_43 : Ref sig .tc := ⟨.hbm, 289, rfl⟩
abbrev main_call19_v0 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_c_44 : Ref sig .tc := ⟨.hbm, 295, rfl⟩
abbrev main_call20_v0 : Ref sig .tc := ⟨.hbm, 296, rfl⟩
abbrev main_v194 : Ref sig .tc := ⟨.hbm, 297, rfl⟩
abbrev main_c_45 : Ref sig .tc := ⟨.hbm, 298, rfl⟩
abbrev main_call21_v0 : Ref sig .tc := ⟨.hbm, 299, rfl⟩
abbrev main_v195 : Ref sig .tc := ⟨.hbm, 300, rfl⟩
abbrev main_v196 : Ref sig .tc := ⟨.hbm, 301, rfl⟩
abbrev main_v197 : Ref sig .tc := ⟨.hbm, 302, rfl⟩
abbrev main_v198 : Ref sig .tc := ⟨.hbm, 303, rfl⟩
abbrev main_v199 : Ref sig .tc := ⟨.hbm, 304, rfl⟩
abbrev main_c_46 : Ref sig .tc := ⟨.hbm, 305, rfl⟩
abbrev main_v200 : Ref sig .tc := ⟨.hbm, 306, rfl⟩
abbrev main_v201 : Ref sig .tc := ⟨.hbm, 307, rfl⟩
abbrev main_c_47 : Ref sig .tc := ⟨.hbm, 308, rfl⟩
abbrev main_v202 : Ref sig .tc := ⟨.hbm, 309, rfl⟩
abbrev main_v203 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_c_48 : Ref sig .tc := ⟨.hbm, 314, rfl⟩
abbrev main_v207 : Ref sig .tc := ⟨.hbm, 315, rfl⟩
abbrev main_v208 : Ref sig .tc := ⟨.hbm, 316, rfl⟩
abbrev main_c_49 : Ref sig .tc := ⟨.hbm, 317, rfl⟩
abbrev main_v209 : Ref sig .tc := ⟨.hbm, 318, rfl⟩
abbrev main_v210 : Ref sig .tc := ⟨.hbm, 319, rfl⟩
abbrev main_v211 : Ref sig .tc := ⟨.hbm, 320, rfl⟩
abbrev main_v212 : Ref sig .tc := ⟨.hbm, 321, rfl⟩
abbrev main_v213 : Ref sig .tc := ⟨.hbm, 322, rfl⟩
abbrev main_cst_50 : Ref sig .tc := ⟨.hbm, 323, rfl⟩
abbrev main_v214 : Ref sig .tc := ⟨.hbm, 324, rfl⟩
abbrev main_v215 : Ref sig .tc := ⟨.hbm, 325, rfl⟩
abbrev main_v216 : Ref sig .tc := ⟨.hbm, 326, rfl⟩
abbrev main_v217 : Ref sig .tc := ⟨.hbm, 327, rfl⟩
abbrev main_v218 : Ref sig .tc := ⟨.hbm, 328, rfl⟩
abbrev main_v219 : Ref sig .tc := ⟨.hbm, 329, rfl⟩
abbrev main_v220 : Ref sig .tc := ⟨.hbm, 330, rfl⟩
abbrev main_v221 : Ref sig .tc := ⟨.hbm, 331, rfl⟩
abbrev main_c_51 : Ref sig .tc := ⟨.hbm, 332, rfl⟩
abbrev main_v222 : Ref sig .tc := ⟨.hbm, 333, rfl⟩
abbrev main_v223 : Ref sig .tc := ⟨.hbm, 334, rfl⟩
abbrev main_c_52 : Ref sig .tc := ⟨.hbm, 335, rfl⟩
abbrev main_v224 : Ref sig .tc := ⟨.hbm, 336, rfl⟩
abbrev main_v225 : Ref sig .tc := ⟨.hbm, 337, rfl⟩
abbrev main_v226 : Ref sig .tc := ⟨.hbm, 338, rfl⟩
abbrev main_v227 : Ref sig .tc := ⟨.hbm, 339, rfl⟩
abbrev main_v228 : Ref sig .tc := ⟨.hbm, 340, rfl⟩
abbrev main_cst_53 : Ref sig .tc := ⟨.hbm, 341, rfl⟩
abbrev main_v229 : Ref sig .tc := ⟨.hbm, 342, rfl⟩
abbrev main_v230 : Ref sig .tc := ⟨.hbm, 343, rfl⟩
abbrev main_v231 : Ref sig .tc := ⟨.hbm, 344, rfl⟩
abbrev main_v232 : Ref sig .tc := ⟨.hbm, 345, rfl⟩
abbrev main_v233 : Ref sig .tc := ⟨.hbm, 346, rfl⟩
abbrev main_v234 : Ref sig .tc := ⟨.hbm, 347, rfl⟩
abbrev main_v235 : Ref sig .tc := ⟨.hbm, 348, rfl⟩
abbrev main_v236 : Ref sig .tc := ⟨.hbm, 349, rfl⟩
abbrev main_v237 : Ref sig .tc := ⟨.hbm, 350, rfl⟩
abbrev main_cst_54 : Ref sig .tc := ⟨.hbm, 351, rfl⟩
abbrev main_v238 : Ref sig .tc := ⟨.hbm, 352, rfl⟩
abbrev main_v239 : Ref sig .tc := ⟨.hbm, 353, rfl⟩
abbrev main_v240 : Ref sig .tc := ⟨.hbm, 354, rfl⟩
abbrev main_v241 : Ref sig .tc := ⟨.hbm, 355, rfl⟩
abbrev main_c_55 : Ref sig .tc := ⟨.hbm, 356, rfl⟩
abbrev main_call22_v0 : Ref sig .tc := ⟨.hbm, 357, rfl⟩
abbrev main_v242 : Ref sig .tc := ⟨.hbm, 358, rfl⟩
abbrev main_c_56 : Ref sig .tc := ⟨.hbm, 359, rfl⟩
abbrev main_call23_v0 : Ref sig .tc := ⟨.hbm, 360, rfl⟩
abbrev main_v243 : Ref sig .tc := ⟨.hbm, 361, rfl⟩
abbrev main_v244 : Ref sig .tc := ⟨.hbm, 362, rfl⟩
abbrev main_v245 : Ref sig .tc := ⟨.hbm, 363, rfl⟩
abbrev main_v246 : Ref sig .tc := ⟨.hbm, 364, rfl⟩
abbrev main_v247 : Ref sig .tc := ⟨.hbm, 365, rfl⟩
abbrev main_v248 : Ref sig .tc := ⟨.hbm, 366, rfl⟩
abbrev main_v249 : Ref sig .tc := ⟨.hbm, 367, rfl⟩
abbrev main_c_57 : Ref sig .tc := ⟨.hbm, 368, rfl⟩
abbrev main_v250 : Ref sig .tc := ⟨.hbm, 369, rfl⟩
abbrev main_v251 : Ref sig .tc := ⟨.hbm, 370, rfl⟩
abbrev main_c_58 : Ref sig .tc := ⟨.hbm, 371, rfl⟩
abbrev main_v252 : Ref sig .tc := ⟨.hbm, 372, rfl⟩
abbrev main_v253 : Ref sig .tc := ⟨.hbm, 373, rfl⟩
abbrev main_v254 : Ref sig .tc := ⟨.hbm, 374, rfl⟩
abbrev main_v255 : Ref sig .tc := ⟨.hbm, 375, rfl⟩
abbrev main_v256 : Ref sig .tc := ⟨.hbm, 376, rfl⟩
abbrev main_cst_59 : Ref sig .tc := ⟨.hbm, 377, rfl⟩
abbrev main_v257 : Ref sig .tc := ⟨.hbm, 378, rfl⟩
abbrev main_v258 : Ref sig .tc := ⟨.hbm, 379, rfl⟩
abbrev main_v259 : Ref sig .tc := ⟨.hbm, 380, rfl⟩
abbrev main_v260 : Ref sig .tc := ⟨.hbm, 381, rfl⟩
abbrev main_v261 : Ref sig .tc := ⟨.hbm, 382, rfl⟩
abbrev main_v262 : Ref sig .tc := ⟨.hbm, 383, rfl⟩
abbrev main_v263 : Ref sig .tc := ⟨.hbm, 384, rfl⟩
abbrev main_v264 : Ref sig .tc := ⟨.hbm, 385, rfl⟩
abbrev main_v265 : Ref sig .tc := ⟨.hbm, 386, rfl⟩
abbrev main_cst_60 : Ref sig .tc := ⟨.hbm, 387, rfl⟩
abbrev main_v266 : Ref sig .tc := ⟨.hbm, 388, rfl⟩
abbrev main_v267 : Ref sig .tc := ⟨.hbm, 389, rfl⟩
abbrev main_v268 : Ref sig .tc := ⟨.hbm, 390, rfl⟩
abbrev main_v269 : Ref sig .tc := ⟨.hbm, 391, rfl⟩
abbrev main_c_61 : Ref sig .tc := ⟨.hbm, 392, rfl⟩
abbrev main_call24_v0 : Ref sig .tc := ⟨.hbm, 393, rfl⟩
abbrev main_v270 : Ref sig .tc := ⟨.hbm, 394, rfl⟩
abbrev main_c_62 : Ref sig .tc := ⟨.hbm, 395, rfl⟩
abbrev main_call25_v0 : Ref sig .tc := ⟨.hbm, 396, rfl⟩
abbrev main_v271 : Ref sig .tc := ⟨.hbm, 397, rfl⟩
abbrev main_v272 : Ref sig .tc := ⟨.hbm, 398, rfl⟩
abbrev main_v273 : Ref sig .tc := ⟨.hbm, 399, rfl⟩
abbrev main_v274 : Ref sig .tc := ⟨.hbm, 400, rfl⟩
abbrev main_c_63 : Ref sig .tc := ⟨.hbm, 401, rfl⟩
abbrev main_call26_v0 : Ref sig .tc := ⟨.hbm, 402, rfl⟩
abbrev main_v275 : Ref sig .tc := ⟨.hbm, 403, rfl⟩
abbrev main_v276 : Ref sig .tc := ⟨.hbm, 404, rfl⟩
abbrev main_v277 : Ref sig .tc := ⟨.hbm, 405, rfl⟩
abbrev main_v278 : Ref sig .tc := ⟨.hbm, 406, rfl⟩
abbrev main_c_64 : Ref sig .tc := ⟨.hbm, 407, rfl⟩
abbrev main_call27_v0 : Ref sig .tc := ⟨.hbm, 408, rfl⟩
abbrev main_v279 : Ref sig .tc := ⟨.hbm, 409, rfl⟩
abbrev main_v280 : Ref sig .tc := ⟨.hbm, 410, rfl⟩
abbrev main_v281 : Ref sig .tc := ⟨.hbm, 411, rfl⟩
abbrev main_v282 : Ref sig .tc := ⟨.hbm, 412, rfl⟩
abbrev main_v283 : Ref sig .tc := ⟨.hbm, 413, rfl⟩
abbrev main_v284 : Ref sig .tc := ⟨.hbm, 414, rfl⟩
abbrev main_c_65 : Ref sig .tc := ⟨.hbm, 415, rfl⟩
abbrev main_call28_v0 : Ref sig .tc := ⟨.hbm, 416, rfl⟩
abbrev main_v285 : Ref sig .tc := ⟨.hbm, 417, rfl⟩
abbrev main_c_66 : Ref sig .tc := ⟨.hbm, 418, rfl⟩
abbrev main_call29_v0 : Ref sig .tc := ⟨.hbm, 419, rfl⟩
abbrev main_v286 : Ref sig .tc := ⟨.hbm, 420, rfl⟩
abbrev main_v287 : Ref sig .tc := ⟨.hbm, 421, rfl⟩
abbrev main_v288 : Ref sig .tc := ⟨.hbm, 422, rfl⟩
abbrev main_v289 : Ref sig .tc := ⟨.hbm, 423, rfl⟩
abbrev main_c_67 : Ref sig .tc := ⟨.hbm, 424, rfl⟩
abbrev main_call30_v0 : Ref sig .tc := ⟨.hbm, 425, rfl⟩
abbrev main_v290 : Ref sig .tc := ⟨.hbm, 426, rfl⟩
abbrev main_c_68 : Ref sig .tc := ⟨.hbm, 427, rfl⟩
abbrev main_call31_v0 : Ref sig .tc := ⟨.hbm, 428, rfl⟩
abbrev main_v291 : Ref sig .tc := ⟨.hbm, 429, rfl⟩
abbrev main_v292 : Ref sig .tc := ⟨.hbm, 430, rfl⟩
abbrev main_v293 : Ref sig .tc := ⟨.hbm, 431, rfl⟩
abbrev main_v294 : Ref sig .tc := ⟨.hbm, 432, rfl⟩
abbrev main_v295 : Ref sig .tc := ⟨.hbm, 433, rfl⟩
abbrev main_c_69 : Ref sig .tc := ⟨.hbm, 434, rfl⟩
abbrev main_call32_v0 : Ref sig .tc := ⟨.hbm, 435, rfl⟩
abbrev main_v296 : Ref sig .tc := ⟨.hbm, 436, rfl⟩
abbrev main_c_70 : Ref sig .tc := ⟨.hbm, 437, rfl⟩
abbrev main_call33_v0 : Ref sig .tc := ⟨.hbm, 438, rfl⟩
abbrev main_v297 : Ref sig .tc := ⟨.hbm, 439, rfl⟩
abbrev main_c_71 : Ref sig .tc := ⟨.hbm, 440, rfl⟩
abbrev main_call34_v0 : Ref sig .tc := ⟨.hbm, 441, rfl⟩
abbrev main_v298 : Ref sig .tc := ⟨.hbm, 442, rfl⟩
abbrev main_v299 : Ref sig .tc := ⟨.hbm, 443, rfl⟩
abbrev main_v300 : Ref sig .tc := ⟨.hbm, 444, rfl⟩
abbrev main_v301 : Ref sig .tc := ⟨.hbm, 445, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg5_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg4_0 : Ref sig .tc := ⟨.vmem, 57, rfl⟩
abbrev cc7_stg5_0 : Ref sig .tc := ⟨.vmem, 58, rfl⟩
abbrev cc7_stg5_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg1_1 : Ref sig .tc := ⟨.vmem, 63, rfl⟩
abbrev cc8_stg2_0 : Ref sig .tc := ⟨.vmem, 64, rfl⟩
abbrev cc8_stg3_0 : Ref sig .tc := ⟨.vmem, 65, rfl⟩
abbrev cc8_stg4_0 : Ref sig .tc := ⟨.vmem, 66, rfl⟩
abbrev cc8_stg5_0 : Ref sig .tc := ⟨.vmem, 67, rfl⟩
abbrev cc8_stg5_1 : Ref sig .tc := ⟨.vmem, 68, rfl⟩
abbrev cc9_stg0_0 : Ref sig .tc := ⟨.vmem, 69, rfl⟩
abbrev cc9_stg0_1 : Ref sig .tc := ⟨.vmem, 70, rfl⟩
abbrev cc9_stg1_0 : Ref sig .tc := ⟨.vmem, 71, rfl⟩
abbrev cc9_stg1_1 : Ref sig .tc := ⟨.vmem, 72, rfl⟩
abbrev cc9_stg2_0 : Ref sig .tc := ⟨.vmem, 73, rfl⟩
abbrev cc9_stg3_0 : Ref sig .tc := ⟨.vmem, 74, rfl⟩
abbrev cc9_stg4_0 : Ref sig .tc := ⟨.vmem, 75, rfl⟩
abbrev cc9_stg5_0 : Ref sig .tc := ⟨.vmem, 76, rfl⟩
abbrev cc9_stg5_1 : Ref sig .tc := ⟨.vmem, 77, rfl⟩
abbrev cc10_stg0_0 : Ref sig .tc := ⟨.vmem, 78, rfl⟩
abbrev cc10_stg0_1 : Ref sig .tc := ⟨.vmem, 79, rfl⟩
abbrev cc10_stg1_0 : Ref sig .tc := ⟨.vmem, 80, rfl⟩
abbrev cc10_stg2_0 : Ref sig .tc := ⟨.vmem, 81, rfl⟩
abbrev cc10_stg3_0 : Ref sig .tc := ⟨.vmem, 82, rfl⟩
abbrev cc10_stg3_1 : Ref sig .tc := ⟨.vmem, 83, rfl⟩
abbrev cc11_stg0_0 : Ref sig .tc := ⟨.vmem, 84, rfl⟩
abbrev cc11_stg0_1 : Ref sig .tc := ⟨.vmem, 85, rfl⟩
abbrev cc11_stg1_0 : Ref sig .tc := ⟨.vmem, 86, rfl⟩
abbrev cc11_stg2_0 : Ref sig .tc := ⟨.vmem, 87, rfl⟩
abbrev cc11_stg3_0 : Ref sig .tc := ⟨.vmem, 88, rfl⟩
abbrev cc11_stg3_1 : Ref sig .tc := ⟨.vmem, 89, rfl⟩
abbrev cc12_stg0_0 : Ref sig .tc := ⟨.vmem, 90, rfl⟩
abbrev cc12_stg0_1 : Ref sig .tc := ⟨.vmem, 91, rfl⟩
abbrev cc12_stg1_0 : Ref sig .tc := ⟨.vmem, 92, rfl⟩
abbrev cc12_stg1_1 : Ref sig .tc := ⟨.vmem, 93, rfl⟩
abbrev cc12_stg2_0 : Ref sig .tc := ⟨.vmem, 94, rfl⟩
abbrev cc12_stg3_0 : Ref sig .tc := ⟨.vmem, 95, rfl⟩
abbrev cc12_stg4_0 : Ref sig .tc := ⟨.vmem, 96, rfl⟩
abbrev cc12_stg5_0 : Ref sig .tc := ⟨.vmem, 97, rfl⟩
abbrev cc12_stg5_1 : Ref sig .tc := ⟨.vmem, 98, rfl⟩
abbrev cc13_stg0_0 : Ref sig .tc := ⟨.vmem, 99, rfl⟩
abbrev cc13_stg0_1 : Ref sig .tc := ⟨.vmem, 100, rfl⟩
abbrev cc13_stg1_0 : Ref sig .tc := ⟨.vmem, 101, rfl⟩
abbrev cc13_stg1_1 : Ref sig .tc := ⟨.vmem, 102, rfl⟩
abbrev cc13_stg2_0 : Ref sig .tc := ⟨.vmem, 103, rfl⟩
abbrev cc13_stg3_0 : Ref sig .tc := ⟨.vmem, 104, rfl⟩
abbrev cc13_stg4_0 : Ref sig .tc := ⟨.vmem, 105, rfl⟩
abbrev cc13_stg5_0 : Ref sig .tc := ⟨.vmem, 106, rfl⟩
abbrev cc13_stg5_1 : Ref sig .tc := ⟨.vmem, 107, rfl⟩
abbrev cc14_stg0_0 : Ref sig .tc := ⟨.vmem, 108, rfl⟩
abbrev cc14_stg0_1 : Ref sig .tc := ⟨.vmem, 109, rfl⟩
abbrev cc14_stg1_0 : Ref sig .tc := ⟨.vmem, 110, rfl⟩
abbrev cc14_stg1_1 : Ref sig .tc := ⟨.vmem, 111, rfl⟩
abbrev cc14_stg2_0 : Ref sig .tc := ⟨.vmem, 112, rfl⟩
abbrev cc14_stg3_0 : Ref sig .tc := ⟨.vmem, 113, rfl⟩
abbrev cc14_stg4_0 : Ref sig .tc := ⟨.vmem, 114, rfl⟩
abbrev cc14_stg5_0 : Ref sig .tc := ⟨.vmem, 115, rfl⟩
abbrev cc14_stg5_1 : Ref sig .tc := ⟨.vmem, 116, rfl⟩
abbrev cc15_stg0_0 : Ref sig .tc := ⟨.vmem, 117, rfl⟩
abbrev cc15_stg0_1 : Ref sig .tc := ⟨.vmem, 118, rfl⟩
abbrev cc15_stg1_0 : Ref sig .tc := ⟨.vmem, 119, rfl⟩
abbrev cc15_stg1_1 : Ref sig .tc := ⟨.vmem, 120, rfl⟩
abbrev cc15_stg2_0 : Ref sig .tc := ⟨.vmem, 121, rfl⟩
abbrev cc15_stg3_0 : Ref sig .tc := ⟨.vmem, 122, rfl⟩
abbrev cc15_stg4_0 : Ref sig .tc := ⟨.vmem, 123, rfl⟩
abbrev cc15_stg5_0 : Ref sig .tc := ⟨.vmem, 124, rfl⟩
abbrev cc15_stg5_1 : Ref sig .tc := ⟨.vmem, 125, rfl⟩
abbrev cc16_stg0_0 : Ref sig .tc := ⟨.vmem, 126, rfl⟩
abbrev cc16_stg0_1 : Ref sig .tc := ⟨.vmem, 127, rfl⟩
abbrev cc16_stg1_0 : Ref sig .tc := ⟨.vmem, 128, rfl⟩
abbrev cc16_stg2_0 : Ref sig .tc := ⟨.vmem, 129, rfl⟩
abbrev cc16_stg3_0 : Ref sig .tc := ⟨.vmem, 130, rfl⟩
abbrev cc16_stg3_1 : Ref sig .tc := ⟨.vmem, 131, rfl⟩
abbrev cc17_stg0_0 : Ref sig .tc := ⟨.vmem, 132, rfl⟩
abbrev cc17_stg0_1 : Ref sig .tc := ⟨.vmem, 133, rfl⟩
abbrev cc17_stg1_0 : Ref sig .tc := ⟨.vmem, 134, rfl⟩
abbrev cc17_stg2_0 : Ref sig .tc := ⟨.vmem, 135, rfl⟩
abbrev cc17_stg3_0 : Ref sig .tc := ⟨.vmem, 136, rfl⟩
abbrev cc17_stg3_1 : Ref sig .tc := ⟨.vmem, 137, rfl⟩
abbrev cc18_stg0_0 : Ref sig .tc := ⟨.vmem, 138, rfl⟩
abbrev cc18_stg0_1 : Ref sig .tc := ⟨.vmem, 139, rfl⟩
abbrev cc18_stg1_0 : Ref sig .tc := ⟨.vmem, 140, rfl⟩
abbrev cc18_stg1_1 : Ref sig .tc := ⟨.vmem, 141, rfl⟩
abbrev cc18_stg2_0 : Ref sig .tc := ⟨.vmem, 142, rfl⟩
abbrev cc18_stg3_0 : Ref sig .tc := ⟨.vmem, 143, rfl⟩
abbrev cc18_stg4_0 : Ref sig .tc := ⟨.vmem, 144, rfl⟩
abbrev cc18_stg5_0 : Ref sig .tc := ⟨.vmem, 145, rfl⟩
abbrev cc18_stg5_1 : Ref sig .tc := ⟨.vmem, 146, rfl⟩
abbrev cc19_stg0_0 : Ref sig .tc := ⟨.vmem, 147, rfl⟩
abbrev cc19_stg0_1 : Ref sig .tc := ⟨.vmem, 148, rfl⟩
abbrev cc19_stg1_0 : Ref sig .tc := ⟨.vmem, 149, rfl⟩
abbrev cc19_stg1_1 : Ref sig .tc := ⟨.vmem, 150, rfl⟩
abbrev cc19_stg2_0 : Ref sig .tc := ⟨.vmem, 151, rfl⟩
abbrev cc19_stg3_0 : Ref sig .tc := ⟨.vmem, 152, rfl⟩
abbrev cc19_stg4_0 : Ref sig .tc := ⟨.vmem, 153, rfl⟩
abbrev cc19_stg5_0 : Ref sig .tc := ⟨.vmem, 154, rfl⟩
abbrev cc19_stg5_1 : Ref sig .tc := ⟨.vmem, 155, rfl⟩
abbrev cc20_stg0_0 : Ref sig .tc := ⟨.vmem, 156, rfl⟩
abbrev cc20_stg0_1 : Ref sig .tc := ⟨.vmem, 157, rfl⟩
abbrev cc20_stg1_0 : Ref sig .tc := ⟨.vmem, 158, rfl⟩
abbrev cc20_stg1_1 : Ref sig .tc := ⟨.vmem, 159, rfl⟩
abbrev cc20_stg2_0 : Ref sig .tc := ⟨.vmem, 160, rfl⟩
abbrev cc20_stg2_1 : Ref sig .tc := ⟨.vmem, 161, rfl⟩
abbrev cc20_stg3_0 : Ref sig .tc := ⟨.vmem, 162, rfl⟩
abbrev cc20_stg4_0 : Ref sig .tc := ⟨.vmem, 163, rfl⟩
abbrev cc20_stg5_0 : Ref sig .tc := ⟨.vmem, 164, rfl⟩
abbrev cc20_stg5_1 : Ref sig .tc := ⟨.vmem, 165, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem5_0 : DmaSem sig := 49
abbrev cc6_sem5_1 : DmaSem sig := 50
abbrev cc7_sem0_0 : DmaSem sig := 51
abbrev cc7_sem0_1 : DmaSem sig := 52
abbrev cc7_sem1_0 : DmaSem sig := 53
abbrev cc7_sem1_1 : DmaSem sig := 54
abbrev cc7_sem2_0 : DmaSem sig := 55
abbrev cc7_sem3_0 : DmaSem sig := 56
abbrev cc7_sem4_0 : DmaSem sig := 57
abbrev cc7_sem5_0 : DmaSem sig := 58
abbrev cc7_sem5_1 : DmaSem sig := 59
abbrev cc8_sem0_0 : DmaSem sig := 60
abbrev cc8_sem0_1 : DmaSem sig := 61
abbrev cc8_sem1_0 : DmaSem sig := 62
abbrev cc8_sem1_1 : DmaSem sig := 63
abbrev cc8_sem2_0 : DmaSem sig := 64
abbrev cc8_sem3_0 : DmaSem sig := 65
abbrev cc8_sem4_0 : DmaSem sig := 66
abbrev cc8_sem5_0 : DmaSem sig := 67
abbrev cc8_sem5_1 : DmaSem sig := 68
abbrev cc9_sem0_0 : DmaSem sig := 69
abbrev cc9_sem0_1 : DmaSem sig := 70
abbrev cc9_sem1_0 : DmaSem sig := 71
abbrev cc9_sem1_1 : DmaSem sig := 72
abbrev cc9_sem2_0 : DmaSem sig := 73
abbrev cc9_sem3_0 : DmaSem sig := 74
abbrev cc9_sem4_0 : DmaSem sig := 75
abbrev cc9_sem5_0 : DmaSem sig := 76
abbrev cc9_sem5_1 : DmaSem sig := 77
abbrev cc10_sem0_0 : DmaSem sig := 78
abbrev cc10_sem0_1 : DmaSem sig := 79
abbrev cc10_sem1_0 : DmaSem sig := 80
abbrev cc10_sem2_0 : DmaSem sig := 81
abbrev cc10_sem3_0 : DmaSem sig := 82
abbrev cc10_sem3_1 : DmaSem sig := 83
abbrev cc11_sem0_0 : DmaSem sig := 84
abbrev cc11_sem0_1 : DmaSem sig := 85
abbrev cc11_sem1_0 : DmaSem sig := 86
abbrev cc11_sem2_0 : DmaSem sig := 87
abbrev cc11_sem3_0 : DmaSem sig := 88
abbrev cc11_sem3_1 : DmaSem sig := 89
abbrev cc12_sem0_0 : DmaSem sig := 90
abbrev cc12_sem0_1 : DmaSem sig := 91
abbrev cc12_sem1_0 : DmaSem sig := 92
abbrev cc12_sem1_1 : DmaSem sig := 93
abbrev cc12_sem2_0 : DmaSem sig := 94
abbrev cc12_sem3_0 : DmaSem sig := 95
abbrev cc12_sem4_0 : DmaSem sig := 96
abbrev cc12_sem5_0 : DmaSem sig := 97
abbrev cc12_sem5_1 : DmaSem sig := 98
abbrev cc13_sem0_0 : DmaSem sig := 99
abbrev cc13_sem0_1 : DmaSem sig := 100
abbrev cc13_sem1_0 : DmaSem sig := 101
abbrev cc13_sem1_1 : DmaSem sig := 102
abbrev cc13_sem2_0 : DmaSem sig := 103
abbrev cc13_sem3_0 : DmaSem sig := 104
abbrev cc13_sem4_0 : DmaSem sig := 105
abbrev cc13_sem5_0 : DmaSem sig := 106
abbrev cc13_sem5_1 : DmaSem sig := 107
abbrev cc14_sem0_0 : DmaSem sig := 108
abbrev cc14_sem0_1 : DmaSem sig := 109
abbrev cc14_sem1_0 : DmaSem sig := 110
abbrev cc14_sem1_1 : DmaSem sig := 111
abbrev cc14_sem2_0 : DmaSem sig := 112
abbrev cc14_sem3_0 : DmaSem sig := 113
abbrev cc14_sem4_0 : DmaSem sig := 114
abbrev cc14_sem5_0 : DmaSem sig := 115
abbrev cc14_sem5_1 : DmaSem sig := 116
abbrev cc15_sem0_0 : DmaSem sig := 117
abbrev cc15_sem0_1 : DmaSem sig := 118
abbrev cc15_sem1_0 : DmaSem sig := 119
abbrev cc15_sem1_1 : DmaSem sig := 120
abbrev cc15_sem2_0 : DmaSem sig := 121
abbrev cc15_sem3_0 : DmaSem sig := 122
abbrev cc15_sem4_0 : DmaSem sig := 123
abbrev cc15_sem5_0 : DmaSem sig := 124
abbrev cc15_sem5_1 : DmaSem sig := 125
abbrev cc16_sem0_0 : DmaSem sig := 126
abbrev cc16_sem0_1 : DmaSem sig := 127
abbrev cc16_sem1_0 : DmaSem sig := 128
abbrev cc16_sem2_0 : DmaSem sig := 129
abbrev cc16_sem3_0 : DmaSem sig := 130
abbrev cc16_sem3_1 : DmaSem sig := 131
abbrev cc17_sem0_0 : DmaSem sig := 132
abbrev cc17_sem0_1 : DmaSem sig := 133
abbrev cc17_sem1_0 : DmaSem sig := 134
abbrev cc17_sem2_0 : DmaSem sig := 135
abbrev cc17_sem3_0 : DmaSem sig := 136
abbrev cc17_sem3_1 : DmaSem sig := 137
abbrev cc18_sem0_0 : DmaSem sig := 138
abbrev cc18_sem0_1 : DmaSem sig := 139
abbrev cc18_sem1_0 : DmaSem sig := 140
abbrev cc18_sem1_1 : DmaSem sig := 141
abbrev cc18_sem2_0 : DmaSem sig := 142
abbrev cc18_sem3_0 : DmaSem sig := 143
abbrev cc18_sem4_0 : DmaSem sig := 144
abbrev cc18_sem5_0 : DmaSem sig := 145
abbrev cc18_sem5_1 : DmaSem sig := 146
abbrev cc19_sem0_0 : DmaSem sig := 147
abbrev cc19_sem0_1 : DmaSem sig := 148
abbrev cc19_sem1_0 : DmaSem sig := 149
abbrev cc19_sem1_1 : DmaSem sig := 150
abbrev cc19_sem2_0 : DmaSem sig := 151
abbrev cc19_sem3_0 : DmaSem sig := 152
abbrev cc19_sem4_0 : DmaSem sig := 153
abbrev cc19_sem5_0 : DmaSem sig := 154
abbrev cc19_sem5_1 : DmaSem sig := 155
abbrev cc20_sem0_0 : DmaSem sig := 156
abbrev cc20_sem0_1 : DmaSem sig := 157
abbrev cc20_sem1_0 : DmaSem sig := 158
abbrev cc20_sem1_1 : DmaSem sig := 159
abbrev cc20_sem2_0 : DmaSem sig := 160
abbrev cc20_sem2_1 : DmaSem sig := 161
abbrev cc20_sem3_0 : DmaSem sig := 162
abbrev cc20_sem4_0 : DmaSem sig := 163
abbrev cc20_sem5_0 : DmaSem sig := 164
abbrev cc20_sem5_1 : DmaSem sig := 165

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![18], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![18], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4096x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4096x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4096x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![18], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4096x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4096x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4096x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4096x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S256x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S4096x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4096x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4096x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S256x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S4096x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4096x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4096x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S256x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S256x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S4096x256 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![6], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4096x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S256x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S4096x256 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![6], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4096x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S256x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S4096x256 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4096x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S4096x256 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S256x256 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S256x256 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x256 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S4096x256 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![6], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4096x256 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S4096x256 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S256x256 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S256x256 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x256 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S4096x256 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![19], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S4096x256 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S4096x256 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S256x256 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S256x256 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x256 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S4096x256 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![19], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S4096x256 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S4096x256 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S256x256 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S256x256 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x256 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S4096x256 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev grid16 : Pipeline.Grid := ⟨1, ![7], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S4096x256 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S256x256 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x256 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S4096x256 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev grid17 : Pipeline.Grid := ⟨1, ![7], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S4096x256 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S256x256 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x256 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 2 → Memref sig .tc .vmem S4096x256 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev grid18 : Pipeline.Grid := ⟨1, ![19], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S4096x256 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S4096x256 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 1 → Memref sig .tc .vmem S256x256 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S256x256 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x256 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 2 → Memref sig .tc .vmem S4096x256 .f32 := fun | 0 => Memref.whole cc18_stg5_0 | 1 => Memref.whole cc18_stg5_1 | ⟨_ + 2, h⟩ => absurd h (Nat.not_lt.2 (Nat.le_add_left _ _))
abbrev sem18_5 : Fin 2 → DmaSem sig := fun | 0 => cc18_sem5_0 | 1 => cc18_sem5_1 | ⟨_ + 2, h⟩ => absurd h (Nat.not_lt.2 (Nat.le_add_left _ _))
abbrev reads18_5 : Fin grid18.rank → Bool := ![true]

abbrev grid19 : Pipeline.Grid := ⟨1, ![7], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_5 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S4096x256 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S4096x256 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 1 → Memref sig .tc .vmem S256x256 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S256x256 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S1x256 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 2 → Memref sig .tc .vmem S4096x256 .f32 := fun | 0 => Memref.whole cc19_stg5_0 | 1 => Memref.whole cc19_stg5_1 | ⟨_ + 2, h⟩ => absurd h (Nat.not_lt.2 (Nat.le_add_left _ _))
abbrev sem19_5 : Fin 2 → DmaSem sig := fun | 0 => cc19_sem5_0 | 1 => cc19_sem5_1 | ⟨_ + 2, h⟩ => absurd h (Nat.not_lt.2 (Nat.le_add_left _ _))
abbrev reads19_5 : Fin grid19.rank → Bool := ![true]

abbrev grid20 : Pipeline.Grid := ⟨1, ![25], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_5 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S4096x256 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S4096x256 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 2 → Memref sig .tc .vmem S4096x256 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev stage20_3 : Fin 1 → Memref sig .tc .vmem S256x2 .f32 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 1 → Memref sig .tc .vmem S1x2 .f32 := fun | 0 => Memref.whole cc20_stg4_0 | ⟨_ + 1, h⟩ => absurd h (Nat.not_lt.2 (Nat.le_add_left _ _))
abbrev sem20_4 : Fin 1 → DmaSem sig := fun | 0 => cc20_sem4_0 | ⟨_ + 1, h⟩ => absurd h (Nat.not_lt.2 (Nat.le_add_left _ _))
abbrev reads20_4 : Fin grid20.rank → Bool := ![false]

abbrev stage20_5 : Fin 2 → Memref sig .tc .vmem S4096x2 .f32 := fun | 0 => Memref.whole cc20_stg5_0 | 1 => Memref.whole cc20_stg5_1 | ⟨_ + 2, h⟩ => absurd h (Nat.not_lt.2 (Nat.le_add_left _ _))
abbrev sem20_5 : Fin 2 → DmaSem sig := fun | 0 => cc20_sem5_0 | 1 => cc20_sem5_1 | ⟨_ + 2, h⟩ => absurd h (Nat.not_lt.2 (Nat.le_add_left _ _))
abbrev reads20_5 : Fin grid20.rank → Bool := ![true]

class Facts₀ : Prop where
  pads_S100000x256_S102400x256_024000_000 : S100000x256.Pads (![0, 0] : Fin 2 → Nat) ![2400, 0] ![0, 0] S102400x256
  h_S_ : 0 < S_.numel
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  slices_S102400x256_S100000x256_0_0 : S102400x256.Slices ![0, 0] S100000x256
  bcast_S_S69785 : S_.BroadcastsInDim S69785 (![] : Fin 0 → Fin S69785.rank)
  bcast_S69785_S69785x1_0 : S69785.BroadcastsInDim S69785x1 (![0] : Fin 1 → Fin S69785x1.rank)
  bcast_S_S30215 : S_.BroadcastsInDim S30215 (![] : Fin 0 → Fin S30215.rank)
  bcast_S30215_S30215x1_0 : S30215.BroadcastsInDim S30215x1 (![0] : Fin 1 → Fin S30215x1.rank)
  slices_S512x256_S256x256_0_0 : S512x256.Slices ![0, 0] S256x256
  slices_S512x256_S256x256_256_0 : S512x256.Slices ![256, 0] S256x256
  bcast_S69785x1_S69785x256_0_1 : S69785x1.BroadcastsInDim S69785x256 (![0, 1] : Fin 2 → Fin S69785x256.rank)
  bcast_S_S279168 : S_.BroadcastsInDim S279168 (![] : Fin 0 → Fin S279168.rank)
  bcast_S279168_S279168x1_0 : S279168.BroadcastsInDim S279168x1 (![0] : Fin 1 → Fin S279168x1.rank)
  bcast_S_S69785x256 : S_.BroadcastsInDim S69785x256 (![] : Fin 0 → Fin S69785x256.rank)
  pads_S69785x256_S73728x256_039430_000 : S69785x256.Pads (![0, 0] : Fin 2 → Nat) ![3943, 0] ![0, 0] S73728x256
  shapeCasts_S256x256_S256x256 : S256x256.ShapeCasts S256x256
  slices_S73728x256_S69785x256_0_0 : S73728x256.Slices ![0, 0] S69785x256
  pads_S30215x256_S32768x256_025530_000 : S30215x256.Pads (![0, 0] : Fin 2 → Nat) ![2553, 0] ![0, 0] S32768x256
  slices_S32768x256_S30215x256_0_0 : S32768x256.Slices ![0, 0] S30215x256
  concatenates_S69785x256_S30215x256_S100000x256_d0 : Shape.Concatenates [S69785x256, S30215x256] S100000x256 0
  bcast_S_S79460 : S_.BroadcastsInDim S79460 (![] : Fin 0 → Fin S79460.rank)
  bcast_S79460_S79460x1_0 : S79460.BroadcastsInDim S79460x1 (![0] : Fin 1 → Fin S79460x1.rank)
  bcast_S_S20540 : S_.BroadcastsInDim S20540 (![] : Fin 0 → Fin S20540.rank)
  bcast_S20540_S20540x1_0 : S20540.BroadcastsInDim S20540x1 (![0] : Fin 1 → Fin S20540x1.rank)
  bcast_S79460x1_S79460x256_0_1 : S79460x1.BroadcastsInDim S79460x256 (![0, 1] : Fin 2 → Fin S79460x256.rank)
  bcast_S_S317997 : S_.BroadcastsInDim S317997 (![] : Fin 0 → Fin S317997.rank)
  bcast_S317997_S317997x1_0 : S317997.BroadcastsInDim S317997x1 (![0] : Fin 1 → Fin S317997x1.rank)
  bcast_S_S79460x256 : S_.BroadcastsInDim S79460x256 (![] : Fin 0 → Fin S79460x256.rank)
  pads_S79460x256_S81920x256_024600_000 : S79460x256.Pads (![0, 0] : Fin 2 → Nat) ![2460, 0] ![0, 0] S81920x256
  slices_S81920x256_S79460x256_0_0 : S81920x256.Slices ![0, 0] S79460x256
  pads_S20540x256_S24576x256_040360_000 : S20540x256.Pads (![0, 0] : Fin 2 → Nat) ![4036, 0] ![0, 0] S24576x256
  slices_S24576x256_S20540x256_0_0 : S24576x256.Slices ![0, 0] S20540x256
  concatenates_S79460x256_S20540x256_S100000x256_d0 : Shape.Concatenates [S79460x256, S20540x256] S100000x256 0
  bcast_S_S74654 : S_.BroadcastsInDim S74654 (![] : Fin 0 → Fin S74654.rank)
  bcast_S74654_S74654x1_0 : S74654.BroadcastsInDim S74654x1 (![0] : Fin 1 → Fin S74654x1.rank)
  bcast_S_S25346 : S_.BroadcastsInDim S25346 (![] : Fin 0 → Fin S25346.rank)
  bcast_S25346_S25346x1_0 : S25346.BroadcastsInDim S25346x1 (![0] : Fin 1 → Fin S25346x1.rank)
  bcast_S74654x1_S74654x256_0_1 : S74654x1.BroadcastsInDim S74654x256 (![0, 1] : Fin 2 → Fin S74654x256.rank)
  bcast_S_S298662 : S_.BroadcastsInDim S298662 (![] : Fin 0 → Fin S298662.rank)
  bcast_S298662_S298662x1_0 : S298662.BroadcastsInDim S298662x1 (![0] : Fin 1 → Fin S298662x1.rank)
  bcast_S_S74654x256 : S_.BroadcastsInDim S74654x256 (![] : Fin 0 → Fin S74654x256.rank)
  pads_S74654x256_S77824x256_031700_000 : S74654x256.Pads (![0, 0] : Fin 2 → Nat) ![3170, 0] ![0, 0] S77824x256
  slices_S77824x256_S74654x256_0_0 : S77824x256.Slices ![0, 0] S74654x256
  pads_S25346x256_S28672x256_033260_000 : S25346x256.Pads (![0, 0] : Fin 2 → Nat) ![3326, 0] ![0, 0] S28672x256
  slices_S28672x256_S25346x256_0_0 : S28672x256.Slices ![0, 0] S25346x256
  concatenates_S74654x256_S25346x256_S100000x256_d0 : Shape.Concatenates [S74654x256, S25346x256] S100000x256 0
  shapeCasts_S2_S1x2 : S2.ShapeCasts S1x2
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4096x2 : S1x2.Broadcasts S4096x2
  inb_S4096x2_S4096x2_0_0 : ∀ a, (![0, 0] : Fin 2 → Nat) a + S4096x2.size a ≤ S4096x2.size a
  h_S4096x2 : 0 < S4096x2.numel
  slices_S102400x2_S100000x2_0_0 : S102400x2.Slices ![0, 0] S100000x2
  dot_S4096x256_S256x256_S4096x256_1_0_0_1_n_n_wf : DotDims.WF S4096x256 S256x256 S4096x256 [1] [0] [0] [1] [] []
  gather_S100000x256_S69785x1_S69785x256_1_0_n_n_0_1_1256_wf : GatherDims.WF S100000x256 S69785x1 S69785x256 [1] [0] [] [0] [] 1 ![1, 256]
  gather_S100000x256_S30215x1_S30215x256_1_0_n_n_0_1_1256_wf : GatherDims.WF S100000x256 S30215x1 S30215x256 [1] [0] [] [0] [] 1 ![1, 256]
  gather_S69785x256_S279168x1_S279168x256_1_0_n_n_0_1_1256_wf : GatherDims.WF S69785x256 S279168x1 S279168x256 [1] [0] [] [0] [] 1 ![1, 256]
  scatter_S69785x256_S279168x1_S279168x256_1_0_0_1_wf : ScatterDims.WF S69785x256 S279168x1 S279168x256 [1] [0] [0] 1
  gather_S100000x256_S79460x1_S79460x256_1_0_n_n_0_1_1256_wf : GatherDims.WF S100000x256 S79460x1 S79460x256 [1] [0] [] [0] [] 1 ![1, 256]
  gather_S100000x256_S20540x1_S20540x256_1_0_n_n_0_1_1256_wf : GatherDims.WF S100000x256 S20540x1 S20540x256 [1] [0] [] [0] [] 1 ![1, 256]
  gather_S79460x256_S317997x1_S317997x256_1_0_n_n_0_1_1256_wf : GatherDims.WF S79460x256 S317997x1 S317997x256 [1] [0] [] [0] [] 1 ![1, 256]
  scatter_S79460x256_S317997x1_S317997x256_1_0_0_1_wf : ScatterDims.WF S79460x256 S317997x1 S317997x256 [1] [0] [0] 1
  gather_S100000x256_S74654x1_S74654x256_1_0_n_n_0_1_1256_wf : GatherDims.WF S100000x256 S74654x1 S74654x256 [1] [0] [] [0] [] 1 ![1, 256]
  gather_S100000x256_S25346x1_S25346x256_1_0_n_n_0_1_1256_wf : GatherDims.WF S100000x256 S25346x1 S25346x256 [1] [0] [] [0] [] 1 ![1, 256]
  gather_S74654x256_S298662x1_S298662x256_1_0_n_n_0_1_1256_wf : GatherDims.WF S74654x256 S298662x1 S298662x256 [1] [0] [] [0] [] 1 ![1, 256]
  scatter_S74654x256_S298662x1_S298662x256_1_0_0_1_wf : ScatterDims.WF S74654x256 S298662x1 S298662x256 [1] [0] [0] 1
  dot_S4096x256_S256x2_S4096x2_1_0_0_1_n_n_wf : DotDims.WF S4096x256 S256x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S102400x256.size a
  hwx0_0 : ∀ i : grid0.Coords, EltTy.bits .f32 = 32 ∨ (Rect.block (s := S102400x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S102400x256.size a
  hwx0_3 : ∀ i : grid0.Coords, EltTy.bits .f32 = 32 ∨ (Rect.block (s := S102400x256) S4096x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S102400x256.size a
  hwx1_0 : ∀ i : grid1.Coords, EltTy.bits .f32 = 32 ∨ (Rect.block (s := S102400x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S102400x256.size a
  hwx1_3 : ∀ i : grid1.Coords, EltTy.bits .f32 = 32 ∨ (Rect.block (s := S102400x256) S4096x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S73728x256.size a
  hwx2_0 : ∀ i : grid2.Coords, EltTy.bits .f32 = 32 ∨ (Rect.block (s := S73728x256) S4096x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S73728x256.size a
  hwx2_1 : ∀ i : grid2.Coords, EltTy.bits .f32 = 32 ∨ (Rect.block (s := S73728x256) S4096x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x256.size a ≤ S73728x256.size a
  hwx2_5 : ∀ i : grid2.Coords, EltTy.bits .f32 = 32 ∨ (Rect.block (s := S73728x256) S4096x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x256.size a ≤ S73728x256.size a
  hwx3_0 : ∀ i : grid3.Coords, EltTy.bits .f32 = 32 ∨ (Rect.block (s := S73728x256) S4096x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x256.size a ≤ S73728x256.size a
  hwx3_1 : ∀ i : grid3.Coords, EltTy.bits .f32 = 32 ∨ (Rect.block (s := S73728x256) S4096x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4096x256.size a ≤ S73728x256.size a
  hwx3_5 : ∀ i : grid3.Coords, EltTy.bits .f32 = 32 ∨ (Rect.block (s := S73728x256) S4096x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x256.size a ≤ S32768x256.size a
  hwx4_0 : ∀ i : grid4.Coords, EltTy.bits .f32 = 32 ∨ (Rect.block (s := S32768x256) S4096x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x256.size a ≤ S32768x256.size a
  hwx4_3 : ∀ i : grid4.Coords, EltTy.bits .f32 = 32 ∨ (Rect.block (s := S32768x256) S4096x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x256.size a ≤ S32768x256.size a
  hwx5_0 : ∀ i : grid5.Coords, EltTy.bits .f32 = 32 ∨ (Rect.block (s := S32768x256) S4096x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4096x256.size a ≤ S32768x256.size a
  hwx5_3 : ∀ i : grid5.Coords, EltTy.bits .f32 = 32 ∨ (Rect.block (s := S32768x256) S4096x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x256.size a ≤ S73728x256.size a
  hwx6_0 : ∀ i : grid6.Coords, EltTy.bits .f32 = 32 ∨ (Rect.block (s := S73728x256) S4096x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x256.size a ≤ S73728x256.size a
  hwx6_1 : ∀ i : grid6.Coords, EltTy.bits .f32 = 32 ∨ (Rect.block (s := S73728x256) S4096x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .f32 = 32 ∨ (Rect.block (s := S256x256) S256x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .f32 = 32 ∨ (Rect.block (s := S256x256) S256x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4096x256.size a ≤ S73728x256.size a
  hwx6_5 : ∀ i : grid6.Coords, EltTy.bits .f32 = 32 ∨ (Rect.block (s := S73728x256) S4096x256.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4096x256.size a ≤ S32768x256.size a
  hwx7_0 : ∀ i : grid7.Coords, EltTy.bits .f32 = 32 ∨ (Rect.block (s := S32768x256) S4096x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4096x256.size a ≤ S32768x256.size a
  hwx7_1 : ∀ i : grid7.Coords, EltTy.bits .f32 = 32 ∨ (Rect.block (s := S32768x256) S4096x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x256.size a ≤ S256x256.size a
  hwx7_2 : ∀ i : grid7.Coords, EltTy.bits .f32 = 32 ∨ (Rect.block (s := S256x256) S256x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x256.size a ≤ S256x256.size a
  hwx7_3 : ∀ i : grid7.Coords, EltTy.bits .f32 = 32 ∨ (Rect.block (s := S256x256) S256x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4096x256.size a ≤ S32768x256.size a
  hwx7_5 : ∀ i : grid7.Coords, EltTy.bits .f32 = 32 ∨ (Rect.block (s := S32768x256) S4096x256.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4096x256.size a ≤ S81920x256.size a
  hwx8_0 : ∀ i : grid8.Coords, EltTy.bits .f32 = 32 ∨ (Rect.block (s := S81920x256) S4096x256.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4096x256.size a ≤ S81920x256.size a
  hwx8_1 : ∀ i : grid8.Coords, EltTy.bits .f32 = 32 ∨ (Rect.block (s := S81920x256) S4096x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256x256.size a ≤ S256x256.size a
  hwx8_2 : ∀ i : grid8.Coords, EltTy.bits .f32 = 32 ∨ (Rect.block (s := S256x256) S256x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x256.size a ≤ S256x256.size a
  hwx8_3 : ∀ i : grid8.Coords, EltTy.bits .f32 = 32 ∨ (Rect.block (s := S256x256) S256x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x256.size a ≤ S1x256.size a
  hwx8_4 : ∀ i : grid8.Coords, EltTy.bits .f32 = 32 ∨ (Rect.block (s := S1x256) S1x256.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S4096x256.size a ≤ S81920x256.size a
  hwx8_5 : ∀ i : grid8.Coords, EltTy.bits .f32 = 32 ∨ (Rect.block (s := S81920x256) S4096x256.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4096x256.size a ≤ S81920x256.size a
  hwx9_0 : ∀ i : grid9.Coords, EltTy.bits .f32 = 32 ∨ (Rect.block (s := S81920x256) S4096x256.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4096x256.size a ≤ S81920x256.size a
  hwx9_1 : ∀ i : grid9.Coords, EltTy.bits .f32 = 32 ∨ (Rect.block (s := S81920x256) S4096x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S256x256.size a ≤ S256x256.size a
  hwx9_2 : ∀ i : grid9.Coords, EltTy.bits .f32 = 32 ∨ (Rect.block (s := S256x256) S256x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S256x256.size a ≤ S256x256.size a
  hwx9_3 : ∀ i : grid9.Coords, EltTy.bits .f32 = 32 ∨ (Rect.block (s := S256x256) S256x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x256.size a ≤ S1x256.size a
  hwx9_4 : ∀ i : grid9.Coords, EltTy.bits .f32 = 32 ∨ (Rect.block (s := S1x256) S1x256.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S4096x256.size a ≤ S81920x256.size a
  hwx9_5 : ∀ i : grid9.Coords, EltTy.bits .f32 = 32 ∨ (Rect.block (s := S81920x256) S4096x256.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4096x256.size a ≤ S24576x256.size a
  hwx10_0 : ∀ i : grid10.Coords, EltTy.bits .f32 = 32 ∨ (Rect.block (s := S24576x256) S4096x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S256x256.size a ≤ S256x256.size a
  hwx10_1 : ∀ i : grid10.Coords, EltTy.bits .f32 = 32 ∨ (Rect.block (s := S256x256) S256x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x256.size a ≤ S1x256.size a
  hwx10_2 : ∀ i : grid10.Coords, EltTy.bits .f32 = 32 ∨ (Rect.block (s := S1x256) S1x256.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S4096x256.size a ≤ S24576x256.size a
  hwx10_3 : ∀ i : grid10.Coords, EltTy.bits .f32 = 32 ∨ (Rect.block (s := S24576x256) S4096x256.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4096x256.size a ≤ S24576x256.size a
  hwx11_0 : ∀ i : grid11.Coords, EltTy.bits .f32 = 32 ∨ (Rect.block (s := S24576x256) S4096x256.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S256x256.size a ≤ S256x256.size a
  hwx11_1 : ∀ i : grid11.Coords, EltTy.bits .f32 = 32 ∨ (Rect.block (s := S256x256) S256x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x256.size a ≤ S1x256.size a
  hwx11_2 : ∀ i : grid11.Coords, EltTy.bits .f32 = 32 ∨ (Rect.block (s := S1x256) S1x256.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S4096x256.size a ≤ S24576x256.size a
  hwx11_3 : ∀ i : grid11.Coords, EltTy.bits .f32 = 32 ∨ (Rect.block (s := S24576x256) S4096x256.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4096x256.size a ≤ S81920x256.size a
  hwx12_0 : ∀ i : grid12.Coords, EltTy.bits .f32 = 32 ∨ (Rect.block (s := S81920x256) S4096x256.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S4096x256.size a ≤ S81920x256.size a
  hwx12_1 : ∀ i : grid12.Coords, EltTy.bits .f32 = 32 ∨ (Rect.block (s := S81920x256) S4096x256.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S256x256.size a ≤ S256x256.size a
  hwx12_2 : ∀ i : grid12.Coords, EltTy.bits .f32 = 32 ∨ (Rect.block (s := S256x256) S256x256.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S256x256.size a ≤ S256x256.size a
  hwx12_3 : ∀ i : grid12.Coords, EltTy.bits .f32 = 32 ∨ (Rect.block (s := S256x256) S256x256.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x256.size a ≤ S1x256.size a
  hwx12_4 : ∀ i : grid12.Coords, EltTy.bits .f32 = 32 ∨ (Rect.block (s := S1x256) S1x256.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S4096x256.size a ≤ S81920x256.size a
  hwx12_5 : ∀ i : grid12.Coords, EltTy.bits .f32 = 32 ∨ (Rect.block (s := S81920x256) S4096x256.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4096x256.size a ≤ S24576x256.size a
  hwx13_0 : ∀ i : grid13.Coords, EltTy.bits .f32 = 32 ∨ (Rect.block (s := S24576x256) S4096x256.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S4096x256.size a ≤ S24576x256.size a
  hwx13_1 : ∀ i : grid13.Coords, EltTy.bits .f32 = 32 ∨ (Rect.block (s := S24576x256) S4096x256.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S256x256.size a ≤ S256x256.size a
  hwx13_2 : ∀ i : grid13.Coords, EltTy.bits .f32 = 32 ∨ (Rect.block (s := S256x256) S256x256.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S256x256.size a ≤ S256x256.size a
  hwx13_3 : ∀ i : grid13.Coords, EltTy.bits .f32 = 32 ∨ (Rect.block (s := S256x256) S256x256.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x256.size a ≤ S1x256.size a
  hwx13_4 : ∀ i : grid13.Coords, EltTy.bits .f32 = 32 ∨ (Rect.block (s := S1x256) S1x256.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S4096x256.size a ≤ S24576x256.size a
  hwx13_5 : ∀ i : grid13.Coords, EltTy.bits .f32 = 32 ∨ (Rect.block (s := S24576x256) S4096x256.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S4096x256.size a ≤ S77824x256.size a
  hwx14_0 : ∀ i : grid14.Coords, EltTy.bits .f32 = 32 ∨ (Rect.block (s := S77824x256) S4096x256.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S4096x256.size a ≤ S77824x256.size a
  hwx14_1 : ∀ i : grid14.Coords, EltTy.bits .f32 = 32 ∨ (Rect.block (s := S77824x256) S4096x256.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S256x256.size a ≤ S256x256.size a
  hwx14_2 : ∀ i : grid14.Coords, EltTy.bits .f32 = 32 ∨ (Rect.block (s := S256x256) S256x256.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S256x256.size a ≤ S256x256.size a
  hwx14_3 : ∀ i : grid14.Coords, EltTy.bits .f32 = 32 ∨ (Rect.block (s := S256x256) S256x256.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x256.size a ≤ S1x256.size a
  hwx14_4 : ∀ i : grid14.Coords, EltTy.bits .f32 = 32 ∨ (Rect.block (s := S1x256) S1x256.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S4096x256.size a ≤ S77824x256.size a
  hwx14_5 : ∀ i : grid14.Coords, EltTy.bits .f32 = 32 ∨ (Rect.block (s := S77824x256) S4096x256.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S4096x256.size a ≤ S77824x256.size a
  hwx15_0 : ∀ i : grid15.Coords, EltTy.bits .f32 = 32 ∨ (Rect.block (s := S77824x256) S4096x256.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S4096x256.size a ≤ S77824x256.size a
  hwx15_1 : ∀ i : grid15.Coords, EltTy.bits .f32 = 32 ∨ (Rect.block (s := S77824x256) S4096x256.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S256x256.size a ≤ S256x256.size a
  hwx15_2 : ∀ i : grid15.Coords, EltTy.bits .f32 = 32 ∨ (Rect.block (s := S256x256) S256x256.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S256x256.size a ≤ S256x256.size a
  hwx15_3 : ∀ i : grid15.Coords, EltTy.bits .f32 = 32 ∨ (Rect.block (s := S256x256) S256x256.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x256.size a ≤ S1x256.size a
  hwx15_4 : ∀ i : grid15.Coords, EltTy.bits .f32 = 32 ∨ (Rect.block (s := S1x256) S1x256.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S4096x256.size a ≤ S77824x256.size a
  hwx15_5 : ∀ i : grid15.Coords, EltTy.bits .f32 = 32 ∨ (Rect.block (s := S77824x256) S4096x256.size (cc15_transform_5 i) (hinb15_5 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S4096x256.size a ≤ S28672x256.size a
  hwx16_0 : ∀ i : grid16.Coords, EltTy.bits .f32 = 32 ∨ (Rect.block (s := S28672x256) S4096x256.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S256x256.size a ≤ S256x256.size a
  hwx16_1 : ∀ i : grid16.Coords, EltTy.bits .f32 = 32 ∨ (Rect.block (s := S256x256) S256x256.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x256.size a ≤ S1x256.size a
  hwx16_2 : ∀ i : grid16.Coords, EltTy.bits .f32 = 32 ∨ (Rect.block (s := S1x256) S1x256.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S4096x256.size a ≤ S28672x256.size a
  hwx16_3 : ∀ i : grid16.Coords, EltTy.bits .f32 = 32 ∨ (Rect.block (s := S28672x256) S4096x256.size (cc16_transform_3 i) (hinb16_3 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S4096x256.size a ≤ S28672x256.size a
  hwx17_0 : ∀ i : grid17.Coords, EltTy.bits .f32 = 32 ∨ (Rect.block (s := S28672x256) S4096x256.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S256x256.size a ≤ S256x256.size a
  hwx17_1 : ∀ i : grid17.Coords, EltTy.bits .f32 = 32 ∨ (Rect.block (s := S256x256) S256x256.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x256.size a ≤ S1x256.size a
  hwx17_2 : ∀ i : grid17.Coords, EltTy.bits .f32 = 32 ∨ (Rect.block (s := S1x256) S1x256.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S4096x256.size a ≤ S28672x256.size a
  hwx17_3 : ∀ i : grid17.Coords, EltTy.bits .f32 = 32 ∨ (Rect.block (s := S28672x256) S4096x256.size (cc17_transform_3 i) (hinb17_3 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S4096x256.size a ≤ S77824x256.size a
  hwx18_0 : ∀ i : grid18.Coords, EltTy.bits .f32 = 32 ∨ (Rect.block (s := S77824x256) S4096x256.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S4096x256.size a ≤ S77824x256.size a
  hwx18_1 : ∀ i : grid18.Coords, EltTy.bits .f32 = 32 ∨ (Rect.block (s := S77824x256) S4096x256.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S256x256.size a ≤ S256x256.size a
  hwx18_2 : ∀ i : grid18.Coords, EltTy.bits .f32 = 32 ∨ (Rect.block (s := S256x256) S256x256.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S256x256.size a ≤ S256x256.size a
  hwx18_3 : ∀ i : grid18.Coords, EltTy.bits .f32 = 32 ∨ (Rect.block (s := S256x256) S256x256.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x256.size a ≤ S1x256.size a
  hwx18_4 : ∀ i : grid18.Coords, EltTy.bits .f32 = 32 ∨ (Rect.block (s := S1x256) S1x256.size (cc18_transform_4 i) (hinb18_4 i)).WholeWords (EltTy.packing .f32)
  hstage18_5 : ∀ j, (stage18_5 j).IsWhole
  nbuf18_5 : grid18.bufCount reads18_5 false = 2
  hreads18_5 : ∀ i i' : grid18.Coords, (∀ a, reads18_5 a = true → i a = i' a) → cc18_transform_5 i = cc18_transform_5 i'
  hinb18_5 : ∀ (i : grid18.Coords) a, (cc18_transform_5 i a + 1) * S4096x256.size a ≤ S77824x256.size a
  hwx18_5 : ∀ i : grid18.Coords, EltTy.bits .f32 = 32 ∨ (Rect.block (s := S77824x256) S4096x256.size (cc18_transform_5 i) (hinb18_5 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S4096x256.size a ≤ S28672x256.size a
  hwx19_0 : ∀ i : grid19.Coords, EltTy.bits .f32 = 32 ∨ (Rect.block (s := S28672x256) S4096x256.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S4096x256.size a ≤ S28672x256.size a
  hwx19_1 : ∀ i : grid19.Coords, EltTy.bits .f32 = 32 ∨ (Rect.block (s := S28672x256) S4096x256.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S256x256.size a ≤ S256x256.size a
  hwx19_2 : ∀ i : grid19.Coords, EltTy.bits .f32 = 32 ∨ (Rect.block (s := S256x256) S256x256.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S256x256.size a ≤ S256x256.size a
  hwx19_3 : ∀ i : grid19.Coords, EltTy.bits .f32 = 32 ∨ (Rect.block (s := S256x256) S256x256.size (cc19_transform_3 i) (hinb19_3 i)).WholeWords (EltTy.packing .f32)
  hstage19_4 : ∀ j, (stage19_4 j).IsWhole
  nbuf19_4 : grid19.bufCount reads19_4 true = 1
  hreads19_4 : ∀ i i' : grid19.Coords, (∀ a, reads19_4 a = true → i a = i' a) → cc19_transform_4 i = cc19_transform_4 i'
  hinb19_4 : ∀ (i : grid19.Coords) a, (cc19_transform_4 i a + 1) * S1x256.size a ≤ S1x256.size a
  hwx19_4 : ∀ i : grid19.Coords, EltTy.bits .f32 = 32 ∨ (Rect.block (s := S1x256) S1x256.size (cc19_transform_4 i) (hinb19_4 i)).WholeWords (EltTy.packing .f32)
  hstage19_5 : ∀ j, (stage19_5 j).IsWhole
  nbuf19_5 : grid19.bufCount reads19_5 false = 2
  hreads19_5 : ∀ i i' : grid19.Coords, (∀ a, reads19_5 a = true → i a = i' a) → cc19_transform_5 i = cc19_transform_5 i'
  hinb19_5 : ∀ (i : grid19.Coords) a, (cc19_transform_5 i a + 1) * S4096x256.size a ≤ S28672x256.size a
  hwx19_5 : ∀ i : grid19.Coords, EltTy.bits .f32 = 32 ∨ (Rect.block (s := S28672x256) S4096x256.size (cc19_transform_5 i) (hinb19_5 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S4096x256.size a ≤ S102400x256.size a
  hwx20_0 : ∀ i : grid20.Coords, EltTy.bits .f32 = 32 ∨ (Rect.block (s := S102400x256) S4096x256.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S4096x256.size a ≤ S102400x256.size a
  hwx20_1 : ∀ i : grid20.Coords, EltTy.bits .f32 = 32 ∨ (Rect.block (s := S102400x256) S4096x256.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S4096x256.size a ≤ S102400x256.size a
  hwx20_2 : ∀ i : grid20.Coords, EltTy.bits .f32 = 32 ∨ (Rect.block (s := S102400x256) S4096x256.size (cc20_transform_2 i) (hinb20_2 i)).WholeWords (EltTy.packing .f32)
  hstage20_3 : ∀ j, (stage20_3 j).IsWhole
  nbuf20_3 : grid20.bufCount reads20_3 true = 1
  hreads20_3 : ∀ i i' : grid20.Coords, (∀ a, reads20_3 a = true → i a = i' a) → cc20_transform_3 i = cc20_transform_3 i'
  hinb20_3 : ∀ (i : grid20.Coords) a, (cc20_transform_3 i a + 1) * S256x2.size a ≤ S256x2.size a
  hwx20_3 : ∀ i : grid20.Coords, EltTy.bits .f32 = 32 ∨ (Rect.block (s := S256x2) S256x2.size (cc20_transform_3 i) (hinb20_3 i)).WholeWords (EltTy.packing .f32)
  hstage20_4 : ∀ j, (stage20_4 j).IsWhole
  nbuf20_4 : grid20.bufCount reads20_4 true = 1
  hreads20_4 : ∀ i i' : grid20.Coords, (∀ a, reads20_4 a = true → i a = i' a) → cc20_transform_4 i = cc20_transform_4 i'
  hinb20_4 : ∀ (i : grid20.Coords) a, (cc20_transform_4 i a + 1) * S1x2.size a ≤ S1x2.size a
  hwx20_4 : ∀ i : grid20.Coords, EltTy.bits .f32 = 32 ∨ (Rect.block (s := S1x2) S1x2.size (cc20_transform_4 i) (hinb20_4 i)).WholeWords (EltTy.packing .f32)
  hstage20_5 : ∀ j, (stage20_5 j).IsWhole
  nbuf20_5 : grid20.bufCount reads20_5 false = 2
  hreads20_5 : ∀ i i' : grid20.Coords, (∀ a, reads20_5 a = true → i a = i' a) → cc20_transform_5 i = cc20_transform_5 i'
  hinb20_5 : ∀ (i : grid20.Coords) a, (cc20_transform_5 i a + 1) * S4096x2.size a ≤ S102400x2.size a
  hwx20_5 : ∀ i : grid20.Coords, EltTy.bits .f32 = 32 ∨ (Rect.block (s := S102400x2) S4096x2.size (cc20_transform_5 i) (hinb20_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S100000x256_S69785x1_S69785x256_1_0_n_n_0_1_1256 : GatherDims S100000x256 S69785x1 S69785x256 where
  offsetDims := [1]
  collapsedSliceDims := [0]
  operandBatchingDims := []
  startIndicesBatchingDims := []
  startIndexMap := [0]
  indexVectorDim := 1
  sliceSizes := ![1, 256]
  wf := gather_S100000x256_S69785x1_S69785x256_1_0_n_n_0_1_1256_wf
def gather_S100000x256_S30215x1_S30215x256_1_0_n_n_0_1_1256 : GatherDims S100000x256 S30215x1 S30215x256 where
  offsetDims := [1]
  collapsedSliceDims := [0]
  operandBatchingDims := []
  startIndicesBatchingDims := []
  startIndexMap := [0]
  indexVectorDim := 1
  sliceSizes := ![1, 256]
  wf := gather_S100000x256_S30215x1_S30215x256_1_0_n_n_0_1_1256_wf
def gather_S69785x256_S279168x1_S279168x256_1_0_n_n_0_1_1256 : GatherDims S69785x256 S279168x1 S279168x256 where
  offsetDims := [1]
  collapsedSliceDims := [0]
  operandBatchingDims := []
  startIndicesBatchingDims := []
  startIndexMap := [0]
  indexVectorDim := 1
  sliceSizes := ![1, 256]
  wf := gather_S69785x256_S279168x1_S279168x256_1_0_n_n_0_1_1256_wf
def scatter_S69785x256_S279168x1_S279168x256_1_0_0_1 : ScatterDims S69785x256 S279168x1 S279168x256 where
  updateWindowDims := [1]
  insertedWindowDims := [0]
  scatterDimsToOperandDims := [0]
  indexVectorDim := 1
  wf := scatter_S69785x256_S279168x1_S279168x256_1_0_0_1_wf
def gather_S100000x256_S79460x1_S79460x256_1_0_n_n_0_1_1256 : GatherDims S100000x256 S79460x1 S79460x256 where
  offsetDims := [1]
  collapsedSliceDims := [0]
  operandBatchingDims := []
  startIndicesBatchingDims := []
  startIndexMap := [0]
  indexVectorDim := 1
  sliceSizes := ![1, 256]
  wf := gather_S100000x256_S79460x1_S79460x256_1_0_n_n_0_1_1256_wf
def gather_S100000x256_S20540x1_S20540x256_1_0_n_n_0_1_1256 : GatherDims S100000x256 S20540x1 S20540x256 where
  offsetDims := [1]
  collapsedSliceDims := [0]
  operandBatchingDims := []
  startIndicesBatchingDims := []
  startIndexMap := [0]
  indexVectorDim := 1
  sliceSizes := ![1, 256]
  wf := gather_S100000x256_S20540x1_S20540x256_1_0_n_n_0_1_1256_wf
def gather_S79460x256_S317997x1_S317997x256_1_0_n_n_0_1_1256 : GatherDims S79460x256 S317997x1 S317997x256 where
  offsetDims := [1]
  collapsedSliceDims := [0]
  operandBatchingDims := []
  startIndicesBatchingDims := []
  startIndexMap := [0]
  indexVectorDim := 1
  sliceSizes := ![1, 256]
  wf := gather_S79460x256_S317997x1_S317997x256_1_0_n_n_0_1_1256_wf
def scatter_S79460x256_S317997x1_S317997x256_1_0_0_1 : ScatterDims S79460x256 S317997x1 S317997x256 where
  updateWindowDims := [1]
  insertedWindowDims := [0]
  scatterDimsToOperandDims := [0]
  indexVectorDim := 1
  wf := scatter_S79460x256_S317997x1_S317997x256_1_0_0_1_wf
def gather_S100000x256_S74654x1_S74654x256_1_0_n_n_0_1_1256 : GatherDims S100000x256 S74654x1 S74654x256 where
  offsetDims := [1]
  collapsedSliceDims := [0]
  operandBatchingDims := []
  startIndicesBatchingDims := []
  startIndexMap := [0]
  indexVectorDim := 1
  sliceSizes := ![1, 256]
  wf := gather_S100000x256_S74654x1_S74654x256_1_0_n_n_0_1_1256_wf
def gather_S100000x256_S25346x1_S25346x256_1_0_n_n_0_1_1256 : GatherDims S100000x256 S25346x1 S25346x256 where
  offsetDims := [1]
  collapsedSliceDims := [0]
  operandBatchingDims := []
  startIndicesBatchingDims := []
  startIndexMap := [0]
  indexVectorDim := 1
  sliceSizes := ![1, 256]
  wf := gather_S100000x256_S25346x1_S25346x256_1_0_n_n_0_1_1256_wf
def gather_S74654x256_S298662x1_S298662x256_1_0_n_n_0_1_1256 : GatherDims S74654x256 S298662x1 S298662x256 where
  offsetDims := [1]
  collapsedSliceDims := [0]
  operandBatchingDims := []
  startIndicesBatchingDims := []
  startIndexMap := [0]
  indexVectorDim := 1
  sliceSizes := ![1, 256]
  wf := gather_S74654x256_S298662x1_S298662x256_1_0_n_n_0_1_1256_wf
def scatter_S74654x256_S298662x1_S298662x256_1_0_0_1 : ScatterDims S74654x256 S298662x1 S298662x256 where
  updateWindowDims := [1]
  insertedWindowDims := [0]
  scatterDimsToOperandDims := [0]
  indexVectorDim := 1
  wf := scatter_S74654x256_S298662x1_S298662x256_1_0_0_1_wf
def dot_S4096x256_S256x2_S4096x2_1_0_0_1_n_n : DotDims S4096x256 S256x2 S4096x2 where
  lhsContracting := [1]
  rhsContracting := [0]
  lhsNonContracting := [0]
  rhsNonContracting := [1]
  lhsBatch := []
  rhsBatch := []
  wf := dot_S4096x256_S256x2_S4096x2_1_0_0_1_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg19) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg21) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S4096x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S4096x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S4096x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v78) S4096x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S4096x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v26) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S4096x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v83) S4096x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg23) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v85) S4096x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v87) S4096x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg25) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v88) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v89) S4096x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v93) S4096x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v94) S4096x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v91) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v92) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v95) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v96) S4096x256.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v98) S4096x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v99) S4096x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v91) S256x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v92) S256x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v100) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v101) S4096x256.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v146) S4096x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v147) S4096x256.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v119) S256x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v120) S256x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v148) S1x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v149) S4096x256.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v174) S4096x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v175) S4096x256.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v121) S256x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v122) S256x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v176) S1x256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v177) S4096x256.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v179) S4096x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg23) S256x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v180) S1x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v181) S4096x256.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v183) S4096x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg25) S256x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v184) S1x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v185) S4096x256.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v189) S4096x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v190) S4096x256.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v187) S256x256.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v188) S256x256.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v191) S1x256.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v192) S4096x256.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v194) S4096x256.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v195) S4096x256.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v187) S256x256.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v188) S256x256.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v196) S1x256.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v197) S4096x256.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v242) S4096x256.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v243) S4096x256.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v215) S256x256.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v216) S256x256.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v244) S1x256.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v245) S4096x256.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v270) S4096x256.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v271) S4096x256.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v217) S256x256.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v218) S256x256.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v272) S1x256.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v273) S4096x256.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev win16_0 : Pipeline.Window sig grid16 :=
  Pipeline.Window.ofSpec (Memref.whole main_v275) S4096x256.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_arg23) S256x256.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v276) S1x256.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v277) S4096x256.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_v279) S4096x256.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_arg25) S256x256.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v280) S1x256.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v281) S4096x256.size cc17_transform_3 reads17_3 true false 2 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_v285) S4096x256.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v286) S4096x256.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v283) S256x256.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v284) S256x256.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v287) S1x256.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v288) S4096x256.size cc18_transform_5 reads18_5 true false 2 stage18_5 sem18_5
    hrank18 hreads18_5 hinb18_5 nbuf18_5 (Memref.isWhole_whole _) hwx18_5 hstage18_5

abbrev win18 : Fin 6 → Pipeline.Window sig grid18 := fun | 0 => win18_0 | 1 => win18_1 | 2 => win18_2 | 3 => win18_3 | 4 => win18_4 | 5 => win18_5 | ⟨_ + 6, h⟩ => absurd h (Nat.not_lt.2 (Nat.le_add_left _ _))
abbrev spec18 : Fin 6 → Pipeline.WinSpec sig grid18.rank := fun w => (win18 w).toWinSpec

abbrev win19_0 : Pipeline.Window sig grid19 :=
  Pipeline.Window.ofSpec (Memref.whole main_v290) S4096x256.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v291) S4096x256.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v283) S256x256.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v284) S256x256.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v292) S1x256.size cc19_transform_4 reads19_4 false true 1 stage19_4 sem19_4
    hrank19 hreads19_4 hinb19_4 nbuf19_4 (Memref.isWhole_whole _) hwx19_4 hstage19_4

abbrev win19_5 : Pipeline.Window sig grid19 :=
  Pipeline.Window.ofSpec (Memref.whole main_v293) S4096x256.size cc19_transform_5 reads19_5 true false 2 stage19_5 sem19_5
    hrank19 hreads19_5 hinb19_5 nbuf19_5 (Memref.isWhole_whole _) hwx19_5 hstage19_5

abbrev win19 : Fin 6 → Pipeline.Window sig grid19 := fun | 0 => win19_0 | 1 => win19_1 | 2 => win19_2 | 3 => win19_3 | 4 => win19_4 | 5 => win19_5 | ⟨_ + 6, h⟩ => absurd h (Nat.not_lt.2 (Nat.le_add_left _ _))
abbrev spec19 : Fin 6 → Pipeline.WinSpec sig grid19.rank := fun w => (win19 w).toWinSpec

abbrev win20_0 : Pipeline.Window sig grid20 :=
  Pipeline.Window.ofSpec (Memref.whole main_v296) S4096x256.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v297) S4096x256.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v298) S4096x256.size cc20_transform_2 reads20_2 false false 2 stage20_2 sem20_2
    hrank20 hreads20_2 hinb20_2 nbuf20_2 (Memref.isWhole_whole _) hwx20_2 hstage20_2

abbrev win20_3 : Pipeline.Window sig grid20 :=
  Pipeline.Window.ofSpec (Memref.whole main_arg33) S256x2.size cc20_transform_3 reads20_3 false true 1 stage20_3 sem20_3
    hrank20 hreads20_3 hinb20_3 nbuf20_3 (Memref.isWhole_whole _) hwx20_3 hstage20_3

abbrev win20_4 : Pipeline.Window sig grid20 :=
  Pipeline.Window.ofSpec (Memref.whole main_v299) S1x2.size cc20_transform_4 reads20_4 false true 1 stage20_4 sem20_4
    hrank20 hreads20_4 hinb20_4 nbuf20_4 (Memref.isWhole_whole _) hwx20_4 hstage20_4

abbrev win20_5 : Pipeline.Window sig grid20 :=
  Pipeline.Window.ofSpec (Memref.whole main_v300) S4096x2.size cc20_transform_5 reads20_5 true false 2 stage20_5 sem20_5
    hrank20 hreads20_5 hinb20_5 nbuf20_5 (Memref.isWhole_whole _) hwx20_5 hstage20_5

abbrev win20 : Fin 6 → Pipeline.Window sig grid20 := fun | 0 => win20_0 | 1 => win20_1 | 2 => win20_2 | 3 => win20_3 | 4 => win20_4 | 5 => win20_5 | ⟨_ + 6, h⟩ => absurd h (Nat.not_lt.2 (Nat.le_add_left _ _))
abbrev spec20 : Fin 6 → Pipeline.WinSpec sig grid20.rank := fun w => (win20 w).toWinSpec

class Facts : Prop extends Facts₀ where

variable [Facts]
-- ==== ReferenceIdeal.lean ====
abbrev S100000x256 : Shape := ⟨2, ![100000, 256]⟩
abbrev S69785 : Shape := ⟨1, ![69785]⟩
abbrev S30215 : Shape := ⟨1, ![30215]⟩
abbrev S279168 : Shape := ⟨1, ![279168]⟩
abbrev S_ : Shape := ⟨0, ![]⟩
abbrev S79460 : Shape := ⟨1, ![79460]⟩
abbrev S20540 : Shape := ⟨1, ![20540]⟩
abbrev S317997 : Shape := ⟨1, ![317997]⟩
abbrev S74654 : Shape := ⟨1, ![74654]⟩
abbrev S25346 : Shape := ⟨1, ![25346]⟩
abbrev S298662 : Shape := ⟨1, ![298662]⟩
abbrev S256x256 : Shape := ⟨2, ![256, 256]⟩
abbrev S256 : Shape := ⟨1, ![256]⟩
abbrev S512x256 : Shape := ⟨2, ![512, 256]⟩
abbrev S256x2 : Shape := ⟨2, ![256, 2]⟩
abbrev S2 : Shape := ⟨1, ![2]⟩
abbrev S1x256 : Shape := ⟨2, ![1, 256]⟩
abbrev S69785x1 : Shape := ⟨2, ![69785, 1]⟩
abbrev S69785x256 : Shape := ⟨2, ![69785, 256]⟩
abbrev S279168x1 : Shape := ⟨2, ![279168, 1]⟩
abbrev S279168x256 : Shape := ⟨2, ![279168, 256]⟩
abbrev S69785x512 : Shape := ⟨2, ![69785, 512]⟩
abbrev S30215x1 : Shape := ⟨2, ![30215, 1]⟩
abbrev S30215x256 : Shape := ⟨2, ![30215, 256]⟩
abbrev S30215x512 : Shape := ⟨2, ![30215, 512]⟩
abbrev S100000x512 : Shape := ⟨2, ![100000, 512]⟩
abbrev S79460x1 : Shape := ⟨2, ![79460, 1]⟩
abbrev S79460x256 : Shape := ⟨2, ![79460, 256]⟩
abbrev S317997x1 : Shape := ⟨2, ![317997, 1]⟩
abbrev S317997x256 : Shape := ⟨2, ![317997, 256]⟩
abbrev S79460x512 : Shape := ⟨2, ![79460, 512]⟩
abbrev S20540x1 : Shape := ⟨2, ![20540, 1]⟩
abbrev S20540x256 : Shape := ⟨2, ![20540, 256]⟩
abbrev S20540x512 : Shape := ⟨2, ![20540, 512]⟩
abbrev S74654x1 : Shape := ⟨2, ![74654, 1]⟩
abbrev S74654x256 : Shape := ⟨2, ![74654, 256]⟩
abbrev S298662x1 : Shape := ⟨2, ![298662, 1]⟩
abbrev S298662x256 : Shape := ⟨2, ![298662, 256]⟩
abbrev S74654x512 : Shape := ⟨2, ![74654, 512]⟩
abbrev S25346x1 : Shape := ⟨2, ![25346, 1]⟩
abbrev S25346x256 : Shape := ⟨2, ![25346, 256]⟩
abbrev S25346x512 : Shape := ⟨2, ![25346, 512]⟩
abbrev S100000x2 : Shape := ⟨2, ![100000, 2]⟩
abbrev S1x2 : Shape := ⟨2, ![1, 2]⟩

abbrev nBuf : Space → Nat
  | .hbm => 391
  | .vmem => 0
  | .smem => 0
  | _ => 0

abbrev hbmTy0_0 (i : Nat) : BufTy := match i % 128 with
  | 0 => ⟨S100000x256, .f32⟩
  | 1 => ⟨S69785, .i32⟩
  | 2 => ⟨S30215, .i32⟩
  | 3 => ⟨S279168, .i32⟩
  | 4 => ⟨S279168, .i32⟩
  | 5 => ⟨S69785, .f32⟩
  | 6 => ⟨S_, .f32⟩
  | 7 => ⟨S79460, .i32⟩
  | 8 => ⟨S20540, .i32⟩
  | 9 => ⟨S317997, .i32⟩
  | 10 => ⟨S317997, .i32⟩
  | 11 => ⟨S79460, .f32⟩
  | 12 => ⟨S_, .f32⟩
  | 13 => ⟨S74654, .i32⟩
  | 14 => ⟨S25346, .i32⟩
  | 15 => ⟨S298662, .i32⟩
  | 16 => ⟨S298662, .i32⟩
  | 17 => ⟨S74654, .f32⟩
  | 18 => ⟨S_, .f32⟩
  | 19 => ⟨S256x256, .f32⟩
  | 20 => ⟨S256, .f32⟩
  | 21 => ⟨S256x256, .f32⟩
  | 22 => ⟨S256, .f32⟩
  | 23 => ⟨S256x256, .f32⟩
  | 24 => ⟨S256, .f32⟩
  | 25 => ⟨S256x256, .f32⟩
  | 26 => ⟨S256, .f32⟩
  | 27 => ⟨S512x256, .f32⟩
  | 28 => ⟨S256, .f32⟩
  | 29 => ⟨S512x256, .f32⟩
  | 30 => ⟨S256, .f32⟩
  | 31 => ⟨S512x256, .f32⟩
  | 32 => ⟨S256, .f32⟩
  | 33 => ⟨S256x2, .f32⟩
  | 34 => ⟨S2, .f32⟩
  | 35 => ⟨S100000x256, .f32⟩
  | 36 => ⟨S1x256, .f32⟩
  | 37 => ⟨S100000x256, .f32⟩
  | 38 => ⟨S100000x256, .f32⟩
  | 39 => ⟨S_, .f32⟩
  | 40 => ⟨S100000x256, .f32⟩
  | 41 => ⟨S100000x256, .i1⟩
  | 42 => ⟨S_, .f32⟩
  | 43 => ⟨S100000x256, .f32⟩
  | 44 => ⟨S100000x256, .f32⟩
  | 45 => ⟨S100000x256, .f32⟩
  | 46 => ⟨S100000x256, .f32⟩
  | 47 => ⟨S1x256, .f32⟩
  | 48 => ⟨S100000x256, .f32⟩
  | 49 => ⟨S100000x256, .f32⟩
  | 50 => ⟨S_, .f32⟩
  | 51 => ⟨S100000x256, .f32⟩
  | 52 => ⟨S100000x256, .i1⟩
  | 53 => ⟨S_, .f32⟩
  | 54 => ⟨S100000x256, .f32⟩
  | 55 => ⟨S100000x256, .f32⟩
  | 56 => ⟨S100000x256, .f32⟩
  | 57 => ⟨S_, .i32⟩
  | 58 => ⟨S69785, .i32⟩
  | 59 => ⟨S69785, .i1⟩
  | 60 => ⟨S_, .i32⟩
  | 61 => ⟨S69785, .i32⟩
  | 62 => ⟨S69785, .i32⟩
  | 63 => ⟨S69785, .i32⟩
  | 64 => ⟨S69785x1, .i32⟩
  | 65 => ⟨S69785x256, .f32⟩
  | 66 => ⟨S_, .f32⟩
  | 67 => ⟨S_, .f32⟩
  | 68 => ⟨S69785x1, .f32⟩
  | 69 => ⟨S69785x256, .f32⟩
  | 70 => ⟨S69785x256, .f32⟩
  | 71 => ⟨S_, .i32⟩
  | 72 => ⟨S279168, .i32⟩
  | 73 => ⟨S279168, .i1⟩
  | 74 => ⟨S_, .i32⟩
  | 75 => ⟨S279168, .i32⟩
  | 76 => ⟨S279168, .i32⟩
  | 77 => ⟨S279168, .i32⟩
  | 78 => ⟨S279168x1, .i32⟩
  | 79 => ⟨S279168x256, .f32⟩
  | 80 => ⟨S_, .f32⟩
  | 81 => ⟨S69785x256, .f32⟩
  | 82 => ⟨S279168x1, .i32⟩
  | 83 => ⟨S69785x256, .f32⟩
  | 84 => ⟨S69785x1, .f32⟩
  | 85 => ⟨S69785x256, .f32⟩
  | 86 => ⟨S69785x256, .f32⟩
  | 87 => ⟨S_, .f32⟩
  | 88 => ⟨S69785x256, .f32⟩
  | 89 => ⟨S69785x256, .f32⟩
  | 90 => ⟨S_, .f32⟩
  | 91 => ⟨S_, .f32⟩
  | 92 => ⟨S69785x256, .f32⟩
  | 93 => ⟨S69785x256, .f32⟩
  | 94 => ⟨S69785x256, .f32⟩
  | 95 => ⟨S69785x512, .f32⟩
  | 96 => ⟨S69785x256, .f32⟩
  | 97 => ⟨S1x256, .f32⟩
  | 98 => ⟨S69785x256, .f32⟩
  | 99 => ⟨S69785x256, .f32⟩
  | 100 => ⟨S_, .f32⟩
  | 101 => ⟨S69785x256, .f32⟩
  | 102 => ⟨S69785x256, .f32⟩
  | 103 => ⟨S_, .f32⟩
  | 104 => ⟨S_, .f32⟩
  | 105 => ⟨S69785x1, .f32⟩
  | 106 => ⟨S69785x256, .f32⟩
  | 107 => ⟨S69785x256, .f32⟩
  | 108 => ⟨S_, .i32⟩
  | 109 => ⟨S279168, .i32⟩
  | 110 => ⟨S279168, .i1⟩
  | 111 => ⟨S_, .i32⟩
  | 112 => ⟨S279168, .i32⟩
  | 113 => ⟨S279168, .i32⟩
  | 114 => ⟨S279168, .i32⟩
  | 115 => ⟨S279168x1, .i32⟩
  | 116 => ⟨S279168x256, .f32⟩
  | 117 => ⟨S_, .f32⟩
  | 118 => ⟨S69785x256, .f32⟩
  | 119 => ⟨S279168x1, .i32⟩
  | 120 => ⟨S69785x256, .f32⟩
  | 121 => ⟨S69785x1, .f32⟩
  | 122 => ⟨S69785x256, .f32⟩
  | 123 => ⟨S69785x256, .f32⟩
  | 124 => ⟨S_, .f32⟩
  | 125 => ⟨S69785x256, .f32⟩
  | 126 => ⟨S69785x256, .f32⟩
  | 127 => ⟨S_, .f32⟩
  | _ => ⟨S100000x256, .f32⟩

abbrev hbmTy0_1 (i : Nat) : BufTy := match i % 128 with
  | 0 => ⟨S_, .f32⟩
  | 1 => ⟨S69785x256, .f32⟩
  | 2 => ⟨S69785x256, .f32⟩
  | 3 => ⟨S69785x256, .f32⟩
  | 4 => ⟨S69785x512, .f32⟩
  | 5 => ⟨S69785x256, .f32⟩
  | 6 => ⟨S1x256, .f32⟩
  | 7 => ⟨S69785x256, .f32⟩
  | 8 => ⟨S69785x256, .f32⟩
  | 9 => ⟨S_, .f32⟩
  | 10 => ⟨S69785x256, .f32⟩
  | 11 => ⟨S69785x256, .f32⟩
  | 12 => ⟨S_, .i32⟩
  | 13 => ⟨S30215, .i32⟩
  | 14 => ⟨S30215, .i1⟩
  | 15 => ⟨S_, .i32⟩
  | 16 => ⟨S30215, .i32⟩
  | 17 => ⟨S30215, .i32⟩
  | 18 => ⟨S30215, .i32⟩
  | 19 => ⟨S30215x1, .i32⟩
  | 20 => ⟨S30215x256, .f32⟩
  | 21 => ⟨S30215x256, .f32⟩
  | 22 => ⟨S1x256, .f32⟩
  | 23 => ⟨S30215x256, .f32⟩
  | 24 => ⟨S30215x256, .f32⟩
  | 25 => ⟨S30215x256, .f32⟩
  | 26 => ⟨S1x256, .f32⟩
  | 27 => ⟨S30215x256, .f32⟩
  | 28 => ⟨S30215x256, .f32⟩
  | 29 => ⟨S69785x512, .f32⟩
  | 30 => ⟨S30215x512, .f32⟩
  | 31 => ⟨S100000x512, .f32⟩
  | 32 => ⟨S100000x256, .f32⟩
  | 33 => ⟨S1x256, .f32⟩
  | 34 => ⟨S100000x256, .f32⟩
  | 35 => ⟨S100000x256, .f32⟩
  | 36 => ⟨S_, .i32⟩
  | 37 => ⟨S79460, .i32⟩
  | 38 => ⟨S79460, .i1⟩
  | 39 => ⟨S_, .i32⟩
  | 40 => ⟨S79460, .i32⟩
  | 41 => ⟨S79460, .i32⟩
  | 42 => ⟨S79460, .i32⟩
  | 43 => ⟨S79460x1, .i32⟩
  | 44 => ⟨S79460x256, .f32⟩
  | 45 => ⟨S_, .f32⟩
  | 46 => ⟨S_, .f32⟩
  | 47 => ⟨S79460x1, .f32⟩
  | 48 => ⟨S79460x256, .f32⟩
  | 49 => ⟨S79460x256, .f32⟩
  | 50 => ⟨S_, .i32⟩
  | 51 => ⟨S317997, .i32⟩
  | 52 => ⟨S317997, .i1⟩
  | 53 => ⟨S_, .i32⟩
  | 54 => ⟨S317997, .i32⟩
  | 55 => ⟨S317997, .i32⟩
  | 56 => ⟨S317997, .i32⟩
  | 57 => ⟨S317997x1, .i32⟩
  | 58 => ⟨S317997x256, .f32⟩
  | 59 => ⟨S_, .f32⟩
  | 60 => ⟨S79460x256, .f32⟩
  | 61 => ⟨S317997x1, .i32⟩
  | 62 => ⟨S79460x256, .f32⟩
  | 63 => ⟨S79460x1, .f32⟩
  | 64 => ⟨S79460x256, .f32⟩
  | 65 => ⟨S79460x256, .f32⟩
  | 66 => ⟨S_, .f32⟩
  | 67 => ⟨S79460x256, .f32⟩
  | 68 => ⟨S79460x256, .f32⟩
  | 69 => ⟨S_, .f32⟩
  | 70 => ⟨S_, .f32⟩
  | 71 => ⟨S79460x256, .f32⟩
  | 72 => ⟨S79460x256, .f32⟩
  | 73 => ⟨S79460x256, .f32⟩
  | 74 => ⟨S79460x512, .f32⟩
  | 75 => ⟨S79460x256, .f32⟩
  | 76 => ⟨S1x256, .f32⟩
  | 77 => ⟨S79460x256, .f32⟩
  | 78 => ⟨S79460x256, .f32⟩
  | 79 => ⟨S_, .f32⟩
  | 80 => ⟨S79460x256, .f32⟩
  | 81 => ⟨S79460x256, .f32⟩
  | 82 => ⟨S_, .f32⟩
  | 83 => ⟨S_, .f32⟩
  | 84 => ⟨S79460x1, .f32⟩
  | 85 => ⟨S79460x256, .f32⟩
  | 86 => ⟨S79460x256, .f32⟩
  | 87 => ⟨S_, .i32⟩
  | 88 => ⟨S317997, .i32⟩
  | 89 => ⟨S317997, .i1⟩
  | 90 => ⟨S_, .i32⟩
  | 91 => ⟨S317997, .i32⟩
  | 92 => ⟨S317997, .i32⟩
  | 93 => ⟨S317997, .i32⟩
  | 94 => ⟨S317997x1, .i32⟩
  | 95 => ⟨S317997x256, .f32⟩
  | 96 => ⟨S_, .f32⟩
  | 97 => ⟨S79460x256, .f32⟩
  | 98 => ⟨S317997x1, .i32⟩
  | 99 => ⟨S79460x256, .f32⟩
  | 100 => ⟨S79460x1, .f32⟩
  | 101 => ⟨S79460x256, .f32⟩
  | 102 => ⟨S79460x256, .f32⟩
  | 103 => ⟨S_, .f32⟩
  | 104 => ⟨S79460x256, .f32⟩
  | 105 => ⟨S79460x256, .f32⟩
  | 106 => ⟨S_, .f32⟩
  | 107 => ⟨S_, .f32⟩
  | 108 => ⟨S79460x256, .f32⟩
  | 109 => ⟨S79460x256, .f32⟩
  | 110 => ⟨S79460x256, .f32⟩
  | 111 => ⟨S79460x512, .f32⟩
  | 112 => ⟨S79460x256, .f32⟩
  | 113 => ⟨S1x256, .f32⟩
  | 114 => ⟨S79460x256, .f32⟩
  | 115 => ⟨S79460x256, .f32⟩
  | 116 => ⟨S_, .f32⟩
  | 117 => ⟨S79460x256, .f32⟩
  | 118 => ⟨S79460x256, .f32⟩
  | 119 => ⟨S_, .i32⟩
  | 120 => ⟨S20540, .i32⟩
  | 121 => ⟨S20540, .i1⟩
  | 122 => ⟨S_, .i32⟩
  | 123 => ⟨S20540, .i32⟩
  | 124 => ⟨S20540, .i32⟩
  | 125 => ⟨S20540, .i32⟩
  | 126 => ⟨S20540x1, .i32⟩
  | 127 => ⟨S20540x256, .f32⟩
  | _ => ⟨S100000x256, .f32⟩

abbrev hbmTy0_2 (i : Nat) : BufTy := match i % 128 with
  | 0 => ⟨S20540x256, .f32⟩
  | 1 => ⟨S1x256, .f32⟩
  | 2 => ⟨S20540x256, .f32⟩
  | 3 => ⟨S20540x256, .f32⟩
  | 4 => ⟨S20540x256, .f32⟩
  | 5 => ⟨S1x256, .f32⟩
  | 6 => ⟨S20540x256, .f32⟩
  | 7 => ⟨S20540x256, .f32⟩
  | 8 => ⟨S79460x512, .f32⟩
  | 9 => ⟨S20540x512, .f32⟩
  | 10 => ⟨S100000x512, .f32⟩
  | 11 => ⟨S100000x256, .f32⟩
  | 12 => ⟨S1x256, .f32⟩
  | 13 => ⟨S100000x256, .f32⟩
  | 14 => ⟨S100000x256, .f32⟩
  | 15 => ⟨S_, .i32⟩
  | 16 => ⟨S74654, .i32⟩
  | 17 => ⟨S74654, .i1⟩
  | 18 => ⟨S_, .i32⟩
  | 19 => ⟨S74654, .i32⟩
  | 20 => ⟨S74654, .i32⟩
  | 21 => ⟨S74654, .i32⟩
  | 22 => ⟨S74654x1, .i32⟩
  | 23 => ⟨S74654x256, .f32⟩
  | 24 => ⟨S_, .f32⟩
  | 25 => ⟨S_, .f32⟩
  | 26 => ⟨S74654x1, .f32⟩
  | 27 => ⟨S74654x256, .f32⟩
  | 28 => ⟨S74654x256, .f32⟩
  | 29 => ⟨S_, .i32⟩
  | 30 => ⟨S298662, .i32⟩
  | 31 => ⟨S298662, .i1⟩
  | 32 => ⟨S_, .i32⟩
  | 33 => ⟨S298662, .i32⟩
  | 34 => ⟨S298662, .i32⟩
  | 35 => ⟨S298662, .i32⟩
  | 36 => ⟨S298662x1, .i32⟩
  | 37 => ⟨S298662x256, .f32⟩
  | 38 => ⟨S_, .f32⟩
  | 39 => ⟨S74654x256, .f32⟩
  | 40 => ⟨S298662x1, .i32⟩
  | 41 => ⟨S74654x256, .f32⟩
  | 42 => ⟨S74654x1, .f32⟩
  | 43 => ⟨S74654x256, .f32⟩
  | 44 => ⟨S74654x256, .f32⟩
  | 45 => ⟨S_, .f32⟩
  | 46 => ⟨S74654x256, .f32⟩
  | 47 => ⟨S74654x256, .f32⟩
  | 48 => ⟨S_, .f32⟩
  | 49 => ⟨S_, .f32⟩
  | 50 => ⟨S74654x256, .f32⟩
  | 51 => ⟨S74654x256, .f32⟩
  | 52 => ⟨S74654x256, .f32⟩
  | 53 => ⟨S74654x512, .f32⟩
  | 54 => ⟨S74654x256, .f32⟩
  | 55 => ⟨S1x256, .f32⟩
  | 56 => ⟨S74654x256, .f32⟩
  | 57 => ⟨S74654x256, .f32⟩
  | 58 => ⟨S_, .f32⟩
  | 59 => ⟨S74654x256, .f32⟩
  | 60 => ⟨S74654x256, .f32⟩
  | 61 => ⟨S_, .f32⟩
  | 62 => ⟨S_, .f32⟩
  | 63 => ⟨S74654x1, .f32⟩
  | 64 => ⟨S74654x256, .f32⟩
  | 65 => ⟨S74654x256, .f32⟩
  | 66 => ⟨S_, .i32⟩
  | 67 => ⟨S298662, .i32⟩
  | 68 => ⟨S298662, .i1⟩
  | 69 => ⟨S_, .i32⟩
  | 70 => ⟨S298662, .i32⟩
  | 71 => ⟨S298662, .i32⟩
  | 72 => ⟨S298662, .i32⟩
  | 73 => ⟨S298662x1, .i32⟩
  | 74 => ⟨S298662x256, .f32⟩
  | 75 => ⟨S_, .f32⟩
  | 76 => ⟨S74654x256, .f32⟩
  | 77 => ⟨S298662x1, .i32⟩
  | 78 => ⟨S74654x256, .f32⟩
  | 79 => ⟨S74654x1, .f32⟩
  | 80 => ⟨S74654x256, .f32⟩
  | 81 => ⟨S74654x256, .f32⟩
  | 82 => ⟨S_, .f32⟩
  | 83 => ⟨S74654x256, .f32⟩
  | 84 => ⟨S74654x256, .f32⟩
  | 85 => ⟨S_, .f32⟩
  | 86 => ⟨S_, .f32⟩
  | 87 => ⟨S74654x256, .f32⟩
  | 88 => ⟨S74654x256, .f32⟩
  | 89 => ⟨S74654x256, .f32⟩
  | 90 => ⟨S74654x512, .f32⟩
  | 91 => ⟨S74654x256, .f32⟩
  | 92 => ⟨S1x256, .f32⟩
  | 93 => ⟨S74654x256, .f32⟩
  | 94 => ⟨S74654x256, .f32⟩
  | 95 => ⟨S_, .f32⟩
  | 96 => ⟨S74654x256, .f32⟩
  | 97 => ⟨S74654x256, .f32⟩
  | 98 => ⟨S_, .i32⟩
  | 99 => ⟨S25346, .i32⟩
  | 100 => ⟨S25346, .i1⟩
  | 101 => ⟨S_, .i32⟩
  | 102 => ⟨S25346, .i32⟩
  | 103 => ⟨S25346, .i32⟩
  | 104 => ⟨S25346, .i32⟩
  | 105 => ⟨S25346x1, .i32⟩
  | 106 => ⟨S25346x256, .f32⟩
  | 107 => ⟨S25346x256, .f32⟩
  | 108 => ⟨S1x256, .f32⟩
  | 109 => ⟨S25346x256, .f32⟩
  | 110 => ⟨S25346x256, .f32⟩
  | 111 => ⟨S25346x256, .f32⟩
  | 112 => ⟨S1x256, .f32⟩
  | 113 => ⟨S25346x256, .f32⟩
  | 114 => ⟨S25346x256, .f32⟩
  | 115 => ⟨S74654x512, .f32⟩
  | 116 => ⟨S25346x512, .f32⟩
  | 117 => ⟨S100000x512, .f32⟩
  | 118 => ⟨S100000x256, .f32⟩
  | 119 => ⟨S1x256, .f32⟩
  | 120 => ⟨S100000x256, .f32⟩
  | 121 => ⟨S100000x256, .f32⟩
  | 122 => ⟨S100000x256, .f32⟩
  | 123 => ⟨S100000x256, .f32⟩
  | 124 => ⟨S_, .f32⟩
  | 125 => ⟨S100000x256, .f32⟩
  | 126 => ⟨S100000x256, .i1⟩
  | 127 => ⟨S_, .f32⟩
  | _ => ⟨S100000x256, .f32⟩

abbrev hbmTy0_3 (i : Nat) : BufTy := match i % 128 with
  | 0 => ⟨S100000x256, .f32⟩
  | 1 => ⟨S100000x256, .f32⟩
  | 2 => ⟨S100000x256, .f32⟩
  | 3 => ⟨S100000x2, .f32⟩
  | 4 => ⟨S1x2, .f32⟩
  | 5 => ⟨S100000x2, .f32⟩
  | 6 => ⟨S100000x2, .f32⟩
  | _ => ⟨S100000x256, .f32⟩

abbrev hbmTy (i : Nat) : BufTy := match i / 128 with
  | 0 => hbmTy0_0 i
  | 1 => hbmTy0_1 i
  | 2 => hbmTy0_2 i
  | 3 => hbmTy0_3 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_cst_0 : Ref sig .tc := ⟨.hbm, 42, rfl⟩
abbrev main_call0_v2 : Ref sig .tc := ⟨.hbm, 43, rfl⟩
abbrev main_call0_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_call1_cst : Ref sig .tc := ⟨.hbm, 50, rfl⟩
abbrev main_call1_v0 : Ref sig .tc := ⟨.hbm, 51, rfl⟩
abbrev main_call1_v1 : Ref sig .tc := ⟨.hbm, 52, rfl⟩
abbrev main_call1_cst_0 : Ref sig .tc := ⟨.hbm, 53, rfl⟩
abbrev main_call1_v2 : Ref sig .tc := ⟨.hbm, 54, rfl⟩
abbrev main_call1_v3 : Ref sig .tc := ⟨.hbm, 55, rfl⟩
abbrev main_v9 : Ref sig .tc := ⟨.hbm, 56, rfl⟩
abbrev main_c : Ref sig .tc := ⟨.hbm, 57, rfl⟩
abbrev main_v10 : Ref sig .tc := ⟨.hbm, 58, rfl⟩
abbrev main_v11 : Ref sig .tc := ⟨.hbm, 59, rfl⟩
abbrev main_c_0 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_cst : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_c_1 : Ref sig .tc := ⟨.hbm, 71, rfl⟩
abbrev main_v21 : Ref sig .tc := ⟨.hbm, 72, rfl⟩
abbrev main_v22 : Ref sig .tc := ⟨.hbm, 73, rfl⟩
abbrev main_c_2 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_cst_3 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_cst_4 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_call2_cst : Ref sig .tc := ⟨.hbm, 100, rfl⟩
abbrev main_call2_v0 : Ref sig .tc := ⟨.hbm, 101, rfl⟩
abbrev main_v46 : Ref sig .tc := ⟨.hbm, 102, rfl⟩
abbrev main_cst_5 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_c_6 : Ref sig .tc := ⟨.hbm, 108, rfl⟩
abbrev main_v51 : Ref sig .tc := ⟨.hbm, 109, rfl⟩
abbrev main_v52 : Ref sig .tc := ⟨.hbm, 110, rfl⟩
abbrev main_c_7 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_cst_8 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_cst_9 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_call3_cst : Ref sig .tc := ⟨.hbm, 137, rfl⟩
abbrev main_call3_v0 : Ref sig .tc := ⟨.hbm, 138, rfl⟩
abbrev main_v76 : Ref sig .tc := ⟨.hbm, 139, rfl⟩
abbrev main_c_10 : Ref sig .tc := ⟨.hbm, 140, rfl⟩
abbrev main_v77 : Ref sig .tc := ⟨.hbm, 141, rfl⟩
abbrev main_v78 : Ref sig .tc := ⟨.hbm, 142, rfl⟩
abbrev main_c_11 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_c_12 : Ref sig .tc := ⟨.hbm, 164, rfl⟩
abbrev main_v99 : Ref sig .tc := ⟨.hbm, 165, rfl⟩
abbrev main_v100 : Ref sig .tc := ⟨.hbm, 166, rfl⟩
abbrev main_c_13 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_cst_14 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_c_15 : Ref sig .tc := ⟨.hbm, 178, rfl⟩
abbrev main_v110 : Ref sig .tc := ⟨.hbm, 179, rfl⟩
abbrev main_v111 : Ref sig .tc := ⟨.hbm, 180, rfl⟩
abbrev main_c_16 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_cst_17 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_cst_18 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_call4_cst : Ref sig .tc := ⟨.hbm, 207, rfl⟩
abbrev main_call4_v0 : Ref sig .tc := ⟨.hbm, 208, rfl⟩
abbrev main_v135 : Ref sig .tc := ⟨.hbm, 209, rfl⟩
abbrev main_cst_19 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_c_20 : Ref sig .tc := ⟨.hbm, 215, rfl⟩
abbrev main_v140 : Ref sig .tc := ⟨.hbm, 216, rfl⟩
abbrev main_v141 : Ref sig .tc := ⟨.hbm, 217, rfl⟩
abbrev main_c_21 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_cst_22 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_cst_23 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_call5_cst : Ref sig .tc := ⟨.hbm, 244, rfl⟩
abbrev main_call5_v0 : Ref sig .tc := ⟨.hbm, 245, rfl⟩
abbrev main_v165 : Ref sig .tc := ⟨.hbm, 246, rfl⟩
abbrev main_c_24 : Ref sig .tc := ⟨.hbm, 247, rfl⟩
abbrev main_v166 : Ref sig .tc := ⟨.hbm, 248, rfl⟩
abbrev main_v167 : Ref sig .tc := ⟨.hbm, 249, rfl⟩
abbrev main_c_25 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_c_26 : Ref sig .tc := ⟨.hbm, 271, rfl⟩
abbrev main_v188 : Ref sig .tc := ⟨.hbm, 272, rfl⟩
abbrev main_v189 : Ref sig .tc := ⟨.hbm, 273, rfl⟩
abbrev main_c_27 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_cst_28 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_c_29 : Ref sig .tc := ⟨.hbm, 285, rfl⟩
abbrev main_v199 : Ref sig .tc := ⟨.hbm, 286, rfl⟩
abbrev main_v200 : Ref sig .tc := ⟨.hbm, 287, rfl⟩
abbrev main_c_30 : Ref sig .tc := ⟨.hbm, 288, rfl⟩
abbrev main_v201 : Ref sig .tc := ⟨.hbm, 289, rfl⟩
abbrev main_v202 : Ref sig .tc := ⟨.hbm, 290, rfl⟩
abbrev main_v203 : Ref sig .tc := ⟨.hbm, 291, rfl⟩
abbrev main_v204 : Ref sig .tc := ⟨.hbm, 292, rfl⟩
abbrev main_v205 : Ref sig .tc := ⟨.hbm, 293, rfl⟩
abbrev main_cst_31 : Ref sig .tc := ⟨.hbm, 294, rfl⟩
abbrev main_v206 : Ref sig .tc := ⟨.hbm, 295, rfl⟩
abbrev main_v207 : Ref sig .tc := ⟨.hbm, 296, rfl⟩
abbrev main_v208 : Ref sig .tc := ⟨.hbm, 297, rfl⟩
abbrev main_v209 : Ref sig .tc := ⟨.hbm, 298, rfl⟩
abbrev main_v210 : Ref sig .tc := ⟨.hbm, 299, rfl⟩
abbrev main_v211 : Ref sig .tc := ⟨.hbm, 300, rfl⟩
abbrev main_v212 : Ref sig .tc := ⟨.hbm, 301, rfl⟩
abbrev main_v213 : Ref sig .tc := ⟨.hbm, 302, rfl⟩
abbrev main_v214 : Ref sig .tc := ⟨.hbm, 303, rfl⟩
abbrev main_cst_32 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_v219 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_call6_cst : Ref sig .tc := ⟨.hbm, 314, rfl⟩
abbrev main_call6_v0 : Ref sig .tc := ⟨.hbm, 315, rfl⟩
abbrev main_v224 : Ref sig .tc := ⟨.hbm, 316, rfl⟩
abbrev main_cst_33 : Ref sig .tc := ⟨.hbm, 317, rfl⟩
abbrev main_v225 : Ref sig .tc := ⟨.hbm, 318, rfl⟩
abbrev main_v226 : Ref sig .tc := ⟨.hbm, 319, rfl⟩
abbrev main_v227 : Ref sig .tc := ⟨.hbm, 320, rfl⟩
abbrev main_v228 : Ref sig .tc := ⟨.hbm, 321, rfl⟩
abbrev main_c_34 : Ref sig .tc := ⟨.hbm, 322, rfl⟩
abbrev main_v229 : Ref sig .tc := ⟨.hbm, 323, rfl⟩
abbrev main_v230 : Ref sig .tc := ⟨.hbm, 324, rfl⟩
abbrev main_c_35 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_cst_36 : Ref sig .tc := ⟨.hbm, 331, rfl⟩
abbrev main_v236 : Ref sig .tc := ⟨.hbm, 332, rfl⟩
abbrev main_v237 : Ref sig .tc := ⟨.hbm, 333, rfl⟩
abbrev main_v238 : Ref sig .tc := ⟨.hbm, 334, rfl⟩
abbrev main_v239 : Ref sig .tc := ⟨.hbm, 335, rfl⟩
abbrev main_v240 : Ref sig .tc := ⟨.hbm, 336, rfl⟩
abbrev main_v241 : Ref sig .tc := ⟨.hbm, 337, rfl⟩
abbrev main_v242 : Ref sig .tc := ⟨.hbm, 338, rfl⟩
abbrev main_v243 : Ref sig .tc := ⟨.hbm, 339, rfl⟩
abbrev main_v244 : Ref sig .tc := ⟨.hbm, 340, rfl⟩
abbrev main_cst_37 : Ref sig .tc := ⟨.hbm, 341, rfl⟩
abbrev main_v245 : Ref sig .tc := ⟨.hbm, 342, rfl⟩
abbrev main_v246 : Ref sig .tc := ⟨.hbm, 343, rfl⟩
abbrev main_v247 : Ref sig .tc := ⟨.hbm, 344, rfl⟩
abbrev main_v248 : Ref sig .tc := ⟨.hbm, 345, rfl⟩
abbrev main_v249 : Ref sig .tc := ⟨.hbm, 346, rfl⟩
abbrev main_v250 : Ref sig .tc := ⟨.hbm, 347, rfl⟩
abbrev main_v251 : Ref sig .tc := ⟨.hbm, 348, rfl⟩
abbrev main_v252 : Ref sig .tc := ⟨.hbm, 349, rfl⟩
abbrev main_v253 : Ref sig .tc := ⟨.hbm, 350, rfl⟩
abbrev main_call7_cst : Ref sig .tc := ⟨.hbm, 351, rfl⟩
abbrev main_call7_v0 : Ref sig .tc := ⟨.hbm, 352, rfl⟩
abbrev main_v254 : Ref sig .tc := ⟨.hbm, 353, rfl⟩
abbrev main_c_38 : Ref sig .tc := ⟨.hbm, 354, rfl⟩
abbrev main_v255 : Ref sig .tc := ⟨.hbm, 355, rfl⟩
abbrev main_v256 : Ref sig .tc := ⟨.hbm, 356, rfl⟩
abbrev main_c_39 : Ref sig .tc := ⟨.hbm, 357, rfl⟩
abbrev main_v257 : Ref sig .tc := ⟨.hbm, 358, rfl⟩
abbrev main_v258 : Ref sig .tc := ⟨.hbm, 359, rfl⟩
abbrev main_v259 : Ref sig .tc := ⟨.hbm, 360, rfl⟩
abbrev main_v260 : Ref sig .tc := ⟨.hbm, 361, rfl⟩
abbrev main_v261 : Ref sig .tc := ⟨.hbm, 362, rfl⟩
abbrev main_v262 : Ref sig .tc := ⟨.hbm, 363, rfl⟩
abbrev main_v263 : Ref sig .tc := ⟨.hbm, 364, rfl⟩
abbrev main_v264 : Ref sig .tc := ⟨.hbm, 365, rfl⟩
abbrev main_v265 : Ref sig .tc := ⟨.hbm, 366, rfl⟩
abbrev main_v266 : Ref sig .tc := ⟨.hbm, 367, rfl⟩
abbrev main_v267 : Ref sig .tc := ⟨.hbm, 368, rfl⟩
abbrev main_v268 : Ref sig .tc := ⟨.hbm, 369, rfl⟩
abbrev main_v269 : Ref sig .tc := ⟨.hbm, 370, rfl⟩
abbrev main_v270 : Ref sig .tc := ⟨.hbm, 371, rfl⟩
abbrev main_v271 : Ref sig .tc := ⟨.hbm, 372, rfl⟩
abbrev main_v272 : Ref sig .tc := ⟨.hbm, 373, rfl⟩
abbrev main_v273 : Ref sig .tc := ⟨.hbm, 374, rfl⟩
abbrev main_v274 : Ref sig .tc := ⟨.hbm, 375, rfl⟩
abbrev main_v275 : Ref sig .tc := ⟨.hbm, 376, rfl⟩
abbrev main_v276 : Ref sig .tc := ⟨.hbm, 377, rfl⟩
abbrev main_v277 : Ref sig .tc := ⟨.hbm, 378, rfl⟩
abbrev main_v278 : Ref sig .tc := ⟨.hbm, 379, rfl⟩
abbrev main_call8_cst : Ref sig .tc := ⟨.hbm, 380, rfl⟩
abbrev main_call8_v0 : Ref sig .tc := ⟨.hbm, 381, rfl⟩
abbrev main_call8_v1 : Ref sig .tc := ⟨.hbm, 382, rfl⟩
abbrev main_call8_cst_0 : Ref sig .tc := ⟨.hbm, 383, rfl⟩
abbrev main_call8_v2 : Ref sig .tc := ⟨.hbm, 384, rfl⟩
abbrev main_call8_v3 : Ref sig .tc := ⟨.hbm, 385, rfl⟩
abbrev main_v279 : Ref sig .tc := ⟨.hbm, 386, rfl⟩
abbrev main_v280 : Ref sig .tc := ⟨.hbm, 387, rfl⟩
abbrev main_v281 : Ref sig .tc := ⟨.hbm, 388, rfl⟩
abbrev main_v282 : Ref sig .tc := ⟨.hbm, 389, rfl⟩
abbrev main_v283 : Ref sig .tc := ⟨.hbm, 390, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S69785 : S_.BroadcastsInDim S69785 (![] : Fin 0 → Fin S69785.rank)
  bcast_S69785_S69785x1_0 : S69785.BroadcastsInDim S69785x1 (![0] : Fin 1 → Fin S69785x1.rank)
  bcast_S69785x1_S69785x256_0_1 : S69785x1.BroadcastsInDim S69785x256 (![0, 1] : Fin 2 → Fin S69785x256.rank)
  bcast_S_S279168 : S_.BroadcastsInDim S279168 (![] : Fin 0 → Fin S279168.rank)
  bcast_S279168_S279168x1_0 : S279168.BroadcastsInDim S279168x1 (![0] : Fin 1 → Fin S279168x1.rank)
  bcast_S_S69785x256 : S_.BroadcastsInDim S69785x256 (![] : Fin 0 → Fin S69785x256.rank)
  concatenates_S69785x256_S69785x256_S69785x512_d1 : Shape.Concatenates [S69785x256, S69785x256] S69785x512 1
  bcast_S1x256_S69785x256_0_1 : S1x256.BroadcastsInDim S69785x256 (![0, 1] : Fin 2 → Fin S69785x256.rank)
  bcast_S_S30215 : S_.BroadcastsInDim S30215 (![] : Fin 0 → Fin S30215.rank)
  bcast_S30215_S30215x1_0 : S30215.BroadcastsInDim S30215x1 (![0] : Fin 1 → Fin S30215x1.rank)
  bcast_S1x256_S30215x256_0_1 : S1x256.BroadcastsInDim S30215x256 (![0, 1] : Fin 2 → Fin S30215x256.rank)
  concatenates_S30215x256_S30215x256_S30215x512_d1 : Shape.Concatenates [S30215x256, S30215x256] S30215x512 1
  concatenates_S69785x512_S30215x512_S100000x512_d0 : Shape.Concatenates [S69785x512, S30215x512] S100000x512 0
  bcast_S_S79460 : S_.BroadcastsInDim S79460 (![] : Fin 0 → Fin S79460.rank)
  bcast_S79460_S79460x1_0 : S79460.BroadcastsInDim S79460x1 (![0] : Fin 1 → Fin S79460x1.rank)
  bcast_S79460x1_S79460x256_0_1 : S79460x1.BroadcastsInDim S79460x256 (![0, 1] : Fin 2 → Fin S79460x256.rank)
  bcast_S_S317997 : S_.BroadcastsInDim S317997 (![] : Fin 0 → Fin S317997.rank)
  bcast_S317997_S317997x1_0 : S317997.BroadcastsInDim S317997x1 (![0] : Fin 1 → Fin S317997x1.rank)
  bcast_S_S79460x256 : S_.BroadcastsInDim S79460x256 (![] : Fin 0 → Fin S79460x256.rank)
  concatenates_S79460x256_S79460x256_S79460x512_d1 : Shape.Concatenates [S79460x256, S79460x256] S79460x512 1
  bcast_S1x256_S79460x256_0_1 : S1x256.BroadcastsInDim S79460x256 (![0, 1] : Fin 2 → Fin S79460x256.rank)
  bcast_S_S20540 : S_.BroadcastsInDim S20540 (![] : Fin 0 → Fin S20540.rank)
  bcast_S20540_S20540x1_0 : S20540.BroadcastsInDim S20540x1 (![0] : Fin 1 → Fin S20540x1.rank)
  bcast_S1x256_S20540x256_0_1 : S1x256.BroadcastsInDim S20540x256 (![0, 1] : Fin 2 → Fin S20540x256.rank)
  concatenates_S20540x256_S20540x256_S20540x512_d1 : Shape.Concatenates [S20540x256, S20540x256] S20540x512 1
  concatenates_S79460x512_S20540x512_S100000x512_d0 : Shape.Concatenates [S79460x512, S20540x512] S100000x512 0
  bcast_S_S74654 : S_.BroadcastsInDim S74654 (![] : Fin 0 → Fin S74654.rank)
  bcast_S74654_S74654x1_0 : S74654.BroadcastsInDim S74654x1 (![0] : Fin 1 → Fin S74654x1.rank)
  bcast_S74654x1_S74654x256_0_1 : S74654x1.BroadcastsInDim S74654x256 (![0, 1] : Fin 2 → Fin S74654x256.rank)
  bcast_S_S298662 : S_.BroadcastsInDim S298662 (![] : Fin 0 → Fin S298662.rank)
  bcast_S298662_S298662x1_0 : S298662.BroadcastsInDim S298662x1 (![0] : Fin 1 → Fin S298662x1.rank)
  bcast_S_S74654x256 : S_.BroadcastsInDim S74654x256 (![] : Fin 0 → Fin S74654x256.rank)
  concatenates_S74654x256_S74654x256_S74654x512_d1 : Shape.Concatenates [S74654x256, S74654x256] S74654x512 1
  bcast_S1x256_S74654x256_0_1 : S1x256.BroadcastsInDim S74654x256 (![0, 1] : Fin 2 → Fin S74654x256.rank)
  bcast_S_S25346 : S_.BroadcastsInDim S25346 (![] : Fin 0 → Fin S25346.rank)
  bcast_S25346_S25346x1_0 : S25346.BroadcastsInDim S25346x1 (![0] : Fin 1 → Fin S25346x1.rank)
  bcast_S1x256_S25346x256_0_1 : S1x256.BroadcastsInDim S25346x256 (![0, 1] : Fin 2 → Fin S25346x256.rank)
  concatenates_S25346x256_S25346x256_S25346x512_d1 : Shape.Concatenates [S25346x256, S25346x256] S25346x512 1
  concatenates_S74654x512_S25346x512_S100000x512_d0 : Shape.Concatenates [S74654x512, S25346x512] S100000x512 0
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x256_S256x256_S100000x256_1_0_0_1_n_n_wf : DotDims.WF S100000x256 S256x256 S100000x256 [1] [0] [0] [1] [] []
  gather_S100000x256_S69785x1_S69785x256_1_0_n_n_0_1_1256_wf : GatherDims.WF S100000x256 S69785x1 S69785x256 [1] [0] [] [0] [] 1 ![1, 256]
  gather_S69785x256_S279168x1_S279168x256_1_0_n_n_0_1_1256_wf : GatherDims.WF S69785x256 S279168x1 S279168x256 [1] [0] [] [0] [] 1 ![1, 256]
  scatter_S69785x256_S279168x1_S279168x256_1_0_0_1_wf : ScatterDims.WF S69785x256 S279168x1 S279168x256 [1] [0] [0] 1
  dot_S69785x512_S512x256_S69785x256_1_0_0_1_n_n_wf : DotDims.WF S69785x512 S512x256 S69785x256 [1] [0] [0] [1] [] []
  gather_S100000x256_S30215x1_S30215x256_1_0_n_n_0_1_1256_wf : GatherDims.WF S100000x256 S30215x1 S30215x256 [1] [0] [] [0] [] 1 ![1, 256]
  dot_S30215x256_S256x256_S30215x256_1_0_0_1_n_n_wf : DotDims.WF S30215x256 S256x256 S30215x256 [1] [0] [0] [1] [] []
  dot_S100000x512_S512x256_S100000x256_1_0_0_1_n_n_wf : DotDims.WF S100000x512 S512x256 S100000x256 [1] [0] [0] [1] [] []
  gather_S100000x256_S79460x1_S79460x256_1_0_n_n_0_1_1256_wf : GatherDims.WF S100000x256 S79460x1 S79460x256 [1] [0] [] [0] [] 1 ![1, 256]
  gather_S79460x256_S317997x1_S317997x256_1_0_n_n_0_1_1256_wf : GatherDims.WF S79460x256 S317997x1 S317997x256 [1] [0] [] [0] [] 1 ![1, 256]
  scatter_S79460x256_S317997x1_S317997x256_1_0_0_1_wf : ScatterDims.WF S79460x256 S317997x1 S317997x256 [1] [0] [0] 1
  dot_S79460x512_S512x256_S79460x256_1_0_0_1_n_n_wf : DotDims.WF S79460x512 S512x256 S79460x256 [1] [0] [0] [1] [] []
  gather_S100000x256_S20540x1_S20540x256_1_0_n_n_0_1_1256_wf : GatherDims.WF S100000x256 S20540x1 S20540x256 [1] [0] [] [0] [] 1 ![1, 256]
  dot_S20540x256_S256x256_S20540x256_1_0_0_1_n_n_wf : DotDims.WF S20540x256 S256x256 S20540x256 [1] [0] [0] [1] [] []
  gather_S100000x256_S74654x1_S74654x256_1_0_n_n_0_1_1256_wf : GatherDims.WF S100000x256 S74654x1 S74654x256 [1] [0] [] [0] [] 1 ![1, 256]
  gather_S74654x256_S298662x1_S298662x256_1_0_n_n_0_1_1256_wf : GatherDims.WF S74654x256 S298662x1 S298662x256 [1] [0] [] [0] [] 1 ![1, 256]
  scatter_S74654x256_S298662x1_S298662x256_1_0_0_1_wf : ScatterDims.WF S74654x256 S298662x1 S298662x256 [1] [0] [0] 1
  dot_S74654x512_S512x256_S74654x256_1_0_0_1_n_n_wf : DotDims.WF S74654x512 S512x256 S74654x256 [1] [0] [0] [1] [] []
  gather_S100000x256_S25346x1_S25346x256_1_0_n_n_0_1_1256_wf : GatherDims.WF S100000x256 S25346x1 S25346x256 [1] [0] [] [0] [] 1 ![1, 256]
  dot_S25346x256_S256x256_S25346x256_1_0_0_1_n_n_wf : DotDims.WF S25346x256 S256x256 S25346x256 [1] [0] [0] [1] [] []
  dot_S100000x256_S256x2_S100000x2_1_0_0_1_n_n_wf : DotDims.WF S100000x256 S256x2 S100000x2 [1] [0] [0] [1] [] []

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S69785x1_S69785x256_1_0_n_n_0_1_1256 : GatherDims S100000x256 S69785x1 S69785x256 where
  offsetDims := [1]
  collapsedSliceDims := [0]
  operandBatchingDims := []
  startIndicesBatchingDims := []
  startIndexMap := [0]
  indexVectorDim := 1
  sliceSizes := ![1, 256]
  wf := gather_S100000x256_S69785x1_S69785x256_1_0_n_n_0_1_1256_wf
def gather_S69785x256_S279168x1_S279168x256_1_0_n_n_0_1_1256 : GatherDims S69785x256 S279168x1 S279168x256 where
  offsetDims := [1]
  collapsedSliceDims := [0]
  operandBatchingDims := []
  startIndicesBatchingDims := []
  startIndexMap := [0]
  indexVectorDim := 1
  sliceSizes := ![1, 256]
  wf := gather_S69785x256_S279168x1_S279168x256_1_0_n_n_0_1_1256_wf
def scatter_S69785x256_S279168x1_S279168x256_1_0_0_1 : ScatterDims S69785x256 S279168x1 S279168x256 where
  updateWindowDims := [1]
  insertedWindowDims := [0]
  scatterDimsToOperandDims := [0]
  indexVectorDim := 1
  wf := scatter_S69785x256_S279168x1_S279168x256_1_0_0_1_wf
def dot_S69785x512_S512x256_S69785x256_1_0_0_1_n_n : DotDims S69785x512 S512x256 S69785x256 where
  lhsContracting := [1]
  rhsContracting := [0]
  lhsNonContracting := [0]
  rhsNonContracting := [1]
  lhsBatch := []
  rhsBatch := []
  wf := dot_S69785x512_S512x256_S69785x256_1_0_0_1_n_n_wf
def gather_S100000x256_S30215x1_S30215x256_1_0_n_n_0_1_1256 : GatherDims S100000x256 S30215x1 S30215x256 where
  offsetDims := [1]
  collapsedSliceDims := [0]
  operandBatchingDims := []
  startIndicesBatchingDims := []
  startIndexMap := [0]
  indexVectorDim := 1
  sliceSizes := ![1, 256]
  wf := gather_S100000x256_S30215x1_S30215x256_1_0_n_n_0_1_1256_wf
def dot_S30215x256_S256x256_S30215x256_1_0_0_1_n_n : DotDims S30215x256 S256x256 S30215x256 where
  lhsContracting := [1]
  rhsContracting := [0]
  lhsNonContracting := [0]
  rhsNonContracting := [1]
  lhsBatch := []
  rhsBatch := []
  wf := dot_S30215x256_S256x256_S30215x256_1_0_0_1_n_n_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def gather_S100000x256_S79460x1_S79460x256_1_0_n_n_0_1_1256 : GatherDims S100000x256 S79460x1 S79460x256 where
  offsetDims := [1]
  collapsedSliceDims := [0]
  operandBatchingDims := []
  startIndicesBatchingDims := []
  startIndexMap := [0]
  indexVectorDim := 1
  sliceSizes := ![1, 256]
  wf := gather_S100000x256_S79460x1_S79460x256_1_0_n_n_0_1_1256_wf
def gather_S79460x256_S317997x1_S317997x256_1_0_n_n_0_1_1256 : GatherDims S79460x256 S317997x1 S317997x256 where
  offsetDims := [1]
  collapsedSliceDims := [0]
  operandBatchingDims := []
  startIndicesBatchingDims := []
  startIndexMap := [0]
  indexVectorDim := 1
  sliceSizes := ![1, 256]
  wf := gather_S79460x256_S317997x1_S317997x256_1_0_n_n_0_1_1256_wf
def scatter_S79460x256_S317997x1_S317997x256_1_0_0_1 : ScatterDims S79460x256 S317997x1 S317997x256 where
  updateWindowDims := [1]
  insertedWindowDims := [0]
  scatterDimsToOperandDims := [0]
  indexVectorDim := 1
  wf := scatter_S79460x256_S317997x1_S317997x256_1_0_0_1_wf
def dot_S79460x512_S512x256_S79460x256_1_0_0_1_n_n : DotDims S79460x512 S512x256 S79460x256 where
  lhsContracting := [1]
  rhsContracting := [0]
  lhsNonContracting := [0]
  rhsNonContracting := [1]
  lhsBatch := []
  rhsBatch := []
  wf := dot_S79460x512_S512x256_S79460x256_1_0_0_1_n_n_wf
def gather_S100000x256_S20540x1_S20540x256_1_0_n_n_0_1_1256 : GatherDims S100000x256 S20540x1 S20540x256 where
  offsetDims := [1]
  collapsedSliceDims := [0]
  operandBatchingDims := []
  startIndicesBatchingDims := []
  startIndexMap := [0]
  indexVectorDim := 1
  sliceSizes := ![1, 256]
  wf := gather_S100000x256_S20540x1_S20540x256_1_0_n_n_0_1_1256_wf
def dot_S20540x256_S256x256_S20540x256_1_0_0_1_n_n : DotDims S20540x256 S256x256 S20540x256 where
  lhsContracting := [1]
  rhsContracting := [0]
  lhsNonContracting := [0]
  rhsNonContracting := [1]
  lhsBatch := []
  rhsBatch := []
  wf := dot_S20540x256_S256x256_S20540x256_1_0_0_1_n_n_wf
def gather_S100000x256_S74654x1_S74654x256_1_0_n_n_0_1_1256 : GatherDims S100000x256 S74654x1 S74654x256 where
  offsetDims := [1]
  collapsedSliceDims := [0]
  operandBatchingDims := []
  startIndicesBatchingDims := []
  startIndexMap := [0]
  indexVectorDim := 1
  sliceSizes := ![1, 256]
  wf := gather_S100000x256_S74654x1_S74654x256_1_0_n_n_0_1_1256_wf
def gather_S74654x256_S298662x1_S298662x256_1_0_n_n_0_1_1256 : GatherDims S74654x256 S298662x1 S298662x256 where
  offsetDims := [1]
  collapsedSliceDims := [0]
  operandBatchingDims := []
  startIndicesBatchingDims := []
  startIndexMap := [0]
  indexVectorDim := 1
  sliceSizes := ![1, 256]
  wf := gather_S74654x256_S298662x1_S298662x256_1_0_n_n_0_1_1256_wf
def scatter_S74654x256_S298662x1_S298662x256_1_0_0_1 : ScatterDims S74654x256 S298662x1 S298662x256 where
  updateWindowDims := [1]
  insertedWindowDims := [0]
  scatterDimsToOperandDims := [0]
  indexVectorDim := 1
  wf := scatter_S74654x256_S298662x1_S298662x256_1_0_0_1_wf
def dot_S74654x512_S512x256_S74654x256_1_0_0_1_n_n : DotDims S74654x512 S512x256 S74654x256 where
  lhsContracting := [1]
  rhsContracting := [0]
  lhsNonContracting := [0]
  rhsNonContracting := [1]
  lhsBatch := []
  rhsBatch := []
  wf := dot_S74654x512_S512x256_S74654x256_1_0_0_1_n_n_wf
def gather_S100000x256_S25346x1_S25346x256_1_0_n_n_0_1_1256 : GatherDims S100000x256 S25346x1 S25346x256 where
  offsetDims := [1]
  collapsedSliceDims := [0]
  operandBatchingDims := []
  startIndicesBatchingDims := []
  startIndexMap := [0]
  indexVectorDim := 1
  sliceSizes := ![1, 256]
  wf := gather_S100000x256_S25346x1_S25346x256_1_0_n_n_0_1_1256_wf
def dot_S25346x256_S256x256_S25346x256_1_0_0_1_n_n : DotDims S25346x256 S256x256 S25346x256 where
  lhsContracting := [1]
  rhsContracting := [0]
  lhsNonContracting := [0]
  rhsNonContracting := [1]
  lhsBatch := []
  rhsBatch := []
  wf := dot_S25346x256_S256x256_S25346x256_1_0_0_1_n_n_wf
def dot_S100000x256_S256x2_S100000x2_1_0_0_1_n_n : DotDims S100000x256 S256x2 S100000x2 where
  lhsContracting := [1]
  rhsContracting := [0]
  lhsNonContracting := [0]
  rhsNonContracting := [1]
  lhsBatch := []
  rhsBatch := []
  wf := dot_S100000x256_S256x2_S100000x2_1_0_0_1_n_n_wf

class Facts : Prop extends Facts₀ where

variable [Facts]
-- ==== Proof.KerRun.lean ====
/- The kernel's run with its result named.

   Every weakly fair execution of the idealized kernel's @main on the TensorCores, from any memory with zero
   counters, terminates without a fault, and in the final state the result buffer holds the last boundary's contents
   `W113` of the generated fold (read at the result's reference), while each of the 35 argument buffers holds what it
   held at launch. The fold `W0 … W113` is the generated one: a stretch of host operations is `StableHlo.after`
   of its list over the previous boundary, and a region's exit is its arrays at what the write-backs leave and every
   other buffer as entered. The run is the launch theorem over @main's segments; its last thread state says that every
   unscoped buffer holds `W113`, and the result's buffer is unscoped, so the final memory can be read at it as at the
   arguments. -/
import proofs.«116214_j36043365548318_1_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel's run at any `F`: termination without a fault, the result buffer at `W113`, the arguments as launched.
    The last thread state holds every unscoped buffer at `W113`; it is read against the final memory at the result's
    reference (which is unscoped) and at each argument's, and an argument's entry of `W113` walks back through the fold
    to the launch memory. -/
theorem run : θ_run defs (onTc (τ := τ) (main (F := F))) ⟨m, fun _ => 0, ρ⟩ (fun r => ∀ c : Dev nD,
      r.2.mem ((c.tc : Thread nD τ).loc main_v301) = W113 m ρ c (Proc.devRef .tc main_v301)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W113 m ρ c b)
    (hfin := fun c s' => by
      iintro ⟨⟨Hh, -⟩, HSI⟩
      unfold StableHlo.held
      imodintro
      iapply (pointsTo_read_all (Pipeline.ucRefs τ sig) (fun b => (((c : Thread nD τ)).1, b)) (W113 m ρ c) s')
      isplitl [Hh] <;> iassumption)
    (hQ := fun s h c =>
      ⟨h c _ (mem_uc main_v301 (by decide)),
       (h c _ (mem_uc main_arg0 (by decide))).trans (W113_main_arg0 m ρ c),
       (h c _ (mem_uc main_arg1 (by decide))).trans (W113_main_arg1 m ρ c),
       (h c _ (mem_uc main_arg2 (by decide))).trans (W113_main_arg2 m ρ c),
       (h c _ (mem_uc main_arg3 (by decide))).trans (W113_main_arg3 m ρ c),
       (h c _ (mem_uc main_arg4 (by decide))).trans (W113_main_arg4 m ρ c),
       (h c _ (mem_uc main_arg5 (by decide))).trans (W113_main_arg5 m ρ c),
       (h c _ (mem_uc main_arg6 (by decide))).trans (W113_main_arg6 m ρ c),
       (h c _ (mem_uc main_arg7 (by decide))).trans (W113_main_arg7 m ρ c),
       (h c _ (mem_uc main_arg8 (by decide))).trans (W113_main_arg8 m ρ c),
       (h c _ (mem_uc main_arg9 (by decide))).trans (W113_main_arg9 m ρ c),
       (h c _ (mem_uc main_arg10 (by decide))).trans (W113_main_arg10 m ρ c),
       (h c _ (mem_uc main_arg11 (by decide))).trans (W113_main_arg11 m ρ c),
       (h c _ (mem_uc main_arg12 (by decide))).trans (W113_main_arg12 m ρ c),
       (h c _ (mem_uc main_arg13 (by decide))).trans (W113_main_arg13 m ρ c),
       (h c _ (mem_uc main_arg14 (by decide))).trans (W113_main_arg14 m ρ c),
       (h c _ (mem_uc main_arg15 (by decide))).trans (W113_main_arg15 m ρ c),
       (h c _ (mem_uc main_arg16 (by decide))).trans (W113_main_arg16 m ρ c),
       (h c _ (mem_uc main_arg17 (by decide))).trans (W113_main_arg17 m ρ c),
       (h c _ (mem_uc main_arg18 (by decide))).trans (W113_main_arg18 m ρ c),
       (h c _ (mem_uc main_arg19 (by decide))).trans (W113_main_arg19 m ρ c),
       (h c _ (mem_uc main_arg20 (by decide))).trans (W113_main_arg20 m ρ c),
       (h c _ (mem_uc main_arg21 (by decide))).trans (W113_main_arg21 m ρ c),
       (h c _ (mem_uc main_arg22 (by decide))).trans (W113_main_arg22 m ρ c),
       (h c _ (mem_uc main_arg23 (by decide))).trans (W113_main_arg23 m ρ c),
       (h c _ (mem_uc main_arg24 (by decide))).trans (W113_main_arg24 m ρ c),
       (h c _ (mem_uc main_arg25 (by decide))).trans (W113_main_arg25 m ρ c),
       (h c _ (mem_uc main_arg26 (by decide))).trans (W113_main_arg26 m ρ c),
       (h c _ (mem_uc main_arg27 (by decide))).trans (W113_main_arg27 m ρ c),
       (h c _ (mem_uc main_arg28 (by decide))).trans (W113_main_arg28 m ρ c),
       (h c _ (mem_uc main_arg29 (by decide))).trans (W113_main_arg29 m ρ c),
       (h c _ (mem_uc main_arg30 (by decide))).trans (W113_main_arg30 m ρ c),
       (h c _ (mem_uc main_arg31 (by decide))).trans (W113_main_arg31 m ρ c),
       (h c _ (mem_uc main_arg32 (by decide))).trans (W113_main_arg32 m ρ c),
       (h c _ (mem_uc main_arg33 (by decide))).trans (W113_main_arg33 m ρ c),
       (h c _ (mem_uc main_arg34 (by decide))).trans (W113_main_arg34 m ρ c)⟩)

end Cert.KernelIdeal.KerRun

end
-- ==== Proof.LibDense.lean ====
/-
  Two general facts about a plain matrix product at the exact instance.

  A product of an [M, K] by a [K, N] operand that contracts the first operand's columns against the
  second's rows (no batch axis) has, at the output position (r, c), the operand positions (r, k) and
  (k, c) as k runs over the K contracted positions. So its sum over the contraction's index type is the
  sum over `Fin K` of the first operand at (r, k) times the second at (k, c) — the textbook entry of the
  product. Stated for any dimension record with those four index facts, so that a kernel's matrix unit
  and a host's dot product read the same way.
-/
import Idealize.ShloMosaic.Lib.ValueIdx
import Idealize.ShloMosaic.PureOps.Ideal.Laws

noncomputable section

namespace Cert.LibDense

open Idealize.ShloMosaic Idealize.ShloMosaic.ValueIdx

/-- A row of `K` extended reals against column `j` of a [K, N] matrix. -/
def dense {K N : ℕ} (x : Fin K → EReal) (W : (⟨2, ![K, N]⟩ : Shape).Idx → EReal) (j : Fin N) : EReal :=
  ∑ k : Fin K, x k * W (ix2 k j)

/-- The sum over a one-axis contraction of extent `K`, re-indexed by `Fin K`, when the operand positions are
    (row, k) and (k, column). -/
theorem sum_contr_plain {M K N : ℕ} (d : DotDims (⟨2, ![M, K]⟩ : Shape) (⟨2, ![K, N]⟩ : Shape) (⟨2, ![M, N]⟩ : Shape))
    (hr : d.contr.rank = 1) (hs : d.contr.size ⟨0, by omega⟩ = K)
    (j : (⟨2, ![M, N]⟩ : Shape).Idx)
    (hl0 : ∀ q, (d.lhsIdx j q 0).val = (j 0).val) (hl1 : ∀ q, (d.lhsIdx j q 1).val = (q ⟨0, by omega⟩).val)
    (hr0 : ∀ q, (d.rhsIdx j q 0).val = (q ⟨0, by omega⟩).val) (hr1 : ∀ q, (d.rhsIdx j q 1).val = (j 1).val)
    (l : (⟨2, ![M, K]⟩ : Shape).Idx → EReal) (r : (⟨2, ![K, N]⟩ : Shape).Idx → EReal) :
    ∑ q : d.contr.Idx, l (d.lhsIdx j q) * r (d.rhsIdx j q) = dense (fun k => l (ix2 (j 0) k)) r (j 1) := by
  unfold dense
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _
    | ⟨1, _⟩ => exact (hl1 _).trans hk)
  have er : d.rhsIdx j ((contrEquiv1 d K hr hs).symm k) = ix2 k (j 1) := funext fun a => Fin.ext (by
    match a with
    | ⟨0, _⟩ => exact (hr0 _).trans hk
    | ⟨1, _⟩ => exact hr1 _)
  rw [el, er]
  rfl

/-- The matrix unit's product into a zero accumulator, read at (r, c): the textbook entry. -/
theorem matmul_zero_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    FloatOps.matmul d prec l r (constant (⟨2, ![M, N]⟩ : Shape) .f32 0x00000000#32) (ix2 a b)
      = dense (fun k => l (ix2 a k)) r b :=
  (Ideal.matmul_constant_zero_apply d prec l r (ix2 a b)).trans
    (sum_contr_plain d hr hs (ix2 a b) (hl0 _) (hl1 _) (hr0 _) (hr1 _) l r)

end Cert.LibDense

end
-- ==== Proof.LibDenseHost.lean ====
/-
  The host's matrix product, entry by entry.

  At the exact instance a host dot product of an [M, K] by a [K, N] operand, contracting the first operand's columns
  against the second's rows, has at (a, b) the textbook entry  ∑ k, l (a, k) · r (k, b)  — the same sum as the matrix
  unit's product into a zero accumulator. Stated for any dimension record with the four operand-position facts.
-/
import Idealize.ShloMosaic.Lib.ValueIdx
import Idealize.ShloMosaic.PureOps.Ideal.Laws
import proofs.«116214_j36043365548318_1_alg».proof.Proof.LibDense

noncomputable section

namespace Cert.LibDenseHost

open Idealize.ShloMosaic Idealize.ShloMosaic.ValueIdx Cert.LibDense

/-- The host's dot product of a plain [M, K] by [K, N] pair, read at (a, b): the textbook entry. -/
theorem dotGeneral_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    Host.dotGeneral d prec l r (ix2 a b) = dense (fun k => l (ix2 a k)) r b := by
  simp only [Host.dotGeneral]
  rw [Ideal.dotGeneral_apply]
  exact sum_contr_plain d hr hs (ix2 a b) (hl0 _) (hl1 _) (hr0 _) (hr1 _) l r

end Cert.LibDenseHost

end
-- ==== Proof.LibPlainDense.lean ====
/-
  The dense stages of a graph-convolution network, as functions of whole arrays over the extended reals.

  Every stage of the network other than the edge aggregation is one of: a matrix product  x · W  of an
  [M, K] array with a [K, N] weight; the addition of a bias row to every row of an [M, N] array; a
  rectifier  max(·, 0)  or a hyperbolic tangent applied entry by entry. This file states them once, over
  any extents, and reads the two printed forms of each — a matrix unit's product of bf16-cast operands
  into a zero accumulator and a host dot product; a bias kept as a [1, N] row that the body broadcasts
  and a bias vector the host broadcasts twice — as the same function. At the exact instance a change of
  float format is the identity, so the casts disappear.
-/
import Idealize.ShloMosaic.Lib.ValueIdx
import Idealize.ShloMosaic.Lib.ValueLayout
import Idealize.ShloMosaic.Lib.Pipeline.Value
import Idealize.ShloMosaic.PureOps.Ideal.Laws
import proofs.«116214_j36043365548318_1_alg».proof.Proof.LibDense
import proofs.«116214_j36043365548318_1_alg».proof.Proof.LibDenseHost

noncomputable section

namespace Cert.Gcn

open Idealize.ShloMosaic Idealize.ShloMosaic.ValueIdx Idealize.ShloMosaic.Pipeline Cert.LibDense

/-- The matrix product, entry by entry: (x · w)(r, c) = ∑ₖ x(r, k) · w(k, c). -/
def mm {M K N : ℕ} (x : (⟨2, ![M, K]⟩ : Shape).Idx → EReal) (w : (⟨2, ![K, N]⟩ : Shape).Idx → EReal) :
    (⟨2, ![M, N]⟩ : Shape).Idx → EReal :=
  fun i => dense (fun k => x (ix2 (i 0) k)) w (i 1)

/-- A bias row added to every row. -/
def addRow {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (i 1))

/-- The rectifier, entry by entry; its zero is the f32 zero word's value. -/
def relu {s : Shape} (a : s.Idx → EReal) : s.Idx → EReal :=
  fun i => max (a i) (Ideal.ofBits .f32 0x00000000#32)

/-- The hyperbolic tangent, entry by entry. -/
def tanhV {s : Shape} (a : s.Idx → EReal) : s.Idx → EReal :=
  fun i => Ideal.tanh (a i)

/-! ## The plain [M, K] × [K, N] contraction: where its operands sit -/

theorem plain_rank (M K N : ℕ) : (DotDims.plain M K N).contr.rank = 1 := rfl
theorem plain_size (M K N : ℕ) : (DotDims.plain M K N).contr.size ⟨0, Nat.one_pos⟩ = K := rfl

theorem plain_l0 {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

theorem plain_l1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem plain_r0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem plain_r1 {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-! ## The two printed forms of the product -/

/-- The matrix unit's product of bf16-cast operands into a zero accumulator is the product. -/
theorem matmul_eq_mm {M K N : ℕ} (x0 : FVec Ideal (⟨2, ![M, K]⟩ : Shape) .f32) (x1 : FVec Ideal (⟨2, ![K, N]⟩ : Shape) .f32)
    (h0 : FTy.bf16.bits < FTy.f32.bits) (h1 : FTy.bf16.bits < FTy.f32.bits) :
    matmul (DotDims.plain M K N) none (truncf .bf16 x0 h0) (truncf .bf16 x1 h1) (constant (⟨2, ![M, N]⟩ : Shape) .f32 0x00000000#32)
      = mm x0 x1 := by
  funext j
  obtain ⟨a, b, rfl⟩ : ∃ (a : Fin M) (b : Fin N), j = ix2 a b := ⟨j 0, j 1, eq_ix2 j⟩
  exact matmul_zero_plain (DotDims.plain M K N) none (plain_rank M K N) (plain_size M K N)
    plain_l0 plain_l1 plain_r0 plain_r1 (truncf .bf16 x0 h0) (truncf .bf16 x1 h1) a b

/-- The host's dot product is the product. -/
theorem dotGeneral_eq_mm {M K N : ℕ} (x0 : FVec Ideal (⟨2, ![M, K]⟩ : Shape) .f32) (x1 : FVec Ideal (⟨2, ![K, N]⟩ : Shape) .f32) :
    Host.dotGeneral (DotDims.plain M K N) none x0 x1 = mm x0 x1 := by
  funext j
  obtain ⟨a, b, rfl⟩ : ∃ (a : Fin M) (b : Fin N), j = ix2 a b := ⟨j 0, j 1, eq_ix2 j⟩
  exact Cert.LibDenseHost.dotGeneral_plain (DotDims.plain M K N) none (plain_rank M K N) (plain_size M K N)
    plain_l0 plain_l1 plain_r0 plain_r1 x0 x1 a b

/-! ## The two printed forms of the bias -/

/-- A bias row the body broadcasts over the rows. -/
theorem broadcastTo_row {M N : ℕ} (v : (⟨2, ![1, N]⟩ : Shape).Idx → EReal) (h : (⟨2, ![1, N]⟩ : Shape).Broadcasts ⟨2, ![M, N]⟩)
    (a : (⟨2, ![M, N]⟩ : Shape).Idx → EReal) :
    (fun i => a i + broadcastTo (⟨2, ![M, N]⟩ : Shape) v h i) = addRow a v := by
  funext j
  obtain ⟨p, c, rfl⟩ : ∃ (p : Fin M) (c : Fin N), j = ix2 p c := ⟨j 0, j 1, eq_ix2 j⟩
  show a (ix2 p c) + _ = a (ix2 p c) + _
  rw [broadcastTo_1b_ab_apply]
  rfl

/-- A bias vector laid out as a [1, N] row. -/
theorem shapeCast_row_apply {N : ℕ} (b : (⟨1, ![N]⟩ : Shape).Idx → EReal) (h : (⟨1, ![N]⟩ : Shape).ShapeCasts ⟨2, ![1, N]⟩) (c : Fin N) :
    shapeCast (⟨2, ![1, N]⟩ : Shape) b h (ix2 (0 : Fin 1) c) = b (ix1 c) :=
  shapeCast_a_1a_apply b h 0 c

/-- The host's two broadcasts of a bias vector, [N] to [1, N] to [M, N], added: the same as adding the row. -/
theorem host_bias {M N : ℕ} (b : (⟨1, ![N]⟩ : Shape).Idx → EReal)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (a : (⟨2, ![M, N]⟩ : Shape).Idx → EReal) :
    (fun i => a i + broadcastInDim (⟨2, ![M, N]⟩ : Shape) d2 h2 (broadcastInDim (⟨2, ![1, N]⟩ : Shape) d1 h1 b) i)
      = addRow a (shapeCast (⟨2, ![1, N]⟩ : Shape) b hc) := by
  funext j
  obtain ⟨p, c, rfl⟩ : ∃ (p : Fin M) (c : Fin N), j = ix2 p c := ⟨j 0, j 1, eq_ix2 j⟩
  show a (ix2 p c) + _ = a (ix2 p c) + shapeCast (⟨2, ![1, N]⟩ : Shape) b hc (ix2 (0 : Fin 1) c)
  rw [shapeCast_row_apply]
  congr 1
  by_cases hN : N = 1
  · subst hN
    have hc0 : c = 0 := Subsingleton.elim _ _
    subst hc0
    rw [broadcastInDim_apply d2 h2 _ (ix2 p 0) (ix2 (0 : Fin 1) 0) (fun ax => by
        match ax with
        | ⟨0, _⟩ => rfl
        | ⟨1, _⟩ => rfl)]
    rw [broadcastInDim_apply d1 h1 b (ix2 (0 : Fin 1) 0) (ix1 0) (fun ax => by
        match ax with
        | ⟨0, _⟩ => rfl)]
  · rw [broadcastInDim_apply d2 h2 _ (ix2 p c) (ix2 (0 : Fin 1) c) (fun ax => by
        match ax with
        | ⟨0, _⟩ => rfl
        | ⟨1, _⟩ =>
          show c.val = if N = 1 then 0 else ((ix2 p c) (d2 1)).val
          rw [if_neg hN, hd2 1])]
    rw [broadcastInDim_apply d1 h1 b (ix2 (0 : Fin 1) c) (ix1 c) (fun ax => by
        match ax with
        | ⟨0, _⟩ =>
          show c.val = if N = 1 then 0 else ((ix2 (0 : Fin 1) c) (d1 0)).val
          rw [if_neg hN, hd1])]

/-! ## The host's forms of a biased array under each activation -/

/-- The host's rectified biased array: the bias vector broadcast twice and added, then the maximum with a broadcast zero. -/
theorem host_relu {M N : ℕ} (b : FVec Ideal (⟨1, ![N]⟩ : Shape) .f32)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (d0 : Fin 0 → Fin 2) (h0 : (⟨0, ![]⟩ : Shape).BroadcastsInDim ⟨2, ![M, N]⟩ d0)
    (a : FVec Ideal (⟨2, ![M, N]⟩ : Shape) .f32) :
    maximumf (addf a (broadcastInDim (⟨2, ![M, N]⟩ : Shape) d2 h2 (broadcastInDim (⟨2, ![1, N]⟩ : Shape) d1 h1 b)))
        (broadcastInDim (⟨2, ![M, N]⟩ : Shape) d0 h0 (constant (F := Ideal) (⟨0, ![]⟩ : Shape) .f32 0x00000000#32))
      = relu (addRow a (shapeCast (⟨2, ![1, N]⟩ : Shape) b hc)) := by
  rw [← host_bias b d1 hd1 h1 d2 hd2 h2 hc a]
  rfl

/-- The host's biased array under the hyperbolic tangent. -/
theorem host_tanh {M N : ℕ} (b : FVec Ideal (⟨1, ![N]⟩ : Shape) .f32)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (a : FVec Ideal (⟨2, ![M, N]⟩ : Shape) .f32) :
    Host.tanh (addf a (broadcastInDim (⟨2, ![M, N]⟩ : Shape) d2 h2 (broadcastInDim (⟨2, ![1, N]⟩ : Shape) d1 h1 b)))
      = tanhV (addRow a (shapeCast (⟨2, ![1, N]⟩ : Shape) b hc)) := by
  rw [← host_bias b d1 hd1 h1 d2 hd2 h2 hc a]
  rfl

/-- The host's biased array with no activation. -/
theorem host_plain {M N : ℕ} (b : FVec Ideal (⟨1, ![N]⟩ : Shape) .f32)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (a : FVec Ideal (⟨2, ![M, N]⟩ : Shape) .f32) :
    addf a (broadcastInDim (⟨2, ![M, N]⟩ : Shape) d2 h2 (broadcastInDim (⟨2, ![1, N]⟩ : Shape) d1 h1 b))
      = addRow a (shapeCast (⟨2, ![1, N]⟩ : Shape) b hc) :=
  host_bias b d1 hd1 h1 d2 hd2 h2 hc a

end Cert.Gcn

end
-- ==== Proof.LibRows.lean ====
/-
  Rows of a two-axis array over the extended reals.

  A dense stage of the network — a matrix product  x · W, the addition of a bias row, a function applied entry
  by entry — computes row r of its result from row r of its input alone. So cutting a band of rows out of an
  array commutes with every such stage, and a stage run on an array that was padded with extra rows below and
  then cut back to the original rows is the stage run on the original array. This file states the band of rows
  as a function, reads the printed slice, pad and two-piece concatenations at an index, and proves the row-by-row
  laws, the splitting of a product along a contraction laid out as two column blocks, and that the two printed
  spellings of the leaky rectifier (strictly positive, or non-negative, keeps the entry) are one function.
-/
import Idealize.ShloMosaic.Lib.ValueIdx
import Idealize.ShloMosaic.Lib.Pipeline.Value
import Idealize.ShloMosaic.Lib.KernelVsHost
import Idealize.ShloMosaic.PureOps.Ideal.Laws
import proofs.«116214_j36043365548318_1_alg».proof.Proof.LibPlainDense

noncomputable section

namespace Cert.Rows

open Idealize.ShloMosaic Idealize.ShloMosaic.ValueIdx Idealize.ShloMosaic.Pipeline Cert.LibDense Cert.Gcn

variable {α : Type}

/-- Rows o, …, o + R − 1 of an array of P rows. -/
def rowsAt {P N : ℕ} (o R : ℕ) (h : o + R ≤ P) (a : (⟨2, ![P, N]⟩ : Shape).Idx → α) : (⟨2, ![R, N]⟩ : Shape).Idx → α :=
  fun i => a (ix2 ⟨o + (i 0).val, by have := idx2_lt0 i; omega⟩ (i 1))

/-- A unit-stride slice of R whole rows from row o on is that band of rows. -/
theorem slice_rows {P N R : ℕ} (o : ℕ) (a : (⟨2, ![P, N]⟩ : Shape).Idx → α)
    (h : (⟨2, ![P, N]⟩ : Shape).Slices ![o, 0] ⟨2, ![R, N]⟩) (hb : o + R ≤ P) :
    extractStridedSlice (⟨2, ![R, N]⟩ : Shape) ![o, 0] a h = rowsAt o R hb a := by
  funext j
  refine extractStridedSlice_apply ![o, 0] a h j _ fun ax => ?_
  match ax with
  | ⟨0, _⟩ => rfl
  | ⟨1, _⟩ => exact (Nat.zero_add _).symm

/-- The first R rows of an array padded with rows below are the array. -/
theorem rows_pad {R N P : ℕ} (hi : Fin 2 → ℕ) (x : (⟨2, ![R, N]⟩ : Shape).Idx → α) {u : Shape} (v : u.Idx → α)
    (h : (⟨2, ![R, N]⟩ : Shape).Pads ![0, 0] hi ![0, 0] ⟨2, ![P, N]⟩) (hu : 0 < u.numel) (hb : 0 + R ≤ P) :
    rowsAt 0 R hb (pad (⟨2, ![P, N]⟩ : Shape) ![0, 0] hi ![0, 0] x v h hu) = x := by
  funext j
  obtain ⟨r, c, rfl⟩ : ∃ (r : Fin R) (c : Fin N), j = ix2 r c := ⟨j 0, j 1, eq_ix2 j⟩
  refine pad_apply_of_inside ![0, 0] hi ![0, 0] x v h hu _ (ix2 r c) fun ax => ?_
  match ax with
  | ⟨0, _⟩ => show 0 + r.val = 0 + r.val * (0 + 1); omega
  | ⟨1, _⟩ => show c.val = 0 + c.val * (0 + 1); omega

/-! ## The dense stages act row by row -/

theorem rowsAt_mm {P K N : ℕ} (o R : ℕ) (h : o + R ≤ P) (x : (⟨2, ![P, K]⟩ : Shape).Idx → EReal)
    (w : (⟨2, ![K, N]⟩ : Shape).Idx → EReal) : rowsAt o R h (mm x w) = mm (rowsAt o R h x) w := by
  funext i; rfl

theorem rowsAt_addRow {P N : ℕ} (o R : ℕ) (h : o + R ≤ P) (a : (⟨2, ![P, N]⟩ : Shape).Idx → EReal)
    (b : (⟨2, ![1, N]⟩ : Shape).Idx → EReal) : rowsAt o R h (addRow a b) = addRow (rowsAt o R h a) b := by
  funext i; rfl

/-- A function applied entry by entry. -/
def mapE {s : Shape} (f : EReal → EReal) (a : s.Idx → EReal) : s.Idx → EReal := fun i => f (a i)

theorem rowsAt_mapE {P N : ℕ} (o R : ℕ) (h : o + R ≤ P) (f : EReal → EReal) (a : (⟨2, ![P, N]⟩ : Shape).Idx → EReal) :
    rowsAt o R h (mapE f a) = mapE f (rowsAt o R h a) := by
  funext i; rfl

/-- The entrywise sum of two arrays. -/
def addE {s : Shape} (a b : s.Idx → EReal) : s.Idx → EReal := fun i => a i + b i

theorem rowsAt_addE {P N : ℕ} (o R : ℕ) (h : o + R ≤ P) (a b : (⟨2, ![P, N]⟩ : Shape).Idx → EReal) :
    rowsAt o R h (addE a b) = addE (rowsAt o R h a) (rowsAt o R h b) := by
  funext i; rfl

/-! ## Two column blocks side by side, and two row blocks one above the other -/

theorem concat_cols_left {M K1 K2 : ℕ} (A : (⟨2, ![M, K1]⟩ : Shape).Idx → α) (B : (⟨2, ![M, K2]⟩ : Shape).Idx → α)
    (h : Shape.Concatenates [(⟨2, ![M, K1]⟩ : Shape), ⟨2, ![M, K2]⟩] ⟨2, ![M, K1 + K2]⟩ 1) (r : Fin M) (k : Fin K1) :
    concatenate (⟨2, ![M, K1 + K2]⟩ : Shape) 1 [⟨_, A⟩, ⟨_, B⟩] h (ix2 r ⟨k.val, by omega⟩) = A (ix2 r k) :=
  concatenate_pair_apply_left 1 A B h _ rfl (ix2 r k) (fun b => by
    match b with
    | ⟨0, _⟩ => rfl
    | ⟨1, _⟩ => rfl)

theorem concat_cols_right {M K1 K2 : ℕ} (A : (⟨2, ![M, K1]⟩ : Shape).Idx → α) (B : (⟨2, ![M, K2]⟩ : Shape).Idx → α)
    (h : Shape.Concatenates [(⟨2, ![M, K1]⟩ : Shape), ⟨2, ![M, K2]⟩] ⟨2, ![M, K1 + K2]⟩ 1) (r : Fin M) (k : Fin K2) :
    concatenate (⟨2, ![M, K1 + K2]⟩ : Shape) 1 [⟨_, A⟩, ⟨_, B⟩] h (ix2 r ⟨K1 + k.val, by omega⟩) = B (ix2 r k) :=
  concatenate_pair_apply_right 1 A B h _ rfl rfl (ix2 r k) (fun b hb => by
    match b with
    | ⟨0, _⟩ => rfl
    | ⟨1, _⟩ => exact absurd rfl hb) (by show k.val + K1 = K1 + k.val; omega)

theorem concat_rows_top {M1 M2 N : ℕ} (A : (⟨2, ![M1, N]⟩ : Shape).Idx → α) (B : (⟨2, ![M2, N]⟩ : Shape).Idx → α)
    (h : Shape.Concatenates [(⟨2, ![M1, N]⟩ : Shape), ⟨2, ![M2, N]⟩] ⟨2, ![M1 + M2, N]⟩ 0) (r : Fin M1) (c : Fin N) :
    concatenate (⟨2, ![M1 + M2, N]⟩ : Shape) 0 [⟨_, A⟩, ⟨_, B⟩] h (ix2 ⟨r.val, by omega⟩ c) = A (ix2 r c) :=
  concatenate_pair_apply_left 0 A B h _ rfl (ix2 r c) (fun b => by
    match b with
    | ⟨0, _⟩ => rfl
    | ⟨1, _⟩ => rfl)

theorem concat_rows_bottom {M1 M2 N : ℕ} (A : (⟨2, ![M1, N]⟩ : Shape).Idx → α) (B : (⟨2, ![M2, N]⟩ : Shape).Idx → α)
    (h : Shape.Concatenates [(⟨2, ![M1, N]⟩ : Shape), ⟨2, ![M2, N]⟩] ⟨2, ![M1 + M2, N]⟩ 0) (r : Fin M2) (c : Fin N) :
    concatenate (⟨2, ![M1 + M2, N]⟩ : Shape) 0 [⟨_, A⟩, ⟨_, B⟩] h (ix2 ⟨M1 + r.val, by omega⟩ c) = B (ix2 r c) :=
  concatenate_pair_apply_right 0 A B h _ rfl rfl (ix2 r c) (fun b hb => by
    match b with
    | ⟨0, _⟩ => exact absurd rfl hb
    | ⟨1, _⟩ => rfl) (by show r.val + M1 = M1 + r.val; omega)

/-! ## A product whose contraction is laid out as two column blocks -/

/-- If an [M, K1 + K2] array has the columns of A and then the columns of B, its product with W is the product
    of A with the first K1 rows of W plus the product of B with the last K2 rows of W. -/
theorem mm_cols {M K1 K2 N : ℕ} (A : (⟨2, ![M, K1]⟩ : Shape).Idx → EReal) (B : (⟨2, ![M, K2]⟩ : Shape).Idx → EReal)
    (C : (⟨2, ![M, K1 + K2]⟩ : Shape).Idx → EReal) (W : (⟨2, ![K1 + K2, N]⟩ : Shape).Idx → EReal)
    (hA : ∀ (r : Fin M) (k : Fin K1), C (ix2 r ⟨k.val, by omega⟩) = A (ix2 r k))
    (hB : ∀ (r : Fin M) (k : Fin K2), C (ix2 r ⟨K1 + k.val, by omega⟩) = B (ix2 r k)) :
    mm C W = addE (mm A (rowsAt 0 K1 (by omega) W)) (mm B (rowsAt K1 K2 (le_refl _) W)) := by
  funext i
  obtain ⟨r, c, rfl⟩ : ∃ (r : Fin M) (c : Fin N), i = ix2 r c := ⟨i 0, i 1, eq_ix2 i⟩
  show (∑ k : Fin (K1 + K2), C (ix2 r k) * W (ix2 k c))
      = (∑ k : Fin K1, A (ix2 r k) * W (ix2 ⟨0 + k.val, _⟩ c)) + ∑ k : Fin K2, B (ix2 r k) * W (ix2 ⟨K1 + k.val, _⟩ c)
  rw [Fin.sum_univ_add]
  congr 1
  · refine Finset.sum_congr rfl fun k _ => ?_
    rw [← hA r k]
    congr 2
    exact congrArg (fun q => ix2 q c) (Fin.ext (by simp))
  · refine Finset.sum_congr rfl fun k _ => ?_
    rw [← hB r k]
    rfl

/-! ## The leaky rectifier -/

/-- The leaky rectifier with the printed slope word: an entry above zero is kept, any other is scaled. -/
def leaky (y : EReal) : EReal := if (0 : EReal) < y then y else Ideal.ofBits .f32 0x3C23D70A#32 * y

/-- The spelling that keeps a strictly positive entry. -/
theorem leaky_gt (y : EReal) :
    Scalar.select (Ideal.cmp .ogt y (Ideal.ofBits .f32 0x00000000#32)) y (Ideal.ofBits .f32 0x3C23D70A#32 * y) = leaky y := by
  unfold leaky Scalar.select Ideal.cmp
  rw [Ideal.ofBits_zero_f32]
  by_cases h : (0 : EReal) < y <;> simp [h]

/-- The spelling that keeps a non-negative entry: at zero the scaled entry is zero too. -/
theorem leaky_ge (y : EReal) :
    Scalar.select (Ideal.cmp .oge y (Ideal.ofBits .f32 0x00000000#32)) y (Ideal.ofBits .f32 0x3C23D70A#32 * y) = leaky y := by
  unfold leaky Scalar.select Ideal.cmp
  rw [Ideal.ofBits_zero_f32]
  by_cases h : (0 : EReal) < y
  · simp [h, le_of_lt h]
  · by_cases h0 : (0 : EReal) ≤ y
    · have e : y = 0 := le_antisymm (not_lt.mp h) h0
      subst e
      simp
    · simp [h, h0]

end Cert.Rows

end
-- ==== Proof.Layers.lean ====
/-
  The five dense layers of the network, as functions of whole arrays over the extended reals, for any number of rows.

  A layer takes one, two or three [P, 256] arrays of node features, weights and a bias row, and returns a
  [P, N] array whose row r depends only on row r of the inputs:
    * one product, a bias, then the leaky rectifier or nothing;
    * the sum of two products, a bias, then the rectifier or nothing;
    * the leaky rectifier of the sum of three arrays, one product, a bias.
  Since every layer acts row by row, a band of rows of a layer's result is the layer of that band of rows.
-/
import proofs.«116214_j36043365548318_1_alg».proof.Proof.LibRows

noncomputable section

namespace Cert.Layers

open Idealize.ShloMosaic Idealize.ShloMosaic.ValueIdx Cert.Rows Cert.Gcn

/-- x · W + b. -/
def linPlain {P K N : ℕ} (X : (⟨2, ![P, K]⟩ : Shape).Idx → EReal) (W : (⟨2, ![K, N]⟩ : Shape).Idx → EReal)
    (b : (⟨2, ![1, N]⟩ : Shape).Idx → EReal) : (⟨2, ![P, N]⟩ : Shape).Idx → EReal :=
  addRow (mm X W) b

/-- leaky (x · W + b). -/
def linLeaky {P K N : ℕ} (X : (⟨2, ![P, K]⟩ : Shape).Idx → EReal) (W : (⟨2, ![K, N]⟩ : Shape).Idx → EReal)
    (b : (⟨2, ![1, N]⟩ : Shape).Idx → EReal) : (⟨2, ![P, N]⟩ : Shape).Idx → EReal :=
  mapE leaky (addRow (mm X W) b)

/-- a · Wa + b · Wb + bias. -/
def dualPlain {P K1 K2 N : ℕ} (A : (⟨2, ![P, K1]⟩ : Shape).Idx → EReal) (B : (⟨2, ![P, K2]⟩ : Shape).Idx → EReal)
    (Wa : (⟨2, ![K1, N]⟩ : Shape).Idx → EReal) (Wb : (⟨2, ![K2, N]⟩ : Shape).Idx → EReal)
    (b : (⟨2, ![1, N]⟩ : Shape).Idx → EReal) : (⟨2, ![P, N]⟩ : Shape).Idx → EReal :=
  addRow (addE (mm A Wa) (mm B Wb)) b

/-- max (a · Wa + b · Wb + bias, 0). -/
def dualRelu {P K1 K2 N : ℕ} (A : (⟨2, ![P, K1]⟩ : Shape).Idx → EReal) (B : (⟨2, ![P, K2]⟩ : Shape).Idx → EReal)
    (Wa : (⟨2, ![K1, N]⟩ : Shape).Idx → EReal) (Wb : (⟨2, ![K2, N]⟩ : Shape).Idx → EReal)
    (b : (⟨2, ![1, N]⟩ : Shape).Idx → EReal) : (⟨2, ![P, N]⟩ : Shape).Idx → EReal :=
  relu (addRow (addE (mm A Wa) (mm B Wb)) b)

/-- leaky (a + b + c) · W + bias. -/
def triOut {P K N : ℕ} (A B C : (⟨2, ![P, K]⟩ : Shape).Idx → EReal) (W : (⟨2, ![K, N]⟩ : Shape).Idx → EReal)
    (b : (⟨2, ![1, N]⟩ : Shape).Idx → EReal) : (⟨2, ![P, N]⟩ : Shape).Idx → EReal :=
  addRow (mm (mapE leaky (addE (addE A B) C)) W) b

/-! ## A band of rows of a layer is the layer of the band -/

theorem rowsAt_linPlain {P K N : ℕ} (o R : ℕ) (h : o + R ≤ P) (X : (⟨2, ![P, K]⟩ : Shape).Idx → EReal)
    (W : (⟨2, ![K, N]⟩ : Shape).Idx → EReal) (b : (⟨2, ![1, N]⟩ : Shape).Idx → EReal) :
    rowsAt o R h (linPlain X W b) = linPlain (rowsAt o R h X) W b := by funext i; rfl

theorem rowsAt_linLeaky {P K N : ℕ} (o R : ℕ) (h : o + R ≤ P) (X : (⟨2, ![P, K]⟩ : Shape).Idx → EReal)
    (W : (⟨2, ![K, N]⟩ : Shape).Idx → EReal) (b : (⟨2, ![1, N]⟩ : Shape).Idx → EReal) :
    rowsAt o R h (linLeaky X W b) = linLeaky (rowsAt o R h X) W b := by funext i; rfl

theorem rowsAt_dualPlain {P K1 K2 N : ℕ} (o R : ℕ) (h : o + R ≤ P) (A : (⟨2, ![P, K1]⟩ : Shape).Idx → EReal) (B : (⟨2, ![P, K2]⟩ : Shape).Idx → EReal)
    (Wa : (⟨2, ![K1, N]⟩ : Shape).Idx → EReal) (Wb : (⟨2, ![K2, N]⟩ : Shape).Idx → EReal) (b : (⟨2, ![1, N]⟩ : Shape).Idx → EReal) :
    rowsAt o R h (dualPlain A B Wa Wb b) = dualPlain (rowsAt o R h A) (rowsAt o R h B) Wa Wb b := by funext i; rfl

theorem rowsAt_dualRelu {P K1 K2 N : ℕ} (o R : ℕ) (h : o + R ≤ P) (A : (⟨2, ![P, K1]⟩ : Shape).Idx → EReal) (B : (⟨2, ![P, K2]⟩ : Shape).Idx → EReal)
    (Wa : (⟨2, ![K1, N]⟩ : Shape).Idx → EReal) (Wb : (⟨2, ![K2, N]⟩ : Shape).Idx → EReal) (b : (⟨2, ![1, N]⟩ : Shape).Idx → EReal) :
    rowsAt o R h (dualRelu A B Wa Wb b) = dualRelu (rowsAt o R h A) (rowsAt o R h B) Wa Wb b := by funext i; rfl

theorem rowsAt_triOut {P K N : ℕ} (o R : ℕ) (h : o + R ≤ P) (A B C : (⟨2, ![P, K]⟩ : Shape).Idx → EReal)
    (W : (⟨2, ![K, N]⟩ : Shape).Idx → EReal) (b : (⟨2, ![1, N]⟩ : Shape).Idx → EReal) :
    rowsAt o R h (triOut A B C W b) = triOut (rowsAt o R h A) (rowsAt o R h B) (rowsAt o R h C) W b := by funext i; rfl

end Cert.Layers

end
-- ==== Proof.Stages.lean ====
/-
  The network's result as one function of its 35 arguments, over the extended reals.

  A stem of two leaky layers gives the node features h. Each of the three relations then replaces h by its block of h: on the
  nodes the relation keeps, two graph-convolution layers (each the rectified sum of a product of the features and a product of
  their second Chebyshev term); on the nodes it isolates, two plain layers; and one combining layer on both, the kept nodes' rows
  first. The result is the leaky rectifier of the sum of the three blocks, times the last weight, plus the last bias.
  The index arithmetic, gathers, scatter-add and scalings are written with the host's own operations, so that a program that
  computes a stage with those operations has that stage's term on the nose; the dense layers are the layer functions.
-/
import proofs.«116214_j36043365548318_1_alg».proof.ReferenceIdeal
import proofs.«116214_j36043365548318_1_alg».proof.Proof.Layers

noncomputable section

namespace Cert.ReferenceIdeal.Stages

open Idealize.ShloMosaic Cert.ReferenceIdeal Cert.Rows Cert.Gcn Cert.Layers

variable [Facts₀]
open Facts₀

/-- The kept nodes' rows above the isolated nodes' rows make up all 100000 rows, in each relation. -/
theorem cat0 : Shape.Concatenates [S69785x256, S30215x256] S100000x256 0 := by decide
theorem cat1 : Shape.Concatenates [S79460x256, S20540x256] S100000x256 0 := by decide
theorem cat2 : Shape.Concatenates [S74654x256, S25346x256] S100000x256 0 := by decide

/-- An index vector with its negative entries moved up by n. -/
def wrap {s : Shape} (hb : S_.BroadcastsInDim s ![]) (n : BitVec 32) (i : IVec s 32) : IVec s 32 :=
  select (cmpi .slt i (broadcastInDim s ![] hb (constantI S_ 32 0#32))) (addi i (broadcastInDim s ![] hb (constantI S_ 32 n))) i

/-- 2 / λ. -/
def re (lam : FVec Ideal S_ .f32) : FVec Ideal S_ .f32 := Host.divf (constant S_ .f32 0x40000000#32) lam

/-- A bias vector as a [1, 256] row. -/
def row (b : FVec Ideal S256 .f32) : S1x256.Idx → EReal := shapeCast S1x256 b (by decide)

/-- The first and the last 256 rows of a [512, 256] weight. -/
def top (W : FVec Ideal S512x256 .f32) : S256x256.Idx → EReal := rowsAt (P := 512) (N := 256) 0 256 (by decide) W
def bot (W : FVec Ideal S512x256 .f32) : S256x256.Idx → EReal := rowsAt (P := 512) (N := 256) 256 256 (by decide) W

/-- The stem: two leaky layers. -/
def stem (x : FVec Ideal S100000x256 .f32) (W1 : FVec Ideal S256x256 .f32) (b1 : FVec Ideal S256 .f32)
    (W2 : FVec Ideal S256x256 .f32) (b2 : FVec Ideal S256 .f32) : FVec Ideal S100000x256 .f32 :=
  linLeaky (linLeaky x W1 (row b1)) W2 (row b2)

/-! ## Relation 0: 69785 kept nodes, 30215 isolated nodes, 279168 edges -/

/-- The rows of h at the kept nodes' (wrapped) indices. -/
def kept0 (h : FVec Ideal S100000x256 .f32) (keep : IVec S69785 32) : FVec Ideal S69785x256 .f32 :=
  Host.gather gather_S100000x256_S69785x1_S69785x256_1_0_n_n_0_1_1256 h
    (broadcastInDim S69785x1 ![0] bcast_S69785_S69785x1_0 (wrap bcast_S_S69785 100000#32 keep))

/-- The rows of h at the isolated nodes' (wrapped) indices. -/
def isol0 (h : FVec Ideal S100000x256 .f32) (iso : IVec S30215 32) : FVec Ideal S30215x256 .f32 :=
  Host.gather gather_S100000x256_S30215x1_S30215x256_1_0_n_n_0_1_1256 h
    (broadcastInDim S30215x1 ![0] bcast_S30215_S30215x1_0 (wrap bcast_S_S30215 100000#32 iso))

/-- The second Chebyshev term of x for a given scalar re:  −re · (D^{−1/2} A D^{−1/2} x) + (re − 1) · x, the normalised adjacency applied
    as: scale the rows by norm, gather the rows at the edges' sources, add them up at the edges' destinations, scale by norm. -/
def chebR0 (x : FVec Ideal S69785x256 .f32) (src dst : IVec S279168 32) (norm : FVec Ideal S69785 .f32) (rr : FVec Ideal S_ .f32) :
    FVec Ideal S69785x256 .f32 :=
  addf
    (mulf (broadcastInDim S69785x256 ![] bcast_S_S69785x256 (Host.negf rr))
      (mulf
        (Host.scatterAdd scatter_S69785x256_S279168x1_S279168x256_1_0_0_1
          (broadcastInDim S69785x256 ![] bcast_S_S69785x256 (constant S_ .f32 0x00000000#32))
          (broadcastInDim S279168x1 ![0] bcast_S279168_S279168x1_0 dst)
          (Host.gather gather_S69785x256_S279168x1_S279168x256_1_0_n_n_0_1_1256
            (mulf x (broadcastInDim S69785x256 ![0, 1] bcast_S69785x1_S69785x256_0_1 (broadcastInDim S69785x1 ![0] bcast_S69785_S69785x1_0 norm)))
            (broadcastInDim S279168x1 ![0] bcast_S279168_S279168x1_0 (wrap bcast_S_S279168 69785#32 src))))
        (broadcastInDim S69785x256 ![0, 1] bcast_S69785x1_S69785x256_0_1 (broadcastInDim S69785x1 ![0] bcast_S69785_S69785x1_0 norm))))
    (mulf x (broadcastInDim S69785x256 ![] bcast_S_S69785x256 (subf rr (constant S_ .f32 0x3F800000#32))))

/-- The same with re computed from λ. -/
def cheb0 (x : FVec Ideal S69785x256 .f32) (src dst : IVec S279168 32) (norm : FVec Ideal S69785 .f32) (lam : FVec Ideal S_ .f32) :
    FVec Ideal S69785x256 .f32 :=
  chebR0 x src dst norm (re lam)

/-- The first graph-convolution layer on the kept nodes. -/
def conv1_0 (h : FVec Ideal S100000x256 .f32) (keep : IVec S69785 32) (src dst : IVec S279168 32) (norm : FVec Ideal S69785 .f32)
    (lam : FVec Ideal S_ .f32) (Wc1 : FVec Ideal S512x256 .f32) (bc1 : FVec Ideal S256 .f32) : FVec Ideal S69785x256 .f32 :=
  dualRelu (kept0 h keep) (cheb0 (kept0 h keep) src dst norm lam) (top Wc1) (bot Wc1) (row bc1)

/-- The second graph-convolution layer on the kept nodes. -/
def conv2_0 (h : FVec Ideal S100000x256 .f32) (keep : IVec S69785 32) (src dst : IVec S279168 32) (norm : FVec Ideal S69785 .f32)
    (lam : FVec Ideal S_ .f32) (Wc1 : FVec Ideal S512x256 .f32) (bc1 : FVec Ideal S256 .f32) (Wc2 : FVec Ideal S512x256 .f32) (bc2 : FVec Ideal S256 .f32) :
    FVec Ideal S69785x256 .f32 :=
  dualRelu (conv1_0 h keep src dst norm lam Wc1 bc1) (cheb0 (conv1_0 h keep src dst norm lam Wc1 bc1) src dst norm lam) (top Wc2) (bot Wc2) (row bc2)

/-- The two plain layers on the isolated nodes. -/
def mlp1_0 (h : FVec Ideal S100000x256 .f32) (iso : IVec S30215 32) (W1 : FVec Ideal S256x256 .f32) (b1 : FVec Ideal S256 .f32) : FVec Ideal S30215x256 .f32 :=
  linPlain (isol0 h iso) W1 (row b1)

def mlp2_0 (h : FVec Ideal S100000x256 .f32) (iso : IVec S30215 32) (W1 : FVec Ideal S256x256 .f32) (b1 : FVec Ideal S256 .f32)
    (W2 : FVec Ideal S256x256 .f32) (b2 : FVec Ideal S256 .f32) : FVec Ideal S30215x256 .f32 :=
  linPlain (mlp1_0 h iso W1 b1) W2 (row b2)

/-- The relation's block: the combined layer on the kept nodes' two features above the same layer on the isolated nodes' two. -/
def block0 (h : FVec Ideal S100000x256 .f32) (keep : IVec S69785 32) (iso : IVec S30215 32) (src dst : IVec S279168 32)
    (norm : FVec Ideal S69785 .f32) (lam : FVec Ideal S_ .f32)
    (Wc1 : FVec Ideal S512x256 .f32) (bc1 : FVec Ideal S256 .f32) (Wc2 : FVec Ideal S512x256 .f32) (bc2 : FVec Ideal S256 .f32)
    (W1 : FVec Ideal S256x256 .f32) (b1 : FVec Ideal S256 .f32) (W2 : FVec Ideal S256x256 .f32) (b2 : FVec Ideal S256 .f32)
    (W3 : FVec Ideal S512x256 .f32) (b3 : FVec Ideal S256 .f32) : FVec Ideal S100000x256 .f32 :=
  concatenate S100000x256 0
    [⟨S69785x256, dualPlain (conv1_0 h keep src dst norm lam Wc1 bc1) (conv2_0 h keep src dst norm lam Wc1 bc1 Wc2 bc2) (top W3) (bot W3) (row b3)⟩,
     ⟨S30215x256, dualPlain (mlp1_0 h iso W1 b1) (mlp2_0 h iso W1 b1 W2 b2) (top W3) (bot W3) (row b3)⟩]
    cat0

/-! ## Relation 1: 79460 kept nodes, 20540 isolated nodes, 317997 edges -/

/-- The rows of h at the kept nodes' (wrapped) indices. -/
def kept1 (h : FVec Ideal S100000x256 .f32) (keep : IVec S79460 32) : FVec Ideal S79460x256 .f32 :=
  Host.gather gather_S100000x256_S79460x1_S79460x256_1_0_n_n_0_1_1256 h
    (broadcastInDim S79460x1 ![0] bcast_S79460_S79460x1_0 (wrap bcast_S_S79460 100000#32 keep))

/-- The rows of h at the isolated nodes' (wrapped) indices. -/
def isol1 (h : FVec Ideal S100000x256 .f32) (iso : IVec S20540 32) : FVec Ideal S20540x256 .f32 :=
  Host.gather gather_S100000x256_S20540x1_S20540x256_1_0_n_n_0_1_1256 h
    (broadcastInDim S20540x1 ![0] bcast_S20540_S20540x1_0 (wrap bcast_S_S20540 100000#32 iso))

/-- The second Chebyshev term of x for a given scalar re:  −re · (D^{−1/2} A D^{−1/2} x) + (re − 1) · x, the normalised adjacency applied
    as: scale the rows by norm, gather the rows at the edges' sources, add them up at the edges' destinations, scale by norm. -/
def chebR1 (x : FVec Ideal S79460x256 .f32) (src dst : IVec S317997 32) (norm : FVec Ideal S79460 .f32) (rr : FVec Ideal S_ .f32) :
    FVec Ideal S79460x256 .f32 :=
  addf
    (mulf (broadcastInDim S79460x256 ![] bcast_S_S79460x256 (Host.negf rr))
      (mulf
        (Host.scatterAdd scatter_S79460x256_S317997x1_S317997x256_1_0_0_1
          (broadcastInDim S79460x256 ![] bcast_S_S79460x256 (constant S_ .f32 0x00000000#32))
          (broadcastInDim S317997x1 ![0] bcast_S317997_S317997x1_0 dst)
          (Host.gather gather_S79460x256_S317997x1_S317997x256_1_0_n_n_0_1_1256
            (mulf x (broadcastInDim S79460x256 ![0, 1] bcast_S79460x1_S79460x256_0_1 (broadcastInDim S79460x1 ![0] bcast_S79460_S79460x1_0 norm)))
            (broadcastInDim S317997x1 ![0] bcast_S317997_S317997x1_0 (wrap bcast_S_S317997 79460#32 src))))
        (broadcastInDim S79460x256 ![0, 1] bcast_S79460x1_S79460x256_0_1 (broadcastInDim S79460x1 ![0] bcast_S79460_S79460x1_0 norm))))
    (mulf x (broadcastInDim S79460x256 ![] bcast_S_S79460x256 (subf rr (constant S_ .f32 0x3F800000#32))))

/-- The same with re computed from λ. -/
def cheb1 (x : FVec Ideal S79460x256 .f32) (src dst : IVec S317997 32) (norm : FVec Ideal S79460 .f32) (lam : FVec Ideal S_ .f32) :
    FVec Ideal S79460x256 .f32 :=
  chebR1 x src dst norm (re lam)

/-- The first graph-convolution layer on the kept nodes. -/
def conv1_1 (h : FVec Ideal S100000x256 .f32) (keep : IVec S79460 32) (src dst : IVec S317997 32) (norm : FVec Ideal S79460 .f32)
    (lam : FVec Ideal S_ .f32) (Wc1 : FVec Ideal S512x256 .f32) (bc1 : FVec Ideal S256 .f32) : FVec Ideal S79460x256 .f32 :=
  dualRelu (kept1 h keep) (cheb1 (kept1 h keep) src dst norm lam) (top Wc1) (bot Wc1) (row bc1)

/-- The second graph-convolution layer on the kept nodes. -/
def conv2_1 (h : FVec Ideal S100000x256 .f32) (keep : IVec S79460 32) (src dst : IVec S317997 32) (norm : FVec Ideal S79460 .f32)
    (lam : FVec Ideal S_ .f32) (Wc1 : FVec Ideal S512x256 .f32) (bc1 : FVec Ideal S256 .f32) (Wc2 : FVec Ideal S512x256 .f32) (bc2 : FVec Ideal S256 .f32) :
    FVec Ideal S79460x256 .f32 :=
  dualRelu (conv1_1 h keep src dst norm lam Wc1 bc1) (cheb1 (conv1_1 h keep src dst norm lam Wc1 bc1) src dst norm lam) (top Wc2) (bot Wc2) (row bc2)

/-- The two plain layers on the isolated nodes. -/
def mlp1_1 (h : FVec Ideal S100000x256 .f32) (iso : IVec S20540 32) (W1 : FVec Ideal S256x256 .f32) (b1 : FVec Ideal S256 .f32) : FVec Ideal S20540x256 .f32 :=
  linPlain (isol1 h iso) W1 (row b1)

def mlp2_1 (h : FVec Ideal S100000x256 .f32) (iso : IVec S20540 32) (W1 : FVec Ideal S256x256 .f32) (b1 : FVec Ideal S256 .f32)
    (W2 : FVec Ideal S256x256 .f32) (b2 : FVec Ideal S256 .f32) : FVec Ideal S20540x256 .f32 :=
  linPlain (mlp1_1 h iso W1 b1) W2 (row b2)

/-- The relation's block: the combined layer on the kept nodes' two features above the same layer on the isolated nodes' two. -/
def block1 (h : FVec Ideal S100000x256 .f32) (keep : IVec S79460 32) (iso : IVec S20540 32) (src dst : IVec S317997 32)
    (norm : FVec Ideal S79460 .f32) (lam : FVec Ideal S_ .f32)
    (Wc1 : FVec Ideal S512x256 .f32) (bc1 : FVec Ideal S256 .f32) (Wc2 : FVec Ideal S512x256 .f32) (bc2 : FVec Ideal S256 .f32)
    (W1 : FVec Ideal S256x256 .f32) (b1 : FVec Ideal S256 .f32) (W2 : FVec Ideal S256x256 .f32) (b2 : FVec Ideal S256 .f32)
    (W3 : FVec Ideal S512x256 .f32) (b3 : FVec Ideal S256 .f32) : FVec Ideal S100000x256 .f32 :=
  concatenate S100000x256 0
    [⟨S79460x256, dualPlain (conv1_1 h keep src dst norm lam Wc1 bc1) (conv2_1 h keep src dst norm lam Wc1 bc1 Wc2 bc2) (top W3) (bot W3) (row b3)⟩,
     ⟨S20540x256, dualPlain (mlp1_1 h iso W1 b1) (mlp2_1 h iso W1 b1 W2 b2) (top W3) (bot W3) (row b3)⟩]
    cat1

/-! ## Relation 2: 74654 kept nodes, 25346 isolated nodes, 298662 edges -/

/-- The rows of h at the kept nodes' (wrapped) indices. -/
def kept2 (h : FVec Ideal S100000x256 .f32) (keep : IVec S74654 32) : FVec Ideal S74654x256 .f32 :=
  Host.gather gather_S100000x256_S74654x1_S74654x256_1_0_n_n_0_1_1256 h
    (broadcastInDim S74654x1 ![0] bcast_S74654_S74654x1_0 (wrap bcast_S_S74654 100000#32 keep))

/-- The rows of h at the isolated nodes' (wrapped) indices. -/
def isol2 (h : FVec Ideal S100000x256 .f32) (iso : IVec S25346 32) : FVec Ideal S25346x256 .f32 :=
  Host.gather gather_S100000x256_S25346x1_S25346x256_1_0_n_n_0_1_1256 h
    (broadcastInDim S25346x1 ![0] bcast_S25346_S25346x1_0 (wrap bcast_S_S25346 100000#32 iso))

/-- The second Chebyshev term of x for a given scalar re:  −re · (D^{−1/2} A D^{−1/2} x) + (re − 1) · x, the normalised adjacency applied
    as: scale the rows by norm, gather the rows at the edges' sources, add them up at the edges' destinations, scale by norm. -/
def chebR2 (x : FVec Ideal S74654x256 .f32) (src dst : IVec S298662 32) (norm : FVec Ideal S74654 .f32) (rr : FVec Ideal S_ .f32) :
    FVec Ideal S74654x256 .f32 :=
  addf
    (mulf (broadcastInDim S74654x256 ![] bcast_S_S74654x256 (Host.negf rr))
      (mulf
        (Host.scatterAdd scatter_S74654x256_S298662x1_S298662x256_1_0_0_1
          (broadcastInDim S74654x256 ![] bcast_S_S74654x256 (constant S_ .f32 0x00000000#32))
          (broadcastInDim S298662x1 ![0] bcast_S298662_S298662x1_0 dst)
          (Host.gather gather_S74654x256_S298662x1_S298662x256_1_0_n_n_0_1_1256
            (mulf x (broadcastInDim S74654x256 ![0, 1] bcast_S74654x1_S74654x256_0_1 (broadcastInDim S74654x1 ![0] bcast_S74654_S74654x1_0 norm)))
            (broadcastInDim S298662x1 ![0] bcast_S298662_S298662x1_0 (wrap bcast_S_S298662 74654#32 src))))
        (broadcastInDim S74654x256 ![0, 1] bcast_S74654x1_S74654x256_0_1 (broadcastInDim S74654x1 ![0] bcast_S74654_S74654x1_0 norm))))
    (mulf x (broadcastInDim S74654x256 ![] bcast_S_S74654x256 (subf rr (constant S_ .f32 0x3F800000#32))))

/-- The same with re computed from λ. -/
def cheb2 (x : FVec Ideal S74654x256 .f32) (src dst : IVec S298662 32) (norm : FVec Ideal S74654 .f32) (lam : FVec Ideal S_ .f32) :
    FVec Ideal S74654x256 .f32 :=
  chebR2 x src dst norm (re lam)

/-- The first graph-convolution layer on the kept nodes. -/
def conv1_2 (h : FVec Ideal S100000x256 .f32) (keep : IVec S74654 32) (src dst : IVec S298662 32) (norm : FVec Ideal S74654 .f32)
    (lam : FVec Ideal S_ .f32) (Wc1 : FVec Ideal S512x256 .f32) (bc1 : FVec Ideal S256 .f32) : FVec Ideal S74654x256 .f32 :=
  dualRelu (kept2 h keep) (cheb2 (kept2 h keep) src dst norm lam) (top Wc1) (bot Wc1) (row bc1)

/-- The second graph-convolution layer on the kept nodes. -/
def conv2_2 (h : FVec Ideal S100000x256 .f32) (keep : IVec S74654 32) (src dst : IVec S298662 32) (norm : FVec Ideal S74654 .f32)
    (lam : FVec Ideal S_ .f32) (Wc1 : FVec Ideal S512x256 .f32) (bc1 : FVec Ideal S256 .f32) (Wc2 : FVec Ideal S512x256 .f32) (bc2 : FVec Ideal S256 .f32) :
    FVec Ideal S74654x256 .f32 :=
  dualRelu (conv1_2 h keep src dst norm lam Wc1 bc1) (cheb2 (conv1_2 h keep src dst norm lam Wc1 bc1) src dst norm lam) (top Wc2) (bot Wc2) (row bc2)

/-- The two plain layers on the isolated nodes. -/
def mlp1_2 (h : FVec Ideal S100000x256 .f32) (iso : IVec S25346 32) (W1 : FVec Ideal S256x256 .f32) (b1 : FVec Ideal S256 .f32) : FVec Ideal S25346x256 .f32 :=
  linPlain (isol2 h iso) W1 (row b1)

def mlp2_2 (h : FVec Ideal S100000x256 .f32) (iso : IVec S25346 32) (W1 : FVec Ideal S256x256 .f32) (b1 : FVec Ideal S256 .f32)
    (W2 : FVec Ideal S256x256 .f32) (b2 : FVec Ideal S256 .f32) : FVec Ideal S25346x256 .f32 :=
  linPlain (mlp1_2 h iso W1 b1) W2 (row b2)

/-- The relation's block: the combined layer on the kept nodes' two features above the same layer on the isolated nodes' two. -/
def block2 (h : FVec Ideal S100000x256 .f32) (keep : IVec S74654 32) (iso : IVec S25346 32) (src dst : IVec S298662 32)
    (norm : FVec Ideal S74654 .f32) (lam : FVec Ideal S_ .f32)
    (Wc1 : FVec Ideal S512x256 .f32) (bc1 : FVec Ideal S256 .f32) (Wc2 : FVec Ideal S512x256 .f32) (bc2 : FVec Ideal S256 .f32)
    (W1 : FVec Ideal S256x256 .f32) (b1 : FVec Ideal S256 .f32) (W2 : FVec Ideal S256x256 .f32) (b2 : FVec Ideal S256 .f32)
    (W3 : FVec Ideal S512x256 .f32) (b3 : FVec Ideal S256 .f32) : FVec Ideal S100000x256 .f32 :=
  concatenate S100000x256 0
    [⟨S74654x256, dualPlain (conv1_2 h keep src dst norm lam Wc1 bc1) (conv2_2 h keep src dst norm lam Wc1 bc1 Wc2 bc2) (top W3) (bot W3) (row b3)⟩,
     ⟨S25346x256, dualPlain (mlp1_2 h iso W1 b1) (mlp2_2 h iso W1 b1 W2 b2) (top W3) (bot W3) (row b3)⟩]
    cat2

/-! ## The whole network -/

/-- The result: the last layer on the three relations' blocks, each block computed from the previous one. -/
def result
    (a0 : FVec Ideal S100000x256 .f32)
    (a1 : IVec S69785 32) (a2 : IVec S30215 32) (a3 a4 : IVec S279168 32) (a5 : FVec Ideal S69785 .f32) (a6 : FVec Ideal S_ .f32)
    (a7 : IVec S79460 32) (a8 : IVec S20540 32) (a9 a10 : IVec S317997 32) (a11 : FVec Ideal S79460 .f32) (a12 : FVec Ideal S_ .f32)
    (a13 : IVec S74654 32) (a14 : IVec S25346 32) (a15 a16 : IVec S298662 32) (a17 : FVec Ideal S74654 .f32) (a18 : FVec Ideal S_ .f32)
    (a19 : FVec Ideal S256x256 .f32) (a20 : FVec Ideal S256 .f32) (a21 : FVec Ideal S256x256 .f32) (a22 : FVec Ideal S256 .f32)
    (a23 : FVec Ideal S256x256 .f32) (a24 : FVec Ideal S256 .f32) (a25 : FVec Ideal S256x256 .f32) (a26 : FVec Ideal S256 .f32)
    (a27 : FVec Ideal S512x256 .f32) (a28 : FVec Ideal S256 .f32) (a29 : FVec Ideal S512x256 .f32) (a30 : FVec Ideal S256 .f32)
    (a31 : FVec Ideal S512x256 .f32) (a32 : FVec Ideal S256 .f32) (a33 : FVec Ideal S256x2 .f32) (a34 : FVec Ideal S2 .f32) :
    FVec Ideal S100000x2 .f32 :=
  let h0 := stem a0 a19 a20 a21 a22
  let h1 := block0 h0 a1 a2 a3 a4 a5 a6 a27 a28 a29 a30 a23 a24 a25 a26 a31 a32
  let h2 := block1 h1 a7 a8 a9 a10 a11 a12 a27 a28 a29 a30 a23 a24 a25 a26 a31 a32
  let h3 := block2 h2 a13 a14 a15 a16 a17 a18 a27 a28 a29 a30 a23 a24 a25 a26 a31 a32
  triOut h1 h2 h3 a33 (shapeCast S1x2 a34 (by decide))

end Cert.ReferenceIdeal.Stages

end
-- ==== Proof.LibWrites.lean ====
/-
  Host operations that write only buffers numbered from `n` on.

  A straight line of host operations each of which writes one result buffer of its own, all of them
  numbered `n` or higher among the TensorCore references, leaves every reference numbered below `n` as
  it found it. With the program's arguments numbered first, this is "no host operation writes an
  argument".
-/
import Idealize.ShloMosaic.Lib.StableHlo.Run

noncomputable section

namespace Idealize.ShloMosaic.StableHlo

open Idealize.ShloMosaic.TcCoe

variable {τ : Topo} {sig : RefSig} {Val : EltTy → Type}

/-- Every buffer the operation writes is a TensorCore reference whose index is at least `n`. -/
def WritesFrom (n : ℕ) (op : HloOp τ sig Val) : Prop :=
  ∀ b ∈ op.writes, ∃ y : Ref sig .tc, b = Proc.devRef .tc y ∧ n ≤ y.idx.val

/-- A line of such operations leaves every reference numbered below `n` as it found it. -/
theorem after_below (n : ℕ) (ops : List (HloOp τ sig Val)) (W : Valuation τ sig Val)
    (h : ops.Forall (WritesFrom n)) (r : Ref sig .tc) (hr : r.idx.val < n) :
    after ops W (Proc.devRef .tc r) = W (Proc.devRef .tc r) :=
  after_of_forall_not_mem ops W fun op hop hb => by
    obtain ⟨y, e, hy⟩ := (List.forall_iff_forall_mem.mp h) op hop _ hb
    obtain rfl : r = y := Proc.devRef_injective _ e
    omega

/-- Any stretch cut from the front or the back of such a line is such a line. -/
theorem WritesFrom.take (n k : ℕ) (ops : List (HloOp τ sig Val)) (h : ops.Forall (WritesFrom n)) :
    (ops.take k).Forall (WritesFrom n) :=
  List.forall_iff_forall_mem.mpr fun op hop => (List.forall_iff_forall_mem.mp h) op (List.mem_of_mem_take hop)

theorem WritesFrom.drop (n k : ℕ) (ops : List (HloOp τ sig Val)) (h : ops.Forall (WritesFrom n)) :
    (ops.drop k).Forall (WritesFrom n) :=
  List.forall_iff_forall_mem.mpr fun op hop => (List.forall_iff_forall_mem.mp h) op (List.mem_of_mem_drop hop)

/-- One operation at a time over a literal line: the buffer written is the operation's own result. -/
macro "writes_own" : tactic =>
  `(tactic| (simp only [List.Forall]; repeat' constructor
             all_goals exact fun b hb => ⟨_, Finset.mem_singleton.mp hb, by decide⟩))

/-- Two lines one after the other. -/
theorem after_two : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_two l₁ l₂]

/-- A line run in two stretches. -/
theorem after_take_drop (k : ℕ) (ops : List (HloOp τ sig Val)) (W : Valuation τ sig Val) :
    after ops W = after (ops.drop k) (after (ops.take k) W) := by
  rw [← after_two, List.take_append_drop]

end Idealize.ShloMosaic.StableHlo

end
-- ==== Proof.LibWalk.lean ====
/-
  Walking a buffer's contents back through a run given as a fold.

  The buffer contents of a program at its segment boundaries form a fold. A stretch of host operations takes
  contents `W` to `StableHlo.after ops W`; a kernel region takes `W` to `Pipeline.withArrays win c W A`: its own
  arrays at what it leaves (`A`), every other buffer as found. When the references are numbered in program
  order, a stretch writes only references numbered from some `n` on, and so leaves every reference numbered
  below `n` as it was. `Keeps n W' W` says exactly that of two contents: they agree at every TensorCore
  reference numbered below `n`. The relation is reflexive, transitive and downward closed in `n`; a stretch
  whose operations all write from `n` on keeps `n` (`Keeps.after`), and so does a region all of whose arrays
  numbered below `n` end as they were entered (`Pipeline.keeps_of_arrays`). One line per boundary then carries,
  at once, every buffer written before that boundary; a single buffer is read off with `Keeps.at`.
-/
import Idealize.ShloMosaic.Lib.Pipeline.FrameSuffix
import proofs.«116214_j36043365548318_1_alg».proof.Proof.LibWrites

noncomputable section

namespace Idealize.ShloMosaic

open TcCoe

variable {nD : Nat} {τ : Topo} {sig : RefSig} {Val : EltTy → Type}

namespace StableHlo

/-- The two contents agree at every TensorCore reference numbered below `n`. -/
def Keeps (n : ℕ) (W' W : Valuation τ sig Val) : Prop :=
  ∀ r : Ref sig .tc, r.idx.val < n → W' (Proc.devRef .tc r) = W (Proc.devRef .tc r)

namespace Keeps

theorem refl (n : ℕ) (W : Valuation τ sig Val) : Keeps n W W := fun _ _ => rfl

/-- Agreement below `n` is agreement below any `k ≤ n`. -/
theorem mono {k n : ℕ} {W' W : Valuation τ sig Val} (h : Keeps n W' W) (hk : k ≤ n) : Keeps k W' W :=
  fun r hr => h r (Nat.lt_of_lt_of_le hr hk)

theorem trans {n : ℕ} {W'' W' W : Valuation τ sig Val} (h' : Keeps n W'' W') (h : Keeps n W' W) : Keeps n W'' W :=
  fun r hr => (h' r hr).trans (h r hr)

/-- One buffer read off: a reference numbered below `n` holds the same in both. -/
theorem «at» {n : ℕ} {W' W : Valuation τ sig Val} (h : Keeps n W' W) (r : Ref sig .tc) (hr : r.idx.val < n) :
    W' (Proc.devRef .tc r) = W (Proc.devRef .tc r) := h r hr

/-- A stretch of host operations each writing only references numbered from `n` on keeps everything below `n`. -/
theorem after {n : ℕ} {ops : List (HloOp τ sig Val)} (hops : ops.Forall (WritesFrom n)) (W : Valuation τ sig Val) :
    Keeps n (StableHlo.after ops W) W :=
  fun r hr => after_below n ops W hops r hr

/-- One more stretch on a chain: if `W'` agrees with `W` below `k` and the stretch writes from `n ≥ k` on, the
    contents after the stretch still agree with `W` below `k`. -/
theorem step {k n : ℕ} {ops : List (HloOp τ sig Val)} {W' W : Valuation τ sig Val} (h : Keeps k W' W)
    (hops : ops.Forall (WritesFrom n)) (hk : k ≤ n) : Keeps k (StableHlo.after ops W') W :=
  ((Keeps.after hops W').mono hk).trans h

end Keeps

end StableHlo

namespace Pipeline

/-- A region's exit keeps everything below `n`. What is asked of the exit contents `W'` against the entry contents
    `V`: a reference that is none of the region's arrays holds what it held (`hne`), and each array numbered below
    `n` (an input array: the outputs are numbered later) is left as it was entered (`hA`). -/
theorem keeps_of_arrays {gr : Nat} {W : Nat} (win : Fin W → WinSpec sig gr) {W' V : Valuation τ sig Val} (n : ℕ)
    (hne : ∀ b : Ref sig .tc, (∀ w, arrRef win w ≠ b) → W' (Proc.devRef .tc b) = V (Proc.devRef .tc b))
    (hA : ∀ w, (arrRef win w).idx.val < n → W' (Proc.devRef .tc (arrRef win w)) = V (Proc.devRef .tc (arrRef win w))) :
    StableHlo.Keeps n W' V := by
  intro r hr
  by_cases h : ∃ w, arrRef win w = r
  · obtain ⟨w, rfl⟩ := h
    exact hA w hr
  · exact hne r fun w e => h ⟨w, e⟩

end Pipeline

end Idealize.ShloMosaic

end
-- ==== Proof.KerKeeps.lean ====
/-
  What each segment of the kernel's run leaves alone.

  The buffer contents at the segment boundaries form a fold W0, W1, …. The references are numbered in program order, so the
  segment between two boundaries writes only references numbered from some n on: a stretch of host operations writes
  consecutive numbers starting at n, a kernel region writes its one output array, numbered n, and leaves its input arrays as
  entered. Hence every reference numbered below n holds at the later boundary what it held at the earlier one: keep_j.
-/
import proofs.«116214_j36043365548318_1_alg».proof.Proof.Gen.KernelIdeal.Frame
import proofs.«116214_j36043365548318_1_alg».proof.Proof.LibWalk
import Idealize.ShloMosaic.PureOps.Ideal

set_option maxRecDepth 16384

noncomputable section

namespace Cert.KernelIdeal.KerKeeps

open Idealize.ShloMosaic Idealize.ShloMosaic.TcCoe
open Cert.KernelIdeal.Gen

variable (m : (ℓ : Loc nD τ sig) → Buf (Elt Ideal) ℓ) (ρ : Dev nD → PrngReg)

/-- Every operation of the stretch writes a reference numbered 35 or higher. -/
theorem hostOps0_from : (hostOps0 : List (HloOp τ sig (Elt Ideal))).Forall (StableHlo.WritesFrom 35) := by writes_own
theorem keep_1 (c : Dev nD) : StableHlo.Keeps 35 (W1 (F := Ideal) m ρ c) (W0 m ρ c) :=
  StableHlo.Keeps.after hostOps0_from _

/-- Every operation of the stretch writes a reference numbered 36 or higher. -/
theorem hostOps0_1_from : (hostOps0_1 : List (HloOp τ sig (Elt Ideal))).Forall (StableHlo.WritesFrom 36) := by writes_own
theorem keep_2 (c : Dev nD) : StableHlo.Keeps 36 (W2 (F := Ideal) m ρ c) (W1 m ρ c) :=
  StableHlo.Keeps.after hostOps0_1_from _

/-- Every operation of the stretch writes a reference numbered 38 or higher. -/
theorem hostOps0_2_from : (hostOps0_2 : List (HloOp τ sig (Elt Ideal))).Forall (StableHlo.WritesFrom 38) := by writes_own
theorem keep_3 (c : Dev nD) : StableHlo.Keeps 38 (W3 (F := Ideal) m ρ c) (W2 m ρ c) :=
  StableHlo.Keeps.after hostOps0_2_from _

/-- Region 0 writes its output array, numbered 39, and leaves its 3 input arrays as entered. -/
theorem keep_4 (c : Dev nD) : StableHlo.Keeps 39 (W4 (F := Ideal) m ρ c) (W3 m ρ c) :=
  Pipeline.keeps_of_arrays spec0 39 (fun b hb => W4_of_ne m ρ c b hb) fun
    | 0 => fun _ => (W4_arr m ρ c 0).trans (((dat0 (V3 m ρ) c).arrAt_in 0 rfl _).trans (A_eq0 (V3 m ρ) c 0))
    | 1 => fun _ => (W4_arr m ρ c 1).trans (((dat0 (V3 m ρ) c).arrAt_in 1 rfl _).trans (A_eq0 (V3 m ρ) c 1))
    | 2 => fun _ => (W4_arr m ρ c 2).trans (((dat0 (V3 m ρ) c).arrAt_in 2 rfl _).trans (A_eq0 (V3 m ρ) c 2))
    | 3 => fun hw => absurd hw (by decide)
    | ⟨_ + 4, h⟩ => absurd h (Nat.not_lt.2 (Nat.le_add_left _ _))

/-- Every operation of the stretch writes a reference numbered 40 or higher. -/
theorem hostOps1_from : (hostOps1 : List (HloOp τ sig (Elt Ideal))).Forall (StableHlo.WritesFrom 40) := by writes_own
theorem keep_5 (c : Dev nD) : StableHlo.Keeps 40 (W5 (F := Ideal) m ρ c) (W4 m ρ c) :=
  StableHlo.Keeps.after hostOps1_from _

/-- Every operation of the stretch writes a reference numbered 42 or higher. -/
theorem hostOps1_1_from : (hostOps1_1 : List (HloOp τ sig (Elt Ideal))).Forall (StableHlo.WritesFrom 42) := by writes_own
theorem keep_6 (c : Dev nD) : StableHlo.Keeps 42 (W6 (F := Ideal) m ρ c) (W5 m ρ c) :=
  StableHlo.Keeps.after hostOps1_1_from _

/-- Every operation of the stretch writes a reference numbered 44 or higher. -/
theorem hostOps1_2_from : (hostOps1_2 : List (HloOp τ sig (Elt Ideal))).Forall (StableHlo.WritesFrom 44) := by writes_own
theorem keep_7 (c : Dev nD) : StableHlo.Keeps 44 (W7 (F := Ideal) m ρ c) (W6 m ρ c) :=
  StableHlo.Keeps.after hostOps1_2_from _

/-- Region 1 writes its output array, numbered 45, and leaves its 3 input arrays as entered. -/
theorem keep_8 (c : Dev nD) : StableHlo.Keeps 45 (W8 (F := Ideal) m ρ c) (W7 m ρ c) :=
  Pipeline.keeps_of_arrays spec1 45 (fun b hb => W8_of_ne m ρ c b hb) fun
    | 0 => fun _ => (W8_arr m ρ c 0).trans (((dat1 (V7 m ρ) c).arrAt_in 0 rfl _).trans (A_eq1 (V7 m ρ) c 0))
    | 1 => fun _ => (W8_arr m ρ c 1).trans (((dat1 (V7 m ρ) c).arrAt_in 1 rfl _).trans (A_eq1 (V7 m ρ) c 1))
    | 2 => fun _ => (W8_arr m ρ c 2).trans (((dat1 (V7 m ρ) c).arrAt_in 2 rfl _).trans (A_eq1 (V7 m ρ) c 2))
    | 3 => fun hw => absurd hw (by decide)
    | ⟨_ + 4, h⟩ => absurd h (Nat.not_lt.2 (Nat.le_add_left _ _))

/-- Every operation of the stretch writes a reference numbered 46 or higher. -/
theorem hostOps2_from : (hostOps2 : List (HloOp τ sig (Elt Ideal))).Forall (StableHlo.WritesFrom 46) := by writes_own
theorem keep_9 (c : Dev nD) : StableHlo.Keeps 46 (W9 (F := Ideal) m ρ c) (W8 m ρ c) :=
  StableHlo.Keeps.after hostOps2_from _

/-- Every operation of the stretch writes a reference numbered 99 or higher. -/
theorem hostOps2_1_from : (hostOps2_1 : List (HloOp τ sig (Elt Ideal))).Forall (StableHlo.WritesFrom 99) := by writes_own
theorem keep_10 (c : Dev nD) : StableHlo.Keeps 99 (W10 (F := Ideal) m ρ c) (W9 m ρ c) :=
  StableHlo.Keeps.after hostOps2_1_from _

/-- Every operation of the stretch writes a reference numbered 101 or higher. -/
theorem hostOps2_2_from : (hostOps2_2 : List (HloOp τ sig (Elt Ideal))).Forall (StableHlo.WritesFrom 101) := by writes_own
theorem keep_11 (c : Dev nD) : StableHlo.Keeps 101 (W11 (F := Ideal) m ρ c) (W10 m ρ c) :=
  StableHlo.Keeps.after hostOps2_2_from _

/-- Every operation of the stretch writes a reference numbered 102 or higher. -/
theorem hostOps2_3_from : (hostOps2_3 : List (HloOp τ sig (Elt Ideal))).Forall (StableHlo.WritesFrom 102) := by writes_own
theorem keep_12 (c : Dev nD) : StableHlo.Keeps 102 (W12 (F := Ideal) m ρ c) (W11 m ρ c) :=
  StableHlo.Keeps.after hostOps2_3_from _

/-- Every operation of the stretch writes a reference numbered 104 or higher. -/
theorem hostOps2_4_from : (hostOps2_4 : List (HloOp τ sig (Elt Ideal))).Forall (StableHlo.WritesFrom 104) := by writes_own
theorem keep_13 (c : Dev nD) : StableHlo.Keeps 104 (W13 (F := Ideal) m ρ c) (W12 m ρ c) :=
  StableHlo.Keeps.after hostOps2_4_from _

/-- Region 2 writes its output array, numbered 105, and leaves its 5 input arrays as entered. -/
theorem keep_14 (c : Dev nD) : StableHlo.Keeps 105 (W14 (F := Ideal) m ρ c) (W13 m ρ c) :=
  Pipeline.keeps_of_arrays spec2 105 (fun b hb => W14_of_ne m ρ c b hb) fun
    | 0 => fun _ => (W14_arr m ρ c 0).trans (((dat2 (V13 m ρ) c).arrAt_in 0 rfl _).trans (A_eq2 (V13 m ρ) c 0))
    | 1 => fun _ => (W14_arr m ρ c 1).trans (((dat2 (V13 m ρ) c).arrAt_in 1 rfl _).trans (A_eq2 (V13 m ρ) c 1))
    | 2 => fun _ => (W14_arr m ρ c 2).trans (((dat2 (V13 m ρ) c).arrAt_in 2 rfl _).trans (A_eq2 (V13 m ρ) c 2))
    | 3 => fun _ => (W14_arr m ρ c 3).trans (((dat2 (V13 m ρ) c).arrAt_in 3 rfl _).trans (A_eq2 (V13 m ρ) c 3))
    | 4 => fun _ => (W14_arr m ρ c 4).trans (((dat2 (V13 m ρ) c).arrAt_in 4 rfl _).trans (A_eq2 (V13 m ρ) c 4))
    | 5 => fun hw => absurd hw (by decide)
    | ⟨_ + 6, h⟩ => absurd h (Nat.not_lt.2 (Nat.le_add_left _ _))

/-- Every operation of the stretch writes a reference numbered 106 or higher. -/
theorem hostOps3_from : (hostOps3 : List (HloOp τ sig (Elt Ideal))).Forall (StableHlo.WritesFrom 106) := by writes_own
theorem keep_15 (c : Dev nD) : StableHlo.Keeps 106 (W15 (F := Ideal) m ρ c) (W14 m ρ c) :=
  StableHlo.Keeps.after hostOps3_from _

/-- Every operation of the stretch writes a reference numbered 135 or higher. -/
theorem hostOps3_1_from : (hostOps3_1 : List (HloOp τ sig (Elt Ideal))).Forall (StableHlo.WritesFrom 135) := by writes_own
theorem keep_16 (c : Dev nD) : StableHlo.Keeps 135 (W16 (F := Ideal) m ρ c) (W15 m ρ c) :=
  StableHlo.Keeps.after hostOps3_1_from _

/-- Every operation of the stretch writes a reference numbered 137 or higher. -/
theorem hostOps3_2_from : (hostOps3_2 : List (HloOp τ sig (Elt Ideal))).Forall (StableHlo.WritesFrom 137) := by writes_own
theorem keep_17 (c : Dev nD) : StableHlo.Keeps 137 (W17 (F := Ideal) m ρ c) (W16 m ρ c) :=
  StableHlo.Keeps.after hostOps3_2_from _

/-- Every operation of the stretch writes a reference numbered 138 or higher. -/
theorem hostOps3_3_from : (hostOps3_3 : List (HloOp τ sig (Elt Ideal))).Forall (StableHlo.WritesFrom 138) := by writes_own
theorem keep_18 (c : Dev nD) : StableHlo.Keeps 138 (W18 (F := Ideal) m ρ c) (W17 m ρ c) :=
  StableHlo.Keeps.after hostOps3_3_from _

/-- Every operation of the stretch writes a reference numbered 140 or higher. -/
theorem hostOps3_4_from : (hostOps3_4 : List (HloOp τ sig (Elt Ideal))).Forall (StableHlo.WritesFrom 140) := by writes_own
theorem keep_19 (c : Dev nD) : StableHlo.Keeps 140 (W19 (F := Ideal) m ρ c) (W18 m ρ c) :=
  StableHlo.Keeps.after hostOps3_4_from _

/-- Region 3 writes its output array, numbered 141, and leaves its 5 input arrays as entered. -/
theorem keep_20 (c : Dev nD) : StableHlo.Keeps 141 (W20 (F := Ideal) m ρ c) (W19 m ρ c) :=
  Pipeline.keeps_of_arrays spec3 141 (fun b hb => W20_of_ne m ρ c b hb) fun
    | 0 => fun _ => (W20_arr m ρ c 0).trans (((dat3 (V19 m ρ) c).arrAt_in 0 rfl _).trans (A_eq3 (V19 m ρ) c 0))
    | 1 => fun _ => (W20_arr m ρ c 1).trans (((dat3 (V19 m ρ) c).arrAt_in 1 rfl _).trans (A_eq3 (V19 m ρ) c 1))
    | 2 => fun _ => (W20_arr m ρ c 2).trans (((dat3 (V19 m ρ) c).arrAt_in 2 rfl _).trans (A_eq3 (V19 m ρ) c 2))
    | 3 => fun _ => (W20_arr m ρ c 3).trans (((dat3 (V19 m ρ) c).arrAt_in 3 rfl _).trans (A_eq3 (V19 m ρ) c 3))
    | 4 => fun _ => (W20_arr m ρ c 4).trans (((dat3 (V19 m ρ) c).arrAt_in 4 rfl _).trans (A_eq3 (V19 m ρ) c 4))
    | 5 => fun hw => absurd hw (by decide)
    | ⟨_ + 6, h⟩ => absurd h (Nat.not_lt.2 (Nat.le_add_left _ _))

/-- Every operation of the stretch writes a reference numbered 142 or higher. -/
theorem hostOps4_from : (hostOps4 : List (HloOp τ sig (Elt Ideal))).Forall (StableHlo.WritesFrom 142) := by writes_own
theorem keep_21 (c : Dev nD) : StableHlo.Keeps 142 (W21 (F := Ideal) m ρ c) (W20 m ρ c) :=
  StableHlo.Keeps.after hostOps4_from _

/-- Every operation of the stretch writes a reference numbered 144 or higher. -/
theorem hostOps4_1_from : (hostOps4_1 : List (HloOp τ sig (Elt Ideal))).Forall (StableHlo.WritesFrom 144) := by writes_own
theorem keep_22 (c : Dev nD) : StableHlo.Keeps 144 (W22 (F := Ideal) m ρ c) (W21 m ρ c) :=
  StableHlo.Keeps.after hostOps4_1_from _

/-- Every operation of the stretch writes a reference numbered 146 or higher. -/
theorem hostOps4_2_from : (hostOps4_2 : List (HloOp τ sig (Elt Ideal))).Forall (StableHlo.WritesFrom 146) := by writes_own
theorem keep_23 (c : Dev nD) : StableHlo.Keeps 146 (W23 (F := Ideal) m ρ c) (W22 m ρ c) :=
  StableHlo.Keeps.after hostOps4_2_from _

/-- Region 4 writes its output array, numbered 147, and leaves its 3 input arrays as entered. -/
theorem keep_24 (c : Dev nD) : StableHlo.Keeps 147 (W24 (F := Ideal) m ρ c) (W23 m ρ c) :=
  Pipeline.keeps_of_arrays spec4 147 (fun b hb => W24_of_ne m ρ c b hb) fun
    | 0 => fun _ => (W24_arr m ρ c 0).trans (((dat4 (V23 m ρ) c).arrAt_in 0 rfl _).trans (A_eq4 (V23 m ρ) c 0))
    | 1 => fun _ => (W24_arr m ρ c 1).trans (((dat4 (V23 m ρ) c).arrAt_in 1 rfl _).trans (A_eq4 (V23 m ρ) c 1))
    | 2 => fun _ => (W24_arr m ρ c 2).trans (((dat4 (V23 m ρ) c).arrAt_in 2 rfl _).trans (A_eq4 (V23 m ρ) c 2))
    | 3 => fun hw => absurd hw (by decide)
    | ⟨_ + 4, h⟩ => absurd h (Nat.not_lt.2 (Nat.le_add_left _ _))

/-- Every operation of the stretch writes a reference numbered 148 or higher. -/
theorem hostOps5_from : (hostOps5 : List (HloOp τ sig (Elt Ideal))).Forall (StableHlo.WritesFrom 148) := by writes_own
theorem keep_25 (c : Dev nD) : StableHlo.Keeps 148 (W25 (F := Ideal) m ρ c) (W24 m ρ c) :=
  StableHlo.Keeps.after hostOps5_from _

/-- Every operation of the stretch writes a reference numbered 150 or higher. -/
theorem hostOps5_1_from : (hostOps5_1 : List (HloOp τ sig (Elt Ideal))).Forall (StableHlo.WritesFrom 150) := by writes_own
theorem keep_26 (c : Dev nD) : StableHlo.Keeps 150 (W26 (F := Ideal) m ρ c) (W25 m ρ c) :=
  StableHlo.Keeps.after hostOps5_1_from _

/-- Every operation of the stretch writes a reference numbered 152 or higher. -/
theorem hostOps5_2_from : (hostOps5_2 : List (HloOp τ sig (Elt Ideal))).Forall (StableHlo.WritesFrom 152) := by writes_own
theorem keep_27 (c : Dev nD) : StableHlo.Keeps 152 (W27 (F := Ideal) m ρ c) (W26 m ρ c) :=
  StableHlo.Keeps.after hostOps5_2_from _

/-- Region 5 writes its output array, numbered 153, and leaves its 3 input arrays as entered. -/
theorem keep_28 (c : Dev nD) : StableHlo.Keeps 153 (W28 (F := Ideal) m ρ c) (W27 m ρ c) :=
  Pipeline.keeps_of_arrays spec5 153 (fun b hb => W28_of_ne m ρ c b hb) fun
    | 0 => fun _ => (W28_arr m ρ c 0).trans (((dat5 (V27 m ρ) c).arrAt_in 0 rfl _).trans (A_eq5 (V27 m ρ) c 0))
    | 1 => fun _ => (W28_arr m ρ c 1).trans (((dat5 (V27 m ρ) c).arrAt_in 1 rfl _).trans (A_eq5 (V27 m ρ) c 1))
    | 2 => fun _ => (W28_arr m ρ c 2).trans (((dat5 (V27 m ρ) c).arrAt_in 2 rfl _).trans (A_eq5 (V27 m ρ) c 2))
    | 3 => fun hw => absurd hw (by decide)
    | ⟨_ + 4, h⟩ => absurd h (Nat.not_lt.2 (Nat.le_add_left _ _))

/-- Every operation of the stretch writes a reference numbered 154 or higher. -/
theorem hostOps6_from : (hostOps6 : List (HloOp τ sig (Elt Ideal))).Forall (StableHlo.WritesFrom 154) := by writes_own
theorem keep_29 (c : Dev nD) : StableHlo.Keeps 154 (W29 (F := Ideal) m ρ c) (W28 m ρ c) :=
  StableHlo.Keeps.after hostOps6_from _

/-- Every operation of the stretch writes a reference numbered 158 or higher. -/
theorem hostOps6_1_from : (hostOps6_1 : List (HloOp τ sig (Elt Ideal))).Forall (StableHlo.WritesFrom 158) := by writes_own
theorem keep_30 (c : Dev nD) : StableHlo.Keeps 158 (W30 (F := Ideal) m ρ c) (W29 m ρ c) :=
  StableHlo.Keeps.after hostOps6_1_from _

/-- Every operation of the stretch writes a reference numbered 160 or higher. -/
theorem hostOps6_2_from : (hostOps6_2 : List (HloOp τ sig (Elt Ideal))).Forall (StableHlo.WritesFrom 160) := by writes_own
theorem keep_31 (c : Dev nD) : StableHlo.Keeps 160 (W31 (F := Ideal) m ρ c) (W30 m ρ c) :=
  StableHlo.Keeps.after hostOps6_2_from _

/-- Every operation of the stretch writes a reference numbered 161 or higher. -/
theorem hostOps6_3_from : (hostOps6_3 : List (HloOp τ sig (Elt Ideal))).Forall (StableHlo.WritesFrom 161) := by writes_own
theorem keep_32 (c : Dev nD) : StableHlo.Keeps 161 (W32 (F := Ideal) m ρ c) (W31 m ρ c) :=
  StableHlo.Keeps.after hostOps6_3_from _

/-- Every operation of the stretch writes a reference numbered 163 or higher. -/
theorem hostOps6_4_from : (hostOps6_4 : List (HloOp τ sig (Elt Ideal))).Forall (StableHlo.WritesFrom 163) := by writes_own
theorem keep_33 (c : Dev nD) : StableHlo.Keeps 163 (W33 (F := Ideal) m ρ c) (W32 m ρ c) :=
  StableHlo.Keeps.after hostOps6_4_from _

/-- Region 6 writes its output array, numbered 164, and leaves its 5 input arrays as entered. -/
theorem keep_34 (c : Dev nD) : StableHlo.Keeps 164 (W34 (F := Ideal) m ρ c) (W33 m ρ c) :=
  Pipeline.keeps_of_arrays spec6 164 (fun b hb => W34_of_ne m ρ c b hb) fun
    | 0 => fun _ => (W34_arr m ρ c 0).trans (((dat6 (V33 m ρ) c).arrAt_in 0 rfl _).trans (A_eq6 (V33 m ρ) c 0))
    | 1 => fun _ => (W34_arr m ρ c 1).trans (((dat6 (V33 m ρ) c).arrAt_in 1 rfl _).trans (A_eq6 (V33 m ρ) c 1))
    | 2 => fun _ => (W34_arr m ρ c 2).trans (((dat6 (V33 m ρ) c).arrAt_in 2 rfl _).trans (A_eq6 (V33 m ρ) c 2))
    | 3 => fun _ => (W34_arr m ρ c 3).trans (((dat6 (V33 m ρ) c).arrAt_in 3 rfl _).trans (A_eq6 (V33 m ρ) c 3))
    | 4 => fun _ => (W34_arr m ρ c 4).trans (((dat6 (V33 m ρ) c).arrAt_in 4 rfl _).trans (A_eq6 (V33 m ρ) c 4))
    | 5 => fun hw => absurd hw (by decide)
    | ⟨_ + 6, h⟩ => absurd h (Nat.not_lt.2 (Nat.le_add_left _ _))

/-- Every operation of the stretch writes a reference numbered 165 or higher. -/
theorem hostOps7_from : (hostOps7 : List (HloOp τ sig (Elt Ideal))).Forall (StableHlo.WritesFrom 165) := by writes_own
theorem keep_35 (c : Dev nD) : StableHlo.Keeps 165 (W35 (F := Ideal) m ρ c) (W34 m ρ c) :=
  StableHlo.Keeps.after hostOps7_from _

/-- Every operation of the stretch writes a reference numbered 167 or higher. -/
theorem hostOps7_1_from : (hostOps7_1 : List (HloOp τ sig (Elt Ideal))).Forall (StableHlo.WritesFrom 167) := by writes_own
theorem keep_36 (c : Dev nD) : StableHlo.Keeps 167 (W36 (F := Ideal) m ρ c) (W35 m ρ c) :=
  StableHlo.Keeps.after hostOps7_1_from _

/-- Every operation of the stretch writes a reference numbered 169 or higher. -/
theorem hostOps7_2_from : (hostOps7_2 : List (HloOp τ sig (Elt Ideal))).Forall (StableHlo.WritesFrom 169) := by writes_own
theorem keep_37 (c : Dev nD) : StableHlo.Keeps 169 (W37 (F := Ideal) m ρ c) (W36 m ρ c) :=
  StableHlo.Keeps.after hostOps7_2_from _

/-- Every operation of the stretch writes a reference numbered 170 or higher. -/
theorem hostOps7_3_from : (hostOps7_3 : List (HloOp τ sig (Elt Ideal))).Forall (StableHlo.WritesFrom 170) := by writes_own
theorem keep_38 (c : Dev nD) : StableHlo.Keeps 170 (W38 (F := Ideal) m ρ c) (W37 m ρ c) :=
  StableHlo.Keeps.after hostOps7_3_from _

/-- Every operation of the stretch writes a reference numbered 172 or higher. -/
theorem hostOps7_4_from : (hostOps7_4 : List (HloOp τ sig (Elt Ideal))).Forall (StableHlo.WritesFrom 172) := by writes_own
theorem keep_39 (c : Dev nD) : StableHlo.Keeps 172 (W39 (F := Ideal) m ρ c) (W38 m ρ c) :=
  StableHlo.Keeps.after hostOps7_4_from _

/-- Region 7 writes its output array, numbered 173, and leaves its 5 input arrays as entered. -/
theorem keep_40 (c : Dev nD) : StableHlo.Keeps 173 (W40 (F := Ideal) m ρ c) (W39 m ρ c) :=
  Pipeline.keeps_of_arrays spec7 173 (fun b hb => W40_of_ne m ρ c b hb) fun
    | 0 => fun _ => (W40_arr m ρ c 0).trans (((dat7 (V39 m ρ) c).arrAt_in 0 rfl _).trans (A_eq7 (V39 m ρ) c 0))
    | 1 => fun _ => (W40_arr m ρ c 1).trans (((dat7 (V39 m ρ) c).arrAt_in 1 rfl _).trans (A_eq7 (V39 m ρ) c 1))
    | 2 => fun _ => (W40_arr m ρ c 2).trans (((dat7 (V39 m ρ) c).arrAt_in 2 rfl _).trans (A_eq7 (V39 m ρ) c 2))
    | 3 => fun _ => (W40_arr m ρ c 3).trans (((dat7 (V39 m ρ) c).arrAt_in 3 rfl _).trans (A_eq7 (V39 m ρ) c 3))
    | 4 => fun _ => (W40_arr m ρ c 4).trans (((dat7 (V39 m ρ) c).arrAt_in 4 rfl _).trans (A_eq7 (V39 m ρ) c 4))
    | 5 => fun hw => absurd hw (by decide)
    | ⟨_ + 6, h⟩ => absurd h (Nat.not_lt.2 (Nat.le_add_left _ _))

/-- Every operation of the stretch writes a reference numbered 174 or higher. -/
theorem hostOps8_from : (hostOps8 : List (HloOp τ sig (Elt Ideal))).Forall (StableHlo.WritesFrom 174) := by writes_own
theorem keep_41 (c : Dev nD) : StableHlo.Keeps 174 (W41 (F := Ideal) m ρ c) (W40 m ρ c) :=
  StableHlo.Keeps.after hostOps8_from _

/-- Every operation of the stretch writes a reference numbered 228 or higher. -/
theorem hostOps8_1_from : (hostOps8_1 : List (HloOp τ sig (Elt Ideal))).Forall (StableHlo.WritesFrom 228) := by writes_own
theorem keep_42 (c : Dev nD) : StableHlo.Keeps 228 (W42 (F := Ideal) m ρ c) (W41 m ρ c) :=
  StableHlo.Keeps.after hostOps8_1_from _

/-- Every operation of the stretch writes a reference numbered 230 or higher. -/
theorem hostOps8_2_from : (hostOps8_2 : List (HloOp τ sig (Elt Ideal))).Forall (StableHlo.WritesFrom 230) := by writes_own
theorem keep_43 (c : Dev nD) : StableHlo.Keeps 230 (W43 (F := Ideal) m ρ c) (W42 m ρ c) :=
  StableHlo.Keeps.after hostOps8_2_from _

/-- Every operation of the stretch writes a reference numbered 231 or higher. -/
theorem hostOps8_3_from : (hostOps8_3 : List (HloOp τ sig (Elt Ideal))).Forall (StableHlo.WritesFrom 231) := by writes_own
theorem keep_44 (c : Dev nD) : StableHlo.Keeps 231 (W44 (F := Ideal) m ρ c) (W43 m ρ c) :=
  StableHlo.Keeps.after hostOps8_3_from _

/-- Every operation of the stretch writes a reference numbered 233 or higher. -/
theorem hostOps8_4_from : (hostOps8_4 : List (HloOp τ sig (Elt Ideal))).Forall (StableHlo.WritesFrom 233) := by writes_own
theorem keep_45 (c : Dev nD) : StableHlo.Keeps 233 (W45 (F := Ideal) m ρ c) (W44 m ρ c) :=
  StableHlo.Keeps.after hostOps8_4_from _

/-- Region 8 writes its output array, numbered 234, and leaves its 5 input arrays as entered. -/
theorem keep_46 (c : Dev nD) : StableHlo.Keeps 234 (W46 (F := Ideal) m ρ c) (W45 m ρ c) :=
  Pipeline.keeps_of_arrays spec8 234 (fun b hb => W46_of_ne m ρ c b hb) fun
    | 0 => fun _ => (W46_arr m ρ c 0).trans (((dat8 (V45 m ρ) c).arrAt_in 0 rfl _).trans (A_eq8 (V45 m ρ) c 0))
    | 1 => fun _ => (W46_arr m ρ c 1).trans (((dat8 (V45 m ρ) c).arrAt_in 1 rfl _).trans (A_eq8 (V45 m ρ) c 1))
    | 2 => fun _ => (W46_arr m ρ c 2).trans (((dat8 (V45 m ρ) c).arrAt_in 2 rfl _).trans (A_eq8 (V45 m ρ) c 2))
    | 3 => fun _ => (W46_arr m ρ c 3).trans (((dat8 (V45 m ρ) c).arrAt_in 3 rfl _).trans (A_eq8 (V45 m ρ) c 3))
    | 4 => fun _ => (W46_arr m ρ c 4).trans (((dat8 (V45 m ρ) c).arrAt_in 4 rfl _).trans (A_eq8 (V45 m ρ) c 4))
    | 5 => fun hw => absurd hw (by decide)
    | ⟨_ + 6, h⟩ => absurd h (Nat.not_lt.2 (Nat.le_add_left _ _))

/-- Every operation of the stretch writes a reference numbered 235 or higher. -/
theorem hostOps9_from : (hostOps9 : List (HloOp τ sig (Elt Ideal))).Forall (StableHlo.WritesFrom 235) := by writes_own
theorem keep_47 (c : Dev nD) : StableHlo.Keeps 235 (W47 (F := Ideal) m ρ c) (W46 m ρ c) :=
  StableHlo.Keeps.after hostOps9_from _

/-- Every operation of the stretch writes a reference numbered 264 or higher. -/
theorem hostOps9_1_from : (hostOps9_1 : List (HloOp τ sig (Elt Ideal))).Forall (StableHlo.WritesFrom 264) := by writes_own
theorem keep_48 (c : Dev nD) : StableHlo.Keeps 264 (W48 (F := Ideal) m ρ c) (W47 m ρ c) :=
  StableHlo.Keeps.after hostOps9_1_from _

/-- Every operation of the stretch writes a reference numbered 266 or higher. -/
theorem hostOps9_2_from : (hostOps9_2 : List (HloOp τ sig (Elt Ideal))).Forall (StableHlo.WritesFrom 266) := by writes_own
theorem keep_49 (c : Dev nD) : StableHlo.Keeps 266 (W49 (F := Ideal) m ρ c) (W48 m ρ c) :=
  StableHlo.Keeps.after hostOps9_2_from _

/-- Every operation of the stretch writes a reference numbered 267 or higher. -/
theorem hostOps9_3_from : (hostOps9_3 : List (HloOp τ sig (Elt Ideal))).Forall (StableHlo.WritesFrom 267) := by writes_own
theorem keep_50 (c : Dev nD) : StableHlo.Keeps 267 (W50 (F := Ideal) m ρ c) (W49 m ρ c) :=
  StableHlo.Keeps.after hostOps9_3_from _

/-- Every operation of the stretch writes a reference numbered 269 or higher. -/
theorem hostOps9_4_from : (hostOps9_4 : List (HloOp τ sig (Elt Ideal))).Forall (StableHlo.WritesFrom 269) := by writes_own
theorem keep_51 (c : Dev nD) : StableHlo.Keeps 269 (W51 (F := Ideal) m ρ c) (W50 m ρ c) :=
  StableHlo.Keeps.after hostOps9_4_from _

/-- Region 9 writes its output array, numbered 270, and leaves its 5 input arrays as entered. -/
theorem keep_52 (c : Dev nD) : StableHlo.Keeps 270 (W52 (F := Ideal) m ρ c) (W51 m ρ c) :=
  Pipeline.keeps_of_arrays spec9 270 (fun b hb => W52_of_ne m ρ c b hb) fun
    | 0 => fun _ => (W52_arr m ρ c 0).trans (((dat9 (V51 m ρ) c).arrAt_in 0 rfl _).trans (A_eq9 (V51 m ρ) c 0))
    | 1 => fun _ => (W52_arr m ρ c 1).trans (((dat9 (V51 m ρ) c).arrAt_in 1 rfl _).trans (A_eq9 (V51 m ρ) c 1))
    | 2 => fun _ => (W52_arr m ρ c 2).trans (((dat9 (V51 m ρ) c).arrAt_in 2 rfl _).trans (A_eq9 (V51 m ρ) c 2))
    | 3 => fun _ => (W52_arr m ρ c 3).trans (((dat9 (V51 m ρ) c).arrAt_in 3 rfl _).trans (A_eq9 (V51 m ρ) c 3))
    | 4 => fun _ => (W52_arr m ρ c 4).trans (((dat9 (V51 m ρ) c).arrAt_in 4 rfl _).trans (A_eq9 (V51 m ρ) c 4))
    | 5 => fun hw => absurd hw (by decide)
    | ⟨_ + 6, h⟩ => absurd h (Nat.not_lt.2 (Nat.le_add_left _ _))

/-- Every operation of the stretch writes a reference numbered 271 or higher. -/
theorem hostOps10_from : (hostOps10 : List (HloOp τ sig (Elt Ideal))).Forall (StableHlo.WritesFrom 271) := by writes_own
theorem keep_53 (c : Dev nD) : StableHlo.Keeps 271 (W53 (F := Ideal) m ρ c) (W52 m ρ c) :=
  StableHlo.Keeps.after hostOps10_from _

/-- Every operation of the stretch writes a reference numbered 273 or higher. -/
theorem hostOps10_1_from : (hostOps10_1 : List (HloOp τ sig (Elt Ideal))).Forall (StableHlo.WritesFrom 273) := by writes_own
theorem keep_54 (c : Dev nD) : StableHlo.Keeps 273 (W54 (F := Ideal) m ρ c) (W53 m ρ c) :=
  StableHlo.Keeps.after hostOps10_1_from _

/-- Every operation of the stretch writes a reference numbered 275 or higher. -/
theorem hostOps10_2_from : (hostOps10_2 : List (HloOp τ sig (Elt Ideal))).Forall (StableHlo.WritesFrom 275) := by writes_own
theorem keep_55 (c : Dev nD) : StableHlo.Keeps 275 (W55 (F := Ideal) m ρ c) (W54 m ρ c) :=
  StableHlo.Keeps.after hostOps10_2_from _

/-- Region 10 writes its output array, numbered 276, and leaves its 3 input arrays as entered. -/
theorem keep_56 (c : Dev nD) : StableHlo.Keeps 276 (W56 (F := Ideal) m ρ c) (W55 m ρ c) :=
  Pipeline.keeps_of_arrays spec10 276 (fun b hb => W56_of_ne m ρ c b hb) fun
    | 0 => fun _ => (W56_arr m ρ c 0).trans (((dat10 (V55 m ρ) c).arrAt_in 0 rfl _).trans (A_eq10 (V55 m ρ) c 0))
    | 1 => fun _ => (W56_arr m ρ c 1).trans (((dat10 (V55 m ρ) c).arrAt_in 1 rfl _).trans (A_eq10 (V55 m ρ) c 1))
    | 2 => fun _ => (W56_arr m ρ c 2).trans (((dat10 (V55 m ρ) c).arrAt_in 2 rfl _).trans (A_eq10 (V55 m ρ) c 2))
    | 3 => fun hw => absurd hw (by decide)
    | ⟨_ + 4, h⟩ => absurd h (Nat.not_lt.2 (Nat.le_add_left _ _))

/-- Every operation of the stretch writes a reference numbered 277 or higher. -/
theorem hostOps11_from : (hostOps11 : List (HloOp τ sig (Elt Ideal))).Forall (StableHlo.WritesFrom 277) := by writes_own
theorem keep_57 (c : Dev nD) : StableHlo.Keeps 277 (W57 (F := Ideal) m ρ c) (W56 m ρ c) :=
  StableHlo.Keeps.after hostOps11_from _

/-- Every operation of the stretch writes a reference numbered 279 or higher. -/
theorem hostOps11_1_from : (hostOps11_1 : List (HloOp τ sig (Elt Ideal))).Forall (StableHlo.WritesFrom 279) := by writes_own
theorem keep_58 (c : Dev nD) : StableHlo.Keeps 279 (W58 (F := Ideal) m ρ c) (W57 m ρ c) :=
  StableHlo.Keeps.after hostOps11_1_from _

/-- Every operation of the stretch writes a reference numbered 281 or higher. -/
theorem hostOps11_2_from : (hostOps11_2 : List (HloOp τ sig (Elt Ideal))).Forall (StableHlo.WritesFrom 281) := by writes_own
theorem keep_59 (c : Dev nD) : StableHlo.Keeps 281 (W59 (F := Ideal) m ρ c) (W58 m ρ c) :=
  StableHlo.Keeps.after hostOps11_2_from _

/-- Region 11 writes its output array, numbered 282, and leaves its 3 input arrays as entered. -/
theorem keep_60 (c : Dev nD) : StableHlo.Keeps 282 (W60 (F := Ideal) m ρ c) (W59 m ρ c) :=
  Pipeline.keeps_of_arrays spec11 282 (fun b hb => W60_of_ne m ρ c b hb) fun
    | 0 => fun _ => (W60_arr m ρ c 0).trans (((dat11 (V59 m ρ) c).arrAt_in 0 rfl _).trans (A_eq11 (V59 m ρ) c 0))
    | 1 => fun _ => (W60_arr m ρ c 1).trans (((dat11 (V59 m ρ) c).arrAt_in 1 rfl _).trans (A_eq11 (V59 m ρ) c 1))
    | 2 => fun _ => (W60_arr m ρ c 2).trans (((dat11 (V59 m ρ) c).arrAt_in 2 rfl _).trans (A_eq11 (V59 m ρ) c 2))
    | 3 => fun hw => absurd hw (by decide)
    | ⟨_ + 4, h⟩ => absurd h (Nat.not_lt.2 (Nat.le_add_left _ _))

/-- Every operation of the stretch writes a reference numbered 283 or higher. -/
theorem hostOps12_from : (hostOps12 : List (HloOp τ sig (Elt Ideal))).Forall (StableHlo.WritesFrom 283) := by writes_own
theorem keep_61 (c : Dev nD) : StableHlo.Keeps 283 (W61 (F := Ideal) m ρ c) (W60 m ρ c) :=
  StableHlo.Keeps.after hostOps12_from _

/-- Every operation of the stretch writes a reference numbered 287 or higher. -/
theorem hostOps12_1_from : (hostOps12_1 : List (HloOp τ sig (Elt Ideal))).Forall (StableHlo.WritesFrom 287) := by writes_own
theorem keep_62 (c : Dev nD) : StableHlo.Keeps 287 (W62 (F := Ideal) m ρ c) (W61 m ρ c) :=
  StableHlo.Keeps.after hostOps12_1_from _

/-- Every operation of the stretch writes a reference numbered 289 or higher. -/
theorem hostOps12_2_from : (hostOps12_2 : List (HloOp τ sig (Elt Ideal))).Forall (StableHlo.WritesFrom 289) := by writes_own
theorem keep_63 (c : Dev nD) : StableHlo.Keeps 289 (W63 (F := Ideal) m ρ c) (W62 m ρ c) :=
  StableHlo.Keeps.after hostOps12_2_from _

/-- Every operation of the stretch writes a reference numbered 290 or higher. -/
theorem hostOps12_3_from : (hostOps12_3 : List (HloOp τ sig (Elt Ideal))).Forall (StableHlo.WritesFrom 290) := by writes_own
theorem keep_64 (c : Dev nD) : StableHlo.Keeps 290 (W64 (F := Ideal) m ρ c) (W63 m ρ c) :=
  StableHlo.Keeps.after hostOps12_3_from _

/-- Every operation of the stretch writes a reference numbered 292 or higher. -/
theorem hostOps12_4_from : (hostOps12_4 : List (HloOp τ sig (Elt Ideal))).Forall (StableHlo.WritesFrom 292) := by writes_own
theorem keep_65 (c : Dev nD) : StableHlo.Keeps 292 (W65 (F := Ideal) m ρ c) (W64 m ρ c) :=
  StableHlo.Keeps.after hostOps12_4_from _

/-- Region 12 writes its output array, numbered 293, and leaves its 5 input arrays as entered. -/
theorem keep_66 (c : Dev nD) : StableHlo.Keeps 293 (W66 (F := Ideal) m ρ c) (W65 m ρ c) :=
  Pipeline.keeps_of_arrays spec12 293 (fun b hb => W66_of_ne m ρ c b hb) fun
    | 0 => fun _ => (W66_arr m ρ c 0).trans (((dat12 (V65 m ρ) c).arrAt_in 0 rfl _).trans (A_eq12 (V65 m ρ) c 0))
    | 1 => fun _ => (W66_arr m ρ c 1).trans (((dat12 (V65 m ρ) c).arrAt_in 1 rfl _).trans (A_eq12 (V65 m ρ) c 1))
    | 2 => fun _ => (W66_arr m ρ c 2).trans (((dat12 (V65 m ρ) c).arrAt_in 2 rfl _).trans (A_eq12 (V65 m ρ) c 2))
    | 3 => fun _ => (W66_arr m ρ c 3).trans (((dat12 (V65 m ρ) c).arrAt_in 3 rfl _).trans (A_eq12 (V65 m ρ) c 3))
    | 4 => fun _ => (W66_arr m ρ c 4).trans (((dat12 (V65 m ρ) c).arrAt_in 4 rfl _).trans (A_eq12 (V65 m ρ) c 4))
    | 5 => fun hw => absurd hw (by decide)
    | ⟨_ + 6, h⟩ => absurd h (Nat.not_lt.2 (Nat.le_add_left _ _))

/-- Every operation of the stretch writes a reference numbered 294 or higher. -/
theorem hostOps13_from : (hostOps13 : List (HloOp τ sig (Elt Ideal))).Forall (StableHlo.WritesFrom 294) := by writes_own
theorem keep_67 (c : Dev nD) : StableHlo.Keeps 294 (W67 (F := Ideal) m ρ c) (W66 m ρ c) :=
  StableHlo.Keeps.after hostOps13_from _

/-- Every operation of the stretch writes a reference numbered 296 or higher. -/
theorem hostOps13_1_from : (hostOps13_1 : List (HloOp τ sig (Elt Ideal))).Forall (StableHlo.WritesFrom 296) := by writes_own
theorem keep_68 (c : Dev nD) : StableHlo.Keeps 296 (W68 (F := Ideal) m ρ c) (W67 m ρ c) :=
  StableHlo.Keeps.after hostOps13_1_from _

/-- Every operation of the stretch writes a reference numbered 298 or higher. -/
theorem hostOps13_2_from : (hostOps13_2 : List (HloOp τ sig (Elt Ideal))).Forall (StableHlo.WritesFrom 298) := by writes_own
theorem keep_69 (c : Dev nD) : StableHlo.Keeps 298 (W69 (F := Ideal) m ρ c) (W68 m ρ c) :=
  StableHlo.Keeps.after hostOps13_2_from _

/-- Every operation of the stretch writes a reference numbered 299 or higher. -/
theorem hostOps13_3_from : (hostOps13_3 : List (HloOp τ sig (Elt Ideal))).Forall (StableHlo.WritesFrom 299) := by writes_own
theorem keep_70 (c : Dev nD) : StableHlo.Keeps 299 (W70 (F := Ideal) m ρ c) (W69 m ρ c) :=
  StableHlo.Keeps.after hostOps13_3_from _

/-- Every operation of the stretch writes a reference numbered 301 or higher. -/
theorem hostOps13_4_from : (hostOps13_4 : List (HloOp τ sig (Elt Ideal))).Forall (StableHlo.WritesFrom 301) := by writes_own
theorem keep_71 (c : Dev nD) : StableHlo.Keeps 301 (W71 (F := Ideal) m ρ c) (W70 m ρ c) :=
  StableHlo.Keeps.after hostOps13_4_from _

/-- Region 13 writes its output array, numbered 302, and leaves its 5 input arrays as entered. -/
theorem keep_72 (c : Dev nD) : StableHlo.Keeps 302 (W72 (F := Ideal) m ρ c) (W71 m ρ c) :=
  Pipeline.keeps_of_arrays spec13 302 (fun b hb => W72_of_ne m ρ c b hb) fun
    | 0 => fun _ => (W72_arr m ρ c 0).trans (((dat13 (V71 m ρ) c).arrAt_in 0 rfl _).trans (A_eq13 (V71 m ρ) c 0))
    | 1 => fun _ => (W72_arr m ρ c 1).trans (((dat13 (V71 m ρ) c).arrAt_in 1 rfl _).trans (A_eq13 (V71 m ρ) c 1))
    | 2 => fun _ => (W72_arr m ρ c 2).trans (((dat13 (V71 m ρ) c).arrAt_in 2 rfl _).trans (A_eq13 (V71 m ρ) c 2))
    | 3 => fun _ => (W72_arr m ρ c 3).trans (((dat13 (V71 m ρ) c).arrAt_in 3 rfl _).trans (A_eq13 (V71 m ρ) c 3))
    | 4 => fun _ => (W72_arr m ρ c 4).trans (((dat13 (V71 m ρ) c).arrAt_in 4 rfl _).trans (A_eq13 (V71 m ρ) c 4))
    | 5 => fun hw => absurd hw (by decide)
    | ⟨_ + 6, h⟩ => absurd h (Nat.not_lt.2 (Nat.le_add_left _ _))

/-- Every operation of the stretch writes a reference numbered 303 or higher. -/
theorem hostOps14_from : (hostOps14 : List (HloOp τ sig (Elt Ideal))).Forall (StableHlo.WritesFrom 303) := by writes_own
theorem keep_73 (c : Dev nD) : StableHlo.Keeps 303 (W73 (F := Ideal) m ρ c) (W72 m ρ c) :=
  StableHlo.Keeps.after hostOps14_from _

/-- Every operation of the stretch writes a reference numbered 357 or higher. -/
theorem hostOps14_1_from : (hostOps14_1 : List (HloOp τ sig (Elt Ideal))).Forall (StableHlo.WritesFrom 357) := by writes_own
theorem keep_74 (c : Dev nD) : StableHlo.Keeps 357 (W74 (F := Ideal) m ρ c) (W73 m ρ c) :=
  StableHlo.Keeps.after hostOps14_1_from _

/-- Every operation of the stretch writes a reference numbered 359 or higher. -/
theorem hostOps14_2_from : (hostOps14_2 : List (HloOp τ sig (Elt Ideal))).Forall (StableHlo.WritesFrom 359) := by writes_own
theorem keep_75 (c : Dev nD) : StableHlo.Keeps 359 (W75 (F := Ideal) m ρ c) (W74 m ρ c) :=
  StableHlo.Keeps.after hostOps14_2_from _

/-- Every operation of the stretch writes a reference numbered 360 or higher. -/
theorem hostOps14_3_from : (hostOps14_3 : List (HloOp τ sig (Elt Ideal))).Forall (StableHlo.WritesFrom 360) := by writes_own
theorem keep_76 (c : Dev nD) : StableHlo.Keeps 360 (W76 (F := Ideal) m ρ c) (W75 m ρ c) :=
  StableHlo.Keeps.after hostOps14_3_from _

/-- Every operation of the stretch writes a reference numbered 362 or higher. -/
theorem hostOps14_4_from : (hostOps14_4 : List (HloOp τ sig (Elt Ideal))).Forall (StableHlo.WritesFrom 362) := by writes_own
theorem keep_77 (c : Dev nD) : StableHlo.Keeps 362 (W77 (F := Ideal) m ρ c) (W76 m ρ c) :=
  StableHlo.Keeps.after hostOps14_4_from _

/-- Region 14 writes its output array, numbered 363, and leaves its 5 input arrays as entered. -/
theorem keep_78 (c : Dev nD) : StableHlo.Keeps 363 (W78 (F := Ideal) m ρ c) (W77 m ρ c) :=
  Pipeline.keeps_of_arrays spec14 363 (fun b hb => W78_of_ne m ρ c b hb) fun
    | 0 => fun _ => (W78_arr m ρ c 0).trans (((dat14 (V77 m ρ) c).arrAt_in 0 rfl _).trans (A_eq14 (V77 m ρ) c 0))
    | 1 => fun _ => (W78_arr m ρ c 1).trans (((dat14 (V77 m ρ) c).arrAt_in 1 rfl _).trans (A_eq14 (V77 m ρ) c 1))
    | 2 => fun _ => (W78_arr m ρ c 2).trans (((dat14 (V77 m ρ) c).arrAt_in 2 rfl _).trans (A_eq14 (V77 m ρ) c 2))
    | 3 => fun _ => (W78_arr m ρ c 3).trans (((dat14 (V77 m ρ) c).arrAt_in 3 rfl _).trans (A_eq14 (V77 m ρ) c 3))
    | 4 => fun _ => (W78_arr m ρ c 4).trans (((dat14 (V77 m ρ) c).arrAt_in 4 rfl _).trans (A_eq14 (V77 m ρ) c 4))
    | 5 => fun hw => absurd hw (by decide)
    | ⟨_ + 6, h⟩ => absurd h (Nat.not_lt.2 (Nat.le_add_left _ _))

/-- Every operation of the stretch writes a reference numbered 364 or higher. -/
theorem hostOps15_from : (hostOps15 : List (HloOp τ sig (Elt Ideal))).Forall (StableHlo.WritesFrom 364) := by writes_own
theorem keep_79 (c : Dev nD) : StableHlo.Keeps 364 (W79 (F := Ideal) m ρ c) (W78 m ρ c) :=
  StableHlo.Keeps.after hostOps15_from _

/-- Every operation of the stretch writes a reference numbered 393 or higher. -/
theorem hostOps15_1_from : (hostOps15_1 : List (HloOp τ sig (Elt Ideal))).Forall (StableHlo.WritesFrom 393) := by writes_own
theorem keep_80 (c : Dev nD) : StableHlo.Keeps 393 (W80 (F := Ideal) m ρ c) (W79 m ρ c) :=
  StableHlo.Keeps.after hostOps15_1_from _

/-- Every operation of the stretch writes a reference numbered 395 or higher. -/
theorem hostOps15_2_from : (hostOps15_2 : List (HloOp τ sig (Elt Ideal))).Forall (StableHlo.WritesFrom 395) := by writes_own
theorem keep_81 (c : Dev nD) : StableHlo.Keeps 395 (W81 (F := Ideal) m ρ c) (W80 m ρ c) :=
  StableHlo.Keeps.after hostOps15_2_from _

/-- Every operation of the stretch writes a reference numbered 396 or higher. -/
theorem hostOps15_3_from : (hostOps15_3 : List (HloOp τ sig (Elt Ideal))).Forall (StableHlo.WritesFrom 396) := by writes_own
theorem keep_82 (c : Dev nD) : StableHlo.Keeps 396 (W82 (F := Ideal) m ρ c) (W81 m ρ c) :=
  StableHlo.Keeps.after hostOps15_3_from _

/-- Every operation of the stretch writes a reference numbered 398 or higher. -/
theorem hostOps15_4_from : (hostOps15_4 : List (HloOp τ sig (Elt Ideal))).Forall (StableHlo.WritesFrom 398) := by writes_own
theorem keep_83 (c : Dev nD) : StableHlo.Keeps 398 (W83 (F := Ideal) m ρ c) (W82 m ρ c) :=
  StableHlo.Keeps.after hostOps15_4_from _

/-- Region 15 writes its output array, numbered 399, and leaves its 5 input arrays as entered. -/
theorem keep_84 (c : Dev nD) : StableHlo.Keeps 399 (W84 (F := Ideal) m ρ c) (W83 m ρ c) :=
  Pipeline.keeps_of_arrays spec15 399 (fun b hb => W84_of_ne m ρ c b hb) fun
    | 0 => fun _ => (W84_arr m ρ c 0).trans (((dat15 (V83 m ρ) c).arrAt_in 0 rfl _).trans (A_eq15 (V83 m ρ) c 0))
    | 1 => fun _ => (W84_arr m ρ c 1).trans (((dat15 (V83 m ρ) c).arrAt_in 1 rfl _).trans (A_eq15 (V83 m ρ) c 1))
    | 2 => fun _ => (W84_arr m ρ c 2).trans (((dat15 (V83 m ρ) c).arrAt_in 2 rfl _).trans (A_eq15 (V83 m ρ) c 2))
    | 3 => fun _ => (W84_arr m ρ c 3).trans (((dat15 (V83 m ρ) c).arrAt_in 3 rfl _).trans (A_eq15 (V83 m ρ) c 3))
    | 4 => fun _ => (W84_arr m ρ c 4).trans (((dat15 (V83 m ρ) c).arrAt_in 4 rfl _).trans (A_eq15 (V83 m ρ) c 4))
    | 5 => fun hw => absurd hw (by decide)
    | ⟨_ + 6, h⟩ => absurd h (Nat.not_lt.2 (Nat.le_add_left _ _))

/-- Every operation of the stretch writes a reference numbered 400 or higher. -/
theorem hostOps16_from : (hostOps16 : List (HloOp τ sig (Elt Ideal))).Forall (StableHlo.WritesFrom 400) := by writes_own
theorem keep_85 (c : Dev nD) : StableHlo.Keeps 400 (W85 (F := Ideal) m ρ c) (W84 m ρ c) :=
  StableHlo.Keeps.after hostOps16_from _

/-- Every operation of the stretch writes a reference numbered 402 or higher. -/
theorem hostOps16_1_from : (hostOps16_1 : List (HloOp τ sig (Elt Ideal))).Forall (StableHlo.WritesFrom 402) := by writes_own
theorem keep_86 (c : Dev nD) : StableHlo.Keeps 402 (W86 (F := Ideal) m ρ c) (W85 m ρ c) :=
  StableHlo.Keeps.after hostOps16_1_from _

/-- Every operation of the stretch writes a reference numbered 404 or higher. -/
theorem hostOps16_2_from : (hostOps16_2 : List (HloOp τ sig (Elt Ideal))).Forall (StableHlo.WritesFrom 404) := by writes_own
theorem keep_87 (c : Dev nD) : StableHlo.Keeps 404 (W87 (F := Ideal) m ρ c) (W86 m ρ c) :=
  StableHlo.Keeps.after hostOps16_2_from _

/-- Region 16 writes its output array, numbered 405, and leaves its 3 input arrays as entered. -/
theorem keep_88 (c : Dev nD) : StableHlo.Keeps 405 (W88 (F := Ideal) m ρ c) (W87 m ρ c) :=
  Pipeline.keeps_of_arrays spec16 405 (fun b hb => W88_of_ne m ρ c b hb) fun
    | 0 => fun _ => (W88_arr m ρ c 0).trans (((dat16 (V87 m ρ) c).arrAt_in 0 rfl _).trans (A_eq16 (V87 m ρ) c 0))
    | 1 => fun _ => (W88_arr m ρ c 1).trans (((dat16 (V87 m ρ) c).arrAt_in 1 rfl _).trans (A_eq16 (V87 m ρ) c 1))
    | 2 => fun _ => (W88_arr m ρ c 2).trans (((dat16 (V87 m ρ) c).arrAt_in 2 rfl _).trans (A_eq16 (V87 m ρ) c 2))
    | 3 => fun hw => absurd hw (by decide)
    | ⟨_ + 4, h⟩ => absurd h (Nat.not_lt.2 (Nat.le_add_left _ _))

/-- Every operation of the stretch writes a reference numbered 406 or higher. -/
theorem hostOps17_from : (hostOps17 : List (HloOp τ sig (Elt Ideal))).Forall (StableHlo.WritesFrom 406) := by writes_own
theorem keep_89 (c : Dev nD) : StableHlo.Keeps 406 (W89 (F := Ideal) m ρ c) (W88 m ρ c) :=
  StableHlo.Keeps.after hostOps17_from _

/-- Every operation of the stretch writes a reference numbered 408 or higher. -/
theorem hostOps17_1_from : (hostOps17_1 : List (HloOp τ sig (Elt Ideal))).Forall (StableHlo.WritesFrom 408) := by writes_own
theorem keep_90 (c : Dev nD) : StableHlo.Keeps 408 (W90 (F := Ideal) m ρ c) (W89 m ρ c) :=
  StableHlo.Keeps.after hostOps17_1_from _

/-- Every operation of the stretch writes a reference numbered 410 or higher. -/
theorem hostOps17_2_from : (hostOps17_2 : List (HloOp τ sig (Elt Ideal))).Forall (StableHlo.WritesFrom 410) := by writes_own
theorem keep_91 (c : Dev nD) : StableHlo.Keeps 410 (W91 (F := Ideal) m ρ c) (W90 m ρ c) :=
  StableHlo.Keeps.after hostOps17_2_from _

/-- Region 17 writes its output array, numbered 411, and leaves its 3 input arrays as entered. -/
theorem keep_92 (c : Dev nD) : StableHlo.Keeps 411 (W92 (F := Ideal) m ρ c) (W91 m ρ c) :=
  Pipeline.keeps_of_arrays spec17 411 (fun b hb => W92_of_ne m ρ c b hb) fun
    | 0 => fun _ => (W92_arr m ρ c 0).trans (((dat17 (V91 m ρ) c).arrAt_in 0 rfl _).trans (A_eq17 (V91 m ρ) c 0))
    | 1 => fun _ => (W92_arr m ρ c 1).trans (((dat17 (V91 m ρ) c).arrAt_in 1 rfl _).trans (A_eq17 (V91 m ρ) c 1))
    | 2 => fun _ => (W92_arr m ρ c 2).trans (((dat17 (V91 m ρ) c).arrAt_in 2 rfl _).trans (A_eq17 (V91 m ρ) c 2))
    | 3 => fun hw => absurd hw (by decide)
    | ⟨_ + 4, h⟩ => absurd h (Nat.not_lt.2 (Nat.le_add_left _ _))

/-- Every operation of the stretch writes a reference numbered 412 or higher. -/
theorem hostOps18_from : (hostOps18 : List (HloOp τ sig (Elt Ideal))).Forall (StableHlo.WritesFrom 412) := by writes_own
theorem keep_93 (c : Dev nD) : StableHlo.Keeps 412 (W93 (F := Ideal) m ρ c) (W92 m ρ c) :=
  StableHlo.Keeps.after hostOps18_from _

/-- Every operation of the stretch writes a reference numbered 416 or higher. -/
theorem hostOps18_1_from : (hostOps18_1 : List (HloOp τ sig (Elt Ideal))).Forall (StableHlo.WritesFrom 416) := by writes_own
theorem keep_94 (c : Dev nD) : StableHlo.Keeps 416 (W94 (F := Ideal) m ρ c) (W93 m ρ c) :=
  StableHlo.Keeps.after hostOps18_1_from _

/-- Every operation of the stretch writes a reference numbered 418 or higher. -/
theorem hostOps18_2_from : (hostOps18_2 : List (HloOp τ sig (Elt Ideal))).Forall (StableHlo.WritesFrom 418) := by writes_own
theorem keep_95 (c : Dev nD) : StableHlo.Keeps 418 (W95 (F := Ideal) m ρ c) (W94 m ρ c) :=
  StableHlo.Keeps.after hostOps18_2_from _

/-- Every operation of the stretch writes a reference numbered 419 or higher. -/
theorem hostOps18_3_from : (hostOps18_3 : List (HloOp τ sig (Elt Ideal))).Forall (StableHlo.WritesFrom 419) := by writes_own
theorem keep_96 (c : Dev nD) : StableHlo.Keeps 419 (W96 (F := Ideal) m ρ c) (W95 m ρ c) :=
  StableHlo.Keeps.after hostOps18_3_from _

/-- Every operation of the stretch writes a reference numbered 421 or higher. -/
theorem hostOps18_4_from : (hostOps18_4 : List (HloOp τ sig (Elt Ideal))).Forall (StableHlo.WritesFrom 421) := by writes_own
theorem keep_97 (c : Dev nD) : StableHlo.Keeps 421 (W97 (F := Ideal) m ρ c) (W96 m ρ c) :=
  StableHlo.Keeps.after hostOps18_4_from _

/-- Region 18 writes its output array, numbered 422, and leaves its 5 input arrays as entered. -/
theorem keep_98 (c : Dev nD) : StableHlo.Keeps 422 (W98 (F := Ideal) m ρ c) (W97 m ρ c) :=
  Pipeline.keeps_of_arrays spec18 422 (fun b hb => W98_of_ne m ρ c b hb) fun
    | 0 => fun _ => (W98_arr m ρ c 0).trans (((dat18 (V97 m ρ) c).arrAt_in 0 rfl _).trans (A_eq18 (V97 m ρ) c 0))
    | 1 => fun _ => (W98_arr m ρ c 1).trans (((dat18 (V97 m ρ) c).arrAt_in 1 rfl _).trans (A_eq18 (V97 m ρ) c 1))
    | 2 => fun _ => (W98_arr m ρ c 2).trans (((dat18 (V97 m ρ) c).arrAt_in 2 rfl _).trans (A_eq18 (V97 m ρ) c 2))
    | 3 => fun _ => (W98_arr m ρ c 3).trans (((dat18 (V97 m ρ) c).arrAt_in 3 rfl _).trans (A_eq18 (V97 m ρ) c 3))
    | 4 => fun _ => (W98_arr m ρ c 4).trans (((dat18 (V97 m ρ) c).arrAt_in 4 rfl _).trans (A_eq18 (V97 m ρ) c 4))
    | 5 => fun hw => absurd hw (by decide)
    | ⟨_ + 6, h⟩ => absurd h (Nat.not_lt.2 (Nat.le_add_left _ _))

/-- Every operation of the stretch writes a reference numbered 423 or higher. -/
theorem hostOps19_from : (hostOps19 : List (HloOp τ sig (Elt Ideal))).Forall (StableHlo.WritesFrom 423) := by writes_own
theorem keep_99 (c : Dev nD) : StableHlo.Keeps 423 (W99 (F := Ideal) m ρ c) (W98 m ρ c) :=
  StableHlo.Keeps.after hostOps19_from _

/-- Every operation of the stretch writes a reference numbered 425 or higher. -/
theorem hostOps19_1_from : (hostOps19_1 : List (HloOp τ sig (Elt Ideal))).Forall (StableHlo.WritesFrom 425) := by writes_own
theorem keep_100 (c : Dev nD) : StableHlo.Keeps 425 (W100 (F := Ideal) m ρ c) (W99 m ρ c) :=
  StableHlo.Keeps.after hostOps19_1_from _

/-- Every operation of the stretch writes a reference numbered 427 or higher. -/
theorem hostOps19_2_from : (hostOps19_2 : List (HloOp τ sig (Elt Ideal))).Forall (StableHlo.WritesFrom 427) := by writes_own
theorem keep_101 (c : Dev nD) : StableHlo.Keeps 427 (W101 (F := Ideal) m ρ c) (W100 m ρ c) :=
  StableHlo.Keeps.after hostOps19_2_from _

/-- Every operation of the stretch writes a reference numbered 428 or higher. -/
theorem hostOps19_3_from : (hostOps19_3 : List (HloOp τ sig (Elt Ideal))).Forall (StableHlo.WritesFrom 428) := by writes_own
theorem keep_102 (c : Dev nD) : StableHlo.Keeps 428 (W102 (F := Ideal) m ρ c) (W101 m ρ c) :=
  StableHlo.Keeps.after hostOps19_3_from _

/-- Every operation of the stretch writes a reference numbered 430 or higher. -/
theorem hostOps19_4_from : (hostOps19_4 : List (HloOp τ sig (Elt Ideal))).Forall (StableHlo.WritesFrom 430) := by writes_own
theorem keep_103 (c : Dev nD) : StableHlo.Keeps 430 (W103 (F := Ideal) m ρ c) (W102 m ρ c) :=
  StableHlo.Keeps.after hostOps19_4_from _

/-- Region 19 writes its output array, numbered 431, and leaves its 5 input arrays as entered. -/
theorem keep_104 (c : Dev nD) : StableHlo.Keeps 431 (W104 (F := Ideal) m ρ c) (W103 m ρ c) :=
  Pipeline.keeps_of_arrays spec19 431 (fun b hb => W104_of_ne m ρ c b hb) fun
    | 0 => fun _ => (W104_arr m ρ c 0).trans (((dat19 (V103 m ρ) c).arrAt_in 0 rfl _).trans (A_eq19 (V103 m ρ) c 0))
    | 1 => fun _ => (W104_arr m ρ c 1).trans (((dat19 (V103 m ρ) c).arrAt_in 1 rfl _).trans (A_eq19 (V103 m ρ) c 1))
    | 2 => fun _ => (W104_arr m ρ c 2).trans (((dat19 (V103 m ρ) c).arrAt_in 2 rfl _).trans (A_eq19 (V103 m ρ) c 2))
    | 3 => fun _ => (W104_arr m ρ c 3).trans (((dat19 (V103 m ρ) c).arrAt_in 3 rfl _).trans (A_eq19 (V103 m ρ) c 3))
    | 4 => fun _ => (W104_arr m ρ c 4).trans (((dat19 (V103 m ρ) c).arrAt_in 4 rfl _).trans (A_eq19 (V103 m ρ) c 4))
    | 5 => fun hw => absurd hw (by decide)
    | ⟨_ + 6, h⟩ => absurd h (Nat.not_lt.2 (Nat.le_add_left _ _))

/-- Every operation of the stretch writes a reference numbered 432 or higher. -/
theorem hostOps20_from : (hostOps20 : List (HloOp τ sig (Elt Ideal))).Forall (StableHlo.WritesFrom 432) := by writes_own
theorem keep_105 (c : Dev nD) : StableHlo.Keeps 432 (W105 (F := Ideal) m ρ c) (W104 m ρ c) :=
  StableHlo.Keeps.after hostOps20_from _

/-- Every operation of the stretch writes a reference numbered 435 or higher. -/
theorem hostOps20_1_from : (hostOps20_1 : List (HloOp τ sig (Elt Ideal))).Forall (StableHlo.WritesFrom 435) := by writes_own
theorem keep_106 (c : Dev nD) : StableHlo.Keeps 435 (W106 (F := Ideal) m ρ c) (W105 m ρ c) :=
  StableHlo.Keeps.after hostOps20_1_from _

/-- Every operation of the stretch writes a reference numbered 437 or higher. -/
theorem hostOps20_2_from : (hostOps20_2 : List (HloOp τ sig (Elt Ideal))).Forall (StableHlo.WritesFrom 437) := by writes_own
theorem keep_107 (c : Dev nD) : StableHlo.Keeps 437 (W107 (F := Ideal) m ρ c) (W106 m ρ c) :=
  StableHlo.Keeps.after hostOps20_2_from _

/-- Every operation of the stretch writes a reference numbered 438 or higher. -/
theorem hostOps20_3_from : (hostOps20_3 : List (HloOp τ sig (Elt Ideal))).Forall (StableHlo.WritesFrom 438) := by writes_own
theorem keep_108 (c : Dev nD) : StableHlo.Keeps 438 (W108 (F := Ideal) m ρ c) (W107 m ρ c) :=
  StableHlo.Keeps.after hostOps20_3_from _

/-- Every operation of the stretch writes a reference numbered 440 or higher. -/
theorem hostOps20_4_from : (hostOps20_4 : List (HloOp τ sig (Elt Ideal))).Forall (StableHlo.WritesFrom 440) := by writes_own
theorem keep_109 (c : Dev nD) : StableHlo.Keeps 440 (W109 (F := Ideal) m ρ c) (W108 m ρ c) :=
  StableHlo.Keeps.after hostOps20_4_from _

/-- Every operation of the stretch writes a reference numbered 441 or higher. -/
theorem hostOps20_5_from : (hostOps20_5 : List (HloOp τ sig (Elt Ideal))).Forall (StableHlo.WritesFrom 441) := by writes_own
theorem keep_110 (c : Dev nD) : StableHlo.Keeps 441 (W110 (F := Ideal) m ρ c) (W109 m ρ c) :=
  StableHlo.Keeps.after hostOps20_5_from _

/-- Every operation of the stretch writes a reference numbered 443 or higher. -/
theorem hostOps20_6_from : (hostOps20_6 : List (HloOp τ sig (Elt Ideal))).Forall (StableHlo.WritesFrom 443) := by writes_own
theorem keep_111 (c : Dev nD) : StableHlo.Keeps 443 (W111 (F := Ideal) m ρ c) (W110 m ρ c) :=
  StableHlo.Keeps.after hostOps20_6_from _

/-- Region 20 writes its output array, numbered 444, and leaves its 5 input arrays as entered. -/
theorem keep_112 (c : Dev nD) : StableHlo.Keeps 444 (W112 (F := Ideal) m ρ c) (W111 m ρ c) :=
  Pipeline.keeps_of_arrays spec20 444 (fun b hb => W112_of_ne m ρ c b hb) fun
    | 0 => fun _ => (W112_arr m ρ c 0).trans (((dat20 (V111 m ρ) c).arrAt_in 0 rfl _).trans (A_eq20 (V111 m ρ) c 0))
    | 1 => fun _ => (W112_arr m ρ c 1).trans (((dat20 (V111 m ρ) c).arrAt_in 1 rfl _).trans (A_eq20 (V111 m ρ) c 1))
    | 2 => fun _ => (W112_arr m ρ c 2).trans (((dat20 (V111 m ρ) c).arrAt_in 2 rfl _).trans (A_eq20 (V111 m ρ) c 2))
    | 3 => fun _ => (W112_arr m ρ c 3).trans (((dat20 (V111 m ρ) c).arrAt_in 3 rfl _).trans (A_eq20 (V111 m ρ) c 3))
    | 4 => fun _ => (W112_arr m ρ c 4).trans (((dat20 (V111 m ρ) c).arrAt_in 4 rfl _).trans (A_eq20 (V111 m ρ) c 4))
    | 5 => fun hw => absurd hw (by decide)
    | ⟨_ + 6, h⟩ => absurd h (Nat.not_lt.2 (Nat.le_add_left _ _))

/-- Every operation of the stretch writes a reference numbered 445 or higher. -/
theorem hostOps21_from : (hostOps21 : List (HloOp τ sig (Elt Ideal))).Forall (StableHlo.WritesFrom 445) := by writes_own
theorem keep_113 (c : Dev nD) : StableHlo.Keeps 445 (W113 (F := Ideal) m ρ c) (W112 m ρ c) :=
  StableHlo.Keeps.after hostOps21_from _

/-! ## The boundaries indexed

The same table with the boundary an index: `Wf m ρ ⟨j, _⟩ c` is `W j m ρ c` and `nTab ⟨i, _⟩` the first reference number
segment i + 1 writes, so that keeping across any run of segments is one statement over indices. -/

/-- The contents at boundary j. -/
def Wf : Fin 114 → Dev nD → Valuation τ sig (Elt Ideal)
  | ⟨0, _⟩ => W0 m ρ
  | ⟨1, _⟩ => W1 m ρ
  | ⟨2, _⟩ => W2 m ρ
  | ⟨3, _⟩ => W3 m ρ
  | ⟨4, _⟩ => W4 m ρ
  | ⟨5, _⟩ => W5 m ρ
  | ⟨6, _⟩ => W6 m ρ
  | ⟨7, _⟩ => W7 m ρ
  | ⟨8, _⟩ => W8 m ρ
  | ⟨9, _⟩ => W9 m ρ
  | ⟨10, _⟩ => W10 m ρ
  | ⟨11, _⟩ => W11 m ρ
  | ⟨12, _⟩ => W12 m ρ
  | ⟨13, _⟩ => W13 m ρ
  | ⟨14, _⟩ => W14 m ρ
  | ⟨15, _⟩ => W15 m ρ
  | ⟨16, _⟩ => W16 m ρ
  | ⟨17, _⟩ => W17 m ρ
  | ⟨18, _⟩ => W18 m ρ
  | ⟨19, _⟩ => W19 m ρ
  | ⟨20, _⟩ => W20 m ρ
  | ⟨21, _⟩ => W21 m ρ
  | ⟨22, _⟩ => W22 m ρ
  | ⟨23, _⟩ => W23 m ρ
  | ⟨24, _⟩ => W24 m ρ
  | ⟨25, _⟩ => W25 m ρ
  | ⟨26, _⟩ => W26 m ρ
  | ⟨27, _⟩ => W27 m ρ
  | ⟨28, _⟩ => W28 m ρ
  | ⟨29, _⟩ => W29 m ρ
  | ⟨30, _⟩ => W30 m ρ
  | ⟨31, _⟩ => W31 m ρ
  | ⟨32, _⟩ => W32 m ρ
  | ⟨33, _⟩ => W33 m ρ
  | ⟨34, _⟩ => W34 m ρ
  | ⟨35, _⟩ => W35 m ρ
  | ⟨36, _⟩ => W36 m ρ
  | ⟨37, _⟩ => W37 m ρ
  | ⟨38, _⟩ => W38 m ρ
  | ⟨39, _⟩ => W39 m ρ
  | ⟨40, _⟩ => W40 m ρ
  | ⟨41, _⟩ => W41 m ρ
  | ⟨42, _⟩ => W42 m ρ
  | ⟨43, _⟩ => W43 m ρ
  | ⟨44, _⟩ => W44 m ρ
  | ⟨45, _⟩ => W45 m ρ
  | ⟨46, _⟩ => W46 m ρ
  | ⟨47, _⟩ => W47 m ρ
  | ⟨48, _⟩ => W48 m ρ
  | ⟨49, _⟩ => W49 m ρ
  | ⟨50, _⟩ => W50 m ρ
  | ⟨51, _⟩ => W51 m ρ
  | ⟨52, _⟩ => W52 m ρ
  | ⟨53, _⟩ => W53 m ρ
  | ⟨54, _⟩ => W54 m ρ
  | ⟨55, _⟩ => W55 m ρ
  | ⟨56, _⟩ => W56 m ρ
  | ⟨57, _⟩ => W57 m ρ
  | ⟨58, _⟩ => W58 m ρ
  | ⟨59, _⟩ => W59 m ρ
  | ⟨60, _⟩ => W60 m ρ
  | ⟨61, _⟩ => W61 m ρ
  | ⟨62, _⟩ => W62 m ρ
  | ⟨63, _⟩ => W63 m ρ
  | ⟨64, _⟩ => W64 m ρ
  | ⟨65, _⟩ => W65 m ρ
  | ⟨66, _⟩ => W66 m ρ
  | ⟨67, _⟩ => W67 m ρ
  | ⟨68, _⟩ => W68 m ρ
  | ⟨69, _⟩ => W69 m ρ
  | ⟨70, _⟩ => W70 m ρ
  | ⟨71, _⟩ => W71 m ρ
  | ⟨72, _⟩ => W72 m ρ
  | ⟨73, _⟩ => W73 m ρ
  | ⟨74, _⟩ => W74 m ρ
  | ⟨75, _⟩ => W75 m ρ
  | ⟨76, _⟩ => W76 m ρ
  | ⟨77, _⟩ => W77 m ρ
  | ⟨78, _⟩ => W78 m ρ
  | ⟨79, _⟩ => W79 m ρ
  | ⟨80, _⟩ => W80 m ρ
  | ⟨81, _⟩ => W81 m ρ
  | ⟨82, _⟩ => W82 m ρ
  | ⟨83, _⟩ => W83 m ρ
  | ⟨84, _⟩ => W84 m ρ
  | ⟨85, _⟩ => W85 m ρ
  | ⟨86, _⟩ => W86 m ρ
  | ⟨87, _⟩ => W87 m ρ
  | ⟨88, _⟩ => W88 m ρ
  | ⟨89, _⟩ => W89 m ρ
  | ⟨90, _⟩ => W90 m ρ
  | ⟨91, _⟩ => W91 m ρ
  | ⟨92, _⟩ => W92 m ρ
  | ⟨93, _⟩ => W93 m ρ
  | ⟨94, _⟩ => W94 m ρ
  | ⟨95, _⟩ => W95 m ρ
  | ⟨96, _⟩ => W96 m ρ
  | ⟨97, _⟩ => W97 m ρ
  | ⟨98, _⟩ => W98 m ρ
  | ⟨99, _⟩ => W99 m ρ
  | ⟨100, _⟩ => W100 m ρ
  | ⟨101, _⟩ => W101 m ρ
  | ⟨102, _⟩ => W102 m ρ
  | ⟨103, _⟩ => W103 m ρ
  | ⟨104, _⟩ => W104 m ρ
  | ⟨105, _⟩ => W105 m ρ
  | ⟨106, _⟩ => W106 m ρ
  | ⟨107, _⟩ => W107 m ρ
  | ⟨108, _⟩ => W108 m ρ
  | ⟨109, _⟩ => W109 m ρ
  | ⟨110, _⟩ => W110 m ρ
  | ⟨111, _⟩ => W111 m ρ
  | ⟨112, _⟩ => W112 m ρ
  | ⟨113, _⟩ => W113 m ρ
  | ⟨_ + 114, h⟩ => absurd h (Nat.not_lt.2 (Nat.le_add_left _ _))

/-- The first reference number the segment after boundary i writes (at the last boundary: one past the last reference). -/
def nTab : Fin 114 → ℕ
  | ⟨0, _⟩ => 35
  | ⟨1, _⟩ => 36
  | ⟨2, _⟩ => 38
  | ⟨3, _⟩ => 39
  | ⟨4, _⟩ => 40
  | ⟨5, _⟩ => 42
  | ⟨6, _⟩ => 44
  | ⟨7, _⟩ => 45
  | ⟨8, _⟩ => 46
  | ⟨9, _⟩ => 99
  | ⟨10, _⟩ => 101
  | ⟨11, _⟩ => 102
  | ⟨12, _⟩ => 104
  | ⟨13, _⟩ => 105
  | ⟨14, _⟩ => 106
  | ⟨15, _⟩ => 135
  | ⟨16, _⟩ => 137
  | ⟨17, _⟩ => 138
  | ⟨18, _⟩ => 140
  | ⟨19, _⟩ => 141
  | ⟨20, _⟩ => 142
  | ⟨21, _⟩ => 144
  | ⟨22, _⟩ => 146
  | ⟨23, _⟩ => 147
  | ⟨24, _⟩ => 148
  | ⟨25, _⟩ => 150
  | ⟨26, _⟩ => 152
  | ⟨27, _⟩ => 153
  | ⟨28, _⟩ => 154
  | ⟨29, _⟩ => 158
  | ⟨30, _⟩ => 160
  | ⟨31, _⟩ => 161
  | ⟨32, _⟩ => 163
  | ⟨33, _⟩ => 164
  | ⟨34, _⟩ => 165
  | ⟨35, _⟩ => 167
  | ⟨36, _⟩ => 169
  | ⟨37, _⟩ => 170
  | ⟨38, _⟩ => 172
  | ⟨39, _⟩ => 173
  | ⟨40, _⟩ => 174
  | ⟨41, _⟩ => 228
  | ⟨42, _⟩ => 230
  | ⟨43, _⟩ => 231
  | ⟨44, _⟩ => 233
  | ⟨45, _⟩ => 234
  | ⟨46, _⟩ => 235
  | ⟨47, _⟩ => 264
  | ⟨48, _⟩ => 266
  | ⟨49, _⟩ => 267
  | ⟨50, _⟩ => 269
  | ⟨51, _⟩ => 270
  | ⟨52, _⟩ => 271
  | ⟨53, _⟩ => 273
  | ⟨54, _⟩ => 275
  | ⟨55, _⟩ => 276
  | ⟨56, _⟩ => 277
  | ⟨57, _⟩ => 279
  | ⟨58, _⟩ => 281
  | ⟨59, _⟩ => 282
  | ⟨60, _⟩ => 283
  | ⟨61, _⟩ => 287
  | ⟨62, _⟩ => 289
  | ⟨63, _⟩ => 290
  | ⟨64, _⟩ => 292
  | ⟨65, _⟩ => 293
  | ⟨66, _⟩ => 294
  | ⟨67, _⟩ => 296
  | ⟨68, _⟩ => 298
  | ⟨69, _⟩ => 299
  | ⟨70, _⟩ => 301
  | ⟨71, _⟩ => 302
  | ⟨72, _⟩ => 303
  | ⟨73, _⟩ => 357
  | ⟨74, _⟩ => 359
  | ⟨75, _⟩ => 360
  | ⟨76, _⟩ => 362
  | ⟨77, _⟩ => 363
  | ⟨78, _⟩ => 364
  | ⟨79, _⟩ => 393
  | ⟨80, _⟩ => 395
  | ⟨81, _⟩ => 396
  | ⟨82, _⟩ => 398
  | ⟨83, _⟩ => 399
  | ⟨84, _⟩ => 400
  | ⟨85, _⟩ => 402
  | ⟨86, _⟩ => 404
  | ⟨87, _⟩ => 405
  | ⟨88, _⟩ => 406
  | ⟨89, _⟩ => 408
  | ⟨90, _⟩ => 410
  | ⟨91, _⟩ => 411
  | ⟨92, _⟩ => 412
  | ⟨93, _⟩ => 416
  | ⟨94, _⟩ => 418
  | ⟨95, _⟩ => 419
  | ⟨96, _⟩ => 421
  | ⟨97, _⟩ => 422
  | ⟨98, _⟩ => 423
  | ⟨99, _⟩ => 425
  | ⟨100, _⟩ => 427
  | ⟨101, _⟩ => 428
  | ⟨102, _⟩ => 430
  | ⟨103, _⟩ => 431
  | ⟨104, _⟩ => 432
  | ⟨105, _⟩ => 435
  | ⟨106, _⟩ => 437
  | ⟨107, _⟩ => 438
  | ⟨108, _⟩ => 440
  | ⟨109, _⟩ => 441
  | ⟨110, _⟩ => 443
  | ⟨111, _⟩ => 444
  | ⟨112, _⟩ => 445
  | ⟨113, _⟩ => 446
  | ⟨_ + 114, h⟩ => absurd h (Nat.not_lt.2 (Nat.le_add_left _ _))

/-- Segment i + 1 keeps everything numbered below its first write. -/
theorem keepF (c : Dev nD) : ∀ i : Fin 113, StableHlo.Keeps (nTab i.castSucc) (Wf m ρ i.succ c) (Wf m ρ i.castSucc c)
  | ⟨0, _⟩ => keep_1 m ρ c
  | ⟨1, _⟩ => keep_2 m ρ c
  | ⟨2, _⟩ => keep_3 m ρ c
  | ⟨3, _⟩ => keep_4 m ρ c
  | ⟨4, _⟩ => keep_5 m ρ c
  | ⟨5, _⟩ => keep_6 m ρ c
  | ⟨6, _⟩ => keep_7 m ρ c
  | ⟨7, _⟩ => keep_8 m ρ c
  | ⟨8, _⟩ => keep_9 m ρ c
  | ⟨9, _⟩ => keep_10 m ρ c
  | ⟨10, _⟩ => keep_11 m ρ c
  | ⟨11, _⟩ => keep_12 m ρ c
  | ⟨12, _⟩ => keep_13 m ρ c
  | ⟨13, _⟩ => keep_14 m ρ c
  | ⟨14, _⟩ => keep_15 m ρ c
  | ⟨15, _⟩ => keep_16 m ρ c
  | ⟨16, _⟩ => keep_17 m ρ c
  | ⟨17, _⟩ => keep_18 m ρ c
  | ⟨18, _⟩ => keep_19 m ρ c
  | ⟨19, _⟩ => keep_20 m ρ c
  | ⟨20, _⟩ => keep_21 m ρ c
  | ⟨21, _⟩ => keep_22 m ρ c
  | ⟨22, _⟩ => keep_23 m ρ c
  | ⟨23, _⟩ => keep_24 m ρ c
  | ⟨24, _⟩ => keep_25 m ρ c
  | ⟨25, _⟩ => keep_26 m ρ c
  | ⟨26, _⟩ => keep_27 m ρ c
  | ⟨27, _⟩ => keep_28 m ρ c
  | ⟨28, _⟩ => keep_29 m ρ c
  | ⟨29, _⟩ => keep_30 m ρ c
  | ⟨30, _⟩ => keep_31 m ρ c
  | ⟨31, _⟩ => keep_32 m ρ c
  | ⟨32, _⟩ => keep_33 m ρ c
  | ⟨33, _⟩ => keep_34 m ρ c
  | ⟨34, _⟩ => keep_35 m ρ c
  | ⟨35, _⟩ => keep_36 m ρ c
  | ⟨36, _⟩ => keep_37 m ρ c
  | ⟨37, _⟩ => keep_38 m ρ c
  | ⟨38, _⟩ => keep_39 m ρ c
  | ⟨39, _⟩ => keep_40 m ρ c
  | ⟨40, _⟩ => keep_41 m ρ c
  | ⟨41, _⟩ => keep_42 m ρ c
  | ⟨42, _⟩ => keep_43 m ρ c
  | ⟨43, _⟩ => keep_44 m ρ c
  | ⟨44, _⟩ => keep_45 m ρ c
  | ⟨45, _⟩ => keep_46 m ρ c
  | ⟨46, _⟩ => keep_47 m ρ c
  | ⟨47, _⟩ => keep_48 m ρ c
  | ⟨48, _⟩ => keep_49 m ρ c
  | ⟨49, _⟩ => keep_50 m ρ c
  | ⟨50, _⟩ => keep_51 m ρ c
  | ⟨51, _⟩ => keep_52 m ρ c
  | ⟨52, _⟩ => keep_53 m ρ c
  | ⟨53, _⟩ => keep_54 m ρ c
  | ⟨54, _⟩ => keep_55 m ρ c
  | ⟨55, _⟩ => keep_56 m ρ c
  | ⟨56, _⟩ => keep_57 m ρ c
  | ⟨57, _⟩ => keep_58 m ρ c
  | ⟨58, _⟩ => keep_59 m ρ c
  | ⟨59, _⟩ => keep_60 m ρ c
  | ⟨60, _⟩ => keep_61 m ρ c
  | ⟨61, _⟩ => keep_62 m ρ c
  | ⟨62, _⟩ => keep_63 m ρ c
  | ⟨63, _⟩ => keep_64 m ρ c
  | ⟨64, _⟩ => keep_65 m ρ c
  | ⟨65, _⟩ => keep_66 m ρ c
  | ⟨66, _⟩ => keep_67 m ρ c
  | ⟨67, _⟩ => keep_68 m ρ c
  | ⟨68, _⟩ => keep_69 m ρ c
  | ⟨69, _⟩ => keep_70 m ρ c
  | ⟨70, _⟩ => keep_71 m ρ c
  | ⟨71, _⟩ => keep_72 m ρ c
  | ⟨72, _⟩ => keep_73 m ρ c
  | ⟨73, _⟩ => keep_74 m ρ c
  | ⟨74, _⟩ => keep_75 m ρ c
  | ⟨75, _⟩ => keep_76 m ρ c
  | ⟨76, _⟩ => keep_77 m ρ c
  | ⟨77, _⟩ => keep_78 m ρ c
  | ⟨78, _⟩ => keep_79 m ρ c
  | ⟨79, _⟩ => keep_80 m ρ c
  | ⟨80, _⟩ => keep_81 m ρ c
  | ⟨81, _⟩ => keep_82 m ρ c
  | ⟨82, _⟩ => keep_83 m ρ c
  | ⟨83, _⟩ => keep_84 m ρ c
  | ⟨84, _⟩ => keep_85 m ρ c
  | ⟨85, _⟩ => keep_86 m ρ c
  | ⟨86, _⟩ => keep_87 m ρ c
  | ⟨87, _⟩ => keep_88 m ρ c
  | ⟨88, _⟩ => keep_89 m ρ c
  | ⟨89, _⟩ => keep_90 m ρ c
  | ⟨90, _⟩ => keep_91 m ρ c
  | ⟨91, _⟩ => keep_92 m ρ c
  | ⟨92, _⟩ => keep_93 m ρ c
  | ⟨93, _⟩ => keep_94 m ρ c
  | ⟨94, _⟩ => keep_95 m ρ c
  | ⟨95, _⟩ => keep_96 m ρ c
  | ⟨96, _⟩ => keep_97 m ρ c
  | ⟨97, _⟩ => keep_98 m ρ c
  | ⟨98, _⟩ => keep_99 m ρ c
  | ⟨99, _⟩ => keep_100 m ρ c
  | ⟨100, _⟩ => keep_101 m ρ c
  | ⟨101, _⟩ => keep_102 m ρ c
  | ⟨102, _⟩ => keep_103 m ρ c
  | ⟨103, _⟩ => keep_104 m ρ c
  | ⟨104, _⟩ => keep_105 m ρ c
  | ⟨105, _⟩ => keep_106 m ρ c
  | ⟨106, _⟩ => keep_107 m ρ c
  | ⟨107, _⟩ => keep_108 m ρ c
  | ⟨108, _⟩ => keep_109 m ρ c
  | ⟨109, _⟩ => keep_110 m ρ c
  | ⟨110, _⟩ => keep_111 m ρ c
  | ⟨111, _⟩ => keep_112 m ρ c
  | ⟨112, _⟩ => keep_113 m ρ c
  | ⟨_ + 113, h⟩ => absurd h (Nat.not_lt.2 (Nat.le_add_left _ _))

/-- The segments write ever higher reference numbers. -/
theorem nTab_step : ∀ i : Fin 113, nTab i.castSucc ≤ nTab i.succ := by decide

end Cert.KernelIdeal.KerKeeps

end
-- ==== Proof.KerRange.lean ====
/-
  Keeping across any run of segments of the kernel's run.

  Segment i + 1 leaves every reference numbered below `nTab i` as it was, and `nTab` does not decrease along the run
  (the references are numbered in program order). So from boundary i to any later boundary j every reference numbered
  below `nTab i` is kept: by induction on j − i, each further segment's own threshold being at least `nTab i`. Read at one
  buffer this is `carry`: a buffer numbered below the first write after boundary i holds at boundary j what it held at
  boundary i.
-/
import proofs.«116214_j36043365548318_1_alg».proof.Proof.KerKeeps

noncomputable section

namespace Cert.KernelIdeal.KerKeeps

open Idealize.ShloMosaic Idealize.ShloMosaic.TcCoe
open Cert.KernelIdeal.Gen

variable (m : (ℓ : Loc nD τ sig) → Buf (Elt Ideal) ℓ) (ρ : Dev nD → PrngReg)

/-- The thresholds do not decrease from boundary i to boundary i + d. -/
theorem nTab_mono : ∀ (d i : ℕ) (h : i + d < 114), nTab ⟨i, by omega⟩ ≤ nTab ⟨i + d, h⟩
  | 0, _, _ => Nat.le_refl _
  | d + 1, i, h => Nat.le_trans (nTab_mono d i (by omega)) (nTab_step ⟨i + d, by omega⟩)

/-- From boundary i to boundary i + d everything numbered below the first write after boundary i is kept. -/
theorem keepRange (c : Dev nD) : ∀ (d i : ℕ) (h : i + d < 114),
    StableHlo.Keeps (nTab ⟨i, by omega⟩) (Wf m ρ ⟨i + d, h⟩ c) (Wf m ρ ⟨i, by omega⟩ c)
  | 0, _, _ => StableHlo.Keeps.refl _ _
  | d + 1, i, h =>
    ((keepF m ρ c ⟨i + d, by omega⟩).mono (nTab_mono d i (by omega))).trans (keepRange c d i (by omega))

/-- A buffer numbered below the first write after boundary i holds at any later boundary j what it held at boundary i. -/
theorem carry (c : Dev nD) (i j : ℕ) (hij : i ≤ j) (hj : j < 114) (b : Ref sig .tc)
    (hb : b.idx.val < nTab ⟨i, by omega⟩) :
    Wf m ρ ⟨j, hj⟩ c (Proc.devRef .tc b) = Wf m ρ ⟨i, by omega⟩ c (Proc.devRef .tc b) := by
  obtain ⟨d, rfl⟩ := Nat.exists_eq_add_of_le hij
  exact (keepRange m ρ c d i hj).at b hb

end Cert.KernelIdeal.KerKeeps

end
-- ==== Proof.LibAscending.lean ====
/-
  Host operations that write consecutively numbered buffers.

  When the operations of a line write, in order, the references numbered n, n + 1, n + 2, …, everything from the
  k-th operation on writes references numbered n + k or higher. So a reference numbered below n + k has, after the
  whole line, the contents it had after the first k operations; and a reference written by one of the len operations
  that follow the first k has, after the whole line, the contents those len operations leave from there.
-/
import proofs.«116214_j36043365548318_1_alg».proof.Proof.LibWrites

noncomputable section

namespace Idealize.ShloMosaic.StableHlo

open Idealize.ShloMosaic.TcCoe

variable {τ : Topo} {sig : RefSig} {Val : EltTy → Type}

/-- The operations write, in order, exactly the references numbered n, n + 1, …. -/
def Ascending : ℕ → List (HloOp τ sig Val) → Prop
  | _, [] => True
  | n, op :: l => (∀ b ∈ op.writes, ∃ y : Ref sig .tc, b = Proc.devRef .tc y ∧ y.idx.val = n) ∧ Ascending (n + 1) l

theorem Ascending.writesFrom : ∀ (l : List (HloOp τ sig Val)) (n : ℕ), Ascending n l → ∀ op ∈ l, WritesFrom n op
  | [], _, _, _, h => nomatch h
  | o :: l, n, ⟨h1, h2⟩, op, hop => by
    rcases List.mem_cons.mp hop with rfl | hm
    · intro b hb
      obtain ⟨y, e, hy⟩ := h1 b hb
      exact ⟨y, e, by omega⟩
    · intro b hb
      obtain ⟨y, e, hy⟩ := Ascending.writesFrom l (n + 1) h2 op hm b hb
      exact ⟨y, e, by omega⟩

theorem Ascending.drop : ∀ (k : ℕ) (l : List (HloOp τ sig Val)) (n : ℕ), Ascending n l → Ascending (n + k) (l.drop k)
  | 0, _, _, h => h
  | _ + 1, [], _, _ => trivial
  | k + 1, _ :: l, n, ⟨_, h2⟩ => by
    have h := Ascending.drop k l (n + 1) h2
    rwa [show n + 1 + k = n + (k + 1) by omega] at h

/-- From the k-th operation on, every operation writes a reference numbered n + k or higher. -/
theorem Ascending.drop_writes (k : ℕ) (l : List (HloOp τ sig Val)) (n : ℕ) (h : Ascending n l) :
    (l.drop k).Forall (WritesFrom (n + k)) :=
  List.forall_iff_forall_mem.mpr (Ascending.writesFrom _ _ (h.drop k))

/-- A reference numbered below the k-th operation's has, after the whole line, the contents it had after the first k. -/
theorem after_cut (l : List (HloOp τ sig Val)) (n k : ℕ) (h : Ascending n l) (V : Valuation τ sig Val)
    (r : Ref sig .tc) (hr : r.idx.val < n + k) :
    after l V (Proc.devRef .tc r) = after (l.take k) V (Proc.devRef .tc r) := by
  rw [after_take_drop k l V]
  exact after_below (n + k) _ _ (h.drop_writes k) r hr

/-- A reference numbered below the (k + len)-th operation's has, after the whole line, the contents that the len
    operations after the first k leave from the contents after the first k. -/
theorem stage_read (l : List (HloOp τ sig Val)) (n k len : ℕ) (h : Ascending n l) (V : Valuation τ sig Val)
    (r : Ref sig .tc) (hr : r.idx.val < n + (k + len)) :
    after l V (Proc.devRef .tc r) = after ((l.drop k).take len) (after (l.take k) V) (Proc.devRef .tc r) := by
  rw [after_take_drop k l V, after_take_drop len (l.drop k) (after (l.take k) V), List.drop_drop]
  exact after_below (n + (k + len)) _ _ (h.drop_writes (k + len)) r hr

end Idealize.ShloMosaic.StableHlo

end
-- ==== Proof.KerStretch0.lean ====
/-
  The kernel's host stretches of the stem and of relation 0, read as the network's stages.

  Each stretch of host operations between two kernel regions is run from an ARBITRARY entry contents `V`. One lemma
  per buffer that is read later says what the stretch leaves in it, as a function of `V` at the buffers the stretch
  reads: a padding of rows (filled with the constant the previous stretch left), a bias as a one-row array, the rows
  of a padded layer result with the padding cut off, the first or last 256 rows of a [512, 256] weight, and, in the two
  long stretches, the kept and the isolated nodes' rows of the features and the second Chebyshev term — each the
  network's stage of that name, on the nose: the stretch applies the same host operations in the same order.
-/
import proofs.«116214_j36043365548318_1_alg».proof.Proof.Gen.KernelIdeal.Launch
import proofs.«116214_j36043365548318_1_alg».proof.Proof.Gen.ReferenceIdeal
import proofs.«116214_j36043365548318_1_alg».proof.Proof.Stages
import proofs.«116214_j36043365548318_1_alg».proof.Proof.LibAscending

set_option maxRecDepth 16384

noncomputable section

namespace Cert.KernelIdeal.KerStretch

open Idealize.ShloMosaic Idealize.ShloMosaic.TcCoe
open Cert.KernelIdeal.Gen
open Cert.ReferenceIdeal.Stages (wrap re row top bot kept0 isol0 cheb0 chebR0)

variable (V : Valuation τ sig (Elt Ideal))

/-! ## The stem: the stretches around regions 0 and 1 -/

/-- The integer zero the next padding is filled from. -/
theorem hostOps0_c :
    StableHlo.after (hostOps0 (F := Ideal)) V (Proc.devRef .tc main_c)
      = constantI S_ 32 0#32 := by
  simp only [hostOps0]
  after_results_simp <;> rfl

/-- The padding value as a float. -/
theorem hostOps0_1_call0_v0 :
    StableHlo.after (hostOps0_1 (F := Ideal)) V (Proc.devRef .tc main_call0_v0)
      = sitofp (F := Ideal) .f32 (V (Proc.devRef .tc main_c) : IVec S_ 32) := by
  simp only [hostOps0_1]
  after_results_simp <;> rfl

/-- The rows padded below to a whole number of blocks. -/
theorem hostOps0_1_v0 :
    StableHlo.after (hostOps0_1 (F := Ideal)) V (Proc.devRef .tc main_v0)
      = pad S102400x256 ![0, 0] ![2400, 0] ![0, 0] (V (Proc.devRef .tc main_arg0) : FVec Ideal S100000x256 .f32) (sitofp (F := Ideal) .f32 (V (Proc.devRef .tc main_c) : IVec S_ 32)) pads_S100000x256_S102400x256_024000_000 h_S_ := by
  simp only [hostOps0_1]
  after_results_simp <;> rfl

/-- A bias vector as a one-row array. -/
theorem hostOps0_2_v1 :
    StableHlo.after (hostOps0_2 (F := Ideal)) V (Proc.devRef .tc main_v1)
      = row (V (Proc.devRef .tc main_arg20)) := by
  simp only [hostOps0_2]
  after_results_simp <;> rfl

/-- The first stem layer's rows, the padding cut off. -/
theorem hostOps1_v3 :
    StableHlo.after (hostOps1 (F := Ideal)) V (Proc.devRef .tc main_v3)
      = extractStridedSlice S100000x256 ![0, 0] (V (Proc.devRef .tc main_v2)) slices_S102400x256_S100000x256_0_0 := by
  simp only [hostOps1]
  after_results_simp <;> rfl

/-- The integer zero the next padding is filled from. -/
theorem hostOps1_c_0 :
    StableHlo.after (hostOps1 (F := Ideal)) V (Proc.devRef .tc main_c_0)
      = constantI S_ 32 0#32 := by
  simp only [hostOps1]
  after_results_simp <;> rfl

/-- The padding value as a float. -/
theorem hostOps1_1_call1_v0 :
    StableHlo.after (hostOps1_1 (F := Ideal)) V (Proc.devRef .tc main_call1_v0)
      = sitofp (F := Ideal) .f32 (V (Proc.devRef .tc main_c_0) : IVec S_ 32) := by
  simp only [hostOps1_1]
  after_results_simp <;> rfl

/-- The rows padded below to a whole number of blocks. -/
theorem hostOps1_1_v4 :
    StableHlo.after (hostOps1_1 (F := Ideal)) V (Proc.devRef .tc main_v4)
      = pad S102400x256 ![0, 0] ![2400, 0] ![0, 0] (V (Proc.devRef .tc main_v3) : FVec Ideal S100000x256 .f32) (sitofp (F := Ideal) .f32 (V (Proc.devRef .tc main_c_0) : IVec S_ 32)) pads_S100000x256_S102400x256_024000_000 h_S_ := by
  simp only [hostOps1_1]
  after_results_simp <;> rfl

/-- A bias vector as a one-row array. -/
theorem hostOps1_2_v5 :
    StableHlo.after (hostOps1_2 (F := Ideal)) V (Proc.devRef .tc main_v5)
      = row (V (Proc.devRef .tc main_arg22)) := by
  simp only [hostOps1_2]
  after_results_simp <;> rfl

/-! ## Relation 0 -/

/-- The 53 operations of the stretch write, in order, the references numbered 46, 47, …. -/
theorem hostOps2_asc : StableHlo.Ascending 46 (hostOps2 : List (HloOp τ sig (Elt Ideal))) := by
  simp only [hostOps2, StableHlo.Ascending]
  repeat' constructor
  all_goals exact fun b hb => ⟨_, Finset.mem_singleton.mp hb, rfl⟩

/-- The node features: the second stem layer's rows, the padding cut off. -/
theorem hostOps2_v7 :
    StableHlo.after (hostOps2 (F := Ideal)) V (Proc.devRef .tc main_v7)
      = extractStridedSlice S100000x256 ![0, 0] (V (Proc.devRef .tc main_v6)) slices_S102400x256_S100000x256_0_0 := by
  rw [StableHlo.stage_read hostOps2 46 0 1 hostOps2_asc V main_v7 (by decide)]
  simp only [hostOps2, List.drop_succ_cons, List.drop_zero, List.take_succ_cons, List.take_zero, StableHlo.after_nil]
  after_results_simp <;> rfl

/-- The kept nodes' rows of the features. -/
theorem hostOps2_v14 :
    StableHlo.after (hostOps2 (F := Ideal)) V (Proc.devRef .tc main_v14)
      = kept0 (extractStridedSlice S100000x256 ![0, 0] (V (Proc.devRef .tc main_v6)) slices_S102400x256_S100000x256_0_0) (V (Proc.devRef .tc main_arg1)) := by
  rw [StableHlo.stage_read hostOps2 46 0 10 hostOps2_asc V main_v14 (by decide)]
  simp only [hostOps2, List.drop_succ_cons, List.drop_zero, List.take_succ_cons, List.take_zero, StableHlo.after_nil]
  after_results_simp <;> rfl

/-- The isolated nodes' rows of the features. -/
theorem hostOps2_v21 :
    StableHlo.after (hostOps2 (F := Ideal)) V (Proc.devRef .tc main_v21)
      = isol0 (extractStridedSlice S100000x256 ![0, 0] (V (Proc.devRef .tc main_v6)) slices_S102400x256_S100000x256_0_0) (V (Proc.devRef .tc main_arg2)) := by
  rw [StableHlo.stage_read hostOps2 46 0 19 hostOps2_asc V main_v21 (by decide)]
  simp only [hostOps2, List.drop_succ_cons, List.drop_zero, List.take_succ_cons, List.take_zero, StableHlo.after_nil]
  after_results_simp <;> rfl

/-- 2 / λ. -/
theorem hostOps2_v22 :
    StableHlo.after (hostOps2 (F := Ideal)) V (Proc.devRef .tc main_v22)
      = re (V (Proc.devRef .tc main_arg6)) := by
  rw [StableHlo.stage_read hostOps2 46 0 21 hostOps2_asc V main_v22 (by decide)]
  simp only [hostOps2, List.drop_succ_cons, List.drop_zero, List.take_succ_cons, List.take_zero, StableHlo.after_nil]
  after_results_simp <;> rfl

/-- The first 256 rows of the first convolution weight. -/
theorem hostOps2_v23 :
    StableHlo.after (hostOps2 (F := Ideal)) V (Proc.devRef .tc main_v23)
      = top (V (Proc.devRef .tc main_arg27)) := by
  rw [StableHlo.stage_read hostOps2 46 0 22 hostOps2_asc V main_v23 (by decide)]
  simp only [hostOps2, List.drop_succ_cons, List.drop_zero, List.take_succ_cons, List.take_zero, StableHlo.after_nil]
  after_results_simp <;> exact Cert.Rows.slice_rows 0 _ _ _

/-- The last 256 rows of the first convolution weight. -/
theorem hostOps2_v24 :
    StableHlo.after (hostOps2 (F := Ideal)) V (Proc.devRef .tc main_v24)
      = bot (V (Proc.devRef .tc main_arg27)) := by
  rw [StableHlo.stage_read hostOps2 46 0 23 hostOps2_asc V main_v24 (by decide)]
  simp only [hostOps2, List.drop_succ_cons, List.drop_zero, List.take_succ_cons, List.take_zero, StableHlo.after_nil]
  after_results_simp <;> exact Cert.Rows.slice_rows 256 _ _ _

/-- The first 256 rows of the second convolution weight. -/
theorem hostOps2_v25 :
    StableHlo.after (hostOps2 (F := Ideal)) V (Proc.devRef .tc main_v25)
      = top (V (Proc.devRef .tc main_arg29)) := by
  rw [StableHlo.stage_read hostOps2 46 0 24 hostOps2_asc V main_v25 (by decide)]
  simp only [hostOps2, List.drop_succ_cons, List.drop_zero, List.take_succ_cons, List.take_zero, StableHlo.after_nil]
  after_results_simp <;> exact Cert.Rows.slice_rows 0 _ _ _

/-- The last 256 rows of the second convolution weight. -/
theorem hostOps2_v26 :
    StableHlo.after (hostOps2 (F := Ideal)) V (Proc.devRef .tc main_v26)
      = bot (V (Proc.devRef .tc main_arg29)) := by
  rw [StableHlo.stage_read hostOps2 46 0 25 hostOps2_asc V main_v26 (by decide)]
  simp only [hostOps2, List.drop_succ_cons, List.drop_zero, List.take_succ_cons, List.take_zero, StableHlo.after_nil]
  after_results_simp <;> exact Cert.Rows.slice_rows 256 _ _ _

set_option maxHeartbeats 1000000 in
/-- The second Chebyshev term of the kept nodes' rows. -/
theorem hostOps2_v49 :
    StableHlo.after (hostOps2 (F := Ideal)) V (Proc.devRef .tc main_v49)
      = cheb0 (kept0 (extractStridedSlice S100000x256 ![0, 0] (V (Proc.devRef .tc main_v6)) slices_S102400x256_S100000x256_0_0) (V (Proc.devRef .tc main_arg1)))
          (V (Proc.devRef .tc main_arg3)) (V (Proc.devRef .tc main_arg4)) (V (Proc.devRef .tc main_arg5)) (V (Proc.devRef .tc main_arg6)) := by
  rw [StableHlo.stage_read hostOps2 46 0 52 hostOps2_asc V main_v49 (by decide)]
  simp only [hostOps2, List.drop_succ_cons, List.drop_zero, List.take_succ_cons, List.take_zero, StableHlo.after_nil]
  after_results_simp <;> rfl

/-- The integer zero the next padding is filled from. -/
theorem hostOps2_c_9 :
    StableHlo.after (hostOps2 (F := Ideal)) V (Proc.devRef .tc main_c_9)
      = constantI S_ 32 0#32 := by
  rw [StableHlo.stage_read hostOps2 46 0 53 hostOps2_asc V main_c_9 (by decide)]
  simp only [hostOps2, List.drop_succ_cons, List.drop_zero, List.take_succ_cons, List.take_zero, StableHlo.after_nil]
  after_results_simp <;> rfl

/-- The padding value as a float. -/
theorem hostOps2_1_call2_v0 :
    StableHlo.after (hostOps2_1 (F := Ideal)) V (Proc.devRef .tc main_call2_v0)
      = sitofp (F := Ideal) .f32 (V (Proc.devRef .tc main_c_9) : IVec S_ 32) := by
  simp only [hostOps2_1]
  after_results_simp <;> rfl

/-- The rows padded below to a whole number of blocks. -/
theorem hostOps2_1_v50 :
    StableHlo.after (hostOps2_1 (F := Ideal)) V (Proc.devRef .tc main_v50)
      = pad S73728x256 ![0, 0] ![3943, 0] ![0, 0] (V (Proc.devRef .tc main_v14) : FVec Ideal S69785x256 .f32) (sitofp (F := Ideal) .f32 (V (Proc.devRef .tc main_c_9) : IVec S_ 32)) pads_S69785x256_S73728x256_039430_000 h_S_ := by
  simp only [hostOps2_1]
  after_results_simp <;> rfl

/-- The integer zero the next padding is filled from. -/
theorem hostOps2_2_c_10 :
    StableHlo.after (hostOps2_2 (F := Ideal)) V (Proc.devRef .tc main_c_10)
      = constantI S_ 32 0#32 := by
  simp only [hostOps2_2]
  after_results_simp <;> rfl

/-- The padding value as a float. -/
theorem hostOps2_3_call3_v0 :
    StableHlo.after (hostOps2_3 (F := Ideal)) V (Proc.devRef .tc main_call3_v0)
      = sitofp (F := Ideal) .f32 (V (Proc.devRef .tc main_c_10) : IVec S_ 32) := by
  simp only [hostOps2_3]
  after_results_simp <;> rfl

/-- The rows padded below to a whole number of blocks. -/
theorem hostOps2_3_v51 :
    StableHlo.after (hostOps2_3 (F := Ideal)) V (Proc.devRef .tc main_v51)
      = pad S73728x256 ![0, 0] ![3943, 0] ![0, 0] (V (Proc.devRef .tc main_v49) : FVec Ideal S69785x256 .f32) (sitofp (F := Ideal) .f32 (V (Proc.devRef .tc main_c_10) : IVec S_ 32)) pads_S69785x256_S73728x256_039430_000 h_S_ := by
  simp only [hostOps2_3]
  after_results_simp <;> rfl

/-- A bias vector as a one-row array. -/
theorem hostOps2_4_v52 :
    StableHlo.after (hostOps2_4 (F := Ideal)) V (Proc.devRef .tc main_v52)
      = row (V (Proc.devRef .tc main_arg28)) := by
  simp only [hostOps2_4]
  after_results_simp <;> rfl

/-- The 29 operations of the stretch write, in order, the references numbered 106, 107, …. -/
theorem hostOps3_asc : StableHlo.Ascending 106 (hostOps3 : List (HloOp τ sig (Elt Ideal))) := by
  simp only [hostOps3, StableHlo.Ascending]
  repeat' constructor
  all_goals exact fun b hb => ⟨_, Finset.mem_singleton.mp hb, rfl⟩

/-- The first convolution layer's rows, the padding cut off. -/
theorem hostOps3_v54 :
    StableHlo.after (hostOps3 (F := Ideal)) V (Proc.devRef .tc main_v54)
      = extractStridedSlice S69785x256 ![0, 0] (V (Proc.devRef .tc main_v53)) slices_S73728x256_S69785x256_0_0 := by
  rw [StableHlo.stage_read hostOps3 106 0 1 hostOps3_asc V main_v54 (by decide)]
  simp only [hostOps3, List.drop_succ_cons, List.drop_zero, List.take_succ_cons, List.take_zero, StableHlo.after_nil]
  after_results_simp <;> rfl

set_option maxHeartbeats 1000000 in
/-- The second Chebyshev term of the first convolution layer's rows, the factor 2 / λ read from its buffer. -/
theorem hostOps3_v77 :
    StableHlo.after (hostOps3 (F := Ideal)) V (Proc.devRef .tc main_v77)
      = chebR0 (extractStridedSlice S69785x256 ![0, 0] (V (Proc.devRef .tc main_v53)) slices_S73728x256_S69785x256_0_0)
          (V (Proc.devRef .tc main_arg3)) (V (Proc.devRef .tc main_arg4)) (V (Proc.devRef .tc main_arg5)) (V (Proc.devRef .tc main_v22)) := by
  rw [StableHlo.stage_read hostOps3 106 0 28 hostOps3_asc V main_v77 (by decide)]
  simp only [hostOps3, List.drop_succ_cons, List.drop_zero, List.take_succ_cons, List.take_zero, StableHlo.after_nil]
  after_results_simp <;> rfl

/-- The integer zero the next padding is filled from. -/
theorem hostOps3_c_15 :
    StableHlo.after (hostOps3 (F := Ideal)) V (Proc.devRef .tc main_c_15)
      = constantI S_ 32 0#32 := by
  rw [StableHlo.stage_read hostOps3 106 0 29 hostOps3_asc V main_c_15 (by decide)]
  simp only [hostOps3, List.drop_succ_cons, List.drop_zero, List.take_succ_cons, List.take_zero, StableHlo.after_nil]
  after_results_simp <;> rfl

/-- The padding value as a float. -/
theorem hostOps3_1_call4_v0 :
    StableHlo.after (hostOps3_1 (F := Ideal)) V (Proc.devRef .tc main_call4_v0)
      = sitofp (F := Ideal) .f32 (V (Proc.devRef .tc main_c_15) : IVec S_ 32) := by
  simp only [hostOps3_1]
  after_results_simp <;> rfl

/-- The rows padded below to a whole number of blocks. -/
theorem hostOps3_1_v78 :
    StableHlo.after (hostOps3_1 (F := Ideal)) V (Proc.devRef .tc main_v78)
      = pad S73728x256 ![0, 0] ![3943, 0] ![0, 0] (V (Proc.devRef .tc main_v54) : FVec Ideal S69785x256 .f32) (sitofp (F := Ideal) .f32 (V (Proc.devRef .tc main_c_15) : IVec S_ 32)) pads_S69785x256_S73728x256_039430_000 h_S_ := by
  simp only [hostOps3_1]
  after_results_simp <;> rfl

/-- The integer zero the next padding is filled from. -/
theorem hostOps3_2_c_16 :
    StableHlo.after (hostOps3_2 (F := Ideal)) V (Proc.devRef .tc main_c_16)
      = constantI S_ 32 0#32 := by
  simp only [hostOps3_2]
  after_results_simp <;> rfl

/-- The padding value as a float. -/
theorem hostOps3_3_call5_v0 :
    StableHlo.after (hostOps3_3 (F := Ideal)) V (Proc.devRef .tc main_call5_v0)
      = sitofp (F := Ideal) .f32 (V (Proc.devRef .tc main_c_16) : IVec S_ 32) := by
  simp only [hostOps3_3]
  after_results_simp <;> rfl

/-- The rows padded below to a whole number of blocks. -/
theorem hostOps3_3_v79 :
    StableHlo.after (hostOps3_3 (F := Ideal)) V (Proc.devRef .tc main_v79)
      = pad S73728x256 ![0, 0] ![3943, 0] ![0, 0] (V (Proc.devRef .tc main_v77) : FVec Ideal S69785x256 .f32) (sitofp (F := Ideal) .f32 (V (Proc.devRef .tc main_c_16) : IVec S_ 32)) pads_S69785x256_S73728x256_039430_000 h_S_ := by
  simp only [hostOps3_3]
  after_results_simp <;> rfl

/-- A bias vector as a one-row array. -/
theorem hostOps3_4_v80 :
    StableHlo.after (hostOps3_4 (F := Ideal)) V (Proc.devRef .tc main_v80)
      = row (V (Proc.devRef .tc main_arg30)) := by
  simp only [hostOps3_4]
  after_results_simp <;> rfl

/-- The second convolution layer's rows, the padding cut off. -/
theorem hostOps4_v82 :
    StableHlo.after (hostOps4 (F := Ideal)) V (Proc.devRef .tc main_v82)
      = extractStridedSlice S69785x256 ![0, 0] (V (Proc.devRef .tc main_v81)) slices_S73728x256_S69785x256_0_0 := by
  simp only [hostOps4]
  after_results_simp <;> rfl

/-- The integer zero the next padding is filled from. -/
theorem hostOps4_c_17 :
    StableHlo.after (hostOps4 (F := Ideal)) V (Proc.devRef .tc main_c_17)
      = constantI S_ 32 0#32 := by
  simp only [hostOps4]
  after_results_simp <;> rfl

/-- The padding value as a float. -/
theorem hostOps4_1_call6_v0 :
    StableHlo.after (hostOps4_1 (F := Ideal)) V (Proc.devRef .tc main_call6_v0)
      = sitofp (F := Ideal) .f32 (V (Proc.devRef .tc main_c_17) : IVec S_ 32) := by
  simp only [hostOps4_1]
  after_results_simp <;> rfl

/-- The rows padded below to a whole number of blocks. -/
theorem hostOps4_1_v83 :
    StableHlo.after (hostOps4_1 (F := Ideal)) V (Proc.devRef .tc main_v83)
      = pad S32768x256 ![0, 0] ![2553, 0] ![0, 0] (V (Proc.devRef .tc main_v21) : FVec Ideal S30215x256 .f32) (sitofp (F := Ideal) .f32 (V (Proc.devRef .tc main_c_17) : IVec S_ 32)) pads_S30215x256_S32768x256_025530_000 h_S_ := by
  simp only [hostOps4_1]
  after_results_simp <;> rfl

/-- A bias vector as a one-row array. -/
theorem hostOps4_2_v84 :
    StableHlo.after (hostOps4_2 (F := Ideal)) V (Proc.devRef .tc main_v84)
      = row (V (Proc.devRef .tc main_arg24)) := by
  simp only [hostOps4_2]
  after_results_simp <;> rfl

/-- The first plain layer's rows, the padding cut off. -/
theorem hostOps5_v86 :
    StableHlo.after (hostOps5 (F := Ideal)) V (Proc.devRef .tc main_v86)
      = extractStridedSlice S30215x256 ![0, 0] (V (Proc.devRef .tc main_v85)) slices_S32768x256_S30215x256_0_0 := by
  simp only [hostOps5]
  after_results_simp <;> rfl

/-- The integer zero the next padding is filled from. -/
theorem hostOps5_c_18 :
    StableHlo.after (hostOps5 (F := Ideal)) V (Proc.devRef .tc main_c_18)
      = constantI S_ 32 0#32 := by
  simp only [hostOps5]
  after_results_simp <;> rfl

/-- The padding value as a float. -/
theorem hostOps5_1_call7_v0 :
    StableHlo.after (hostOps5_1 (F := Ideal)) V (Proc.devRef .tc main_call7_v0)
      = sitofp (F := Ideal) .f32 (V (Proc.devRef .tc main_c_18) : IVec S_ 32) := by
  simp only [hostOps5_1]
  after_results_simp <;> rfl

/-- The rows padded below to a whole number of blocks. -/
theorem hostOps5_1_v87 :
    StableHlo.after (hostOps5_1 (F := Ideal)) V (Proc.devRef .tc main_v87)
      = pad S32768x256 ![0, 0] ![2553, 0] ![0, 0] (V (Proc.devRef .tc main_v86) : FVec Ideal S30215x256 .f32) (sitofp (F := Ideal) .f32 (V (Proc.devRef .tc main_c_18) : IVec S_ 32)) pads_S30215x256_S32768x256_025530_000 h_S_ := by
  simp only [hostOps5_1]
  after_results_simp <;> rfl

/-- A bias vector as a one-row array. -/
theorem hostOps5_2_v88 :
    StableHlo.after (hostOps5_2 (F := Ideal)) V (Proc.devRef .tc main_v88)
      = row (V (Proc.devRef .tc main_arg26)) := by
  simp only [hostOps5_2]
  after_results_simp <;> rfl

/-- The second plain layer's rows, the padding cut off. -/
theorem hostOps6_v90 :
    StableHlo.after (hostOps6 (F := Ideal)) V (Proc.devRef .tc main_v90)
      = extractStridedSlice S30215x256 ![0, 0] (V (Proc.devRef .tc main_v89)) slices_S32768x256_S30215x256_0_0 := by
  simp only [hostOps6]
  after_results_simp <;> rfl

/-- The first 256 rows of the combining weight. -/
theorem hostOps6_v91 :
    StableHlo.after (hostOps6 (F := Ideal)) V (Proc.devRef .tc main_v91)
      = top (V (Proc.devRef .tc main_arg31)) := by
  simp only [hostOps6]
  after_results_simp <;> exact Cert.Rows.slice_rows 0 _ _ _

/-- The last 256 rows of the combining weight. -/
theorem hostOps6_v92 :
    StableHlo.after (hostOps6 (F := Ideal)) V (Proc.devRef .tc main_v92)
      = bot (V (Proc.devRef .tc main_arg31)) := by
  simp only [hostOps6]
  after_results_simp <;> exact Cert.Rows.slice_rows 256 _ _ _

/-- The integer zero the next padding is filled from. -/
theorem hostOps6_c_19 :
    StableHlo.after (hostOps6 (F := Ideal)) V (Proc.devRef .tc main_c_19)
      = constantI S_ 32 0#32 := by
  simp only [hostOps6]
  after_results_simp <;> rfl

/-- The padding value as a float. -/
theorem hostOps6_1_call8_v0 :
    StableHlo.after (hostOps6_1 (F := Ideal)) V (Proc.devRef .tc main_call8_v0)
      = sitofp (F := Ideal) .f32 (V (Proc.devRef .tc main_c_19) : IVec S_ 32) := by
  simp only [hostOps6_1]
  after_results_simp <;> rfl

/-- The rows padded below to a whole number of blocks. -/
theorem hostOps6_1_v93 :
    StableHlo.after (hostOps6_1 (F := Ideal)) V (Proc.devRef .tc main_v93)
      = pad S73728x256 ![0, 0] ![3943, 0] ![0, 0] (V (Proc.devRef .tc main_v54) : FVec Ideal S69785x256 .f32) (sitofp (F := Ideal) .f32 (V (Proc.devRef .tc main_c_19) : IVec S_ 32)) pads_S69785x256_S73728x256_039430_000 h_S_ := by
  simp only [hostOps6_1]
  after_results_simp <;> rfl

/-- The integer zero the next padding is filled from. -/
theorem hostOps6_2_c_20 :
    StableHlo.after (hostOps6_2 (F := Ideal)) V (Proc.devRef .tc main_c_20)
      = constantI S_ 32 0#32 := by
  simp only [hostOps6_2]
  after_results_simp <;> rfl

/-- The padding value as a float. -/
theorem hostOps6_3_call9_v0 :
    StableHlo.after (hostOps6_3 (F := Ideal)) V (Proc.devRef .tc main_call9_v0)
      = sitofp (F := Ideal) .f32 (V (Proc.devRef .tc main_c_20) : IVec S_ 32) := by
  simp only [hostOps6_3]
  after_results_simp <;> rfl

/-- The rows padded below to a whole number of blocks. -/
theorem hostOps6_3_v94 :
    StableHlo.after (hostOps6_3 (F := Ideal)) V (Proc.devRef .tc main_v94)
      = pad S73728x256 ![0, 0] ![3943, 0] ![0, 0] (V (Proc.devRef .tc main_v82) : FVec Ideal S69785x256 .f32) (sitofp (F := Ideal) .f32 (V (Proc.devRef .tc main_c_20) : IVec S_ 32)) pads_S69785x256_S73728x256_039430_000 h_S_ := by
  simp only [hostOps6_3]
  after_results_simp <;> rfl

/-- A bias vector as a one-row array. -/
theorem hostOps6_4_v95 :
    StableHlo.after (hostOps6_4 (F := Ideal)) V (Proc.devRef .tc main_v95)
      = row (V (Proc.devRef .tc main_arg32)) := by
  simp only [hostOps6_4]
  after_results_simp <;> rfl

/-- The combining layer's rows on the kept nodes, the padding cut off. -/
theorem hostOps7_v97 :
    StableHlo.after (hostOps7 (F := Ideal)) V (Proc.devRef .tc main_v97)
      = extractStridedSlice S69785x256 ![0, 0] (V (Proc.devRef .tc main_v96)) slices_S73728x256_S69785x256_0_0 := by
  simp only [hostOps7]
  after_results_simp <;> rfl

/-- The integer zero the next padding is filled from. -/
theorem hostOps7_c_21 :
    StableHlo.after (hostOps7 (F := Ideal)) V (Proc.devRef .tc main_c_21)
      = constantI S_ 32 0#32 := by
  simp only [hostOps7]
  after_results_simp <;> rfl

/-- The padding value as a float. -/
theorem hostOps7_1_call10_v0 :
    StableHlo.after (hostOps7_1 (F := Ideal)) V (Proc.devRef .tc main_call10_v0)
      = sitofp (F := Ideal) .f32 (V (Proc.devRef .tc main_c_21) : IVec S_ 32) := by
  simp only [hostOps7_1]
  after_results_simp <;> rfl

/-- The rows padded below to a whole number of blocks. -/
theorem hostOps7_1_v98 :
    StableHlo.after (hostOps7_1 (F := Ideal)) V (Proc.devRef .tc main_v98)
      = pad S32768x256 ![0, 0] ![2553, 0] ![0, 0] (V (Proc.devRef .tc main_v86) : FVec Ideal S30215x256 .f32) (sitofp (F := Ideal) .f32 (V (Proc.devRef .tc main_c_21) : IVec S_ 32)) pads_S30215x256_S32768x256_025530_000 h_S_ := by
  simp only [hostOps7_1]
  after_results_simp <;> rfl

/-- The integer zero the next padding is filled from. -/
theorem hostOps7_2_c_22 :
    StableHlo.after (hostOps7_2 (F := Ideal)) V (Proc.devRef .tc main_c_22)
      = constantI S_ 32 0#32 := by
  simp only [hostOps7_2]
  after_results_simp <;> rfl

/-- The padding value as a float. -/
theorem hostOps7_3_call11_v0 :
    StableHlo.after (hostOps7_3 (F := Ideal)) V (Proc.devRef .tc main_call11_v0)
      = sitofp (F := Ideal) .f32 (V (Proc.devRef .tc main_c_22) : IVec S_ 32) := by
  simp only [hostOps7_3]
  after_results_simp <;> rfl

/-- The rows padded below to a whole number of blocks. -/
theorem hostOps7_3_v99 :
    StableHlo.after (hostOps7_3 (F := Ideal)) V (Proc.devRef .tc main_v99)
      = pad S32768x256 ![0, 0] ![2553, 0] ![0, 0] (V (Proc.devRef .tc main_v90) : FVec Ideal S30215x256 .f32) (sitofp (F := Ideal) .f32 (V (Proc.devRef .tc main_c_22) : IVec S_ 32)) pads_S30215x256_S32768x256_025530_000 h_S_ := by
  simp only [hostOps7_3]
  after_results_simp <;> rfl

/-- A bias vector as a one-row array. -/
theorem hostOps7_4_v100 :
    StableHlo.after (hostOps7_4 (F := Ideal)) V (Proc.devRef .tc main_v100)
      = row (V (Proc.devRef .tc main_arg32)) := by
  simp only [hostOps7_4]
  after_results_simp <;> rfl

/-! ## The head of the next stretch: relation 0's block -/

/-- The 54 operations of the stretch write, in order, the references numbered 174, 175, …. -/
theorem hostOps8_head_asc : StableHlo.Ascending 174 (hostOps8 : List (HloOp τ sig (Elt Ideal))) := by
  simp only [hostOps8, StableHlo.Ascending]
  repeat' constructor
  all_goals exact fun b hb => ⟨_, Finset.mem_singleton.mp hb, rfl⟩

/-- The combining layer's rows on the isolated nodes, the padding cut off. -/
theorem hostOps8_head_v102 :
    StableHlo.after (hostOps8 (F := Ideal)) V (Proc.devRef .tc main_v102)
      = extractStridedSlice S30215x256 ![0, 0] (V (Proc.devRef .tc main_v101)) slices_S32768x256_S30215x256_0_0 := by
  rw [StableHlo.stage_read hostOps8 174 0 1 hostOps8_head_asc V main_v102 (by decide)]
  simp only [hostOps8, List.drop_succ_cons, List.drop_zero, List.take_succ_cons, List.take_zero, StableHlo.after_nil]
  after_results_simp <;> rfl

/-- The relation's block: the kept nodes' rows above the isolated nodes' rows. -/
theorem hostOps8_head_v103 :
    StableHlo.after (hostOps8 (F := Ideal)) V (Proc.devRef .tc main_v103)
      = concatenate S100000x256 0 [⟨S69785x256, (V (Proc.devRef .tc main_v97))⟩, ⟨S30215x256, extractStridedSlice S30215x256 ![0, 0] (V (Proc.devRef .tc main_v101)) slices_S32768x256_S30215x256_0_0⟩] concatenates_S69785x256_S30215x256_S100000x256_d0 := by
  rw [StableHlo.stage_read hostOps8 174 0 2 hostOps8_head_asc V main_v103 (by decide)]
  simp only [hostOps8, List.drop_succ_cons, List.drop_zero, List.take_succ_cons, List.take_zero, StableHlo.after_nil]
  after_results_simp <;> rfl

end Cert.KernelIdeal.KerStretch

end
-- ==== Proof.Payloads.lean ====
/-
  The kernel bodies' stored values as the network's layers.

  Every kernel body of the program loads its blocks whole, computes one value and stores it whole. Read at the exact
  instance — a change of float format is the identity, the matrix unit's product into a zero accumulator is the
  textbook product, a [1, N] row broadcast over the rows is the addition of that row — each stored value is one of
  the five layers, applied to the loaded blocks.
-/
import proofs.«116214_j36043365548318_1_alg».proof.Proof.Gen.KernelIdeal.Skeleton
import proofs.«116214_j36043365548318_1_alg».proof.Proof.Layers

noncomputable section

namespace Cert.KernelIdeal.Payloads

open Idealize.ShloMosaic Idealize.ShloMosaic.ValueIdx Idealize.ShloMosaic.Pipeline Cert.Rows Cert.Gcn Cert.Layers Cert.KernelIdeal Cert.KernelIdeal.Gen

/-- The zero offsets of a whole-block access. -/
theorem hz2 : (![0, 0] : Fin 2 → Nat) = fun _ => 0 := funext fun a => by fin_cases a <;> rfl

/-- The matrix unit's product of two bf16-cast blocks into a zero accumulator is the product of the blocks. -/
theorem mmU (x0 : Vec Ideal S4096x256 .f32) (x1 : Vec Ideal S256x256 .f32) :
    matmul (F := Ideal) dot_S4096x256_S256x256_S4096x256_1_0_0_1_n_n none (truncf .bf16 x0 bitsLt_bf16_f32) (truncf .bf16 x1 bitsLt_bf16_f32)
      (constant S4096x256 .f32 0#32) = mm x0 x1 := matmul_eq_mm x0 x1 _ _

theorem mmU2 (x0 : Vec Ideal S4096x256 .f32) (x1 : Vec Ideal S256x2 .f32) :
    matmul (F := Ideal) dot_S4096x256_S256x2_S4096x2_1_0_0_1_n_n none (truncf .bf16 x0 bitsLt_bf16_f32) (truncf .bf16 x1 bitsLt_bf16_f32)
      (constant S4096x2 .f32 0#32) = mm x0 x1 := matmul_eq_mm x0 x1 _ _

/-- Adding a [1, N] row broadcast over the rows is adding the row to every row. -/
theorem rowU (a : Vec Ideal S4096x256 .f32) (x2 : Vec Ideal S1x256 .f32) :
    addf (F := Ideal) (φ := .f32) a (broadcastTo S4096x256 x2 broadcasts_S1x256_S4096x256) = addRow a x2 := broadcastTo_row x2 _ a

theorem rowU2 (a : Vec Ideal S4096x2 .f32) (x2 : Vec Ideal S1x2 .f32) :
    addf (F := Ideal) (φ := .f32) a (broadcastTo S4096x2 x2 broadcasts_S1x2_S4096x2) = addRow a x2 := broadcastTo_row x2 _ a

/-- The body's select of an entry above zero against the scaled entry is the leaky rectifier, entry by entry. -/
theorem leakyU (s : Vec Ideal S4096x256 .f32) :
    select (cmpf (F := Ideal) .ogt s (broadcast S4096x256 (FloatOps.ofBits (F := Ideal) .f32 0#32))) s (mulf (F := Ideal) (broadcast S4096x256 (FloatOps.ofBits (F := Ideal) .f32 1008981770#32)) s)
      = mapE leaky s := by
  funext j
  exact leaky_gt _

theorem pay0 (x0 : Vec Ideal S4096x256 .f32) (x1 : Vec Ideal S256x256 .f32) (x2 : Vec Ideal S1x256 .f32) :
    k0_pay1 (F := Ideal) x0 x1 x2 = linLeaky x0 x1 x2 := by
  unfold k0_pay1
  simp only [shapeCast_self]
  rw [mmU, rowU]
  funext j
  exact leaky_gt _

theorem pay1 (x0 : Vec Ideal S4096x256 .f32) (x1 : Vec Ideal S256x256 .f32) (x2 : Vec Ideal S1x256 .f32) :
    k1_pay1 (F := Ideal) x0 x1 x2 = linLeaky x0 x1 x2 := by
  unfold k1_pay1
  simp only [shapeCast_self]
  rw [mmU, rowU]
  funext j
  exact leaky_gt _

theorem pay2 (x0 x1 : Vec Ideal S4096x256 .f32) (x2 x3 : Vec Ideal S256x256 .f32) (x4 : Vec Ideal S1x256 .f32) :
    k2_pay1 (F := Ideal) x0 x1 x2 x3 x4 = dualRelu x0 x1 x2 x3 x4 := by
  unfold k2_pay1
  simp only [shapeCast_self]
  rw [mmU, mmU, rowU]
  rfl

theorem pay3 (x0 x1 : Vec Ideal S4096x256 .f32) (x2 x3 : Vec Ideal S256x256 .f32) (x4 : Vec Ideal S1x256 .f32) :
    k3_pay1 (F := Ideal) x0 x1 x2 x3 x4 = dualRelu x0 x1 x2 x3 x4 := by
  unfold k3_pay1
  simp only [shapeCast_self]
  rw [mmU, mmU, rowU]
  rfl

theorem pay4 (x0 : Vec Ideal S4096x256 .f32) (x1 : Vec Ideal S256x256 .f32) (x2 : Vec Ideal S1x256 .f32) :
    k4_pay1 (F := Ideal) x0 x1 x2 = linPlain x0 x1 x2 := by
  unfold k4_pay1
  simp only [shapeCast_self]
  rw [mmU, rowU]
  rfl

theorem pay5 (x0 : Vec Ideal S4096x256 .f32) (x1 : Vec Ideal S256x256 .f32) (x2 : Vec Ideal S1x256 .f32) :
    k5_pay1 (F := Ideal) x0 x1 x2 = linPlain x0 x1 x2 := by
  unfold k5_pay1
  simp only [shapeCast_self]
  rw [mmU, rowU]
  rfl

theorem pay6 (x0 x1 : Vec Ideal S4096x256 .f32) (x2 x3 : Vec Ideal S256x256 .f32) (x4 : Vec Ideal S1x256 .f32) :
    k6_pay1 (F := Ideal) x0 x1 x2 x3 x4 = dualPlain x0 x1 x2 x3 x4 := by
  unfold k6_pay1
  simp only [shapeCast_self]
  rw [mmU, mmU, rowU]
  rfl

theorem pay7 (x0 x1 : Vec Ideal S4096x256 .f32) (x2 x3 : Vec Ideal S256x256 .f32) (x4 : Vec Ideal S1x256 .f32) :
    k7_pay1 (F := Ideal) x0 x1 x2 x3 x4 = dualPlain x0 x1 x2 x3 x4 := by
  unfold k7_pay1
  simp only [shapeCast_self]
  rw [mmU, mmU, rowU]
  rfl

theorem pay8 (x0 x1 : Vec Ideal S4096x256 .f32) (x2 x3 : Vec Ideal S256x256 .f32) (x4 : Vec Ideal S1x256 .f32) :
    k8_pay1 (F := Ideal) x0 x1 x2 x3 x4 = dualRelu x0 x1 x2 x3 x4 := by
  unfold k8_pay1
  simp only [shapeCast_self]
  rw [mmU, mmU, rowU]
  rfl

theorem pay9 (x0 x1 : Vec Ideal S4096x256 .f32) (x2 x3 : Vec Ideal S256x256 .f32) (x4 : Vec Ideal S1x256 .f32) :
    k9_pay1 (F := Ideal) x0 x1 x2 x3 x4 = dualRelu x0 x1 x2 x3 x4 := by
  unfold k9_pay1
  simp only [shapeCast_self]
  rw [mmU, mmU, rowU]
  rfl

theorem pay10 (x0 : Vec Ideal S4096x256 .f32) (x1 : Vec Ideal S256x256 .f32) (x2 : Vec Ideal S1x256 .f32) :
    k10_pay1 (F := Ideal) x0 x1 x2 = linPlain x0 x1 x2 := by
  unfold k10_pay1
  simp only [shapeCast_self]
  rw [mmU, rowU]
  rfl

theorem pay11 (x0 : Vec Ideal S4096x256 .f32) (x1 : Vec Ideal S256x256 .f32) (x2 : Vec Ideal S1x256 .f32) :
    k11_pay1 (F := Ideal) x0 x1 x2 = linPlain x0 x1 x2 := by
  unfold k11_pay1
  simp only [shapeCast_self]
  rw [mmU, rowU]
  rfl

theorem pay12 (x0 x1 : Vec Ideal S4096x256 .f32) (x2 x3 : Vec Ideal S256x256 .f32) (x4 : Vec Ideal S1x256 .f32) :
    k12_pay1 (F := Ideal) x0 x1 x2 x3 x4 = dualPlain x0 x1 x2 x3 x4 := by
  unfold k12_pay1
  simp only [shapeCast_self]
  rw [mmU, mmU, rowU]
  rfl

theorem pay13 (x0 x1 : Vec Ideal S4096x256 .f32) (x2 x3 : Vec Ideal S256x256 .f32) (x4 : Vec Ideal S1x256 .f32) :
    k13_pay1 (F := Ideal) x0 x1 x2 x3 x4 = dualPlain x0 x1 x2 x3 x4 := by
  unfold k13_pay1
  simp only [shapeCast_self]
  rw [mmU, mmU, rowU]
  rfl

theorem pay14 (x0 x1 : Vec Ideal S4096x256 .f32) (x2 x3 : Vec Ideal S256x256 .f32) (x4 : Vec Ideal S1x256 .f32) :
    k14_pay1 (F := Ideal) x0 x1 x2 x3 x4 = dualRelu x0 x1 x2 x3 x4 := by
  unfold k14_pay1
  simp only [shapeCast_self]
  rw [mmU, mmU, rowU]
  rfl

theorem pay15 (x0 x1 : Vec Ideal S4096x256 .f32) (x2 x3 : Vec Ideal S256x256 .f32) (x4 : Vec Ideal S1x256 .f32) :
    k15_pay1 (F := Ideal) x0 x1 x2 x3 x4 = dualRelu x0 x1 x2 x3 x4 := by
  unfold k15_pay1
  simp only [shapeCast_self]
  rw [mmU, mmU, rowU]
  rfl

theorem pay16 (x0 : Vec Ideal S4096x256 .f32) (x1 : Vec Ideal S256x256 .f32) (x2 : Vec Ideal S1x256 .f32) :
    k16_pay1 (F := Ideal) x0 x1 x2 = linPlain x0 x1 x2 := by
  unfold k16_pay1
  simp only [shapeCast_self]
  rw [mmU, rowU]
  rfl

theorem pay17 (x0 : Vec Ideal S4096x256 .f32) (x1 : Vec Ideal S256x256 .f32) (x2 : Vec Ideal S1x256 .f32) :
    k17_pay1 (F := Ideal) x0 x1 x2 = linPlain x0 x1 x2 := by
  unfold k17_pay1
  simp only [shapeCast_self]
  rw [mmU, rowU]
  rfl

theorem pay18 (x0 x1 : Vec Ideal S4096x256 .f32) (x2 x3 : Vec Ideal S256x256 .f32) (x4 : Vec Ideal S1x256 .f32) :
    k18_pay1 (F := Ideal) x0 x1 x2 x3 x4 = dualPlain x0 x1 x2 x3 x4 := by
  unfold k18_pay1
  simp only [shapeCast_self]
  rw [mmU, mmU, rowU]
  rfl

theorem pay19 (x0 x1 : Vec Ideal S4096x256 .f32) (x2 x3 : Vec Ideal S256x256 .f32) (x4 : Vec Ideal S1x256 .f32) :
    k19_pay1 (F := Ideal) x0 x1 x2 x3 x4 = dualPlain x0 x1 x2 x3 x4 := by
  unfold k19_pay1
  simp only [shapeCast_self]
  rw [mmU, mmU, rowU]
  rfl

theorem pay20 (x0 x1 x2 : Vec Ideal S4096x256 .f32) (x3 : Vec Ideal S256x2 .f32) (x4 : Vec Ideal S1x2 .f32) :
    k20_pay1 (F := Ideal) x0 x1 x2 x3 x4 = triOut x0 x1 x2 x3 x4 := by
  unfold k20_pay1
  simp only [shapeCast_self]
  rw [leakyU, mmU2, rowU2]
  rfl

end Cert.KernelIdeal.Payloads

end
-- ==== Proof.Reg0.lean ====
/-
  Kernel call 0 of the program: what its output array holds when the call has run.

  The call cuts its [102400, 256] inputs into 25 blocks of 4096 rows, keeps the weights and the bias row whole, and at
  block t stores the leaky rectifier of one product plus a bias row of that block. The layer acts row by row, so what point t writes back is
  block t of the layer of the whole arrays; the 25 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg0

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block t lies inside the 102400 rows. -/
theorem hb (t : Fin cfg0.N) : 4096 * t.val + 4096 ≤ 102400 := by
  have h : t.val < 25 := lt_of_lt_of_eq t.isLt N_0
  omega

/-- Block t of input 0 is rows 4096 t, …, 4096 t + 4095 of its array. -/
theorem blk_0 (c : Dev nD) (t : Fin cfg0.N) :
    iblk0 V c 0 t = rowsAt (P := 102400) (N := 256) (α := EReal) (4096 * t.val) 4096 (hb t) (V c main_v0) := by
  funext y
  show V c main_v0 (((cfg0.win 0).blk t).view.emb y) = V c main_v0 (ix2 ⟨4096 * t.val + (y 0).val, _⟩ (y 1))
  refine congrArg (V c main_v0) ?_
  funext a; apply Fin.ext
  obtain ⟨e0, e1, e2, e3, e4, e5, e6, e7⟩ := idx t
  match a with
  | ⟨0, _⟩ => show win0_0.index t (0 : Fin 2) * 4096 + 1 * (y 0).val = 4096 * t.val + (y 0).val; omega
  | ⟨1, _⟩ => show win0_0.index t (1 : Fin 2) * 256 + 1 * (y 1).val = (y 1).val; omega

/-- Input 1's block is its whole array at every point. -/
theorem blk_1 (c : Dev nD) (t : Fin cfg0.N) : iblk0 V c 1 t = V c main_arg19 := by
  funext y
  show V c main_arg19 (((cfg0.win 1).blk t).view.emb y) = V c main_arg19 y
  refine congrArg (V c main_arg19) ?_
  funext a; apply Fin.ext
  obtain ⟨e0, e1, e2, e3, e4, e5, e6, e7⟩ := idx t
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- Input 2's block is its whole array at every point. -/
theorem blk_2 (c : Dev nD) (t : Fin cfg0.N) : iblk0 V c 2 t = V c main_v1 := by
  funext y
  show V c main_v1 (((cfg0.win 2).blk t).view.emb y) = V c main_v1 y
  refine congrArg (V c main_v1) ?_
  funext a; apply Fin.ext
  obtain ⟨e0, e1, e2, e3, e4, e5, e6, e7⟩ := idx t
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- What point t writes back is block t of the layer of the whole arrays. -/
theorem flushed (c : Dev nD) (t : Fin cfg0.N) :
    (dat0 V c).flushed 3 t = ((cfg0.win 3).blk t).view.read (Elt Ideal) (linLeaky (V c main_v0) (V c main_arg19) (V c main_v1)) := by
  show (cfg0.win 3).cut (grid0.coords t) ((dat0 V c).after 3 t) = _
  rw [after0_3]
  unfold out0_3
  rw [View.canon_unit_zero hz2]
  simp only [View.ld_unit_zero (S := S4096x256) hz2, View.ld_unit_zero (S := S256x256) hz2, View.ld_unit_zero (S := S1x256) hz2]
  funext y
  show k0_pay1 (iblk0 V c 0 t) (iblk0 V c 1 t) (iblk0 V c 2 t) y = linLeaky (V c main_v0) (V c main_arg19) (V c main_v1) (((cfg0.win 3).blk t).view.emb y)
  refine (congrFun (pay0 (iblk0 V c 0 t) (iblk0 V c 1 t) (iblk0 V c 2 t)) y).trans ?_
  rw [blk_0 V c t, blk_1 V c t, blk_2 V c t]
  refine (congrFun (rowsAt_linLeaky (4096 * t.val) 4096 (hb t) (V c main_v0) (V c main_arg19) (V c main_v1)) y).symm.trans ?_
  refine congrArg (linLeaky (V c main_v0) (V c main_arg19) (V c main_v1)) ?_
  funext a; apply Fin.ext
  obtain ⟨e0, e1, e2, e3, e4, e5, e6, e7⟩ := idx t
  match a with
  | ⟨0, _⟩ => show 4096 * t.val + (y 0).val = win0_3.index t (0 : Fin 2) * 4096 + 1 * (y 0).val; omega
  | ⟨1, _⟩ => show (y 1).val = win0_3.index t (1 : Fin 2) * 256 + 1 * (y 1).val; omega

/-- An index of the output array is in point t's block iff each coordinate is in the block's range. -/
theorem mem_blk (t : Fin cfg0.N) (i : S102400x256.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_v2).slice (win0_3.rect t)).set ↔ _
  rw [View.set_slice_whole, Rect.mem_set_unit]
  exact Iff.rfl

/-- The blocks tile the output array: row r is in block r / 4096. -/
theorem cover (i : S102400x256.Idx) :
    ∃ t : Fin cfg0.N, (cfg0.win 3).flush t = true ∧ i ∈ ((cfg0.win 3).blk t).view.set := by
  have hi0 : (i 0).val < 102400 := (i 0).isLt
  have hi1 : (i 1).val < 256 := (i 1).isLt
  have hN : cfg0.N = 25 := N_0
  have hlt : (i 0).val / 4096 < cfg0.N := by rw [hN]; omega
  obtain ⟨t, ht⟩ : ∃ t : Fin cfg0.N, t.val = (i 0).val / 4096 := ⟨⟨_, hlt⟩, rfl⟩
  refine ⟨t, flush0_3 t, ?_⟩
  rw [mem_blk]
  obtain ⟨e0, e1, e2, e3, e4, e5, e6, e7⟩ := idx t
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 256 ≤ (i 1).val ∧ (i 1).val < win0_3.index t (1 : Fin 2) * 256 + 256
    omega

/-- The output array after the call: the layer of the arrays the call was entered with. -/
theorem value (c : Dev nD) : (dat0 V c).arrAt 3 cfg0.N = linLeaky (V c main_v0) (V c main_arg19) (V c main_v1) :=
  (dat0 V c).arrAt_eq_of_cover 3 _ (fun t _ => flushed V c t) cover

end Cert.KernelIdeal.Reg0

end
-- ==== Proof.Reg1.lean ====
/-
  Kernel call 1 of the program: what its output array holds when the call has run.

  The call cuts its [102400, 256] inputs into 25 blocks of 4096 rows, keeps the weights and the bias row whole, and at
  block t stores the leaky rectifier of one product plus a bias row of that block. The layer acts row by row, so what point t writes back is
  block t of the layer of the whole arrays; the 25 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg1

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block t lies inside the 102400 rows. -/
theorem hb (t : Fin cfg1.N) : 4096 * t.val + 4096 ≤ 102400 := by
  have h : t.val < 25 := lt_of_lt_of_eq t.isLt N_1
  omega

/-- Block t of input 0 is rows 4096 t, …, 4096 t + 4095 of its array. -/
theorem blk_0 (c : Dev nD) (t : Fin cfg1.N) :
    iblk1 V c 0 t = rowsAt (P := 102400) (N := 256) (α := EReal) (4096 * t.val) 4096 (hb t) (V c main_v4) := by
  funext y
  show V c main_v4 (((cfg1.win 0).blk t).view.emb y) = V c main_v4 (ix2 ⟨4096 * t.val + (y 0).val, _⟩ (y 1))
  refine congrArg (V c main_v4) ?_
  funext a; apply Fin.ext
  obtain ⟨e0, e1, e2, e3, e4, e5, e6, e7⟩ := idx t
  match a with
  | ⟨0, _⟩ => show win1_0.index t (0 : Fin 2) * 4096 + 1 * (y 0).val = 4096 * t.val + (y 0).val; omega
  | ⟨1, _⟩ => show win1_0.index t (1 : Fin 2) * 256 + 1 * (y 1).val = (y 1).val; omega

/-- Input 1's block is its whole array at every point. -/
theorem blk_1 (c : Dev nD) (t : Fin cfg1.N) : iblk1 V c 1 t = V c main_arg21 := by
  funext y
  show V c main_arg21 (((cfg1.win 1).blk t).view.emb y) = V c main_arg21 y
  refine congrArg (V c main_arg21) ?_
  funext a; apply Fin.ext
  obtain ⟨e0, e1, e2, e3, e4, e5, e6, e7⟩ := idx t
  match a with
  | ⟨0, _⟩ => show win1_1.index t (0 : Fin 2) * 256 + 1 * (y 0).val = (y 0).val; omega
  | ⟨1, _⟩ => show win1_1.index t (1 : Fin 2) * 256 + 1 * (y 1).val = (y 1).val; omega

/-- Input 2's block is its whole array at every point. -/
theorem blk_2 (c : Dev nD) (t : Fin cfg1.N) : iblk1 V c 2 t = V c main_v5 := by
  funext y
  show V c main_v5 (((cfg1.win 2).blk t).view.emb y) = V c main_v5 y
  refine congrArg (V c main_v5) ?_
  funext a; apply Fin.ext
  obtain ⟨e0, e1, e2, e3, e4, e5, e6, e7⟩ := idx t
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- What point t writes back is block t of the layer of the whole arrays. -/
theorem flushed (c : Dev nD) (t : Fin cfg1.N) :
    (dat1 V c).flushed 3 t = ((cfg1.win 3).blk t).view.read (Elt Ideal) (linLeaky (V c main_v4) (V c main_arg21) (V c main_v5)) := by
  show (cfg1.win 3).cut (grid1.coords t) ((dat1 V c).after 3 t) = _
  rw [after1_3]
  unfold out1_3
  rw [View.canon_unit_zero hz2]
  simp only [View.ld_unit_zero (S := S4096x256) hz2, View.ld_unit_zero (S := S256x256) hz2, View.ld_unit_zero (S := S1x256) hz2]
  funext y
  show k1_pay1 (iblk1 V c 0 t) (iblk1 V c 1 t) (iblk1 V c 2 t) y = linLeaky (V c main_v4) (V c main_arg21) (V c main_v5) (((cfg1.win 3).blk t).view.emb y)
  refine (congrFun (pay1 (iblk1 V c 0 t) (iblk1 V c 1 t) (iblk1 V c 2 t)) y).trans ?_
  rw [blk_0 V c t, blk_1 V c t, blk_2 V c t]
  refine (congrFun (rowsAt_linLeaky (4096 * t.val) 4096 (hb t) (V c main_v4) (V c main_arg21) (V c main_v5)) y).symm.trans ?_
  refine congrArg (linLeaky (V c main_v4) (V c main_arg21) (V c main_v5)) ?_
  funext a; apply Fin.ext
  obtain ⟨e0, e1, e2, e3, e4, e5, e6, e7⟩ := idx t
  match a with
  | ⟨0, _⟩ => show 4096 * t.val + (y 0).val = win1_3.index t (0 : Fin 2) * 4096 + 1 * (y 0).val; omega
  | ⟨1, _⟩ => show (y 1).val = win1_3.index t (1 : Fin 2) * 256 + 1 * (y 1).val; omega

/-- An index of the output array is in point t's block iff each coordinate is in the block's range. -/
theorem mem_blk (t : Fin cfg1.N) (i : S102400x256.Idx) :
    i ∈ ((cfg1.win 3).blk t).view.set ↔ ∀ a : Fin 2, win1_3.index t a * S4096x256.size a ≤ (i a).val ∧ (i a).val < win1_3.index t a * S4096x256.size a + S4096x256.size a := by
  show i ∈ ((View.whole main_v6).slice (win1_3.rect t)).set ↔ _
  rw [View.set_slice_whole, Rect.mem_set_unit]
  exact Iff.rfl

/-- The blocks tile the output array: row r is in block r / 4096. -/
theorem cover (i : S102400x256.Idx) :
    ∃ t : Fin cfg1.N, (cfg1.win 3).flush t = true ∧ i ∈ ((cfg1.win 3).blk t).view.set := by
  have hi0 : (i 0).val < 102400 := (i 0).isLt
  have hi1 : (i 1).val < 256 := (i 1).isLt
  have hN : cfg1.N = 25 := N_1
  have hlt : (i 0).val / 4096 < cfg1.N := by rw [hN]; omega
  obtain ⟨t, ht⟩ : ∃ t : Fin cfg1.N, t.val = (i 0).val / 4096 := ⟨⟨_, hlt⟩, rfl⟩
  refine ⟨t, flush1_3 t, ?_⟩
  rw [mem_blk]
  obtain ⟨e0, e1, e2, e3, e4, e5, e6, e7⟩ := idx t
  intro a
  match a with
  | ⟨0, _⟩ =>
    show win1_3.index t (0 : Fin 2) * 4096 ≤ (i 0).val ∧ (i 0).val < win1_3.index t (0 : Fin 2) * 4096 + 4096
    omega
  | ⟨1, _⟩ =>
    show win1_3.index t (1 : Fin 2) * 256 ≤ (i 1).val ∧ (i 1).val < win1_3.index t (1 : Fin 2) * 256 + 256
    omega

/-- The output array after the call: the layer of the arrays the call was entered with. -/
theorem value (c : Dev nD) : (dat1 V c).arrAt 3 cfg1.N = linLeaky (V c main_v4) (V c main_arg21) (V c main_v5) :=
  (dat1 V c).arrAt_eq_of_cover 3 _ (fun t _ => flushed V c t) cover

end Cert.KernelIdeal.Reg1

end
-- ==== Proof.Reg2.lean ====
/-
  Kernel call 2 of the program: what its output array holds when the call has run.

  The call cuts its [73728, 256] inputs into 18 blocks of 4096 rows, keeps the weights and the bias row whole, and at
  block t stores the rectifier of the sum of two products plus a bias row of that block. The layer acts row by row, so what point t writes back is
  block t of the layer of the whole arrays; the 18 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg2

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Block t lies inside the 73728 rows. -/
theorem hb (t : Fin cfg2.N) : 4096 * t.val + 4096 ≤ 73728 := by
  have h : t.val < 18 := lt_of_lt_of_eq t.isLt N_2
  omega

/-- Block t of input 0 is rows 4096 t, …, 4096 t + 4095 of its array. -/
theorem blk_0 (c : Dev nD) (t : Fin cfg2.N) :
    iblk2 V c 0 t = rowsAt (P := 73728) (N := 256) (α := EReal) (4096 * t.val) 4096 (hb t) (V c main_v50) := by
  funext y
  show V c main_v50 (((cfg2.win 0).blk t).view.emb y) = V c main_v50 (ix2 ⟨4096 * t.val + (y 0).val, _⟩ (y 1))
  refine congrArg (V c main_v50) ?_
  funext a; apply Fin.ext
  obtain ⟨e0, e1, e2, e3, e4, e5, e6, e7, e8, e9, e10, e11⟩ := idx t
  match a with
  | ⟨0, _⟩ => show win2_0.index t (0 : Fin 2) * 4096 + 1 * (y 0).val = 4096 * t.val + (y 0).val; omega
  | ⟨1, _⟩ => show win2_0.index t (1 : Fin 2) * 256 + 1 * (y 1).val = (y 1).val; omega

/-- Block t of input 1 is rows 4096 t, …, 4096 t + 4095 of its array. -/
theorem blk_1 (c : Dev nD) (t : Fin cfg2.N) :
    iblk2 V c 1 t = rowsAt (P := 73728) (N := 256) (α := EReal) (4096 * t.val) 4096 (hb t) (V c main_v51) := by
  funext y
  show V c main_v51 (((cfg2.win 1).blk t).view.emb y) = V c main_v51 (ix2 ⟨4096 * t.val + (y 0).val, _⟩ (y 1))
  refine congrArg (V c main_v51) ?_
  funext a; apply Fin.ext
  obtain ⟨e0, e1, e2, e3, e4, e5, e6, e7, e8, e9, e10, e11⟩ := idx t
  match a with
  | ⟨0, _⟩ => show win2_1.index t (0 : Fin 2) * 4096 + 1 * (y 0).val = 4096 * t.val + (y 0).val; omega
  | ⟨1, _⟩ => show win2_1.index t (1 : Fin 2) * 256 + 1 * (y 1).val = (y 1).val; omega

/-- Input 2's block is its whole array at every point. -/
theorem blk_2 (c : Dev nD) (t : Fin cfg2.N) : iblk2 V c 2 t = V c main_v23 := by
  funext y
  show V c main_v23 (((cfg2.win 2).blk t).view.emb y) = V c main_v23 y
  refine congrArg (V c main_v23) ?_
  funext a; apply Fin.ext
  obtain ⟨e0, e1, e2, e3, e4, e5, e6, e7, e8, e9, e10, e11⟩ := idx t
  match a with
  | ⟨0, _⟩ => show win2_2.index t (0 : Fin 2) * 256 + 1 * (y 0).val = (y 0).val; omega
  | ⟨1, _⟩ => show win2_2.index t (1 : Fin 2) * 256 + 1 * (y 1).val = (y 1).val; omega

/-- Input 3's block is its whole array at every point. -/
theorem blk_3 (c : Dev nD) (t : Fin cfg2.N) : iblk2 V c 3 t = V c main_v24 := by
  funext y
  show V c main_v24 (((cfg2.win 3).blk t).view.emb y) = V c main_v24 y
  refine congrArg (V c main_v24) ?_
  funext a; apply Fin.ext
  obtain ⟨e0, e1, e2, e3, e4, e5, e6, e7, e8, e9, e10, e11⟩ := idx t
  match a with
  | ⟨0, _⟩ => show win2_3.index t (0 : Fin 2) * 256 + 1 * (y 0).val = (y 0).val; omega
  | ⟨1, _⟩ => show win2_3.index t (1 : Fin 2) * 256 + 1 * (y 1).val = (y 1).val; omega

/-- Input 4's block is its whole array at every point. -/
theorem blk_4 (c : Dev nD) (t : Fin cfg2.N) : iblk2 V c 4 t = V c main_v52 := by
  funext y
  show V c main_v52 (((cfg2.win 4).blk t).view.emb y) = V c main_v52 y
  refine congrArg (V c main_v52) ?_
  funext a; apply Fin.ext
  obtain ⟨e0, e1, e2, e3, e4, e5, e6, e7, e8, e9, e10, e11⟩ := idx t
  match a with
  | ⟨0, _⟩ => show win2_4.index t (0 : Fin 2) * 1 + 1 * (y 0).val = (y 0).val; omega
  | ⟨1, _⟩ => show win2_4.index t (1 : Fin 2) * 256 + 1 * (y 1).val = (y 1).val; omega

/-- What point t writes back is block t of the layer of the whole arrays. -/
theorem flushed (c : Dev nD) (t : Fin cfg2.N) :
    (dat2 V c).flushed 5 t = ((cfg2.win 5).blk t).view.read (Elt Ideal) (dualRelu (V c main_v50) (V c main_v51) (V c main_v23) (V c main_v24) (V c main_v52)) := by
  show (cfg2.win 5).cut (grid2.coords t) ((dat2 V c).after 5 t) = _
  rw [after2_5]
  unfold out2_5
  rw [View.canon_unit_zero hz2]
  simp only [View.ld_unit_zero (S := S4096x256) hz2, View.ld_unit_zero (S := S256x256) hz2, View.ld_unit_zero (S := S1x256) hz2]
  funext y
  show k2_pay1 (iblk2 V c 0 t) (iblk2 V c 1 t) (iblk2 V c 2 t) (iblk2 V c 3 t) (iblk2 V c 4 t) y = dualRelu (V c main_v50) (V c main_v51) (V c main_v23) (V c main_v24) (V c main_v52) (((cfg2.win 5).blk t).view.emb y)
  refine (congrFun (pay2 (iblk2 V c 0 t) (iblk2 V c 1 t) (iblk2 V c 2 t) (iblk2 V c 3 t) (iblk2 V c 4 t)) y).trans ?_
  rw [blk_0 V c t, blk_1 V c t, blk_2 V c t, blk_3 V c t, blk_4 V c t]
  refine (congrFun (rowsAt_dualRelu (4096 * t.val) 4096 (hb t) (V c main_v50) (V c main_v51) (V c main_v23) (V c main_v24) (V c main_v52)) y).symm.trans ?_
  refine congrArg (dualRelu (V c main_v50) (V c main_v51) (V c main_v23) (V c main_v24) (V c main_v52)) ?_
  funext a; apply Fin.ext
  obtain ⟨e0, e1, e2, e3, e4, e5, e6, e7, e8, e9, e10, e11⟩ := idx t
  match a with
  | ⟨0, _⟩ => show 4096 * t.val + (y 0).val = win2_5.index t (0 : Fin 2) * 4096 + 1 * (y 0).val; omega
  | ⟨1, _⟩ => show (y 1).val = win2_5.index t (1 : Fin 2) * 256 + 1 * (y 1).val; omega

/-- An index of the output array is in point t's block iff each coordinate is in the block's range. -/
theorem mem_blk (t : Fin cfg2.N) (i : S73728x256.Idx) :
    i ∈ ((cfg2.win 5).blk t).view.set ↔ ∀ a : Fin 2, win2_5.index t a * S4096x256.size a ≤ (i a).val ∧ (i a).val < win2_5.index t a * S4096x256.size a + S4096x256.size a := by
  show i ∈ ((View.whole main_v53).slice (win2_5.rect t)).set ↔ _
  rw [View.set_slice_whole, Rect.mem_set_unit]
  exact Iff.rfl

/-- The blocks tile the output array: row r is in block r / 4096. -/
theorem cover (i : S73728x256.Idx) :
    ∃ t : Fin cfg2.N, (cfg2.win 5).flush t = true ∧ i ∈ ((cfg2.win 5).blk t).view.set := by
  have hi0 : (i 0).val < 73728 := (i 0).isLt
  have hi1 : (i 1).val < 256 := (i 1).isLt
  have hN : cfg2.N = 18 := N_2
  have hlt : (i 0).val / 4096 < cfg2.N := by rw [hN]; omega
  obtain ⟨t, ht⟩ : ∃ t : Fin cfg2.N, t.val = (i 0).val / 4096 := ⟨⟨_, hlt⟩, rfl⟩
  refine ⟨t, flush2_5 t, ?_⟩
  rw [mem_blk]
  obtain ⟨e0, e1, e2, e3, e4, e5, e6, e7, e8, e9, e10, e11⟩ := idx t
  intro a
  match a with
  | ⟨0, _⟩ =>
    show win2_5.index t (0 : Fin 2) * 4096 ≤ (i 0).val ∧ (i 0).val < win2_5.index t (0 : Fin 2) * 4096 + 4096
    omega
  | ⟨1, _⟩ =>
    show win2_5.index t (1 : Fin 2) * 256 ≤ (i 1).val ∧ (i 1).val < win2_5.index t (1 : Fin 2) * 256 + 256
    omega

/-- The output array after the call: the layer of the arrays the call was entered with. -/
theorem value (c : Dev nD) : (dat2 V c).arrAt 5 cfg2.N = dualRelu (V c main_v50) (V c main_v51) (V c main_v23) (V c main_v24) (V c main_v52) :=
  (dat2 V c).arrAt_eq_of_cover 5 _ (fun t _ => flushed V c t) cover

end Cert.KernelIdeal.Reg2

end
-- ==== Proof.Reg3.lean ====
/-
  Kernel call 3 of the program: what its output array holds when the call has run.

  The call cuts its [73728, 256] inputs into 18 blocks of 4096 rows, keeps the weights and the bias row whole, and at
  block t stores the rectifier of the sum of two products plus a bias row of that block. The layer acts row by row, so what point t writes back is
  block t of the layer of the whole arrays; the 18 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg3

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Block t lies inside the 73728 rows. -/
theorem hb (t : Fin cfg3.N) : 4096 * t.val + 4096 ≤ 73728 := by
  have h : t.val < 18 := lt_of_lt_of_eq t.isLt N_3
  omega

/-- Block t of input 0 is rows 4096 t, …, 4096 t + 4095 of its array. -/
theorem blk_0 (c : Dev nD) (t : Fin cfg3.N) :
    iblk3 V c 0 t = rowsAt (P := 73728) (N := 256) (α := EReal) (4096 * t.val) 4096 (hb t) (V c main_v78) := by
  funext y
  show V c main_v78 (((cfg3.win 0).blk t).view.emb y) = V c main_v78 (ix2 ⟨4096 * t.val + (y 0).val, _⟩ (y 1))
  refine congrArg (V c main_v78) ?_
  funext a; apply Fin.ext
  obtain ⟨e0, e1, e2, e3, e4, e5, e6, e7, e8, e9, e10, e11⟩ := idx t
  match a with
  | ⟨0, _⟩ => show win3_0.index t (0 : Fin 2) * 4096 + 1 * (y 0).val = 4096 * t.val + (y 0).val; omega
  | ⟨1, _⟩ => show win3_0.index t (1 : Fin 2) * 256 + 1 * (y 1).val = (y 1).val; omega

/-- Block t of input 1 is rows 4096 t, …, 4096 t + 4095 of its array. -/
theorem blk_1 (c : Dev nD) (t : Fin cfg3.N) :
    iblk3 V c 1 t = rowsAt (P := 73728) (N := 256) (α := EReal) (4096 * t.val) 4096 (hb t) (V c main_v79) := by
  funext y
  show V c main_v79 (((cfg3.win 1).blk t).view.emb y) = V c main_v79 (ix2 ⟨4096 * t.val + (y 0).val, _⟩ (y 1))
  refine congrArg (V c main_v79) ?_
  funext a; apply Fin.ext
  obtain ⟨e0, e1, e2, e3, e4, e5, e6, e7, e8, e9, e10, e11⟩ := idx t
  match a with
  | ⟨0, _⟩ => show win3_1.index t (0 : Fin 2) * 4096 + 1 * (y 0).val = 4096 * t.val + (y 0).val; omega
  | ⟨1, _⟩ => show win3_1.index t (1 : Fin 2) * 256 + 1 * (y 1).val = (y 1).val; omega

/-- Input 2's block is its whole array at every point. -/
theorem blk_2 (c : Dev nD) (t : Fin cfg3.N) : iblk3 V c 2 t = V c main_v25 := by
  funext y
  show V c main_v25 (((cfg3.win 2).blk t).view.emb y) = V c main_v25 y
  refine congrArg (V c main_v25) ?_
  funext a; apply Fin.ext
  obtain ⟨e0, e1, e2, e3, e4, e5, e6, e7, e8, e9, e10, e11⟩ := idx t
  match a with
  | ⟨0, _⟩ => show win3_2.index t (0 : Fin 2) * 256 + 1 * (y 0).val = (y 0).val; omega
  | ⟨1, _⟩ => show win3_2.index t (1 : Fin 2) * 256 + 1 * (y 1).val = (y 1).val; omega

/-- Input 3's block is its whole array at every point. -/
theorem blk_3 (c : Dev nD) (t : Fin cfg3.N) : iblk3 V c 3 t = V c main_v26 := by
  funext y
  show V c main_v26 (((cfg3.win 3).blk t).view.emb y) = V c main_v26 y
  refine congrArg (V c main_v26) ?_
  funext a; apply Fin.ext
  obtain ⟨e0, e1, e2, e3, e4, e5, e6, e7, e8, e9, e10, e11⟩ := idx t
  match a with
  | ⟨0, _⟩ => show win3_3.index t (0 : Fin 2) * 256 + 1 * (y 0).val = (y 0).val; omega
  | ⟨1, _⟩ => show win3_3.index t (1 : Fin 2) * 256 + 1 * (y 1).val = (y 1).val; omega

/-- Input 4's block is its whole array at every point. -/
theorem blk_4 (c : Dev nD) (t : Fin cfg3.N) : iblk3 V c 4 t = V c main_v80 := by
  funext y
  show V c main_v80 (((cfg3.win 4).blk t).view.emb y) = V c main_v80 y
  refine congrArg (V c main_v80) ?_
  funext a; apply Fin.ext
  obtain ⟨e0, e1, e2, e3, e4, e5, e6, e7, e8, e9, e10, e11⟩ := idx t
  match a with
  | ⟨0, _⟩ => show win3_4.index t (0 : Fin 2) * 1 + 1 * (y 0).val = (y 0).val; omega
  | ⟨1, _⟩ => show win3_4.index t (1 : Fin 2) * 256 + 1 * (y 1).val = (y 1).val; omega

/-- What point t writes back is block t of the layer of the whole arrays. -/
theorem flushed (c : Dev nD) (t : Fin cfg3.N) :
    (dat3 V c).flushed 5 t = ((cfg3.win 5).blk t).view.read (Elt Ideal) (dualRelu (V c main_v78) (V c main_v79) (V c main_v25) (V c main_v26) (V c main_v80)) := by
  show (cfg3.win 5).cut (grid3.coords t) ((dat3 V c).after 5 t) = _
  rw [after3_5]
  unfold out3_5
  rw [View.canon_unit_zero hz2]
  simp only [View.ld_unit_zero (S := S4096x256) hz2, View.ld_unit_zero (S := S256x256) hz2, View.ld_unit_zero (S := S1x256) hz2]
  funext y
  show k3_pay1 (iblk3 V c 0 t) (iblk3 V c 1 t) (iblk3 V c 2 t) (iblk3 V c 3 t) (iblk3 V c 4 t) y = dualRelu (V c main_v78) (V c main_v79) (V c main_v25) (V c main_v26) (V c main_v80) (((cfg3.win 5).blk t).view.emb y)
  refine (congrFun (pay3 (iblk3 V c 0 t) (iblk3 V c 1 t) (iblk3 V c 2 t) (iblk3 V c 3 t) (iblk3 V c 4 t)) y).trans ?_
  rw [blk_0 V c t, blk_1 V c t, blk_2 V c t, blk_3 V c t, blk_4 V c t]
  refine (congrFun (rowsAt_dualRelu (4096 * t.val) 4096 (hb t) (V c main_v78) (V c main_v79) (V c main_v25) (V c main_v26) (V c main_v80)) y).symm.trans ?_
  refine congrArg (dualRelu (V c main_v78) (V c main_v79) (V c main_v25) (V c main_v26) (V c main_v80)) ?_
  funext a; apply Fin.ext
  obtain ⟨e0, e1, e2, e3, e4, e5, e6, e7, e8, e9, e10, e11⟩ := idx t
  match a with
  | ⟨0, _⟩ => show 4096 * t.val + (y 0).val = win3_5.index t (0 : Fin 2) * 4096 + 1 * (y 0).val; omega
  | ⟨1, _⟩ => show (y 1).val = win3_5.index t (1 : Fin 2) * 256 + 1 * (y 1).val; omega

/-- An index of the output array is in point t's block iff each coordinate is in the block's range. -/
theorem mem_blk (t : Fin cfg3.N) (i : S73728x256.Idx) :
    i ∈ ((cfg3.win 5).blk t).view.set ↔ ∀ a : Fin 2, win3_5.index t a * S4096x256.size a ≤ (i a).val ∧ (i a).val < win3_5.index t a * S4096x256.size a + S4096x256.size a := by
  show i ∈ ((View.whole main_v81).slice (win3_5.rect t)).set ↔ _
  rw [View.set_slice_whole, Rect.mem_set_unit]
  exact Iff.rfl

/-- The blocks tile the output array: row r is in block r / 4096. -/
theorem cover (i : S73728x256.Idx) :
    ∃ t : Fin cfg3.N, (cfg3.win 5).flush t = true ∧ i ∈ ((cfg3.win 5).blk t).view.set := by
  have hi0 : (i 0).val < 73728 := (i 0).isLt
  have hi1 : (i 1).val < 256 := (i 1).isLt
  have hN : cfg3.N = 18 := N_3
  have hlt : (i 0).val / 4096 < cfg3.N := by rw [hN]; omega
  obtain ⟨t, ht⟩ : ∃ t : Fin cfg3.N, t.val = (i 0).val / 4096 := ⟨⟨_, hlt⟩, rfl⟩
  refine ⟨t, flush3_5 t, ?_⟩
  rw [mem_blk]
  obtain ⟨e0, e1, e2, e3, e4, e5, e6, e7, e8, e9, e10, e11⟩ := idx t
  intro a
  match a with
  | ⟨0, _⟩ =>
    show win3_5.index t (0 : Fin 2) * 4096 ≤ (i 0).val ∧ (i 0).val < win3_5.index t (0 : Fin 2) * 4096 + 4096
    omega
  | ⟨1, _⟩ =>
    show win3_5.index t (1 : Fin 2) * 256 ≤ (i 1).val ∧ (i 1).val < win3_5.index t (1 : Fin 2) * 256 + 256
    omega

/-- The output array after the call: the layer of the arrays the call was entered with. -/
theorem value (c : Dev nD) : (dat3 V c).arrAt 5 cfg3.N = dualRelu (V c main_v78) (V c main_v79) (V c main_v25) (V c main_v26) (V c main_v80) :=
  (dat3 V c).arrAt_eq_of_cover 5 _ (fun t _ => flushed V c t) cover

end Cert.KernelIdeal.Reg3

end
-- ==== Proof.Reg4.lean ====
/-
  Kernel call 4 of the program: what its output array holds when the call has run.

  The call cuts its [32768, 256] inputs into 8 blocks of 4096 rows, keeps the weights and the bias row whole, and at
  block t stores one product plus a bias row of that block. The layer acts row by row, so what point t writes back is
  block t of the layer of the whole arrays; the 8 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg4

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Block t lies inside the 32768 rows. -/
theorem hb (t : Fin cfg4.N) : 4096 * t.val + 4096 ≤ 32768 := by
  have h : t.val < 8 := lt_of_lt_of_eq t.isLt N_4
  omega

/-- Block t of input 0 is rows 4096 t, …, 4096 t + 4095 of its array. -/
theorem blk_0 (c : Dev nD) (t : Fin cfg4.N) :
    iblk4 V c 0 t = rowsAt (P := 32768) (N := 256) (α := EReal) (4096 * t.val) 4096 (hb t) (V c main_v83) := by
  funext y
  show V c main_v83 (((cfg4.win 0).blk t).view.emb y) = V c main_v83 (ix2 ⟨4096 * t.val + (y 0).val, _⟩ (y 1))
  refine congrArg (V c main_v83) ?_
  funext a; apply Fin.ext
  obtain ⟨e0, e1, e2, e3, e4, e5, e6, e7⟩ := idx t
  match a with
  | ⟨0, _⟩ => show win4_0.index t (0 : Fin 2) * 4096 + 1 * (y 0).val = 4096 * t.val + (y 0).val; omega
  | ⟨1, _⟩ => show win4_0.index t (1 : Fin 2) * 256 + 1 * (y 1).val = (y 1).val; omega

/-- Input 1's block is its whole array at every point. -/
theorem blk_1 (c : Dev nD) (t : Fin cfg4.N) : iblk4 V c 1 t = V c main_arg23 := by
  funext y
  show V c main_arg23 (((cfg4.win 1).blk t).view.emb y) = V c main_arg23 y
  refine congrArg (V c main_arg23) ?_
  funext a; apply Fin.ext
  obtain ⟨e0, e1, e2, e3, e4, e5, e6, e7⟩ := idx t
  match a with
  | ⟨0, _⟩ => show win4_1.index t (0 : Fin 2) * 256 + 1 * (y 0).val = (y 0).val; omega
  | ⟨1, _⟩ => show win4_1.index t (1 : Fin 2) * 256 + 1 * (y 1).val = (y 1).val; omega

/-- Input 2's block is its whole array at every point. -/
theorem blk_2 (c : Dev nD) (t : Fin cfg4.N) : iblk4 V c 2 t = V c main_v84 := by
  funext y
  show V c main_v84 (((cfg4.win 2).blk t).view.emb y) = V c main_v84 y
  refine congrArg (V c main_v84) ?_
  funext a; apply Fin.ext
  obtain ⟨e0, e1, e2, e3, e4, e5, e6, e7⟩ := idx t
  match a with
  | ⟨0, _⟩ => show win4_2.index t (0 : Fin 2) * 1 + 1 * (y 0).val = (y 0).val; omega
  | ⟨1, _⟩ => show win4_2.index t (1 : Fin 2) * 256 + 1 * (y 1).val = (y 1).val; omega

/-- What point t writes back is block t of the layer of the whole arrays. -/
theorem flushed (c : Dev nD) (t : Fin cfg4.N) :
    (dat4 V c).flushed 3 t = ((cfg4.win 3).blk t).view.read (Elt Ideal) (linPlain (V c main_v83) (V c main_arg23) (V c main_v84)) := by
  show (cfg4.win 3).cut (grid4.coords t) ((dat4 V c).after 3 t) = _
  rw [after4_3]
  unfold out4_3
  rw [View.canon_unit_zero hz2]
  simp only [View.ld_unit_zero (S := S4096x256) hz2, View.ld_unit_zero (S := S256x256) hz2, View.ld_unit_zero (S := S1x256) hz2]
  funext y
  show k4_pay1 (iblk4 V c 0 t) (iblk4 V c 1 t) (iblk4 V c 2 t) y = linPlain (V c main_v83) (V c main_arg23) (V c main_v84) (((cfg4.win 3).blk t).view.emb y)
  refine (congrFun (pay4 (iblk4 V c 0 t) (iblk4 V c 1 t) (iblk4 V c 2 t)) y).trans ?_
  rw [blk_0 V c t, blk_1 V c t, blk_2 V c t]
  refine (congrFun (rowsAt_linPlain (4096 * t.val) 4096 (hb t) (V c main_v83) (V c main_arg23) (V c main_v84)) y).symm.trans ?_
  refine congrArg (linPlain (V c main_v83) (V c main_arg23) (V c main_v84)) ?_
  funext a; apply Fin.ext
  obtain ⟨e0, e1, e2, e3, e4, e5, e6, e7⟩ := idx t
  match a with
  | ⟨0, _⟩ => show 4096 * t.val + (y 0).val = win4_3.index t (0 : Fin 2) * 4096 + 1 * (y 0).val; omega
  | ⟨1, _⟩ => show (y 1).val = win4_3.index t (1 : Fin 2) * 256 + 1 * (y 1).val; omega

/-- An index of the output array is in point t's block iff each coordinate is in the block's range. -/
theorem mem_blk (t : Fin cfg4.N) (i : S32768x256.Idx) :
    i ∈ ((cfg4.win 3).blk t).view.set ↔ ∀ a : Fin 2, win4_3.index t a * S4096x256.size a ≤ (i a).val ∧ (i a).val < win4_3.index t a * S4096x256.size a + S4096x256.size a := by
  show i ∈ ((View.whole main_v85).slice (win4_3.rect t)).set ↔ _
  rw [View.set_slice_whole, Rect.mem_set_unit]
  exact Iff.rfl

/-- The blocks tile the output array: row r is in block r / 4096. -/
theorem cover (i : S32768x256.Idx) :
    ∃ t : Fin cfg4.N, (cfg4.win 3).flush t = true ∧ i ∈ ((cfg4.win 3).blk t).view.set := by
  have hi0 : (i 0).val < 32768 := (i 0).isLt
  have hi1 : (i 1).val < 256 := (i 1).isLt
  have hN : cfg4.N = 8 := N_4
  have hlt : (i 0).val / 4096 < cfg4.N := by rw [hN]; omega
  obtain ⟨t, ht⟩ : ∃ t : Fin cfg4.N, t.val = (i 0).val / 4096 := ⟨⟨_, hlt⟩, rfl⟩
  refine ⟨t, flush4_3 t, ?_⟩
  rw [mem_blk]
  obtain ⟨e0, e1, e2, e3, e4, e5, e6, e7⟩ := idx t
  intro a
  match a with
  | ⟨0, _⟩ =>
    show win4_3.index t (0 : Fin 2) * 4096 ≤ (i 0).val ∧ (i 0).val < win4_3.index t (0 : Fin 2) * 4096 + 4096
    omega
  | ⟨1, _⟩ =>
    show win4_3.index t (1 : Fin 2) * 256 ≤ (i 1).val ∧ (i 1).val < win4_3.index t (1 : Fin 2) * 256 + 256
    omega

/-- The output array after the call: the layer of the arrays the call was entered with. -/
theorem value (c : Dev nD) : (dat4 V c).arrAt 3 cfg4.N = linPlain (V c main_v83) (V c main_arg23) (V c main_v84) :=
  (dat4 V c).arrAt_eq_of_cover 3 _ (fun t _ => flushed V c t) cover

end Cert.KernelIdeal.Reg4

end
-- ==== Proof.Reg5.lean ====
/-
  Kernel call 5 of the program: what its output array holds when the call has run.

  The call cuts its [32768, 256] inputs into 8 blocks of 4096 rows, keeps the weights and the bias row whole, and at
  block t stores one product plus a bias row of that block. The layer acts row by row, so what point t writes back is
  block t of the layer of the whole arrays; the 8 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg5

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Block t lies inside the 32768 rows. -/
theorem hb (t : Fin cfg5.N) : 4096 * t.val + 4096 ≤ 32768 := by
  have h : t.val < 8 := lt_of_lt_of_eq t.isLt N_5
  omega

/-- Block t of input 0 is rows 4096 t, …, 4096 t + 4095 of its array. -/
theorem blk_0 (c : Dev nD) (t : Fin cfg5.N) :
    iblk5 V c 0 t = rowsAt (P := 32768) (N := 256) (α := EReal) (4096 * t.val) 4096 (hb t) (V c main_v87) := by
  funext y
  show V c main_v87 (((cfg5.win 0).blk t).view.emb y) = V c main_v87 (ix2 ⟨4096 * t.val + (y 0).val, _⟩ (y 1))
  refine congrArg (V c main_v87) ?_
  funext a; apply Fin.ext
  obtain ⟨e0, e1, e2, e3, e4, e5, e6, e7⟩ := idx t
  match a with
  | ⟨0, _⟩ => show win5_0.index t (0 : Fin 2) * 4096 + 1 * (y 0).val = 4096 * t.val + (y 0).val; omega
  | ⟨1, _⟩ => show win5_0.index t (1 : Fin 2) * 256 + 1 * (y 1).val = (y 1).val; omega

/-- Input 1's block is its whole array at every point. -/
theorem blk_1 (c : Dev nD) (t : Fin cfg5.N) : iblk5 V c 1 t = V c main_arg25 := by
  funext y
  show V c main_arg25 (((cfg5.win 1).blk t).view.emb y) = V c main_arg25 y
  refine congrArg (V c main_arg25) ?_
  funext a; apply Fin.ext
  obtain ⟨e0, e1, e2, e3, e4, e5, e6, e7⟩ := idx t
  match a with
  | ⟨0, _⟩ => show win5_1.index t (0 : Fin 2) * 256 + 1 * (y 0).val = (y 0).val; omega
  | ⟨1, _⟩ => show win5_1.index t (1 : Fin 2) * 256 + 1 * (y 1).val = (y 1).val; omega

/-- Input 2's block is its whole array at every point. -/
theorem blk_2 (c : Dev nD) (t : Fin cfg5.N) : iblk5 V c 2 t = V c main_v88 := by
  funext y
  show V c main_v88 (((cfg5.win 2).blk t).view.emb y) = V c main_v88 y
  refine congrArg (V c main_v88) ?_
  funext a; apply Fin.ext
  obtain ⟨e0, e1, e2, e3, e4, e5, e6, e7⟩ := idx t
  match a with
  | ⟨0, _⟩ => show win5_2.index t (0 : Fin 2) * 1 + 1 * (y 0).val = (y 0).val; omega
  | ⟨1, _⟩ => show win5_2.index t (1 : Fin 2) * 256 + 1 * (y 1).val = (y 1).val; omega

/-- What point t writes back is block t of the layer of the whole arrays. -/
theorem flushed (c : Dev nD) (t : Fin cfg5.N) :
    (dat5 V c).flushed 3 t = ((cfg5.win 3).blk t).view.read (Elt Ideal) (linPlain (V c main_v87) (V c main_arg25) (V c main_v88)) := by
  show (cfg5.win 3).cut (grid5.coords t) ((dat5 V c).after 3 t) = _
  rw [after5_3]
  unfold out5_3
  rw [View.canon_unit_zero hz2]
  simp only [View.ld_unit_zero (S := S4096x256) hz2, View.ld_unit_zero (S := S256x256) hz2, View.ld_unit_zero (S := S1x256) hz2]
  funext y
  show k5_pay1 (iblk5 V c 0 t) (iblk5 V c 1 t) (iblk5 V c 2 t) y = linPlain (V c main_v87) (V c main_arg25) (V c main_v88) (((cfg5.win 3).blk t).view.emb y)
  refine (congrFun (pay5 (iblk5 V c 0 t) (iblk5 V c 1 t) (iblk5 V c 2 t)) y).trans ?_
  rw [blk_0 V c t, blk_1 V c t, blk_2 V c t]
  refine (congrFun (rowsAt_linPlain (4096 * t.val) 4096 (hb t) (V c main_v87) (V c main_arg25) (V c main_v88)) y).symm.trans ?_
  refine congrArg (linPlain (V c main_v87) (V c main_arg25) (V c main_v88)) ?_
  funext a; apply Fin.ext
  obtain ⟨e0, e1, e2, e3, e4, e5, e6, e7⟩ := idx t
  match a with
  | ⟨0, _⟩ => show 4096 * t.val + (y 0).val = win5_3.index t (0 : Fin 2) * 4096 + 1 * (y 0).val; omega
  | ⟨1, _⟩ => show (y 1).val = win5_3.index t (1 : Fin 2) * 256 + 1 * (y 1).val; omega

/-- An index of the output array is in point t's block iff each coordinate is in the block's range. -/
theorem mem_blk (t : Fin cfg5.N) (i : S32768x256.Idx) :
    i ∈ ((cfg5.win 3).blk t).view.set ↔ ∀ a : Fin 2, win5_3.index t a * S4096x256.size a ≤ (i a).val ∧ (i a).val < win5_3.index t a * S4096x256.size a + S4096x256.size a := by
  show i ∈ ((View.whole main_v89).slice (win5_3.rect t)).set ↔ _
  rw [View.set_slice_whole, Rect.mem_set_unit]
  exact Iff.rfl

/-- The blocks tile the output array: row r is in block r / 4096. -/
theorem cover (i : S32768x256.Idx) :
    ∃ t : Fin cfg5.N, (cfg5.win 3).flush t = true ∧ i ∈ ((cfg5.win 3).blk t).view.set := by
  have hi0 : (i 0).val < 32768 := (i 0).isLt
  have hi1 : (i 1).val < 256 := (i 1).isLt
  have hN : cfg5.N = 8 := N_5
  have hlt : (i 0).val / 4096 < cfg5.N := by rw [hN]; omega
  obtain ⟨t, ht⟩ : ∃ t : Fin cfg5.N, t.val = (i 0).val / 4096 := ⟨⟨_, hlt⟩, rfl⟩
  refine ⟨t, flush5_3 t, ?_⟩
  rw [mem_blk]
  obtain ⟨e0, e1, e2, e3, e4, e5, e6, e7⟩ := idx t
  intro a
  match a with
  | ⟨0, _⟩ =>
    show win5_3.index t (0 : Fin 2) * 4096 ≤ (i 0).val ∧ (i 0).val < win5_3.index t (0 : Fin 2) * 4096 + 4096
    omega
  | ⟨1, _⟩ =>
    show win5_3.index t (1 : Fin 2) * 256 ≤ (i 1).val ∧ (i 1).val < win5_3.index t (1 : Fin 2) * 256 + 256
    omega

/-- The output array after the call: the layer of the arrays the call was entered with. -/
theorem value (c : Dev nD) : (dat5 V c).arrAt 3 cfg5.N = linPlain (V c main_v87) (V c main_arg25) (V c main_v88) :=
  (dat5 V c).arrAt_eq_of_cover 3 _ (fun t _ => flushed V c t) cover

end Cert.KernelIdeal.Reg5

end
-- ==== Proof.Reg6.lean ====
/-
  Kernel call 6 of the program: what its output array holds when the call has run.

  The call cuts its [73728, 256] inputs into 18 blocks of 4096 rows, keeps the weights and the bias row whole, and at
  block t stores the sum of two products plus a bias row of that block. The layer acts row by row, so what point t writes back is
  block t of the layer of the whole arrays; the 18 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg6

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Block t lies inside the 73728 rows. -/
theorem hb (t : Fin cfg6.N) : 4096 * t.val + 4096 ≤ 73728 := by
  have h : t.val < 18 := lt_of_lt_of_eq t.isLt N_6
  omega

/-- Block t of input 0 is rows 4096 t, …, 4096 t + 4095 of its array. -/
theorem blk_0 (c : Dev nD) (t : Fin cfg6.N) :
    iblk6 V c 0 t = rowsAt (P := 73728) (N := 256) (α := EReal) (4096 * t.val) 4096 (hb t) (V c main_v93) := by
  funext y
  show V c main_v93 (((cfg6.win 0).blk t).view.emb y) = V c main_v93 (ix2 ⟨4096 * t.val + (y 0).val, _⟩ (y 1))
  refine congrArg (V c main_v93) ?_
  funext a; apply Fin.ext
  obtain ⟨e0, e1, e2, e3, e4, e5, e6, e7, e8, e9, e10, e11⟩ := idx t
  match a with
  | ⟨0, _⟩ => show win6_0.index t (0 : Fin 2) * 4096 + 1 * (y 0).val = 4096 * t.val + (y 0).val; omega
  | ⟨1, _⟩ => show win6_0.index t (1 : Fin 2) * 256 + 1 * (y 1).val = (y 1).val; omega

/-- Block t of input 1 is rows 4096 t, …, 4096 t + 4095 of its array. -/
theorem blk_1 (c : Dev nD) (t : Fin cfg6.N) :
    iblk6 V c 1 t = rowsAt (P := 73728) (N := 256) (α := EReal) (4096 * t.val) 4096 (hb t) (V c main_v94) := by
  funext y
  show V c main_v94 (((cfg6.win 1).blk t).view.emb y) = V c main_v94 (ix2 ⟨4096 * t.val + (y 0).val, _⟩ (y 1))
  refine congrArg (V c main_v94) ?_
  funext a; apply Fin.ext
  obtain ⟨e0, e1, e2, e3, e4, e5, e6, e7, e8, e9, e10, e11⟩ := idx t
  match a with
  | ⟨0, _⟩ => show win6_1.index t (0 : Fin 2) * 4096 + 1 * (y 0).val = 4096 * t.val + (y 0).val; omega
  | ⟨1, _⟩ => show win6_1.index t (1 : Fin 2) * 256 + 1 * (y 1).val = (y 1).val; omega

/-- Input 2's block is its whole array at every point. -/
theorem blk_2 (c : Dev nD) (t : Fin cfg6.N) : iblk6 V c 2 t = V c main_v91 := by
  funext y
  show V c main_v91 (((cfg6.win 2).blk t).view.emb y) = V c main_v91 y
  refine congrArg (V c main_v91) ?_
  funext a; apply Fin.ext
  obtain ⟨e0, e1, e2, e3, e4, e5, e6, e7, e8, e9, e10, e11⟩ := idx t
  match a with
  | ⟨0, _⟩ => show win6_2.index t (0 : Fin 2) * 256 + 1 * (y 0).val = (y 0).val; omega
  | ⟨1, _⟩ => show win6_2.index t (1 : Fin 2) * 256 + 1 * (y 1).val = (y 1).val; omega

/-- Input 3's block is its whole array at every point. -/
theorem blk_3 (c : Dev nD) (t : Fin cfg6.N) : iblk6 V c 3 t = V c main_v92 := by
  funext y
  show V c main_v92 (((cfg6.win 3).blk t).view.emb y) = V c main_v92 y
  refine congrArg (V c main_v92) ?_
  funext a; apply Fin.ext
  obtain ⟨e0, e1, e2, e3, e4, e5, e6, e7, e8, e9, e10, e11⟩ := idx t
  match a with
  | ⟨0, _⟩ => show win6_3.index t (0 : Fin 2) * 256 + 1 * (y 0).val = (y 0).val; omega
  | ⟨1, _⟩ => show win6_3.index t (1 : Fin 2) * 256 + 1 * (y 1).val = (y 1).val; omega

/-- Input 4's block is its whole array at every point. -/
theorem blk_4 (c : Dev nD) (t : Fin cfg6.N) : iblk6 V c 4 t = V c main_v95 := by
  funext y
  show V c main_v95 (((cfg6.win 4).blk t).view.emb y) = V c main_v95 y
  refine congrArg (V c main_v95) ?_
  funext a; apply Fin.ext
  obtain ⟨e0, e1, e2, e3, e4, e5, e6, e7, e8, e9, e10, e11⟩ := idx t
  match a with
  | ⟨0, _⟩ => show win6_4.index t (0 : Fin 2) * 1 + 1 * (y 0).val = (y 0).val; omega
  | ⟨1, _⟩ => show win6_4.index t (1 : Fin 2) * 256 + 1 * (y 1).val = (y 1).val; omega

/-- What point t writes back is block t of the layer of the whole arrays. -/
theorem flushed (c : Dev nD) (t : Fin cfg6.N) :
    (dat6 V c).flushed 5 t = ((cfg6.win 5).blk t).view.read (Elt Ideal) (dualPlain (V c main_v93) (V c main_v94) (V c main_v91) (V c main_v92) (V c main_v95)) := by
  show (cfg6.win 5).cut (grid6.coords t) ((dat6 V c).after 5 t) = _
  rw [after6_5]
  unfold out6_5
  rw [View.canon_unit_zero hz2]
  simp only [View.ld_unit_zero (S := S4096x256) hz2, View.ld_unit_zero (S := S256x256) hz2, View.ld_unit_zero (S := S1x256) hz2]
  funext y
  show k6_pay1 (iblk6 V c 0 t) (iblk6 V c 1 t) (iblk6 V c 2 t) (iblk6 V c 3 t) (iblk6 V c 4 t) y = dualPlain (V c main_v93) (V c main_v94) (V c main_v91) (V c main_v92) (V c main_v95) (((cfg6.win 5).blk t).view.emb y)
  refine (congrFun (pay6 (iblk6 V c 0 t) (iblk6 V c 1 t) (iblk6 V c 2 t) (iblk6 V c 3 t) (iblk6 V c 4 t)) y).trans ?_
  rw [blk_0 V c t, blk_1 V c t, blk_2 V c t, blk_3 V c t, blk_4 V c t]
  refine (congrFun (rowsAt_dualPlain (4096 * t.val) 4096 (hb t) (V c main_v93) (V c main_v94) (V c main_v91) (V c main_v92) (V c main_v95)) y).symm.trans ?_
  refine congrArg (dualPlain (V c main_v93) (V c main_v94) (V c main_v91) (V c main_v92) (V c main_v95)) ?_
  funext a; apply Fin.ext
  obtain ⟨e0, e1, e2, e3, e4, e5, e6, e7, e8, e9, e10, e11⟩ := idx t
  match a with
  | ⟨0, _⟩ => show 4096 * t.val + (y 0).val = win6_5.index t (0 : Fin 2) * 4096 + 1 * (y 0).val; omega
  | ⟨1, _⟩ => show (y 1).val = win6_5.index t (1 : Fin 2) * 256 + 1 * (y 1).val; omega

/-- An index of the output array is in point t's block iff each coordinate is in the block's range. -/
theorem mem_blk (t : Fin cfg6.N) (i : S73728x256.Idx) :
    i ∈ ((cfg6.win 5).blk t).view.set ↔ ∀ a : Fin 2, win6_5.index t a * S4096x256.size a ≤ (i a).val ∧ (i a).val < win6_5.index t a * S4096x256.size a + S4096x256.size a := by
  show i ∈ ((View.whole main_v96).slice (win6_5.rect t)).set ↔ _
  rw [View.set_slice_whole, Rect.mem_set_unit]
  exact Iff.rfl

/-- The blocks tile the output array: row r is in block r / 4096. -/
theorem cover (i : S73728x256.Idx) :
    ∃ t : Fin cfg6.N, (cfg6.win 5).flush t = true ∧ i ∈ ((cfg6.win 5).blk t).view.set := by
  have hi0 : (i 0).val < 73728 := (i 0).isLt
  have hi1 : (i 1).val < 256 := (i 1).isLt
  have hN : cfg6.N = 18 := N_6
  have hlt : (i 0).val / 4096 < cfg6.N := by rw [hN]; omega
  obtain ⟨t, ht⟩ : ∃ t : Fin cfg6.N, t.val = (i 0).val / 4096 := ⟨⟨_, hlt⟩, rfl⟩
  refine ⟨t, flush6_5 t, ?_⟩
  rw [mem_blk]
  obtain ⟨e0, e1, e2, e3, e4, e5, e6, e7, e8, e9, e10, e11⟩ := idx t
  intro a
  match a with
  | ⟨0, _⟩ =>
    show win6_5.index t (0 : Fin 2) * 4096 ≤ (i 0).val ∧ (i 0).val < win6_5.index t (0 : Fin 2) * 4096 + 4096
    omega
  | ⟨1, _⟩ =>
    show win6_5.index t (1 : Fin 2) * 256 ≤ (i 1).val ∧ (i 1).val < win6_5.index t (1 : Fin 2) * 256 + 256
    omega

/-- The output array after the call: the layer of the arrays the call was entered with. -/
theorem value (c : Dev nD) : (dat6 V c).arrAt 5 cfg6.N = dualPlain (V c main_v93) (V c main_v94) (V c main_v91) (V c main_v92) (V c main_v95) :=
  (dat6 V c).arrAt_eq_of_cover 5 _ (fun t _ => flushed V c t) cover

end Cert.KernelIdeal.Reg6

end
-- ==== Proof.Reg7.lean ====
/-
  Kernel call 7 of the program: what its output array holds when the call has run.

  The call cuts its [32768, 256] inputs into 8 blocks of 4096 rows, keeps the weights and the bias row whole, and at
  block t stores the sum of two products plus a bias row of that block. The layer acts row by row, so what point t writes back is
  block t of the layer of the whole arrays; the 8 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg7

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Block t lies inside the 32768 rows. -/
theorem hb (t : Fin cfg7.N) : 4096 * t.val + 4096 ≤ 32768 := by
  have h : t.val < 8 := lt_of_lt_of_eq t.isLt N_7
  omega

/-- Block t of input 0 is rows 4096 t, …, 4096 t + 4095 of its array. -/
theorem blk_0 (c : Dev nD) (t : Fin cfg7.N) :
    iblk7 V c 0 t = rowsAt (P := 32768) (N := 256) (α := EReal) (4096 * t.val) 4096 (hb t) (V c main_v98) := by
  funext y
  show V c main_v98 (((cfg7.win 0).blk t).view.emb y) = V c main_v98 (ix2 ⟨4096 * t.val + (y 0).val, _⟩ (y 1))
  refine congrArg (V c main_v98) ?_
  funext a; apply Fin.ext
  obtain ⟨e0, e1, e2, e3, e4, e5, e6, e7, e8, e9, e10, e11⟩ := idx t
  match a with
  | ⟨0, _⟩ => show win7_0.index t (0 : Fin 2) * 4096 + 1 * (y 0).val = 4096 * t.val + (y 0).val; omega
  | ⟨1, _⟩ => show win7_0.index t (1 : Fin 2) * 256 + 1 * (y 1).val = (y 1).val; omega

/-- Block t of input 1 is rows 4096 t, …, 4096 t + 4095 of its array. -/
theorem blk_1 (c : Dev nD) (t : Fin cfg7.N) :
    iblk7 V c 1 t = rowsAt (P := 32768) (N := 256) (α := EReal) (4096 * t.val) 4096 (hb t) (V c main_v99) := by
  funext y
  show V c main_v99 (((cfg7.win 1).blk t).view.emb y) = V c main_v99 (ix2 ⟨4096 * t.val + (y 0).val, _⟩ (y 1))
  refine congrArg (V c main_v99) ?_
  funext a; apply Fin.ext
  obtain ⟨e0, e1, e2, e3, e4, e5, e6, e7, e8, e9, e10, e11⟩ := idx t
  match a with
  | ⟨0, _⟩ => show win7_1.index t (0 : Fin 2) * 4096 + 1 * (y 0).val = 4096 * t.val + (y 0).val; omega
  | ⟨1, _⟩ => show win7_1.index t (1 : Fin 2) * 256 + 1 * (y 1).val = (y 1).val; omega

/-- Input 2's block is its whole array at every point. -/
theorem blk_2 (c : Dev nD) (t : Fin cfg7.N) : iblk7 V c 2 t = V c main_v91 := by
  funext y
  show V c main_v91 (((cfg7.win 2).blk t).view.emb y) = V c main_v91 y
  refine congrArg (V c main_v91) ?_
  funext a; apply Fin.ext
  obtain ⟨e0, e1, e2, e3, e4, e5, e6, e7, e8, e9, e10, e11⟩ := idx t
  match a with
  | ⟨0, _⟩ => show win7_2.index t (0 : Fin 2) * 256 + 1 * (y 0).val = (y 0).val; omega
  | ⟨1, _⟩ => show win7_2.index t (1 : Fin 2) * 256 + 1 * (y 1).val = (y 1).val; omega

/-- Input 3's block is its whole array at every point. -/
theorem blk_3 (c : Dev nD) (t : Fin cfg7.N) : iblk7 V c 3 t = V c main_v92 := by
  funext y
  show V c main_v92 (((cfg7.win 3).blk t).view.emb y) = V c main_v92 y
  refine congrArg (V c main_v92) ?_
  funext a; apply Fin.ext
  obtain ⟨e0, e1, e2, e3, e4, e5, e6, e7, e8, e9, e10, e11⟩ := idx t
  match a with
  | ⟨0, _⟩ => show win7_3.index t (0 : Fin 2) * 256 + 1 * (y 0).val = (y 0).val; omega
  | ⟨1, _⟩ => show win7_3.index t (1 : Fin 2) * 256 + 1 * (y 1).val = (y 1).val; omega

/-- Input 4's block is its whole array at every point. -/
theorem blk_4 (c : Dev nD) (t : Fin cfg7.N) : iblk7 V c 4 t = V c main_v100 := by
  funext y
  show V c main_v100 (((cfg7.win 4).blk t).view.emb y) = V c main_v100 y
  refine congrArg (V c main_v100) ?_
  funext a; apply Fin.ext
  obtain ⟨e0, e1, e2, e3, e4, e5, e6, e7, e8, e9, e10, e11⟩ := idx t
  match a with
  | ⟨0, _⟩ => show win7_4.index t (0 : Fin 2) * 1 + 1 * (y 0).val = (y 0).val; omega
  | ⟨1, _⟩ => show win7_4.index t (1 : Fin 2) * 256 + 1 * (y 1).val = (y 1).val; omega

/-- What point t writes back is block t of the layer of the whole arrays. -/
theorem flushed (c : Dev nD) (t : Fin cfg7.N) :
    (dat7 V c).flushed 5 t = ((cfg7.win 5).blk t).view.read (Elt Ideal) (dualPlain (V c main_v98) (V c main_v99) (V c main_v91) (V c main_v92) (V c main_v100)) := by
  show (cfg7.win 5).cut (grid7.coords t) ((dat7 V c).after 5 t) = _
  rw [after7_5]
  unfold out7_5
  rw [View.canon_unit_zero hz2]
  simp only [View.ld_unit_zero (S := S4096x256) hz2, View.ld_unit_zero (S := S256x256) hz2, View.ld_unit_zero (S := S1x256) hz2]
  funext y
  show k7_pay1 (iblk7 V c 0 t) (iblk7 V c 1 t) (iblk7 V c 2 t) (iblk7 V c 3 t) (iblk7 V c 4 t) y = dualPlain (V c main_v98) (V c main_v99) (V c main_v91) (V c main_v92) (V c main_v100) (((cfg7.win 5).blk t).view.emb y)
  refine (congrFun (pay7 (iblk7 V c 0 t) (iblk7 V c 1 t) (iblk7 V c 2 t) (iblk7 V c 3 t) (iblk7 V c 4 t)) y).trans ?_
  rw [blk_0 V c t, blk_1 V c t, blk_2 V c t, blk_3 V c t, blk_4 V c t]
  refine (congrFun (rowsAt_dualPlain (4096 * t.val) 4096 (hb t) (V c main_v98) (V c main_v99) (V c main_v91) (V c main_v92) (V c main_v100)) y).symm.trans ?_
  refine congrArg (dualPlain (V c main_v98) (V c main_v99) (V c main_v91) (V c main_v92) (V c main_v100)) ?_
  funext a; apply Fin.ext
  obtain ⟨e0, e1, e2, e3, e4, e5, e6, e7, e8, e9, e10, e11⟩ := idx t
  match a with
  | ⟨0, _⟩ => show 4096 * t.val + (y 0).val = win7_5.index t (0 : Fin 2) * 4096 + 1 * (y 0).val; omega
  | ⟨1, _⟩ => show (y 1).val = win7_5.index t (1 : Fin 2) * 256 + 1 * (y 1).val; omega

/-- An index of the output array is in point t's block iff each coordinate is in the block's range. -/
theorem mem_blk (t : Fin cfg7.N) (i : S32768x256.Idx) :
    i ∈ ((cfg7.win 5).blk t).view.set ↔ ∀ a : Fin 2, win7_5.index t a * S4096x256.size a ≤ (i a).val ∧ (i a).val < win7_5.index t a * S4096x256.size a + S4096x256.size a := by
  show i ∈ ((View.whole main_v101).slice (win7_5.rect t)).set ↔ _
  rw [View.set_slice_whole, Rect.mem_set_unit]
  exact Iff.rfl

/-- The blocks tile the output array: row r is in block r / 4096. -/
theorem cover (i : S32768x256.Idx) :
    ∃ t : Fin cfg7.N, (cfg7.win 5).flush t = true ∧ i ∈ ((cfg7.win 5).blk t).view.set := by
  have hi0 : (i 0).val < 32768 := (i 0).isLt
  have hi1 : (i 1).val < 256 := (i 1).isLt
  have hN : cfg7.N = 8 := N_7
  have hlt : (i 0).val / 4096 < cfg7.N := by rw [hN]; omega
  obtain ⟨t, ht⟩ : ∃ t : Fin cfg7.N, t.val = (i 0).val / 4096 := ⟨⟨_, hlt⟩, rfl⟩
  refine ⟨t, flush7_5 t, ?_⟩
  rw [mem_blk]
  obtain ⟨e0, e1, e2, e3, e4, e5, e6, e7, e8, e9, e10, e11⟩ := idx t
  intro a
  match a with
  | ⟨0, _⟩ =>
    show win7_5.index t (0 : Fin 2) * 4096 ≤ (i 0).val ∧ (i 0).val < win7_5.index t (0 : Fin 2) * 4096 + 4096
    omega
  | ⟨1, _⟩ =>
    show win7_5.index t (1 : Fin 2) * 256 ≤ (i 1).val ∧ (i 1).val < win7_5.index t (1 : Fin 2) * 256 + 256
    omega

/-- The output array after the call: the layer of the arrays the call was entered with. -/
theorem value (c : Dev nD) : (dat7 V c).arrAt 5 cfg7.N = dualPlain (V c main_v98) (V c main_v99) (V c main_v91) (V c main_v92) (V c main_v100) :=
  (dat7 V c).arrAt_eq_of_cover 5 _ (fun t _ => flushed V c t) cover

end Cert.KernelIdeal.Reg7

end
-- ==== Proof.HostLayers.lean ====
/-
  The two printed forms of each dense layer.

  On the host a layer is a dot product, a bias vector broadcast twice and added, and a maximum with a splat zero or a
  select between the entry and its scaled copy; a layer with two inputs first lays the two [M, K] inputs side by
  side as one [M, 2K] array and multiplies by the whole [2K, N] weight. Around a kernel call the input is padded with
  rows below to a whole number of blocks, the layer is computed on the padded rows, and the padding rows are cut off
  again. Both are the layer functions of Layers.lean: the first by the product's and the bias's two printed forms
  and by splitting the contraction at the seam of the two column blocks; the second because a layer acts row by row.
-/
import proofs.«116214_j36043365548318_1_alg».proof.Proof.Layers

noncomputable section

namespace Cert.HostLayers

open Idealize.ShloMosaic Idealize.ShloMosaic.ValueIdx Idealize.ShloMosaic.Pipeline Cert.Rows Cert.Gcn Cert.Layers

variable {M K N : ℕ}

/-! ## The host's activations -/

/-- The host's leaky rectifier: a select on "not below a splat zero" between the entry and the splat slope times the entry. -/
theorem host_leaky {t : Shape} (d0 : Fin 0 → Fin t.rank) (h0 : (⟨0, ![]⟩ : Shape).BroadcastsInDim t d0) (A : FVec Ideal t .f32) :
    select (cmpf (F := Ideal) .oge A (broadcastInDim t d0 h0 (constant (F := Ideal) (⟨0, ![]⟩ : Shape) .f32 0x00000000#32))) A
        (mulf (F := Ideal) (broadcastInDim t d0 h0 (constant (F := Ideal) (⟨0, ![]⟩ : Shape) .f32 0x3C23D70A#32)) A)
      = mapE leaky A := by
  funext j
  exact leaky_ge _

/-- The host's rectifier: the maximum with a splat zero. -/
theorem host_max {t : Shape} (d0 : Fin 0 → Fin t.rank) (h0 : (⟨0, ![]⟩ : Shape).BroadcastsInDim t d0) (A : FVec Ideal t .f32) :
    maximumf (F := Ideal) A (broadcastInDim t d0 h0 (constant (F := Ideal) (⟨0, ![]⟩ : Shape) .f32 0x00000000#32)) = relu A := rfl

/-! ## One product and a bias -/

theorem host_linPlain (X : FVec Ideal (⟨2, ![M, K]⟩ : Shape) .f32) (W : FVec Ideal (⟨2, ![K, N]⟩ : Shape) .f32)
    (b : FVec Ideal (⟨1, ![N]⟩ : Shape) .f32)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩) :
    addf (F := Ideal) (Host.dotGeneral (DotDims.plain M K N) none X W)
        (broadcastInDim (⟨2, ![M, N]⟩ : Shape) d2 h2 (broadcastInDim (⟨2, ![1, N]⟩ : Shape) d1 h1 b))
      = linPlain X W (shapeCast (⟨2, ![1, N]⟩ : Shape) b hc) := by
  rw [dotGeneral_eq_mm]
  exact host_plain b d1 hd1 h1 d2 hd2 h2 hc (mm X W)

/-! ## Two inputs side by side against one weight -/

/-- The product of two inputs laid side by side with a [K1 + K2, N] weight, plus a bias, is the two-product layer
    with the weight's first K1 and last K2 rows. -/
theorem host_dualPlain {K1 K2 : ℕ} (A : FVec Ideal (⟨2, ![M, K1]⟩ : Shape) .f32) (B : FVec Ideal (⟨2, ![M, K2]⟩ : Shape) .f32)
    (W : FVec Ideal (⟨2, ![K1 + K2, N]⟩ : Shape) .f32) (b : FVec Ideal (⟨1, ![N]⟩ : Shape) .f32)
    (hcat : Shape.Concatenates [(⟨2, ![M, K1]⟩ : Shape), ⟨2, ![M, K2]⟩] ⟨2, ![M, K1 + K2]⟩ 1)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩) :
    addf (F := Ideal) (Host.dotGeneral (DotDims.plain M (K1 + K2) N) none
          (concatenate (⟨2, ![M, K1 + K2]⟩ : Shape) 1 [⟨_, A⟩, ⟨_, B⟩] hcat) W)
        (broadcastInDim (⟨2, ![M, N]⟩ : Shape) d2 h2 (broadcastInDim (⟨2, ![1, N]⟩ : Shape) d1 h1 b))
      = dualPlain A B (rowsAt 0 K1 (by omega) W) (rowsAt K1 K2 (le_refl _) W) (shapeCast (⟨2, ![1, N]⟩ : Shape) b hc) := by
  rw [dotGeneral_eq_mm, mm_cols A B _ W (fun r k => concat_cols_left A B hcat r k) (fun r k => concat_cols_right A B hcat r k)]
  exact host_plain b d1 hd1 h1 d2 hd2 h2 hc _

/-- A one-product layer of an array whose columns are those of A and then those of B is the two-product layer with the
    weight's first K1 and last K2 rows. -/
theorem linPlain_cols {K1 K2 : ℕ} (A : (⟨2, ![M, K1]⟩ : Shape).Idx → EReal) (B : (⟨2, ![M, K2]⟩ : Shape).Idx → EReal)
    (C : (⟨2, ![M, K1 + K2]⟩ : Shape).Idx → EReal) (W : (⟨2, ![K1 + K2, N]⟩ : Shape).Idx → EReal)
    (b : (⟨2, ![1, N]⟩ : Shape).Idx → EReal)
    (hA : ∀ (r : Fin M) (k : Fin K1), C (ix2 r ⟨k.val, by omega⟩) = A (ix2 r k))
    (hB : ∀ (r : Fin M) (k : Fin K2), C (ix2 r ⟨K1 + k.val, by omega⟩) = B (ix2 r k)) :
    linPlain C W b = dualPlain A B (rowsAt 0 K1 (by omega) W) (rowsAt K1 K2 (le_refl _) W) b := by
  unfold linPlain dualPlain
  rw [mm_cols A B C W hA hB]

/-! ## Around a kernel call: pad, layer, cut -/

theorem cut_linPlain {P R : ℕ} (hi : Fin 2 → ℕ) (X : (⟨2, ![R, K]⟩ : Shape).Idx → EReal) {u : Shape} (v : u.Idx → EReal)
    (hp : (⟨2, ![R, K]⟩ : Shape).Pads ![0, 0] hi ![0, 0] ⟨2, ![P, K]⟩) (hu : 0 < u.numel)
    (W : (⟨2, ![K, N]⟩ : Shape).Idx → EReal) (b : (⟨2, ![1, N]⟩ : Shape).Idx → EReal)
    (hs : (⟨2, ![P, N]⟩ : Shape).Slices ![0, 0] ⟨2, ![R, N]⟩) (hb : 0 + R ≤ P) :
    extractStridedSlice (⟨2, ![R, N]⟩ : Shape) ![0, 0] (linPlain (pad (⟨2, ![P, K]⟩ : Shape) ![0, 0] hi ![0, 0] X v hp hu) W b) hs
      = linPlain X W b := by
  rw [slice_rows 0 _ hs hb, rowsAt_linPlain, rows_pad]

theorem cut_linLeaky {P R : ℕ} (hi : Fin 2 → ℕ) (X : (⟨2, ![R, K]⟩ : Shape).Idx → EReal) {u : Shape} (v : u.Idx → EReal)
    (hp : (⟨2, ![R, K]⟩ : Shape).Pads ![0, 0] hi ![0, 0] ⟨2, ![P, K]⟩) (hu : 0 < u.numel)
    (W : (⟨2, ![K, N]⟩ : Shape).Idx → EReal) (b : (⟨2, ![1, N]⟩ : Shape).Idx → EReal)
    (hs : (⟨2, ![P, N]⟩ : Shape).Slices ![0, 0] ⟨2, ![R, N]⟩) (hb : 0 + R ≤ P) :
    extractStridedSlice (⟨2, ![R, N]⟩ : Shape) ![0, 0] (linLeaky (pad (⟨2, ![P, K]⟩ : Shape) ![0, 0] hi ![0, 0] X v hp hu) W b) hs
      = linLeaky X W b := by
  rw [slice_rows 0 _ hs hb, rowsAt_linLeaky, rows_pad]

theorem cut_dualPlain {P R : ℕ} (hi : Fin 2 → ℕ) (A B : (⟨2, ![R, K]⟩ : Shape).Idx → EReal) {u u' : Shape} (v : u.Idx → EReal) (v' : u'.Idx → EReal)
    (hp : (⟨2, ![R, K]⟩ : Shape).Pads ![0, 0] hi ![0, 0] ⟨2, ![P, K]⟩) (hu : 0 < u.numel) (hu' : 0 < u'.numel)
    (Wa Wb : (⟨2, ![K, N]⟩ : Shape).Idx → EReal) (b : (⟨2, ![1, N]⟩ : Shape).Idx → EReal)
    (hs : (⟨2, ![P, N]⟩ : Shape).Slices ![0, 0] ⟨2, ![R, N]⟩) (hb : 0 + R ≤ P) :
    extractStridedSlice (⟨2, ![R, N]⟩ : Shape) ![0, 0]
        (dualPlain (pad (⟨2, ![P, K]⟩ : Shape) ![0, 0] hi ![0, 0] A v hp hu) (pad (⟨2, ![P, K]⟩ : Shape) ![0, 0] hi ![0, 0] B v' hp hu') Wa Wb b) hs
      = dualPlain A B Wa Wb b := by
  rw [slice_rows 0 _ hs hb, rowsAt_dualPlain, rows_pad, rows_pad]

theorem cut_dualRelu {P R : ℕ} (hi : Fin 2 → ℕ) (A B : (⟨2, ![R, K]⟩ : Shape).Idx → EReal) {u u' : Shape} (v : u.Idx → EReal) (v' : u'.Idx → EReal)
    (hp : (⟨2, ![R, K]⟩ : Shape).Pads ![0, 0] hi ![0, 0] ⟨2, ![P, K]⟩) (hu : 0 < u.numel) (hu' : 0 < u'.numel)
    (Wa Wb : (⟨2, ![K, N]⟩ : Shape).Idx → EReal) (b : (⟨2, ![1, N]⟩ : Shape).Idx → EReal)
    (hs : (⟨2, ![P, N]⟩ : Shape).Slices ![0, 0] ⟨2, ![R, N]⟩) (hb : 0 + R ≤ P) :
    extractStridedSlice (⟨2, ![R, N]⟩ : Shape) ![0, 0]
        (dualRelu (pad (⟨2, ![P, K]⟩ : Shape) ![0, 0] hi ![0, 0] A v hp hu) (pad (⟨2, ![P, K]⟩ : Shape) ![0, 0] hi ![0, 0] B v' hp hu') Wa Wb b) hs
      = dualRelu A B Wa Wb b := by
  rw [slice_rows 0 _ hs hb, rowsAt_dualRelu, rows_pad, rows_pad]

theorem cut_triOut {P R : ℕ} (hi : Fin 2 → ℕ) (A B C : (⟨2, ![R, K]⟩ : Shape).Idx → EReal) {u u' u'' : Shape}
    (v : u.Idx → EReal) (v' : u'.Idx → EReal) (v'' : u''.Idx → EReal)
    (hp : (⟨2, ![R, K]⟩ : Shape).Pads ![0, 0] hi ![0, 0] ⟨2, ![P, K]⟩) (hu : 0 < u.numel) (hu' : 0 < u'.numel) (hu'' : 0 < u''.numel)
    (W : (⟨2, ![K, N]⟩ : Shape).Idx → EReal) (b : (⟨2, ![1, N]⟩ : Shape).Idx → EReal)
    (hs : (⟨2, ![P, N]⟩ : Shape).Slices ![0, 0] ⟨2, ![R, N]⟩) (hb : 0 + R ≤ P) :
    extractStridedSlice (⟨2, ![R, N]⟩ : Shape) ![0, 0]
        (triOut (pad (⟨2, ![P, K]⟩ : Shape) ![0, 0] hi ![0, 0] A v hp hu) (pad (⟨2, ![P, K]⟩ : Shape) ![0, 0] hi ![0, 0] B v' hp hu')
          (pad (⟨2, ![P, K]⟩ : Shape) ![0, 0] hi ![0, 0] C v'' hp hu'') W b) hs
      = triOut A B C W b := by
  rw [slice_rows 0 _ hs hb, rowsAt_triOut, rows_pad, rows_pad, rows_pad]

/-! ## Rows of two arrays one above the other -/

/-- A one-product layer of two row blocks one above the other is the two layers one above the other. -/
theorem linPlain_rows {M1 M2 : ℕ} (X : (⟨2, ![M1, K]⟩ : Shape).Idx → EReal) (Y : (⟨2, ![M2, K]⟩ : Shape).Idx → EReal)
    (W : (⟨2, ![K, N]⟩ : Shape).Idx → EReal) (b : (⟨2, ![1, N]⟩ : Shape).Idx → EReal)
    (hx : Shape.Concatenates [(⟨2, ![M1, K]⟩ : Shape), ⟨2, ![M2, K]⟩] ⟨2, ![M1 + M2, K]⟩ 0)
    (hy : Shape.Concatenates [(⟨2, ![M1, N]⟩ : Shape), ⟨2, ![M2, N]⟩] ⟨2, ![M1 + M2, N]⟩ 0) :
    linPlain (concatenate (⟨2, ![M1 + M2, K]⟩ : Shape) 0 [⟨_, X⟩, ⟨_, Y⟩] hx) W b
      = concatenate (⟨2, ![M1 + M2, N]⟩ : Shape) 0 [⟨_, linPlain X W b⟩, ⟨_, linPlain Y W b⟩] hy := by
  funext i
  obtain ⟨r, c, rfl⟩ : ∃ (r : Fin (M1 + M2)) (c : Fin N), i = ix2 r c := ⟨i 0, i 1, eq_ix2 i⟩
  by_cases h : r.val < M1
  · have er : r = ⟨(⟨r.val, h⟩ : Fin M1).val, by omega⟩ := rfl
    rw [er, concat_rows_top _ _ hy ⟨r.val, h⟩ c]
    show (∑ k : Fin K, concatenate _ 0 [⟨_, X⟩, ⟨_, Y⟩] hx (ix2 ⟨r.val, _⟩ k) * W (ix2 k c)) + b (ix2 0 c)
      = (∑ k : Fin K, X (ix2 ⟨r.val, h⟩ k) * W (ix2 k c)) + b (ix2 0 c)
    congr 1
    refine Finset.sum_congr rfl fun k _ => ?_
    rw [show (⟨r.val, r.isLt⟩ : Fin (M1 + M2)) = ⟨(⟨r.val, h⟩ : Fin M1).val, by omega⟩ from rfl, concat_rows_top X Y hx ⟨r.val, h⟩ k]
  · have h2 : r.val - M1 < M2 := by have := r.isLt; omega
    have er : r = ⟨M1 + (⟨r.val - M1, h2⟩ : Fin M2).val, by have := r.isLt; simp; omega⟩ := Fin.ext (by simp; omega)
    rw [er, concat_rows_bottom _ _ hy ⟨r.val - M1, h2⟩ c]
    show (∑ k : Fin K, concatenate _ 0 [⟨_, X⟩, ⟨_, Y⟩] hx (ix2 ⟨M1 + (r.val - M1), _⟩ k) * W (ix2 k c)) + b (ix2 0 c)
      = (∑ k : Fin K, Y (ix2 ⟨r.val - M1, h2⟩ k) * W (ix2 k c)) + b (ix2 0 c)
    congr 1
    refine Finset.sum_congr rfl fun k _ => ?_
    rw [concat_rows_bottom X Y hx ⟨r.val - M1, h2⟩ k]

end Cert.HostLayers

end
-- ==== Proof.KerChain0.lean ====
/-
  The kernel's values through the stem and relation 0.

  The buffer contents at the boundaries of the kernel's run are followed from the launch to the end of relation 0: at each
  boundary, each buffer that is read later holds a closed term of the launch arguments — a stage of the network. A stretch of
  host operations is read by its stage lemma at the contents of the previous boundary; a kernel region leaves in its output
  array the layer of its input arrays; a layer of rows padded below, with the padding cut off again, is the layer of the rows;
  and a buffer written at one boundary and read several boundaries later is carried unchanged, no segment in between writing a
  reference numbered that low. The last lemma: after relation 0 the block buffer holds the network's block of the stem.
-/
import proofs.«116214_j36043365548318_1_alg».proof.Proof.Gen.KernelIdeal.Frame
import proofs.«116214_j36043365548318_1_alg».proof.Proof.KerRange
import proofs.«116214_j36043365548318_1_alg».proof.Proof.KerStretch0
import proofs.«116214_j36043365548318_1_alg».proof.Proof.Reg0
import proofs.«116214_j36043365548318_1_alg».proof.Proof.Reg1
import proofs.«116214_j36043365548318_1_alg».proof.Proof.Reg2
import proofs.«116214_j36043365548318_1_alg».proof.Proof.Reg3
import proofs.«116214_j36043365548318_1_alg».proof.Proof.Reg4
import proofs.«116214_j36043365548318_1_alg».proof.Proof.Reg5
import proofs.«116214_j36043365548318_1_alg».proof.Proof.Reg6
import proofs.«116214_j36043365548318_1_alg».proof.Proof.Reg7
import proofs.«116214_j36043365548318_1_alg».proof.Proof.HostLayers
import proofs.«116214_j36043365548318_1_alg».proof.Proof.Stages

set_option maxRecDepth 16384

noncomputable section

namespace Cert.KernelIdeal.KerChain

open Idealize.ShloMosaic Idealize.ShloMosaic.TcCoe
open Cert.KernelIdeal.Gen Cert.KernelIdeal.KerKeeps Cert.KernelIdeal.KerStretch
open Cert.Layers Cert.HostLayers
open Cert.ReferenceIdeal.Stages (re row top bot stem kept0 isol0 cheb0 chebR0 conv1_0 conv2_0 mlp1_0 mlp2_0 block0)

variable (m : (ℓ : Loc nD τ sig) → Buf (Elt Ideal) ℓ) (ρ : Dev nD → PrngReg) (c : Dev nD)

/-! ## The launch arguments, each at its tensor type, and the stages in them -/

abbrev a0 : FVec Ideal S100000x256 .f32 := m ((c : Thread nD τ).loc main_arg0)
abbrev a1 : IVec S69785 32 := m ((c : Thread nD τ).loc main_arg1)
abbrev a2 : IVec S30215 32 := m ((c : Thread nD τ).loc main_arg2)
abbrev a3 : IVec S279168 32 := m ((c : Thread nD τ).loc main_arg3)
abbrev a4 : IVec S279168 32 := m ((c : Thread nD τ).loc main_arg4)
abbrev a5 : FVec Ideal S69785 .f32 := m ((c : Thread nD τ).loc main_arg5)
abbrev a6 : FVec Ideal S_ .f32 := m ((c : Thread nD τ).loc main_arg6)
abbrev a19 : FVec Ideal S256x256 .f32 := m ((c : Thread nD τ).loc main_arg19)
abbrev a20 : FVec Ideal S256 .f32 := m ((c : Thread nD τ).loc main_arg20)
abbrev a21 : FVec Ideal S256x256 .f32 := m ((c : Thread nD τ).loc main_arg21)
abbrev a22 : FVec Ideal S256 .f32 := m ((c : Thread nD τ).loc main_arg22)
abbrev a23 : FVec Ideal S256x256 .f32 := m ((c : Thread nD τ).loc main_arg23)
abbrev a24 : FVec Ideal S256 .f32 := m ((c : Thread nD τ).loc main_arg24)
abbrev a25 : FVec Ideal S256x256 .f32 := m ((c : Thread nD τ).loc main_arg25)
abbrev a26 : FVec Ideal S256 .f32 := m ((c : Thread nD τ).loc main_arg26)
abbrev a27 : FVec Ideal S512x256 .f32 := m ((c : Thread nD τ).loc main_arg27)
abbrev a28 : FVec Ideal S256 .f32 := m ((c : Thread nD τ).loc main_arg28)
abbrev a29 : FVec Ideal S512x256 .f32 := m ((c : Thread nD τ).loc main_arg29)
abbrev a30 : FVec Ideal S256 .f32 := m ((c : Thread nD τ).loc main_arg30)
abbrev a31 : FVec Ideal S512x256 .f32 := m ((c : Thread nD τ).loc main_arg31)
abbrev a32 : FVec Ideal S256 .f32 := m ((c : Thread nD τ).loc main_arg32)

/-- The value every padding is filled with: the integer zero as a float. -/
abbrev zpad : FVec Ideal S_ .f32 := sitofp (F := Ideal) .f32 (constantI S_ 32 0#32 : IVec S_ 32)

/-- The node features after the stem. -/
abbrev Hs : FVec Ideal S100000x256 .f32 := stem (a0 m c) (a19 m c) (a20 m c) (a21 m c) (a22 m c)
/-- The kept and the isolated nodes' rows of the features. -/
abbrev Ks : FVec Ideal S69785x256 .f32 := kept0 (Hs m c) (a1 m c)
abbrev Is : FVec Ideal S30215x256 .f32 := isol0 (Hs m c) (a2 m c)
/-- The two graph-convolution layers on the kept nodes and the two plain layers on the isolated nodes. -/
abbrev C1s : FVec Ideal S69785x256 .f32 := conv1_0 (Hs m c) (a1 m c) (a3 m c) (a4 m c) (a5 m c) (a6 m c) (a27 m c) (a28 m c)
abbrev C2s : FVec Ideal S69785x256 .f32 := conv2_0 (Hs m c) (a1 m c) (a3 m c) (a4 m c) (a5 m c) (a6 m c) (a27 m c) (a28 m c) (a29 m c) (a30 m c)
abbrev M1s : FVec Ideal S30215x256 .f32 := mlp1_0 (Hs m c) (a2 m c) (a23 m c) (a24 m c)
abbrev M2s : FVec Ideal S30215x256 .f32 := mlp2_0 (Hs m c) (a2 m c) (a23 m c) (a24 m c) (a25 m c) (a26 m c)

/-- An argument's buffer holds at every boundary what it held at launch: no segment writes a reference numbered below 35. -/
theorem arg_at (j : ℕ) (hj : j < 114) (b : Ref sig .tc) (hb : b.idx.val < 35) :
    Wf m ρ ⟨j, hj⟩ c (Proc.devRef .tc b) = m ((c : Thread nD τ).loc b) :=
  (carry m ρ c 0 j (Nat.zero_le _) hj b hb).trans rfl

/-! ## The stem -/

/-- The zero the first padding is filled from. -/
theorem c_at1 : W1 (F := Ideal) m ρ c (Proc.devRef .tc main_c) = constantI S_ 32 0#32 := by
  have h := hostOps0_c (W0 (F := Ideal) m ρ c)
  exact h

/-- The input rows padded. -/
theorem v0_at2 : W2 (F := Ideal) m ρ c (Proc.devRef .tc main_v0) = pad S102400x256 ![0, 0] ![2400, 0] ![0, 0] (a0 m c) zpad pads_S100000x256_S102400x256_024000_000 h_S_ := by
  have h := hostOps0_1_v0 (W1 (F := Ideal) m ρ c)
  rw [(show W1 (F := Ideal) m ρ c (Proc.devRef .tc main_arg0) = _ from arg_at m ρ c 1 (by decide) main_arg0 (by decide)),
    c_at1 m ρ c] at h
  exact h

theorem v0_at3 : W3 (F := Ideal) m ρ c (Proc.devRef .tc main_v0) = pad S102400x256 ![0, 0] ![2400, 0] ![0, 0] (a0 m c) zpad pads_S100000x256_S102400x256_024000_000 h_S_ :=
  (carry m ρ c 2 3 (by decide) (by decide) main_v0 (by decide)).trans (v0_at2 m ρ c)

/-- The first stem bias as a row. -/
theorem v1_at3 : W3 (F := Ideal) m ρ c (Proc.devRef .tc main_v1) = row (a20 m c) := by
  have h := hostOps0_2_v1 (W2 (F := Ideal) m ρ c)
  rw [(show W2 (F := Ideal) m ρ c (Proc.devRef .tc main_arg20) = _ from arg_at m ρ c 2 (by decide) main_arg20 (by decide))] at h
  exact h

/-- The first stem layer on the padded rows. -/
theorem v2_at4 : W4 (F := Ideal) m ρ c (Proc.devRef .tc main_v2) = linLeaky (pad S102400x256 ![0, 0] ![2400, 0] ![0, 0] (a0 m c) zpad pads_S100000x256_S102400x256_024000_000 h_S_) (a19 m c) (row (a20 m c)) := by
  have h := (W4_arr (F := Ideal) m ρ c 3).trans (Cert.KernelIdeal.Reg0.value (V3 (F := Ideal) m ρ) c)
  rw [(show V3 (F := Ideal) m ρ c main_v0 = _ from v0_at3 m ρ c),
    (show V3 (F := Ideal) m ρ c main_arg19 = _ from arg_at m ρ c 3 (by decide) main_arg19 (by decide)),
    (show V3 (F := Ideal) m ρ c main_v1 = _ from v1_at3 m ρ c)] at h
  exact h

/-- The first stem layer. -/
theorem v3_at5 : W5 (F := Ideal) m ρ c (Proc.devRef .tc main_v3) = linLeaky (a0 m c) (a19 m c) (row (a20 m c)) := by
  have h := hostOps1_v3 (W4 (F := Ideal) m ρ c)
  rw [v2_at4 m ρ c] at h
  exact h.trans (cut_linLeaky _ _ _ _ _ _ _ _ (by decide))

/-- The zero the next padding is filled from. -/
theorem c0_at5 : W5 (F := Ideal) m ρ c (Proc.devRef .tc main_c_0) = constantI S_ 32 0#32 := by
  have h := hostOps1_c_0 (W4 (F := Ideal) m ρ c)
  exact h

/-- The first stem layer's rows padded. -/
theorem v4_at6 : W6 (F := Ideal) m ρ c (Proc.devRef .tc main_v4) = pad S102400x256 ![0, 0] ![2400, 0] ![0, 0] (linLeaky (a0 m c) (a19 m c) (row (a20 m c))) zpad pads_S100000x256_S102400x256_024000_000 h_S_ := by
  have h := hostOps1_1_v4 (W5 (F := Ideal) m ρ c)
  rw [v3_at5 m ρ c,
    c0_at5 m ρ c] at h
  exact h

theorem v4_at7 : W7 (F := Ideal) m ρ c (Proc.devRef .tc main_v4) = pad S102400x256 ![0, 0] ![2400, 0] ![0, 0] (linLeaky (a0 m c) (a19 m c) (row (a20 m c))) zpad pads_S100000x256_S102400x256_024000_000 h_S_ :=
  (carry m ρ c 6 7 (by decide) (by decide) main_v4 (by decide)).trans (v4_at6 m ρ c)

/-- The second stem bias as a row. -/
theorem v5_at7 : W7 (F := Ideal) m ρ c (Proc.devRef .tc main_v5) = row (a22 m c) := by
  have h := hostOps1_2_v5 (W6 (F := Ideal) m ρ c)
  rw [(show W6 (F := Ideal) m ρ c (Proc.devRef .tc main_arg22) = _ from arg_at m ρ c 6 (by decide) main_arg22 (by decide))] at h
  exact h

/-- The second stem layer on the padded rows. -/
theorem v6_at8 : W8 (F := Ideal) m ρ c (Proc.devRef .tc main_v6) = linLeaky (pad S102400x256 ![0, 0] ![2400, 0] ![0, 0] (linLeaky (a0 m c) (a19 m c) (row (a20 m c))) zpad pads_S100000x256_S102400x256_024000_000 h_S_) (a21 m c) (row (a22 m c)) := by
  have h := (W8_arr (F := Ideal) m ρ c 3).trans (Cert.KernelIdeal.Reg1.value (V7 (F := Ideal) m ρ) c)
  rw [(show V7 (F := Ideal) m ρ c main_v4 = _ from v4_at7 m ρ c),
    (show V7 (F := Ideal) m ρ c main_arg21 = _ from arg_at m ρ c 7 (by decide) main_arg21 (by decide)),
    (show V7 (F := Ideal) m ρ c main_v5 = _ from v5_at7 m ρ c)] at h
  exact h

/-- The second stem layer's rows with the padding cut off: the node features. -/
theorem slice6_at8 :
    extractStridedSlice S100000x256 ![0, 0] (W8 (F := Ideal) m ρ c (Proc.devRef .tc main_v6)) slices_S102400x256_S100000x256_0_0 = Hs m c := by
  rw [v6_at8 m ρ c]
  exact cut_linLeaky _ _ _ _ _ _ _ _ (by decide)

/-! ## Relation 0: the long stretch after the stem -/

/-- The node features. -/
theorem v7_at9 : W9 (F := Ideal) m ρ c (Proc.devRef .tc main_v7) = Hs m c := by
  have h := hostOps2_v7 (W8 (F := Ideal) m ρ c)
  rw [slice6_at8 m ρ c] at h
  exact h

/-- The kept nodes' rows. -/
theorem v14_at9 : W9 (F := Ideal) m ρ c (Proc.devRef .tc main_v14) = Ks m c := by
  have h := hostOps2_v14 (W8 (F := Ideal) m ρ c)
  rw [slice6_at8 m ρ c,
    (show W8 (F := Ideal) m ρ c (Proc.devRef .tc main_arg1) = _ from arg_at m ρ c 8 (by decide) main_arg1 (by decide))] at h
  exact h

/-- The isolated nodes' rows. -/
theorem v21_at9 : W9 (F := Ideal) m ρ c (Proc.devRef .tc main_v21) = Is m c := by
  have h := hostOps2_v21 (W8 (F := Ideal) m ρ c)
  rw [slice6_at8 m ρ c,
    (show W8 (F := Ideal) m ρ c (Proc.devRef .tc main_arg2) = _ from arg_at m ρ c 8 (by decide) main_arg2 (by decide))] at h
  exact h

/-- 2 / λ. -/
theorem v22_at9 : W9 (F := Ideal) m ρ c (Proc.devRef .tc main_v22) = re (a6 m c) := by
  have h := hostOps2_v22 (W8 (F := Ideal) m ρ c)
  rw [(show W8 (F := Ideal) m ρ c (Proc.devRef .tc main_arg6) = _ from arg_at m ρ c 8 (by decide) main_arg6 (by decide))] at h
  exact h

/-- The halves of the two convolution weights. -/
theorem v23_at9 : W9 (F := Ideal) m ρ c (Proc.devRef .tc main_v23) = top (a27 m c) := by
  have h := hostOps2_v23 (W8 (F := Ideal) m ρ c)
  rw [(show W8 (F := Ideal) m ρ c (Proc.devRef .tc main_arg27) = _ from arg_at m ρ c 8 (by decide) main_arg27 (by decide))] at h
  exact h

/-- The halves of the two convolution weights. -/
theorem v24_at9 : W9 (F := Ideal) m ρ c (Proc.devRef .tc main_v24) = bot (a27 m c) := by
  have h := hostOps2_v24 (W8 (F := Ideal) m ρ c)
  rw [(show W8 (F := Ideal) m ρ c (Proc.devRef .tc main_arg27) = _ from arg_at m ρ c 8 (by decide) main_arg27 (by decide))] at h
  exact h

/-- The halves of the two convolution weights. -/
theorem v25_at9 : W9 (F := Ideal) m ρ c (Proc.devRef .tc main_v25) = top (a29 m c) := by
  have h := hostOps2_v25 (W8 (F := Ideal) m ρ c)
  rw [(show W8 (F := Ideal) m ρ c (Proc.devRef .tc main_arg29) = _ from arg_at m ρ c 8 (by decide) main_arg29 (by decide))] at h
  exact h

/-- The halves of the two convolution weights. -/
theorem v26_at9 : W9 (F := Ideal) m ρ c (Proc.devRef .tc main_v26) = bot (a29 m c) := by
  have h := hostOps2_v26 (W8 (F := Ideal) m ρ c)
  rw [(show W8 (F := Ideal) m ρ c (Proc.devRef .tc main_arg29) = _ from arg_at m ρ c 8 (by decide) main_arg29 (by decide))] at h
  exact h

/-- The second Chebyshev term of the kept nodes' rows. -/
theorem v49_at9 : W9 (F := Ideal) m ρ c (Proc.devRef .tc main_v49) = cheb0 (Ks m c) (a3 m c) (a4 m c) (a5 m c) (a6 m c) := by
  have h := hostOps2_v49 (W8 (F := Ideal) m ρ c)
  rw [slice6_at8 m ρ c,
    (show W8 (F := Ideal) m ρ c (Proc.devRef .tc main_arg1) = _ from arg_at m ρ c 8 (by decide) main_arg1 (by decide)),
    (show W8 (F := Ideal) m ρ c (Proc.devRef .tc main_arg3) = _ from arg_at m ρ c 8 (by decide) main_arg3 (by decide)),
    (show W8 (F := Ideal) m ρ c (Proc.devRef .tc main_arg4) = _ from arg_at m ρ c 8 (by decide) main_arg4 (by decide)),
    (show W8 (F := Ideal) m ρ c (Proc.devRef .tc main_arg5) = _ from arg_at m ρ c 8 (by decide) main_arg5 (by decide)),
    (show W8 (F := Ideal) m ρ c (Proc.devRef .tc main_arg6) = _ from arg_at m ρ c 8 (by decide) main_arg6 (by decide))] at h
  exact h

/-- The zero the next padding is filled from. -/
theorem c9_at9 : W9 (F := Ideal) m ρ c (Proc.devRef .tc main_c_9) = constantI S_ 32 0#32 := by
  have h := hostOps2_c_9 (W8 (F := Ideal) m ρ c)
  exact h

/-! ## The first graph-convolution layer -/

/-- The kept nodes' rows padded. -/
theorem v50_at10 : W10 (F := Ideal) m ρ c (Proc.devRef .tc main_v50) = pad S73728x256 ![0, 0] ![3943, 0] ![0, 0] (Ks m c) zpad pads_S69785x256_S73728x256_039430_000 h_S_ := by
  have h := hostOps2_1_v50 (W9 (F := Ideal) m ρ c)
  rw [v14_at9 m ρ c,
    c9_at9 m ρ c] at h
  exact h

/-- The zero the next padding is filled from. -/
theorem c10_at11 : W11 (F := Ideal) m ρ c (Proc.devRef .tc main_c_10) = constantI S_ 32 0#32 := by
  have h := hostOps2_2_c_10 (W10 (F := Ideal) m ρ c)
  exact h

/-- The Chebyshev term's rows padded. -/
theorem v51_at12 : W12 (F := Ideal) m ρ c (Proc.devRef .tc main_v51) = pad S73728x256 ![0, 0] ![3943, 0] ![0, 0] (cheb0 (Ks m c) (a3 m c) (a4 m c) (a5 m c) (a6 m c)) zpad pads_S69785x256_S73728x256_039430_000 h_S_ := by
  have h := hostOps2_3_v51 (W11 (F := Ideal) m ρ c)
  rw [(show W11 (F := Ideal) m ρ c (Proc.devRef .tc main_v49) = _ from (carry m ρ c 9 11 (by decide) (by decide) main_v49 (by decide)).trans (v49_at9 m ρ c)),
    c10_at11 m ρ c] at h
  exact h

/-- The first convolution bias as a row. -/
theorem v52_at13 : W13 (F := Ideal) m ρ c (Proc.devRef .tc main_v52) = row (a28 m c) := by
  have h := hostOps2_4_v52 (W12 (F := Ideal) m ρ c)
  rw [(show W12 (F := Ideal) m ρ c (Proc.devRef .tc main_arg28) = _ from arg_at m ρ c 12 (by decide) main_arg28 (by decide))] at h
  exact h

/-- The first graph-convolution layer on the padded rows. -/
theorem v53_at14 : W14 (F := Ideal) m ρ c (Proc.devRef .tc main_v53) = dualRelu (pad S73728x256 ![0, 0] ![3943, 0] ![0, 0] (Ks m c) zpad pads_S69785x256_S73728x256_039430_000 h_S_) (pad S73728x256 ![0, 0] ![3943, 0] ![0, 0] (cheb0 (Ks m c) (a3 m c) (a4 m c) (a5 m c) (a6 m c)) zpad pads_S69785x256_S73728x256_039430_000 h_S_) (top (a27 m c)) (bot (a27 m c)) (row (a28 m c)) := by
  have h := (W14_arr (F := Ideal) m ρ c 5).trans (Cert.KernelIdeal.Reg2.value (V13 (F := Ideal) m ρ) c)
  rw [(show V13 (F := Ideal) m ρ c main_v50 = _ from (carry m ρ c 10 13 (by decide) (by decide) main_v50 (by decide)).trans (v50_at10 m ρ c)),
    (show V13 (F := Ideal) m ρ c main_v51 = _ from (carry m ρ c 12 13 (by decide) (by decide) main_v51 (by decide)).trans (v51_at12 m ρ c)),
    (show V13 (F := Ideal) m ρ c main_v23 = _ from (carry m ρ c 9 13 (by decide) (by decide) main_v23 (by decide)).trans (v23_at9 m ρ c)),
    (show V13 (F := Ideal) m ρ c main_v24 = _ from (carry m ρ c 9 13 (by decide) (by decide) main_v24 (by decide)).trans (v24_at9 m ρ c)),
    (show V13 (F := Ideal) m ρ c main_v52 = _ from v52_at13 m ρ c)] at h
  exact h

/-- The layer's rows with the padding cut off: the first graph-convolution layer. -/
theorem slice53_at14 :
    extractStridedSlice S69785x256 ![0, 0] (W14 (F := Ideal) m ρ c (Proc.devRef .tc main_v53)) slices_S73728x256_S69785x256_0_0 = C1s m c := by
  rw [v53_at14 m ρ c]
  exact cut_dualRelu _ _ _ _ _ _ _ _ _ _ _ _ (by decide)

/-- The first graph-convolution layer. -/
theorem v54_at15 : W15 (F := Ideal) m ρ c (Proc.devRef .tc main_v54) = C1s m c := by
  have h := hostOps3_v54 (W14 (F := Ideal) m ρ c)
  rw [slice53_at14 m ρ c] at h
  exact h

/-- Its second Chebyshev term: the factor 2 / λ read from the buffer the earlier stretch left it in. -/
theorem v77_at15 : W15 (F := Ideal) m ρ c (Proc.devRef .tc main_v77) = cheb0 (C1s m c) (a3 m c) (a4 m c) (a5 m c) (a6 m c) := by
  have h := hostOps3_v77 (W14 (F := Ideal) m ρ c)
  rw [slice53_at14 m ρ c,
    (show W14 (F := Ideal) m ρ c (Proc.devRef .tc main_arg3) = _ from arg_at m ρ c 14 (by decide) main_arg3 (by decide)),
    (show W14 (F := Ideal) m ρ c (Proc.devRef .tc main_arg4) = _ from arg_at m ρ c 14 (by decide) main_arg4 (by decide)),
    (show W14 (F := Ideal) m ρ c (Proc.devRef .tc main_arg5) = _ from arg_at m ρ c 14 (by decide) main_arg5 (by decide)),
    (show W14 (F := Ideal) m ρ c (Proc.devRef .tc main_v22) = _ from (carry m ρ c 9 14 (by decide) (by decide) main_v22 (by decide)).trans (v22_at9 m ρ c))] at h
  exact h

/-- The zero the next padding is filled from. -/
theorem c15_at15 : W15 (F := Ideal) m ρ c (Proc.devRef .tc main_c_15) = constantI S_ 32 0#32 := by
  have h := hostOps3_c_15 (W14 (F := Ideal) m ρ c)
  exact h

/-! ## The second graph-convolution layer -/

/-- The first layer's rows padded. -/
theorem v78_at16 : W16 (F := Ideal) m ρ c (Proc.devRef .tc main_v78) = pad S73728x256 ![0, 0] ![3943, 0] ![0, 0] (C1s m c) zpad pads_S69785x256_S73728x256_039430_000 h_S_ := by
  have h := hostOps3_1_v78 (W15 (F := Ideal) m ρ c)
  rw [v54_at15 m ρ c,
    c15_at15 m ρ c] at h
  exact h

/-- The zero the next padding is filled from. -/
theorem c16_at17 : W17 (F := Ideal) m ρ c (Proc.devRef .tc main_c_16) = constantI S_ 32 0#32 := by
  have h := hostOps3_2_c_16 (W16 (F := Ideal) m ρ c)
  exact h

/-- The Chebyshev term's rows padded. -/
theorem v79_at18 : W18 (F := Ideal) m ρ c (Proc.devRef .tc main_v79) = pad S73728x256 ![0, 0] ![3943, 0] ![0, 0] (cheb0 (C1s m c) (a3 m c) (a4 m c) (a5 m c) (a6 m c)) zpad pads_S69785x256_S73728x256_039430_000 h_S_ := by
  have h := hostOps3_3_v79 (W17 (F := Ideal) m ρ c)
  rw [(show W17 (F := Ideal) m ρ c (Proc.devRef .tc main_v77) = _ from (carry m ρ c 15 17 (by decide) (by decide) main_v77 (by decide)).trans (v77_at15 m ρ c)),
    c16_at17 m ρ c] at h
  exact h

/-- The second convolution bias as a row. -/
theorem v80_at19 : W19 (F := Ideal) m ρ c (Proc.devRef .tc main_v80) = row (a30 m c) := by
  have h := hostOps3_4_v80 (W18 (F := Ideal) m ρ c)
  rw [(show W18 (F := Ideal) m ρ c (Proc.devRef .tc main_arg30) = _ from arg_at m ρ c 18 (by decide) main_arg30 (by decide))] at h
  exact h

/-- The second graph-convolution layer on the padded rows. -/
theorem v81_at20 : W20 (F := Ideal) m ρ c (Proc.devRef .tc main_v81) = dualRelu (pad S73728x256 ![0, 0] ![3943, 0] ![0, 0] (C1s m c) zpad pads_S69785x256_S73728x256_039430_000 h_S_) (pad S73728x256 ![0, 0] ![3943, 0] ![0, 0] (cheb0 (C1s m c) (a3 m c) (a4 m c) (a5 m c) (a6 m c)) zpad pads_S69785x256_S73728x256_039430_000 h_S_) (top (a29 m c)) (bot (a29 m c)) (row (a30 m c)) := by
  have h := (W20_arr (F := Ideal) m ρ c 5).trans (Cert.KernelIdeal.Reg3.value (V19 (F := Ideal) m ρ) c)
  rw [(show V19 (F := Ideal) m ρ c main_v78 = _ from (carry m ρ c 16 19 (by decide) (by decide) main_v78 (by decide)).trans (v78_at16 m ρ c)),
    (show V19 (F := Ideal) m ρ c main_v79 = _ from (carry m ρ c 18 19 (by decide) (by decide) main_v79 (by decide)).trans (v79_at18 m ρ c)),
    (show V19 (F := Ideal) m ρ c main_v25 = _ from (carry m ρ c 9 19 (by decide) (by decide) main_v25 (by decide)).trans (v25_at9 m ρ c)),
    (show V19 (F := Ideal) m ρ c main_v26 = _ from (carry m ρ c 9 19 (by decide) (by decide) main_v26 (by decide)).trans (v26_at9 m ρ c)),
    (show V19 (F := Ideal) m ρ c main_v80 = _ from v80_at19 m ρ c)] at h
  exact h

/-- The second graph-convolution layer. -/
theorem v82_at21 : W21 (F := Ideal) m ρ c (Proc.devRef .tc main_v82) = C2s m c := by
  have h := hostOps4_v82 (W20 (F := Ideal) m ρ c)
  rw [v81_at20 m ρ c] at h
  exact h.trans (cut_dualRelu _ _ _ _ _ _ _ _ _ _ _ _ (by decide))

/-- The zero the next padding is filled from. -/
theorem c17_at21 : W21 (F := Ideal) m ρ c (Proc.devRef .tc main_c_17) = constantI S_ 32 0#32 := by
  have h := hostOps4_c_17 (W20 (F := Ideal) m ρ c)
  exact h

/-! ## The two plain layers on the isolated nodes -/

/-- The isolated nodes' rows padded. -/
theorem v83_at22 : W22 (F := Ideal) m ρ c (Proc.devRef .tc main_v83) = pad S32768x256 ![0, 0] ![2553, 0] ![0, 0] (Is m c) zpad pads_S30215x256_S32768x256_025530_000 h_S_ := by
  have h := hostOps4_1_v83 (W21 (F := Ideal) m ρ c)
  rw [(show W21 (F := Ideal) m ρ c (Proc.devRef .tc main_v21) = _ from (carry m ρ c 9 21 (by decide) (by decide) main_v21 (by decide)).trans (v21_at9 m ρ c)),
    c17_at21 m ρ c] at h
  exact h

/-- The first plain bias as a row. -/
theorem v84_at23 : W23 (F := Ideal) m ρ c (Proc.devRef .tc main_v84) = row (a24 m c) := by
  have h := hostOps4_2_v84 (W22 (F := Ideal) m ρ c)
  rw [(show W22 (F := Ideal) m ρ c (Proc.devRef .tc main_arg24) = _ from arg_at m ρ c 22 (by decide) main_arg24 (by decide))] at h
  exact h

/-- The first plain layer on the padded rows. -/
theorem v85_at24 : W24 (F := Ideal) m ρ c (Proc.devRef .tc main_v85) = linPlain (pad S32768x256 ![0, 0] ![2553, 0] ![0, 0] (Is m c) zpad pads_S30215x256_S32768x256_025530_000 h_S_) (a23 m c) (row (a24 m c)) := by
  have h := (W24_arr (F := Ideal) m ρ c 3).trans (Cert.KernelIdeal.Reg4.value (V23 (F := Ideal) m ρ) c)
  rw [(show V23 (F := Ideal) m ρ c main_v83 = _ from (carry m ρ c 22 23 (by decide) (by decide) main_v83 (by decide)).trans (v83_at22 m ρ c)),
    (show V23 (F := Ideal) m ρ c main_arg23 = _ from arg_at m ρ c 23 (by decide) main_arg23 (by decide)),
    (show V23 (F := Ideal) m ρ c main_v84 = _ from v84_at23 m ρ c)] at h
  exact h

/-- The first plain layer. -/
theorem v86_at25 : W25 (F := Ideal) m ρ c (Proc.devRef .tc main_v86) = M1s m c := by
  have h := hostOps5_v86 (W24 (F := Ideal) m ρ c)
  rw [v85_at24 m ρ c] at h
  exact h.trans (cut_linPlain _ _ _ _ _ _ _ _ (by decide))

/-- The zero the next padding is filled from. -/
theorem c18_at25 : W25 (F := Ideal) m ρ c (Proc.devRef .tc main_c_18) = constantI S_ 32 0#32 := by
  have h := hostOps5_c_18 (W24 (F := Ideal) m ρ c)
  exact h

/-- The first plain layer's rows padded. -/
theorem v87_at26 : W26 (F := Ideal) m ρ c (Proc.devRef .tc main_v87) = pad S32768x256 ![0, 0] ![2553, 0] ![0, 0] (M1s m c) zpad pads_S30215x256_S32768x256_025530_000 h_S_ := by
  have h := hostOps5_1_v87 (W25 (F := Ideal) m ρ c)
  rw [v86_at25 m ρ c,
    c18_at25 m ρ c] at h
  exact h

/-- The second plain bias as a row. -/
theorem v88_at27 : W27 (F := Ideal) m ρ c (Proc.devRef .tc main_v88) = row (a26 m c) := by
  have h := hostOps5_2_v88 (W26 (F := Ideal) m ρ c)
  rw [(show W26 (F := Ideal) m ρ c (Proc.devRef .tc main_arg26) = _ from arg_at m ρ c 26 (by decide) main_arg26 (by decide))] at h
  exact h

/-- The second plain layer on the padded rows. -/
theorem v89_at28 : W28 (F := Ideal) m ρ c (Proc.devRef .tc main_v89) = linPlain (pad S32768x256 ![0, 0] ![2553, 0] ![0, 0] (M1s m c) zpad pads_S30215x256_S32768x256_025530_000 h_S_) (a25 m c) (row (a26 m c)) := by
  have h := (W28_arr (F := Ideal) m ρ c 3).trans (Cert.KernelIdeal.Reg5.value (V27 (F := Ideal) m ρ) c)
  rw [(show V27 (F := Ideal) m ρ c main_v87 = _ from (carry m ρ c 26 27 (by decide) (by decide) main_v87 (by decide)).trans (v87_at26 m ρ c)),
    (show V27 (F := Ideal) m ρ c main_arg25 = _ from arg_at m ρ c 27 (by decide) main_arg25 (by decide)),
    (show V27 (F := Ideal) m ρ c main_v88 = _ from v88_at27 m ρ c)] at h
  exact h

/-- The second plain layer. -/
theorem v90_at29 : W29 (F := Ideal) m ρ c (Proc.devRef .tc main_v90) = M2s m c := by
  have h := hostOps6_v90 (W28 (F := Ideal) m ρ c)
  rw [v89_at28 m ρ c] at h
  exact h.trans (cut_linPlain _ _ _ _ _ _ _ _ (by decide))

/-- The halves of the combining weight. -/
theorem v91_at29 : W29 (F := Ideal) m ρ c (Proc.devRef .tc main_v91) = top (a31 m c) := by
  have h := hostOps6_v91 (W28 (F := Ideal) m ρ c)
  rw [(show W28 (F := Ideal) m ρ c (Proc.devRef .tc main_arg31) = _ from arg_at m ρ c 28 (by decide) main_arg31 (by decide))] at h
  exact h

/-- The halves of the combining weight. -/
theorem v92_at29 : W29 (F := Ideal) m ρ c (Proc.devRef .tc main_v92) = bot (a31 m c) := by
  have h := hostOps6_v92 (W28 (F := Ideal) m ρ c)
  rw [(show W28 (F := Ideal) m ρ c (Proc.devRef .tc main_arg31) = _ from arg_at m ρ c 28 (by decide) main_arg31 (by decide))] at h
  exact h

/-- The zero the next padding is filled from. -/
theorem c19_at29 : W29 (F := Ideal) m ρ c (Proc.devRef .tc main_c_19) = constantI S_ 32 0#32 := by
  have h := hostOps6_c_19 (W28 (F := Ideal) m ρ c)
  exact h

/-! ## The combining layer on the kept nodes -/

/-- The first convolution layer's rows padded. -/
theorem v93_at30 : W30 (F := Ideal) m ρ c (Proc.devRef .tc main_v93) = pad S73728x256 ![0, 0] ![3943, 0] ![0, 0] (C1s m c) zpad pads_S69785x256_S73728x256_039430_000 h_S_ := by
  have h := hostOps6_1_v93 (W29 (F := Ideal) m ρ c)
  rw [(show W29 (F := Ideal) m ρ c (Proc.devRef .tc main_v54) = _ from (carry m ρ c 15 29 (by decide) (by decide) main_v54 (by decide)).trans (v54_at15 m ρ c)),
    c19_at29 m ρ c] at h
  exact h

/-- The zero the next padding is filled from. -/
theorem c20_at31 : W31 (F := Ideal) m ρ c (Proc.devRef .tc main_c_20) = constantI S_ 32 0#32 := by
  have h := hostOps6_2_c_20 (W30 (F := Ideal) m ρ c)
  exact h

/-- The second convolution layer's rows padded. -/
theorem v94_at32 : W32 (F := Ideal) m ρ c (Proc.devRef .tc main_v94) = pad S73728x256 ![0, 0] ![3943, 0] ![0, 0] (C2s m c) zpad pads_S69785x256_S73728x256_039430_000 h_S_ := by
  have h := hostOps6_3_v94 (W31 (F := Ideal) m ρ c)
  rw [(show W31 (F := Ideal) m ρ c (Proc.devRef .tc main_v82) = _ from (carry m ρ c 21 31 (by decide) (by decide) main_v82 (by decide)).trans (v82_at21 m ρ c)),
    c20_at31 m ρ c] at h
  exact h

/-- The combining bias as a row. -/
theorem v95_at33 : W33 (F := Ideal) m ρ c (Proc.devRef .tc main_v95) = row (a32 m c) := by
  have h := hostOps6_4_v95 (W32 (F := Ideal) m ρ c)
  rw [(show W32 (F := Ideal) m ρ c (Proc.devRef .tc main_arg32) = _ from arg_at m ρ c 32 (by decide) main_arg32 (by decide))] at h
  exact h

/-- The combining layer on the kept nodes' padded rows. -/
theorem v96_at34 : W34 (F := Ideal) m ρ c (Proc.devRef .tc main_v96) = dualPlain (pad S73728x256 ![0, 0] ![3943, 0] ![0, 0] (C1s m c) zpad pads_S69785x256_S73728x256_039430_000 h_S_) (pad S73728x256 ![0, 0] ![3943, 0] ![0, 0] (C2s m c) zpad pads_S69785x256_S73728x256_039430_000 h_S_) (top (a31 m c)) (bot (a31 m c)) (row (a32 m c)) := by
  have h := (W34_arr (F := Ideal) m ρ c 5).trans (Cert.KernelIdeal.Reg6.value (V33 (F := Ideal) m ρ) c)
  rw [(show V33 (F := Ideal) m ρ c main_v93 = _ from (carry m ρ c 30 33 (by decide) (by decide) main_v93 (by decide)).trans (v93_at30 m ρ c)),
    (show V33 (F := Ideal) m ρ c main_v94 = _ from (carry m ρ c 32 33 (by decide) (by decide) main_v94 (by decide)).trans (v94_at32 m ρ c)),
    (show V33 (F := Ideal) m ρ c main_v91 = _ from (carry m ρ c 29 33 (by decide) (by decide) main_v91 (by decide)).trans (v91_at29 m ρ c)),
    (show V33 (F := Ideal) m ρ c main_v92 = _ from (carry m ρ c 29 33 (by decide) (by decide) main_v92 (by decide)).trans (v92_at29 m ρ c)),
    (show V33 (F := Ideal) m ρ c main_v95 = _ from v95_at33 m ρ c)] at h
  exact h

/-- The combining layer on the kept nodes. -/
theorem v97_at35 : W35 (F := Ideal) m ρ c (Proc.devRef .tc main_v97) = dualPlain (C1s m c) (C2s m c) (top (a31 m c)) (bot (a31 m c)) (row (a32 m c)) := by
  have h := hostOps7_v97 (W34 (F := Ideal) m ρ c)
  rw [v96_at34 m ρ c] at h
  exact h.trans (cut_dualPlain _ _ _ _ _ _ _ _ _ _ _ _ (by decide))

/-- The zero the next padding is filled from. -/
theorem c21_at35 : W35 (F := Ideal) m ρ c (Proc.devRef .tc main_c_21) = constantI S_ 32 0#32 := by
  have h := hostOps7_c_21 (W34 (F := Ideal) m ρ c)
  exact h

/-! ## The combining layer on the isolated nodes, and the block -/

/-- The first plain layer's rows padded. -/
theorem v98_at36 : W36 (F := Ideal) m ρ c (Proc.devRef .tc main_v98) = pad S32768x256 ![0, 0] ![2553, 0] ![0, 0] (M1s m c) zpad pads_S30215x256_S32768x256_025530_000 h_S_ := by
  have h := hostOps7_1_v98 (W35 (F := Ideal) m ρ c)
  rw [(show W35 (F := Ideal) m ρ c (Proc.devRef .tc main_v86) = _ from (carry m ρ c 25 35 (by decide) (by decide) main_v86 (by decide)).trans (v86_at25 m ρ c)),
    c21_at35 m ρ c] at h
  exact h

/-- The zero the next padding is filled from. -/
theorem c22_at37 : W37 (F := Ideal) m ρ c (Proc.devRef .tc main_c_22) = constantI S_ 32 0#32 := by
  have h := hostOps7_2_c_22 (W36 (F := Ideal) m ρ c)
  exact h

/-- The second plain layer's rows padded. -/
theorem v99_at38 : W38 (F := Ideal) m ρ c (Proc.devRef .tc main_v99) = pad S32768x256 ![0, 0] ![2553, 0] ![0, 0] (M2s m c) zpad pads_S30215x256_S32768x256_025530_000 h_S_ := by
  have h := hostOps7_3_v99 (W37 (F := Ideal) m ρ c)
  rw [(show W37 (F := Ideal) m ρ c (Proc.devRef .tc main_v90) = _ from (carry m ρ c 29 37 (by decide) (by decide) main_v90 (by decide)).trans (v90_at29 m ρ c)),
    c22_at37 m ρ c] at h
  exact h

/-- The combining bias as a row. -/
theorem v100_at39 : W39 (F := Ideal) m ρ c (Proc.devRef .tc main_v100) = row (a32 m c) := by
  have h := hostOps7_4_v100 (W38 (F := Ideal) m ρ c)
  rw [(show W38 (F := Ideal) m ρ c (Proc.devRef .tc main_arg32) = _ from arg_at m ρ c 38 (by decide) main_arg32 (by decide))] at h
  exact h

/-- The combining layer on the isolated nodes' padded rows. -/
theorem v101_at40 : W40 (F := Ideal) m ρ c (Proc.devRef .tc main_v101) = dualPlain (pad S32768x256 ![0, 0] ![2553, 0] ![0, 0] (M1s m c) zpad pads_S30215x256_S32768x256_025530_000 h_S_) (pad S32768x256 ![0, 0] ![2553, 0] ![0, 0] (M2s m c) zpad pads_S30215x256_S32768x256_025530_000 h_S_) (top (a31 m c)) (bot (a31 m c)) (row (a32 m c)) := by
  have h := (W40_arr (F := Ideal) m ρ c 5).trans (Cert.KernelIdeal.Reg7.value (V39 (F := Ideal) m ρ) c)
  rw [(show V39 (F := Ideal) m ρ c main_v98 = _ from (carry m ρ c 36 39 (by decide) (by decide) main_v98 (by decide)).trans (v98_at36 m ρ c)),
    (show V39 (F := Ideal) m ρ c main_v99 = _ from (carry m ρ c 38 39 (by decide) (by decide) main_v99 (by decide)).trans (v99_at38 m ρ c)),
    (show V39 (F := Ideal) m ρ c main_v91 = _ from (carry m ρ c 29 39 (by decide) (by decide) main_v91 (by decide)).trans (v91_at29 m ρ c)),
    (show V39 (F := Ideal) m ρ c main_v92 = _ from (carry m ρ c 29 39 (by decide) (by decide) main_v92 (by decide)).trans (v92_at29 m ρ c)),
    (show V39 (F := Ideal) m ρ c main_v100 = _ from v100_at39 m ρ c)] at h
  exact h

/-- The layer's rows with the padding cut off: the combining layer on the isolated nodes. -/
theorem slice101_at40 :
    extractStridedSlice S30215x256 ![0, 0] (W40 (F := Ideal) m ρ c (Proc.devRef .tc main_v101)) slices_S32768x256_S30215x256_0_0 = dualPlain (M1s m c) (M2s m c) (top (a31 m c)) (bot (a31 m c)) (row (a32 m c)) := by
  rw [v101_at40 m ρ c]
  exact cut_dualPlain _ _ _ _ _ _ _ _ _ _ _ _ (by decide)

/-- After relation 0 the block buffer holds the network's block of the stem: the kept nodes' rows above the isolated nodes' rows. -/
theorem block0_at : W41 (F := Ideal) m ρ c (Proc.devRef .tc main_v103) = block0 (Hs m c) (a1 m c) (a2 m c) (a3 m c) (a4 m c) (a5 m c) (a6 m c) (a27 m c) (a28 m c) (a29 m c) (a30 m c) (a23 m c) (a24 m c) (a25 m c) (a26 m c) (a31 m c) (a32 m c) := by
  have h := hostOps8_head_v103 (W40 (F := Ideal) m ρ c)
  rw [(show W40 (F := Ideal) m ρ c (Proc.devRef .tc main_v97) = _ from (carry m ρ c 35 40 (by decide) (by decide) main_v97 (by decide)).trans (v97_at35 m ρ c)),
    slice101_at40 m ρ c] at h
  exact h

end Cert.KernelIdeal.KerChain

end
-- ==== Proof.KerStretchLib.lean ====
/-
  Reading the kernel program's host stretches.

  A concatenation of two arrays takes its operands inside a list of pairs (shape, array), where rewriting cannot
  reach them; stated over the two arrays as plain arguments it can. The second Chebyshev term with the rescaling
  factor 2 / λ given as an array already computed.
-/
import proofs.«116214_j36043365548318_1_alg».proof.Proof.Gen.KernelIdeal.Launch
import proofs.«116214_j36043365548318_1_alg».proof.Proof.Gen.ReferenceIdeal
import proofs.«116214_j36043365548318_1_alg».proof.Proof.Stages
import proofs.«116214_j36043365548318_1_alg».proof.Proof.HostLayers
import Idealize.ShloMosaic.Lib.StableHlo.Run

noncomputable section

namespace Cert.KernelIdeal.KerStretch

open Idealize.ShloMosaic Cert.ReferenceIdeal.Stages

/-- Two arrays joined along an axis, the arrays as plain arguments. -/
def concat2 {α : Type} (t : Shape) (a : Fin t.rank) (s1 s2 : Shape) (x : s1.Idx → α) (y : s2.Idx → α)
    (h : Shape.Concatenates [s1, s2] t a) : t.Idx → α :=
  concatenate t a [⟨s1, x⟩, ⟨s2, y⟩] h

theorem concat2_eq {α : Type} (t : Shape) (a : Fin t.rank) (s1 s2 : Shape) (x : s1.Idx → α) (y : s2.Idx → α)
    (h : Shape.Concatenates [s1, s2] t a) :
    concatenate t a [⟨s1, x⟩, ⟨s2, y⟩] h = concat2 t a s1 s2 x y h := rfl

end Cert.KernelIdeal.KerStretch

end
-- ==== Proof.KerStretch1.lean ====
/-
  The kernel program's host stretches of relation 1, read from any entry contents: one lemma per buffer a stretch
  writes that is read later, in the stages' terms where the buffer is a stage and as the printed pad, slice or constant otherwise.
-/
import proofs.«116214_j36043365548318_1_alg».proof.Proof.KerStretchLib

noncomputable section

namespace Cert.KernelIdeal.KerStretch

open Cert.KernelIdeal Cert.KernelIdeal.Gen Cert.ReferenceIdeal.Stages Idealize.ShloMosaic Idealize.ShloMosaic.TcCoe
  Idealize.SL.Sem Cert.Rows Cert.Gcn Cert.Layers Cert.HostLayers

set_option maxRecDepth 65536 in
set_option maxHeartbeats 4000000 in
/-- The features entering relation 1: the previous relation's kept-rows result above its isolated-rows result. -/
theorem hostOps8_v103 (V : Valuation τ sig (Elt Ideal)) :
    StableHlo.after (hostOps8 (F := Ideal)) V (Proc.devRef .tc main_v103)
      = concatenate S100000x256 0 [⟨S69785x256, (V (Proc.devRef .tc main_v97))⟩, ⟨S30215x256, (extractStridedSlice S30215x256 ![0, 0] (V (Proc.devRef .tc main_v101)) slices_S32768x256_S30215x256_0_0)⟩] concatenates_S69785x256_S30215x256_S100000x256_d0 := by
  simp (disch := decide) only [hostOps8, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The kept nodes' rows. -/
theorem hostOps8_v110 (V : Valuation τ sig (Elt Ideal)) :
    StableHlo.after (hostOps8 (F := Ideal)) V (Proc.devRef .tc main_v110)
      = kept1 (concatenate S100000x256 0 [⟨S69785x256, (V (Proc.devRef .tc main_v97))⟩, ⟨S30215x256, (extractStridedSlice S30215x256 ![0, 0] (V (Proc.devRef .tc main_v101)) slices_S32768x256_S30215x256_0_0)⟩] concatenates_S69785x256_S30215x256_S100000x256_d0) (V (Proc.devRef .tc main_arg7)) := by
  simp (disch := decide) only [hostOps8, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The isolated nodes' rows. -/
theorem hostOps8_v117 (V : Valuation τ sig (Elt Ideal)) :
    StableHlo.after (hostOps8 (F := Ideal)) V (Proc.devRef .tc main_v117)
      = isol1 (concatenate S100000x256 0 [⟨S69785x256, (V (Proc.devRef .tc main_v97))⟩, ⟨S30215x256, (extractStridedSlice S30215x256 ![0, 0] (V (Proc.devRef .tc main_v101)) slices_S32768x256_S30215x256_0_0)⟩] concatenates_S69785x256_S30215x256_S100000x256_d0) (V (Proc.devRef .tc main_arg8)) := by
  simp (disch := decide) only [hostOps8, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- 2 / λ. -/
theorem hostOps8_v118 (V : Valuation τ sig (Elt Ideal)) :
    StableHlo.after (hostOps8 (F := Ideal)) V (Proc.devRef .tc main_v118)
      = re (V (Proc.devRef .tc main_arg12)) := by
  simp (disch := decide) only [hostOps8, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The first 256 rows of the first layer's weight. -/
theorem hostOps8_v119 (V : Valuation τ sig (Elt Ideal)) :
    StableHlo.after (hostOps8 (F := Ideal)) V (Proc.devRef .tc main_v119)
      = top (V (Proc.devRef .tc main_arg27)) := by
  simp (disch := decide) only [hostOps8, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  exact slice_rows 0 _ _ _

set_option maxRecDepth 65536 in
set_option maxHeartbeats 4000000 in
/-- The last 256 rows of the first layer's weight. -/
theorem hostOps8_v120 (V : Valuation τ sig (Elt Ideal)) :
    StableHlo.after (hostOps8 (F := Ideal)) V (Proc.devRef .tc main_v120)
      = bot (V (Proc.devRef .tc main_arg27)) := by
  simp (disch := decide) only [hostOps8, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  exact slice_rows 256 _ _ _

set_option maxRecDepth 65536 in
set_option maxHeartbeats 4000000 in
/-- The first 256 rows of the second layer's weight. -/
theorem hostOps8_v121 (V : Valuation τ sig (Elt Ideal)) :
    StableHlo.after (hostOps8 (F := Ideal)) V (Proc.devRef .tc main_v121)
      = top (V (Proc.devRef .tc main_arg29)) := by
  simp (disch := decide) only [hostOps8, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  exact slice_rows 0 _ _ _

set_option maxRecDepth 65536 in
set_option maxHeartbeats 4000000 in
/-- The last 256 rows of the second layer's weight. -/
theorem hostOps8_v122 (V : Valuation τ sig (Elt Ideal)) :
    StableHlo.after (hostOps8 (F := Ideal)) V (Proc.devRef .tc main_v122)
      = bot (V (Proc.devRef .tc main_arg29)) := by
  simp (disch := decide) only [hostOps8, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  exact slice_rows 256 _ _ _

set_option maxRecDepth 65536 in
set_option maxHeartbeats 4000000 in
/-- The second Chebyshev term of the kept nodes' rows. -/
theorem hostOps8_v145 (V : Valuation τ sig (Elt Ideal)) :
    StableHlo.after (hostOps8 (F := Ideal)) V (Proc.devRef .tc main_v145)
      = cheb1 (kept1 (concatenate S100000x256 0 [⟨S69785x256, (V (Proc.devRef .tc main_v97))⟩, ⟨S30215x256, (extractStridedSlice S30215x256 ![0, 0] (V (Proc.devRef .tc main_v101)) slices_S32768x256_S30215x256_0_0)⟩] concatenates_S69785x256_S30215x256_S100000x256_d0) (V (Proc.devRef .tc main_arg7))) (V (Proc.devRef .tc main_arg9)) (V (Proc.devRef .tc main_arg10)) (V (Proc.devRef .tc main_arg11)) (V (Proc.devRef .tc main_arg12)) := by
  simp (disch := decide) only [hostOps8, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- A zero, the value the rows below a padded array take. -/
theorem hostOps8_c_32 (V : Valuation τ sig (Elt Ideal)) :
    StableHlo.after (hostOps8 (F := Ideal)) V (Proc.devRef .tc main_c_32)
      = constantI S_ 32 0#32 := by
  simp (disch := decide) only [hostOps8, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The kept nodes' rows, padded to whole blocks. -/
theorem hostOps8_1_v146 (V : Valuation τ sig (Elt Ideal)) :
    StableHlo.after (hostOps8_1 (F := Ideal)) V (Proc.devRef .tc main_v146)
      = pad S81920x256 ![0, 0] ![2460, 0] ![0, 0] (V (Proc.devRef .tc main_v110) : FVec Ideal S79460x256 .f32) (sitofp (F := Ideal) .f32 (V (Proc.devRef .tc main_c_32) : IVec S_ 32) : FVec Ideal S_ .f32) pads_S79460x256_S81920x256_024600_000 h_S_ := by
  simp (disch := decide) only [hostOps8_1, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- A zero, the value the rows below a padded array take. -/
theorem hostOps8_2_c_33 (V : Valuation τ sig (Elt Ideal)) :
    StableHlo.after (hostOps8_2 (F := Ideal)) V (Proc.devRef .tc main_c_33)
      = constantI S_ 32 0#32 := by
  simp (disch := decide) only [hostOps8_2, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- Their Chebyshev term, padded to whole blocks. -/
theorem hostOps8_3_v147 (V : Valuation τ sig (Elt Ideal)) :
    StableHlo.after (hostOps8_3 (F := Ideal)) V (Proc.devRef .tc main_v147)
      = pad S81920x256 ![0, 0] ![2460, 0] ![0, 0] (V (Proc.devRef .tc main_v145) : FVec Ideal S79460x256 .f32) (sitofp (F := Ideal) .f32 (V (Proc.devRef .tc main_c_33) : IVec S_ 32) : FVec Ideal S_ .f32) pads_S79460x256_S81920x256_024600_000 h_S_ := by
  simp (disch := decide) only [hostOps8_3, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- The first layer's bias as a row. -/
theorem hostOps8_4_v148 (V : Valuation τ sig (Elt Ideal)) :
    StableHlo.after (hostOps8_4 (F := Ideal)) V (Proc.devRef .tc main_v148)
      = row (V (Proc.devRef .tc main_arg28)) := by
  simp (disch := decide) only [hostOps8_4, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The rows of the first layer's result, the padding rows cut off. -/
theorem hostOps9_v150 (V : Valuation τ sig (Elt Ideal)) :
    StableHlo.after (hostOps9 (F := Ideal)) V (Proc.devRef .tc main_v150)
      = extractStridedSlice S79460x256 ![0, 0] (V (Proc.devRef .tc main_v149)) slices_S81920x256_S79460x256_0_0 := by
  simp (disch := decide) only [hostOps9, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The second Chebyshev term of the first layer's result, with 2 / λ read from its buffer. -/
theorem hostOps9_v173 (V : Valuation τ sig (Elt Ideal)) :
    StableHlo.after (hostOps9 (F := Ideal)) V (Proc.devRef .tc main_v173)
      = chebR1 (extractStridedSlice S79460x256 ![0, 0] (V (Proc.devRef .tc main_v149)) slices_S81920x256_S79460x256_0_0) (V (Proc.devRef .tc main_arg9)) (V (Proc.devRef .tc main_arg10)) (V (Proc.devRef .tc main_arg11)) (V (Proc.devRef .tc main_v118)) := by
  simp (disch := decide) only [hostOps9, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- A zero, the value the rows below a padded array take. -/
theorem hostOps9_c_38 (V : Valuation τ sig (Elt Ideal)) :
    StableHlo.after (hostOps9 (F := Ideal)) V (Proc.devRef .tc main_c_38)
      = constantI S_ 32 0#32 := by
  simp (disch := decide) only [hostOps9, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The first layer's result, padded to whole blocks. -/
theorem hostOps9_1_v174 (V : Valuation τ sig (Elt Ideal)) :
    StableHlo.after (hostOps9_1 (F := Ideal)) V (Proc.devRef .tc main_v174)
      = pad S81920x256 ![0, 0] ![2460, 0] ![0, 0] (V (Proc.devRef .tc main_v150) : FVec Ideal S79460x256 .f32) (sitofp (F := Ideal) .f32 (V (Proc.devRef .tc main_c_38) : IVec S_ 32) : FVec Ideal S_ .f32) pads_S79460x256_S81920x256_024600_000 h_S_ := by
  simp (disch := decide) only [hostOps9_1, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- A zero, the value the rows below a padded array take. -/
theorem hostOps9_2_c_39 (V : Valuation τ sig (Elt Ideal)) :
    StableHlo.after (hostOps9_2 (F := Ideal)) V (Proc.devRef .tc main_c_39)
      = constantI S_ 32 0#32 := by
  simp (disch := decide) only [hostOps9_2, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- Its Chebyshev term, padded to whole blocks. -/
theorem hostOps9_3_v175 (V : Valuation τ sig (Elt Ideal)) :
    StableHlo.after (hostOps9_3 (F := Ideal)) V (Proc.devRef .tc main_v175)
      = pad S81920x256 ![0, 0] ![2460, 0] ![0, 0] (V (Proc.devRef .tc main_v173) : FVec Ideal S79460x256 .f32) (sitofp (F := Ideal) .f32 (V (Proc.devRef .tc main_c_39) : IVec S_ 32) : FVec Ideal S_ .f32) pads_S79460x256_S81920x256_024600_000 h_S_ := by
  simp (disch := decide) only [hostOps9_3, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- The second layer's bias as a row. -/
theorem hostOps9_4_v176 (V : Valuation τ sig (Elt Ideal)) :
    StableHlo.after (hostOps9_4 (F := Ideal)) V (Proc.devRef .tc main_v176)
      = row (V (Proc.devRef .tc main_arg30)) := by
  simp (disch := decide) only [hostOps9_4, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The rows of the second layer's result, the padding rows cut off. -/
theorem hostOps10_v178 (V : Valuation τ sig (Elt Ideal)) :
    StableHlo.after (hostOps10 (F := Ideal)) V (Proc.devRef .tc main_v178)
      = extractStridedSlice S79460x256 ![0, 0] (V (Proc.devRef .tc main_v177)) slices_S81920x256_S79460x256_0_0 := by
  simp (disch := decide) only [hostOps10, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- A zero, the value the rows below a padded array take. -/
theorem hostOps10_c_40 (V : Valuation τ sig (Elt Ideal)) :
    StableHlo.after (hostOps10 (F := Ideal)) V (Proc.devRef .tc main_c_40)
      = constantI S_ 32 0#32 := by
  simp (disch := decide) only [hostOps10, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The isolated nodes' rows, padded to whole blocks. -/
theorem hostOps10_1_v179 (V : Valuation τ sig (Elt Ideal)) :
    StableHlo.after (hostOps10_1 (F := Ideal)) V (Proc.devRef .tc main_v179)
      = pad S24576x256 ![0, 0] ![4036, 0] ![0, 0] (V (Proc.devRef .tc main_v117) : FVec Ideal S20540x256 .f32) (sitofp (F := Ideal) .f32 (V (Proc.devRef .tc main_c_40) : IVec S_ 32) : FVec Ideal S_ .f32) pads_S20540x256_S24576x256_040360_000 h_S_ := by
  simp (disch := decide) only [hostOps10_1, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- The first plain layer's bias as a row. -/
theorem hostOps10_2_v180 (V : Valuation τ sig (Elt Ideal)) :
    StableHlo.after (hostOps10_2 (F := Ideal)) V (Proc.devRef .tc main_v180)
      = row (V (Proc.devRef .tc main_arg24)) := by
  simp (disch := decide) only [hostOps10_2, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The rows of the first plain layer's result, the padding rows cut off. -/
theorem hostOps11_v182 (V : Valuation τ sig (Elt Ideal)) :
    StableHlo.after (hostOps11 (F := Ideal)) V (Proc.devRef .tc main_v182)
      = extractStridedSlice S20540x256 ![0, 0] (V (Proc.devRef .tc main_v181)) slices_S24576x256_S20540x256_0_0 := by
  simp (disch := decide) only [hostOps11, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- A zero, the value the rows below a padded array take. -/
theorem hostOps11_c_41 (V : Valuation τ sig (Elt Ideal)) :
    StableHlo.after (hostOps11 (F := Ideal)) V (Proc.devRef .tc main_c_41)
      = constantI S_ 32 0#32 := by
  simp (disch := decide) only [hostOps11, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The first plain layer's result, padded to whole blocks. -/
theorem hostOps11_1_v183 (V : Valuation τ sig (Elt Ideal)) :
    StableHlo.after (hostOps11_1 (F := Ideal)) V (Proc.devRef .tc main_v183)
      = pad S24576x256 ![0, 0] ![4036, 0] ![0, 0] (V (Proc.devRef .tc main_v182) : FVec Ideal S20540x256 .f32) (sitofp (F := Ideal) .f32 (V (Proc.devRef .tc main_c_41) : IVec S_ 32) : FVec Ideal S_ .f32) pads_S20540x256_S24576x256_040360_000 h_S_ := by
  simp (disch := decide) only [hostOps11_1, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- The second plain layer's bias as a row. -/
theorem hostOps11_2_v184 (V : Valuation τ sig (Elt Ideal)) :
    StableHlo.after (hostOps11_2 (F := Ideal)) V (Proc.devRef .tc main_v184)
      = row (V (Proc.devRef .tc main_arg26)) := by
  simp (disch := decide) only [hostOps11_2, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The rows of the second plain layer's result, the padding rows cut off. -/
theorem hostOps12_v186 (V : Valuation τ sig (Elt Ideal)) :
    StableHlo.after (hostOps12 (F := Ideal)) V (Proc.devRef .tc main_v186)
      = extractStridedSlice S20540x256 ![0, 0] (V (Proc.devRef .tc main_v185)) slices_S24576x256_S20540x256_0_0 := by
  simp (disch := decide) only [hostOps12, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The first 256 rows of the combining layer's weight. -/
theorem hostOps12_v187 (V : Valuation τ sig (Elt Ideal)) :
    StableHlo.after (hostOps12 (F := Ideal)) V (Proc.devRef .tc main_v187)
      = top (V (Proc.devRef .tc main_arg31)) := by
  simp (disch := decide) only [hostOps12, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  exact slice_rows 0 _ _ _

set_option maxRecDepth 65536 in
set_option maxHeartbeats 4000000 in
/-- The last 256 rows of the combining layer's weight. -/
theorem hostOps12_v188 (V : Valuation τ sig (Elt Ideal)) :
    StableHlo.after (hostOps12 (F := Ideal)) V (Proc.devRef .tc main_v188)
      = bot (V (Proc.devRef .tc main_arg31)) := by
  simp (disch := decide) only [hostOps12, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  exact slice_rows 256 _ _ _

set_option maxRecDepth 65536 in
set_option maxHeartbeats 4000000 in
/-- A zero, the value the rows below a padded array take. -/
theorem hostOps12_c_42 (V : Valuation τ sig (Elt Ideal)) :
    StableHlo.after (hostOps12 (F := Ideal)) V (Proc.devRef .tc main_c_42)
      = constantI S_ 32 0#32 := by
  simp (disch := decide) only [hostOps12, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The first layer's result, padded to whole blocks. -/
theorem hostOps12_1_v189 (V : Valuation τ sig (Elt Ideal)) :
    StableHlo.after (hostOps12_1 (F := Ideal)) V (Proc.devRef .tc main_v189)
      = pad S81920x256 ![0, 0] ![2460, 0] ![0, 0] (V (Proc.devRef .tc main_v150) : FVec Ideal S79460x256 .f32) (sitofp (F := Ideal) .f32 (V (Proc.devRef .tc main_c_42) : IVec S_ 32) : FVec Ideal S_ .f32) pads_S79460x256_S81920x256_024600_000 h_S_ := by
  simp (disch := decide) only [hostOps12_1, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- A zero, the value the rows below a padded array take. -/
theorem hostOps12_2_c_43 (V : Valuation τ sig (Elt Ideal)) :
    StableHlo.after (hostOps12_2 (F := Ideal)) V (Proc.devRef .tc main_c_43)
      = constantI S_ 32 0#32 := by
  simp (disch := decide) only [hostOps12_2, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The second layer's result, padded to whole blocks. -/
theorem hostOps12_3_v190 (V : Valuation τ sig (Elt Ideal)) :
    StableHlo.after (hostOps12_3 (F := Ideal)) V (Proc.devRef .tc main_v190)
      = pad S81920x256 ![0, 0] ![2460, 0] ![0, 0] (V (Proc.devRef .tc main_v178) : FVec Ideal S79460x256 .f32) (sitofp (F := Ideal) .f32 (V (Proc.devRef .tc main_c_43) : IVec S_ 32) : FVec Ideal S_ .f32) pads_S79460x256_S81920x256_024600_000 h_S_ := by
  simp (disch := decide) only [hostOps12_3, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- The combining layer's bias as a row. -/
theorem hostOps12_4_v191 (V : Valuation τ sig (Elt Ideal)) :
    StableHlo.after (hostOps12_4 (F := Ideal)) V (Proc.devRef .tc main_v191)
      = row (V (Proc.devRef .tc main_arg32)) := by
  simp (disch := decide) only [hostOps12_4, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The rows of the combining layer's result on the kept nodes, the padding rows cut off. -/
theorem hostOps13_v193 (V : Valuation τ sig (Elt Ideal)) :
    StableHlo.after (hostOps13 (F := Ideal)) V (Proc.devRef .tc main_v193)
      = extractStridedSlice S79460x256 ![0, 0] (V (Proc.devRef .tc main_v192)) slices_S81920x256_S79460x256_0_0 := by
  simp (disch := decide) only [hostOps13, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- A zero, the value the rows below a padded array take. -/
theorem hostOps13_c_44 (V : Valuation τ sig (Elt Ideal)) :
    StableHlo.after (hostOps13 (F := Ideal)) V (Proc.devRef .tc main_c_44)
      = constantI S_ 32 0#32 := by
  simp (disch := decide) only [hostOps13, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The first plain layer's result, padded to whole blocks. -/
theorem hostOps13_1_v194 (V : Valuation τ sig (Elt Ideal)) :
    StableHlo.after (hostOps13_1 (F := Ideal)) V (Proc.devRef .tc main_v194)
      = pad S24576x256 ![0, 0] ![4036, 0] ![0, 0] (V (Proc.devRef .tc main_v182) : FVec Ideal S20540x256 .f32) (sitofp (F := Ideal) .f32 (V (Proc.devRef .tc main_c_44) : IVec S_ 32) : FVec Ideal S_ .f32) pads_S20540x256_S24576x256_040360_000 h_S_ := by
  simp (disch := decide) only [hostOps13_1, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- A zero, the value the rows below a padded array take. -/
theorem hostOps13_2_c_45 (V : Valuation τ sig (Elt Ideal)) :
    StableHlo.after (hostOps13_2 (F := Ideal)) V (Proc.devRef .tc main_c_45)
      = constantI S_ 32 0#32 := by
  simp (disch := decide) only [hostOps13_2, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The second plain layer's result, padded to whole blocks. -/
theorem hostOps13_3_v195 (V : Valuation τ sig (Elt Ideal)) :
    StableHlo.after (hostOps13_3 (F := Ideal)) V (Proc.devRef .tc main_v195)
      = pad S24576x256 ![0, 0] ![4036, 0] ![0, 0] (V (Proc.devRef .tc main_v186) : FVec Ideal S20540x256 .f32) (sitofp (F := Ideal) .f32 (V (Proc.devRef .tc main_c_45) : IVec S_ 32) : FVec Ideal S_ .f32) pads_S20540x256_S24576x256_040360_000 h_S_ := by
  simp (disch := decide) only [hostOps13_3, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- The combining layer's bias as a row. -/
theorem hostOps13_4_v196 (V : Valuation τ sig (Elt Ideal)) :
    StableHlo.after (hostOps13_4 (F := Ideal)) V (Proc.devRef .tc main_v196)
      = row (V (Proc.devRef .tc main_arg32)) := by
  simp (disch := decide) only [hostOps13_4, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

end Cert.KernelIdeal.KerStretch

end
-- ==== Proof.KerStretch2.lean ====
/-
  The kernel program's host stretches of relation 2 and of the last layer, read from any entry contents: one lemma per buffer a stretch
  writes that is read later, in the stages' terms where the buffer is a stage and as the printed pad, slice or constant otherwise.
-/
import proofs.«116214_j36043365548318_1_alg».proof.Proof.KerStretchLib

noncomputable section

namespace Cert.KernelIdeal.KerStretch

open Cert.KernelIdeal Cert.KernelIdeal.Gen Cert.ReferenceIdeal.Stages Idealize.ShloMosaic Idealize.ShloMosaic.TcCoe
  Idealize.SL.Sem Cert.Rows Cert.Gcn Cert.Layers Cert.HostLayers

set_option maxRecDepth 65536 in
set_option maxHeartbeats 4000000 in
/-- The features entering relation 2: the previous relation's kept-rows result above its isolated-rows result. -/
theorem hostOps14_v199 (V : Valuation τ sig (Elt Ideal)) :
    StableHlo.after (hostOps14 (F := Ideal)) V (Proc.devRef .tc main_v199)
      = concatenate S100000x256 0 [⟨S79460x256, (V (Proc.devRef .tc main_v193))⟩, ⟨S20540x256, (extractStridedSlice S20540x256 ![0, 0] (V (Proc.devRef .tc main_v197)) slices_S24576x256_S20540x256_0_0)⟩] concatenates_S79460x256_S20540x256_S100000x256_d0 := by
  simp (disch := decide) only [hostOps14, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The kept nodes' rows. -/
theorem hostOps14_v206 (V : Valuation τ sig (Elt Ideal)) :
    StableHlo.after (hostOps14 (F := Ideal)) V (Proc.devRef .tc main_v206)
      = kept2 (concatenate S100000x256 0 [⟨S79460x256, (V (Proc.devRef .tc main_v193))⟩, ⟨S20540x256, (extractStridedSlice S20540x256 ![0, 0] (V (Proc.devRef .tc main_v197)) slices_S24576x256_S20540x256_0_0)⟩] concatenates_S79460x256_S20540x256_S100000x256_d0) (V (Proc.devRef .tc main_arg13)) := by
  simp (disch := decide) only [hostOps14, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The isolated nodes' rows. -/
theorem hostOps14_v213 (V : Valuation τ sig (Elt Ideal)) :
    StableHlo.after (hostOps14 (F := Ideal)) V (Proc.devRef .tc main_v213)
      = isol2 (concatenate S100000x256 0 [⟨S79460x256, (V (Proc.devRef .tc main_v193))⟩, ⟨S20540x256, (extractStridedSlice S20540x256 ![0, 0] (V (Proc.devRef .tc main_v197)) slices_S24576x256_S20540x256_0_0)⟩] concatenates_S79460x256_S20540x256_S100000x256_d0) (V (Proc.devRef .tc main_arg14)) := by
  simp (disch := decide) only [hostOps14, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- 2 / λ. -/
theorem hostOps14_v214 (V : Valuation τ sig (Elt Ideal)) :
    StableHlo.after (hostOps14 (F := Ideal)) V (Proc.devRef .tc main_v214)
      = re (V (Proc.devRef .tc main_arg18)) := by
  simp (disch := decide) only [hostOps14, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The first 256 rows of the first layer's weight. -/
theorem hostOps14_v215 (V : Valuation τ sig (Elt Ideal)) :
    StableHlo.after (hostOps14 (F := Ideal)) V (Proc.devRef .tc main_v215)
      = top (V (Proc.devRef .tc main_arg27)) := by
  simp (disch := decide) only [hostOps14, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  exact slice_rows 0 _ _ _

set_option maxRecDepth 65536 in
set_option maxHeartbeats 4000000 in
/-- The last 256 rows of the first layer's weight. -/
theorem hostOps14_v216 (V : Valuation τ sig (Elt Ideal)) :
    StableHlo.after (hostOps14 (F := Ideal)) V (Proc.devRef .tc main_v216)
      = bot (V (Proc.devRef .tc main_arg27)) := by
  simp (disch := decide) only [hostOps14, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  exact slice_rows 256 _ _ _

set_option maxRecDepth 65536 in
set_option maxHeartbeats 4000000 in
/-- The first 256 rows of the second layer's weight. -/
theorem hostOps14_v217 (V : Valuation τ sig (Elt Ideal)) :
    StableHlo.after (hostOps14 (F := Ideal)) V (Proc.devRef .tc main_v217)
      = top (V (Proc.devRef .tc main_arg29)) := by
  simp (disch := decide) only [hostOps14, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  exact slice_rows 0 _ _ _

set_option maxRecDepth 65536 in
set_option maxHeartbeats 4000000 in
/-- The last 256 rows of the second layer's weight. -/
theorem hostOps14_v218 (V : Valuation τ sig (Elt Ideal)) :
    StableHlo.after (hostOps14 (F := Ideal)) V (Proc.devRef .tc main_v218)
      = bot (V (Proc.devRef .tc main_arg29)) := by
  simp (disch := decide) only [hostOps14, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  exact slice_rows 256 _ _ _

set_option maxRecDepth 65536 in
set_option maxHeartbeats 4000000 in
/-- The second Chebyshev term of the kept nodes' rows. -/
theorem hostOps14_v241 (V : Valuation τ sig (Elt Ideal)) :
    StableHlo.after (hostOps14 (F := Ideal)) V (Proc.devRef .tc main_v241)
      = cheb2 (kept2 (concatenate S100000x256 0 [⟨S79460x256, (V (Proc.devRef .tc main_v193))⟩, ⟨S20540x256, (extractStridedSlice S20540x256 ![0, 0] (V (Proc.devRef .tc main_v197)) slices_S24576x256_S20540x256_0_0)⟩] concatenates_S79460x256_S20540x256_S100000x256_d0) (V (Proc.devRef .tc main_arg13))) (V (Proc.devRef .tc main_arg15)) (V (Proc.devRef .tc main_arg16)) (V (Proc.devRef .tc main_arg17)) (V (Proc.devRef .tc main_arg18)) := by
  simp (disch := decide) only [hostOps14, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- A zero, the value the rows below a padded array take. -/
theorem hostOps14_c_55 (V : Valuation τ sig (Elt Ideal)) :
    StableHlo.after (hostOps14 (F := Ideal)) V (Proc.devRef .tc main_c_55)
      = constantI S_ 32 0#32 := by
  simp (disch := decide) only [hostOps14, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The kept nodes' rows, padded to whole blocks. -/
theorem hostOps14_1_v242 (V : Valuation τ sig (Elt Ideal)) :
    StableHlo.after (hostOps14_1 (F := Ideal)) V (Proc.devRef .tc main_v242)
      = pad S77824x256 ![0, 0] ![3170, 0] ![0, 0] (V (Proc.devRef .tc main_v206) : FVec Ideal S74654x256 .f32) (sitofp (F := Ideal) .f32 (V (Proc.devRef .tc main_c_55) : IVec S_ 32) : FVec Ideal S_ .f32) pads_S74654x256_S77824x256_031700_000 h_S_ := by
  simp (disch := decide) only [hostOps14_1, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- A zero, the value the rows below a padded array take. -/
theorem hostOps14_2_c_56 (V : Valuation τ sig (Elt Ideal)) :
    StableHlo.after (hostOps14_2 (F := Ideal)) V (Proc.devRef .tc main_c_56)
      = constantI S_ 32 0#32 := by
  simp (disch := decide) only [hostOps14_2, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- Their Chebyshev term, padded to whole blocks. -/
theorem hostOps14_3_v243 (V : Valuation τ sig (Elt Ideal)) :
    StableHlo.after (hostOps14_3 (F := Ideal)) V (Proc.devRef .tc main_v243)
      = pad S77824x256 ![0, 0] ![3170, 0] ![0, 0] (V (Proc.devRef .tc main_v241) : FVec Ideal S74654x256 .f32) (sitofp (F := Ideal) .f32 (V (Proc.devRef .tc main_c_56) : IVec S_ 32) : FVec Ideal S_ .f32) pads_S74654x256_S77824x256_031700_000 h_S_ := by
  simp (disch := decide) only [hostOps14_3, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- The first layer's bias as a row. -/
theorem hostOps14_4_v244 (V : Valuation τ sig (Elt Ideal)) :
    StableHlo.after (hostOps14_4 (F := Ideal)) V (Proc.devRef .tc main_v244)
      = row (V (Proc.devRef .tc main_arg28)) := by
  simp (disch := decide) only [hostOps14_4, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The rows of the first layer's result, the padding rows cut off. -/
theorem hostOps15_v246 (V : Valuation τ sig (Elt Ideal)) :
    StableHlo.after (hostOps15 (F := Ideal)) V (Proc.devRef .tc main_v246)
      = extractStridedSlice S74654x256 ![0, 0] (V (Proc.devRef .tc main_v245)) slices_S77824x256_S74654x256_0_0 := by
  simp (disch := decide) only [hostOps15, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The second Chebyshev term of the first layer's result, with 2 / λ read from its buffer. -/
theorem hostOps15_v269 (V : Valuation τ sig (Elt Ideal)) :
    StableHlo.after (hostOps15 (F := Ideal)) V (Proc.devRef .tc main_v269)
      = chebR2 (extractStridedSlice S74654x256 ![0, 0] (V (Proc.devRef .tc main_v245)) slices_S77824x256_S74654x256_0_0) (V (Proc.devRef .tc main_arg15)) (V (Proc.devRef .tc main_arg16)) (V (Proc.devRef .tc main_arg17)) (V (Proc.devRef .tc main_v214)) := by
  simp (disch := decide) only [hostOps15, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- A zero, the value the rows below a padded array take. -/
theorem hostOps15_c_61 (V : Valuation τ sig (Elt Ideal)) :
    StableHlo.after (hostOps15 (F := Ideal)) V (Proc.devRef .tc main_c_61)
      = constantI S_ 32 0#32 := by
  simp (disch := decide) only [hostOps15, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The first layer's result, padded to whole blocks. -/
theorem hostOps15_1_v270 (V : Valuation τ sig (Elt Ideal)) :
    StableHlo.after (hostOps15_1 (F := Ideal)) V (Proc.devRef .tc main_v270)
      = pad S77824x256 ![0, 0] ![3170, 0] ![0, 0] (V (Proc.devRef .tc main_v246) : FVec Ideal S74654x256 .f32) (sitofp (F := Ideal) .f32 (V (Proc.devRef .tc main_c_61) : IVec S_ 32) : FVec Ideal S_ .f32) pads_S74654x256_S77824x256_031700_000 h_S_ := by
  simp (disch := decide) only [hostOps15_1, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- A zero, the value the rows below a padded array take. -/
theorem hostOps15_2_c_62 (V : Valuation τ sig (Elt Ideal)) :
    StableHlo.after (hostOps15_2 (F := Ideal)) V (Proc.devRef .tc main_c_62)
      = constantI S_ 32 0#32 := by
  simp (disch := decide) only [hostOps15_2, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- Its Chebyshev term, padded to whole blocks. -/
theorem hostOps15_3_v271 (V : Valuation τ sig (Elt Ideal)) :
    StableHlo.after (hostOps15_3 (F := Ideal)) V (Proc.devRef .tc main_v271)
      = pad S77824x256 ![0, 0] ![3170, 0] ![0, 0] (V (Proc.devRef .tc main_v269) : FVec Ideal S74654x256 .f32) (sitofp (F := Ideal) .f32 (V (Proc.devRef .tc main_c_62) : IVec S_ 32) : FVec Ideal S_ .f32) pads_S74654x256_S77824x256_031700_000 h_S_ := by
  simp (disch := decide) only [hostOps15_3, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- The second layer's bias as a row. -/
theorem hostOps15_4_v272 (V : Valuation τ sig (Elt Ideal)) :
    StableHlo.after (hostOps15_4 (F := Ideal)) V (Proc.devRef .tc main_v272)
      = row (V (Proc.devRef .tc main_arg30)) := by
  simp (disch := decide) only [hostOps15_4, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The rows of the second layer's result, the padding rows cut off. -/
theorem hostOps16_v274 (V : Valuation τ sig (Elt Ideal)) :
    StableHlo.after (hostOps16 (F := Ideal)) V (Proc.devRef .tc main_v274)
      = extractStridedSlice S74654x256 ![0, 0] (V (Proc.devRef .tc main_v273)) slices_S77824x256_S74654x256_0_0 := by
  simp (disch := decide) only [hostOps16, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- A zero, the value the rows below a padded array take. -/
theorem hostOps16_c_63 (V : Valuation τ sig (Elt Ideal)) :
    StableHlo.after (hostOps16 (F := Ideal)) V (Proc.devRef .tc main_c_63)
      = constantI S_ 32 0#32 := by
  simp (disch := decide) only [hostOps16, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The isolated nodes' rows, padded to whole blocks. -/
theorem hostOps16_1_v275 (V : Valuation τ sig (Elt Ideal)) :
    StableHlo.after (hostOps16_1 (F := Ideal)) V (Proc.devRef .tc main_v275)
      = pad S28672x256 ![0, 0] ![3326, 0] ![0, 0] (V (Proc.devRef .tc main_v213) : FVec Ideal S25346x256 .f32) (sitofp (F := Ideal) .f32 (V (Proc.devRef .tc main_c_63) : IVec S_ 32) : FVec Ideal S_ .f32) pads_S25346x256_S28672x256_033260_000 h_S_ := by
  simp (disch := decide) only [hostOps16_1, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- The first plain layer's bias as a row. -/
theorem hostOps16_2_v276 (V : Valuation τ sig (Elt Ideal)) :
    StableHlo.after (hostOps16_2 (F := Ideal)) V (Proc.devRef .tc main_v276)
      = row (V (Proc.devRef .tc main_arg24)) := by
  simp (disch := decide) only [hostOps16_2, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The rows of the first plain layer's result, the padding rows cut off. -/
theorem hostOps17_v278 (V : Valuation τ sig (Elt Ideal)) :
    StableHlo.after (hostOps17 (F := Ideal)) V (Proc.devRef .tc main_v278)
      = extractStridedSlice S25346x256 ![0, 0] (V (Proc.devRef .tc main_v277)) slices_S28672x256_S25346x256_0_0 := by
  simp (disch := decide) only [hostOps17, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- A zero, the value the rows below a padded array take. -/
theorem hostOps17_c_64 (V : Valuation τ sig (Elt Ideal)) :
    StableHlo.after (hostOps17 (F := Ideal)) V (Proc.devRef .tc main_c_64)
      = constantI S_ 32 0#32 := by
  simp (disch := decide) only [hostOps17, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The first plain layer's result, padded to whole blocks. -/
theorem hostOps17_1_v279 (V : Valuation τ sig (Elt Ideal)) :
    StableHlo.after (hostOps17_1 (F := Ideal)) V (Proc.devRef .tc main_v279)
      = pad S28672x256 ![0, 0] ![3326, 0] ![0, 0] (V (Proc.devRef .tc main_v278) : FVec Ideal S25346x256 .f32) (sitofp (F := Ideal) .f32 (V (Proc.devRef .tc main_c_64) : IVec S_ 32) : FVec Ideal S_ .f32) pads_S25346x256_S28672x256_033260_000 h_S_ := by
  simp (disch := decide) only [hostOps17_1, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- The second plain layer's bias as a row. -/
theorem hostOps17_2_v280 (V : Valuation τ sig (Elt Ideal)) :
    StableHlo.after (hostOps17_2 (F := Ideal)) V (Proc.devRef .tc main_v280)
      = row (V (Proc.devRef .tc main_arg26)) := by
  simp (disch := decide) only [hostOps17_2, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The rows of the second plain layer's result, the padding rows cut off. -/
theorem hostOps18_v282 (V : Valuation τ sig (Elt Ideal)) :
    StableHlo.after (hostOps18 (F := Ideal)) V (Proc.devRef .tc main_v282)
      = extractStridedSlice S25346x256 ![0, 0] (V (Proc.devRef .tc main_v281)) slices_S28672x256_S25346x256_0_0 := by
  simp (disch := decide) only [hostOps18, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The first 256 rows of the combining layer's weight. -/
theorem hostOps18_v283 (V : Valuation τ sig (Elt Ideal)) :
    StableHlo.after (hostOps18 (F := Ideal)) V (Proc.devRef .tc main_v283)
      = top (V (Proc.devRef .tc main_arg31)) := by
  simp (disch := decide) only [hostOps18, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  exact slice_rows 0 _ _ _

set_option maxRecDepth 65536 in
set_option maxHeartbeats 4000000 in
/-- The last 256 rows of the combining layer's weight. -/
theorem hostOps18_v284 (V : Valuation τ sig (Elt Ideal)) :
    StableHlo.after (hostOps18 (F := Ideal)) V (Proc.devRef .tc main_v284)
      = bot (V (Proc.devRef .tc main_arg31)) := by
  simp (disch := decide) only [hostOps18, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  exact slice_rows 256 _ _ _

set_option maxRecDepth 65536 in
set_option maxHeartbeats 4000000 in
/-- A zero, the value the rows below a padded array take. -/
theorem hostOps18_c_65 (V : Valuation τ sig (Elt Ideal)) :
    StableHlo.after (hostOps18 (F := Ideal)) V (Proc.devRef .tc main_c_65)
      = constantI S_ 32 0#32 := by
  simp (disch := decide) only [hostOps18, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The first layer's result, padded to whole blocks. -/
theorem hostOps18_1_v285 (V : Valuation τ sig (Elt Ideal)) :
    StableHlo.after (hostOps18_1 (F := Ideal)) V (Proc.devRef .tc main_v285)
      = pad S77824x256 ![0, 0] ![3170, 0] ![0, 0] (V (Proc.devRef .tc main_v246) : FVec Ideal S74654x256 .f32) (sitofp (F := Ideal) .f32 (V (Proc.devRef .tc main_c_65) : IVec S_ 32) : FVec Ideal S_ .f32) pads_S74654x256_S77824x256_031700_000 h_S_ := by
  simp (disch := decide) only [hostOps18_1, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- A zero, the value the rows below a padded array take. -/
theorem hostOps18_2_c_66 (V : Valuation τ sig (Elt Ideal)) :
    StableHlo.after (hostOps18_2 (F := Ideal)) V (Proc.devRef .tc main_c_66)
      = constantI S_ 32 0#32 := by
  simp (disch := decide) only [hostOps18_2, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The second layer's result, padded to whole blocks. -/
theorem hostOps18_3_v286 (V : Valuation τ sig (Elt Ideal)) :
    StableHlo.after (hostOps18_3 (F := Ideal)) V (Proc.devRef .tc main_v286)
      = pad S77824x256 ![0, 0] ![3170, 0] ![0, 0] (V (Proc.devRef .tc main_v274) : FVec Ideal S74654x256 .f32) (sitofp (F := Ideal) .f32 (V (Proc.devRef .tc main_c_66) : IVec S_ 32) : FVec Ideal S_ .f32) pads_S74654x256_S77824x256_031700_000 h_S_ := by
  simp (disch := decide) only [hostOps18_3, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- The combining layer's bias as a row. -/
theorem hostOps18_4_v287 (V : Valuation τ sig (Elt Ideal)) :
    StableHlo.after (hostOps18_4 (F := Ideal)) V (Proc.devRef .tc main_v287)
      = row (V (Proc.devRef .tc main_arg32)) := by
  simp (disch := decide) only [hostOps18_4, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The rows of the combining layer's result on the kept nodes, the padding rows cut off. -/
theorem hostOps19_v289 (V : Valuation τ sig (Elt Ideal)) :
    StableHlo.after (hostOps19 (F := Ideal)) V (Proc.devRef .tc main_v289)
      = extractStridedSlice S74654x256 ![0, 0] (V (Proc.devRef .tc main_v288)) slices_S77824x256_S74654x256_0_0 := by
  simp (disch := decide) only [hostOps19, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- A zero, the value the rows below a padded array take. -/
theorem hostOps19_c_67 (V : Valuation τ sig (Elt Ideal)) :
    StableHlo.after (hostOps19 (F := Ideal)) V (Proc.devRef .tc main_c_67)
      = constantI S_ 32 0#32 := by
  simp (disch := decide) only [hostOps19, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The first plain layer's result, padded to whole blocks. -/
theorem hostOps19_1_v290 (V : Valuation τ sig (Elt Ideal)) :
    StableHlo.after (hostOps19_1 (F := Ideal)) V (Proc.devRef .tc main_v290)
      = pad S28672x256 ![0, 0] ![3326, 0] ![0, 0] (V (Proc.devRef .tc main_v278) : FVec Ideal S25346x256 .f32) (sitofp (F := Ideal) .f32 (V (Proc.devRef .tc main_c_67) : IVec S_ 32) : FVec Ideal S_ .f32) pads_S25346x256_S28672x256_033260_000 h_S_ := by
  simp (disch := decide) only [hostOps19_1, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- A zero, the value the rows below a padded array take. -/
theorem hostOps19_2_c_68 (V : Valuation τ sig (Elt Ideal)) :
    StableHlo.after (hostOps19_2 (F := Ideal)) V (Proc.devRef .tc main_c_68)
      = constantI S_ 32 0#32 := by
  simp (disch := decide) only [hostOps19_2, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The second plain layer's result, padded to whole blocks. -/
theorem hostOps19_3_v291 (V : Valuation τ sig (Elt Ideal)) :
    StableHlo.after (hostOps19_3 (F := Ideal)) V (Proc.devRef .tc main_v291)
      = pad S28672x256 ![0, 0] ![3326, 0] ![0, 0] (V (Proc.devRef .tc main_v282) : FVec Ideal S25346x256 .f32) (sitofp (F := Ideal) .f32 (V (Proc.devRef .tc main_c_68) : IVec S_ 32) : FVec Ideal S_ .f32) pads_S25346x256_S28672x256_033260_000 h_S_ := by
  simp (disch := decide) only [hostOps19_3, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- The combining layer's bias as a row. -/
theorem hostOps19_4_v292 (V : Valuation τ sig (Elt Ideal)) :
    StableHlo.after (hostOps19_4 (F := Ideal)) V (Proc.devRef .tc main_v292)
      = row (V (Proc.devRef .tc main_arg32)) := by
  simp (disch := decide) only [hostOps19_4, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- Relation 2's block: its kept-rows result above its isolated-rows result. -/
theorem hostOps20_v295 (V : Valuation τ sig (Elt Ideal)) :
    StableHlo.after (hostOps20 (F := Ideal)) V (Proc.devRef .tc main_v295)
      = concatenate S100000x256 0 [⟨S74654x256, (V (Proc.devRef .tc main_v289))⟩, ⟨S25346x256, (extractStridedSlice S25346x256 ![0, 0] (V (Proc.devRef .tc main_v293)) slices_S28672x256_S25346x256_0_0)⟩] concatenates_S74654x256_S25346x256_S100000x256_d0 := by
  simp (disch := decide) only [hostOps20, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- A zero, the value the rows below a padded array take. -/
theorem hostOps20_c_69 (V : Valuation τ sig (Elt Ideal)) :
    StableHlo.after (hostOps20 (F := Ideal)) V (Proc.devRef .tc main_c_69)
      = constantI S_ 32 0#32 := by
  simp (disch := decide) only [hostOps20, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- Relation 0's block, padded to whole blocks. -/
theorem hostOps20_1_v296 (V : Valuation τ sig (Elt Ideal)) :
    StableHlo.after (hostOps20_1 (F := Ideal)) V (Proc.devRef .tc main_v296)
      = pad S102400x256 ![0, 0] ![2400, 0] ![0, 0] (V (Proc.devRef .tc main_v103) : FVec Ideal S100000x256 .f32) (sitofp (F := Ideal) .f32 (V (Proc.devRef .tc main_c_69) : IVec S_ 32) : FVec Ideal S_ .f32) pads_S100000x256_S102400x256_024000_000 h_S_ := by
  simp (disch := decide) only [hostOps20_1, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- A zero, the value the rows below a padded array take. -/
theorem hostOps20_2_c_70 (V : Valuation τ sig (Elt Ideal)) :
    StableHlo.after (hostOps20_2 (F := Ideal)) V (Proc.devRef .tc main_c_70)
      = constantI S_ 32 0#32 := by
  simp (disch := decide) only [hostOps20_2, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- Relation 1's block, padded to whole blocks. -/
theorem hostOps20_3_v297 (V : Valuation τ sig (Elt Ideal)) :
    StableHlo.after (hostOps20_3 (F := Ideal)) V (Proc.devRef .tc main_v297)
      = pad S102400x256 ![0, 0] ![2400, 0] ![0, 0] (V (Proc.devRef .tc main_v199) : FVec Ideal S100000x256 .f32) (sitofp (F := Ideal) .f32 (V (Proc.devRef .tc main_c_70) : IVec S_ 32) : FVec Ideal S_ .f32) pads_S100000x256_S102400x256_024000_000 h_S_ := by
  simp (disch := decide) only [hostOps20_3, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- A zero, the value the rows below a padded array take. -/
theorem hostOps20_4_c_71 (V : Valuation τ sig (Elt Ideal)) :
    StableHlo.after (hostOps20_4 (F := Ideal)) V (Proc.devRef .tc main_c_71)
      = constantI S_ 32 0#32 := by
  simp (disch := decide) only [hostOps20_4, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- Relation 2's block, padded to whole blocks. -/
theorem hostOps20_5_v298 (V : Valuation τ sig (Elt Ideal)) :
    StableHlo.after (hostOps20_5 (F := Ideal)) V (Proc.devRef .tc main_v298)
      = pad S102400x256 ![0, 0] ![2400, 0] ![0, 0] (V (Proc.devRef .tc main_v295) : FVec Ideal S100000x256 .f32) (sitofp (F := Ideal) .f32 (V (Proc.devRef .tc main_c_71) : IVec S_ 32) : FVec Ideal S_ .f32) pads_S100000x256_S102400x256_024000_000 h_S_ := by
  simp (disch := decide) only [hostOps20_5, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  simp only [StableHlo.TRef.ofBuf, StableHlo.TRef.toBuf, cast_eq]
  all_goals rfl

set_option maxRecDepth 65536 in
set_option maxHeartbeats 4000000 in
/-- The last layer's bias as a row. -/
theorem hostOps20_6_v299 (V : Valuation τ sig (Elt Ideal)) :
    StableHlo.after (hostOps20_6 (F := Ideal)) V (Proc.devRef .tc main_v299)
      = shapeCast S1x2 (V (Proc.devRef .tc main_arg34)) (by decide) := by
  simp (disch := decide) only [hostOps20_6, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

set_option maxRecDepth 65536 in
set_option maxHeartbeats 4000000 in
/-- The rows of the last layer's result, the padding rows cut off. -/
theorem hostOps21_v301 (V : Valuation τ sig (Elt Ideal)) :
    StableHlo.after (hostOps21 (F := Ideal)) V (Proc.devRef .tc main_v301)
      = extractStridedSlice S100000x2 ![0, 0] (V (Proc.devRef .tc main_v300)) slices_S102400x2_S100000x2_0_0 := by
  simp (disch := decide) only [hostOps21, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    concat2_eq]
  all_goals rfl

end Cert.KernelIdeal.KerStretch

end
-- ==== Proof.KerChainLib.lean ====
/-
  Two small facts for the kernel program's value chain: an argument buffer holds at every boundary of the run what it
  held at launch, and a concatenation of two arrays may have its second array replaced by an equal one.
-/
import proofs.«116214_j36043365548318_1_alg».proof.Proof.KerRange

noncomputable section

namespace Cert.KernelIdeal.KerChain

open Cert.KernelIdeal Cert.KernelIdeal.Gen Cert.KernelIdeal.KerKeeps Idealize.ShloMosaic Idealize.ShloMosaic.TcCoe Idealize.SL.Sem

variable (m : (ℓ : Loc nD τ sig) → Buf (Elt Ideal) ℓ) (ρ : Dev nD → PrngReg) (c : Dev nD)

/-- No step of the run writes an argument: at every boundary an argument buffer holds its launch contents. -/
theorem argAt (j : ℕ) (hj : j < 114) (b : Ref sig .tc) (hb : b.idx.val < 35) :
    Wf m ρ ⟨j, hj⟩ c (Proc.devRef .tc b) = m ((c.tc : Thread nD τ).loc b) :=
  carry m ρ c 0 j (Nat.zero_le j) hj b hb

/-- A concatenation of two arrays with its second array replaced by an equal one. -/
theorem concat_congr_right {α : Type} (t : Shape) (a : Fin t.rank) (s1 s2 : Shape) (x : s1.Idx → α) (y y' : s2.Idx → α)
    (h : Shape.Concatenates [s1, s2] t a) (e : y = y') :
    concatenate t a [⟨s1, x⟩, ⟨s2, y⟩] h = concatenate t a [⟨s1, x⟩, ⟨s2, y'⟩] h := by
  subst e
  rfl

end Cert.KernelIdeal.KerChain

end
-- ==== Proof.Reg8.lean ====
/-
  Kernel call 8 of the program: what its output array holds when the call has run.

  The call cuts its [81920, 256] inputs into 20 blocks of 4096 rows, keeps the weights and the bias row whole, and at
  block t stores the rectifier of the sum of two products plus a bias row of that block. The layer acts row by row, so what point t writes back is
  block t of the layer of the whole arrays; the 20 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg8

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Block t lies inside the 81920 rows. -/
theorem hb (t : Fin cfg8.N) : 4096 * t.val + 4096 ≤ 81920 := by
  have h : t.val < 20 := lt_of_lt_of_eq t.isLt N_8
  omega

/-- Block t of input 0 is rows 4096 t, …, 4096 t + 4095 of its array. -/
theorem blk_0 (c : Dev nD) (t : Fin cfg8.N) :
    iblk8 V c 0 t = rowsAt (P := 81920) (N := 256) (α := EReal) (4096 * t.val) 4096 (hb t) (V c main_v146) := by
  funext y
  show V c main_v146 (((cfg8.win 0).blk t).view.emb y) = V c main_v146 (ix2 ⟨4096 * t.val + (y 0).val, _⟩ (y 1))
  refine congrArg (V c main_v146) ?_
  funext a; apply Fin.ext
  obtain ⟨e0, e1, e2, e3, e4, e5, e6, e7, e8, e9, e10, e11⟩ := idx t
  match a with
  | ⟨0, _⟩ => show win8_0.index t (0 : Fin 2) * 4096 + 1 * (y 0).val = 4096 * t.val + (y 0).val; omega
  | ⟨1, _⟩ => show win8_0.index t (1 : Fin 2) * 256 + 1 * (y 1).val = (y 1).val; omega

/-- Block t of input 1 is rows 4096 t, …, 4096 t + 4095 of its array. -/
theorem blk_1 (c : Dev nD) (t : Fin cfg8.N) :
    iblk8 V c 1 t = rowsAt (P := 81920) (N := 256) (α := EReal) (4096 * t.val) 4096 (hb t) (V c main_v147) := by
  funext y
  show V c main_v147 (((cfg8.win 1).blk t).view.emb y) = V c main_v147 (ix2 ⟨4096 * t.val + (y 0).val, _⟩ (y 1))
  refine congrArg (V c main_v147) ?_
  funext a; apply Fin.ext
  obtain ⟨e0, e1, e2, e3, e4, e5, e6, e7, e8, e9, e10, e11⟩ := idx t
  match a with
  | ⟨0, _⟩ => show win8_1.index t (0 : Fin 2) * 4096 + 1 * (y 0).val = 4096 * t.val + (y 0).val; omega
  | ⟨1, _⟩ => show win8_1.index t (1 : Fin 2) * 256 + 1 * (y 1).val = (y 1).val; omega

/-- Input 2's block is its whole array at every point. -/
theorem blk_2 (c : Dev nD) (t : Fin cfg8.N) : iblk8 V c 2 t = V c main_v119 := by
  funext y
  show V c main_v119 (((cfg8.win 2).blk t).view.emb y) = V c main_v119 y
  refine congrArg (V c main_v119) ?_
  funext a; apply Fin.ext
  obtain ⟨e0, e1, e2, e3, e4, e5, e6, e7, e8, e9, e10, e11⟩ := idx t
  match a with
  | ⟨0, _⟩ => show win8_2.index t (0 : Fin 2) * 256 + 1 * (y 0).val = (y 0).val; omega
  | ⟨1, _⟩ => show win8_2.index t (1 : Fin 2) * 256 + 1 * (y 1).val = (y 1).val; omega

/-- Input 3's block is its whole array at every point. -/
theorem blk_3 (c : Dev nD) (t : Fin cfg8.N) : iblk8 V c 3 t = V c main_v120 := by
  funext y
  show V c main_v120 (((cfg8.win 3).blk t).view.emb y) = V c main_v120 y
  refine congrArg (V c main_v120) ?_
  funext a; apply Fin.ext
  obtain ⟨e0, e1, e2, e3, e4, e5, e6, e7, e8, e9, e10, e11⟩ := idx t
  match a with
  | ⟨0, _⟩ => show win8_3.index t (0 : Fin 2) * 256 + 1 * (y 0).val = (y 0).val; omega
  | ⟨1, _⟩ => show win8_3.index t (1 : Fin 2) * 256 + 1 * (y 1).val = (y 1).val; omega

/-- Input 4's block is its whole array at every point. -/
theorem blk_4 (c : Dev nD) (t : Fin cfg8.N) : iblk8 V c 4 t = V c main_v148 := by
  funext y
  show V c main_v148 (((cfg8.win 4).blk t).view.emb y) = V c main_v148 y
  refine congrArg (V c main_v148) ?_
  funext a; apply Fin.ext
  obtain ⟨e0, e1, e2, e3, e4, e5, e6, e7, e8, e9, e10, e11⟩ := idx t
  match a with
  | ⟨0, _⟩ => show win8_4.index t (0 : Fin 2) * 1 + 1 * (y 0).val = (y 0).val; omega
  | ⟨1, _⟩ => show win8_4.index t (1 : Fin 2) * 256 + 1 * (y 1).val = (y 1).val; omega

/-- What point t writes back is block t of the layer of the whole arrays. -/
theorem flushed (c : Dev nD) (t : Fin cfg8.N) :
    (dat8 V c).flushed 5 t = ((cfg8.win 5).blk t).view.read (Elt Ideal) (dualRelu (V c main_v146) (V c main_v147) (V c main_v119) (V c main_v120) (V c main_v148)) := by
  show (cfg8.win 5).cut (grid8.coords t) ((dat8 V c).after 5 t) = _
  rw [after8_5]
  unfold out8_5
  rw [View.canon_unit_zero hz2]
  simp only [View.ld_unit_zero (S := S4096x256) hz2, View.ld_unit_zero (S := S256x256) hz2, View.ld_unit_zero (S := S1x256) hz2]
  funext y
  show k8_pay1 (iblk8 V c 0 t) (iblk8 V c 1 t) (iblk8 V c 2 t) (iblk8 V c 3 t) (iblk8 V c 4 t) y = dualRelu (V c main_v146) (V c main_v147) (V c main_v119) (V c main_v120) (V c main_v148) (((cfg8.win 5).blk t).view.emb y)
  refine (congrFun (pay8 (iblk8 V c 0 t) (iblk8 V c 1 t) (iblk8 V c 2 t) (iblk8 V c 3 t) (iblk8 V c 4 t)) y).trans ?_
  rw [blk_0 V c t, blk_1 V c t, blk_2 V c t, blk_3 V c t, blk_4 V c t]
  refine (congrFun (rowsAt_dualRelu (4096 * t.val) 4096 (hb t) (V c main_v146) (V c main_v147) (V c main_v119) (V c main_v120) (V c main_v148)) y).symm.trans ?_
  refine congrArg (dualRelu (V c main_v146) (V c main_v147) (V c main_v119) (V c main_v120) (V c main_v148)) ?_
  funext a; apply Fin.ext
  obtain ⟨e0, e1, e2, e3, e4, e5, e6, e7, e8, e9, e10, e11⟩ := idx t
  match a with
  | ⟨0, _⟩ => show 4096 * t.val + (y 0).val = win8_5.index t (0 : Fin 2) * 4096 + 1 * (y 0).val; omega
  | ⟨1, _⟩ => show (y 1).val = win8_5.index t (1 : Fin 2) * 256 + 1 * (y 1).val; omega

/-- An index of the output array is in point t's block iff each coordinate is in the block's range. -/
theorem mem_blk (t : Fin cfg8.N) (i : S81920x256.Idx) :
    i ∈ ((cfg8.win 5).blk t).view.set ↔ ∀ a : Fin 2, win8_5.index t a * S4096x256.size a ≤ (i a).val ∧ (i a).val < win8_5.index t a * S4096x256.size a + S4096x256.size a := by
  show i ∈ ((View.whole main_v149).slice (win8_5.rect t)).set ↔ _
  rw [View.set_slice_whole, Rect.mem_set_unit]
  exact Iff.rfl

/-- The blocks tile the output array: row r is in block r / 4096. -/
theorem cover (i : S81920x256.Idx) :
    ∃ t : Fin cfg8.N, (cfg8.win 5).flush t = true ∧ i ∈ ((cfg8.win 5).blk t).view.set := by
  have hi0 : (i 0).val < 81920 := (i 0).isLt
  have hi1 : (i 1).val < 256 := (i 1).isLt
  have hN : cfg8.N = 20 := N_8
  have hlt : (i 0).val / 4096 < cfg8.N := by rw [hN]; omega
  obtain ⟨t, ht⟩ : ∃ t : Fin cfg8.N, t.val = (i 0).val / 4096 := ⟨⟨_, hlt⟩, rfl⟩
  refine ⟨t, flush8_5 t, ?_⟩
  rw [mem_blk]
  obtain ⟨e0, e1, e2, e3, e4, e5, e6, e7, e8, e9, e10, e11⟩ := idx t
  intro a
  match a with
  | ⟨0, _⟩ =>
    show win8_5.index t (0 : Fin 2) * 4096 ≤ (i 0).val ∧ (i 0).val < win8_5.index t (0 : Fin 2) * 4096 + 4096
    omega
  | ⟨1, _⟩ =>
    show win8_5.index t (1 : Fin 2) * 256 ≤ (i 1).val ∧ (i 1).val < win8_5.index t (1 : Fin 2) * 256 + 256
    omega

/-- The output array after the call: the layer of the arrays the call was entered with. -/
theorem value (c : Dev nD) : (dat8 V c).arrAt 5 cfg8.N = dualRelu (V c main_v146) (V c main_v147) (V c main_v119) (V c main_v120) (V c main_v148) :=
  (dat8 V c).arrAt_eq_of_cover 5 _ (fun t _ => flushed V c t) cover

end Cert.KernelIdeal.Reg8

end
-- ==== Proof.Reg9.lean ====
/-
  Kernel call 9 of the program: what its output array holds when the call has run.

  The call cuts its [81920, 256] inputs into 20 blocks of 4096 rows, keeps the weights and the bias row whole, and at
  block t stores the rectifier of the sum of two products plus a bias row of that block. The layer acts row by row, so what point t writes back is
  block t of the layer of the whole arrays; the 20 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg9

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- Block t lies inside the 81920 rows. -/
theorem hb (t : Fin cfg9.N) : 4096 * t.val + 4096 ≤ 81920 := by
  have h : t.val < 20 := lt_of_lt_of_eq t.isLt N_9
  omega

/-- Block t of input 0 is rows 4096 t, …, 4096 t + 4095 of its array. -/
theorem blk_0 (c : Dev nD) (t : Fin cfg9.N) :
    iblk9 V c 0 t = rowsAt (P := 81920) (N := 256) (α := EReal) (4096 * t.val) 4096 (hb t) (V c main_v174) := by
  funext y
  show V c main_v174 (((cfg9.win 0).blk t).view.emb y) = V c main_v174 (ix2 ⟨4096 * t.val + (y 0).val, _⟩ (y 1))
  refine congrArg (V c main_v174) ?_
  funext a; apply Fin.ext
  obtain ⟨e0, e1, e2, e3, e4, e5, e6, e7, e8, e9, e10, e11⟩ := idx t
  match a with
  | ⟨0, _⟩ => show win9_0.index t (0 : Fin 2) * 4096 + 1 * (y 0).val = 4096 * t.val + (y 0).val; omega
  | ⟨1, _⟩ => show win9_0.index t (1 : Fin 2) * 256 + 1 * (y 1).val = (y 1).val; omega

/-- Block t of input 1 is rows 4096 t, …, 4096 t + 4095 of its array. -/
theorem blk_1 (c : Dev nD) (t : Fin cfg9.N) :
    iblk9 V c 1 t = rowsAt (P := 81920) (N := 256) (α := EReal) (4096 * t.val) 4096 (hb t) (V c main_v175) := by
  funext y
  show V c main_v175 (((cfg9.win 1).blk t).view.emb y) = V c main_v175 (ix2 ⟨4096 * t.val + (y 0).val, _⟩ (y 1))
  refine congrArg (V c main_v175) ?_
  funext a; apply Fin.ext
  obtain ⟨e0, e1, e2, e3, e4, e5, e6, e7, e8, e9, e10, e11⟩ := idx t
  match a with
  | ⟨0, _⟩ => show win9_1.index t (0 : Fin 2) * 4096 + 1 * (y 0).val = 4096 * t.val + (y 0).val; omega
  | ⟨1, _⟩ => show win9_1.index t (1 : Fin 2) * 256 + 1 * (y 1).val = (y 1).val; omega

/-- Input 2's block is its whole array at every point. -/
theorem blk_2 (c : Dev nD) (t : Fin cfg9.N) : iblk9 V c 2 t = V c main_v121 := by
  funext y
  show V c main_v121 (((cfg9.win 2).blk t).view.emb y) = V c main_v121 y
  refine congrArg (V c main_v121) ?_
  funext a; apply Fin.ext
  obtain ⟨e0, e1, e2, e3, e4, e5, e6, e7, e8, e9, e10, e11⟩ := idx t
  match a with
  | ⟨0, _⟩ => show win9_2.index t (0 : Fin 2) * 256 + 1 * (y 0).val = (y 0).val; omega
  | ⟨1, _⟩ => show win9_2.index t (1 : Fin 2) * 256 + 1 * (y 1).val = (y 1).val; omega

/-- Input 3's block is its whole array at every point. -/
theorem blk_3 (c : Dev nD) (t : Fin cfg9.N) : iblk9 V c 3 t = V c main_v122 := by
  funext y
  show V c main_v122 (((cfg9.win 3).blk t).view.emb y) = V c main_v122 y
  refine congrArg (V c main_v122) ?_
  funext a; apply Fin.ext
  obtain ⟨e0, e1, e2, e3, e4, e5, e6, e7, e8, e9, e10, e11⟩ := idx t
  match a with
  | ⟨0, _⟩ => show win9_3.index t (0 : Fin 2) * 256 + 1 * (y 0).val = (y 0).val; omega
  | ⟨1, _⟩ => show win9_3.index t (1 : Fin 2) * 256 + 1 * (y 1).val = (y 1).val; omega

/-- Input 4's block is its whole array at every point. -/
theorem blk_4 (c : Dev nD) (t : Fin cfg9.N) : iblk9 V c 4 t = V c main_v176 := by
  funext y
  show V c main_v176 (((cfg9.win 4).blk t).view.emb y) = V c main_v176 y
  refine congrArg (V c main_v176) ?_
  funext a; apply Fin.ext
  obtain ⟨e0, e1, e2, e3, e4, e5, e6, e7, e8, e9, e10, e11⟩ := idx t
  match a with
  | ⟨0, _⟩ => show win9_4.index t (0 : Fin 2) * 1 + 1 * (y 0).val = (y 0).val; omega
  | ⟨1, _⟩ => show win9_4.index t (1 : Fin 2) * 256 + 1 * (y 1).val = (y 1).val; omega

/-- What point t writes back is block t of the layer of the whole arrays. -/
theorem flushed (c : Dev nD) (t : Fin cfg9.N) :
    (dat9 V c).flushed 5 t = ((cfg9.win 5).blk t).view.read (Elt Ideal) (dualRelu (V c main_v174) (V c main_v175) (V c main_v121) (V c main_v122) (V c main_v176)) := by
  show (cfg9.win 5).cut (grid9.coords t) ((dat9 V c).after 5 t) = _
  rw [after9_5]
  unfold out9_5
  rw [View.canon_unit_zero hz2]
  simp only [View.ld_unit_zero (S := S4096x256) hz2, View.ld_unit_zero (S := S256x256) hz2, View.ld_unit_zero (S := S1x256) hz2]
  funext y
  show k9_pay1 (iblk9 V c 0 t) (iblk9 V c 1 t) (iblk9 V c 2 t) (iblk9 V c 3 t) (iblk9 V c 4 t) y = dualRelu (V c main_v174) (V c main_v175) (V c main_v121) (V c main_v122) (V c main_v176) (((cfg9.win 5).blk t).view.emb y)
  refine (congrFun (pay9 (iblk9 V c 0 t) (iblk9 V c 1 t) (iblk9 V c 2 t) (iblk9 V c 3 t) (iblk9 V c 4 t)) y).trans ?_
  rw [blk_0 V c t, blk_1 V c t, blk_2 V c t, blk_3 V c t, blk_4 V c t]
  refine (congrFun (rowsAt_dualRelu (4096 * t.val) 4096 (hb t) (V c main_v174) (V c main_v175) (V c main_v121) (V c main_v122) (V c main_v176)) y).symm.trans ?_
  refine congrArg (dualRelu (V c main_v174) (V c main_v175) (V c main_v121) (V c main_v122) (V c main_v176)) ?_
  funext a; apply Fin.ext
  obtain ⟨e0, e1, e2, e3, e4, e5, e6, e7, e8, e9, e10, e11⟩ := idx t
  match a with
  | ⟨0, _⟩ => show 4096 * t.val + (y 0).val = win9_5.index t (0 : Fin 2) * 4096 + 1 * (y 0).val; omega
  | ⟨1, _⟩ => show (y 1).val = win9_5.index t (1 : Fin 2) * 256 + 1 * (y 1).val; omega

/-- An index of the output array is in point t's block iff each coordinate is in the block's range. -/
theorem mem_blk (t : Fin cfg9.N) (i : S81920x256.Idx) :
    i ∈ ((cfg9.win 5).blk t).view.set ↔ ∀ a : Fin 2, win9_5.index t a * S4096x256.size a ≤ (i a).val ∧ (i a).val < win9_5.index t a * S4096x256.size a + S4096x256.size a := by
  show i ∈ ((View.whole main_v177).slice (win9_5.rect t)).set ↔ _
  rw [View.set_slice_whole, Rect.mem_set_unit]
  exact Iff.rfl

/-- The blocks tile the output array: row r is in block r / 4096. -/
theorem cover (i : S81920x256.Idx) :
    ∃ t : Fin cfg9.N, (cfg9.win 5).flush t = true ∧ i ∈ ((cfg9.win 5).blk t).view.set := by
  have hi0 : (i 0).val < 81920 := (i 0).isLt
  have hi1 : (i 1).val < 256 := (i 1).isLt
  have hN : cfg9.N = 20 := N_9
  have hlt : (i 0).val / 4096 < cfg9.N := by rw [hN]; omega
  obtain ⟨t, ht⟩ : ∃ t : Fin cfg9.N, t.val = (i 0).val / 4096 := ⟨⟨_, hlt⟩, rfl⟩
  refine ⟨t, flush9_5 t, ?_⟩
  rw [mem_blk]
  obtain ⟨e0, e1, e2, e3, e4, e5, e6, e7, e8, e9, e10, e11⟩ := idx t
  intro a
  match a with
  | ⟨0, _⟩ =>
    show win9_5.index t (0 : Fin 2) * 4096 ≤ (i 0).val ∧ (i 0).val < win9_5.index t (0 : Fin 2) * 4096 + 4096
    omega
  | ⟨1, _⟩ =>
    show win9_5.index t (1 : Fin 2) * 256 ≤ (i 1).val ∧ (i 1).val < win9_5.index t (1 : Fin 2) * 256 + 256
    omega

/-- The output array after the call: the layer of the arrays the call was entered with. -/
theorem value (c : Dev nD) : (dat9 V c).arrAt 5 cfg9.N = dualRelu (V c main_v174) (V c main_v175) (V c main_v121) (V c main_v122) (V c main_v176) :=
  (dat9 V c).arrAt_eq_of_cover 5 _ (fun t _ => flushed V c t) cover

end Cert.KernelIdeal.Reg9

end
-- ==== Proof.Reg10.lean ====
/-
  Kernel call 10 of the program: what its output array holds when the call has run.

  The call cuts its [24576, 256] inputs into 6 blocks of 4096 rows, keeps the weights and the bias row whole, and at
  block t stores one product plus a bias row of that block. The layer acts row by row, so what point t writes back is
  block t of the layer of the whole arrays; the 6 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg10

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- Block t lies inside the 24576 rows. -/
theorem hb (t : Fin cfg10.N) : 4096 * t.val + 4096 ≤ 24576 := by
  have h : t.val < 6 := lt_of_lt_of_eq t.isLt N_10
  omega

/-- Block t of input 0 is rows 4096 t, …, 4096 t + 4095 of its array. -/
theorem blk_0 (c : Dev nD) (t : Fin cfg10.N) :
    iblk10 V c 0 t = rowsAt (P := 24576) (N := 256) (α := EReal) (4096 * t.val) 4096 (hb t) (V c main_v179) := by
  funext y
  show V c main_v179 (((cfg10.win 0).blk t).view.emb y) = V c main_v179 (ix2 ⟨4096 * t.val + (y 0).val, _⟩ (y 1))
  refine congrArg (V c main_v179) ?_
  funext a; apply Fin.ext
  obtain ⟨e0, e1, e2, e3, e4, e5, e6, e7⟩ := idx t
  match a with
  | ⟨0, _⟩ => show win10_0.index t (0 : Fin 2) * 4096 + 1 * (y 0).val = 4096 * t.val + (y 0).val; omega
  | ⟨1, _⟩ => show win10_0.index t (1 : Fin 2) * 256 + 1 * (y 1).val = (y 1).val; omega

/-- Input 1's block is its whole array at every point. -/
theorem blk_1 (c : Dev nD) (t : Fin cfg10.N) : iblk10 V c 1 t = V c main_arg23 := by
  funext y
  show V c main_arg23 (((cfg10.win 1).blk t).view.emb y) = V c main_arg23 y
  refine congrArg (V c main_arg23) ?_
  funext a; apply Fin.ext
  obtain ⟨e0, e1, e2, e3, e4, e5, e6, e7⟩ := idx t
  match a with
  | ⟨0, _⟩ => show win10_1.index t (0 : Fin 2) * 256 + 1 * (y 0).val = (y 0).val; omega
  | ⟨1, _⟩ => show win10_1.index t (1 : Fin 2) * 256 + 1 * (y 1).val = (y 1).val; omega

/-- Input 2's block is its whole array at every point. -/
theorem blk_2 (c : Dev nD) (t : Fin cfg10.N) : iblk10 V c 2 t = V c main_v180 := by
  funext y
  show V c main_v180 (((cfg10.win 2).blk t).view.emb y) = V c main_v180 y
  refine congrArg (V c main_v180) ?_
  funext a; apply Fin.ext
  obtain ⟨e0, e1, e2, e3, e4, e5, e6, e7⟩ := idx t
  match a with
  | ⟨0, _⟩ => show win10_2.index t (0 : Fin 2) * 1 + 1 * (y 0).val = (y 0).val; omega
  | ⟨1, _⟩ => show win10_2.index t (1 : Fin 2) * 256 + 1 * (y 1).val = (y 1).val; omega

/-- What point t writes back is block t of the layer of the whole arrays. -/
theorem flushed (c : Dev nD) (t : Fin cfg10.N) :
    (dat10 V c).flushed 3 t = ((cfg10.win 3).blk t).view.read (Elt Ideal) (linPlain (V c main_v179) (V c main_arg23) (V c main_v180)) := by
  show (cfg10.win 3).cut (grid10.coords t) ((dat10 V c).after 3 t) = _
  rw [after10_3]
  unfold out10_3
  rw [View.canon_unit_zero hz2]
  simp only [View.ld_unit_zero (S := S4096x256) hz2, View.ld_unit_zero (S := S256x256) hz2, View.ld_unit_zero (S := S1x256) hz2]
  funext y
  show k10_pay1 (iblk10 V c 0 t) (iblk10 V c 1 t) (iblk10 V c 2 t) y = linPlain (V c main_v179) (V c main_arg23) (V c main_v180) (((cfg10.win 3).blk t).view.emb y)
  refine (congrFun (pay10 (iblk10 V c 0 t) (iblk10 V c 1 t) (iblk10 V c 2 t)) y).trans ?_
  rw [blk_0 V c t, blk_1 V c t, blk_2 V c t]
  refine (congrFun (rowsAt_linPlain (4096 * t.val) 4096 (hb t) (V c main_v179) (V c main_arg23) (V c main_v180)) y).symm.trans ?_
  refine congrArg (linPlain (V c main_v179) (V c main_arg23) (V c main_v180)) ?_
  funext a; apply Fin.ext
  obtain ⟨e0, e1, e2, e3, e4, e5, e6, e7⟩ := idx t
  match a with
  | ⟨0, _⟩ => show 4096 * t.val + (y 0).val = win10_3.index t (0 : Fin 2) * 4096 + 1 * (y 0).val; omega
  | ⟨1, _⟩ => show (y 1).val = win10_3.index t (1 : Fin 2) * 256 + 1 * (y 1).val; omega

/-- An index of the output array is in point t's block iff each coordinate is in the block's range. -/
theorem mem_blk (t : Fin cfg10.N) (i : S24576x256.Idx) :
    i ∈ ((cfg10.win 3).blk t).view.set ↔ ∀ a : Fin 2, win10_3.index t a * S4096x256.size a ≤ (i a).val ∧ (i a).val < win10_3.index t a * S4096x256.size a + S4096x256.size a := by
  show i ∈ ((View.whole main_v181).slice (win10_3.rect t)).set ↔ _
  rw [View.set_slice_whole, Rect.mem_set_unit]
  exact Iff.rfl

/-- The blocks tile the output array: row r is in block r / 4096. -/
theorem cover (i : S24576x256.Idx) :
    ∃ t : Fin cfg10.N, (cfg10.win 3).flush t = true ∧ i ∈ ((cfg10.win 3).blk t).view.set := by
  have hi0 : (i 0).val < 24576 := (i 0).isLt
  have hi1 : (i 1).val < 256 := (i 1).isLt
  have hN : cfg10.N = 6 := N_10
  have hlt : (i 0).val / 4096 < cfg10.N := by rw [hN]; omega
  obtain ⟨t, ht⟩ : ∃ t : Fin cfg10.N, t.val = (i 0).val / 4096 := ⟨⟨_, hlt⟩, rfl⟩
  refine ⟨t, flush10_3 t, ?_⟩
  rw [mem_blk]
  obtain ⟨e0, e1, e2, e3, e4, e5, e6, e7⟩ := idx t
  intro a
  match a with
  | ⟨0, _⟩ =>
    show win10_3.index t (0 : Fin 2) * 4096 ≤ (i 0).val ∧ (i 0).val < win10_3.index t (0 : Fin 2) * 4096 + 4096
    omega
  | ⟨1, _⟩ =>
    show win10_3.index t (1 : Fin 2) * 256 ≤ (i 1).val ∧ (i 1).val < win10_3.index t (1 : Fin 2) * 256 + 256
    omega

/-- The output array after the call: the layer of the arrays the call was entered with. -/
theorem value (c : Dev nD) : (dat10 V c).arrAt 3 cfg10.N = linPlain (V c main_v179) (V c main_arg23) (V c main_v180) :=
  (dat10 V c).arrAt_eq_of_cover 3 _ (fun t _ => flushed V c t) cover

end Cert.KernelIdeal.Reg10

end
-- ==== Proof.Reg11.lean ====
/-
  Kernel call 11 of the program: what its output array holds when the call has run.

  The call cuts its [24576, 256] inputs into 6 blocks of 4096 rows, keeps the weights and the bias row whole, and at
  block t stores one product plus a bias row of that block. The layer acts row by row, so what point t writes back is
  block t of the layer of the whole arrays; the 6 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg11

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

/-- Block t lies inside the 24576 rows. -/
theorem hb (t : Fin cfg11.N) : 4096 * t.val + 4096 ≤ 24576 := by
  have h : t.val < 6 := lt_of_lt_of_eq t.isLt N_11
  omega

/-- Block t of input 0 is rows 4096 t, …, 4096 t + 4095 of its array. -/
theorem blk_0 (c : Dev nD) (t : Fin cfg11.N) :
    iblk11 V c 0 t = rowsAt (P := 24576) (N := 256) (α := EReal) (4096 * t.val) 4096 (hb t) (V c main_v183) := by
  funext y
  show V c main_v183 (((cfg11.win 0).blk t).view.emb y) = V c main_v183 (ix2 ⟨4096 * t.val + (y 0).val, _⟩ (y 1))
  refine congrArg (V c main_v183) ?_
  funext a; apply Fin.ext
  obtain ⟨e0, e1, e2, e3, e4, e5, e6, e7⟩ := idx t
  match a with
  | ⟨0, _⟩ => show win11_0.index t (0 : Fin 2) * 4096 + 1 * (y 0).val = 4096 * t.val + (y 0).val; omega
  | ⟨1, _⟩ => show win11_0.index t (1 : Fin 2) * 256 + 1 * (y 1).val = (y 1).val; omega

/-- Input 1's block is its whole array at every point. -/
theorem blk_1 (c : Dev nD) (t : Fin cfg11.N) : iblk11 V c 1 t = V c main_arg25 := by
  funext y
  show V c main_arg25 (((cfg11.win 1).blk t).view.emb y) = V c main_arg25 y
  refine congrArg (V c main_arg25) ?_
  funext a; apply Fin.ext
  obtain ⟨e0, e1, e2, e3, e4, e5, e6, e7⟩ := idx t
  match a with
  | ⟨0, _⟩ => show win11_1.index t (0 : Fin 2) * 256 + 1 * (y 0).val = (y 0).val; omega
  | ⟨1, _⟩ => show win11_1.index t (1 : Fin 2) * 256 + 1 * (y 1).val = (y 1).val; omega

/-- Input 2's block is its whole array at every point. -/
theorem blk_2 (c : Dev nD) (t : Fin cfg11.N) : iblk11 V c 2 t = V c main_v184 := by
  funext y
  show V c main_v184 (((cfg11.win 2).blk t).view.emb y) = V c main_v184 y
  refine congrArg (V c main_v184) ?_
  funext a; apply Fin.ext
  obtain ⟨e0, e1, e2, e3, e4, e5, e6, e7⟩ := idx t
  match a with
  | ⟨0, _⟩ => show win11_2.index t (0 : Fin 2) * 1 + 1 * (y 0).val = (y 0).val; omega
  | ⟨1, _⟩ => show win11_2.index t (1 : Fin 2) * 256 + 1 * (y 1).val = (y 1).val; omega

/-- What point t writes back is block t of the layer of the whole arrays. -/
theorem flushed (c : Dev nD) (t : Fin cfg11.N) :
    (dat11 V c).flushed 3 t = ((cfg11.win 3).blk t).view.read (Elt Ideal) (linPlain (V c main_v183) (V c main_arg25) (V c main_v184)) := by
  show (cfg11.win 3).cut (grid11.coords t) ((dat11 V c).after 3 t) = _
  rw [after11_3]
  unfold out11_3
  rw [View.canon_unit_zero hz2]
  simp only [View.ld_unit_zero (S := S4096x256) hz2, View.ld_unit_zero (S := S256x256) hz2, View.ld_unit_zero (S := S1x256) hz2]
  funext y
  show k11_pay1 (iblk11 V c 0 t) (iblk11 V c 1 t) (iblk11 V c 2 t) y = linPlain (V c main_v183) (V c main_arg25) (V c main_v184) (((cfg11.win 3).blk t).view.emb y)
  refine (congrFun (pay11 (iblk11 V c 0 t) (iblk11 V c 1 t) (iblk11 V c 2 t)) y).trans ?_
  rw [blk_0 V c t, blk_1 V c t, blk_2 V c t]
  refine (congrFun (rowsAt_linPlain (4096 * t.val) 4096 (hb t) (V c main_v183) (V c main_arg25) (V c main_v184)) y).symm.trans ?_
  refine congrArg (linPlain (V c main_v183) (V c main_arg25) (V c main_v184)) ?_
  funext a; apply Fin.ext
  obtain ⟨e0, e1, e2, e3, e4, e5, e6, e7⟩ := idx t
  match a with
  | ⟨0, _⟩ => show 4096 * t.val + (y 0).val = win11_3.index t (0 : Fin 2) * 4096 + 1 * (y 0).val; omega
  | ⟨1, _⟩ => show (y 1).val = win11_3.index t (1 : Fin 2) * 256 + 1 * (y 1).val; omega

/-- An index of the output array is in point t's block iff each coordinate is in the block's range. -/
theorem mem_blk (t : Fin cfg11.N) (i : S24576x256.Idx) :
    i ∈ ((cfg11.win 3).blk t).view.set ↔ ∀ a : Fin 2, win11_3.index t a * S4096x256.size a ≤ (i a).val ∧ (i a).val < win11_3.index t a * S4096x256.size a + S4096x256.size a := by
  show i ∈ ((View.whole main_v185).slice (win11_3.rect t)).set ↔ _
  rw [View.set_slice_whole, Rect.mem_set_unit]
  exact Iff.rfl

/-- The blocks tile the output array: row r is in block r / 4096. -/
theorem cover (i : S24576x256.Idx) :
    ∃ t : Fin cfg11.N, (cfg11.win 3).flush t = true ∧ i ∈ ((cfg11.win 3).blk t).view.set := by
  have hi0 : (i 0).val < 24576 := (i 0).isLt
  have hi1 : (i 1).val < 256 := (i 1).isLt
  have hN : cfg11.N = 6 := N_11
  have hlt : (i 0).val / 4096 < cfg11.N := by rw [hN]; omega
  obtain ⟨t, ht⟩ : ∃ t : Fin cfg11.N, t.val = (i 0).val / 4096 := ⟨⟨_, hlt⟩, rfl⟩
  refine ⟨t, flush11_3 t, ?_⟩
  rw [mem_blk]
  obtain ⟨e0, e1, e2, e3, e4, e5, e6, e7⟩ := idx t
  intro a
  match a with
  | ⟨0, _⟩ =>
    show win11_3.index t (0 : Fin 2) * 4096 ≤ (i 0).val ∧ (i 0).val < win11_3.index t (0 : Fin 2) * 4096 + 4096
    omega
  | ⟨1, _⟩ =>
    show win11_3.index t (1 : Fin 2) * 256 ≤ (i 1).val ∧ (i 1).val < win11_3.index t (1 : Fin 2) * 256 + 256
    omega

/-- The output array after the call: the layer of the arrays the call was entered with. -/
theorem value (c : Dev nD) : (dat11 V c).arrAt 3 cfg11.N = linPlain (V c main_v183) (V c main_arg25) (V c main_v184) :=
  (dat11 V c).arrAt_eq_of_cover 3 _ (fun t _ => flushed V c t) cover

end Cert.KernelIdeal.Reg11

end
-- ==== Proof.Reg12.lean ====
/-
  Kernel call 12 of the program: what its output array holds when the call has run.

  The call cuts its [81920, 256] inputs into 20 blocks of 4096 rows, keeps the weights and the bias row whole, and at
  block t stores the sum of two products plus a bias row of that block. The layer acts row by row, so what point t writes back is
  block t of the layer of the whole arrays; the 20 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg12

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg12.N, win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = t.val ∧ win12_5.index t (1 : Fin 2) = 0 :=
  (by decide +kernel : ∀ t : Fin grid12.N, _)

/-- Block t lies inside the 81920 rows. -/
theorem hb (t : Fin cfg12.N) : 4096 * t.val + 4096 ≤ 81920 := by
  have h : t.val < 20 := lt_of_lt_of_eq t.isLt N_12
  omega

/-- Block t of input 0 is rows 4096 t, …, 4096 t + 4095 of its array. -/
theorem blk_0 (c : Dev nD) (t : Fin cfg12.N) :
    iblk12 V c 0 t = rowsAt (P := 81920) (N := 256) (α := EReal) (4096 * t.val) 4096 (hb t) (V c main_v189) := by
  funext y
  show V c main_v189 (((cfg12.win 0).blk t).view.emb y) = V c main_v189 (ix2 ⟨4096 * t.val + (y 0).val, _⟩ (y 1))
  refine congrArg (V c main_v189) ?_
  funext a; apply Fin.ext
  obtain ⟨e0, e1, e2, e3, e4, e5, e6, e7, e8, e9, e10, e11⟩ := idx t
  match a with
  | ⟨0, _⟩ => show win12_0.index t (0 : Fin 2) * 4096 + 1 * (y 0).val = 4096 * t.val + (y 0).val; omega
  | ⟨1, _⟩ => show win12_0.index t (1 : Fin 2) * 256 + 1 * (y 1).val = (y 1).val; omega

/-- Block t of input 1 is rows 4096 t, …, 4096 t + 4095 of its array. -/
theorem blk_1 (c : Dev nD) (t : Fin cfg12.N) :
    iblk12 V c 1 t = rowsAt (P := 81920) (N := 256) (α := EReal) (4096 * t.val) 4096 (hb t) (V c main_v190) := by
  funext y
  show V c main_v190 (((cfg12.win 1).blk t).view.emb y) = V c main_v190 (ix2 ⟨4096 * t.val + (y 0).val, _⟩ (y 1))
  refine congrArg (V c main_v190) ?_
  funext a; apply Fin.ext
  obtain ⟨e0, e1, e2, e3, e4, e5, e6, e7, e8, e9, e10, e11⟩ := idx t
  match a with
  | ⟨0, _⟩ => show win12_1.index t (0 : Fin 2) * 4096 + 1 * (y 0).val = 4096 * t.val + (y 0).val; omega
  | ⟨1, _⟩ => show win12_1.index t (1 : Fin 2) * 256 + 1 * (y 1).val = (y 1).val; omega

/-- Input 2's block is its whole array at every point. -/
theorem blk_2 (c : Dev nD) (t : Fin cfg12.N) : iblk12 V c 2 t = V c main_v187 := by
  funext y
  show V c main_v187 (((cfg12.win 2).blk t).view.emb y) = V c main_v187 y
  refine congrArg (V c main_v187) ?_
  funext a; apply Fin.ext
  obtain ⟨e0, e1, e2, e3, e4, e5, e6, e7, e8, e9, e10, e11⟩ := idx t
  match a with
  | ⟨0, _⟩ => show win12_2.index t (0 : Fin 2) * 256 + 1 * (y 0).val = (y 0).val; omega
  | ⟨1, _⟩ => show win12_2.index t (1 : Fin 2) * 256 + 1 * (y 1).val = (y 1).val; omega

/-- Input 3's block is its whole array at every point. -/
theorem blk_3 (c : Dev nD) (t : Fin cfg12.N) : iblk12 V c 3 t = V c main_v188 := by
  funext y
  show V c main_v188 (((cfg12.win 3).blk t).view.emb y) = V c main_v188 y
  refine congrArg (V c main_v188) ?_
  funext a; apply Fin.ext
  obtain ⟨e0, e1, e2, e3, e4, e5, e6, e7, e8, e9, e10, e11⟩ := idx t
  match a with
  | ⟨0, _⟩ => show win12_3.index t (0 : Fin 2) * 256 + 1 * (y 0).val = (y 0).val; omega
  | ⟨1, _⟩ => show win12_3.index t (1 : Fin 2) * 256 + 1 * (y 1).val = (y 1).val; omega

/-- Input 4's block is its whole array at every point. -/
theorem blk_4 (c : Dev nD) (t : Fin cfg12.N) : iblk12 V c 4 t = V c main_v191 := by
  funext y
  show V c main_v191 (((cfg12.win 4).blk t).view.emb y) = V c main_v191 y
  refine congrArg (V c main_v191) ?_
  funext a; apply Fin.ext
  obtain ⟨e0, e1, e2, e3, e4, e5, e6, e7, e8, e9, e10, e11⟩ := idx t
  match a with
  | ⟨0, _⟩ => show win12_4.index t (0 : Fin 2) * 1 + 1 * (y 0).val = (y 0).val; omega
  | ⟨1, _⟩ => show win12_4.index t (1 : Fin 2) * 256 + 1 * (y 1).val = (y 1).val; omega

/-- What point t writes back is block t of the layer of the whole arrays. -/
theorem flushed (c : Dev nD) (t : Fin cfg12.N) :
    (dat12 V c).flushed 5 t = ((cfg12.win 5).blk t).view.read (Elt Ideal) (dualPlain (V c main_v189) (V c main_v190) (V c main_v187) (V c main_v188) (V c main_v191)) := by
  show (cfg12.win 5).cut (grid12.coords t) ((dat12 V c).after 5 t) = _
  rw [after12_5]
  unfold out12_5
  rw [View.canon_unit_zero hz2]
  simp only [View.ld_unit_zero (S := S4096x256) hz2, View.ld_unit_zero (S := S256x256) hz2, View.ld_unit_zero (S := S1x256) hz2]
  funext y
  show k12_pay1 (iblk12 V c 0 t) (iblk12 V c 1 t) (iblk12 V c 2 t) (iblk12 V c 3 t) (iblk12 V c 4 t) y = dualPlain (V c main_v189) (V c main_v190) (V c main_v187) (V c main_v188) (V c main_v191) (((cfg12.win 5).blk t).view.emb y)
  refine (congrFun (pay12 (iblk12 V c 0 t) (iblk12 V c 1 t) (iblk12 V c 2 t) (iblk12 V c 3 t) (iblk12 V c 4 t)) y).trans ?_
  rw [blk_0 V c t, blk_1 V c t, blk_2 V c t, blk_3 V c t, blk_4 V c t]
  refine (congrFun (rowsAt_dualPlain (4096 * t.val) 4096 (hb t) (V c main_v189) (V c main_v190) (V c main_v187) (V c main_v188) (V c main_v191)) y).symm.trans ?_
  refine congrArg (dualPlain (V c main_v189) (V c main_v190) (V c main_v187) (V c main_v188) (V c main_v191)) ?_
  funext a; apply Fin.ext
  obtain ⟨e0, e1, e2, e3, e4, e5, e6, e7, e8, e9, e10, e11⟩ := idx t
  match a with
  | ⟨0, _⟩ => show 4096 * t.val + (y 0).val = win12_5.index t (0 : Fin 2) * 4096 + 1 * (y 0).val; omega
  | ⟨1, _⟩ => show (y 1).val = win12_5.index t (1 : Fin 2) * 256 + 1 * (y 1).val; omega

/-- An index of the output array is in point t's block iff each coordinate is in the block's range. -/
theorem mem_blk (t : Fin cfg12.N) (i : S81920x256.Idx) :
    i ∈ ((cfg12.win 5).blk t).view.set ↔ ∀ a : Fin 2, win12_5.index t a * S4096x256.size a ≤ (i a).val ∧ (i a).val < win12_5.index t a * S4096x256.size a + S4096x256.size a := by
  show i ∈ ((View.whole main_v192).slice (win12_5.rect t)).set ↔ _
  rw [View.set_slice_whole, Rect.mem_set_unit]
  exact Iff.rfl

/-- The blocks tile the output array: row r is in block r / 4096. -/
theorem cover (i : S81920x256.Idx) :
    ∃ t : Fin cfg12.N, (cfg12.win 5).flush t = true ∧ i ∈ ((cfg12.win 5).blk t).view.set := by
  have hi0 : (i 0).val < 81920 := (i 0).isLt
  have hi1 : (i 1).val < 256 := (i 1).isLt
  have hN : cfg12.N = 20 := N_12
  have hlt : (i 0).val / 4096 < cfg12.N := by rw [hN]; omega
  obtain ⟨t, ht⟩ : ∃ t : Fin cfg12.N, t.val = (i 0).val / 4096 := ⟨⟨_, hlt⟩, rfl⟩
  refine ⟨t, flush12_5 t, ?_⟩
  rw [mem_blk]
  obtain ⟨e0, e1, e2, e3, e4, e5, e6, e7, e8, e9, e10, e11⟩ := idx t
  intro a
  match a with
  | ⟨0, _⟩ =>
    show win12_5.index t (0 : Fin 2) * 4096 ≤ (i 0).val ∧ (i 0).val < win12_5.index t (0 : Fin 2) * 4096 + 4096
    omega
  | ⟨1, _⟩ =>
    show win12_5.index t (1 : Fin 2) * 256 ≤ (i 1).val ∧ (i 1).val < win12_5.index t (1 : Fin 2) * 256 + 256
    omega

/-- The output array after the call: the layer of the arrays the call was entered with. -/
theorem value (c : Dev nD) : (dat12 V c).arrAt 5 cfg12.N = dualPlain (V c main_v189) (V c main_v190) (V c main_v187) (V c main_v188) (V c main_v191) :=
  (dat12 V c).arrAt_eq_of_cover 5 _ (fun t _ => flushed V c t) cover

end Cert.KernelIdeal.Reg12

end
-- ==== Proof.Reg13.lean ====
/-
  Kernel call 13 of the program: what its output array holds when the call has run.

  The call cuts its [24576, 256] inputs into 6 blocks of 4096 rows, keeps the weights and the bias row whole, and at
  block t stores the sum of two products plus a bias row of that block. The layer acts row by row, so what point t writes back is
  block t of the layer of the whole arrays; the 6 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg13

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg13.N, win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = t.val ∧ win13_5.index t (1 : Fin 2) = 0 :=
  (by decide +kernel : ∀ t : Fin grid13.N, _)

/-- Block t lies inside the 24576 rows. -/
theorem hb (t : Fin cfg13.N) : 4096 * t.val + 4096 ≤ 24576 := by
  have h : t.val < 6 := lt_of_lt_of_eq t.isLt N_13
  omega

/-- Block t of input 0 is rows 4096 t, …, 4096 t + 4095 of its array. -/
theorem blk_0 (c : Dev nD) (t : Fin cfg13.N) :
    iblk13 V c 0 t = rowsAt (P := 24576) (N := 256) (α := EReal) (4096 * t.val) 4096 (hb t) (V c main_v194) := by
  funext y
  show V c main_v194 (((cfg13.win 0).blk t).view.emb y) = V c main_v194 (ix2 ⟨4096 * t.val + (y 0).val, _⟩ (y 1))
  refine congrArg (V c main_v194) ?_
  funext a; apply Fin.ext
  obtain ⟨e0, e1, e2, e3, e4, e5, e6, e7, e8, e9, e10, e11⟩ := idx t
  match a with
  | ⟨0, _⟩ => show win13_0.index t (0 : Fin 2) * 4096 + 1 * (y 0).val = 4096 * t.val + (y 0).val; omega
  | ⟨1, _⟩ => show win13_0.index t (1 : Fin 2) * 256 + 1 * (y 1).val = (y 1).val; omega

/-- Block t of input 1 is rows 4096 t, …, 4096 t + 4095 of its array. -/
theorem blk_1 (c : Dev nD) (t : Fin cfg13.N) :
    iblk13 V c 1 t = rowsAt (P := 24576) (N := 256) (α := EReal) (4096 * t.val) 4096 (hb t) (V c main_v195) := by
  funext y
  show V c main_v195 (((cfg13.win 1).blk t).view.emb y) = V c main_v195 (ix2 ⟨4096 * t.val + (y 0).val, _⟩ (y 1))
  refine congrArg (V c main_v195) ?_
  funext a; apply Fin.ext
  obtain ⟨e0, e1, e2, e3, e4, e5, e6, e7, e8, e9, e10, e11⟩ := idx t
  match a with
  | ⟨0, _⟩ => show win13_1.index t (0 : Fin 2) * 4096 + 1 * (y 0).val = 4096 * t.val + (y 0).val; omega
  | ⟨1, _⟩ => show win13_1.index t (1 : Fin 2) * 256 + 1 * (y 1).val = (y 1).val; omega

/-- Input 2's block is its whole array at every point. -/
theorem blk_2 (c : Dev nD) (t : Fin cfg13.N) : iblk13 V c 2 t = V c main_v187 := by
  funext y
  show V c main_v187 (((cfg13.win 2).blk t).view.emb y) = V c main_v187 y
  refine congrArg (V c main_v187) ?_
  funext a; apply Fin.ext
  obtain ⟨e0, e1, e2, e3, e4, e5, e6, e7, e8, e9, e10, e11⟩ := idx t
  match a with
  | ⟨0, _⟩ => show win13_2.index t (0 : Fin 2) * 256 + 1 * (y 0).val = (y 0).val; omega
  | ⟨1, _⟩ => show win13_2.index t (1 : Fin 2) * 256 + 1 * (y 1).val = (y 1).val; omega

/-- Input 3's block is its whole array at every point. -/
theorem blk_3 (c : Dev nD) (t : Fin cfg13.N) : iblk13 V c 3 t = V c main_v188 := by
  funext y
  show V c main_v188 (((cfg13.win 3).blk t).view.emb y) = V c main_v188 y
  refine congrArg (V c main_v188) ?_
  funext a; apply Fin.ext
  obtain ⟨e0, e1, e2, e3, e4, e5, e6, e7, e8, e9, e10, e11⟩ := idx t
  match a with
  | ⟨0, _⟩ => show win13_3.index t (0 : Fin 2) * 256 + 1 * (y 0).val = (y 0).val; omega
  | ⟨1, _⟩ => show win13_3.index t (1 : Fin 2) * 256 + 1 * (y 1).val = (y 1).val; omega

/-- Input 4's block is its whole array at every point. -/
theorem blk_4 (c : Dev nD) (t : Fin cfg13.N) : iblk13 V c 4 t = V c main_v196 := by
  funext y
  show V c main_v196 (((cfg13.win 4).blk t).view.emb y) = V c main_v196 y
  refine congrArg (V c main_v196) ?_
  funext a; apply Fin.ext
  obtain ⟨e0, e1, e2, e3, e4, e5, e6, e7, e8, e9, e10, e11⟩ := idx t
  match a with
  | ⟨0, _⟩ => show win13_4.index t (0 : Fin 2) * 1 + 1 * (y 0).val = (y 0).val; omega
  | ⟨1, _⟩ => show win13_4.index t (1 : Fin 2) * 256 + 1 * (y 1).val = (y 1).val; omega

/-- What point t writes back is block t of the layer of the whole arrays. -/
theorem flushed (c : Dev nD) (t : Fin cfg13.N) :
    (dat13 V c).flushed 5 t = ((cfg13.win 5).blk t).view.read (Elt Ideal) (dualPlain (V c main_v194) (V c main_v195) (V c main_v187) (V c main_v188) (V c main_v196)) := by
  show (cfg13.win 5).cut (grid13.coords t) ((dat13 V c).after 5 t) = _
  rw [after13_5]
  unfold out13_5
  rw [View.canon_unit_zero hz2]
  simp only [View.ld_unit_zero (S := S4096x256) hz2, View.ld_unit_zero (S := S256x256) hz2, View.ld_unit_zero (S := S1x256) hz2]
  funext y
  show k13_pay1 (iblk13 V c 0 t) (iblk13 V c 1 t) (iblk13 V c 2 t) (iblk13 V c 3 t) (iblk13 V c 4 t) y = dualPlain (V c main_v194) (V c main_v195) (V c main_v187) (V c main_v188) (V c main_v196) (((cfg13.win 5).blk t).view.emb y)
  refine (congrFun (pay13 (iblk13 V c 0 t) (iblk13 V c 1 t) (iblk13 V c 2 t) (iblk13 V c 3 t) (iblk13 V c 4 t)) y).trans ?_
  rw [blk_0 V c t, blk_1 V c t, blk_2 V c t, blk_3 V c t, blk_4 V c t]
  refine (congrFun (rowsAt_dualPlain (4096 * t.val) 4096 (hb t) (V c main_v194) (V c main_v195) (V c main_v187) (V c main_v188) (V c main_v196)) y).symm.trans ?_
  refine congrArg (dualPlain (V c main_v194) (V c main_v195) (V c main_v187) (V c main_v188) (V c main_v196)) ?_
  funext a; apply Fin.ext
  obtain ⟨e0, e1, e2, e3, e4, e5, e6, e7, e8, e9, e10, e11⟩ := idx t
  match a with
  | ⟨0, _⟩ => show 4096 * t.val + (y 0).val = win13_5.index t (0 : Fin 2) * 4096 + 1 * (y 0).val; omega
  | ⟨1, _⟩ => show (y 1).val = win13_5.index t (1 : Fin 2) * 256 + 1 * (y 1).val; omega

/-- An index of the output array is in point t's block iff each coordinate is in the block's range. -/
theorem mem_blk (t : Fin cfg13.N) (i : S24576x256.Idx) :
    i ∈ ((cfg13.win 5).blk t).view.set ↔ ∀ a : Fin 2, win13_5.index t a * S4096x256.size a ≤ (i a).val ∧ (i a).val < win13_5.index t a * S4096x256.size a + S4096x256.size a := by
  show i ∈ ((View.whole main_v197).slice (win13_5.rect t)).set ↔ _
  rw [View.set_slice_whole, Rect.mem_set_unit]
  exact Iff.rfl

/-- The blocks tile the output array: row r is in block r / 4096. -/
theorem cover (i : S24576x256.Idx) :
    ∃ t : Fin cfg13.N, (cfg13.win 5).flush t = true ∧ i ∈ ((cfg13.win 5).blk t).view.set := by
  have hi0 : (i 0).val < 24576 := (i 0).isLt
  have hi1 : (i 1).val < 256 := (i 1).isLt
  have hN : cfg13.N = 6 := N_13
  have hlt : (i 0).val / 4096 < cfg13.N := by rw [hN]; omega
  obtain ⟨t, ht⟩ : ∃ t : Fin cfg13.N, t.val = (i 0).val / 4096 := ⟨⟨_, hlt⟩, rfl⟩
  refine ⟨t, flush13_5 t, ?_⟩
  rw [mem_blk]
  obtain ⟨e0, e1, e2, e3, e4, e5, e6, e7, e8, e9, e10, e11⟩ := idx t
  intro a
  match a with
  | ⟨0, _⟩ =>
    show win13_5.index t (0 : Fin 2) * 4096 ≤ (i 0).val ∧ (i 0).val < win13_5.index t (0 : Fin 2) * 4096 + 4096
    omega
  | ⟨1, _⟩ =>
    show win13_5.index t (1 : Fin 2) * 256 ≤ (i 1).val ∧ (i 1).val < win13_5.index t (1 : Fin 2) * 256 + 256
    omega

/-- The output array after the call: the layer of the arrays the call was entered with. -/
theorem value (c : Dev nD) : (dat13 V c).arrAt 5 cfg13.N = dualPlain (V c main_v194) (V c main_v195) (V c main_v187) (V c main_v188) (V c main_v196) :=
  (dat13 V c).arrAt_eq_of_cover 5 _ (fun t _ => flushed V c t) cover

end Cert.KernelIdeal.Reg13

end
-- ==== Proof.KerChain1.lean ====
/-
  The kernel program's value chain through relation 1: what each buffer that matters holds at each boundary of the run, as the
  stages' terms of the features entering the relation and of the arguments.
-/
import proofs.«116214_j36043365548318_1_alg».proof.Proof.KerRange
import proofs.«116214_j36043365548318_1_alg».proof.Proof.KerStretch1
import proofs.«116214_j36043365548318_1_alg».proof.Proof.KerStretch2
import proofs.«116214_j36043365548318_1_alg».proof.Proof.KerChainLib
import proofs.«116214_j36043365548318_1_alg».proof.Proof.Reg8
import proofs.«116214_j36043365548318_1_alg».proof.Proof.Reg9
import proofs.«116214_j36043365548318_1_alg».proof.Proof.Reg10
import proofs.«116214_j36043365548318_1_alg».proof.Proof.Reg11
import proofs.«116214_j36043365548318_1_alg».proof.Proof.Reg12
import proofs.«116214_j36043365548318_1_alg».proof.Proof.Reg13
import proofs.«116214_j36043365548318_1_alg».proof.Proof.Gen.KernelIdeal.Frame

noncomputable section

namespace Cert.KernelIdeal.KerChain

open Cert.KernelIdeal Cert.KernelIdeal.Gen Cert.KernelIdeal.KerKeeps Cert.KernelIdeal.KerStretch Cert.ReferenceIdeal.Stages Idealize.ShloMosaic Idealize.ShloMosaic.TcCoe
  Idealize.SL.Sem Cert.Rows Cert.Gcn Cert.Layers Cert.HostLayers

variable (m : (ℓ : Loc nD τ sig) → Buf (Elt Ideal) ℓ) (ρ : Dev nD → PrngReg) (c : Dev nD)

set_option maxRecDepth 65536 in
/-- The kept nodes' rows of the features entering relation 1. -/
theorem k41_v110 :
    Gen.W41 m ρ c (Proc.devRef .tc main_v110)
      = kept1 (Gen.W41 m ρ c (Proc.devRef .tc main_v103)) (m ((c.tc : Thread nD τ).loc main_arg7)) := by
  refine (hostOps8_v110 (Gen.W40 m ρ c)).trans ?_
  rw [(show Gen.W40 m ρ c (Proc.devRef .tc main_arg7) = (m ((c.tc : Thread nD τ).loc main_arg7)) from argAt m ρ c 40 (by decide) main_arg7 (by decide))]
  exact congrArg (fun h => kept1 h _) (hostOps8_v103 (Gen.W40 m ρ c)).symm

set_option maxRecDepth 65536 in
/-- The isolated nodes' rows. -/
theorem k41_v117 :
    Gen.W41 m ρ c (Proc.devRef .tc main_v117)
      = isol1 (Gen.W41 m ρ c (Proc.devRef .tc main_v103)) (m ((c.tc : Thread nD τ).loc main_arg8)) := by
  refine (hostOps8_v117 (Gen.W40 m ρ c)).trans ?_
  rw [(show Gen.W40 m ρ c (Proc.devRef .tc main_arg8) = (m ((c.tc : Thread nD τ).loc main_arg8)) from argAt m ρ c 40 (by decide) main_arg8 (by decide))]
  exact congrArg (fun h => isol1 h _) (hostOps8_v103 (Gen.W40 m ρ c)).symm

set_option maxRecDepth 65536 in
/-- 2 / λ. -/
theorem k41_v118 :
    Gen.W41 m ρ c (Proc.devRef .tc main_v118)
      = re (m ((c.tc : Thread nD τ).loc main_arg12)) := by
  refine (hostOps8_v118 (Gen.W40 m ρ c)).trans ?_
  rw [(show Gen.W40 m ρ c (Proc.devRef .tc main_arg12) = (m ((c.tc : Thread nD τ).loc main_arg12)) from argAt m ρ c 40 (by decide) main_arg12 (by decide))]

set_option maxRecDepth 65536 in
/-- A half of a graph-convolution layer's weight. -/
theorem k41_v119 :
    Gen.W41 m ρ c (Proc.devRef .tc main_v119)
      = top (m ((c.tc : Thread nD τ).loc main_arg27)) := by
  refine (hostOps8_v119 (Gen.W40 m ρ c)).trans ?_
  rw [(show Gen.W40 m ρ c (Proc.devRef .tc main_arg27) = (m ((c.tc : Thread nD τ).loc main_arg27)) from argAt m ρ c 40 (by decide) main_arg27 (by decide))]

set_option maxRecDepth 65536 in
/-- A half of a graph-convolution layer's weight. -/
theorem k41_v120 :
    Gen.W41 m ρ c (Proc.devRef .tc main_v120)
      = bot (m ((c.tc : Thread nD τ).loc main_arg27)) := by
  refine (hostOps8_v120 (Gen.W40 m ρ c)).trans ?_
  rw [(show Gen.W40 m ρ c (Proc.devRef .tc main_arg27) = (m ((c.tc : Thread nD τ).loc main_arg27)) from argAt m ρ c 40 (by decide) main_arg27 (by decide))]

set_option maxRecDepth 65536 in
/-- A half of a graph-convolution layer's weight. -/
theorem k41_v121 :
    Gen.W41 m ρ c (Proc.devRef .tc main_v121)
      = top (m ((c.tc : Thread nD τ).loc main_arg29)) := by
  refine (hostOps8_v121 (Gen.W40 m ρ c)).trans ?_
  rw [(show Gen.W40 m ρ c (Proc.devRef .tc main_arg29) = (m ((c.tc : Thread nD τ).loc main_arg29)) from argAt m ρ c 40 (by decide) main_arg29 (by decide))]

set_option maxRecDepth 65536 in
/-- A half of a graph-convolution layer's weight. -/
theorem k41_v122 :
    Gen.W41 m ρ c (Proc.devRef .tc main_v122)
      = bot (m ((c.tc : Thread nD τ).loc main_arg29)) := by
  refine (hostOps8_v122 (Gen.W40 m ρ c)).trans ?_
  rw [(show Gen.W40 m ρ c (Proc.devRef .tc main_arg29) = (m ((c.tc : Thread nD τ).loc main_arg29)) from argAt m ρ c 40 (by decide) main_arg29 (by decide))]

set_option maxRecDepth 65536 in
/-- The second Chebyshev term of the kept nodes' rows. -/
theorem k41_v145 :
    Gen.W41 m ρ c (Proc.devRef .tc main_v145)
      = cheb1 (kept1 (Gen.W41 m ρ c (Proc.devRef .tc main_v103)) (m ((c.tc : Thread nD τ).loc main_arg7))) (m ((c.tc : Thread nD τ).loc main_arg9)) (m ((c.tc : Thread nD τ).loc main_arg10)) (m ((c.tc : Thread nD τ).loc main_arg11)) (m ((c.tc : Thread nD τ).loc main_arg12)) := by
  refine (hostOps8_v145 (Gen.W40 m ρ c)).trans ?_
  rw [(show Gen.W40 m ρ c (Proc.devRef .tc main_arg7) = (m ((c.tc : Thread nD τ).loc main_arg7)) from argAt m ρ c 40 (by decide) main_arg7 (by decide)),
    (show Gen.W40 m ρ c (Proc.devRef .tc main_arg9) = (m ((c.tc : Thread nD τ).loc main_arg9)) from argAt m ρ c 40 (by decide) main_arg9 (by decide)),
    (show Gen.W40 m ρ c (Proc.devRef .tc main_arg10) = (m ((c.tc : Thread nD τ).loc main_arg10)) from argAt m ρ c 40 (by decide) main_arg10 (by decide)),
    (show Gen.W40 m ρ c (Proc.devRef .tc main_arg11) = (m ((c.tc : Thread nD τ).loc main_arg11)) from argAt m ρ c 40 (by decide) main_arg11 (by decide)),
    (show Gen.W40 m ρ c (Proc.devRef .tc main_arg12) = (m ((c.tc : Thread nD τ).loc main_arg12)) from argAt m ρ c 40 (by decide) main_arg12 (by decide))]
  exact congrArg (fun h => cheb1 (kept1 h _) _ _ _ _) (hostOps8_v103 (Gen.W40 m ρ c)).symm

set_option maxRecDepth 65536 in
/-- The kept nodes' rows, padded to whole blocks. -/
theorem k42_v146 :
    Gen.W42 m ρ c (Proc.devRef .tc main_v146)
      = pad S81920x256 ![0, 0] ![2460, 0] ![0, 0] (kept1 (Gen.W41 m ρ c (Proc.devRef .tc main_v103)) (m ((c.tc : Thread nD τ).loc main_arg7)) : FVec Ideal S79460x256 .f32) (sitofp (F := Ideal) .f32 (Gen.W41 m ρ c (Proc.devRef .tc main_c_32) : IVec S_ 32) : FVec Ideal S_ .f32) pads_S79460x256_S81920x256_024600_000 h_S_ := by
  refine (hostOps8_1_v146 (Gen.W41 m ρ c)).trans ?_
  rw [k41_v110 m ρ c]

set_option maxRecDepth 65536 in
/-- Their Chebyshev term, padded to whole blocks. -/
theorem k44_v147 :
    Gen.W44 m ρ c (Proc.devRef .tc main_v147)
      = pad S81920x256 ![0, 0] ![2460, 0] ![0, 0] (cheb1 (kept1 (Gen.W41 m ρ c (Proc.devRef .tc main_v103)) (m ((c.tc : Thread nD τ).loc main_arg7))) (m ((c.tc : Thread nD τ).loc main_arg9)) (m ((c.tc : Thread nD τ).loc main_arg10)) (m ((c.tc : Thread nD τ).loc main_arg11)) (m ((c.tc : Thread nD τ).loc main_arg12)) : FVec Ideal S79460x256 .f32) (sitofp (F := Ideal) .f32 (Gen.W43 m ρ c (Proc.devRef .tc main_c_33) : IVec S_ 32) : FVec Ideal S_ .f32) pads_S79460x256_S81920x256_024600_000 h_S_ := by
  refine (hostOps8_3_v147 (Gen.W43 m ρ c)).trans ?_
  rw [((show Gen.W43 m ρ c (Proc.devRef .tc main_v145) = Gen.W41 m ρ c (Proc.devRef .tc main_v145) from carry m ρ c 41 43 (by decide) (by decide) main_v145 (by decide)).trans (k41_v145 m ρ c))]

set_option maxRecDepth 65536 in
/-- A bias as a row. -/
theorem k45_v148 :
    Gen.W45 m ρ c (Proc.devRef .tc main_v148)
      = row (m ((c.tc : Thread nD τ).loc main_arg28)) := by
  refine (hostOps8_4_v148 (Gen.W44 m ρ c)).trans ?_
  rw [(show Gen.W44 m ρ c (Proc.devRef .tc main_arg28) = (m ((c.tc : Thread nD τ).loc main_arg28)) from argAt m ρ c 44 (by decide) main_arg28 (by decide))]

set_option maxRecDepth 65536 in
/-- The first graph-convolution layer on the padded rows. -/
theorem k46_v149 :
    Gen.W46 m ρ c (Proc.devRef .tc main_v149)
      = dualRelu (pad S81920x256 ![0, 0] ![2460, 0] ![0, 0] (kept1 (Gen.W41 m ρ c (Proc.devRef .tc main_v103)) (m ((c.tc : Thread nD τ).loc main_arg7)) : FVec Ideal S79460x256 .f32) (sitofp (F := Ideal) .f32 (Gen.W41 m ρ c (Proc.devRef .tc main_c_32) : IVec S_ 32) : FVec Ideal S_ .f32) pads_S79460x256_S81920x256_024600_000 h_S_) (pad S81920x256 ![0, 0] ![2460, 0] ![0, 0] (cheb1 (kept1 (Gen.W41 m ρ c (Proc.devRef .tc main_v103)) (m ((c.tc : Thread nD τ).loc main_arg7))) (m ((c.tc : Thread nD τ).loc main_arg9)) (m ((c.tc : Thread nD τ).loc main_arg10)) (m ((c.tc : Thread nD τ).loc main_arg11)) (m ((c.tc : Thread nD τ).loc main_arg12)) : FVec Ideal S79460x256 .f32) (sitofp (F := Ideal) .f32 (Gen.W43 m ρ c (Proc.devRef .tc main_c_33) : IVec S_ 32) : FVec Ideal S_ .f32) pads_S79460x256_S81920x256_024600_000 h_S_) (top (m ((c.tc : Thread nD τ).loc main_arg27))) (bot (m ((c.tc : Thread nD τ).loc main_arg27))) (row (m ((c.tc : Thread nD τ).loc main_arg28))) := by
  refine ((Gen.W46_arr m ρ c 5).trans (Cert.KernelIdeal.Reg8.value (Gen.V45 m ρ) c)).trans ?_
  show dualRelu (Gen.W45 m ρ c (Proc.devRef .tc main_v146)) (Gen.W45 m ρ c (Proc.devRef .tc main_v147)) (Gen.W45 m ρ c (Proc.devRef .tc main_v119)) (Gen.W45 m ρ c (Proc.devRef .tc main_v120)) (Gen.W45 m ρ c (Proc.devRef .tc main_v148)) = _
  rw [((show Gen.W45 m ρ c (Proc.devRef .tc main_v146) = Gen.W42 m ρ c (Proc.devRef .tc main_v146) from carry m ρ c 42 45 (by decide) (by decide) main_v146 (by decide)).trans (k42_v146 m ρ c)),
    ((show Gen.W45 m ρ c (Proc.devRef .tc main_v147) = Gen.W44 m ρ c (Proc.devRef .tc main_v147) from carry m ρ c 44 45 (by decide) (by decide) main_v147 (by decide)).trans (k44_v147 m ρ c)),
    ((show Gen.W45 m ρ c (Proc.devRef .tc main_v119) = Gen.W41 m ρ c (Proc.devRef .tc main_v119) from carry m ρ c 41 45 (by decide) (by decide) main_v119 (by decide)).trans (k41_v119 m ρ c)),
    ((show Gen.W45 m ρ c (Proc.devRef .tc main_v120) = Gen.W41 m ρ c (Proc.devRef .tc main_v120) from carry m ρ c 41 45 (by decide) (by decide) main_v120 (by decide)).trans (k41_v120 m ρ c)),
    k45_v148 m ρ c]

set_option maxRecDepth 65536 in
/-- The first graph-convolution layer. -/
theorem k47_v150 :
    Gen.W47 m ρ c (Proc.devRef .tc main_v150)
      = conv1_1 (Gen.W41 m ρ c (Proc.devRef .tc main_v103)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg27)) (m ((c.tc : Thread nD τ).loc main_arg28)) := by
  refine (hostOps9_v150 (Gen.W46 m ρ c)).trans ?_
  rw [k46_v149 m ρ c]
  exact cut_dualRelu _ _ _ _ _ _ _ _ _ _ _ _ (by decide)

set_option maxRecDepth 65536 in
/-- The second Chebyshev term of the first layer's result. -/
theorem k47_v173 :
    Gen.W47 m ρ c (Proc.devRef .tc main_v173)
      = cheb1 (conv1_1 (Gen.W41 m ρ c (Proc.devRef .tc main_v103)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg27)) (m ((c.tc : Thread nD τ).loc main_arg28))) (m ((c.tc : Thread nD τ).loc main_arg9)) (m ((c.tc : Thread nD τ).loc main_arg10)) (m ((c.tc : Thread nD τ).loc main_arg11)) (m ((c.tc : Thread nD τ).loc main_arg12)) := by
  refine (hostOps9_v173 (Gen.W46 m ρ c)).trans ?_
  rw [k46_v149 m ρ c,
    (show Gen.W46 m ρ c (Proc.devRef .tc main_arg9) = (m ((c.tc : Thread nD τ).loc main_arg9)) from argAt m ρ c 46 (by decide) main_arg9 (by decide)),
    (show Gen.W46 m ρ c (Proc.devRef .tc main_arg10) = (m ((c.tc : Thread nD τ).loc main_arg10)) from argAt m ρ c 46 (by decide) main_arg10 (by decide)),
    (show Gen.W46 m ρ c (Proc.devRef .tc main_arg11) = (m ((c.tc : Thread nD τ).loc main_arg11)) from argAt m ρ c 46 (by decide) main_arg11 (by decide)),
    ((show Gen.W46 m ρ c (Proc.devRef .tc main_v118) = Gen.W41 m ρ c (Proc.devRef .tc main_v118) from carry m ρ c 41 46 (by decide) (by decide) main_v118 (by decide)).trans (k41_v118 m ρ c))]
  exact congrArg (fun x => chebR1 x _ _ _ _) (cut_dualRelu _ _ _ _ _ _ _ _ _ _ _ _ (by decide))

set_option maxRecDepth 65536 in
/-- The first layer's result, padded to whole blocks. -/
theorem k48_v174 :
    Gen.W48 m ρ c (Proc.devRef .tc main_v174)
      = pad S81920x256 ![0, 0] ![2460, 0] ![0, 0] (conv1_1 (Gen.W41 m ρ c (Proc.devRef .tc main_v103)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg27)) (m ((c.tc : Thread nD τ).loc main_arg28)) : FVec Ideal S79460x256 .f32) (sitofp (F := Ideal) .f32 (Gen.W47 m ρ c (Proc.devRef .tc main_c_38) : IVec S_ 32) : FVec Ideal S_ .f32) pads_S79460x256_S81920x256_024600_000 h_S_ := by
  refine (hostOps9_1_v174 (Gen.W47 m ρ c)).trans ?_
  rw [k47_v150 m ρ c]

set_option maxRecDepth 65536 in
/-- Its Chebyshev term, padded to whole blocks. -/
theorem k50_v175 :
    Gen.W50 m ρ c (Proc.devRef .tc main_v175)
      = pad S81920x256 ![0, 0] ![2460, 0] ![0, 0] (cheb1 (conv1_1 (Gen.W41 m ρ c (Proc.devRef .tc main_v103)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg27)) (m ((c.tc : Thread nD τ).loc main_arg28))) (m ((c.tc : Thread nD τ).loc main_arg9)) (m ((c.tc : Thread nD τ).loc main_arg10)) (m ((c.tc : Thread nD τ).loc main_arg11)) (m ((c.tc : Thread nD τ).loc main_arg12)) : FVec Ideal S79460x256 .f32) (sitofp (F := Ideal) .f32 (Gen.W49 m ρ c (Proc.devRef .tc main_c_39) : IVec S_ 32) : FVec Ideal S_ .f32) pads_S79460x256_S81920x256_024600_000 h_S_ := by
  refine (hostOps9_3_v175 (Gen.W49 m ρ c)).trans ?_
  rw [((show Gen.W49 m ρ c (Proc.devRef .tc main_v173) = Gen.W47 m ρ c (Proc.devRef .tc main_v173) from carry m ρ c 47 49 (by decide) (by decide) main_v173 (by decide)).trans (k47_v173 m ρ c))]

set_option maxRecDepth 65536 in
/-- A bias as a row. -/
theorem k51_v176 :
    Gen.W51 m ρ c (Proc.devRef .tc main_v176)
      = row (m ((c.tc : Thread nD τ).loc main_arg30)) := by
  refine (hostOps9_4_v176 (Gen.W50 m ρ c)).trans ?_
  rw [(show Gen.W50 m ρ c (Proc.devRef .tc main_arg30) = (m ((c.tc : Thread nD τ).loc main_arg30)) from argAt m ρ c 50 (by decide) main_arg30 (by decide))]

set_option maxRecDepth 65536 in
/-- The second graph-convolution layer on the padded rows. -/
theorem k52_v177 :
    Gen.W52 m ρ c (Proc.devRef .tc main_v177)
      = dualRelu (pad S81920x256 ![0, 0] ![2460, 0] ![0, 0] (conv1_1 (Gen.W41 m ρ c (Proc.devRef .tc main_v103)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg27)) (m ((c.tc : Thread nD τ).loc main_arg28)) : FVec Ideal S79460x256 .f32) (sitofp (F := Ideal) .f32 (Gen.W47 m ρ c (Proc.devRef .tc main_c_38) : IVec S_ 32) : FVec Ideal S_ .f32) pads_S79460x256_S81920x256_024600_000 h_S_) (pad S81920x256 ![0, 0] ![2460, 0] ![0, 0] (cheb1 (conv1_1 (Gen.W41 m ρ c (Proc.devRef .tc main_v103)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg27)) (m ((c.tc : Thread nD τ).loc main_arg28))) (m ((c.tc : Thread nD τ).loc main_arg9)) (m ((c.tc : Thread nD τ).loc main_arg10)) (m ((c.tc : Thread nD τ).loc main_arg11)) (m ((c.tc : Thread nD τ).loc main_arg12)) : FVec Ideal S79460x256 .f32) (sitofp (F := Ideal) .f32 (Gen.W49 m ρ c (Proc.devRef .tc main_c_39) : IVec S_ 32) : FVec Ideal S_ .f32) pads_S79460x256_S81920x256_024600_000 h_S_) (top (m ((c.tc : Thread nD τ).loc main_arg29))) (bot (m ((c.tc : Thread nD τ).loc main_arg29))) (row (m ((c.tc : Thread nD τ).loc main_arg30))) := by
  refine ((Gen.W52_arr m ρ c 5).trans (Cert.KernelIdeal.Reg9.value (Gen.V51 m ρ) c)).trans ?_
  show dualRelu (Gen.W51 m ρ c (Proc.devRef .tc main_v174)) (Gen.W51 m ρ c (Proc.devRef .tc main_v175)) (Gen.W51 m ρ c (Proc.devRef .tc main_v121)) (Gen.W51 m ρ c (Proc.devRef .tc main_v122)) (Gen.W51 m ρ c (Proc.devRef .tc main_v176)) = _
  rw [((show Gen.W51 m ρ c (Proc.devRef .tc main_v174) = Gen.W48 m ρ c (Proc.devRef .tc main_v174) from carry m ρ c 48 51 (by decide) (by decide) main_v174 (by decide)).trans (k48_v174 m ρ c)),
    ((show Gen.W51 m ρ c (Proc.devRef .tc main_v175) = Gen.W50 m ρ c (Proc.devRef .tc main_v175) from carry m ρ c 50 51 (by decide) (by decide) main_v175 (by decide)).trans (k50_v175 m ρ c)),
    ((show Gen.W51 m ρ c (Proc.devRef .tc main_v121) = Gen.W41 m ρ c (Proc.devRef .tc main_v121) from carry m ρ c 41 51 (by decide) (by decide) main_v121 (by decide)).trans (k41_v121 m ρ c)),
    ((show Gen.W51 m ρ c (Proc.devRef .tc main_v122) = Gen.W41 m ρ c (Proc.devRef .tc main_v122) from carry m ρ c 41 51 (by decide) (by decide) main_v122 (by decide)).trans (k41_v122 m ρ c)),
    k51_v176 m ρ c]

set_option maxRecDepth 65536 in
/-- The second graph-convolution layer. -/
theorem k53_v178 :
    Gen.W53 m ρ c (Proc.devRef .tc main_v178)
      = conv2_1 (Gen.W41 m ρ c (Proc.devRef .tc main_v103)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg27)) (m ((c.tc : Thread nD τ).loc main_arg28)) (m ((c.tc : Thread nD τ).loc main_arg29)) (m ((c.tc : Thread nD τ).loc main_arg30)) := by
  refine (hostOps10_v178 (Gen.W52 m ρ c)).trans ?_
  rw [k52_v177 m ρ c]
  exact cut_dualRelu _ _ _ _ _ _ _ _ _ _ _ _ (by decide)

set_option maxRecDepth 65536 in
/-- The isolated nodes' rows, padded to whole blocks. -/
theorem k54_v179 :
    Gen.W54 m ρ c (Proc.devRef .tc main_v179)
      = pad S24576x256 ![0, 0] ![4036, 0] ![0, 0] (isol1 (Gen.W41 m ρ c (Proc.devRef .tc main_v103)) (m ((c.tc : Thread nD τ).loc main_arg8)) : FVec Ideal S20540x256 .f32) (sitofp (F := Ideal) .f32 (Gen.W53 m ρ c (Proc.devRef .tc main_c_40) : IVec S_ 32) : FVec Ideal S_ .f32) pads_S20540x256_S24576x256_040360_000 h_S_ := by
  refine (hostOps10_1_v179 (Gen.W53 m ρ c)).trans ?_
  rw [((show Gen.W53 m ρ c (Proc.devRef .tc main_v117) = Gen.W41 m ρ c (Proc.devRef .tc main_v117) from carry m ρ c 41 53 (by decide) (by decide) main_v117 (by decide)).trans (k41_v117 m ρ c))]

set_option maxRecDepth 65536 in
/-- A bias as a row. -/
theorem k55_v180 :
    Gen.W55 m ρ c (Proc.devRef .tc main_v180)
      = row (m ((c.tc : Thread nD τ).loc main_arg24)) := by
  refine (hostOps10_2_v180 (Gen.W54 m ρ c)).trans ?_
  rw [(show Gen.W54 m ρ c (Proc.devRef .tc main_arg24) = (m ((c.tc : Thread nD τ).loc main_arg24)) from argAt m ρ c 54 (by decide) main_arg24 (by decide))]

set_option maxRecDepth 65536 in
/-- The first plain layer on the padded rows. -/
theorem k56_v181 :
    Gen.W56 m ρ c (Proc.devRef .tc main_v181)
      = linPlain (pad S24576x256 ![0, 0] ![4036, 0] ![0, 0] (isol1 (Gen.W41 m ρ c (Proc.devRef .tc main_v103)) (m ((c.tc : Thread nD τ).loc main_arg8)) : FVec Ideal S20540x256 .f32) (sitofp (F := Ideal) .f32 (Gen.W53 m ρ c (Proc.devRef .tc main_c_40) : IVec S_ 32) : FVec Ideal S_ .f32) pads_S20540x256_S24576x256_040360_000 h_S_) ((m ((c.tc : Thread nD τ).loc main_arg23))) (row (m ((c.tc : Thread nD τ).loc main_arg24))) := by
  refine ((Gen.W56_arr m ρ c 3).trans (Cert.KernelIdeal.Reg10.value (Gen.V55 m ρ) c)).trans ?_
  show linPlain (Gen.W55 m ρ c (Proc.devRef .tc main_v179)) (Gen.W55 m ρ c (Proc.devRef .tc main_arg23)) (Gen.W55 m ρ c (Proc.devRef .tc main_v180)) = _
  rw [((show Gen.W55 m ρ c (Proc.devRef .tc main_v179) = Gen.W54 m ρ c (Proc.devRef .tc main_v179) from carry m ρ c 54 55 (by decide) (by decide) main_v179 (by decide)).trans (k54_v179 m ρ c)),
    (show Gen.W55 m ρ c (Proc.devRef .tc main_arg23) = (m ((c.tc : Thread nD τ).loc main_arg23)) from argAt m ρ c 55 (by decide) main_arg23 (by decide)),
    k55_v180 m ρ c]

set_option maxRecDepth 65536 in
/-- The first plain layer. -/
theorem k57_v182 :
    Gen.W57 m ρ c (Proc.devRef .tc main_v182)
      = mlp1_1 (Gen.W41 m ρ c (Proc.devRef .tc main_v103)) (m ((c.tc : Thread nD τ).loc main_arg8)) (m ((c.tc : Thread nD τ).loc main_arg23)) (m ((c.tc : Thread nD τ).loc main_arg24)) := by
  refine (hostOps11_v182 (Gen.W56 m ρ c)).trans ?_
  rw [k56_v181 m ρ c]
  exact cut_linPlain _ _ _ _ _ _ _ _ (by decide)

set_option maxRecDepth 65536 in
/-- The first plain layer's result, padded to whole blocks. -/
theorem k58_v183 :
    Gen.W58 m ρ c (Proc.devRef .tc main_v183)
      = pad S24576x256 ![0, 0] ![4036, 0] ![0, 0] (mlp1_1 (Gen.W41 m ρ c (Proc.devRef .tc main_v103)) (m ((c.tc : Thread nD τ).loc main_arg8)) (m ((c.tc : Thread nD τ).loc main_arg23)) (m ((c.tc : Thread nD τ).loc main_arg24)) : FVec Ideal S20540x256 .f32) (sitofp (F := Ideal) .f32 (Gen.W57 m ρ c (Proc.devRef .tc main_c_41) : IVec S_ 32) : FVec Ideal S_ .f32) pads_S20540x256_S24576x256_040360_000 h_S_ := by
  refine (hostOps11_1_v183 (Gen.W57 m ρ c)).trans ?_
  rw [k57_v182 m ρ c]

set_option maxRecDepth 65536 in
/-- A bias as a row. -/
theorem k59_v184 :
    Gen.W59 m ρ c (Proc.devRef .tc main_v184)
      = row (m ((c.tc : Thread nD τ).loc main_arg26)) := by
  refine (hostOps11_2_v184 (Gen.W58 m ρ c)).trans ?_
  rw [(show Gen.W58 m ρ c (Proc.devRef .tc main_arg26) = (m ((c.tc : Thread nD τ).loc main_arg26)) from argAt m ρ c 58 (by decide) main_arg26 (by decide))]

set_option maxRecDepth 65536 in
/-- The second plain layer on the padded rows. -/
theorem k60_v185 :
    Gen.W60 m ρ c (Proc.devRef .tc main_v185)
      = linPlain (pad S24576x256 ![0, 0] ![4036, 0] ![0, 0] (mlp1_1 (Gen.W41 m ρ c (Proc.devRef .tc main_v103)) (m ((c.tc : Thread nD τ).loc main_arg8)) (m ((c.tc : Thread nD τ).loc main_arg23)) (m ((c.tc : Thread nD τ).loc main_arg24)) : FVec Ideal S20540x256 .f32) (sitofp (F := Ideal) .f32 (Gen.W57 m ρ c (Proc.devRef .tc main_c_41) : IVec S_ 32) : FVec Ideal S_ .f32) pads_S20540x256_S24576x256_040360_000 h_S_) ((m ((c.tc : Thread nD τ).loc main_arg25))) (row (m ((c.tc : Thread nD τ).loc main_arg26))) := by
  refine ((Gen.W60_arr m ρ c 3).trans (Cert.KernelIdeal.Reg11.value (Gen.V59 m ρ) c)).trans ?_
  show linPlain (Gen.W59 m ρ c (Proc.devRef .tc main_v183)) (Gen.W59 m ρ c (Proc.devRef .tc main_arg25)) (Gen.W59 m ρ c (Proc.devRef .tc main_v184)) = _
  rw [((show Gen.W59 m ρ c (Proc.devRef .tc main_v183) = Gen.W58 m ρ c (Proc.devRef .tc main_v183) from carry m ρ c 58 59 (by decide) (by decide) main_v183 (by decide)).trans (k58_v183 m ρ c)),
    (show Gen.W59 m ρ c (Proc.devRef .tc main_arg25) = (m ((c.tc : Thread nD τ).loc main_arg25)) from argAt m ρ c 59 (by decide) main_arg25 (by decide)),
    k59_v184 m ρ c]

set_option maxRecDepth 65536 in
/-- The second plain layer. -/
theorem k61_v186 :
    Gen.W61 m ρ c (Proc.devRef .tc main_v186)
      = mlp2_1 (Gen.W41 m ρ c (Proc.devRef .tc main_v103)) (m ((c.tc : Thread nD τ).loc main_arg8)) (m ((c.tc : Thread nD τ).loc main_arg23)) (m ((c.tc : Thread nD τ).loc main_arg24)) (m ((c.tc : Thread nD τ).loc main_arg25)) (m ((c.tc : Thread nD τ).loc main_arg26)) := by
  refine (hostOps12_v186 (Gen.W60 m ρ c)).trans ?_
  rw [k60_v185 m ρ c]
  exact cut_linPlain _ _ _ _ _ _ _ _ (by decide)

set_option maxRecDepth 65536 in
/-- The first half of the combining layer's weight. -/
theorem k61_v187 :
    Gen.W61 m ρ c (Proc.devRef .tc main_v187)
      = top (m ((c.tc : Thread nD τ).loc main_arg31)) := by
  refine (hostOps12_v187 (Gen.W60 m ρ c)).trans ?_
  rw [(show Gen.W60 m ρ c (Proc.devRef .tc main_arg31) = (m ((c.tc : Thread nD τ).loc main_arg31)) from argAt m ρ c 60 (by decide) main_arg31 (by decide))]

set_option maxRecDepth 65536 in
/-- The last half of the combining layer's weight. -/
theorem k61_v188 :
    Gen.W61 m ρ c (Proc.devRef .tc main_v188)
      = bot (m ((c.tc : Thread nD τ).loc main_arg31)) := by
  refine (hostOps12_v188 (Gen.W60 m ρ c)).trans ?_
  rw [(show Gen.W60 m ρ c (Proc.devRef .tc main_arg31) = (m ((c.tc : Thread nD τ).loc main_arg31)) from argAt m ρ c 60 (by decide) main_arg31 (by decide))]

set_option maxRecDepth 65536 in
/-- The first layer's result, padded to whole blocks. -/
theorem k62_v189 :
    Gen.W62 m ρ c (Proc.devRef .tc main_v189)
      = pad S81920x256 ![0, 0] ![2460, 0] ![0, 0] (conv1_1 (Gen.W41 m ρ c (Proc.devRef .tc main_v103)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg27)) (m ((c.tc : Thread nD τ).loc main_arg28)) : FVec Ideal S79460x256 .f32) (sitofp (F := Ideal) .f32 (Gen.W61 m ρ c (Proc.devRef .tc main_c_42) : IVec S_ 32) : FVec Ideal S_ .f32) pads_S79460x256_S81920x256_024600_000 h_S_ := by
  refine (hostOps12_1_v189 (Gen.W61 m ρ c)).trans ?_
  rw [((show Gen.W61 m ρ c (Proc.devRef .tc main_v150) = Gen.W47 m ρ c (Proc.devRef .tc main_v150) from carry m ρ c 47 61 (by decide) (by decide) main_v150 (by decide)).trans (k47_v150 m ρ c))]

set_option maxRecDepth 65536 in
/-- The second layer's result, padded to whole blocks. -/
theorem k64_v190 :
    Gen.W64 m ρ c (Proc.devRef .tc main_v190)
      = pad S81920x256 ![0, 0] ![2460, 0] ![0, 0] (conv2_1 (Gen.W41 m ρ c (Proc.devRef .tc main_v103)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg27)) (m ((c.tc : Thread nD τ).loc main_arg28)) (m ((c.tc : Thread nD τ).loc main_arg29)) (m ((c.tc : Thread nD τ).loc main_arg30)) : FVec Ideal S79460x256 .f32) (sitofp (F := Ideal) .f32 (Gen.W63 m ρ c (Proc.devRef .tc main_c_43) : IVec S_ 32) : FVec Ideal S_ .f32) pads_S79460x256_S81920x256_024600_000 h_S_ := by
  refine (hostOps12_3_v190 (Gen.W63 m ρ c)).trans ?_
  rw [((show Gen.W63 m ρ c (Proc.devRef .tc main_v178) = Gen.W53 m ρ c (Proc.devRef .tc main_v178) from carry m ρ c 53 63 (by decide) (by decide) main_v178 (by decide)).trans (k53_v178 m ρ c))]

set_option maxRecDepth 65536 in
/-- A bias as a row. -/
theorem k65_v191 :
    Gen.W65 m ρ c (Proc.devRef .tc main_v191)
      = row (m ((c.tc : Thread nD τ).loc main_arg32)) := by
  refine (hostOps12_4_v191 (Gen.W64 m ρ c)).trans ?_
  rw [(show Gen.W64 m ρ c (Proc.devRef .tc main_arg32) = (m ((c.tc : Thread nD τ).loc main_arg32)) from argAt m ρ c 64 (by decide) main_arg32 (by decide))]

set_option maxRecDepth 65536 in
/-- The combining layer on the kept nodes' padded rows. -/
theorem k66_v192 :
    Gen.W66 m ρ c (Proc.devRef .tc main_v192)
      = dualPlain (pad S81920x256 ![0, 0] ![2460, 0] ![0, 0] (conv1_1 (Gen.W41 m ρ c (Proc.devRef .tc main_v103)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg27)) (m ((c.tc : Thread nD τ).loc main_arg28)) : FVec Ideal S79460x256 .f32) (sitofp (F := Ideal) .f32 (Gen.W61 m ρ c (Proc.devRef .tc main_c_42) : IVec S_ 32) : FVec Ideal S_ .f32) pads_S79460x256_S81920x256_024600_000 h_S_) (pad S81920x256 ![0, 0] ![2460, 0] ![0, 0] (conv2_1 (Gen.W41 m ρ c (Proc.devRef .tc main_v103)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg27)) (m ((c.tc : Thread nD τ).loc main_arg28)) (m ((c.tc : Thread nD τ).loc main_arg29)) (m ((c.tc : Thread nD τ).loc main_arg30)) : FVec Ideal S79460x256 .f32) (sitofp (F := Ideal) .f32 (Gen.W63 m ρ c (Proc.devRef .tc main_c_43) : IVec S_ 32) : FVec Ideal S_ .f32) pads_S79460x256_S81920x256_024600_000 h_S_) (top (m ((c.tc : Thread nD τ).loc main_arg31))) (bot (m ((c.tc : Thread nD τ).loc main_arg31))) (row (m ((c.tc : Thread nD τ).loc main_arg32))) := by
  refine ((Gen.W66_arr m ρ c 5).trans (Cert.KernelIdeal.Reg12.value (Gen.V65 m ρ) c)).trans ?_
  show dualPlain (Gen.W65 m ρ c (Proc.devRef .tc main_v189)) (Gen.W65 m ρ c (Proc.devRef .tc main_v190)) (Gen.W65 m ρ c (Proc.devRef .tc main_v187)) (Gen.W65 m ρ c (Proc.devRef .tc main_v188)) (Gen.W65 m ρ c (Proc.devRef .tc main_v191)) = _
  rw [((show Gen.W65 m ρ c (Proc.devRef .tc main_v189) = Gen.W62 m ρ c (Proc.devRef .tc main_v189) from carry m ρ c 62 65 (by decide) (by decide) main_v189 (by decide)).trans (k62_v189 m ρ c)),
    ((show Gen.W65 m ρ c (Proc.devRef .tc main_v190) = Gen.W64 m ρ c (Proc.devRef .tc main_v190) from carry m ρ c 64 65 (by decide) (by decide) main_v190 (by decide)).trans (k64_v190 m ρ c)),
    ((show Gen.W65 m ρ c (Proc.devRef .tc main_v187) = Gen.W61 m ρ c (Proc.devRef .tc main_v187) from carry m ρ c 61 65 (by decide) (by decide) main_v187 (by decide)).trans (k61_v187 m ρ c)),
    ((show Gen.W65 m ρ c (Proc.devRef .tc main_v188) = Gen.W61 m ρ c (Proc.devRef .tc main_v188) from carry m ρ c 61 65 (by decide) (by decide) main_v188 (by decide)).trans (k61_v188 m ρ c)),
    k65_v191 m ρ c]

set_option maxRecDepth 65536 in
/-- The combining layer on the kept nodes. -/
theorem k67_v193 :
    Gen.W67 m ρ c (Proc.devRef .tc main_v193)
      = dualPlain (conv1_1 (Gen.W41 m ρ c (Proc.devRef .tc main_v103)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg27)) (m ((c.tc : Thread nD τ).loc main_arg28))) (conv2_1 (Gen.W41 m ρ c (Proc.devRef .tc main_v103)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg27)) (m ((c.tc : Thread nD τ).loc main_arg28)) (m ((c.tc : Thread nD τ).loc main_arg29)) (m ((c.tc : Thread nD τ).loc main_arg30))) (top (m ((c.tc : Thread nD τ).loc main_arg31))) (bot (m ((c.tc : Thread nD τ).loc main_arg31))) (row (m ((c.tc : Thread nD τ).loc main_arg32))) := by
  refine (hostOps13_v193 (Gen.W66 m ρ c)).trans ?_
  rw [k66_v192 m ρ c]
  exact cut_dualPlain _ _ _ _ _ _ _ _ _ _ _ _ (by decide)

set_option maxRecDepth 65536 in
/-- The first plain layer's result, padded to whole blocks. -/
theorem k68_v194 :
    Gen.W68 m ρ c (Proc.devRef .tc main_v194)
      = pad S24576x256 ![0, 0] ![4036, 0] ![0, 0] (mlp1_1 (Gen.W41 m ρ c (Proc.devRef .tc main_v103)) (m ((c.tc : Thread nD τ).loc main_arg8)) (m ((c.tc : Thread nD τ).loc main_arg23)) (m ((c.tc : Thread nD τ).loc main_arg24)) : FVec Ideal S20540x256 .f32) (sitofp (F := Ideal) .f32 (Gen.W67 m ρ c (Proc.devRef .tc main_c_44) : IVec S_ 32) : FVec Ideal S_ .f32) pads_S20540x256_S24576x256_040360_000 h_S_ := by
  refine (hostOps13_1_v194 (Gen.W67 m ρ c)).trans ?_
  rw [((show Gen.W67 m ρ c (Proc.devRef .tc main_v182) = Gen.W57 m ρ c (Proc.devRef .tc main_v182) from carry m ρ c 57 67 (by decide) (by decide) main_v182 (by decide)).trans (k57_v182 m ρ c))]

set_option maxRecDepth 65536 in
/-- The second plain layer's result, padded to whole blocks. -/
theorem k70_v195 :
    Gen.W70 m ρ c (Proc.devRef .tc main_v195)
      = pad S24576x256 ![0, 0] ![4036, 0] ![0, 0] (mlp2_1 (Gen.W41 m ρ c (Proc.devRef .tc main_v103)) (m ((c.tc : Thread nD τ).loc main_arg8)) (m ((c.tc : Thread nD τ).loc main_arg23)) (m ((c.tc : Thread nD τ).loc main_arg24)) (m ((c.tc : Thread nD τ).loc main_arg25)) (m ((c.tc : Thread nD τ).loc main_arg26)) : FVec Ideal S20540x256 .f32) (sitofp (F := Ideal) .f32 (Gen.W69 m ρ c (Proc.devRef .tc main_c_45) : IVec S_ 32) : FVec Ideal S_ .f32) pads_S20540x256_S24576x256_040360_000 h_S_ := by
  refine (hostOps13_3_v195 (Gen.W69 m ρ c)).trans ?_
  rw [((show Gen.W69 m ρ c (Proc.devRef .tc main_v186) = Gen.W61 m ρ c (Proc.devRef .tc main_v186) from carry m ρ c 61 69 (by decide) (by decide) main_v186 (by decide)).trans (k61_v186 m ρ c))]

set_option maxRecDepth 65536 in
/-- A bias as a row. -/
theorem k71_v196 :
    Gen.W71 m ρ c (Proc.devRef .tc main_v196)
      = row (m ((c.tc : Thread nD τ).loc main_arg32)) := by
  refine (hostOps13_4_v196 (Gen.W70 m ρ c)).trans ?_
  rw [(show Gen.W70 m ρ c (Proc.devRef .tc main_arg32) = (m ((c.tc : Thread nD τ).loc main_arg32)) from argAt m ρ c 70 (by decide) main_arg32 (by decide))]

set_option maxRecDepth 65536 in
/-- The combining layer on the isolated nodes' padded rows. -/
theorem k72_v197 :
    Gen.W72 m ρ c (Proc.devRef .tc main_v197)
      = dualPlain (pad S24576x256 ![0, 0] ![4036, 0] ![0, 0] (mlp1_1 (Gen.W41 m ρ c (Proc.devRef .tc main_v103)) (m ((c.tc : Thread nD τ).loc main_arg8)) (m ((c.tc : Thread nD τ).loc main_arg23)) (m ((c.tc : Thread nD τ).loc main_arg24)) : FVec Ideal S20540x256 .f32) (sitofp (F := Ideal) .f32 (Gen.W67 m ρ c (Proc.devRef .tc main_c_44) : IVec S_ 32) : FVec Ideal S_ .f32) pads_S20540x256_S24576x256_040360_000 h_S_) (pad S24576x256 ![0, 0] ![4036, 0] ![0, 0] (mlp2_1 (Gen.W41 m ρ c (Proc.devRef .tc main_v103)) (m ((c.tc : Thread nD τ).loc main_arg8)) (m ((c.tc : Thread nD τ).loc main_arg23)) (m ((c.tc : Thread nD τ).loc main_arg24)) (m ((c.tc : Thread nD τ).loc main_arg25)) (m ((c.tc : Thread nD τ).loc main_arg26)) : FVec Ideal S20540x256 .f32) (sitofp (F := Ideal) .f32 (Gen.W69 m ρ c (Proc.devRef .tc main_c_45) : IVec S_ 32) : FVec Ideal S_ .f32) pads_S20540x256_S24576x256_040360_000 h_S_) (top (m ((c.tc : Thread nD τ).loc main_arg31))) (bot (m ((c.tc : Thread nD τ).loc main_arg31))) (row (m ((c.tc : Thread nD τ).loc main_arg32))) := by
  refine ((Gen.W72_arr m ρ c 5).trans (Cert.KernelIdeal.Reg13.value (Gen.V71 m ρ) c)).trans ?_
  show dualPlain (Gen.W71 m ρ c (Proc.devRef .tc main_v194)) (Gen.W71 m ρ c (Proc.devRef .tc main_v195)) (Gen.W71 m ρ c (Proc.devRef .tc main_v187)) (Gen.W71 m ρ c (Proc.devRef .tc main_v188)) (Gen.W71 m ρ c (Proc.devRef .tc main_v196)) = _
  rw [((show Gen.W71 m ρ c (Proc.devRef .tc main_v194) = Gen.W68 m ρ c (Proc.devRef .tc main_v194) from carry m ρ c 68 71 (by decide) (by decide) main_v194 (by decide)).trans (k68_v194 m ρ c)),
    ((show Gen.W71 m ρ c (Proc.devRef .tc main_v195) = Gen.W70 m ρ c (Proc.devRef .tc main_v195) from carry m ρ c 70 71 (by decide) (by decide) main_v195 (by decide)).trans (k70_v195 m ρ c)),
    ((show Gen.W71 m ρ c (Proc.devRef .tc main_v187) = Gen.W61 m ρ c (Proc.devRef .tc main_v187) from carry m ρ c 61 71 (by decide) (by decide) main_v187 (by decide)).trans (k61_v187 m ρ c)),
    ((show Gen.W71 m ρ c (Proc.devRef .tc main_v188) = Gen.W61 m ρ c (Proc.devRef .tc main_v188) from carry m ρ c 61 71 (by decide) (by decide) main_v188 (by decide)).trans (k61_v188 m ρ c)),
    k71_v196 m ρ c]

set_option maxRecDepth 65536 in
/-- Relation 1's block: the combining layer on the kept nodes above that on the isolated nodes. -/
theorem k73_v199 :
    Gen.W73 m ρ c (Proc.devRef .tc main_v199)
      = block1 (Gen.W41 m ρ c (Proc.devRef .tc main_v103)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg31)) (m ((c.tc : Thread nD τ).loc main_arg32)) := by
  refine (hostOps14_v199 (Gen.W72 m ρ c)).trans ?_
  rw [((show Gen.W72 m ρ c (Proc.devRef .tc main_v193) = Gen.W67 m ρ c (Proc.devRef .tc main_v193) from carry m ρ c 67 72 (by decide) (by decide) main_v193 (by decide)).trans (k67_v193 m ρ c)),
    k72_v197 m ρ c]
  exact (concat_congr_right _ _ _ _ _ _ _ _ (cut_dualPlain _ _ _ _ _ _ _ _ _ _ _ _ (by decide))).trans rfl

end Cert.KernelIdeal.KerChain

end
-- ==== Proof.Reg14.lean ====
/-
  Kernel call 14 of the program: what its output array holds when the call has run.

  The call cuts its [77824, 256] inputs into 19 blocks of 4096 rows, keeps the weights and the bias row whole, and at
  block t stores the rectifier of the sum of two products plus a bias row of that block. The layer acts row by row, so what point t writes back is
  block t of the layer of the whole arrays; the 19 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg14

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg14.N, win14_0.index t (0 : Fin 2) = t.val ∧ win14_0.index t (1 : Fin 2) = 0
    ∧ win14_1.index t (0 : Fin 2) = t.val ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0 :=
  (by decide +kernel : ∀ t : Fin grid14.N, _)

/-- Block t lies inside the 77824 rows. -/
theorem hb (t : Fin cfg14.N) : 4096 * t.val + 4096 ≤ 77824 := by
  have h : t.val < 19 := lt_of_lt_of_eq t.isLt N_14
  omega

/-- Block t of input 0 is rows 4096 t, …, 4096 t + 4095 of its array. -/
theorem blk_0 (c : Dev nD) (t : Fin cfg14.N) :
    iblk14 V c 0 t = rowsAt (P := 77824) (N := 256) (α := EReal) (4096 * t.val) 4096 (hb t) (V c main_v242) := by
  funext y
  show V c main_v242 (((cfg14.win 0).blk t).view.emb y) = V c main_v242 (ix2 ⟨4096 * t.val + (y 0).val, _⟩ (y 1))
  refine congrArg (V c main_v242) ?_
  funext a; apply Fin.ext
  obtain ⟨e0, e1, e2, e3, e4, e5, e6, e7, e8, e9, e10, e11⟩ := idx t
  match a with
  | ⟨0, _⟩ => show win14_0.index t (0 : Fin 2) * 4096 + 1 * (y 0).val = 4096 * t.val + (y 0).val; omega
  | ⟨1, _⟩ => show win14_0.index t (1 : Fin 2) * 256 + 1 * (y 1).val = (y 1).val; omega

/-- Block t of input 1 is rows 4096 t, …, 4096 t + 4095 of its array. -/
theorem blk_1 (c : Dev nD) (t : Fin cfg14.N) :
    iblk14 V c 1 t = rowsAt (P := 77824) (N := 256) (α := EReal) (4096 * t.val) 4096 (hb t) (V c main_v243) := by
  funext y
  show V c main_v243 (((cfg14.win 1).blk t).view.emb y) = V c main_v243 (ix2 ⟨4096 * t.val + (y 0).val, _⟩ (y 1))
  refine congrArg (V c main_v243) ?_
  funext a; apply Fin.ext
  obtain ⟨e0, e1, e2, e3, e4, e5, e6, e7, e8, e9, e10, e11⟩ := idx t
  match a with
  | ⟨0, _⟩ => show win14_1.index t (0 : Fin 2) * 4096 + 1 * (y 0).val = 4096 * t.val + (y 0).val; omega
  | ⟨1, _⟩ => show win14_1.index t (1 : Fin 2) * 256 + 1 * (y 1).val = (y 1).val; omega

/-- Input 2's block is its whole array at every point. -/
theorem blk_2 (c : Dev nD) (t : Fin cfg14.N) : iblk14 V c 2 t = V c main_v215 := by
  funext y
  show V c main_v215 (((cfg14.win 2).blk t).view.emb y) = V c main_v215 y
  refine congrArg (V c main_v215) ?_
  funext a; apply Fin.ext
  obtain ⟨e0, e1, e2, e3, e4, e5, e6, e7, e8, e9, e10, e11⟩ := idx t
  match a with
  | ⟨0, _⟩ => show win14_2.index t (0 : Fin 2) * 256 + 1 * (y 0).val = (y 0).val; omega
  | ⟨1, _⟩ => show win14_2.index t (1 : Fin 2) * 256 + 1 * (y 1).val = (y 1).val; omega

/-- Input 3's block is its whole array at every point. -/
theorem blk_3 (c : Dev nD) (t : Fin cfg14.N) : iblk14 V c 3 t = V c main_v216 := by
  funext y
  show V c main_v216 (((cfg14.win 3).blk t).view.emb y) = V c main_v216 y
  refine congrArg (V c main_v216) ?_
  funext a; apply Fin.ext
  obtain ⟨e0, e1, e2, e3, e4, e5, e6, e7, e8, e9, e10, e11⟩ := idx t
  match a with
  | ⟨0, _⟩ => show win14_3.index t (0 : Fin 2) * 256 + 1 * (y 0).val = (y 0).val; omega
  | ⟨1, _⟩ => show win14_3.index t (1 : Fin 2) * 256 + 1 * (y 1).val = (y 1).val; omega

/-- Input 4's block is its whole array at every point. -/
theorem blk_4 (c : Dev nD) (t : Fin cfg14.N) : iblk14 V c 4 t = V c main_v244 := by
  funext y
  show V c main_v244 (((cfg14.win 4).blk t).view.emb y) = V c main_v244 y
  refine congrArg (V c main_v244) ?_
  funext a; apply Fin.ext
  obtain ⟨e0, e1, e2, e3, e4, e5, e6, e7, e8, e9, e10, e11⟩ := idx t
  match a with
  | ⟨0, _⟩ => show win14_4.index t (0 : Fin 2) * 1 + 1 * (y 0).val = (y 0).val; omega
  | ⟨1, _⟩ => show win14_4.index t (1 : Fin 2) * 256 + 1 * (y 1).val = (y 1).val; omega

/-- What point t writes back is block t of the layer of the whole arrays. -/
theorem flushed (c : Dev nD) (t : Fin cfg14.N) :
    (dat14 V c).flushed 5 t = ((cfg14.win 5).blk t).view.read (Elt Ideal) (dualRelu (V c main_v242) (V c main_v243) (V c main_v215) (V c main_v216) (V c main_v244)) := by
  show (cfg14.win 5).cut (grid14.coords t) ((dat14 V c).after 5 t) = _
  rw [after14_5]
  unfold out14_5
  rw [View.canon_unit_zero hz2]
  simp only [View.ld_unit_zero (S := S4096x256) hz2, View.ld_unit_zero (S := S256x256) hz2, View.ld_unit_zero (S := S1x256) hz2]
  funext y
  show k14_pay1 (iblk14 V c 0 t) (iblk14 V c 1 t) (iblk14 V c 2 t) (iblk14 V c 3 t) (iblk14 V c 4 t) y = dualRelu (V c main_v242) (V c main_v243) (V c main_v215) (V c main_v216) (V c main_v244) (((cfg14.win 5).blk t).view.emb y)
  refine (congrFun (pay14 (iblk14 V c 0 t) (iblk14 V c 1 t) (iblk14 V c 2 t) (iblk14 V c 3 t) (iblk14 V c 4 t)) y).trans ?_
  rw [blk_0 V c t, blk_1 V c t, blk_2 V c t, blk_3 V c t, blk_4 V c t]
  refine (congrFun (rowsAt_dualRelu (4096 * t.val) 4096 (hb t) (V c main_v242) (V c main_v243) (V c main_v215) (V c main_v216) (V c main_v244)) y).symm.trans ?_
  refine congrArg (dualRelu (V c main_v242) (V c main_v243) (V c main_v215) (V c main_v216) (V c main_v244)) ?_
  funext a; apply Fin.ext
  obtain ⟨e0, e1, e2, e3, e4, e5, e6, e7, e8, e9, e10, e11⟩ := idx t
  match a with
  | ⟨0, _⟩ => show 4096 * t.val + (y 0).val = win14_5.index t (0 : Fin 2) * 4096 + 1 * (y 0).val; omega
  | ⟨1, _⟩ => show (y 1).val = win14_5.index t (1 : Fin 2) * 256 + 1 * (y 1).val; omega

/-- An index of the output array is in point t's block iff each coordinate is in the block's range. -/
theorem mem_blk (t : Fin cfg14.N) (i : S77824x256.Idx) :
    i ∈ ((cfg14.win 5).blk t).view.set ↔ ∀ a : Fin 2, win14_5.index t a * S4096x256.size a ≤ (i a).val ∧ (i a).val < win14_5.index t a * S4096x256.size a + S4096x256.size a := by
  show i ∈ ((View.whole main_v245).slice (win14_5.rect t)).set ↔ _
  rw [View.set_slice_whole, Rect.mem_set_unit]
  exact Iff.rfl

/-- The blocks tile the output array: row r is in block r / 4096. -/
theorem cover (i : S77824x256.Idx) :
    ∃ t : Fin cfg14.N, (cfg14.win 5).flush t = true ∧ i ∈ ((cfg14.win 5).blk t).view.set := by
  have hi0 : (i 0).val < 77824 := (i 0).isLt
  have hi1 : (i 1).val < 256 := (i 1).isLt
  have hN : cfg14.N = 19 := N_14
  have hlt : (i 0).val / 4096 < cfg14.N := by rw [hN]; omega
  obtain ⟨t, ht⟩ : ∃ t : Fin cfg14.N, t.val = (i 0).val / 4096 := ⟨⟨_, hlt⟩, rfl⟩
  refine ⟨t, flush14_5 t, ?_⟩
  rw [mem_blk]
  obtain ⟨e0, e1, e2, e3, e4, e5, e6, e7, e8, e9, e10, e11⟩ := idx t
  intro a
  match a with
  | ⟨0, _⟩ =>
    show win14_5.index t (0 : Fin 2) * 4096 ≤ (i 0).val ∧ (i 0).val < win14_5.index t (0 : Fin 2) * 4096 + 4096
    omega
  | ⟨1, _⟩ =>
    show win14_5.index t (1 : Fin 2) * 256 ≤ (i 1).val ∧ (i 1).val < win14_5.index t (1 : Fin 2) * 256 + 256
    omega

/-- The output array after the call: the layer of the arrays the call was entered with. -/
theorem value (c : Dev nD) : (dat14 V c).arrAt 5 cfg14.N = dualRelu (V c main_v242) (V c main_v243) (V c main_v215) (V c main_v216) (V c main_v244) :=
  (dat14 V c).arrAt_eq_of_cover 5 _ (fun t _ => flushed V c t) cover

end Cert.KernelIdeal.Reg14

end
-- ==== Proof.Reg15.lean ====
/-
  Kernel call 15 of the program: what its output array holds when the call has run.

  The call cuts its [77824, 256] inputs into 19 blocks of 4096 rows, keeps the weights and the bias row whole, and at
  block t stores the rectifier of the sum of two products plus a bias row of that block. The layer acts row by row, so what point t writes back is
  block t of the layer of the whole arrays; the 19 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg15

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg15.N, win15_0.index t (0 : Fin 2) = t.val ∧ win15_0.index t (1 : Fin 2) = 0
    ∧ win15_1.index t (0 : Fin 2) = t.val ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 2) = t.val ∧ win15_5.index t (1 : Fin 2) = 0 :=
  (by decide +kernel : ∀ t : Fin grid15.N, _)

/-- Block t lies inside the 77824 rows. -/
theorem hb (t : Fin cfg15.N) : 4096 * t.val + 4096 ≤ 77824 := by
  have h : t.val < 19 := lt_of_lt_of_eq t.isLt N_15
  omega

/-- Block t of input 0 is rows 4096 t, …, 4096 t + 4095 of its array. -/
theorem blk_0 (c : Dev nD) (t : Fin cfg15.N) :
    iblk15 V c 0 t = rowsAt (P := 77824) (N := 256) (α := EReal) (4096 * t.val) 4096 (hb t) (V c main_v270) := by
  funext y
  show V c main_v270 (((cfg15.win 0).blk t).view.emb y) = V c main_v270 (ix2 ⟨4096 * t.val + (y 0).val, _⟩ (y 1))
  refine congrArg (V c main_v270) ?_
  funext a; apply Fin.ext
  obtain ⟨e0, e1, e2, e3, e4, e5, e6, e7, e8, e9, e10, e11⟩ := idx t
  match a with
  | ⟨0, _⟩ => show win15_0.index t (0 : Fin 2) * 4096 + 1 * (y 0).val = 4096 * t.val + (y 0).val; omega
  | ⟨1, _⟩ => show win15_0.index t (1 : Fin 2) * 256 + 1 * (y 1).val = (y 1).val; omega

/-- Block t of input 1 is rows 4096 t, …, 4096 t + 4095 of its array. -/
theorem blk_1 (c : Dev nD) (t : Fin cfg15.N) :
    iblk15 V c 1 t = rowsAt (P := 77824) (N := 256) (α := EReal) (4096 * t.val) 4096 (hb t) (V c main_v271) := by
  funext y
  show V c main_v271 (((cfg15.win 1).blk t).view.emb y) = V c main_v271 (ix2 ⟨4096 * t.val + (y 0).val, _⟩ (y 1))
  refine congrArg (V c main_v271) ?_
  funext a; apply Fin.ext
  obtain ⟨e0, e1, e2, e3, e4, e5, e6, e7, e8, e9, e10, e11⟩ := idx t
  match a with
  | ⟨0, _⟩ => show win15_1.index t (0 : Fin 2) * 4096 + 1 * (y 0).val = 4096 * t.val + (y 0).val; omega
  | ⟨1, _⟩ => show win15_1.index t (1 : Fin 2) * 256 + 1 * (y 1).val = (y 1).val; omega

/-- Input 2's block is its whole array at every point. -/
theorem blk_2 (c : Dev nD) (t : Fin cfg15.N) : iblk15 V c 2 t = V c main_v217 := by
  funext y
  show V c main_v217 (((cfg15.win 2).blk t).view.emb y) = V c main_v217 y
  refine congrArg (V c main_v217) ?_
  funext a; apply Fin.ext
  obtain ⟨e0, e1, e2, e3, e4, e5, e6, e7, e8, e9, e10, e11⟩ := idx t
  match a with
  | ⟨0, _⟩ => show win15_2.index t (0 : Fin 2) * 256 + 1 * (y 0).val = (y 0).val; omega
  | ⟨1, _⟩ => show win15_2.index t (1 : Fin 2) * 256 + 1 * (y 1).val = (y 1).val; omega

/-- Input 3's block is its whole array at every point. -/
theorem blk_3 (c : Dev nD) (t : Fin cfg15.N) : iblk15 V c 3 t = V c main_v218 := by
  funext y
  show V c main_v218 (((cfg15.win 3).blk t).view.emb y) = V c main_v218 y
  refine congrArg (V c main_v218) ?_
  funext a; apply Fin.ext
  obtain ⟨e0, e1, e2, e3, e4, e5, e6, e7, e8, e9, e10, e11⟩ := idx t
  match a with
  | ⟨0, _⟩ => show win15_3.index t (0 : Fin 2) * 256 + 1 * (y 0).val = (y 0).val; omega
  | ⟨1, _⟩ => show win15_3.index t (1 : Fin 2) * 256 + 1 * (y 1).val = (y 1).val; omega

/-- Input 4's block is its whole array at every point. -/
theorem blk_4 (c : Dev nD) (t : Fin cfg15.N) : iblk15 V c 4 t = V c main_v272 := by
  funext y
  show V c main_v272 (((cfg15.win 4).blk t).view.emb y) = V c main_v272 y
  refine congrArg (V c main_v272) ?_
  funext a; apply Fin.ext
  obtain ⟨e0, e1, e2, e3, e4, e5, e6, e7, e8, e9, e10, e11⟩ := idx t
  match a with
  | ⟨0, _⟩ => show win15_4.index t (0 : Fin 2) * 1 + 1 * (y 0).val = (y 0).val; omega
  | ⟨1, _⟩ => show win15_4.index t (1 : Fin 2) * 256 + 1 * (y 1).val = (y 1).val; omega

/-- What point t writes back is block t of the layer of the whole arrays. -/
theorem flushed (c : Dev nD) (t : Fin cfg15.N) :
    (dat15 V c).flushed 5 t = ((cfg15.win 5).blk t).view.read (Elt Ideal) (dualRelu (V c main_v270) (V c main_v271) (V c main_v217) (V c main_v218) (V c main_v272)) := by
  show (cfg15.win 5).cut (grid15.coords t) ((dat15 V c).after 5 t) = _
  rw [after15_5]
  unfold out15_5
  rw [View.canon_unit_zero hz2]
  simp only [View.ld_unit_zero (S := S4096x256) hz2, View.ld_unit_zero (S := S256x256) hz2, View.ld_unit_zero (S := S1x256) hz2]
  funext y
  show k15_pay1 (iblk15 V c 0 t) (iblk15 V c 1 t) (iblk15 V c 2 t) (iblk15 V c 3 t) (iblk15 V c 4 t) y = dualRelu (V c main_v270) (V c main_v271) (V c main_v217) (V c main_v218) (V c main_v272) (((cfg15.win 5).blk t).view.emb y)
  refine (congrFun (pay15 (iblk15 V c 0 t) (iblk15 V c 1 t) (iblk15 V c 2 t) (iblk15 V c 3 t) (iblk15 V c 4 t)) y).trans ?_
  rw [blk_0 V c t, blk_1 V c t, blk_2 V c t, blk_3 V c t, blk_4 V c t]
  refine (congrFun (rowsAt_dualRelu (4096 * t.val) 4096 (hb t) (V c main_v270) (V c main_v271) (V c main_v217) (V c main_v218) (V c main_v272)) y).symm.trans ?_
  refine congrArg (dualRelu (V c main_v270) (V c main_v271) (V c main_v217) (V c main_v218) (V c main_v272)) ?_
  funext a; apply Fin.ext
  obtain ⟨e0, e1, e2, e3, e4, e5, e6, e7, e8, e9, e10, e11⟩ := idx t
  match a with
  | ⟨0, _⟩ => show 4096 * t.val + (y 0).val = win15_5.index t (0 : Fin 2) * 4096 + 1 * (y 0).val; omega
  | ⟨1, _⟩ => show (y 1).val = win15_5.index t (1 : Fin 2) * 256 + 1 * (y 1).val; omega

/-- An index of the output array is in point t's block iff each coordinate is in the block's range. -/
theorem mem_blk (t : Fin cfg15.N) (i : S77824x256.Idx) :
    i ∈ ((cfg15.win 5).blk t).view.set ↔ ∀ a : Fin 2, win15_5.index t a * S4096x256.size a ≤ (i a).val ∧ (i a).val < win15_5.index t a * S4096x256.size a + S4096x256.size a := by
  show i ∈ ((View.whole main_v273).slice (win15_5.rect t)).set ↔ _
  rw [View.set_slice_whole, Rect.mem_set_unit]
  exact Iff.rfl

/-- The blocks tile the output array: row r is in block r / 4096. -/
theorem cover (i : S77824x256.Idx) :
    ∃ t : Fin cfg15.N, (cfg15.win 5).flush t = true ∧ i ∈ ((cfg15.win 5).blk t).view.set := by
  have hi0 : (i 0).val < 77824 := (i 0).isLt
  have hi1 : (i 1).val < 256 := (i 1).isLt
  have hN : cfg15.N = 19 := N_15
  have hlt : (i 0).val / 4096 < cfg15.N := by rw [hN]; omega
  obtain ⟨t, ht⟩ : ∃ t : Fin cfg15.N, t.val = (i 0).val / 4096 := ⟨⟨_, hlt⟩, rfl⟩
  refine ⟨t, flush15_5 t, ?_⟩
  rw [mem_blk]
  obtain ⟨e0, e1, e2, e3, e4, e5, e6, e7, e8, e9, e10, e11⟩ := idx t
  intro a
  match a with
  | ⟨0, _⟩ =>
    show win15_5.index t (0 : Fin 2) * 4096 ≤ (i 0).val ∧ (i 0).val < win15_5.index t (0 : Fin 2) * 4096 + 4096
    omega
  | ⟨1, _⟩ =>
    show win15_5.index t (1 : Fin 2) * 256 ≤ (i 1).val ∧ (i 1).val < win15_5.index t (1 : Fin 2) * 256 + 256
    omega

/-- The output array after the call: the layer of the arrays the call was entered with. -/
theorem value (c : Dev nD) : (dat15 V c).arrAt 5 cfg15.N = dualRelu (V c main_v270) (V c main_v271) (V c main_v217) (V c main_v218) (V c main_v272) :=
  (dat15 V c).arrAt_eq_of_cover 5 _ (fun t _ => flushed V c t) cover

end Cert.KernelIdeal.Reg15

end
-- ==== Proof.Reg16.lean ====
/-
  Kernel call 16 of the program: what its output array holds when the call has run.

  The call cuts its [28672, 256] inputs into 7 blocks of 4096 rows, keeps the weights and the bias row whole, and at
  block t stores one product plus a bias row of that block. The layer acts row by row, so what point t writes back is
  block t of the layer of the whole arrays; the 7 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg16

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg16.N, win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = t.val ∧ win16_3.index t (1 : Fin 2) = 0 :=
  (by decide +kernel : ∀ t : Fin grid16.N, _)

/-- Block t lies inside the 28672 rows. -/
theorem hb (t : Fin cfg16.N) : 4096 * t.val + 4096 ≤ 28672 := by
  have h : t.val < 7 := lt_of_lt_of_eq t.isLt N_16
  omega

/-- Block t of input 0 is rows 4096 t, …, 4096 t + 4095 of its array. -/
theorem blk_0 (c : Dev nD) (t : Fin cfg16.N) :
    iblk16 V c 0 t = rowsAt (P := 28672) (N := 256) (α := EReal) (4096 * t.val) 4096 (hb t) (V c main_v275) := by
  funext y
  show V c main_v275 (((cfg16.win 0).blk t).view.emb y) = V c main_v275 (ix2 ⟨4096 * t.val + (y 0).val, _⟩ (y 1))
  refine congrArg (V c main_v275) ?_
  funext a; apply Fin.ext
  obtain ⟨e0, e1, e2, e3, e4, e5, e6, e7⟩ := idx t
  match a with
  | ⟨0, _⟩ => show win16_0.index t (0 : Fin 2) * 4096 + 1 * (y 0).val = 4096 * t.val + (y 0).val; omega
  | ⟨1, _⟩ => show win16_0.index t (1 : Fin 2) * 256 + 1 * (y 1).val = (y 1).val; omega

/-- Input 1's block is its whole array at every point. -/
theorem blk_1 (c : Dev nD) (t : Fin cfg16.N) : iblk16 V c 1 t = V c main_arg23 := by
  funext y
  show V c main_arg23 (((cfg16.win 1).blk t).view.emb y) = V c main_arg23 y
  refine congrArg (V c main_arg23) ?_
  funext a; apply Fin.ext
  obtain ⟨e0, e1, e2, e3, e4, e5, e6, e7⟩ := idx t
  match a with
  | ⟨0, _⟩ => show win16_1.index t (0 : Fin 2) * 256 + 1 * (y 0).val = (y 0).val; omega
  | ⟨1, _⟩ => show win16_1.index t (1 : Fin 2) * 256 + 1 * (y 1).val = (y 1).val; omega

/-- Input 2's block is its whole array at every point. -/
theorem blk_2 (c : Dev nD) (t : Fin cfg16.N) : iblk16 V c 2 t = V c main_v276 := by
  funext y
  show V c main_v276 (((cfg16.win 2).blk t).view.emb y) = V c main_v276 y
  refine congrArg (V c main_v276) ?_
  funext a; apply Fin.ext
  obtain ⟨e0, e1, e2, e3, e4, e5, e6, e7⟩ := idx t
  match a with
  | ⟨0, _⟩ => show win16_2.index t (0 : Fin 2) * 1 + 1 * (y 0).val = (y 0).val; omega
  | ⟨1, _⟩ => show win16_2.index t (1 : Fin 2) * 256 + 1 * (y 1).val = (y 1).val; omega

/-- What point t writes back is block t of the layer of the whole arrays. -/
theorem flushed (c : Dev nD) (t : Fin cfg16.N) :
    (dat16 V c).flushed 3 t = ((cfg16.win 3).blk t).view.read (Elt Ideal) (linPlain (V c main_v275) (V c main_arg23) (V c main_v276)) := by
  show (cfg16.win 3).cut (grid16.coords t) ((dat16 V c).after 3 t) = _
  rw [after16_3]
  unfold out16_3
  rw [View.canon_unit_zero hz2]
  simp only [View.ld_unit_zero (S := S4096x256) hz2, View.ld_unit_zero (S := S256x256) hz2, View.ld_unit_zero (S := S1x256) hz2]
  funext y
  show k16_pay1 (iblk16 V c 0 t) (iblk16 V c 1 t) (iblk16 V c 2 t) y = linPlain (V c main_v275) (V c main_arg23) (V c main_v276) (((cfg16.win 3).blk t).view.emb y)
  refine (congrFun (pay16 (iblk16 V c 0 t) (iblk16 V c 1 t) (iblk16 V c 2 t)) y).trans ?_
  rw [blk_0 V c t, blk_1 V c t, blk_2 V c t]
  refine (congrFun (rowsAt_linPlain (4096 * t.val) 4096 (hb t) (V c main_v275) (V c main_arg23) (V c main_v276)) y).symm.trans ?_
  refine congrArg (linPlain (V c main_v275) (V c main_arg23) (V c main_v276)) ?_
  funext a; apply Fin.ext
  obtain ⟨e0, e1, e2, e3, e4, e5, e6, e7⟩ := idx t
  match a with
  | ⟨0, _⟩ => show 4096 * t.val + (y 0).val = win16_3.index t (0 : Fin 2) * 4096 + 1 * (y 0).val; omega
  | ⟨1, _⟩ => show (y 1).val = win16_3.index t (1 : Fin 2) * 256 + 1 * (y 1).val; omega

/-- An index of the output array is in point t's block iff each coordinate is in the block's range. -/
theorem mem_blk (t : Fin cfg16.N) (i : S28672x256.Idx) :
    i ∈ ((cfg16.win 3).blk t).view.set ↔ ∀ a : Fin 2, win16_3.index t a * S4096x256.size a ≤ (i a).val ∧ (i a).val < win16_3.index t a * S4096x256.size a + S4096x256.size a := by
  show i ∈ ((View.whole main_v277).slice (win16_3.rect t)).set ↔ _
  rw [View.set_slice_whole, Rect.mem_set_unit]
  exact Iff.rfl

/-- The blocks tile the output array: row r is in block r / 4096. -/
theorem cover (i : S28672x256.Idx) :
    ∃ t : Fin cfg16.N, (cfg16.win 3).flush t = true ∧ i ∈ ((cfg16.win 3).blk t).view.set := by
  have hi0 : (i 0).val < 28672 := (i 0).isLt
  have hi1 : (i 1).val < 256 := (i 1).isLt
  have hN : cfg16.N = 7 := N_16
  have hlt : (i 0).val / 4096 < cfg16.N := by rw [hN]; omega
  obtain ⟨t, ht⟩ : ∃ t : Fin cfg16.N, t.val = (i 0).val / 4096 := ⟨⟨_, hlt⟩, rfl⟩
  refine ⟨t, flush16_3 t, ?_⟩
  rw [mem_blk]
  obtain ⟨e0, e1, e2, e3, e4, e5, e6, e7⟩ := idx t
  intro a
  match a with
  | ⟨0, _⟩ =>
    show win16_3.index t (0 : Fin 2) * 4096 ≤ (i 0).val ∧ (i 0).val < win16_3.index t (0 : Fin 2) * 4096 + 4096
    omega
  | ⟨1, _⟩ =>
    show win16_3.index t (1 : Fin 2) * 256 ≤ (i 1).val ∧ (i 1).val < win16_3.index t (1 : Fin 2) * 256 + 256
    omega

/-- The output array after the call: the layer of the arrays the call was entered with. -/
theorem value (c : Dev nD) : (dat16 V c).arrAt 3 cfg16.N = linPlain (V c main_v275) (V c main_arg23) (V c main_v276) :=
  (dat16 V c).arrAt_eq_of_cover 3 _ (fun t _ => flushed V c t) cover

end Cert.KernelIdeal.Reg16

end
-- ==== Proof.Reg17.lean ====
/-
  Kernel call 17 of the program: what its output array holds when the call has run.

  The call cuts its [28672, 256] inputs into 7 blocks of 4096 rows, keeps the weights and the bias row whole, and at
  block t stores one product plus a bias row of that block. The layer acts row by row, so what point t writes back is
  block t of the layer of the whole arrays; the 7 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg17

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg17.N, win17_0.index t (0 : Fin 2) = t.val ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = t.val ∧ win17_3.index t (1 : Fin 2) = 0 :=
  (by decide +kernel : ∀ t : Fin grid17.N, _)

/-- Block t lies inside the 28672 rows. -/
theorem hb (t : Fin cfg17.N) : 4096 * t.val + 4096 ≤ 28672 := by
  have h : t.val < 7 := lt_of_lt_of_eq t.isLt N_17
  omega

/-- Block t of input 0 is rows 4096 t, …, 4096 t + 4095 of its array. -/
theorem blk_0 (c : Dev nD) (t : Fin cfg17.N) :
    iblk17 V c 0 t = rowsAt (P := 28672) (N := 256) (α := EReal) (4096 * t.val) 4096 (hb t) (V c main_v279) := by
  funext y
  show V c main_v279 (((cfg17.win 0).blk t).view.emb y) = V c main_v279 (ix2 ⟨4096 * t.val + (y 0).val, _⟩ (y 1))
  refine congrArg (V c main_v279) ?_
  funext a; apply Fin.ext
  obtain ⟨e0, e1, e2, e3, e4, e5, e6, e7⟩ := idx t
  match a with
  | ⟨0, _⟩ => show win17_0.index t (0 : Fin 2) * 4096 + 1 * (y 0).val = 4096 * t.val + (y 0).val; omega
  | ⟨1, _⟩ => show win17_0.index t (1 : Fin 2) * 256 + 1 * (y 1).val = (y 1).val; omega

/-- Input 1's block is its whole array at every point. -/
theorem blk_1 (c : Dev nD) (t : Fin cfg17.N) : iblk17 V c 1 t = V c main_arg25 := by
  funext y
  show V c main_arg25 (((cfg17.win 1).blk t).view.emb y) = V c main_arg25 y
  refine congrArg (V c main_arg25) ?_
  funext a; apply Fin.ext
  obtain ⟨e0, e1, e2, e3, e4, e5, e6, e7⟩ := idx t
  match a with
  | ⟨0, _⟩ => show win17_1.index t (0 : Fin 2) * 256 + 1 * (y 0).val = (y 0).val; omega
  | ⟨1, _⟩ => show win17_1.index t (1 : Fin 2) * 256 + 1 * (y 1).val = (y 1).val; omega

/-- Input 2's block is its whole array at every point. -/
theorem blk_2 (c : Dev nD) (t : Fin cfg17.N) : iblk17 V c 2 t = V c main_v280 := by
  funext y
  show V c main_v280 (((cfg17.win 2).blk t).view.emb y) = V c main_v280 y
  refine congrArg (V c main_v280) ?_
  funext a; apply Fin.ext
  obtain ⟨e0, e1, e2, e3, e4, e5, e6, e7⟩ := idx t
  match a with
  | ⟨0, _⟩ => show win17_2.index t (0 : Fin 2) * 1 + 1 * (y 0).val = (y 0).val; omega
  | ⟨1, _⟩ => show win17_2.index t (1 : Fin 2) * 256 + 1 * (y 1).val = (y 1).val; omega

/-- What point t writes back is block t of the layer of the whole arrays. -/
theorem flushed (c : Dev nD) (t : Fin cfg17.N) :
    (dat17 V c).flushed 3 t = ((cfg17.win 3).blk t).view.read (Elt Ideal) (linPlain (V c main_v279) (V c main_arg25) (V c main_v280)) := by
  show (cfg17.win 3).cut (grid17.coords t) ((dat17 V c).after 3 t) = _
  rw [after17_3]
  unfold out17_3
  rw [View.canon_unit_zero hz2]
  simp only [View.ld_unit_zero (S := S4096x256) hz2, View.ld_unit_zero (S := S256x256) hz2, View.ld_unit_zero (S := S1x256) hz2]
  funext y
  show k17_pay1 (iblk17 V c 0 t) (iblk17 V c 1 t) (iblk17 V c 2 t) y = linPlain (V c main_v279) (V c main_arg25) (V c main_v280) (((cfg17.win 3).blk t).view.emb y)
  refine (congrFun (pay17 (iblk17 V c 0 t) (iblk17 V c 1 t) (iblk17 V c 2 t)) y).trans ?_
  rw [blk_0 V c t, blk_1 V c t, blk_2 V c t]
  refine (congrFun (rowsAt_linPlain (4096 * t.val) 4096 (hb t) (V c main_v279) (V c main_arg25) (V c main_v280)) y).symm.trans ?_
  refine congrArg (linPlain (V c main_v279) (V c main_arg25) (V c main_v280)) ?_
  funext a; apply Fin.ext
  obtain ⟨e0, e1, e2, e3, e4, e5, e6, e7⟩ := idx t
  match a with
  | ⟨0, _⟩ => show 4096 * t.val + (y 0).val = win17_3.index t (0 : Fin 2) * 4096 + 1 * (y 0).val; omega
  | ⟨1, _⟩ => show (y 1).val = win17_3.index t (1 : Fin 2) * 256 + 1 * (y 1).val; omega

/-- An index of the output array is in point t's block iff each coordinate is in the block's range. -/
theorem mem_blk (t : Fin cfg17.N) (i : S28672x256.Idx) :
    i ∈ ((cfg17.win 3).blk t).view.set ↔ ∀ a : Fin 2, win17_3.index t a * S4096x256.size a ≤ (i a).val ∧ (i a).val < win17_3.index t a * S4096x256.size a + S4096x256.size a := by
  show i ∈ ((View.whole main_v281).slice (win17_3.rect t)).set ↔ _
  rw [View.set_slice_whole, Rect.mem_set_unit]
  exact Iff.rfl

/-- The blocks tile the output array: row r is in block r / 4096. -/
theorem cover (i : S28672x256.Idx) :
    ∃ t : Fin cfg17.N, (cfg17.win 3).flush t = true ∧ i ∈ ((cfg17.win 3).blk t).view.set := by
  have hi0 : (i 0).val < 28672 := (i 0).isLt
  have hi1 : (i 1).val < 256 := (i 1).isLt
  have hN : cfg17.N = 7 := N_17
  have hlt : (i 0).val / 4096 < cfg17.N := by rw [hN]; omega
  obtain ⟨t, ht⟩ : ∃ t : Fin cfg17.N, t.val = (i 0).val / 4096 := ⟨⟨_, hlt⟩, rfl⟩
  refine ⟨t, flush17_3 t, ?_⟩
  rw [mem_blk]
  obtain ⟨e0, e1, e2, e3, e4, e5, e6, e7⟩ := idx t
  intro a
  match a with
  | ⟨0, _⟩ =>
    show win17_3.index t (0 : Fin 2) * 4096 ≤ (i 0).val ∧ (i 0).val < win17_3.index t (0 : Fin 2) * 4096 + 4096
    omega
  | ⟨1, _⟩ =>
    show win17_3.index t (1 : Fin 2) * 256 ≤ (i 1).val ∧ (i 1).val < win17_3.index t (1 : Fin 2) * 256 + 256
    omega

/-- The output array after the call: the layer of the arrays the call was entered with. -/
theorem value (c : Dev nD) : (dat17 V c).arrAt 3 cfg17.N = linPlain (V c main_v279) (V c main_arg25) (V c main_v280) :=
  (dat17 V c).arrAt_eq_of_cover 3 _ (fun t _ => flushed V c t) cover

end Cert.KernelIdeal.Reg17

end
-- ==== Proof.Reg18.lean ====
/-
  Kernel call 18 of the program: what its output array holds when the call has run.

  The call cuts its [77824, 256] inputs into 19 blocks of 4096 rows, keeps the weights and the bias row whole, and at
  block t stores the sum of two products plus a bias row of that block. The layer acts row by row, so what point t writes back is
  block t of the layer of the whole arrays; the 19 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg18

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg18.N, win18_0.index t (0 : Fin 2) = t.val ∧ win18_0.index t (1 : Fin 2) = 0
    ∧ win18_1.index t (0 : Fin 2) = t.val ∧ win18_1.index t (1 : Fin 2) = 0
    ∧ win18_2.index t (0 : Fin 2) = 0 ∧ win18_2.index t (1 : Fin 2) = 0
    ∧ win18_3.index t (0 : Fin 2) = 0 ∧ win18_3.index t (1 : Fin 2) = 0
    ∧ win18_4.index t (0 : Fin 2) = 0 ∧ win18_4.index t (1 : Fin 2) = 0
    ∧ win18_5.index t (0 : Fin 2) = t.val ∧ win18_5.index t (1 : Fin 2) = 0 :=
  (by decide +kernel : ∀ t : Fin grid18.N, _)

/-- Block t lies inside the 77824 rows. -/
theorem hb (t : Fin cfg18.N) : 4096 * t.val + 4096 ≤ 77824 := by
  have h : t.val < 19 := lt_of_lt_of_eq t.isLt N_18
  omega

/-- Block t of input 0 is rows 4096 t, …, 4096 t + 4095 of its array. -/
theorem blk_0 (c : Dev nD) (t : Fin cfg18.N) :
    iblk18 V c 0 t = rowsAt (P := 77824) (N := 256) (α := EReal) (4096 * t.val) 4096 (hb t) (V c main_v285) := by
  funext y
  show V c main_v285 (((cfg18.win 0).blk t).view.emb y) = V c main_v285 (ix2 ⟨4096 * t.val + (y 0).val, _⟩ (y 1))
  refine congrArg (V c main_v285) ?_
  funext a; apply Fin.ext
  obtain ⟨e0, e1, e2, e3, e4, e5, e6, e7, e8, e9, e10, e11⟩ := idx t
  match a with
  | ⟨0, _⟩ => show win18_0.index t (0 : Fin 2) * 4096 + 1 * (y 0).val = 4096 * t.val + (y 0).val; omega
  | ⟨1, _⟩ => show win18_0.index t (1 : Fin 2) * 256 + 1 * (y 1).val = (y 1).val; omega

/-- Block t of input 1 is rows 4096 t, …, 4096 t + 4095 of its array. -/
theorem blk_1 (c : Dev nD) (t : Fin cfg18.N) :
    iblk18 V c 1 t = rowsAt (P := 77824) (N := 256) (α := EReal) (4096 * t.val) 4096 (hb t) (V c main_v286) := by
  funext y
  show V c main_v286 (((cfg18.win 1).blk t).view.emb y) = V c main_v286 (ix2 ⟨4096 * t.val + (y 0).val, _⟩ (y 1))
  refine congrArg (V c main_v286) ?_
  funext a; apply Fin.ext
  obtain ⟨e0, e1, e2, e3, e4, e5, e6, e7, e8, e9, e10, e11⟩ := idx t
  match a with
  | ⟨0, _⟩ => show win18_1.index t (0 : Fin 2) * 4096 + 1 * (y 0).val = 4096 * t.val + (y 0).val; omega
  | ⟨1, _⟩ => show win18_1.index t (1 : Fin 2) * 256 + 1 * (y 1).val = (y 1).val; omega

/-- Input 2's block is its whole array at every point. -/
theorem blk_2 (c : Dev nD) (t : Fin cfg18.N) : iblk18 V c 2 t = V c main_v283 := by
  funext y
  show V c main_v283 (((cfg18.win 2).blk t).view.emb y) = V c main_v283 y
  refine congrArg (V c main_v283) ?_
  funext a; apply Fin.ext
  obtain ⟨e0, e1, e2, e3, e4, e5, e6, e7, e8, e9, e10, e11⟩ := idx t
  match a with
  | ⟨0, _⟩ => show win18_2.index t (0 : Fin 2) * 256 + 1 * (y 0).val = (y 0).val; omega
  | ⟨1, _⟩ => show win18_2.index t (1 : Fin 2) * 256 + 1 * (y 1).val = (y 1).val; omega

/-- Input 3's block is its whole array at every point. -/
theorem blk_3 (c : Dev nD) (t : Fin cfg18.N) : iblk18 V c 3 t = V c main_v284 := by
  funext y
  show V c main_v284 (((cfg18.win 3).blk t).view.emb y) = V c main_v284 y
  refine congrArg (V c main_v284) ?_
  funext a; apply Fin.ext
  obtain ⟨e0, e1, e2, e3, e4, e5, e6, e7, e8, e9, e10, e11⟩ := idx t
  match a with
  | ⟨0, _⟩ => show win18_3.index t (0 : Fin 2) * 256 + 1 * (y 0).val = (y 0).val; omega
  | ⟨1, _⟩ => show win18_3.index t (1 : Fin 2) * 256 + 1 * (y 1).val = (y 1).val; omega

/-- Input 4's block is its whole array at every point. -/
theorem blk_4 (c : Dev nD) (t : Fin cfg18.N) : iblk18 V c 4 t = V c main_v287 := by
  funext y
  show V c main_v287 (((cfg18.win 4).blk t).view.emb y) = V c main_v287 y
  refine congrArg (V c main_v287) ?_
  funext a; apply Fin.ext
  obtain ⟨e0, e1, e2, e3, e4, e5, e6, e7, e8, e9, e10, e11⟩ := idx t
  match a with
  | ⟨0, _⟩ => show win18_4.index t (0 : Fin 2) * 1 + 1 * (y 0).val = (y 0).val; omega
  | ⟨1, _⟩ => show win18_4.index t (1 : Fin 2) * 256 + 1 * (y 1).val = (y 1).val; omega

/-- What point t writes back is block t of the layer of the whole arrays. -/
theorem flushed (c : Dev nD) (t : Fin cfg18.N) :
    (dat18 V c).flushed 5 t = ((cfg18.win 5).blk t).view.read (Elt Ideal) (dualPlain (V c main_v285) (V c main_v286) (V c main_v283) (V c main_v284) (V c main_v287)) := by
  show (cfg18.win 5).cut (grid18.coords t) ((dat18 V c).after 5 t) = _
  rw [after18_5]
  unfold out18_5
  rw [View.canon_unit_zero hz2]
  simp only [View.ld_unit_zero (S := S4096x256) hz2, View.ld_unit_zero (S := S256x256) hz2, View.ld_unit_zero (S := S1x256) hz2]
  funext y
  show k18_pay1 (iblk18 V c 0 t) (iblk18 V c 1 t) (iblk18 V c 2 t) (iblk18 V c 3 t) (iblk18 V c 4 t) y = dualPlain (V c main_v285) (V c main_v286) (V c main_v283) (V c main_v284) (V c main_v287) (((cfg18.win 5).blk t).view.emb y)
  refine (congrFun (pay18 (iblk18 V c 0 t) (iblk18 V c 1 t) (iblk18 V c 2 t) (iblk18 V c 3 t) (iblk18 V c 4 t)) y).trans ?_
  rw [blk_0 V c t, blk_1 V c t, blk_2 V c t, blk_3 V c t, blk_4 V c t]
  refine (congrFun (rowsAt_dualPlain (4096 * t.val) 4096 (hb t) (V c main_v285) (V c main_v286) (V c main_v283) (V c main_v284) (V c main_v287)) y).symm.trans ?_
  refine congrArg (dualPlain (V c main_v285) (V c main_v286) (V c main_v283) (V c main_v284) (V c main_v287)) ?_
  funext a; apply Fin.ext
  obtain ⟨e0, e1, e2, e3, e4, e5, e6, e7, e8, e9, e10, e11⟩ := idx t
  match a with
  | ⟨0, _⟩ => show 4096 * t.val + (y 0).val = win18_5.index t (0 : Fin 2) * 4096 + 1 * (y 0).val; omega
  | ⟨1, _⟩ => show (y 1).val = win18_5.index t (1 : Fin 2) * 256 + 1 * (y 1).val; omega

/-- An index of the output array is in point t's block iff each coordinate is in the block's range. -/
theorem mem_blk (t : Fin cfg18.N) (i : S77824x256.Idx) :
    i ∈ ((cfg18.win 5).blk t).view.set ↔ ∀ a : Fin 2, win18_5.index t a * S4096x256.size a ≤ (i a).val ∧ (i a).val < win18_5.index t a * S4096x256.size a + S4096x256.size a := by
  show i ∈ ((View.whole main_v288).slice (win18_5.rect t)).set ↔ _
  rw [View.set_slice_whole, Rect.mem_set_unit]
  exact Iff.rfl

/-- The blocks tile the output array: row r is in block r / 4096. -/
theorem cover (i : S77824x256.Idx) :
    ∃ t : Fin cfg18.N, (cfg18.win 5).flush t = true ∧ i ∈ ((cfg18.win 5).blk t).view.set := by
  have hi0 : (i 0).val < 77824 := (i 0).isLt
  have hi1 : (i 1).val < 256 := (i 1).isLt
  have hN : cfg18.N = 19 := N_18
  have hlt : (i 0).val / 4096 < cfg18.N := by rw [hN]; omega
  obtain ⟨t, ht⟩ : ∃ t : Fin cfg18.N, t.val = (i 0).val / 4096 := ⟨⟨_, hlt⟩, rfl⟩
  refine ⟨t, flush18_5 t, ?_⟩
  rw [mem_blk]
  obtain ⟨e0, e1, e2, e3, e4, e5, e6, e7, e8, e9, e10, e11⟩ := idx t
  intro a
  match a with
  | ⟨0, _⟩ =>
    show win18_5.index t (0 : Fin 2) * 4096 ≤ (i 0).val ∧ (i 0).val < win18_5.index t (0 : Fin 2) * 4096 + 4096
    omega
  | ⟨1, _⟩ =>
    show win18_5.index t (1 : Fin 2) * 256 ≤ (i 1).val ∧ (i 1).val < win18_5.index t (1 : Fin 2) * 256 + 256
    omega

/-- The output array after the call: the layer of the arrays the call was entered with. -/
theorem value (c : Dev nD) : (dat18 V c).arrAt 5 cfg18.N = dualPlain (V c main_v285) (V c main_v286) (V c main_v283) (V c main_v284) (V c main_v287) :=
  (dat18 V c).arrAt_eq_of_cover 5 _ (fun t _ => flushed V c t) cover

end Cert.KernelIdeal.Reg18

end
-- ==== Proof.Reg19.lean ====
/-
  Kernel call 19 of the program: what its output array holds when the call has run.

  The call cuts its [28672, 256] inputs into 7 blocks of 4096 rows, keeps the weights and the bias row whole, and at
  block t stores the sum of two products plus a bias row of that block. The layer acts row by row, so what point t writes back is
  block t of the layer of the whole arrays; the 7 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg19

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg19.N, win19_0.index t (0 : Fin 2) = t.val ∧ win19_0.index t (1 : Fin 2) = 0
    ∧ win19_1.index t (0 : Fin 2) = t.val ∧ win19_1.index t (1 : Fin 2) = 0
    ∧ win19_2.index t (0 : Fin 2) = 0 ∧ win19_2.index t (1 : Fin 2) = 0
    ∧ win19_3.index t (0 : Fin 2) = 0 ∧ win19_3.index t (1 : Fin 2) = 0
    ∧ win19_4.index t (0 : Fin 2) = 0 ∧ win19_4.index t (1 : Fin 2) = 0
    ∧ win19_5.index t (0 : Fin 2) = t.val ∧ win19_5.index t (1 : Fin 2) = 0 :=
  (by decide +kernel : ∀ t : Fin grid19.N, _)

/-- Block t lies inside the 28672 rows. -/
theorem hb (t : Fin cfg19.N) : 4096 * t.val + 4096 ≤ 28672 := by
  have h : t.val < 7 := lt_of_lt_of_eq t.isLt N_19
  omega

/-- Block t of input 0 is rows 4096 t, …, 4096 t + 4095 of its array. -/
theorem blk_0 (c : Dev nD) (t : Fin cfg19.N) :
    iblk19 V c 0 t = rowsAt (P := 28672) (N := 256) (α := EReal) (4096 * t.val) 4096 (hb t) (V c main_v290) := by
  funext y
  show V c main_v290 (((cfg19.win 0).blk t).view.emb y) = V c main_v290 (ix2 ⟨4096 * t.val + (y 0).val, _⟩ (y 1))
  refine congrArg (V c main_v290) ?_
  funext a; apply Fin.ext
  obtain ⟨e0, e1, e2, e3, e4, e5, e6, e7, e8, e9, e10, e11⟩ := idx t
  match a with
  | ⟨0, _⟩ => show win19_0.index t (0 : Fin 2) * 4096 + 1 * (y 0).val = 4096 * t.val + (y 0).val; omega
  | ⟨1, _⟩ => show win19_0.index t (1 : Fin 2) * 256 + 1 * (y 1).val = (y 1).val; omega

/-- Block t of input 1 is rows 4096 t, …, 4096 t + 4095 of its array. -/
theorem blk_1 (c : Dev nD) (t : Fin cfg19.N) :
    iblk19 V c 1 t = rowsAt (P := 28672) (N := 256) (α := EReal) (4096 * t.val) 4096 (hb t) (V c main_v291) := by
  funext y
  show V c main_v291 (((cfg19.win 1).blk t).view.emb y) = V c main_v291 (ix2 ⟨4096 * t.val + (y 0).val, _⟩ (y 1))
  refine congrArg (V c main_v291) ?_
  funext a; apply Fin.ext
  obtain ⟨e0, e1, e2, e3, e4, e5, e6, e7, e8, e9, e10, e11⟩ := idx t
  match a with
  | ⟨0, _⟩ => show win19_1.index t (0 : Fin 2) * 4096 + 1 * (y 0).val = 4096 * t.val + (y 0).val; omega
  | ⟨1, _⟩ => show win19_1.index t (1 : Fin 2) * 256 + 1 * (y 1).val = (y 1).val; omega

/-- Input 2's block is its whole array at every point. -/
theorem blk_2 (c : Dev nD) (t : Fin cfg19.N) : iblk19 V c 2 t = V c main_v283 := by
  funext y
  show V c main_v283 (((cfg19.win 2).blk t).view.emb y) = V c main_v283 y
  refine congrArg (V c main_v283) ?_
  funext a; apply Fin.ext
  obtain ⟨e0, e1, e2, e3, e4, e5, e6, e7, e8, e9, e10, e11⟩ := idx t
  match a with
  | ⟨0, _⟩ => show win19_2.index t (0 : Fin 2) * 256 + 1 * (y 0).val = (y 0).val; omega
  | ⟨1, _⟩ => show win19_2.index t (1 : Fin 2) * 256 + 1 * (y 1).val = (y 1).val; omega

/-- Input 3's block is its whole array at every point. -/
theorem blk_3 (c : Dev nD) (t : Fin cfg19.N) : iblk19 V c 3 t = V c main_v284 := by
  funext y
  show V c main_v284 (((cfg19.win 3).blk t).view.emb y) = V c main_v284 y
  refine congrArg (V c main_v284) ?_
  funext a; apply Fin.ext
  obtain ⟨e0, e1, e2, e3, e4, e5, e6, e7, e8, e9, e10, e11⟩ := idx t
  match a with
  | ⟨0, _⟩ => show win19_3.index t (0 : Fin 2) * 256 + 1 * (y 0).val = (y 0).val; omega
  | ⟨1, _⟩ => show win19_3.index t (1 : Fin 2) * 256 + 1 * (y 1).val = (y 1).val; omega

/-- Input 4's block is its whole array at every point. -/
theorem blk_4 (c : Dev nD) (t : Fin cfg19.N) : iblk19 V c 4 t = V c main_v292 := by
  funext y
  show V c main_v292 (((cfg19.win 4).blk t).view.emb y) = V c main_v292 y
  refine congrArg (V c main_v292) ?_
  funext a; apply Fin.ext
  obtain ⟨e0, e1, e2, e3, e4, e5, e6, e7, e8, e9, e10, e11⟩ := idx t
  match a with
  | ⟨0, _⟩ => show win19_4.index t (0 : Fin 2) * 1 + 1 * (y 0).val = (y 0).val; omega
  | ⟨1, _⟩ => show win19_4.index t (1 : Fin 2) * 256 + 1 * (y 1).val = (y 1).val; omega

/-- What point t writes back is block t of the layer of the whole arrays. -/
theorem flushed (c : Dev nD) (t : Fin cfg19.N) :
    (dat19 V c).flushed 5 t = ((cfg19.win 5).blk t).view.read (Elt Ideal) (dualPlain (V c main_v290) (V c main_v291) (V c main_v283) (V c main_v284) (V c main_v292)) := by
  show (cfg19.win 5).cut (grid19.coords t) ((dat19 V c).after 5 t) = _
  rw [after19_5]
  unfold out19_5
  rw [View.canon_unit_zero hz2]
  simp only [View.ld_unit_zero (S := S4096x256) hz2, View.ld_unit_zero (S := S256x256) hz2, View.ld_unit_zero (S := S1x256) hz2]
  funext y
  show k19_pay1 (iblk19 V c 0 t) (iblk19 V c 1 t) (iblk19 V c 2 t) (iblk19 V c 3 t) (iblk19 V c 4 t) y = dualPlain (V c main_v290) (V c main_v291) (V c main_v283) (V c main_v284) (V c main_v292) (((cfg19.win 5).blk t).view.emb y)
  refine (congrFun (pay19 (iblk19 V c 0 t) (iblk19 V c 1 t) (iblk19 V c 2 t) (iblk19 V c 3 t) (iblk19 V c 4 t)) y).trans ?_
  rw [blk_0 V c t, blk_1 V c t, blk_2 V c t, blk_3 V c t, blk_4 V c t]
  refine (congrFun (rowsAt_dualPlain (4096 * t.val) 4096 (hb t) (V c main_v290) (V c main_v291) (V c main_v283) (V c main_v284) (V c main_v292)) y).symm.trans ?_
  refine congrArg (dualPlain (V c main_v290) (V c main_v291) (V c main_v283) (V c main_v284) (V c main_v292)) ?_
  funext a; apply Fin.ext
  obtain ⟨e0, e1, e2, e3, e4, e5, e6, e7, e8, e9, e10, e11⟩ := idx t
  match a with
  | ⟨0, _⟩ => show 4096 * t.val + (y 0).val = win19_5.index t (0 : Fin 2) * 4096 + 1 * (y 0).val; omega
  | ⟨1, _⟩ => show (y 1).val = win19_5.index t (1 : Fin 2) * 256 + 1 * (y 1).val; omega

/-- An index of the output array is in point t's block iff each coordinate is in the block's range. -/
theorem mem_blk (t : Fin cfg19.N) (i : S28672x256.Idx) :
    i ∈ ((cfg19.win 5).blk t).view.set ↔ ∀ a : Fin 2, win19_5.index t a * S4096x256.size a ≤ (i a).val ∧ (i a).val < win19_5.index t a * S4096x256.size a + S4096x256.size a := by
  show i ∈ ((View.whole main_v293).slice (win19_5.rect t)).set ↔ _
  rw [View.set_slice_whole, Rect.mem_set_unit]
  exact Iff.rfl

/-- The blocks tile the output array: row r is in block r / 4096. -/
theorem cover (i : S28672x256.Idx) :
    ∃ t : Fin cfg19.N, (cfg19.win 5).flush t = true ∧ i ∈ ((cfg19.win 5).blk t).view.set := by
  have hi0 : (i 0).val < 28672 := (i 0).isLt
  have hi1 : (i 1).val < 256 := (i 1).isLt
  have hN : cfg19.N = 7 := N_19
  have hlt : (i 0).val / 4096 < cfg19.N := by rw [hN]; omega
  obtain ⟨t, ht⟩ : ∃ t : Fin cfg19.N, t.val = (i 0).val / 4096 := ⟨⟨_, hlt⟩, rfl⟩
  refine ⟨t, flush19_5 t, ?_⟩
  rw [mem_blk]
  obtain ⟨e0, e1, e2, e3, e4, e5, e6, e7, e8, e9, e10, e11⟩ := idx t
  intro a
  match a with
  | ⟨0, _⟩ =>
    show win19_5.index t (0 : Fin 2) * 4096 ≤ (i 0).val ∧ (i 0).val < win19_5.index t (0 : Fin 2) * 4096 + 4096
    omega
  | ⟨1, _⟩ =>
    show win19_5.index t (1 : Fin 2) * 256 ≤ (i 1).val ∧ (i 1).val < win19_5.index t (1 : Fin 2) * 256 + 256
    omega

/-- The output array after the call: the layer of the arrays the call was entered with. -/
theorem value (c : Dev nD) : (dat19 V c).arrAt 5 cfg19.N = dualPlain (V c main_v290) (V c main_v291) (V c main_v283) (V c main_v284) (V c main_v292) :=
  (dat19 V c).arrAt_eq_of_cover 5 _ (fun t _ => flushed V c t) cover

end Cert.KernelIdeal.Reg19

end
-- ==== Proof.Reg20.lean ====
/-
  Kernel call 20 of the program: what its output array holds when the call has run.

  The call cuts its [102400, 256] inputs into 25 blocks of 4096 rows, keeps the weights and the bias row whole, and at
  block t stores the product of the leaky rectifier of the sum of three arrays, plus a bias row of that block. The layer acts row by row, so what point t writes back is
  block t of the layer of the whole arrays; the 25 blocks tile the output array, so the array ends as the layer of
  the arrays the call was entered with.
-/
import proofs.«116214_j36043365548318_1_alg».proof.Proof.Gen.KernelIdeal.Frame
import proofs.«116214_j36043365548318_1_alg».proof.Proof.Payloads
import Idealize.ShloMosaic.Lib.Pipeline.Value

set_option maxRecDepth 16384

noncomputable section

namespace Cert.KernelIdeal.Reg20

open Idealize.ShloMosaic Idealize.ShloMosaic.TcCoe Idealize.ShloMosaic.ValueIdx Idealize.ShloMosaic.Pipeline Idealize.SL.Sem
open Cert.Rows Cert.Layers Cert.KernelIdeal Cert.KernelIdeal.Gen Cert.KernelIdeal.Payloads

variable (V : (c : Dev nD) → (b : Ref sig .tc) → Buf (Elt Ideal) ((c : Thread nD τ).loc b))

/-- The block index of every window at every grid point: the row windows move one block per point, the others stay. -/
theorem idx : ∀ t : Fin cfg20.N, win20_0.index t (0 : Fin 2) = t.val ∧ win20_0.index t (1 : Fin 2) = 0
    ∧ win20_1.index t (0 : Fin 2) = t.val ∧ win20_1.index t (1 : Fin 2) = 0
    ∧ win20_2.index t (0 : Fin 2) = t.val ∧ win20_2.index t (1 : Fin 2) = 0
    ∧ win20_3.index t (0 : Fin 2) = 0 ∧ win20_3.index t (1 : Fin 2) = 0
    ∧ win20_4.index t (0 : Fin 2) = 0 ∧ win20_4.index t (1 : Fin 2) = 0
    ∧ win20_5.index t (0 : Fin 2) = t.val ∧ win20_5.index t (1 : Fin 2) = 0 :=
  (by decide +kernel : ∀ t : Fin grid20.N, _)

/-- Block t lies inside the 102400 rows. -/
theorem hb (t : Fin cfg20.N) : 4096 * t.val + 4096 ≤ 102400 := by
  have h : t.val < 25 := lt_of_lt_of_eq t.isLt N_20
  omega

/-- Block t of input 0 is rows 4096 t, …, 4096 t + 4095 of its array. -/
theorem blk_0 (c : Dev nD) (t : Fin cfg20.N) :
    iblk20 V c 0 t = rowsAt (P := 102400) (N := 256) (α := EReal) (4096 * t.val) 4096 (hb t) (V c main_v296) := by
  funext y
  show V c main_v296 (((cfg20.win 0).blk t).view.emb y) = V c main_v296 (ix2 ⟨4096 * t.val + (y 0).val, _⟩ (y 1))
  refine congrArg (V c main_v296) ?_
  funext a; apply Fin.ext
  obtain ⟨e0, e1, e2, e3, e4, e5, e6, e7, e8, e9, e10, e11⟩ := idx t
  match a with
  | ⟨0, _⟩ => show win20_0.index t (0 : Fin 2) * 4096 + 1 * (y 0).val = 4096 * t.val + (y 0).val; omega
  | ⟨1, _⟩ => show win20_0.index t (1 : Fin 2) * 256 + 1 * (y 1).val = (y 1).val; omega

/-- Block t of input 1 is rows 4096 t, …, 4096 t + 4095 of its array. -/
theorem blk_1 (c : Dev nD) (t : Fin cfg20.N) :
    iblk20 V c 1 t = rowsAt (P := 102400) (N := 256) (α := EReal) (4096 * t.val) 4096 (hb t) (V c main_v297) := by
  funext y
  show V c main_v297 (((cfg20.win 1).blk t).view.emb y) = V c main_v297 (ix2 ⟨4096 * t.val + (y 0).val, _⟩ (y 1))
  refine congrArg (V c main_v297) ?_
  funext a; apply Fin.ext
  obtain ⟨e0, e1, e2, e3, e4, e5, e6, e7, e8, e9, e10, e11⟩ := idx t
  match a with
  | ⟨0, _⟩ => show win20_1.index t (0 : Fin 2) * 4096 + 1 * (y 0).val = 4096 * t.val + (y 0).val; omega
  | ⟨1, _⟩ => show win20_1.index t (1 : Fin 2) * 256 + 1 * (y 1).val = (y 1).val; omega

/-- Block t of input 2 is rows 4096 t, …, 4096 t + 4095 of its array. -/
theorem blk_2 (c : Dev nD) (t : Fin cfg20.N) :
    iblk20 V c 2 t = rowsAt (P := 102400) (N := 256) (α := EReal) (4096 * t.val) 4096 (hb t) (V c main_v298) := by
  funext y
  show V c main_v298 (((cfg20.win 2).blk t).view.emb y) = V c main_v298 (ix2 ⟨4096 * t.val + (y 0).val, _⟩ (y 1))
  refine congrArg (V c main_v298) ?_
  funext a; apply Fin.ext
  obtain ⟨e0, e1, e2, e3, e4, e5, e6, e7, e8, e9, e10, e11⟩ := idx t
  match a with
  | ⟨0, _⟩ => show win20_2.index t (0 : Fin 2) * 4096 + 1 * (y 0).val = 4096 * t.val + (y 0).val; omega
  | ⟨1, _⟩ => show win20_2.index t (1 : Fin 2) * 256 + 1 * (y 1).val = (y 1).val; omega

/-- Input 3's block is its whole array at every point. -/
theorem blk_3 (c : Dev nD) (t : Fin cfg20.N) : iblk20 V c 3 t = V c main_arg33 := by
  funext y
  show V c main_arg33 (((cfg20.win 3).blk t).view.emb y) = V c main_arg33 y
  refine congrArg (V c main_arg33) ?_
  funext a; apply Fin.ext
  obtain ⟨e0, e1, e2, e3, e4, e5, e6, e7, e8, e9, e10, e11⟩ := idx t
  match a with
  | ⟨0, _⟩ => show win20_3.index t (0 : Fin 2) * 256 + 1 * (y 0).val = (y 0).val; omega
  | ⟨1, _⟩ => show win20_3.index t (1 : Fin 2) * 2 + 1 * (y 1).val = (y 1).val; omega

/-- Input 4's block is its whole array at every point. -/
theorem blk_4 (c : Dev nD) (t : Fin cfg20.N) : iblk20 V c 4 t = V c main_v299 := by
  funext y
  show V c main_v299 (((cfg20.win 4).blk t).view.emb y) = V c main_v299 y
  refine congrArg (V c main_v299) ?_
  funext a; apply Fin.ext
  obtain ⟨e0, e1, e2, e3, e4, e5, e6, e7, e8, e9, e10, e11⟩ := idx t
  match a with
  | ⟨0, _⟩ => show win20_4.index t (0 : Fin 2) * 1 + 1 * (y 0).val = (y 0).val; omega
  | ⟨1, _⟩ => show win20_4.index t (1 : Fin 2) * 2 + 1 * (y 1).val = (y 1).val; omega

/-- What point t writes back is block t of the layer of the whole arrays. -/
theorem flushed (c : Dev nD) (t : Fin cfg20.N) :
    (dat20 V c).flushed 5 t = ((cfg20.win 5).blk t).view.read (Elt Ideal) (triOut (V c main_v296) (V c main_v297) (V c main_v298) (V c main_arg33) (V c main_v299)) := by
  show (cfg20.win 5).cut (grid20.coords t) ((dat20 V c).after 5 t) = _
  rw [after20_5]
  unfold out20_5
  rw [View.canon_unit_zero hz2]
  simp only [View.ld_unit_zero (S := S4096x256) hz2, View.ld_unit_zero (S := S256x2) hz2, View.ld_unit_zero (S := S1x2) hz2, View.ld_unit_zero (S := S4096x2) hz2]
  funext y
  show k20_pay1 (iblk20 V c 0 t) (iblk20 V c 1 t) (iblk20 V c 2 t) (iblk20 V c 3 t) (iblk20 V c 4 t) y = triOut (V c main_v296) (V c main_v297) (V c main_v298) (V c main_arg33) (V c main_v299) (((cfg20.win 5).blk t).view.emb y)
  refine (congrFun (pay20 (iblk20 V c 0 t) (iblk20 V c 1 t) (iblk20 V c 2 t) (iblk20 V c 3 t) (iblk20 V c 4 t)) y).trans ?_
  rw [blk_0 V c t, blk_1 V c t, blk_2 V c t, blk_3 V c t, blk_4 V c t]
  refine (congrFun (rowsAt_triOut (4096 * t.val) 4096 (hb t) (V c main_v296) (V c main_v297) (V c main_v298) (V c main_arg33) (V c main_v299)) y).symm.trans ?_
  refine congrArg (triOut (V c main_v296) (V c main_v297) (V c main_v298) (V c main_arg33) (V c main_v299)) ?_
  funext a; apply Fin.ext
  obtain ⟨e0, e1, e2, e3, e4, e5, e6, e7, e8, e9, e10, e11⟩ := idx t
  match a with
  | ⟨0, _⟩ => show 4096 * t.val + (y 0).val = win20_5.index t (0 : Fin 2) * 4096 + 1 * (y 0).val; omega
  | ⟨1, _⟩ => show (y 1).val = win20_5.index t (1 : Fin 2) * 2 + 1 * (y 1).val; omega

/-- An index of the output array is in point t's block iff each coordinate is in the block's range. -/
theorem mem_blk (t : Fin cfg20.N) (i : S102400x2.Idx) :
    i ∈ ((cfg20.win 5).blk t).view.set ↔ ∀ a : Fin 2, win20_5.index t a * S4096x2.size a ≤ (i a).val ∧ (i a).val < win20_5.index t a * S4096x2.size a + S4096x2.size a := by
  show i ∈ ((View.whole main_v300).slice (win20_5.rect t)).set ↔ _
  rw [View.set_slice_whole, Rect.mem_set_unit]
  exact Iff.rfl

/-- The blocks tile the output array: row r is in block r / 4096. -/
theorem cover (i : S102400x2.Idx) :
    ∃ t : Fin cfg20.N, (cfg20.win 5).flush t = true ∧ i ∈ ((cfg20.win 5).blk t).view.set := by
  have hi0 : (i 0).val < 102400 := (i 0).isLt
  have hi1 : (i 1).val < 2 := (i 1).isLt
  have hN : cfg20.N = 25 := N_20
  have hlt : (i 0).val / 4096 < cfg20.N := by rw [hN]; omega
  obtain ⟨t, ht⟩ : ∃ t : Fin cfg20.N, t.val = (i 0).val / 4096 := ⟨⟨_, hlt⟩, rfl⟩
  refine ⟨t, flush20_5 t, ?_⟩
  rw [mem_blk]
  obtain ⟨e0, e1, e2, e3, e4, e5, e6, e7, e8, e9, e10, e11⟩ := idx t
  intro a
  match a with
  | ⟨0, _⟩ =>
    show win20_5.index t (0 : Fin 2) * 4096 ≤ (i 0).val ∧ (i 0).val < win20_5.index t (0 : Fin 2) * 4096 + 4096
    omega
  | ⟨1, _⟩ =>
    show win20_5.index t (1 : Fin 2) * 2 ≤ (i 1).val ∧ (i 1).val < win20_5.index t (1 : Fin 2) * 2 + 2
    omega

/-- The output array after the call: the layer of the arrays the call was entered with. -/
theorem value (c : Dev nD) : (dat20 V c).arrAt 5 cfg20.N = triOut (V c main_v296) (V c main_v297) (V c main_v298) (V c main_arg33) (V c main_v299) :=
  (dat20 V c).arrAt_eq_of_cover 5 _ (fun t _ => flushed V c t) cover

end Cert.KernelIdeal.Reg20

end
-- ==== Proof.KerChain2.lean ====
/-
  The kernel program's value chain through relation 2 and the last layer: what each buffer that matters holds at each boundary of the run, as the
  stages' terms of the features entering the relation and of the arguments.
-/
import proofs.«116214_j36043365548318_1_alg».proof.Proof.KerRange
import proofs.«116214_j36043365548318_1_alg».proof.Proof.KerStretch1
import proofs.«116214_j36043365548318_1_alg».proof.Proof.KerStretch2
import proofs.«116214_j36043365548318_1_alg».proof.Proof.KerChainLib
import proofs.«116214_j36043365548318_1_alg».proof.Proof.Reg14
import proofs.«116214_j36043365548318_1_alg».proof.Proof.Reg15
import proofs.«116214_j36043365548318_1_alg».proof.Proof.Reg16
import proofs.«116214_j36043365548318_1_alg».proof.Proof.Reg17
import proofs.«116214_j36043365548318_1_alg».proof.Proof.Reg18
import proofs.«116214_j36043365548318_1_alg».proof.Proof.Reg19
import proofs.«116214_j36043365548318_1_alg».proof.Proof.Reg20
import proofs.«116214_j36043365548318_1_alg».proof.Proof.Gen.KernelIdeal.Frame

noncomputable section

namespace Cert.KernelIdeal.KerChain

open Cert.KernelIdeal Cert.KernelIdeal.Gen Cert.KernelIdeal.KerKeeps Cert.KernelIdeal.KerStretch Cert.ReferenceIdeal.Stages Idealize.ShloMosaic Idealize.ShloMosaic.TcCoe
  Idealize.SL.Sem Cert.Rows Cert.Gcn Cert.Layers Cert.HostLayers

variable (m : (ℓ : Loc nD τ sig) → Buf (Elt Ideal) ℓ) (ρ : Dev nD → PrngReg) (c : Dev nD)

set_option maxRecDepth 65536 in
/-- The kept nodes' rows of the features entering relation 2. -/
theorem k73_v206 :
    Gen.W73 m ρ c (Proc.devRef .tc main_v206)
      = kept2 (Gen.W73 m ρ c (Proc.devRef .tc main_v199)) (m ((c.tc : Thread nD τ).loc main_arg13)) := by
  refine (hostOps14_v206 (Gen.W72 m ρ c)).trans ?_
  rw [(show Gen.W72 m ρ c (Proc.devRef .tc main_arg13) = (m ((c.tc : Thread nD τ).loc main_arg13)) from argAt m ρ c 72 (by decide) main_arg13 (by decide))]
  exact congrArg (fun h => kept2 h _) (hostOps14_v199 (Gen.W72 m ρ c)).symm

set_option maxRecDepth 65536 in
/-- The isolated nodes' rows. -/
theorem k73_v213 :
    Gen.W73 m ρ c (Proc.devRef .tc main_v213)
      = isol2 (Gen.W73 m ρ c (Proc.devRef .tc main_v199)) (m ((c.tc : Thread nD τ).loc main_arg14)) := by
  refine (hostOps14_v213 (Gen.W72 m ρ c)).trans ?_
  rw [(show Gen.W72 m ρ c (Proc.devRef .tc main_arg14) = (m ((c.tc : Thread nD τ).loc main_arg14)) from argAt m ρ c 72 (by decide) main_arg14 (by decide))]
  exact congrArg (fun h => isol2 h _) (hostOps14_v199 (Gen.W72 m ρ c)).symm

set_option maxRecDepth 65536 in
/-- 2 / λ. -/
theorem k73_v214 :
    Gen.W73 m ρ c (Proc.devRef .tc main_v214)
      = re (m ((c.tc : Thread nD τ).loc main_arg18)) := by
  refine (hostOps14_v214 (Gen.W72 m ρ c)).trans ?_
  rw [(show Gen.W72 m ρ c (Proc.devRef .tc main_arg18) = (m ((c.tc : Thread nD τ).loc main_arg18)) from argAt m ρ c 72 (by decide) main_arg18 (by decide))]

set_option maxRecDepth 65536 in
/-- A half of a graph-convolution layer's weight. -/
theorem k73_v215 :
    Gen.W73 m ρ c (Proc.devRef .tc main_v215)
      = top (m ((c.tc : Thread nD τ).loc main_arg27)) := by
  refine (hostOps14_v215 (Gen.W72 m ρ c)).trans ?_
  rw [(show Gen.W72 m ρ c (Proc.devRef .tc main_arg27) = (m ((c.tc : Thread nD τ).loc main_arg27)) from argAt m ρ c 72 (by decide) main_arg27 (by decide))]

set_option maxRecDepth 65536 in
/-- A half of a graph-convolution layer's weight. -/
theorem k73_v216 :
    Gen.W73 m ρ c (Proc.devRef .tc main_v216)
      = bot (m ((c.tc : Thread nD τ).loc main_arg27)) := by
  refine (hostOps14_v216 (Gen.W72 m ρ c)).trans ?_
  rw [(show Gen.W72 m ρ c (Proc.devRef .tc main_arg27) = (m ((c.tc : Thread nD τ).loc main_arg27)) from argAt m ρ c 72 (by decide) main_arg27 (by decide))]

set_option maxRecDepth 65536 in
/-- A half of a graph-convolution layer's weight. -/
theorem k73_v217 :
    Gen.W73 m ρ c (Proc.devRef .tc main_v217)
      = top (m ((c.tc : Thread nD τ).loc main_arg29)) := by
  refine (hostOps14_v217 (Gen.W72 m ρ c)).trans ?_
  rw [(show Gen.W72 m ρ c (Proc.devRef .tc main_arg29) = (m ((c.tc : Thread nD τ).loc main_arg29)) from argAt m ρ c 72 (by decide) main_arg29 (by decide))]

set_option maxRecDepth 65536 in
/-- A half of a graph-convolution layer's weight. -/
theorem k73_v218 :
    Gen.W73 m ρ c (Proc.devRef .tc main_v218)
      = bot (m ((c.tc : Thread nD τ).loc main_arg29)) := by
  refine (hostOps14_v218 (Gen.W72 m ρ c)).trans ?_
  rw [(show Gen.W72 m ρ c (Proc.devRef .tc main_arg29) = (m ((c.tc : Thread nD τ).loc main_arg29)) from argAt m ρ c 72 (by decide) main_arg29 (by decide))]

set_option maxRecDepth 65536 in
/-- The second Chebyshev term of the kept nodes' rows. -/
theorem k73_v241 :
    Gen.W73 m ρ c (Proc.devRef .tc main_v241)
      = cheb2 (kept2 (Gen.W73 m ρ c (Proc.devRef .tc main_v199)) (m ((c.tc : Thread nD τ).loc main_arg13))) (m ((c.tc : Thread nD τ).loc main_arg15)) (m ((c.tc : Thread nD τ).loc main_arg16)) (m ((c.tc : Thread nD τ).loc main_arg17)) (m ((c.tc : Thread nD τ).loc main_arg18)) := by
  refine (hostOps14_v241 (Gen.W72 m ρ c)).trans ?_
  rw [(show Gen.W72 m ρ c (Proc.devRef .tc main_arg13) = (m ((c.tc : Thread nD τ).loc main_arg13)) from argAt m ρ c 72 (by decide) main_arg13 (by decide)),
    (show Gen.W72 m ρ c (Proc.devRef .tc main_arg15) = (m ((c.tc : Thread nD τ).loc main_arg15)) from argAt m ρ c 72 (by decide) main_arg15 (by decide)),
    (show Gen.W72 m ρ c (Proc.devRef .tc main_arg16) = (m ((c.tc : Thread nD τ).loc main_arg16)) from argAt m ρ c 72 (by decide) main_arg16 (by decide)),
    (show Gen.W72 m ρ c (Proc.devRef .tc main_arg17) = (m ((c.tc : Thread nD τ).loc main_arg17)) from argAt m ρ c 72 (by decide) main_arg17 (by decide)),
    (show Gen.W72 m ρ c (Proc.devRef .tc main_arg18) = (m ((c.tc : Thread nD τ).loc main_arg18)) from argAt m ρ c 72 (by decide) main_arg18 (by decide))]
  exact congrArg (fun h => cheb2 (kept2 h _) _ _ _ _) (hostOps14_v199 (Gen.W72 m ρ c)).symm

set_option maxRecDepth 65536 in
/-- The kept nodes' rows, padded to whole blocks. -/
theorem k74_v242 :
    Gen.W74 m ρ c (Proc.devRef .tc main_v242)
      = pad S77824x256 ![0, 0] ![3170, 0] ![0, 0] (kept2 (Gen.W73 m ρ c (Proc.devRef .tc main_v199)) (m ((c.tc : Thread nD τ).loc main_arg13)) : FVec Ideal S74654x256 .f32) (sitofp (F := Ideal) .f32 (Gen.W73 m ρ c (Proc.devRef .tc main_c_55) : IVec S_ 32) : FVec Ideal S_ .f32) pads_S74654x256_S77824x256_031700_000 h_S_ := by
  refine (hostOps14_1_v242 (Gen.W73 m ρ c)).trans ?_
  rw [k73_v206 m ρ c]

set_option maxRecDepth 65536 in
/-- Their Chebyshev term, padded to whole blocks. -/
theorem k76_v243 :
    Gen.W76 m ρ c (Proc.devRef .tc main_v243)
      = pad S77824x256 ![0, 0] ![3170, 0] ![0, 0] (cheb2 (kept2 (Gen.W73 m ρ c (Proc.devRef .tc main_v199)) (m ((c.tc : Thread nD τ).loc main_arg13))) (m ((c.tc : Thread nD τ).loc main_arg15)) (m ((c.tc : Thread nD τ).loc main_arg16)) (m ((c.tc : Thread nD τ).loc main_arg17)) (m ((c.tc : Thread nD τ).loc main_arg18)) : FVec Ideal S74654x256 .f32) (sitofp (F := Ideal) .f32 (Gen.W75 m ρ c (Proc.devRef .tc main_c_56) : IVec S_ 32) : FVec Ideal S_ .f32) pads_S74654x256_S77824x256_031700_000 h_S_ := by
  refine (hostOps14_3_v243 (Gen.W75 m ρ c)).trans ?_
  rw [((show Gen.W75 m ρ c (Proc.devRef .tc main_v241) = Gen.W73 m ρ c (Proc.devRef .tc main_v241) from carry m ρ c 73 75 (by decide) (by decide) main_v241 (by decide)).trans (k73_v241 m ρ c))]

set_option maxRecDepth 65536 in
/-- A bias as a row. -/
theorem k77_v244 :
    Gen.W77 m ρ c (Proc.devRef .tc main_v244)
      = row (m ((c.tc : Thread nD τ).loc main_arg28)) := by
  refine (hostOps14_4_v244 (Gen.W76 m ρ c)).trans ?_
  rw [(show Gen.W76 m ρ c (Proc.devRef .tc main_arg28) = (m ((c.tc : Thread nD τ).loc main_arg28)) from argAt m ρ c 76 (by decide) main_arg28 (by decide))]

set_option maxRecDepth 65536 in
/-- The first graph-convolution layer on the padded rows. -/
theorem k78_v245 :
    Gen.W78 m ρ c (Proc.devRef .tc main_v245)
      = dualRelu (pad S77824x256 ![0, 0] ![3170, 0] ![0, 0] (kept2 (Gen.W73 m ρ c (Proc.devRef .tc main_v199)) (m ((c.tc : Thread nD τ).loc main_arg13)) : FVec Ideal S74654x256 .f32) (sitofp (F := Ideal) .f32 (Gen.W73 m ρ c (Proc.devRef .tc main_c_55) : IVec S_ 32) : FVec Ideal S_ .f32) pads_S74654x256_S77824x256_031700_000 h_S_) (pad S77824x256 ![0, 0] ![3170, 0] ![0, 0] (cheb2 (kept2 (Gen.W73 m ρ c (Proc.devRef .tc main_v199)) (m ((c.tc : Thread nD τ).loc main_arg13))) (m ((c.tc : Thread nD τ).loc main_arg15)) (m ((c.tc : Thread nD τ).loc main_arg16)) (m ((c.tc : Thread nD τ).loc main_arg17)) (m ((c.tc : Thread nD τ).loc main_arg18)) : FVec Ideal S74654x256 .f32) (sitofp (F := Ideal) .f32 (Gen.W75 m ρ c (Proc.devRef .tc main_c_56) : IVec S_ 32) : FVec Ideal S_ .f32) pads_S74654x256_S77824x256_031700_000 h_S_) (top (m ((c.tc : Thread nD τ).loc main_arg27))) (bot (m ((c.tc : Thread nD τ).loc main_arg27))) (row (m ((c.tc : Thread nD τ).loc main_arg28))) := by
  refine ((Gen.W78_arr m ρ c 5).trans (Cert.KernelIdeal.Reg14.value (Gen.V77 m ρ) c)).trans ?_
  show dualRelu (Gen.W77 m ρ c (Proc.devRef .tc main_v242)) (Gen.W77 m ρ c (Proc.devRef .tc main_v243)) (Gen.W77 m ρ c (Proc.devRef .tc main_v215)) (Gen.W77 m ρ c (Proc.devRef .tc main_v216)) (Gen.W77 m ρ c (Proc.devRef .tc main_v244)) = _
  rw [((show Gen.W77 m ρ c (Proc.devRef .tc main_v242) = Gen.W74 m ρ c (Proc.devRef .tc main_v242) from carry m ρ c 74 77 (by decide) (by decide) main_v242 (by decide)).trans (k74_v242 m ρ c)),
    ((show Gen.W77 m ρ c (Proc.devRef .tc main_v243) = Gen.W76 m ρ c (Proc.devRef .tc main_v243) from carry m ρ c 76 77 (by decide) (by decide) main_v243 (by decide)).trans (k76_v243 m ρ c)),
    ((show Gen.W77 m ρ c (Proc.devRef .tc main_v215) = Gen.W73 m ρ c (Proc.devRef .tc main_v215) from carry m ρ c 73 77 (by decide) (by decide) main_v215 (by decide)).trans (k73_v215 m ρ c)),
    ((show Gen.W77 m ρ c (Proc.devRef .tc main_v216) = Gen.W73 m ρ c (Proc.devRef .tc main_v216) from carry m ρ c 73 77 (by decide) (by decide) main_v216 (by decide)).trans (k73_v216 m ρ c)),
    k77_v244 m ρ c]

set_option maxRecDepth 65536 in
/-- The first graph-convolution layer. -/
theorem k79_v246 :
    Gen.W79 m ρ c (Proc.devRef .tc main_v246)
      = conv1_2 (Gen.W73 m ρ c (Proc.devRef .tc main_v199)) (m ((c.tc : Thread nD τ).loc main_arg13)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg27)) (m ((c.tc : Thread nD τ).loc main_arg28)) := by
  refine (hostOps15_v246 (Gen.W78 m ρ c)).trans ?_
  rw [k78_v245 m ρ c]
  exact cut_dualRelu _ _ _ _ _ _ _ _ _ _ _ _ (by decide)

set_option maxRecDepth 65536 in
/-- The second Chebyshev term of the first layer's result. -/
theorem k79_v269 :
    Gen.W79 m ρ c (Proc.devRef .tc main_v269)
      = cheb2 (conv1_2 (Gen.W73 m ρ c (Proc.devRef .tc main_v199)) (m ((c.tc : Thread nD τ).loc main_arg13)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg27)) (m ((c.tc : Thread nD τ).loc main_arg28))) (m ((c.tc : Thread nD τ).loc main_arg15)) (m ((c.tc : Thread nD τ).loc main_arg16)) (m ((c.tc : Thread nD τ).loc main_arg17)) (m ((c.tc : Thread nD τ).loc main_arg18)) := by
  refine (hostOps15_v269 (Gen.W78 m ρ c)).trans ?_
  rw [k78_v245 m ρ c,
    (show Gen.W78 m ρ c (Proc.devRef .tc main_arg15) = (m ((c.tc : Thread nD τ).loc main_arg15)) from argAt m ρ c 78 (by decide) main_arg15 (by decide)),
    (show Gen.W78 m ρ c (Proc.devRef .tc main_arg16) = (m ((c.tc : Thread nD τ).loc main_arg16)) from argAt m ρ c 78 (by decide) main_arg16 (by decide)),
    (show Gen.W78 m ρ c (Proc.devRef .tc main_arg17) = (m ((c.tc : Thread nD τ).loc main_arg17)) from argAt m ρ c 78 (by decide) main_arg17 (by decide)),
    ((show Gen.W78 m ρ c (Proc.devRef .tc main_v214) = Gen.W73 m ρ c (Proc.devRef .tc main_v214) from carry m ρ c 73 78 (by decide) (by decide) main_v214 (by decide)).trans (k73_v214 m ρ c))]
  exact congrArg (fun x => chebR2 x _ _ _ _) (cut_dualRelu _ _ _ _ _ _ _ _ _ _ _ _ (by decide))

set_option maxRecDepth 65536 in
/-- The first layer's result, padded to whole blocks. -/
theorem k80_v270 :
    Gen.W80 m ρ c (Proc.devRef .tc main_v270)
      = pad S77824x256 ![0, 0] ![3170, 0] ![0, 0] (conv1_2 (Gen.W73 m ρ c (Proc.devRef .tc main_v199)) (m ((c.tc : Thread nD τ).loc main_arg13)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg27)) (m ((c.tc : Thread nD τ).loc main_arg28)) : FVec Ideal S74654x256 .f32) (sitofp (F := Ideal) .f32 (Gen.W79 m ρ c (Proc.devRef .tc main_c_61) : IVec S_ 32) : FVec Ideal S_ .f32) pads_S74654x256_S77824x256_031700_000 h_S_ := by
  refine (hostOps15_1_v270 (Gen.W79 m ρ c)).trans ?_
  rw [k79_v246 m ρ c]

set_option maxRecDepth 65536 in
/-- Its Chebyshev term, padded to whole blocks. -/
theorem k82_v271 :
    Gen.W82 m ρ c (Proc.devRef .tc main_v271)
      = pad S77824x256 ![0, 0] ![3170, 0] ![0, 0] (cheb2 (conv1_2 (Gen.W73 m ρ c (Proc.devRef .tc main_v199)) (m ((c.tc : Thread nD τ).loc main_arg13)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg27)) (m ((c.tc : Thread nD τ).loc main_arg28))) (m ((c.tc : Thread nD τ).loc main_arg15)) (m ((c.tc : Thread nD τ).loc main_arg16)) (m ((c.tc : Thread nD τ).loc main_arg17)) (m ((c.tc : Thread nD τ).loc main_arg18)) : FVec Ideal S74654x256 .f32) (sitofp (F := Ideal) .f32 (Gen.W81 m ρ c (Proc.devRef .tc main_c_62) : IVec S_ 32) : FVec Ideal S_ .f32) pads_S74654x256_S77824x256_031700_000 h_S_ := by
  refine (hostOps15_3_v271 (Gen.W81 m ρ c)).trans ?_
  rw [((show Gen.W81 m ρ c (Proc.devRef .tc main_v269) = Gen.W79 m ρ c (Proc.devRef .tc main_v269) from carry m ρ c 79 81 (by decide) (by decide) main_v269 (by decide)).trans (k79_v269 m ρ c))]

set_option maxRecDepth 65536 in
/-- A bias as a row. -/
theorem k83_v272 :
    Gen.W83 m ρ c (Proc.devRef .tc main_v272)
      = row (m ((c.tc : Thread nD τ).loc main_arg30)) := by
  refine (hostOps15_4_v272 (Gen.W82 m ρ c)).trans ?_
  rw [(show Gen.W82 m ρ c (Proc.devRef .tc main_arg30) = (m ((c.tc : Thread nD τ).loc main_arg30)) from argAt m ρ c 82 (by decide) main_arg30 (by decide))]

set_option maxRecDepth 65536 in
/-- The second graph-convolution layer on the padded rows. -/
theorem k84_v273 :
    Gen.W84 m ρ c (Proc.devRef .tc main_v273)
      = dualRelu (pad S77824x256 ![0, 0] ![3170, 0] ![0, 0] (conv1_2 (Gen.W73 m ρ c (Proc.devRef .tc main_v199)) (m ((c.tc : Thread nD τ).loc main_arg13)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg27)) (m ((c.tc : Thread nD τ).loc main_arg28)) : FVec Ideal S74654x256 .f32) (sitofp (F := Ideal) .f32 (Gen.W79 m ρ c (Proc.devRef .tc main_c_61) : IVec S_ 32) : FVec Ideal S_ .f32) pads_S74654x256_S77824x256_031700_000 h_S_) (pad S77824x256 ![0, 0] ![3170, 0] ![0, 0] (cheb2 (conv1_2 (Gen.W73 m ρ c (Proc.devRef .tc main_v199)) (m ((c.tc : Thread nD τ).loc main_arg13)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg27)) (m ((c.tc : Thread nD τ).loc main_arg28))) (m ((c.tc : Thread nD τ).loc main_arg15)) (m ((c.tc : Thread nD τ).loc main_arg16)) (m ((c.tc : Thread nD τ).loc main_arg17)) (m ((c.tc : Thread nD τ).loc main_arg18)) : FVec Ideal S74654x256 .f32) (sitofp (F := Ideal) .f32 (Gen.W81 m ρ c (Proc.devRef .tc main_c_62) : IVec S_ 32) : FVec Ideal S_ .f32) pads_S74654x256_S77824x256_031700_000 h_S_) (top (m ((c.tc : Thread nD τ).loc main_arg29))) (bot (m ((c.tc : Thread nD τ).loc main_arg29))) (row (m ((c.tc : Thread nD τ).loc main_arg30))) := by
  refine ((Gen.W84_arr m ρ c 5).trans (Cert.KernelIdeal.Reg15.value (Gen.V83 m ρ) c)).trans ?_
  show dualRelu (Gen.W83 m ρ c (Proc.devRef .tc main_v270)) (Gen.W83 m ρ c (Proc.devRef .tc main_v271)) (Gen.W83 m ρ c (Proc.devRef .tc main_v217)) (Gen.W83 m ρ c (Proc.devRef .tc main_v218)) (Gen.W83 m ρ c (Proc.devRef .tc main_v272)) = _
  rw [((show Gen.W83 m ρ c (Proc.devRef .tc main_v270) = Gen.W80 m ρ c (Proc.devRef .tc main_v270) from carry m ρ c 80 83 (by decide) (by decide) main_v270 (by decide)).trans (k80_v270 m ρ c)),
    ((show Gen.W83 m ρ c (Proc.devRef .tc main_v271) = Gen.W82 m ρ c (Proc.devRef .tc main_v271) from carry m ρ c 82 83 (by decide) (by decide) main_v271 (by decide)).trans (k82_v271 m ρ c)),
    ((show Gen.W83 m ρ c (Proc.devRef .tc main_v217) = Gen.W73 m ρ c (Proc.devRef .tc main_v217) from carry m ρ c 73 83 (by decide) (by decide) main_v217 (by decide)).trans (k73_v217 m ρ c)),
    ((show Gen.W83 m ρ c (Proc.devRef .tc main_v218) = Gen.W73 m ρ c (Proc.devRef .tc main_v218) from carry m ρ c 73 83 (by decide) (by decide) main_v218 (by decide)).trans (k73_v218 m ρ c)),
    k83_v272 m ρ c]

set_option maxRecDepth 65536 in
/-- The second graph-convolution layer. -/
theorem k85_v274 :
    Gen.W85 m ρ c (Proc.devRef .tc main_v274)
      = conv2_2 (Gen.W73 m ρ c (Proc.devRef .tc main_v199)) (m ((c.tc : Thread nD τ).loc main_arg13)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg27)) (m ((c.tc : Thread nD τ).loc main_arg28)) (m ((c.tc : Thread nD τ).loc main_arg29)) (m ((c.tc : Thread nD τ).loc main_arg30)) := by
  refine (hostOps16_v274 (Gen.W84 m ρ c)).trans ?_
  rw [k84_v273 m ρ c]
  exact cut_dualRelu _ _ _ _ _ _ _ _ _ _ _ _ (by decide)

set_option maxRecDepth 65536 in
/-- The isolated nodes' rows, padded to whole blocks. -/
theorem k86_v275 :
    Gen.W86 m ρ c (Proc.devRef .tc main_v275)
      = pad S28672x256 ![0, 0] ![3326, 0] ![0, 0] (isol2 (Gen.W73 m ρ c (Proc.devRef .tc main_v199)) (m ((c.tc : Thread nD τ).loc main_arg14)) : FVec Ideal S25346x256 .f32) (sitofp (F := Ideal) .f32 (Gen.W85 m ρ c (Proc.devRef .tc main_c_63) : IVec S_ 32) : FVec Ideal S_ .f32) pads_S25346x256_S28672x256_033260_000 h_S_ := by
  refine (hostOps16_1_v275 (Gen.W85 m ρ c)).trans ?_
  rw [((show Gen.W85 m ρ c (Proc.devRef .tc main_v213) = Gen.W73 m ρ c (Proc.devRef .tc main_v213) from carry m ρ c 73 85 (by decide) (by decide) main_v213 (by decide)).trans (k73_v213 m ρ c))]

set_option maxRecDepth 65536 in
/-- A bias as a row. -/
theorem k87_v276 :
    Gen.W87 m ρ c (Proc.devRef .tc main_v276)
      = row (m ((c.tc : Thread nD τ).loc main_arg24)) := by
  refine (hostOps16_2_v276 (Gen.W86 m ρ c)).trans ?_
  rw [(show Gen.W86 m ρ c (Proc.devRef .tc main_arg24) = (m ((c.tc : Thread nD τ).loc main_arg24)) from argAt m ρ c 86 (by decide) main_arg24 (by decide))]

set_option maxRecDepth 65536 in
/-- The first plain layer on the padded rows. -/
theorem k88_v277 :
    Gen.W88 m ρ c (Proc.devRef .tc main_v277)
      = linPlain (pad S28672x256 ![0, 0] ![3326, 0] ![0, 0] (isol2 (Gen.W73 m ρ c (Proc.devRef .tc main_v199)) (m ((c.tc : Thread nD τ).loc main_arg14)) : FVec Ideal S25346x256 .f32) (sitofp (F := Ideal) .f32 (Gen.W85 m ρ c (Proc.devRef .tc main_c_63) : IVec S_ 32) : FVec Ideal S_ .f32) pads_S25346x256_S28672x256_033260_000 h_S_) ((m ((c.tc : Thread nD τ).loc main_arg23))) (row (m ((c.tc : Thread nD τ).loc main_arg24))) := by
  refine ((Gen.W88_arr m ρ c 3).trans (Cert.KernelIdeal.Reg16.value (Gen.V87 m ρ) c)).trans ?_
  show linPlain (Gen.W87 m ρ c (Proc.devRef .tc main_v275)) (Gen.W87 m ρ c (Proc.devRef .tc main_arg23)) (Gen.W87 m ρ c (Proc.devRef .tc main_v276)) = _
  rw [((show Gen.W87 m ρ c (Proc.devRef .tc main_v275) = Gen.W86 m ρ c (Proc.devRef .tc main_v275) from carry m ρ c 86 87 (by decide) (by decide) main_v275 (by decide)).trans (k86_v275 m ρ c)),
    (show Gen.W87 m ρ c (Proc.devRef .tc main_arg23) = (m ((c.tc : Thread nD τ).loc main_arg23)) from argAt m ρ c 87 (by decide) main_arg23 (by decide)),
    k87_v276 m ρ c]

set_option maxRecDepth 65536 in
/-- The first plain layer. -/
theorem k89_v278 :
    Gen.W89 m ρ c (Proc.devRef .tc main_v278)
      = mlp1_2 (Gen.W73 m ρ c (Proc.devRef .tc main_v199)) (m ((c.tc : Thread nD τ).loc main_arg14)) (m ((c.tc : Thread nD τ).loc main_arg23)) (m ((c.tc : Thread nD τ).loc main_arg24)) := by
  refine (hostOps17_v278 (Gen.W88 m ρ c)).trans ?_
  rw [k88_v277 m ρ c]
  exact cut_linPlain _ _ _ _ _ _ _ _ (by decide)

set_option maxRecDepth 65536 in
/-- The first plain layer's result, padded to whole blocks. -/
theorem k90_v279 :
    Gen.W90 m ρ c (Proc.devRef .tc main_v279)
      = pad S28672x256 ![0, 0] ![3326, 0] ![0, 0] (mlp1_2 (Gen.W73 m ρ c (Proc.devRef .tc main_v199)) (m ((c.tc : Thread nD τ).loc main_arg14)) (m ((c.tc : Thread nD τ).loc main_arg23)) (m ((c.tc : Thread nD τ).loc main_arg24)) : FVec Ideal S25346x256 .f32) (sitofp (F := Ideal) .f32 (Gen.W89 m ρ c (Proc.devRef .tc main_c_64) : IVec S_ 32) : FVec Ideal S_ .f32) pads_S25346x256_S28672x256_033260_000 h_S_ := by
  refine (hostOps17_1_v279 (Gen.W89 m ρ c)).trans ?_
  rw [k89_v278 m ρ c]

set_option maxRecDepth 65536 in
/-- A bias as a row. -/
theorem k91_v280 :
    Gen.W91 m ρ c (Proc.devRef .tc main_v280)
      = row (m ((c.tc : Thread nD τ).loc main_arg26)) := by
  refine (hostOps17_2_v280 (Gen.W90 m ρ c)).trans ?_
  rw [(show Gen.W90 m ρ c (Proc.devRef .tc main_arg26) = (m ((c.tc : Thread nD τ).loc main_arg26)) from argAt m ρ c 90 (by decide) main_arg26 (by decide))]

set_option maxRecDepth 65536 in
/-- The second plain layer on the padded rows. -/
theorem k92_v281 :
    Gen.W92 m ρ c (Proc.devRef .tc main_v281)
      = linPlain (pad S28672x256 ![0, 0] ![3326, 0] ![0, 0] (mlp1_2 (Gen.W73 m ρ c (Proc.devRef .tc main_v199)) (m ((c.tc : Thread nD τ).loc main_arg14)) (m ((c.tc : Thread nD τ).loc main_arg23)) (m ((c.tc : Thread nD τ).loc main_arg24)) : FVec Ideal S25346x256 .f32) (sitofp (F := Ideal) .f32 (Gen.W89 m ρ c (Proc.devRef .tc main_c_64) : IVec S_ 32) : FVec Ideal S_ .f32) pads_S25346x256_S28672x256_033260_000 h_S_) ((m ((c.tc : Thread nD τ).loc main_arg25))) (row (m ((c.tc : Thread nD τ).loc main_arg26))) := by
  refine ((Gen.W92_arr m ρ c 3).trans (Cert.KernelIdeal.Reg17.value (Gen.V91 m ρ) c)).trans ?_
  show linPlain (Gen.W91 m ρ c (Proc.devRef .tc main_v279)) (Gen.W91 m ρ c (Proc.devRef .tc main_arg25)) (Gen.W91 m ρ c (Proc.devRef .tc main_v280)) = _
  rw [((show Gen.W91 m ρ c (Proc.devRef .tc main_v279) = Gen.W90 m ρ c (Proc.devRef .tc main_v279) from carry m ρ c 90 91 (by decide) (by decide) main_v279 (by decide)).trans (k90_v279 m ρ c)),
    (show Gen.W91 m ρ c (Proc.devRef .tc main_arg25) = (m ((c.tc : Thread nD τ).loc main_arg25)) from argAt m ρ c 91 (by decide) main_arg25 (by decide)),
    k91_v280 m ρ c]

set_option maxRecDepth 65536 in
/-- The second plain layer. -/
theorem k93_v282 :
    Gen.W93 m ρ c (Proc.devRef .tc main_v282)
      = mlp2_2 (Gen.W73 m ρ c (Proc.devRef .tc main_v199)) (m ((c.tc : Thread nD τ).loc main_arg14)) (m ((c.tc : Thread nD τ).loc main_arg23)) (m ((c.tc : Thread nD τ).loc main_arg24)) (m ((c.tc : Thread nD τ).loc main_arg25)) (m ((c.tc : Thread nD τ).loc main_arg26)) := by
  refine (hostOps18_v282 (Gen.W92 m ρ c)).trans ?_
  rw [k92_v281 m ρ c]
  exact cut_linPlain _ _ _ _ _ _ _ _ (by decide)

set_option maxRecDepth 65536 in
/-- The first half of the combining layer's weight. -/
theorem k93_v283 :
    Gen.W93 m ρ c (Proc.devRef .tc main_v283)
      = top (m ((c.tc : Thread nD τ).loc main_arg31)) := by
  refine (hostOps18_v283 (Gen.W92 m ρ c)).trans ?_
  rw [(show Gen.W92 m ρ c (Proc.devRef .tc main_arg31) = (m ((c.tc : Thread nD τ).loc main_arg31)) from argAt m ρ c 92 (by decide) main_arg31 (by decide))]

set_option maxRecDepth 65536 in
/-- The last half of the combining layer's weight. -/
theorem k93_v284 :
    Gen.W93 m ρ c (Proc.devRef .tc main_v284)
      = bot (m ((c.tc : Thread nD τ).loc main_arg31)) := by
  refine (hostOps18_v284 (Gen.W92 m ρ c)).trans ?_
  rw [(show Gen.W92 m ρ c (Proc.devRef .tc main_arg31) = (m ((c.tc : Thread nD τ).loc main_arg31)) from argAt m ρ c 92 (by decide) main_arg31 (by decide))]

set_option maxRecDepth 65536 in
/-- The first layer's result, padded to whole blocks. -/
theorem k94_v285 :
    Gen.W94 m ρ c (Proc.devRef .tc main_v285)
      = pad S77824x256 ![0, 0] ![3170, 0] ![0, 0] (conv1_2 (Gen.W73 m ρ c (Proc.devRef .tc main_v199)) (m ((c.tc : Thread nD τ).loc main_arg13)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg27)) (m ((c.tc : Thread nD τ).loc main_arg28)) : FVec Ideal S74654x256 .f32) (sitofp (F := Ideal) .f32 (Gen.W93 m ρ c (Proc.devRef .tc main_c_65) : IVec S_ 32) : FVec Ideal S_ .f32) pads_S74654x256_S77824x256_031700_000 h_S_ := by
  refine (hostOps18_1_v285 (Gen.W93 m ρ c)).trans ?_
  rw [((show Gen.W93 m ρ c (Proc.devRef .tc main_v246) = Gen.W79 m ρ c (Proc.devRef .tc main_v246) from carry m ρ c 79 93 (by decide) (by decide) main_v246 (by decide)).trans (k79_v246 m ρ c))]

set_option maxRecDepth 65536 in
/-- The second layer's result, padded to whole blocks. -/
theorem k96_v286 :
    Gen.W96 m ρ c (Proc.devRef .tc main_v286)
      = pad S77824x256 ![0, 0] ![3170, 0] ![0, 0] (conv2_2 (Gen.W73 m ρ c (Proc.devRef .tc main_v199)) (m ((c.tc : Thread nD τ).loc main_arg13)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg27)) (m ((c.tc : Thread nD τ).loc main_arg28)) (m ((c.tc : Thread nD τ).loc main_arg29)) (m ((c.tc : Thread nD τ).loc main_arg30)) : FVec Ideal S74654x256 .f32) (sitofp (F := Ideal) .f32 (Gen.W95 m ρ c (Proc.devRef .tc main_c_66) : IVec S_ 32) : FVec Ideal S_ .f32) pads_S74654x256_S77824x256_031700_000 h_S_ := by
  refine (hostOps18_3_v286 (Gen.W95 m ρ c)).trans ?_
  rw [((show Gen.W95 m ρ c (Proc.devRef .tc main_v274) = Gen.W85 m ρ c (Proc.devRef .tc main_v274) from carry m ρ c 85 95 (by decide) (by decide) main_v274 (by decide)).trans (k85_v274 m ρ c))]

set_option maxRecDepth 65536 in
/-- A bias as a row. -/
theorem k97_v287 :
    Gen.W97 m ρ c (Proc.devRef .tc main_v287)
      = row (m ((c.tc : Thread nD τ).loc main_arg32)) := by
  refine (hostOps18_4_v287 (Gen.W96 m ρ c)).trans ?_
  rw [(show Gen.W96 m ρ c (Proc.devRef .tc main_arg32) = (m ((c.tc : Thread nD τ).loc main_arg32)) from argAt m ρ c 96 (by decide) main_arg32 (by decide))]

set_option maxRecDepth 65536 in
/-- The combining layer on the kept nodes' padded rows. -/
theorem k98_v288 :
    Gen.W98 m ρ c (Proc.devRef .tc main_v288)
      = dualPlain (pad S77824x256 ![0, 0] ![3170, 0] ![0, 0] (conv1_2 (Gen.W73 m ρ c (Proc.devRef .tc main_v199)) (m ((c.tc : Thread nD τ).loc main_arg13)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg27)) (m ((c.tc : Thread nD τ).loc main_arg28)) : FVec Ideal S74654x256 .f32) (sitofp (F := Ideal) .f32 (Gen.W93 m ρ c (Proc.devRef .tc main_c_65) : IVec S_ 32) : FVec Ideal S_ .f32) pads_S74654x256_S77824x256_031700_000 h_S_) (pad S77824x256 ![0, 0] ![3170, 0] ![0, 0] (conv2_2 (Gen.W73 m ρ c (Proc.devRef .tc main_v199)) (m ((c.tc : Thread nD τ).loc main_arg13)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg27)) (m ((c.tc : Thread nD τ).loc main_arg28)) (m ((c.tc : Thread nD τ).loc main_arg29)) (m ((c.tc : Thread nD τ).loc main_arg30)) : FVec Ideal S74654x256 .f32) (sitofp (F := Ideal) .f32 (Gen.W95 m ρ c (Proc.devRef .tc main_c_66) : IVec S_ 32) : FVec Ideal S_ .f32) pads_S74654x256_S77824x256_031700_000 h_S_) (top (m ((c.tc : Thread nD τ).loc main_arg31))) (bot (m ((c.tc : Thread nD τ).loc main_arg31))) (row (m ((c.tc : Thread nD τ).loc main_arg32))) := by
  refine ((Gen.W98_arr m ρ c 5).trans (Cert.KernelIdeal.Reg18.value (Gen.V97 m ρ) c)).trans ?_
  show dualPlain (Gen.W97 m ρ c (Proc.devRef .tc main_v285)) (Gen.W97 m ρ c (Proc.devRef .tc main_v286)) (Gen.W97 m ρ c (Proc.devRef .tc main_v283)) (Gen.W97 m ρ c (Proc.devRef .tc main_v284)) (Gen.W97 m ρ c (Proc.devRef .tc main_v287)) = _
  rw [((show Gen.W97 m ρ c (Proc.devRef .tc main_v285) = Gen.W94 m ρ c (Proc.devRef .tc main_v285) from carry m ρ c 94 97 (by decide) (by decide) main_v285 (by decide)).trans (k94_v285 m ρ c)),
    ((show Gen.W97 m ρ c (Proc.devRef .tc main_v286) = Gen.W96 m ρ c (Proc.devRef .tc main_v286) from carry m ρ c 96 97 (by decide) (by decide) main_v286 (by decide)).trans (k96_v286 m ρ c)),
    ((show Gen.W97 m ρ c (Proc.devRef .tc main_v283) = Gen.W93 m ρ c (Proc.devRef .tc main_v283) from carry m ρ c 93 97 (by decide) (by decide) main_v283 (by decide)).trans (k93_v283 m ρ c)),
    ((show Gen.W97 m ρ c (Proc.devRef .tc main_v284) = Gen.W93 m ρ c (Proc.devRef .tc main_v284) from carry m ρ c 93 97 (by decide) (by decide) main_v284 (by decide)).trans (k93_v284 m ρ c)),
    k97_v287 m ρ c]

set_option maxRecDepth 65536 in
/-- The combining layer on the kept nodes. -/
theorem k99_v289 :
    Gen.W99 m ρ c (Proc.devRef .tc main_v289)
      = dualPlain (conv1_2 (Gen.W73 m ρ c (Proc.devRef .tc main_v199)) (m ((c.tc : Thread nD τ).loc main_arg13)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg27)) (m ((c.tc : Thread nD τ).loc main_arg28))) (conv2_2 (Gen.W73 m ρ c (Proc.devRef .tc main_v199)) (m ((c.tc : Thread nD τ).loc main_arg13)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg27)) (m ((c.tc : Thread nD τ).loc main_arg28)) (m ((c.tc : Thread nD τ).loc main_arg29)) (m ((c.tc : Thread nD τ).loc main_arg30))) (top (m ((c.tc : Thread nD τ).loc main_arg31))) (bot (m ((c.tc : Thread nD τ).loc main_arg31))) (row (m ((c.tc : Thread nD τ).loc main_arg32))) := by
  refine (hostOps19_v289 (Gen.W98 m ρ c)).trans ?_
  rw [k98_v288 m ρ c]
  exact cut_dualPlain _ _ _ _ _ _ _ _ _ _ _ _ (by decide)

set_option maxRecDepth 65536 in
/-- The first plain layer's result, padded to whole blocks. -/
theorem k100_v290 :
    Gen.W100 m ρ c (Proc.devRef .tc main_v290)
      = pad S28672x256 ![0, 0] ![3326, 0] ![0, 0] (mlp1_2 (Gen.W73 m ρ c (Proc.devRef .tc main_v199)) (m ((c.tc : Thread nD τ).loc main_arg14)) (m ((c.tc : Thread nD τ).loc main_arg23)) (m ((c.tc : Thread nD τ).loc main_arg24)) : FVec Ideal S25346x256 .f32) (sitofp (F := Ideal) .f32 (Gen.W99 m ρ c (Proc.devRef .tc main_c_67) : IVec S_ 32) : FVec Ideal S_ .f32) pads_S25346x256_S28672x256_033260_000 h_S_ := by
  refine (hostOps19_1_v290 (Gen.W99 m ρ c)).trans ?_
  rw [((show Gen.W99 m ρ c (Proc.devRef .tc main_v278) = Gen.W89 m ρ c (Proc.devRef .tc main_v278) from carry m ρ c 89 99 (by decide) (by decide) main_v278 (by decide)).trans (k89_v278 m ρ c))]

set_option maxRecDepth 65536 in
/-- The second plain layer's result, padded to whole blocks. -/
theorem k102_v291 :
    Gen.W102 m ρ c (Proc.devRef .tc main_v291)
      = pad S28672x256 ![0, 0] ![3326, 0] ![0, 0] (mlp2_2 (Gen.W73 m ρ c (Proc.devRef .tc main_v199)) (m ((c.tc : Thread nD τ).loc main_arg14)) (m ((c.tc : Thread nD τ).loc main_arg23)) (m ((c.tc : Thread nD τ).loc main_arg24)) (m ((c.tc : Thread nD τ).loc main_arg25)) (m ((c.tc : Thread nD τ).loc main_arg26)) : FVec Ideal S25346x256 .f32) (sitofp (F := Ideal) .f32 (Gen.W101 m ρ c (Proc.devRef .tc main_c_68) : IVec S_ 32) : FVec Ideal S_ .f32) pads_S25346x256_S28672x256_033260_000 h_S_ := by
  refine (hostOps19_3_v291 (Gen.W101 m ρ c)).trans ?_
  rw [((show Gen.W101 m ρ c (Proc.devRef .tc main_v282) = Gen.W93 m ρ c (Proc.devRef .tc main_v282) from carry m ρ c 93 101 (by decide) (by decide) main_v282 (by decide)).trans (k93_v282 m ρ c))]

set_option maxRecDepth 65536 in
/-- A bias as a row. -/
theorem k103_v292 :
    Gen.W103 m ρ c (Proc.devRef .tc main_v292)
      = row (m ((c.tc : Thread nD τ).loc main_arg32)) := by
  refine (hostOps19_4_v292 (Gen.W102 m ρ c)).trans ?_
  rw [(show Gen.W102 m ρ c (Proc.devRef .tc main_arg32) = (m ((c.tc : Thread nD τ).loc main_arg32)) from argAt m ρ c 102 (by decide) main_arg32 (by decide))]

set_option maxRecDepth 65536 in
/-- The combining layer on the isolated nodes' padded rows. -/
theorem k104_v293 :
    Gen.W104 m ρ c (Proc.devRef .tc main_v293)
      = dualPlain (pad S28672x256 ![0, 0] ![3326, 0] ![0, 0] (mlp1_2 (Gen.W73 m ρ c (Proc.devRef .tc main_v199)) (m ((c.tc : Thread nD τ).loc main_arg14)) (m ((c.tc : Thread nD τ).loc main_arg23)) (m ((c.tc : Thread nD τ).loc main_arg24)) : FVec Ideal S25346x256 .f32) (sitofp (F := Ideal) .f32 (Gen.W99 m ρ c (Proc.devRef .tc main_c_67) : IVec S_ 32) : FVec Ideal S_ .f32) pads_S25346x256_S28672x256_033260_000 h_S_) (pad S28672x256 ![0, 0] ![3326, 0] ![0, 0] (mlp2_2 (Gen.W73 m ρ c (Proc.devRef .tc main_v199)) (m ((c.tc : Thread nD τ).loc main_arg14)) (m ((c.tc : Thread nD τ).loc main_arg23)) (m ((c.tc : Thread nD τ).loc main_arg24)) (m ((c.tc : Thread nD τ).loc main_arg25)) (m ((c.tc : Thread nD τ).loc main_arg26)) : FVec Ideal S25346x256 .f32) (sitofp (F := Ideal) .f32 (Gen.W101 m ρ c (Proc.devRef .tc main_c_68) : IVec S_ 32) : FVec Ideal S_ .f32) pads_S25346x256_S28672x256_033260_000 h_S_) (top (m ((c.tc : Thread nD τ).loc main_arg31))) (bot (m ((c.tc : Thread nD τ).loc main_arg31))) (row (m ((c.tc : Thread nD τ).loc main_arg32))) := by
  refine ((Gen.W104_arr m ρ c 5).trans (Cert.KernelIdeal.Reg19.value (Gen.V103 m ρ) c)).trans ?_
  show dualPlain (Gen.W103 m ρ c (Proc.devRef .tc main_v290)) (Gen.W103 m ρ c (Proc.devRef .tc main_v291)) (Gen.W103 m ρ c (Proc.devRef .tc main_v283)) (Gen.W103 m ρ c (Proc.devRef .tc main_v284)) (Gen.W103 m ρ c (Proc.devRef .tc main_v292)) = _
  rw [((show Gen.W103 m ρ c (Proc.devRef .tc main_v290) = Gen.W100 m ρ c (Proc.devRef .tc main_v290) from carry m ρ c 100 103 (by decide) (by decide) main_v290 (by decide)).trans (k100_v290 m ρ c)),
    ((show Gen.W103 m ρ c (Proc.devRef .tc main_v291) = Gen.W102 m ρ c (Proc.devRef .tc main_v291) from carry m ρ c 102 103 (by decide) (by decide) main_v291 (by decide)).trans (k102_v291 m ρ c)),
    ((show Gen.W103 m ρ c (Proc.devRef .tc main_v283) = Gen.W93 m ρ c (Proc.devRef .tc main_v283) from carry m ρ c 93 103 (by decide) (by decide) main_v283 (by decide)).trans (k93_v283 m ρ c)),
    ((show Gen.W103 m ρ c (Proc.devRef .tc main_v284) = Gen.W93 m ρ c (Proc.devRef .tc main_v284) from carry m ρ c 93 103 (by decide) (by decide) main_v284 (by decide)).trans (k93_v284 m ρ c)),
    k103_v292 m ρ c]

set_option maxRecDepth 65536 in
/-- Relation 2's block: the combining layer on the kept nodes above that on the isolated nodes. -/
theorem k105_v295 :
    Gen.W105 m ρ c (Proc.devRef .tc main_v295)
      = block2 (Gen.W73 m ρ c (Proc.devRef .tc main_v199)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg31)) (m ((c.tc : Thread nD τ).loc main_arg32)) := by
  refine (hostOps20_v295 (Gen.W104 m ρ c)).trans ?_
  rw [((show Gen.W104 m ρ c (Proc.devRef .tc main_v289) = Gen.W99 m ρ c (Proc.devRef .tc main_v289) from carry m ρ c 99 104 (by decide) (by decide) main_v289 (by decide)).trans (k99_v289 m ρ c)),
    k104_v293 m ρ c]
  exact (concat_congr_right _ _ _ _ _ _ _ _ (cut_dualPlain _ _ _ _ _ _ _ _ _ _ _ _ (by decide))).trans rfl

set_option maxRecDepth 65536 in
/-- Relation 0's block, padded to whole blocks. -/
theorem k106_v296 :
    Gen.W106 m ρ c (Proc.devRef .tc main_v296)
      = pad S102400x256 ![0, 0] ![2400, 0] ![0, 0] (Gen.W41 m ρ c (Proc.devRef .tc main_v103) : FVec Ideal S100000x256 .f32) (sitofp (F := Ideal) .f32 (Gen.W105 m ρ c (Proc.devRef .tc main_c_69) : IVec S_ 32) : FVec Ideal S_ .f32) pads_S100000x256_S102400x256_024000_000 h_S_ := by
  refine (hostOps20_1_v296 (Gen.W105 m ρ c)).trans ?_
  rw [(show Gen.W105 m ρ c (Proc.devRef .tc main_v103) = Gen.W41 m ρ c (Proc.devRef .tc main_v103) from carry m ρ c 41 105 (by decide) (by decide) main_v103 (by decide))]

set_option maxRecDepth 65536 in
/-- Relation 1's block, padded to whole blocks. -/
theorem k108_v297 :
    Gen.W108 m ρ c (Proc.devRef .tc main_v297)
      = pad S102400x256 ![0, 0] ![2400, 0] ![0, 0] (Gen.W73 m ρ c (Proc.devRef .tc main_v199) : FVec Ideal S100000x256 .f32) (sitofp (F := Ideal) .f32 (Gen.W107 m ρ c (Proc.devRef .tc main_c_70) : IVec S_ 32) : FVec Ideal S_ .f32) pads_S100000x256_S102400x256_024000_000 h_S_ := by
  refine (hostOps20_3_v297 (Gen.W107 m ρ c)).trans ?_
  rw [(show Gen.W107 m ρ c (Proc.devRef .tc main_v199) = Gen.W73 m ρ c (Proc.devRef .tc main_v199) from carry m ρ c 73 107 (by decide) (by decide) main_v199 (by decide))]

set_option maxRecDepth 65536 in
/-- Relation 2's block, padded to whole blocks. -/
theorem k110_v298 :
    Gen.W110 m ρ c (Proc.devRef .tc main_v298)
      = pad S102400x256 ![0, 0] ![2400, 0] ![0, 0] (Gen.W105 m ρ c (Proc.devRef .tc main_v295) : FVec Ideal S100000x256 .f32) (sitofp (F := Ideal) .f32 (Gen.W109 m ρ c (Proc.devRef .tc main_c_71) : IVec S_ 32) : FVec Ideal S_ .f32) pads_S100000x256_S102400x256_024000_000 h_S_ := by
  refine (hostOps20_5_v298 (Gen.W109 m ρ c)).trans ?_
  rw [(show Gen.W109 m ρ c (Proc.devRef .tc main_v295) = Gen.W105 m ρ c (Proc.devRef .tc main_v295) from carry m ρ c 105 109 (by decide) (by decide) main_v295 (by decide))]

set_option maxRecDepth 65536 in
/-- The last layer's bias as a row. -/
theorem k111_v299 :
    Gen.W111 m ρ c (Proc.devRef .tc main_v299)
      = shapeCast S1x2 (m ((c.tc : Thread nD τ).loc main_arg34)) shapeCasts_S2_S1x2 := by
  refine (hostOps20_6_v299 (Gen.W110 m ρ c)).trans ?_
  rw [(show Gen.W110 m ρ c (Proc.devRef .tc main_arg34) = (m ((c.tc : Thread nD τ).loc main_arg34)) from argAt m ρ c 110 (by decide) main_arg34 (by decide))]

set_option maxRecDepth 65536 in
/-- The last layer on the padded rows. -/
theorem k112_v300 :
    Gen.W112 m ρ c (Proc.devRef .tc main_v300)
      = triOut (pad S102400x256 ![0, 0] ![2400, 0] ![0, 0] (Gen.W41 m ρ c (Proc.devRef .tc main_v103) : FVec Ideal S100000x256 .f32) (sitofp (F := Ideal) .f32 (Gen.W105 m ρ c (Proc.devRef .tc main_c_69) : IVec S_ 32) : FVec Ideal S_ .f32) pads_S100000x256_S102400x256_024000_000 h_S_) (pad S102400x256 ![0, 0] ![2400, 0] ![0, 0] (Gen.W73 m ρ c (Proc.devRef .tc main_v199) : FVec Ideal S100000x256 .f32) (sitofp (F := Ideal) .f32 (Gen.W107 m ρ c (Proc.devRef .tc main_c_70) : IVec S_ 32) : FVec Ideal S_ .f32) pads_S100000x256_S102400x256_024000_000 h_S_) (pad S102400x256 ![0, 0] ![2400, 0] ![0, 0] (Gen.W105 m ρ c (Proc.devRef .tc main_v295) : FVec Ideal S100000x256 .f32) (sitofp (F := Ideal) .f32 (Gen.W109 m ρ c (Proc.devRef .tc main_c_71) : IVec S_ 32) : FVec Ideal S_ .f32) pads_S100000x256_S102400x256_024000_000 h_S_) ((m ((c.tc : Thread nD τ).loc main_arg33))) (shapeCast S1x2 (m ((c.tc : Thread nD τ).loc main_arg34)) shapeCasts_S2_S1x2) := by
  refine ((Gen.W112_arr m ρ c 5).trans (Cert.KernelIdeal.Reg20.value (Gen.V111 m ρ) c)).trans ?_
  show triOut (Gen.W111 m ρ c (Proc.devRef .tc main_v296)) (Gen.W111 m ρ c (Proc.devRef .tc main_v297)) (Gen.W111 m ρ c (Proc.devRef .tc main_v298)) (Gen.W111 m ρ c (Proc.devRef .tc main_arg33)) (Gen.W111 m ρ c (Proc.devRef .tc main_v299)) = _
  rw [((show Gen.W111 m ρ c (Proc.devRef .tc main_v296) = Gen.W106 m ρ c (Proc.devRef .tc main_v296) from carry m ρ c 106 111 (by decide) (by decide) main_v296 (by decide)).trans (k106_v296 m ρ c)),
    ((show Gen.W111 m ρ c (Proc.devRef .tc main_v297) = Gen.W108 m ρ c (Proc.devRef .tc main_v297) from carry m ρ c 108 111 (by decide) (by decide) main_v297 (by decide)).trans (k108_v297 m ρ c)),
    ((show Gen.W111 m ρ c (Proc.devRef .tc main_v298) = Gen.W110 m ρ c (Proc.devRef .tc main_v298) from carry m ρ c 110 111 (by decide) (by decide) main_v298 (by decide)).trans (k110_v298 m ρ c)),
    (show Gen.W111 m ρ c (Proc.devRef .tc main_arg33) = (m ((c.tc : Thread nD τ).loc main_arg33)) from argAt m ρ c 111 (by decide) main_arg33 (by decide)),
    k111_v299 m ρ c]

set_option maxRecDepth 65536 in
/-- The kernel program's result: the last layer of the three relations' blocks. -/
theorem k113_v301 :
    Gen.W113 m ρ c (Proc.devRef .tc main_v301)
      = triOut (Gen.W41 m ρ c (Proc.devRef .tc main_v103)) (Gen.W73 m ρ c (Proc.devRef .tc main_v199)) (Gen.W105 m ρ c (Proc.devRef .tc main_v295)) (m ((c.tc : Thread nD τ).loc main_arg33)) (shapeCast S1x2 (m ((c.tc : Thread nD τ).loc main_arg34)) shapeCasts_S2_S1x2) := by
  refine (hostOps21_v301 (Gen.W112 m ρ c)).trans ?_
  rw [k112_v300 m ρ c]
  exact cut_triOut _ _ _ _ _ _ _ _ _ _ _ _ _ _ (by decide)

end Cert.KernelIdeal.KerChain

end
-- ==== Proof.KerChain.lean ====
/-
  The kernel program's value chain through relations 1 and 2 and the last layer, stated over the features entering each.
-/
import proofs.«116214_j36043365548318_1_alg».proof.Proof.KerChain1
import proofs.«116214_j36043365548318_1_alg».proof.Proof.KerChain2

noncomputable section

namespace Cert.KernelIdeal.KerChain

open Cert.KernelIdeal Cert.KernelIdeal.Gen Cert.ReferenceIdeal.Stages Idealize.ShloMosaic Idealize.ShloMosaic.TcCoe Idealize.SL.Sem Cert.Layers

variable (m : (ℓ : Loc nD τ sig) → Buf (Elt Ideal) ℓ) (ρ : Dev nD → PrngReg) (c : Dev nD)

/-- Relation 1's block of the features h1 entering it. -/
theorem block1_at (h1 : FVec Ideal S100000x256 .f32) (H1 : Gen.W41 m ρ c (Proc.devRef .tc main_v103) = h1) :
    Gen.W73 m ρ c (Proc.devRef .tc main_v199)
      = block1 h1 (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg27))
          (m ((c.tc : Thread nD τ).loc main_arg28))
          (m ((c.tc : Thread nD τ).loc main_arg29))
          (m ((c.tc : Thread nD τ).loc main_arg30))
          (m ((c.tc : Thread nD τ).loc main_arg23))
          (m ((c.tc : Thread nD τ).loc main_arg24))
          (m ((c.tc : Thread nD τ).loc main_arg25))
          (m ((c.tc : Thread nD τ).loc main_arg26))
          (m ((c.tc : Thread nD τ).loc main_arg31))
          (m ((c.tc : Thread nD τ).loc main_arg32)) := by
  subst H1
  exact k73_v199 m ρ c

/-- Relation 2's block of the features h2 entering it. -/
theorem block2_at (h2 : FVec Ideal S100000x256 .f32) (H2 : Gen.W73 m ρ c (Proc.devRef .tc main_v199) = h2) :
    Gen.W105 m ρ c (Proc.devRef .tc main_v295)
      = block2 h2 (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg27))
          (m ((c.tc : Thread nD τ).loc main_arg28))
          (m ((c.tc : Thread nD τ).loc main_arg29))
          (m ((c.tc : Thread nD τ).loc main_arg30))
          (m ((c.tc : Thread nD τ).loc main_arg23))
          (m ((c.tc : Thread nD τ).loc main_arg24))
          (m ((c.tc : Thread nD τ).loc main_arg25))
          (m ((c.tc : Thread nD τ).loc main_arg26))
          (m ((c.tc : Thread nD τ).loc main_arg31))
          (m ((c.tc : Thread nD τ).loc main_arg32)) := by
  subst H2
  exact k105_v295 m ρ c

/-- The kernel program's result: the last layer of the three relations' blocks. -/
theorem tail_at (h1 h2 h3 : FVec Ideal S100000x256 .f32) (H1 : Gen.W41 m ρ c (Proc.devRef .tc main_v103) = h1)
    (H2 : Gen.W73 m ρ c (Proc.devRef .tc main_v199) = h2) (H3 : Gen.W105 m ρ c (Proc.devRef .tc main_v295) = h3) :
    Gen.W113 m ρ c (Proc.devRef .tc main_v301)
      = triOut h1 h2 h3 (m ((c.tc : Thread nD τ).loc main_arg33)) (shapeCast S1x2 (m ((c.tc : Thread nD τ).loc main_arg34)) shapeCasts_S2_S1x2) := by
  subst H1 H2 H3
  exact k113_v301 m ρ c

end Cert.KernelIdeal.KerChain

end
-- ==== Proof.KerValue.lean ====
/-
  The kernel program's result array is the network's result.

  The features after the stem and the first relation's block sit in one buffer, the second relation's block of them in a
  second, the third's in a third; the last kernel call, run on the three padded to whole blocks and cut back, leaves the
  last layer of the three. Each block is the relation's block of the previous one, so the result is the network's
  result as a function of the 35 arguments.
-/
import proofs.«116214_j36043365548318_1_alg».proof.Proof.Gen.KernelIdeal.Frame
import proofs.«116214_j36043365548318_1_alg».proof.Proof.Gen.ReferenceIdeal
import proofs.«116214_j36043365548318_1_alg».proof.Proof.Stages
import proofs.«116214_j36043365548318_1_alg».proof.Proof.KerChain0
import proofs.«116214_j36043365548318_1_alg».proof.Proof.KerChain

set_option maxRecDepth 16384

noncomputable section

namespace Cert.KernelIdeal.KerValue

open Idealize.ShloMosaic Idealize.ShloMosaic.TcCoe Idealize.SL.Sem
open Cert.KernelIdeal Cert.KernelIdeal.Gen

/-- The result buffer after the run holds the network's result of the launch contents of the arguments. -/
theorem value (m : (ℓ : Loc nD τ sig) → Buf (Elt Ideal) ℓ) (ρ : Dev nD → PrngReg) (c : Dev nD) :
    Gen.W113 (F := Ideal) m ρ c (Proc.devRef .tc main_v301)
      = @Cert.ReferenceIdeal.Stages.result Cert.ReferenceIdeal.Gen.facts.toFacts₀ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) := by
  have H1 := Cert.KernelIdeal.KerChain.block0_at m ρ c
  have H2 := Cert.KernelIdeal.KerChain.block1_at m ρ c _ H1
  have H3 := Cert.KernelIdeal.KerChain.block2_at m ρ c _ H2
  exact Cert.KernelIdeal.KerChain.tail_at m ρ c _ _ _ H1 H2 H3

end Cert.KernelIdeal.KerValue

end
-- ==== Proof.RefOps.lean ====
/-
  The reference program as six lines of host operations, one per window of its entry function. A call of an
  outlined function is listed as the callee's operations at the call site, over the buffers that call owns.
-/
import proofs.«116214_j36043365548318_1_alg».proof.ReferenceIdeal
import proofs.«116214_j36043365548318_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The operations of window 0 of the reference program, in order; a call's body is listed at its call site over
    that call's buffer record. -/
abbrev ops0 : List (HloOp τ sig (Elt F)) :=
  [ StableHlo.binary main_arg0 main_arg19 main_v0 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg20 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S100000x256 ![0, 1] bcast_S1x256_S100000x256_0_1 : (⟨S1x256, .f32⟩ : BufTy).Contents (Elt F) → (⟨S100000x256, .f32⟩ : BufTy).Contents (Elt F)),
    StableHlo.binary main_v0 main_v2 main_v3 (addf : (⟨S100000x256, .f32⟩ : BufTy).Contents (Elt F) → (⟨S100000x256, .f32⟩ : BufTy).Contents (Elt F) → (⟨S100000x256, .f32⟩ : BufTy).Contents (Elt F)),
    StableHlo.TRef.nullary main_call0.cst (constant S_ .f32 0x00000000#32),
    StableHlo.TRef.unary main_call0.cst main_call0.v0 (broadcastInDim S100000x256 ![] bcast_S_S100000x256),
    StableHlo.TRef.binary (StableHlo.TRef.of main_v3 : StableHlo.TRef sig ⟨S100000x256, .f32⟩) main_call0.v0 main_call0.v1 (cmpf .oge),
    StableHlo.TRef.nullary main_call0.cst_0 (constant S_ .f32 0x3C23D70A#32),
    StableHlo.TRef.unary main_call0.cst_0 main_call0.v2 (broadcastInDim S100000x256 ![] bcast_S_S100000x256),
    StableHlo.TRef.binary main_call0.v2 (StableHlo.TRef.of main_v3 : StableHlo.TRef sig ⟨S100000x256, .f32⟩) main_call0.v3 mulf,
    StableHlo.TRef.ternary main_call0.v1 (StableHlo.TRef.of main_v3 : StableHlo.TRef sig ⟨S100000x256, .f32⟩) main_call0.v3 main_call0.call0.v0 select,
    StableHlo.binary main_v4 main_arg21 main_v5 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg22 main_v6 (broadcastInDim S1x256 ![1] bcast_S256_S1x256_1 : (⟨S256, .f32⟩ : BufTy).Contents (Elt F) → (⟨S1x256, .f32⟩ : BufTy).Contents (Elt F)),
    StableHlo.unary main_v6 main_v7 (broadcastInDim S100000x256 ![0, 1] bcast_S1x256_S100000x256_0_1 : (⟨S1x256, .f32⟩ : BufTy).Contents (Elt F) → (⟨S100000x256, .f32⟩ : BufTy).Contents (Elt F)),
    StableHlo.binary main_v5 main_v7 main_v8 (addf : (⟨S100000x256, .f32⟩ : BufTy).Contents (Elt F) → (⟨S100000x256, .f32⟩ : BufTy).Contents (Elt F) → (⟨S100000x256, .f32⟩ : BufTy).Contents (Elt F)),
    StableHlo.TRef.nullary main_call1.cst (constant S_ .f32 0x00000000#32),
    StableHlo.TRef.unary main_call1.cst main_call1.v0 (broadcastInDim S100000x256 ![] bcast_S_S100000x256),
    StableHlo.TRef.binary (StableHlo.TRef.of main_v8 : StableHlo.TRef sig ⟨S100000x256, .f32⟩) main_call1.v0 main_call1.v1 (cmpf .oge),
    StableHlo.TRef.nullary main_call1.cst_0 (constant S_ .f32 0x3C23D70A#32),
    StableHlo.TRef.unary main_call1.cst_0 main_call1.v2 (broadcastInDim S100000x256 ![] bcast_S_S100000x256),
    StableHlo.TRef.binary main_call1.v2 (StableHlo.TRef.of main_v8 : StableHlo.TRef sig ⟨S100000x256, .f32⟩) main_call1.v3 mulf,
    StableHlo.TRef.ternary main_call1.v1 (StableHlo.TRef.of main_v8 : StableHlo.TRef sig ⟨S100000x256, .f32⟩) main_call1.v3 main_call1.call0.v0 select,
    StableHlo.nullary main_c (constantI S_ 32 0#32),
    StableHlo.unary main_c main_v10 (broadcastInDim S69785 ![] bcast_S_S69785 : (⟨S_, .i32⟩ : BufTy).Contents (Elt F) → (⟨S69785, .i32⟩ : BufTy).Contents (Elt F)),
    StableHlo.binary main_arg1 main_v10 main_v11 (cmpi .slt : (⟨S69785, .i32⟩ : BufTy).Contents (Elt F) → (⟨S69785, .i32⟩ : BufTy).Contents (Elt F) → (⟨S69785, .i1⟩ : BufTy).Contents (Elt F)),
    StableHlo.nullary main_c_0 (constantI S_ 32 100000#32),
    StableHlo.unary main_c_0 main_v12 (broadcastInDim S69785 ![] bcast_S_S69785 : (⟨S_, .i32⟩ : BufTy).Contents (Elt F) → (⟨S69785, .i32⟩ : BufTy).Contents (Elt F)),
    StableHlo.binary main_arg1 main_v12 main_v13 (addi : (⟨S69785, .i32⟩ : BufTy).Contents (Elt F) → (⟨S69785, .i32⟩ : BufTy).Contents (Elt F) → (⟨S69785, .i32⟩ : BufTy).Contents (Elt F)),
    StableHlo.ternary main_v11 main_v13 main_arg1 main_v14 (select : (⟨S69785, .i1⟩ : BufTy).Contents (Elt F) → (⟨S69785, .i32⟩ : BufTy).Contents (Elt F) → (⟨S69785, .i32⟩ : BufTy).Contents (Elt F) → (⟨S69785, .i32⟩ : BufTy).Contents (Elt F)),
    StableHlo.unary main_v14 main_v15 (broadcastInDim S69785x1 ![0] bcast_S69785_S69785x1_0 : (⟨S69785, .i32⟩ : BufTy).Contents (Elt F) → (⟨S69785x1, .i32⟩ : BufTy).Contents (Elt F)),
    StableHlo.binary main_v9 main_v15 main_v16 ((fun x i => Host.gather gather_S100000x256_S69785x1_S69785x256_1_0_n_n_0_1_1256 x i) : (⟨S100000x256, .f32⟩ : BufTy).Contents (Elt F) → (⟨S69785x1, .i32⟩ : BufTy).Contents (Elt F) → (⟨S69785x256, .f32⟩ : BufTy).Contents (Elt F)),
    StableHlo.nullary main_cst (constant S_ .f32 0x40000000#32),
    StableHlo.binary main_cst main_arg6 main_v17 (Host.divf : (⟨S_, .f32⟩ : BufTy).Contents (Elt F) → (⟨S_, .f32⟩ : BufTy).Contents (Elt F) → (⟨S_, .f32⟩ : BufTy).Contents (Elt F)),
    StableHlo.unary main_arg5 main_v18 (broadcastInDim S69785x1 ![0] bcast_S69785_S69785x1_0 : (⟨S69785, .f32⟩ : BufTy).Contents (Elt F) → (⟨S69785x1, .f32⟩ : BufTy).Contents (Elt F)),
    StableHlo.unary main_v18 main_v19 (broadcastInDim S69785x256 ![0, 1] bcast_S69785x1_S69785x256_0_1 : (⟨S69785x1, .f32⟩ : BufTy).Contents (Elt F) → (⟨S69785x256, .f32⟩ : BufTy).Contents (Elt F)),
    StableHlo.binary main_v16 main_v19 main_v20 (mulf : (⟨S69785x256, .f32⟩ : BufTy).Contents (Elt F) → (⟨S69785x256, .f32⟩ : BufTy).Contents (Elt F) → (⟨S69785x256, .f32⟩ : BufTy).Contents (Elt F)),
    StableHlo.nullary main_c_1 (constantI S_ 32 0#32),
    StableHlo.unary main_c_1 main_v21 (broadcastInDim S279168 ![] bcast_S_S279168 : (⟨S_, .i32⟩ : BufTy).Contents (Elt F) → (⟨S279168, .i32⟩ : BufTy).Contents (Elt F)),
    StableHlo.binary main_arg3 main_v21 main_v22 (cmpi .slt : (⟨S279168, .i32⟩ : BufTy).Contents (Elt F) → (⟨S279168, .i32⟩ : BufTy).Contents (Elt F) → (⟨S279168, .i1⟩ : BufTy).Contents (Elt F)),
    StableHlo.nullary main_c_2 (constantI S_ 32 69785#32),
    StableHlo.unary main_c_2 main_v23 (broadcastInDim S279168 ![] bcast_S_S279168 : (⟨S_, .i32⟩ : BufTy).Contents (Elt F) → (⟨S279168, .i32⟩ : BufTy).Contents (Elt F)),
    StableHlo.binary main_arg3 main_v23 main_v24 (addi : (⟨S279168, .i32⟩ : BufTy).Contents (Elt F) → (⟨S279168, .i32⟩ : BufTy).Contents (Elt F) → (⟨S279168, .i32⟩ : BufTy).Contents (Elt F)),
    StableHlo.ternary main_v22 main_v24 main_arg3 main_v25 (select : (⟨S279168, .i1⟩ : BufTy).Contents (Elt F) → (⟨S279168, .i32⟩ : BufTy).Contents (Elt F) → (⟨S279168, .i32⟩ : BufTy).Contents (Elt F) → (⟨S279168, .i32⟩ : BufTy).Contents (Elt F)),
    StableHlo.unary main_v25 main_v26 (broadcastInDim S279168x1 ![0] bcast_S279168_S279168x1_0 : (⟨S279168, .i32⟩ : BufTy).Contents (Elt F) → (⟨S279168x1, .i32⟩ : BufTy).Contents (Elt F)),
    StableHlo.binary main_v20 main_v26 main_v27 ((fun x i => Host.gather gather_S69785x256_S279168x1_S279168x256_1_0_n_n_0_1_1256 x i) : (⟨S69785x256, .f32⟩ : BufTy).Contents (Elt F) → (⟨S279168x1, .i32⟩ : BufTy).Contents (Elt F) → (⟨S279168x256, .f32⟩ : BufTy).Contents (Elt F)),
    StableHlo.nullary main_cst_3 (constant S_ .f32 0x00000000#32),
    StableHlo.unary main_cst_3 main_v28 (broadcastInDim S69785x256 ![] bcast_S_S69785x256 : (⟨S_, .f32⟩ : BufTy).Contents (Elt F) → (⟨S69785x256, .f32⟩ : BufTy).Contents (Elt F)),
    StableHlo.unary main_arg4 main_v29 (broadcastInDim S279168x1 ![0] bcast_S279168_S279168x1_0 : (⟨S279168, .i32⟩ : BufTy).Contents (Elt F) → (⟨S279168x1, .i32⟩ : BufTy).Contents (Elt F)),
    StableHlo.ternary main_v28 main_v29 main_v27 main_v30 ((fun x i u => Host.scatterAdd scatter_S69785x256_S279168x1_S279168x256_1_0_0_1 x i u) : (⟨S69785x256, .f32⟩ : BufTy).Contents (Elt F) → (⟨S279168x1, .i32⟩ : BufTy).Contents (Elt F) → (⟨S279168x256, .f32⟩ : BufTy).Contents (Elt F) → (⟨S69785x256, .f32⟩ : BufTy).Contents (Elt F)),
    StableHlo.unary main_arg5 main_v31 (broadcastInDim S69785x1 ![0] bcast_S69785_S69785x1_0 : (⟨S69785, .f32⟩ : BufTy).Contents (Elt F) → (⟨S69785x1, .f32⟩ : BufTy).Contents (Elt F)),
    StableHlo.unary main_v31 main_v32 (broadcastInDim S69785x256 ![0, 1] bcast_S69785x1_S69785x256_0_1 : (⟨S69785x1, .f32⟩ : BufTy).Contents (Elt F) → (⟨S69785x256, .f32⟩ : BufTy).Contents (Elt F)),
    StableHlo.binary main_v30 main_v32 main_v33 (mulf : (⟨S69785x256, .f32⟩ : BufTy).Contents (Elt F) → (⟨S69785x256, .f32⟩ : BufTy).Contents (Elt F) → (⟨S69785x256, .f32⟩ : BufTy).Contents (Elt F)),
    StableHlo.unary main_v17 main_v34 (Host.negf : (⟨S_, .f32⟩ : BufTy).Contents (Elt F) → (⟨S_, .f32⟩ : BufTy).Contents (Elt F)),
    StableHlo.unary main_v34 main_v35 (broadcastInDim S69785x256 ![] bcast_S_S69785x256 : (⟨S_, .f32⟩ : BufTy).Contents (Elt F) → (⟨S69785x256, .f32⟩ : BufTy).Contents (Elt F)),
    StableHlo.binary main_v35 main_v33 main_v36 (mulf : (⟨S69785x256, .f32⟩ : BufTy).Contents (Elt F) → (⟨S69785x256, .f32⟩ : BufTy).Contents (Elt F) → (⟨S69785x256, .f32⟩ : BufTy).Contents (Elt F)),
    StableHlo.nullary main_cst_4 (constant S_ .f32 0x3F800000#32),
    StableHlo.binary main_v17 main_cst_4 main_v37 (subf : (⟨S_, .f32⟩ : BufTy).Contents (Elt F) → (⟨S_, .f32⟩ : BufTy).Contents (Elt F) → (⟨S_, .f32⟩ : BufTy).Contents (Elt F)),
    StableHlo.unary main_v37 main_v38 (broadcastInDim S69785x256 ![] bcast_S_S69785x256 : (⟨S_, .f32⟩ : BufTy).Contents (Elt F) → (⟨S69785x256, .f32⟩ : BufTy).Contents (Elt F)),
    StableHlo.binary main_v16 main_v38 main_v39 (mulf : (⟨S69785x256, .f32⟩ : BufTy).Contents (Elt F) → (⟨S69785x256, .f32⟩ : BufTy).Contents (Elt F) → (⟨S69785x256, .f32⟩ : BufTy).Contents (Elt F)),
    StableHlo.binary main_v36 main_v39 main_v40 (addf : (⟨S69785x256, .f32⟩ : BufTy).Contents (Elt F) → (⟨S69785x256, .f32⟩ : BufTy).Contents (Elt F) → (⟨S69785x256, .f32⟩ : BufTy).Contents (Elt F)),
    StableHlo.binary main_v16 main_v40 main_v41 ((fun a b => concatenate S69785x512 1 [⟨S69785x256, a⟩, ⟨S69785x256, b⟩] concatenates_S69785x256_S69785x256_S69785x512_d1) : (⟨S69785x256, .f32⟩ : BufTy).Contents (Elt F) → (⟨S69785x256, .f32⟩ : BufTy).Contents (Elt F) → (⟨S69785x512, .f32⟩ : BufTy).Contents (Elt F)),
    StableHlo.binary main_v41 main_arg27 main_v42 ((fun l r => Host.dotGeneral dot_S69785x512_S512x256_S69785x256_1_0_0_1_n_n none l r) : (⟨S69785x512, .f32⟩ : BufTy).Contents (Elt F) → (⟨S512x256, .f32⟩ : BufTy).Contents (Elt F) → (⟨S69785x256, .f32⟩ : BufTy).Contents (Elt F)),
    StableHlo.unary main_arg28 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S69785x256 ![0, 1] bcast_S1x256_S69785x256_0_1 : (⟨S1x256, .f32⟩ : BufTy).Contents (Elt F) → (⟨S69785x256, .f32⟩ : BufTy).Contents (Elt F)),
    StableHlo.binary main_v42 main_v44 main_v45 (addf : (⟨S69785x256, .f32⟩ : BufTy).Contents (Elt F) → (⟨S69785x256, .f32⟩ : BufTy).Contents (Elt F) → (⟨S69785x256, .f32⟩ : BufTy).Contents (Elt F)),
    StableHlo.TRef.nullary main_call2.cst (constant S_ .f32 0x00000000#32),
    StableHlo.TRef.unary main_call2.cst main_call2.v0 (broadcastInDim S69785x256 ![] bcast_S_S69785x256),
    StableHlo.TRef.binary (StableHlo.TRef.of main_v45 : StableHlo.TRef sig ⟨S69785x256, .f32⟩) main_call2.v0 main_call2.v1 maximumf,
    StableHlo.nullary main_cst_5 (constant S_ .f32 0x40000000#32),
    StableHlo.binary main_cst_5 main_arg6 main_v47 (Host.divf : (⟨S_, .f32⟩ : BufTy).Contents (Elt F) → (⟨S_, .f32⟩ : BufTy).Contents (Elt F) → (⟨S_, .f32⟩ : BufTy).Contents (Elt F)),
    StableHlo.unary main_arg5 main_v48 (broadcastInDim S69785x1 ![0] bcast_S69785_S69785x1_0 : (⟨S69785, .f32⟩ : BufTy).Contents (Elt F) → (⟨S69785x1, .f32⟩ : BufTy).Contents (Elt F)),
    StableHlo.unary main_v48 main_v49 (broadcastInDim S69785x256 ![0, 1] bcast_S69785x1_S69785x256_0_1 : (⟨S69785x1, .f32⟩ : BufTy).Contents (Elt F) → (⟨S69785x256, .f32⟩ : BufTy).Contents (Elt F)),
    StableHlo.binary main_v46 main_v49 main_v50 (mulf : (⟨S69785x256, .f32⟩ : BufTy).Contents (Elt F) → (⟨S69785x256, .f32⟩ : BufTy).Contents (Elt F) → (⟨S69785x256, .f32⟩ : BufTy).Contents (Elt F)),
    StableHlo.nullary main_c_6 (constantI S_ 32 0#32) ]

/-- The operations of window 1 of the reference program, in order; a call's body is listed at its call site over
    that call's buffer record. -/
abbrev ops1 : List (HloOp τ sig (Elt F)) :=
  [ StableHlo.unary main_c_6 main_v51 (broadcastInDim S279168 ![] bcast_S_S279168 : (⟨S_, .i32⟩ : BufTy).Contents (Elt F) → (⟨S279168, .i32⟩ : BufTy).Contents (Elt F)),
    StableHlo.binary main_arg3 main_v51 main_v52 (cmpi .slt : (⟨S279168, .i32⟩ : BufTy).Contents (Elt F) → (⟨S279168, .i32⟩ : BufTy).Contents (Elt F) → (⟨S279168, .i1⟩ : BufTy).Contents (Elt F)),
    StableHlo.nullary main_c_7 (constantI S_ 32 69785#32),
    StableHlo.unary main_c_7 main_v53 (broadcastInDim S279168 ![] bcast_S_S279168 : (⟨S_, .i32⟩ : BufTy).Contents (Elt F) → (⟨S279168, .i32⟩ : BufTy).Contents (Elt F)),
    StableHlo.binary main_arg3 main_v53 main_v54 (addi : (⟨S279168, .i32⟩ : BufTy).Contents (Elt F) → (⟨S279168, .i32⟩ : BufTy).Contents (Elt F) → (⟨S279168, .i32⟩ : BufTy).Contents (Elt F)),
    StableHlo.ternary main_v52 main_v54 main_arg3 main_v55 (select : (⟨S279168, .i1⟩ : BufTy).Contents (Elt F) → (⟨S279168, .i32⟩ : BufTy).Contents (Elt F) → (⟨S279168, .i32⟩ : BufTy).Contents (Elt F) → (⟨S279168, .i32⟩ : BufTy).Contents (Elt F)),
    StableHlo.unary main_v55 main_v56 (broadcastInDim S279168x1 ![0] bcast_S279168_S279168x1_0 : (⟨S279168, .i32⟩ : BufTy).Contents (Elt F) → (⟨S279168x1, .i32⟩ : BufTy).Contents (Elt F)),
    StableHlo.binary main_v50 main_v56 main_v57 ((fun x i => Host.gather gather_S69785x256_S279168x1_S279168x256_1_0_n_n_0_1_1256 x i) : (⟨S69785x256, .f32⟩ : BufTy).Contents (Elt F) → (⟨S279168x1, .i32⟩ : BufTy).Contents (Elt F) → (⟨S279168x256, .f32⟩ : BufTy).Contents (Elt F)),
    StableHlo.nullary main_cst_8 (constant S_ .f32 0x00000000#32),
    StableHlo.unary main_cst_8 main_v58 (broadcastInDim S69785x256 ![] bcast_S_S69785x256 : (⟨S_, .f32⟩ : BufTy).Contents (Elt F) → (⟨S69785x256, .f32⟩ : BufTy).Contents (Elt F)),
    StableHlo.unary main_arg4 main_v59 (broadcastInDim S279168x1 ![0] bcast_S279168_S279168x1_0 : (⟨S279168, .i32⟩ : BufTy).Contents (Elt F) → (⟨S279168x1, .i32⟩ : BufTy).Contents (Elt F)),
    StableHlo.ternary main_v58 main_v59 main_v57 main_v60 ((fun x i u => Host.scatterAdd scatter_S69785x256_S279168x1_S279168x256_1_0_0_1 x i u) : (⟨S69785x256, .f32⟩ : BufTy).Contents (Elt F) → (⟨S279168x1, .i32⟩ : BufTy).Contents (Elt F) → (⟨S279168x256, .f32⟩ : BufTy).Contents (Elt F) → (⟨S69785x256, .f32⟩ : BufTy).Contents (Elt F)),
    StableHlo.unary main_arg5 main_v61 (broadcastInDim S69785x1 ![0] bcast_S69785_S69785x1_0 : (⟨S69785, .f32⟩ : BufTy).Contents (Elt F) → (⟨S69785x1, .f32⟩ : BufTy).Contents (Elt F)),
    StableHlo.unary main_v61 main_v62 (broadcastInDim S69785x256 ![0, 1] bcast_S69785x1_S69785x256_0_1 : (⟨S69785x1, .f32⟩ : BufTy).Contents (Elt F) → (⟨S69785x256, .f32⟩ : BufTy).Contents (Elt F)),
    StableHlo.binary main_v60 main_v62 main_v63 (mulf : (⟨S69785x256, .f32⟩ : BufTy).Contents (Elt F) → (⟨S69785x256, .f32⟩ : BufTy).Contents (Elt F) → (⟨S69785x256, .f32⟩ : BufTy).Contents (Elt F)),
    StableHlo.unary main_v47 main_v64 (Host.negf : (⟨S_, .f32⟩ : BufTy).Contents (Elt F) → (⟨S_, .f32⟩ : BufTy).Contents (Elt F)),
    StableHlo.unary main_v64 main_v65 (broadcastInDim S69785x256 ![] bcast_S_S69785x256 : (⟨S_, .f32⟩ : BufTy).Contents (Elt F) → (⟨S69785x256, .f32⟩ : BufTy).Contents (Elt F)),
    StableHlo.binary main_v65 main_v63 main_v66 (mulf : (⟨S69785x256, .f32⟩ : BufTy).Contents (Elt F) → (⟨S69785x256, .f32⟩ : BufTy).Contents (Elt F) → (⟨S69785x256, .f32⟩ : BufTy).Contents (Elt F)),
    StableHlo.nullary main_cst_9 (constant S_ .f32 0x3F800000#32),
    StableHlo.binary main_v47 main_cst_9 main_v67 (subf : (⟨S_, .f32⟩ : BufTy).Contents (Elt F) → (⟨S_, .f32⟩ : BufTy).Contents (Elt F) → (⟨S_, .f32⟩ : BufTy).Contents (Elt F)),
    StableHlo.unary main_v67 main_v68 (broadcastInDim S69785x256 ![] bcast_S_S69785x256 : (⟨S_, .f32⟩ : BufTy).Contents (Elt F) → (⟨S69785x256, .f32⟩ : BufTy).Contents (Elt F)),
    StableHlo.binary main_v46 main_v68 main_v69 (mulf : (⟨S69785x256, .f32⟩ : BufTy).Contents (Elt F) → (⟨S69785x256, .f32⟩ : BufTy).Contents (Elt F) → (⟨S69785x256, .f32⟩ : BufTy).Contents (Elt F)),
    StableHlo.binary main_v66 main_v69 main_v70 (addf : (⟨S69785x256, .f32⟩ : BufTy).Contents (Elt F) → (⟨S69785x256, .f32⟩ : BufTy).Contents (Elt F) → (⟨S69785x256, .f32⟩ : BufTy).Contents (Elt F)),
    StableHlo.binary main_v46 main_v70 main_v71 ((fun a b => concatenate S69785x512 1 [⟨S69785x256, a⟩, ⟨S69785x256, b⟩] concatenates_S69785x256_S69785x256_S69785x512_d1) : (⟨S69785x256, .f32⟩ : BufTy).Contents (Elt F) → (⟨S69785x256, .f32⟩ : BufTy).Contents (Elt F) → (⟨S69785x512, .f32⟩ : BufTy).Contents (Elt F)),
    StableHlo.binary main_v71 main_arg29 main_v72 ((fun l r => Host.dotGeneral dot_S69785x512_S512x256_S69785x256_1_0_0_1_n_n none l r) : (⟨S69785x512, .f32⟩ : BufTy).Contents (Elt F) → (⟨S512x256, .f32⟩ : BufTy).Contents (Elt F) → (⟨S69785x256, .f32⟩ : BufTy).Contents (Elt F)),
    StableHlo.unary main_arg30 main_v73 (broadcastInDim S1x256 ![1] bcast_S256_S1x256_1 : (⟨S256, .f32⟩ : BufTy).Contents (Elt F) → (⟨S1x256, .f32⟩ : BufTy).Contents (Elt F)),
    StableHlo.unary main_v73 main_v74 (broadcastInDim S69785x256 ![0, 1] bcast_S1x256_S69785x256_0_1 : (⟨S1x256, .f32⟩ : BufTy).Contents (Elt F) → (⟨S69785x256, .f32⟩ : BufTy).Contents (Elt F)),
    StableHlo.binary main_v72 main_v74 main_v75 (addf : (⟨S69785x256, .f32⟩ : BufTy).Contents (Elt F) → (⟨S69785x256, .f32⟩ : BufTy).Contents (Elt F) → (⟨S69785x256, .f32⟩ : BufTy).Contents (Elt F)),
    StableHlo.TRef.nullary main_call3.cst (constant S_ .f32 0x00000000#32),
    StableHlo.TRef.unary main_call3.cst main_call3.v0 (broadcastInDim S69785x256 ![] bcast_S_S69785x256),
    StableHlo.TRef.binary (StableHlo.TRef.of main_v75 : StableHlo.TRef sig ⟨S69785x256, .f32⟩) main_call3.v0 main_call3.v1 maximumf,
    StableHlo.nullary main_c_10 (constantI S_ 32 0#32),
    StableHlo.unary main_c_10 main_v77 (broadcastInDim S30215 ![] bcast_S_S30215 : (⟨S_, .i32⟩ : BufTy).Contents (Elt F) → (⟨S30215, .i32⟩ : BufTy).Contents (Elt F)),
    StableHlo.binary main_arg2 main_v77 main_v78 (cmpi .slt : (⟨S30215, .i32⟩ : BufTy).Contents (Elt F) → (⟨S30215, .i32⟩ : BufTy).Contents (Elt F) → (⟨S30215, .i1⟩ : BufTy).Contents (Elt F)),
    StableHlo.nullary main_c_11 (constantI S_ 32 100000#32),
    StableHlo.unary main_c_11 main_v79 (broadcastInDim S30215 ![] bcast_S_S30215 : (⟨S_, .i32⟩ : BufTy).Contents (Elt F) → (⟨S30215, .i32⟩ : BufTy).Contents (Elt F)),
    StableHlo.binary main_arg2 main_v79 main_v80 (addi : (⟨S30215, .i32⟩ : BufTy).Contents (Elt F) → (⟨S30215, .i32⟩ : BufTy).Contents (Elt F) → (⟨S30215, .i32⟩ : BufTy).Contents (Elt F)),
    StableHlo.ternary main_v78 main_v80 main_arg2 main_v81 (select : (⟨S30215, .i1⟩ : BufTy).Contents (Elt F) → (⟨S30215, .i32⟩ : BufTy).Contents (Elt F) → (⟨S30215, .i32⟩ : BufTy).Contents (Elt F) → (⟨S30215, .i32⟩ : BufTy).Contents (Elt F)),
    StableHlo.unary main_v81 main_v82 (broadcastInDim S30215x1 ![0] bcast_S30215_S30215x1_0 : (⟨S30215, .i32⟩ : BufTy).Contents (Elt F) → (⟨S30215x1, .i32⟩ : BufTy).Contents (Elt F)),
    StableHlo.binary main_v9 main_v82 main_v83 ((fun x i => Host.gather gather_S100000x256_S30215x1_S30215x256_1_0_n_n_0_1_1256 x i) : (⟨S100000x256, .f32⟩ : BufTy).Contents (Elt F) → (⟨S30215x1, .i32⟩ : BufTy).Contents (Elt F) → (⟨S30215x256, .f32⟩ : BufTy).Contents (Elt F)),
    StableHlo.binary main_v83 main_arg23 main_v84 ((fun l r => Host.dotGeneral dot_S30215x256_S256x256_S30215x256_1_0_0_1_n_n none l r) : (⟨S30215x256, .f32⟩ : BufTy).Contents (Elt F) → (⟨S256x256, .f32⟩ : BufTy).Contents (Elt F) → (⟨S30215x256, .f32⟩ : BufTy).Contents (Elt F)),
    StableHlo.unary main_arg24 main_v85 (broadcastInDim S1x256 ![1] bcast_S256_S1x256_1 : (⟨S256, .f32⟩ : BufTy).Contents (Elt F) → (⟨S1x256, .f32⟩ : BufTy).Contents (Elt F)),
    StableHlo.unary main_v85 main_v86 (broadcastInDim S30215x256 ![0, 1] bcast_S1x256_S30215x256_0_1 : (⟨S1x256, .f32⟩ : BufTy).Contents (Elt F) → (⟨S30215x256, .f32⟩ : BufTy).Contents (Elt F)),
    StableHlo.binary main_v84 main_v86 main_v87 (addf : (⟨S30215x256, .f32⟩ : BufTy).Contents (Elt F) → (⟨S30215x256, .f32⟩ : BufTy).Contents (Elt F) → (⟨S30215x256, .f32⟩ : BufTy).Contents (Elt F)),
    StableHlo.binary main_v87 main_arg25 main_v88 ((fun l r => Host.dotGeneral dot_S30215x256_S256x256_S30215x256_1_0_0_1_n_n none l r) : (⟨S30215x256, .f32⟩ : BufTy).Contents (Elt F) → (⟨S256x256, .f32⟩ : BufTy).Contents (Elt F) → (⟨S30215x256, .f32⟩ : BufTy).Contents (Elt F)),
    StableHlo.unary main_arg26 main_v89 (broadcastInDim S1x256 ![1] bcast_S256_S1x256_1 : (⟨S256, .f32⟩ : BufTy).Contents (Elt F) → (⟨S1x256, .f32⟩ : BufTy).Contents (Elt F)),
    StableHlo.unary main_v89 main_v90 (broadcastInDim S30215x256 ![0, 1] bcast_S1x256_S30215x256_0_1 : (⟨S1x256, .f32⟩ : BufTy).Contents (Elt F) → (⟨S30215x256, .f32⟩ : BufTy).Contents (Elt F)),
    StableHlo.binary main_v88 main_v90 main_v91 (addf : (⟨S30215x256, .f32⟩ : BufTy).Contents (Elt F) → (⟨S30215x256, .f32⟩ : BufTy).Contents (Elt F) → (⟨S30215x256, .f32⟩ : BufTy).Contents (Elt F)),
    StableHlo.binary main_v46 main_v76 main_v92 ((fun a b => concatenate S69785x512 1 [⟨S69785x256, a⟩, ⟨S69785x256, b⟩] concatenates_S69785x256_S69785x256_S69785x512_d1) : (⟨S69785x256, .f32⟩ : BufTy).Contents (Elt F) → (⟨S69785x256, .f32⟩ : BufTy).Contents (Elt F) → (⟨S69785x512, .f32⟩ : BufTy).Contents (Elt F)),
    StableHlo.binary main_v87 main_v91 main_v93 ((fun a b => concatenate S30215x512 1 [⟨S30215x256, a⟩, ⟨S30215x256, b⟩] concatenates_S30215x256_S30215x256_S30215x512_d1) : (⟨S30215x256, .f32⟩ : BufTy).Contents (Elt F) → (⟨S30215x256, .f32⟩ : BufTy).Contents (Elt F) → (⟨S30215x512, .f32⟩ : BufTy).Contents (Elt F)),
    StableHlo.binary main_v92 main_v93 main_v94 ((fun a b => concatenate S100000x512 0 [⟨S69785x512, a⟩, ⟨S30215x512, b⟩] concatenates_S69785x512_S30215x512_S100000x512_d0) : (⟨S69785x512, .f32⟩ : BufTy).Contents (Elt F) → (⟨S30215x512, .f32⟩ : BufTy).Contents (Elt F) → (⟨S100000x512, .f32⟩ : BufTy).Contents (Elt F)),
    StableHlo.binary main_v94 main_arg31 main_v95 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)),
    StableHlo.unary main_arg32 main_v96 (broadcastInDim S1x256 ![1] bcast_S256_S1x256_1 : (⟨S256, .f32⟩ : BufTy).Contents (Elt F) → (⟨S1x256, .f32⟩ : BufTy).Contents (Elt F)),
    StableHlo.unary main_v96 main_v97 (broadcastInDim S100000x256 ![0, 1] bcast_S1x256_S100000x256_0_1 : (⟨S1x256, .f32⟩ : BufTy).Contents (Elt F) → (⟨S100000x256, .f32⟩ : BufTy).Contents (Elt F)),
    StableHlo.binary main_v95 main_v97 main_v98 (addf : (⟨S100000x256, .f32⟩ : BufTy).Contents (Elt F) → (⟨S100000x256, .f32⟩ : BufTy).Contents (Elt F) → (⟨S100000x256, .f32⟩ : BufTy).Contents (Elt F)),
    StableHlo.nullary main_c_12 (constantI S_ 32 0#32),
    StableHlo.unary main_c_12 main_v99 (broadcastInDim S79460 ![] bcast_S_S79460 : (⟨S_, .i32⟩ : BufTy).Contents (Elt F) → (⟨S79460, .i32⟩ : BufTy).Contents (Elt F)),
    StableHlo.binary main_arg7 main_v99 main_v100 (cmpi .slt : (⟨S79460, .i32⟩ : BufTy).Contents (Elt F) → (⟨S79460, .i32⟩ : BufTy).Contents (Elt F) → (⟨S79460, .i1⟩ : BufTy).Contents (Elt F)),
    StableHlo.nullary main_c_13 (constantI S_ 32 100000#32),
    StableHlo.unary main_c_13 main_v101 (broadcastInDim S79460 ![] bcast_S_S79460 : (⟨S_, .i32⟩ : BufTy).Contents (Elt F) → (⟨S79460, .i32⟩ : BufTy).Contents (Elt F)),
    StableHlo.binary main_arg7 main_v101 main_v102 (addi : (⟨S79460, .i32⟩ : BufTy).Contents (Elt F) → (⟨S79460, .i32⟩ : BufTy).Contents (Elt F) → (⟨S79460, .i32⟩ : BufTy).Contents (Elt F)),
    StableHlo.ternary main_v100 main_v102 main_arg7 main_v103 (select : (⟨S79460, .i1⟩ : BufTy).Contents (Elt F) → (⟨S79460, .i32⟩ : BufTy).Contents (Elt F) → (⟨S79460, .i32⟩ : BufTy).Contents (Elt F) → (⟨S79460, .i32⟩ : BufTy).Contents (Elt F)) ]

/-- The operations of window 2 of the reference program, in order; a call's body is listed at its call site over
    that call's buffer record. -/
abbrev ops2 : List (HloOp τ sig (Elt F)) :=
  [ StableHlo.unary main_v103 main_v104 (broadcastInDim S79460x1 ![0] bcast_S79460_S79460x1_0 : (⟨S79460, .i32⟩ : BufTy).Contents (Elt F) → (⟨S79460x1, .i32⟩ : BufTy).Contents (Elt F)),
    StableHlo.binary main_v98 main_v104 main_v105 ((fun x i => Host.gather gather_S100000x256_S79460x1_S79460x256_1_0_n_n_0_1_1256 x i) : (⟨S100000x256, .f32⟩ : BufTy).Contents (Elt F) → (⟨S79460x1, .i32⟩ : BufTy).Contents (Elt F) → (⟨S79460x256, .f32⟩ : BufTy).Contents (Elt F)),
    StableHlo.nullary main_cst_14 (constant S_ .f32 0x40000000#32),
    StableHlo.binary main_cst_14 main_arg12 main_v106 (Host.divf : (⟨S_, .f32⟩ : BufTy).Contents (Elt F) → (⟨S_, .f32⟩ : BufTy).Contents (Elt F) → (⟨S_, .f32⟩ : BufTy).Contents (Elt F)),
    StableHlo.unary main_arg11 main_v107 (broadcastInDim S79460x1 ![0] bcast_S79460_S79460x1_0 : (⟨S79460, .f32⟩ : BufTy).Contents (Elt F) → (⟨S79460x1, .f32⟩ : BufTy).Contents (Elt F)),
    StableHlo.unary main_v107 main_v108 (broadcastInDim S79460x256 ![0, 1] bcast_S79460x1_S79460x256_0_1 : (⟨S79460x1, .f32⟩ : BufTy).Contents (Elt F) → (⟨S79460x256, .f32⟩ : BufTy).Contents (Elt F)),
    StableHlo.binary main_v105 main_v108 main_v109 (mulf : (⟨S79460x256, .f32⟩ : BufTy).Contents (Elt F) → (⟨S79460x256, .f32⟩ : BufTy).Contents (Elt F) → (⟨S79460x256, .f32⟩ : BufTy).Contents (Elt F)),
    StableHlo.nullary main_c_15 (constantI S_ 32 0#32),
    StableHlo.unary main_c_15 main_v110 (broadcastInDim S317997 ![] bcast_S_S317997 : (⟨S_, .i32⟩ : BufTy).Contents (Elt F) → (⟨S317997, .i32⟩ : BufTy).Contents (Elt F)),
    StableHlo.binary main_arg9 main_v110 main_v111 (cmpi .slt : (⟨S317997, .i32⟩ : BufTy).Contents (Elt F) → (⟨S317997, .i32⟩ : BufTy).Contents (Elt F) → (⟨S317997, .i1⟩ : BufTy).Contents (Elt F)),
    StableHlo.nullary main_c_16 (constantI S_ 32 79460#32),
    StableHlo.unary main_c_16 main_v112 (broadcastInDim S317997 ![] bcast_S_S317997 : (⟨S_, .i32⟩ : BufTy).Contents (Elt F) → (⟨S317997, .i32⟩ : BufTy).Contents (Elt F)),
    StableHlo.binary main_arg9 main_v112 main_v113 (addi : (⟨S317997, .i32⟩ : BufTy).Contents (Elt F) → (⟨S317997, .i32⟩ : BufTy).Contents (Elt F) → (⟨S317997, .i32⟩ : BufTy).Contents (Elt F)),
    StableHlo.ternary main_v111 main_v113 main_arg9 main_v114 (select : (⟨S317997, .i1⟩ : BufTy).Contents (Elt F) → (⟨S317997, .i32⟩ : BufTy).Contents (Elt F) → (⟨S317997, .i32⟩ : BufTy).Contents (Elt F) → (⟨S317997, .i32⟩ : BufTy).Contents (Elt F)),
    StableHlo.unary main_v114 main_v115 (broadcastInDim S317997x1 ![0] bcast_S317997_S317997x1_0 : (⟨S317997, .i32⟩ : BufTy).Contents (Elt F) → (⟨S317997x1, .i32⟩ : BufTy).Contents (Elt F)),
    StableHlo.binary main_v109 main_v115 main_v116 ((fun x i => Host.gather gather_S79460x256_S317997x1_S317997x256_1_0_n_n_0_1_1256 x i) : (⟨S79460x256, .f32⟩ : BufTy).Contents (Elt F) → (⟨S317997x1, .i32⟩ : BufTy).Contents (Elt F) → (⟨S317997x256, .f32⟩ : BufTy).Contents (Elt F)),
    StableHlo.nullary main_cst_17 (constant S_ .f32 0x00000000#32),
    StableHlo.unary main_cst_17 main_v117 (broadcastInDim S79460x256 ![] bcast_S_S79460x256 : (⟨S_, .f32⟩ : BufTy).Contents (Elt F) → (⟨S79460x256, .f32⟩ : BufTy).Contents (Elt F)),
    StableHlo.unary main_arg10 main_v118 (broadcastInDim S317997x1 ![0] bcast_S317997_S317997x1_0 : (⟨S317997, .i32⟩ : BufTy).Contents (Elt F) → (⟨S317997x1, .i32⟩ : BufTy).Contents (Elt F)),
    StableHlo.ternary main_v117 main_v118 main_v116 main_v119 ((fun x i u => Host.scatterAdd scatter_S79460x256_S317997x1_S317997x256_1_0_0_1 x i u) : (⟨S79460x256, .f32⟩ : BufTy).Contents (Elt F) → (⟨S317997x1, .i32⟩ : BufTy).Contents (Elt F) → (⟨S317997x256, .f32⟩ : BufTy).Contents (Elt F) → (⟨S79460x256, .f32⟩ : BufTy).Contents (Elt F)),
    StableHlo.unary main_arg11 main_v120 (broadcastInDim S79460x1 ![0] bcast_S79460_S79460x1_0 : (⟨S79460, .f32⟩ : BufTy).Contents (Elt F) → (⟨S79460x1, .f32⟩ : BufTy).Contents (Elt F)),
    StableHlo.unary main_v120 main_v121 (broadcastInDim S79460x256 ![0, 1] bcast_S79460x1_S79460x256_0_1 : (⟨S79460x1, .f32⟩ : BufTy).Contents (Elt F) → (⟨S79460x256, .f32⟩ : BufTy).Contents (Elt F)),
    StableHlo.binary main_v119 main_v121 main_v122 (mulf : (⟨S79460x256, .f32⟩ : BufTy).Contents (Elt F) → (⟨S79460x256, .f32⟩ : BufTy).Contents (Elt F) → (⟨S79460x256, .f32⟩ : BufTy).Contents (Elt F)),
    StableHlo.unary main_v106 main_v123 (Host.negf : (⟨S_, .f32⟩ : BufTy).Contents (Elt F) → (⟨S_, .f32⟩ : BufTy).Contents (Elt F)),
    StableHlo.unary main_v123 main_v124 (broadcastInDim S79460x256 ![] bcast_S_S79460x256 : (⟨S_, .f32⟩ : BufTy).Contents (Elt F) → (⟨S79460x256, .f32⟩ : BufTy).Contents (Elt F)),
    StableHlo.binary main_v124 main_v122 main_v125 (mulf : (⟨S79460x256, .f32⟩ : BufTy).Contents (Elt F) → (⟨S79460x256, .f32⟩ : BufTy).Contents (Elt F) → (⟨S79460x256, .f32⟩ : BufTy).Contents (Elt F)),
    StableHlo.nullary main_cst_18 (constant S_ .f32 0x3F800000#32),
    StableHlo.binary main_v106 main_cst_18 main_v126 (subf : (⟨S_, .f32⟩ : BufTy).Contents (Elt F) → (⟨S_, .f32⟩ : BufTy).Contents (Elt F) → (⟨S_, .f32⟩ : BufTy).Contents (Elt F)),
    StableHlo.unary main_v126 main_v127 (broadcastInDim S79460x256 ![] bcast_S_S79460x256 : (⟨S_, .f32⟩ : BufTy).Contents (Elt F) → (⟨S79460x256, .f32⟩ : BufTy).Contents (Elt F)),
    StableHlo.binary main_v105 main_v127 main_v128 (mulf : (⟨S79460x256, .f32⟩ : BufTy).Contents (Elt F) → (⟨S79460x256, .f32⟩ : BufTy).Contents (Elt F) → (⟨S79460x256, .f32⟩ : BufTy).Contents (Elt F)),
    StableHlo.binary main_v125 main_v128 main_v129 (addf : (⟨S79460x256, .f32⟩ : BufTy).Contents (Elt F) → (⟨S79460x256, .f32⟩ : BufTy).Contents (Elt F) → (⟨S79460x256, .f32⟩ : BufTy).Contents (Elt F)),
    StableHlo.binary main_v105 main_v129 main_v130 ((fun a b => concatenate S79460x512 1 [⟨S79460x256, a⟩, ⟨S79460x256, b⟩] concatenates_S79460x256_S79460x256_S79460x512_d1) : (⟨S79460x256, .f32⟩ : BufTy).Contents (Elt F) → (⟨S79460x256, .f32⟩ : BufTy).Contents (Elt F) → (⟨S79460x512, .f32⟩ : BufTy).Contents (Elt F)),
    StableHlo.binary main_v130 main_arg27 main_v131 ((fun l r => Host.dotGeneral dot_S79460x512_S512x256_S79460x256_1_0_0_1_n_n none l r) : (⟨S79460x512, .f32⟩ : BufTy).Contents (Elt F) → (⟨S512x256, .f32⟩ : BufTy).Contents (Elt F) → (⟨S79460x256, .f32⟩ : BufTy).Contents (Elt F)),
    StableHlo.unary main_arg28 main_v132 (broadcastInDim S1x256 ![1] bcast_S256_S1x256_1 : (⟨S256, .f32⟩ : BufTy).Contents (Elt F) → (⟨S1x256, .f32⟩ : BufTy).Contents (Elt F)),
    StableHlo.unary main_v132 main_v133 (broadcastInDim S79460x256 ![0, 1] bcast_S1x256_S79460x256_0_1 : (⟨S1x256, .f32⟩ : BufTy).Contents (Elt F) → (⟨S79460x256, .f32⟩ : BufTy).Contents (Elt F)),
    StableHlo.binary main_v131 main_v133 main_v134 (addf : (⟨S79460x256, .f32⟩ : BufTy).Contents (Elt F) → (⟨S79460x256, .f32⟩ : BufTy).Contents (Elt F) → (⟨S79460x256, .f32⟩ : BufTy).Contents (Elt F)),
    StableHlo.TRef.nullary main_call4.cst (constant S_ .f32 0x00000000#32),
    StableHlo.TRef.unary main_call4.cst main_call4.v0 (broadcastInDim S79460x256 ![] bcast_S_S79460x256),
    StableHlo.TRef.binary (StableHlo.TRef.of main_v134 : StableHlo.TRef sig ⟨S79460x256, .f32⟩) main_call4.v0 main_call4.v1 maximumf,
    StableHlo.nullary main_cst_19 (constant S_ .f32 0x40000000#32),
    StableHlo.binary main_cst_19 main_arg12 main_v136 (Host.divf : (⟨S_, .f32⟩ : BufTy).Contents (Elt F) → (⟨S_, .f32⟩ : BufTy).Contents (Elt F) → (⟨S_, .f32⟩ : BufTy).Contents (Elt F)),
    StableHlo.unary main_arg11 main_v137 (broadcastInDim S79460x1 ![0] bcast_S79460_S79460x1_0 : (⟨S79460, .f32⟩ : BufTy).Contents (Elt F) → (⟨S79460x1, .f32⟩ : BufTy).Contents (Elt F)),
    StableHlo.unary main_v137 main_v138 (broadcastInDim S79460x256 ![0, 1] bcast_S79460x1_S79460x256_0_1 : (⟨S79460x1, .f32⟩ : BufTy).Contents (Elt F) → (⟨S79460x256, .f32⟩ : BufTy).Contents (Elt F)),
    StableHlo.binary main_v135 main_v138 main_v139 (mulf : (⟨S79460x256, .f32⟩ : BufTy).Contents (Elt F) → (⟨S79460x256, .f32⟩ : BufTy).Contents (Elt F) → (⟨S79460x256, .f32⟩ : BufTy).Contents (Elt F)),
    StableHlo.nullary main_c_20 (constantI S_ 32 0#32),
    StableHlo.unary main_c_20 main_v140 (broadcastInDim S317997 ![] bcast_S_S317997 : (⟨S_, .i32⟩ : BufTy).Contents (Elt F) → (⟨S317997, .i32⟩ : BufTy).Contents (Elt F)),
    StableHlo.binary main_arg9 main_v140 main_v141 (cmpi .slt : (⟨S317997, .i32⟩ : BufTy).Contents (Elt F) → (⟨S317997, .i32⟩ : BufTy).Contents (Elt F) → (⟨S317997, .i1⟩ : BufTy).Contents (Elt F)),
    StableHlo.nullary main_c_21 (constantI S_ 32 79460#32),
    StableHlo.unary main_c_21 main_v142 (broadcastInDim S317997 ![] bcast_S_S317997 : (⟨S_, .i32⟩ : BufTy).Contents (Elt F) → (⟨S317997, .i32⟩ : BufTy).Contents (Elt F)),
    StableHlo.binary main_arg9 main_v142 main_v143 (addi : (⟨S317997, .i32⟩ : BufTy).Contents (Elt F) → (⟨S317997, .i32⟩ : BufTy).Contents (Elt F) → (⟨S317997, .i32⟩ : BufTy).Contents (Elt F)),
    StableHlo.ternary main_v141 main_v143 main_arg9 main_v144 (select : (⟨S317997, .i1⟩ : BufTy).Contents (Elt F) → (⟨S317997, .i32⟩ : BufTy).Contents (Elt F) → (⟨S317997, .i32⟩ : BufTy).Contents (Elt F) → (⟨S317997, .i32⟩ : BufTy).Contents (Elt F)),
    StableHlo.unary main_v144 main_v145 (broadcastInDim S317997x1 ![0] bcast_S317997_S317997x1_0 : (⟨S317997, .i32⟩ : BufTy).Contents (Elt F) → (⟨S317997x1, .i32⟩ : BufTy).Contents (Elt F)),
    StableHlo.binary main_v139 main_v145 main_v146 ((fun x i => Host.gather gather_S79460x256_S317997x1_S317997x256_1_0_n_n_0_1_1256 x i) : (⟨S79460x256, .f32⟩ : BufTy).Contents (Elt F) → (⟨S317997x1, .i32⟩ : BufTy).Contents (Elt F) → (⟨S317997x256, .f32⟩ : BufTy).Contents (Elt F)),
    StableHlo.nullary main_cst_22 (constant S_ .f32 0x00000000#32),
    StableHlo.unary main_cst_22 main_v147 (broadcastInDim S79460x256 ![] bcast_S_S79460x256 : (⟨S_, .f32⟩ : BufTy).Contents (Elt F) → (⟨S79460x256, .f32⟩ : BufTy).Contents (Elt F)),
    StableHlo.unary main_arg10 main_v148 (broadcastInDim S317997x1 ![0] bcast_S317997_S317997x1_0 : (⟨S317997, .i32⟩ : BufTy).Contents (Elt F) → (⟨S317997x1, .i32⟩ : BufTy).Contents (Elt F)),
    StableHlo.ternary main_v147 main_v148 main_v146 main_v149 ((fun x i u => Host.scatterAdd scatter_S79460x256_S317997x1_S317997x256_1_0_0_1 x i u) : (⟨S79460x256, .f32⟩ : BufTy).Contents (Elt F) → (⟨S317997x1, .i32⟩ : BufTy).Contents (Elt F) → (⟨S317997x256, .f32⟩ : BufTy).Contents (Elt F) → (⟨S79460x256, .f32⟩ : BufTy).Contents (Elt F)),
    StableHlo.unary main_arg11 main_v150 (broadcastInDim S79460x1 ![0] bcast_S79460_S79460x1_0 : (⟨S79460, .f32⟩ : BufTy).Contents (Elt F) → (⟨S79460x1, .f32⟩ : BufTy).Contents (Elt F)),
    StableHlo.unary main_v150 main_v151 (broadcastInDim S79460x256 ![0, 1] bcast_S79460x1_S79460x256_0_1 : (⟨S79460x1, .f32⟩ : BufTy).Contents (Elt F) → (⟨S79460x256, .f32⟩ : BufTy).Contents (Elt F)),
    StableHlo.binary main_v149 main_v151 main_v152 (mulf : (⟨S79460x256, .f32⟩ : BufTy).Contents (Elt F) → (⟨S79460x256, .f32⟩ : BufTy).Contents (Elt F) → (⟨S79460x256, .f32⟩ : BufTy).Contents (Elt F)),
    StableHlo.unary main_v136 main_v153 (Host.negf : (⟨S_, .f32⟩ : BufTy).Contents (Elt F) → (⟨S_, .f32⟩ : BufTy).Contents (Elt F)),
    StableHlo.unary main_v153 main_v154 (broadcastInDim S79460x256 ![] bcast_S_S79460x256 : (⟨S_, .f32⟩ : BufTy).Contents (Elt F) → (⟨S79460x256, .f32⟩ : BufTy).Contents (Elt F)) ]

/-- The operations of window 3 of the reference program, in order; a call's body is listed at its call site over
    that call's buffer record. -/
abbrev ops3 : List (HloOp τ sig (Elt F)) :=
  [ StableHlo.binary main_v154 main_v152 main_v155 (mulf : (⟨S79460x256, .f32⟩ : BufTy).Contents (Elt F) → (⟨S79460x256, .f32⟩ : BufTy).Contents (Elt F) → (⟨S79460x256, .f32⟩ : BufTy).Contents (Elt F)),
    StableHlo.nullary main_cst_23 (constant S_ .f32 0x3F800000#32),
    StableHlo.binary main_v136 main_cst_23 main_v156 (subf : (⟨S_, .f32⟩ : BufTy).Contents (Elt F) → (⟨S_, .f32⟩ : BufTy).Contents (Elt F) → (⟨S_, .f32⟩ : BufTy).Contents (Elt F)),
    StableHlo.unary main_v156 main_v157 (broadcastInDim S79460x256 ![] bcast_S_S79460x256 : (⟨S_, .f32⟩ : BufTy).Contents (Elt F) → (⟨S79460x256, .f32⟩ : BufTy).Contents (Elt F)),
    StableHlo.binary main_v135 main_v157 main_v158 (mulf : (⟨S79460x256, .f32⟩ : BufTy).Contents (Elt F) → (⟨S79460x256, .f32⟩ : BufTy).Contents (Elt F) → (⟨S79460x256, .f32⟩ : BufTy).Contents (Elt F)),
    StableHlo.binary main_v155 main_v158 main_v159 (addf : (⟨S79460x256, .f32⟩ : BufTy).Contents (Elt F) → (⟨S79460x256, .f32⟩ : BufTy).Contents (Elt F) → (⟨S79460x256, .f32⟩ : BufTy).Contents (Elt F)),
    StableHlo.binary main_v135 main_v159 main_v160 ((fun a b => concatenate S79460x512 1 [⟨S79460x256, a⟩, ⟨S79460x256, b⟩] concatenates_S79460x256_S79460x256_S79460x512_d1) : (⟨S79460x256, .f32⟩ : BufTy).Contents (Elt F) → (⟨S79460x256, .f32⟩ : BufTy).Contents (Elt F) → (⟨S79460x512, .f32⟩ : BufTy).Contents (Elt F)),
    StableHlo.binary main_v160 main_arg29 main_v161 ((fun l r => Host.dotGeneral dot_S79460x512_S512x256_S79460x256_1_0_0_1_n_n none l r) : (⟨S79460x512, .f32⟩ : BufTy).Contents (Elt F) → (⟨S512x256, .f32⟩ : BufTy).Contents (Elt F) → (⟨S79460x256, .f32⟩ : BufTy).Contents (Elt F)),
    StableHlo.unary main_arg30 main_v162 (broadcastInDim S1x256 ![1] bcast_S256_S1x256_1 : (⟨S256, .f32⟩ : BufTy).Contents (Elt F) → (⟨S1x256, .f32⟩ : BufTy).Contents (Elt F)),
    StableHlo.unary main_v162 main_v163 (broadcastInDim S79460x256 ![0, 1] bcast_S1x256_S79460x256_0_1 : (⟨S1x256, .f32⟩ : BufTy).Contents (Elt F) → (⟨S79460x256, .f32⟩ : BufTy).Contents (Elt F)),
    StableHlo.binary main_v161 main_v163 main_v164 (addf : (⟨S79460x256, .f32⟩ : BufTy).Contents (Elt F) → (⟨S79460x256, .f32⟩ : BufTy).Contents (Elt F) → (⟨S79460x256, .f32⟩ : BufTy).Contents (Elt F)),
    StableHlo.TRef.nullary main_call5.cst (constant S_ .f32 0x00000000#32),
    StableHlo.TRef.unary main_call5.cst main_call5.v0 (broadcastInDim S79460x256 ![] bcast_S_S79460x256),
    StableHlo.TRef.binary (StableHlo.TRef.of main_v164 : StableHlo.TRef sig ⟨S79460x256, .f32⟩) main_call5.v0 main_call5.v1 maximumf,
    StableHlo.nullary main_c_24 (constantI S_ 32 0#32),
    StableHlo.unary main_c_24 main_v166 (broadcastInDim S20540 ![] bcast_S_S20540 : (⟨S_, .i32⟩ : BufTy).Contents (Elt F) → (⟨S20540, .i32⟩ : BufTy).Contents (Elt F)),
    StableHlo.binary main_arg8 main_v166 main_v167 (cmpi .slt : (⟨S20540, .i32⟩ : BufTy).Contents (Elt F) → (⟨S20540, .i32⟩ : BufTy).Contents (Elt F) → (⟨S20540, .i1⟩ : BufTy).Contents (Elt F)),
    StableHlo.nullary main_c_25 (constantI S_ 32 100000#32),
    StableHlo.unary main_c_25 main_v168 (broadcastInDim S20540 ![] bcast_S_S20540 : (⟨S_, .i32⟩ : BufTy).Contents (Elt F) → (⟨S20540, .i32⟩ : BufTy).Contents (Elt F)),
    StableHlo.binary main_arg8 main_v168 main_v169 (addi : (⟨S20540, .i32⟩ : BufTy).Contents (Elt F) → (⟨S20540, .i32⟩ : BufTy).Contents (Elt F) → (⟨S20540, .i32⟩ : BufTy).Contents (Elt F)),
    StableHlo.ternary main_v167 main_v169 main_arg8 main_v170 (select : (⟨S20540, .i1⟩ : BufTy).Contents (Elt F) → (⟨S20540, .i32⟩ : BufTy).Contents (Elt F) → (⟨S20540, .i32⟩ : BufTy).Contents (Elt F) → (⟨S20540, .i32⟩ : BufTy).Contents (Elt F)),
    StableHlo.unary main_v170 main_v171 (broadcastInDim S20540x1 ![0] bcast_S20540_S20540x1_0 : (⟨S20540, .i32⟩ : BufTy).Contents (Elt F) → (⟨S20540x1, .i32⟩ : BufTy).Contents (Elt F)),
    StableHlo.binary main_v98 main_v171 main_v172 ((fun x i => Host.gather gather_S100000x256_S20540x1_S20540x256_1_0_n_n_0_1_1256 x i) : (⟨S100000x256, .f32⟩ : BufTy).Contents (Elt F) → (⟨S20540x1, .i32⟩ : BufTy).Contents (Elt F) → (⟨S20540x256, .f32⟩ : BufTy).Contents (Elt F)),
    StableHlo.binary main_v172 main_arg23 main_v173 ((fun l r => Host.dotGeneral dot_S20540x256_S256x256_S20540x256_1_0_0_1_n_n none l r) : (⟨S20540x256, .f32⟩ : BufTy).Contents (Elt F) → (⟨S256x256, .f32⟩ : BufTy).Contents (Elt F) → (⟨S20540x256, .f32⟩ : BufTy).Contents (Elt F)),
    StableHlo.unary main_arg24 main_v174 (broadcastInDim S1x256 ![1] bcast_S256_S1x256_1 : (⟨S256, .f32⟩ : BufTy).Contents (Elt F) → (⟨S1x256, .f32⟩ : BufTy).Contents (Elt F)),
    StableHlo.unary main_v174 main_v175 (broadcastInDim S20540x256 ![0, 1] bcast_S1x256_S20540x256_0_1 : (⟨S1x256, .f32⟩ : BufTy).Contents (Elt F) → (⟨S20540x256, .f32⟩ : BufTy).Contents (Elt F)),
    StableHlo.binary main_v173 main_v175 main_v176 (addf : (⟨S20540x256, .f32⟩ : BufTy).Contents (Elt F) → (⟨S20540x256, .f32⟩ : BufTy).Contents (Elt F) → (⟨S20540x256, .f32⟩ : BufTy).Contents (Elt F)),
    StableHlo.binary main_v176 main_arg25 main_v177 ((fun l r => Host.dotGeneral dot_S20540x256_S256x256_S20540x256_1_0_0_1_n_n none l r) : (⟨S20540x256, .f32⟩ : BufTy).Contents (Elt F) → (⟨S256x256, .f32⟩ : BufTy).Contents (Elt F) → (⟨S20540x256, .f32⟩ : BufTy).Contents (Elt F)),
    StableHlo.unary main_arg26 main_v178 (broadcastInDim S1x256 ![1] bcast_S256_S1x256_1 : (⟨S256, .f32⟩ : BufTy).Contents (Elt F) → (⟨S1x256, .f32⟩ : BufTy).Contents (Elt F)),
    StableHlo.unary main_v178 main_v179 (broadcastInDim S20540x256 ![0, 1] bcast_S1x256_S20540x256_0_1 : (⟨S1x256, .f32⟩ : BufTy).Contents (Elt F) → (⟨S20540x256, .f32⟩ : BufTy).Contents (Elt F)),
    StableHlo.binary main_v177 main_v179 main_v180 (addf : (⟨S20540x256, .f32⟩ : BufTy).Contents (Elt F) → (⟨S20540x256, .f32⟩ : BufTy).Contents (Elt F) → (⟨S20540x256, .f32⟩ : BufTy).Contents (Elt F)),
    StableHlo.binary main_v135 main_v165 main_v181 ((fun a b => concatenate S79460x512 1 [⟨S79460x256, a⟩, ⟨S79460x256, b⟩] concatenates_S79460x256_S79460x256_S79460x512_d1) : (⟨S79460x256, .f32⟩ : BufTy).Contents (Elt F) → (⟨S79460x256, .f32⟩ : BufTy).Contents (Elt F) → (⟨S79460x512, .f32⟩ : BufTy).Contents (Elt F)),
    StableHlo.binary main_v176 main_v180 main_v182 ((fun a b => concatenate S20540x512 1 [⟨S20540x256, a⟩, ⟨S20540x256, b⟩] concatenates_S20540x256_S20540x256_S20540x512_d1) : (⟨S20540x256, .f32⟩ : BufTy).Contents (Elt F) → (⟨S20540x256, .f32⟩ : BufTy).Contents (Elt F) → (⟨S20540x512, .f32⟩ : BufTy).Contents (Elt F)),
    StableHlo.binary main_v181 main_v182 main_v183 ((fun a b => concatenate S100000x512 0 [⟨S79460x512, a⟩, ⟨S20540x512, b⟩] concatenates_S79460x512_S20540x512_S100000x512_d0) : (⟨S79460x512, .f32⟩ : BufTy).Contents (Elt F) → (⟨S20540x512, .f32⟩ : BufTy).Contents (Elt F) → (⟨S100000x512, .f32⟩ : BufTy).Contents (Elt F)),
    StableHlo.binary main_v183 main_arg31 main_v184 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)),
    StableHlo.unary main_arg32 main_v185 (broadcastInDim S1x256 ![1] bcast_S256_S1x256_1 : (⟨S256, .f32⟩ : BufTy).Contents (Elt F) → (⟨S1x256, .f32⟩ : BufTy).Contents (Elt F)),
    StableHlo.unary main_v185 main_v186 (broadcastInDim S100000x256 ![0, 1] bcast_S1x256_S100000x256_0_1 : (⟨S1x256, .f32⟩ : BufTy).Contents (Elt F) → (⟨S100000x256, .f32⟩ : BufTy).Contents (Elt F)),
    StableHlo.binary main_v184 main_v186 main_v187 (addf : (⟨S100000x256, .f32⟩ : BufTy).Contents (Elt F) → (⟨S100000x256, .f32⟩ : BufTy).Contents (Elt F) → (⟨S100000x256, .f32⟩ : BufTy).Contents (Elt F)),
    StableHlo.nullary main_c_26 (constantI S_ 32 0#32),
    StableHlo.unary main_c_26 main_v188 (broadcastInDim S74654 ![] bcast_S_S74654 : (⟨S_, .i32⟩ : BufTy).Contents (Elt F) → (⟨S74654, .i32⟩ : BufTy).Contents (Elt F)),
    StableHlo.binary main_arg13 main_v188 main_v189 (cmpi .slt : (⟨S74654, .i32⟩ : BufTy).Contents (Elt F) → (⟨S74654, .i32⟩ : BufTy).Contents (Elt F) → (⟨S74654, .i1⟩ : BufTy).Contents (Elt F)),
    StableHlo.nullary main_c_27 (constantI S_ 32 100000#32),
    StableHlo.unary main_c_27 main_v190 (broadcastInDim S74654 ![] bcast_S_S74654 : (⟨S_, .i32⟩ : BufTy).Contents (Elt F) → (⟨S74654, .i32⟩ : BufTy).Contents (Elt F)),
    StableHlo.binary main_arg13 main_v190 main_v191 (addi : (⟨S74654, .i32⟩ : BufTy).Contents (Elt F) → (⟨S74654, .i32⟩ : BufTy).Contents (Elt F) → (⟨S74654, .i32⟩ : BufTy).Contents (Elt F)),
    StableHlo.ternary main_v189 main_v191 main_arg13 main_v192 (select : (⟨S74654, .i1⟩ : BufTy).Contents (Elt F) → (⟨S74654, .i32⟩ : BufTy).Contents (Elt F) → (⟨S74654, .i32⟩ : BufTy).Contents (Elt F) → (⟨S74654, .i32⟩ : BufTy).Contents (Elt F)),
    StableHlo.unary main_v192 main_v193 (broadcastInDim S74654x1 ![0] bcast_S74654_S74654x1_0 : (⟨S74654, .i32⟩ : BufTy).Contents (Elt F) → (⟨S74654x1, .i32⟩ : BufTy).Contents (Elt F)),
    StableHlo.binary main_v187 main_v193 main_v194 ((fun x i => Host.gather gather_S100000x256_S74654x1_S74654x256_1_0_n_n_0_1_1256 x i) : (⟨S100000x256, .f32⟩ : BufTy).Contents (Elt F) → (⟨S74654x1, .i32⟩ : BufTy).Contents (Elt F) → (⟨S74654x256, .f32⟩ : BufTy).Contents (Elt F)),
    StableHlo.nullary main_cst_28 (constant S_ .f32 0x40000000#32),
    StableHlo.binary main_cst_28 main_arg18 main_v195 (Host.divf : (⟨S_, .f32⟩ : BufTy).Contents (Elt F) → (⟨S_, .f32⟩ : BufTy).Contents (Elt F) → (⟨S_, .f32⟩ : BufTy).Contents (Elt F)),
    StableHlo.unary main_arg17 main_v196 (broadcastInDim S74654x1 ![0] bcast_S74654_S74654x1_0 : (⟨S74654, .f32⟩ : BufTy).Contents (Elt F) → (⟨S74654x1, .f32⟩ : BufTy).Contents (Elt F)),
    StableHlo.unary main_v196 main_v197 (broadcastInDim S74654x256 ![0, 1] bcast_S74654x1_S74654x256_0_1 : (⟨S74654x1, .f32⟩ : BufTy).Contents (Elt F) → (⟨S74654x256, .f32⟩ : BufTy).Contents (Elt F)),
    StableHlo.binary main_v194 main_v197 main_v198 (mulf : (⟨S74654x256, .f32⟩ : BufTy).Contents (Elt F) → (⟨S74654x256, .f32⟩ : BufTy).Contents (Elt F) → (⟨S74654x256, .f32⟩ : BufTy).Contents (Elt F)),
    StableHlo.nullary main_c_29 (constantI S_ 32 0#32),
    StableHlo.unary main_c_29 main_v199 (broadcastInDim S298662 ![] bcast_S_S298662 : (⟨S_, .i32⟩ : BufTy).Contents (Elt F) → (⟨S298662, .i32⟩ : BufTy).Contents (Elt F)),
    StableHlo.binary main_arg15 main_v199 main_v200 (cmpi .slt : (⟨S298662, .i32⟩ : BufTy).Contents (Elt F) → (⟨S298662, .i32⟩ : BufTy).Contents (Elt F) → (⟨S298662, .i1⟩ : BufTy).Contents (Elt F)),
    StableHlo.nullary main_c_30 (constantI S_ 32 74654#32),
    StableHlo.unary main_c_30 main_v201 (broadcastInDim S298662 ![] bcast_S_S298662 : (⟨S_, .i32⟩ : BufTy).Contents (Elt F) → (⟨S298662, .i32⟩ : BufTy).Contents (Elt F)),
    StableHlo.binary main_arg15 main_v201 main_v202 (addi : (⟨S298662, .i32⟩ : BufTy).Contents (Elt F) → (⟨S298662, .i32⟩ : BufTy).Contents (Elt F) → (⟨S298662, .i32⟩ : BufTy).Contents (Elt F)),
    StableHlo.ternary main_v200 main_v202 main_arg15 main_v203 (select : (⟨S298662, .i1⟩ : BufTy).Contents (Elt F) → (⟨S298662, .i32⟩ : BufTy).Contents (Elt F) → (⟨S298662, .i32⟩ : BufTy).Contents (Elt F) → (⟨S298662, .i32⟩ : BufTy).Contents (Elt F)),
    StableHlo.unary main_v203 main_v204 (broadcastInDim S298662x1 ![0] bcast_S298662_S298662x1_0 : (⟨S298662, .i32⟩ : BufTy).Contents (Elt F) → (⟨S298662x1, .i32⟩ : BufTy).Contents (Elt F)),
    StableHlo.binary main_v198 main_v204 main_v205 ((fun x i => Host.gather gather_S74654x256_S298662x1_S298662x256_1_0_n_n_0_1_1256 x i) : (⟨S74654x256, .f32⟩ : BufTy).Contents (Elt F) → (⟨S298662x1, .i32⟩ : BufTy).Contents (Elt F) → (⟨S298662x256, .f32⟩ : BufTy).Contents (Elt F)),
    StableHlo.nullary main_cst_31 (constant S_ .f32 0x00000000#32) ]

/-- The operations of window 4 of the reference program, in order; a call's body is listed at its call site over
    that call's buffer record. -/
abbrev ops4 : List (HloOp τ sig (Elt F)) :=
  [ StableHlo.unary main_cst_31 main_v206 (broadcastInDim S74654x256 ![] bcast_S_S74654x256 : (⟨S_, .f32⟩ : BufTy).Contents (Elt F) → (⟨S74654x256, .f32⟩ : BufTy).Contents (Elt F)),
    StableHlo.unary main_arg16 main_v207 (broadcastInDim S298662x1 ![0] bcast_S298662_S298662x1_0 : (⟨S298662, .i32⟩ : BufTy).Contents (Elt F) → (⟨S298662x1, .i32⟩ : BufTy).Contents (Elt F)),
    StableHlo.ternary main_v206 main_v207 main_v205 main_v208 ((fun x i u => Host.scatterAdd scatter_S74654x256_S298662x1_S298662x256_1_0_0_1 x i u) : (⟨S74654x256, .f32⟩ : BufTy).Contents (Elt F) → (⟨S298662x1, .i32⟩ : BufTy).Contents (Elt F) → (⟨S298662x256, .f32⟩ : BufTy).Contents (Elt F) → (⟨S74654x256, .f32⟩ : BufTy).Contents (Elt F)),
    StableHlo.unary main_arg17 main_v209 (broadcastInDim S74654x1 ![0] bcast_S74654_S74654x1_0 : (⟨S74654, .f32⟩ : BufTy).Contents (Elt F) → (⟨S74654x1, .f32⟩ : BufTy).Contents (Elt F)),
    StableHlo.unary main_v209 main_v210 (broadcastInDim S74654x256 ![0, 1] bcast_S74654x1_S74654x256_0_1 : (⟨S74654x1, .f32⟩ : BufTy).Contents (Elt F) → (⟨S74654x256, .f32⟩ : BufTy).Contents (Elt F)),
    StableHlo.binary main_v208 main_v210 main_v211 (mulf : (⟨S74654x256, .f32⟩ : BufTy).Contents (Elt F) → (⟨S74654x256, .f32⟩ : BufTy).Contents (Elt F) → (⟨S74654x256, .f32⟩ : BufTy).Contents (Elt F)),
    StableHlo.unary main_v195 main_v212 (Host.negf : (⟨S_, .f32⟩ : BufTy).Contents (Elt F) → (⟨S_, .f32⟩ : BufTy).Contents (Elt F)),
    StableHlo.unary main_v212 main_v213 (broadcastInDim S74654x256 ![] bcast_S_S74654x256 : (⟨S_, .f32⟩ : BufTy).Contents (Elt F) → (⟨S74654x256, .f32⟩ : BufTy).Contents (Elt F)),
    StableHlo.binary main_v213 main_v211 main_v214 (mulf : (⟨S74654x256, .f32⟩ : BufTy).Contents (Elt F) → (⟨S74654x256, .f32⟩ : BufTy).Contents (Elt F) → (⟨S74654x256, .f32⟩ : BufTy).Contents (Elt F)),
    StableHlo.nullary main_cst_32 (constant S_ .f32 0x3F800000#32),
    StableHlo.binary main_v195 main_cst_32 main_v215 (subf : (⟨S_, .f32⟩ : BufTy).Contents (Elt F) → (⟨S_, .f32⟩ : BufTy).Contents (Elt F) → (⟨S_, .f32⟩ : BufTy).Contents (Elt F)),
    StableHlo.unary main_v215 main_v216 (broadcastInDim S74654x256 ![] bcast_S_S74654x256 : (⟨S_, .f32⟩ : BufTy).Contents (Elt F) → (⟨S74654x256, .f32⟩ : BufTy).Contents (Elt F)),
    StableHlo.binary main_v194 main_v216 main_v217 (mulf : (⟨S74654x256, .f32⟩ : BufTy).Contents (Elt F) → (⟨S74654x256, .f32⟩ : BufTy).Contents (Elt F) → (⟨S74654x256, .f32⟩ : BufTy).Contents (Elt F)),
    StableHlo.binary main_v214 main_v217 main_v218 (addf : (⟨S74654x256, .f32⟩ : BufTy).Contents (Elt F) → (⟨S74654x256, .f32⟩ : BufTy).Contents (Elt F) → (⟨S74654x256, .f32⟩ : BufTy).Contents (Elt F)),
    StableHlo.binary main_v194 main_v218 main_v219 ((fun a b => concatenate S74654x512 1 [⟨S74654x256, a⟩, ⟨S74654x256, b⟩] concatenates_S74654x256_S74654x256_S74654x512_d1) : (⟨S74654x256, .f32⟩ : BufTy).Contents (Elt F) → (⟨S74654x256, .f32⟩ : BufTy).Contents (Elt F) → (⟨S74654x512, .f32⟩ : BufTy).Contents (Elt F)),
    StableHlo.binary main_v219 main_arg27 main_v220 ((fun l r => Host.dotGeneral dot_S74654x512_S512x256_S74654x256_1_0_0_1_n_n none l r) : (⟨S74654x512, .f32⟩ : BufTy).Contents (Elt F) → (⟨S512x256, .f32⟩ : BufTy).Contents (Elt F) → (⟨S74654x256, .f32⟩ : BufTy).Contents (Elt F)),
    StableHlo.unary main_arg28 main_v221 (broadcastInDim S1x256 ![1] bcast_S256_S1x256_1 : (⟨S256, .f32⟩ : BufTy).Contents (Elt F) → (⟨S1x256, .f32⟩ : BufTy).Contents (Elt F)),
    StableHlo.unary main_v221 main_v222 (broadcastInDim S74654x256 ![0, 1] bcast_S1x256_S74654x256_0_1 : (⟨S1x256, .f32⟩ : BufTy).Contents (Elt F) → (⟨S74654x256, .f32⟩ : BufTy).Contents (Elt F)),
    StableHlo.binary main_v220 main_v222 main_v223 (addf : (⟨S74654x256, .f32⟩ : BufTy).Contents (Elt F) → (⟨S74654x256, .f32⟩ : BufTy).Contents (Elt F) → (⟨S74654x256, .f32⟩ : BufTy).Contents (Elt F)),
    StableHlo.TRef.nullary main_call6.cst (constant S_ .f32 0x00000000#32),
    StableHlo.TRef.unary main_call6.cst main_call6.v0 (broadcastInDim S74654x256 ![] bcast_S_S74654x256),
    StableHlo.TRef.binary (StableHlo.TRef.of main_v223 : StableHlo.TRef sig ⟨S74654x256, .f32⟩) main_call6.v0 main_call6.v1 maximumf,
    StableHlo.nullary main_cst_33 (constant S_ .f32 0x40000000#32),
    StableHlo.binary main_cst_33 main_arg18 main_v225 (Host.divf : (⟨S_, .f32⟩ : BufTy).Contents (Elt F) → (⟨S_, .f32⟩ : BufTy).Contents (Elt F) → (⟨S_, .f32⟩ : BufTy).Contents (Elt F)),
    StableHlo.unary main_arg17 main_v226 (broadcastInDim S74654x1 ![0] bcast_S74654_S74654x1_0 : (⟨S74654, .f32⟩ : BufTy).Contents (Elt F) → (⟨S74654x1, .f32⟩ : BufTy).Contents (Elt F)),
    StableHlo.unary main_v226 main_v227 (broadcastInDim S74654x256 ![0, 1] bcast_S74654x1_S74654x256_0_1 : (⟨S74654x1, .f32⟩ : BufTy).Contents (Elt F) → (⟨S74654x256, .f32⟩ : BufTy).Contents (Elt F)),
    StableHlo.binary main_v224 main_v227 main_v228 (mulf : (⟨S74654x256, .f32⟩ : BufTy).Contents (Elt F) → (⟨S74654x256, .f32⟩ : BufTy).Contents (Elt F) → (⟨S74654x256, .f32⟩ : BufTy).Contents (Elt F)),
    StableHlo.nullary main_c_34 (constantI S_ 32 0#32),
    StableHlo.unary main_c_34 main_v229 (broadcastInDim S298662 ![] bcast_S_S298662 : (⟨S_, .i32⟩ : BufTy).Contents (Elt F) → (⟨S298662, .i32⟩ : BufTy).Contents (Elt F)),
    StableHlo.binary main_arg15 main_v229 main_v230 (cmpi .slt : (⟨S298662, .i32⟩ : BufTy).Contents (Elt F) → (⟨S298662, .i32⟩ : BufTy).Contents (Elt F) → (⟨S298662, .i1⟩ : BufTy).Contents (Elt F)),
    StableHlo.nullary main_c_35 (constantI S_ 32 74654#32),
    StableHlo.unary main_c_35 main_v231 (broadcastInDim S298662 ![] bcast_S_S298662 : (⟨S_, .i32⟩ : BufTy).Contents (Elt F) → (⟨S298662, .i32⟩ : BufTy).Contents (Elt F)),
    StableHlo.binary main_arg15 main_v231 main_v232 (addi : (⟨S298662, .i32⟩ : BufTy).Contents (Elt F) → (⟨S298662, .i32⟩ : BufTy).Contents (Elt F) → (⟨S298662, .i32⟩ : BufTy).Contents (Elt F)),
    StableHlo.ternary main_v230 main_v232 main_arg15 main_v233 (select : (⟨S298662, .i1⟩ : BufTy).Contents (Elt F) → (⟨S298662, .i32⟩ : BufTy).Contents (Elt F) → (⟨S298662, .i32⟩ : BufTy).Contents (Elt F) → (⟨S298662, .i32⟩ : BufTy).Contents (Elt F)),
    StableHlo.unary main_v233 main_v234 (broadcastInDim S298662x1 ![0] bcast_S298662_S298662x1_0 : (⟨S298662, .i32⟩ : BufTy).Contents (Elt F) → (⟨S298662x1, .i32⟩ : BufTy).Contents (Elt F)),
    StableHlo.binary main_v228 main_v234 main_v235 ((fun x i => Host.gather gather_S74654x256_S298662x1_S298662x256_1_0_n_n_0_1_1256 x i) : (⟨S74654x256, .f32⟩ : BufTy).Contents (Elt F) → (⟨S298662x1, .i32⟩ : BufTy).Contents (Elt F) → (⟨S298662x256, .f32⟩ : BufTy).Contents (Elt F)),
    StableHlo.nullary main_cst_36 (constant S_ .f32 0x00000000#32),
    StableHlo.unary main_cst_36 main_v236 (broadcastInDim S74654x256 ![] bcast_S_S74654x256 : (⟨S_, .f32⟩ : BufTy).Contents (Elt F) → (⟨S74654x256, .f32⟩ : BufTy).Contents (Elt F)),
    StableHlo.unary main_arg16 main_v237 (broadcastInDim S298662x1 ![0] bcast_S298662_S298662x1_0 : (⟨S298662, .i32⟩ : BufTy).Contents (Elt F) → (⟨S298662x1, .i32⟩ : BufTy).Contents (Elt F)),
    StableHlo.ternary main_v236 main_v237 main_v235 main_v238 ((fun x i u => Host.scatterAdd scatter_S74654x256_S298662x1_S298662x256_1_0_0_1 x i u) : (⟨S74654x256, .f32⟩ : BufTy).Contents (Elt F) → (⟨S298662x1, .i32⟩ : BufTy).Contents (Elt F) → (⟨S298662x256, .f32⟩ : BufTy).Contents (Elt F) → (⟨S74654x256, .f32⟩ : BufTy).Contents (Elt F)),
    StableHlo.unary main_arg17 main_v239 (broadcastInDim S74654x1 ![0] bcast_S74654_S74654x1_0 : (⟨S74654, .f32⟩ : BufTy).Contents (Elt F) → (⟨S74654x1, .f32⟩ : BufTy).Contents (Elt F)),
    StableHlo.unary main_v239 main_v240 (broadcastInDim S74654x256 ![0, 1] bcast_S74654x1_S74654x256_0_1 : (⟨S74654x1, .f32⟩ : BufTy).Contents (Elt F) → (⟨S74654x256, .f32⟩ : BufTy).Contents (Elt F)),
    StableHlo.binary main_v238 main_v240 main_v241 (mulf : (⟨S74654x256, .f32⟩ : BufTy).Contents (Elt F) → (⟨S74654x256, .f32⟩ : BufTy).Contents (Elt F) → (⟨S74654x256, .f32⟩ : BufTy).Contents (Elt F)),
    StableHlo.unary main_v225 main_v242 (Host.negf : (⟨S_, .f32⟩ : BufTy).Contents (Elt F) → (⟨S_, .f32⟩ : BufTy).Contents (Elt F)),
    StableHlo.unary main_v242 main_v243 (broadcastInDim S74654x256 ![] bcast_S_S74654x256 : (⟨S_, .f32⟩ : BufTy).Contents (Elt F) → (⟨S74654x256, .f32⟩ : BufTy).Contents (Elt F)),
    StableHlo.binary main_v243 main_v241 main_v244 (mulf : (⟨S74654x256, .f32⟩ : BufTy).Contents (Elt F) → (⟨S74654x256, .f32⟩ : BufTy).Contents (Elt F) → (⟨S74654x256, .f32⟩ : BufTy).Contents (Elt F)),
    StableHlo.nullary main_cst_37 (constant S_ .f32 0x3F800000#32),
    StableHlo.binary main_v225 main_cst_37 main_v245 (subf : (⟨S_, .f32⟩ : BufTy).Contents (Elt F) → (⟨S_, .f32⟩ : BufTy).Contents (Elt F) → (⟨S_, .f32⟩ : BufTy).Contents (Elt F)),
    StableHlo.unary main_v245 main_v246 (broadcastInDim S74654x256 ![] bcast_S_S74654x256 : (⟨S_, .f32⟩ : BufTy).Contents (Elt F) → (⟨S74654x256, .f32⟩ : BufTy).Contents (Elt F)),
    StableHlo.binary main_v224 main_v246 main_v247 (mulf : (⟨S74654x256, .f32⟩ : BufTy).Contents (Elt F) → (⟨S74654x256, .f32⟩ : BufTy).Contents (Elt F) → (⟨S74654x256, .f32⟩ : BufTy).Contents (Elt F)),
    StableHlo.binary main_v244 main_v247 main_v248 (addf : (⟨S74654x256, .f32⟩ : BufTy).Contents (Elt F) → (⟨S74654x256, .f32⟩ : BufTy).Contents (Elt F) → (⟨S74654x256, .f32⟩ : BufTy).Contents (Elt F)),
    StableHlo.binary main_v224 main_v248 main_v249 ((fun a b => concatenate S74654x512 1 [⟨S74654x256, a⟩, ⟨S74654x256, b⟩] concatenates_S74654x256_S74654x256_S74654x512_d1) : (⟨S74654x256, .f32⟩ : BufTy).Contents (Elt F) → (⟨S74654x256, .f32⟩ : BufTy).Contents (Elt F) → (⟨S74654x512, .f32⟩ : BufTy).Contents (Elt F)),
    StableHlo.binary main_v249 main_arg29 main_v250 ((fun l r => Host.dotGeneral dot_S74654x512_S512x256_S74654x256_1_0_0_1_n_n none l r) : (⟨S74654x512, .f32⟩ : BufTy).Contents (Elt F) → (⟨S512x256, .f32⟩ : BufTy).Contents (Elt F) → (⟨S74654x256, .f32⟩ : BufTy).Contents (Elt F)),
    StableHlo.unary main_arg30 main_v251 (broadcastInDim S1x256 ![1] bcast_S256_S1x256_1 : (⟨S256, .f32⟩ : BufTy).Contents (Elt F) → (⟨S1x256, .f32⟩ : BufTy).Contents (Elt F)),
    StableHlo.unary main_v251 main_v252 (broadcastInDim S74654x256 ![0, 1] bcast_S1x256_S74654x256_0_1 : (⟨S1x256, .f32⟩ : BufTy).Contents (Elt F) → (⟨S74654x256, .f32⟩ : BufTy).Contents (Elt F)),
    StableHlo.binary main_v250 main_v252 main_v253 (addf : (⟨S74654x256, .f32⟩ : BufTy).Contents (Elt F) → (⟨S74654x256, .f32⟩ : BufTy).Contents (Elt F) → (⟨S74654x256, .f32⟩ : BufTy).Contents (Elt F)),
    StableHlo.TRef.nullary main_call7.cst (constant S_ .f32 0x00000000#32),
    StableHlo.TRef.unary main_call7.cst main_call7.v0 (broadcastInDim S74654x256 ![] bcast_S_S74654x256),
    StableHlo.TRef.binary (StableHlo.TRef.of main_v253 : StableHlo.TRef sig ⟨S74654x256, .f32⟩) main_call7.v0 main_call7.v1 maximumf,
    StableHlo.nullary main_c_38 (constantI S_ 32 0#32),
    StableHlo.unary main_c_38 main_v255 (broadcastInDim S25346 ![] bcast_S_S25346 : (⟨S_, .i32⟩ : BufTy).Contents (Elt F) → (⟨S25346, .i32⟩ : BufTy).Contents (Elt F)),
    StableHlo.binary main_arg14 main_v255 main_v256 (cmpi .slt : (⟨S25346, .i32⟩ : BufTy).Contents (Elt F) → (⟨S25346, .i32⟩ : BufTy).Contents (Elt F) → (⟨S25346, .i1⟩ : BufTy).Contents (Elt F)),
    StableHlo.nullary main_c_39 (constantI S_ 32 100000#32),
    StableHlo.unary main_c_39 main_v257 (broadcastInDim S25346 ![] bcast_S_S25346 : (⟨S_, .i32⟩ : BufTy).Contents (Elt F) → (⟨S25346, .i32⟩ : BufTy).Contents (Elt F)) ]

/-- The operations of window 5 of the reference program, in order; a call's body is listed at its call site over
    that call's buffer record. -/
abbrev ops5 : List (HloOp τ sig (Elt F)) :=
  [ StableHlo.binary main_arg14 main_v257 main_v258 (addi : (⟨S25346, .i32⟩ : BufTy).Contents (Elt F) → (⟨S25346, .i32⟩ : BufTy).Contents (Elt F) → (⟨S25346, .i32⟩ : BufTy).Contents (Elt F)),
    StableHlo.ternary main_v256 main_v258 main_arg14 main_v259 (select : (⟨S25346, .i1⟩ : BufTy).Contents (Elt F) → (⟨S25346, .i32⟩ : BufTy).Contents (Elt F) → (⟨S25346, .i32⟩ : BufTy).Contents (Elt F) → (⟨S25346, .i32⟩ : BufTy).Contents (Elt F)),
    StableHlo.unary main_v259 main_v260 (broadcastInDim S25346x1 ![0] bcast_S25346_S25346x1_0 : (⟨S25346, .i32⟩ : BufTy).Contents (Elt F) → (⟨S25346x1, .i32⟩ : BufTy).Contents (Elt F)),
    StableHlo.binary main_v187 main_v260 main_v261 ((fun x i => Host.gather gather_S100000x256_S25346x1_S25346x256_1_0_n_n_0_1_1256 x i) : (⟨S100000x256, .f32⟩ : BufTy).Contents (Elt F) → (⟨S25346x1, .i32⟩ : BufTy).Contents (Elt F) → (⟨S25346x256, .f32⟩ : BufTy).Contents (Elt F)),
    StableHlo.binary main_v261 main_arg23 main_v262 ((fun l r => Host.dotGeneral dot_S25346x256_S256x256_S25346x256_1_0_0_1_n_n none l r) : (⟨S25346x256, .f32⟩ : BufTy).Contents (Elt F) → (⟨S256x256, .f32⟩ : BufTy).Contents (Elt F) → (⟨S25346x256, .f32⟩ : BufTy).Contents (Elt F)),
    StableHlo.unary main_arg24 main_v263 (broadcastInDim S1x256 ![1] bcast_S256_S1x256_1 : (⟨S256, .f32⟩ : BufTy).Contents (Elt F) → (⟨S1x256, .f32⟩ : BufTy).Contents (Elt F)),
    StableHlo.unary main_v263 main_v264 (broadcastInDim S25346x256 ![0, 1] bcast_S1x256_S25346x256_0_1 : (⟨S1x256, .f32⟩ : BufTy).Contents (Elt F) → (⟨S25346x256, .f32⟩ : BufTy).Contents (Elt F)),
    StableHlo.binary main_v262 main_v264 main_v265 (addf : (⟨S25346x256, .f32⟩ : BufTy).Contents (Elt F) → (⟨S25346x256, .f32⟩ : BufTy).Contents (Elt F) → (⟨S25346x256, .f32⟩ : BufTy).Contents (Elt F)),
    StableHlo.binary main_v265 main_arg25 main_v266 ((fun l r => Host.dotGeneral dot_S25346x256_S256x256_S25346x256_1_0_0_1_n_n none l r) : (⟨S25346x256, .f32⟩ : BufTy).Contents (Elt F) → (⟨S256x256, .f32⟩ : BufTy).Contents (Elt F) → (⟨S25346x256, .f32⟩ : BufTy).Contents (Elt F)),
    StableHlo.unary main_arg26 main_v267 (broadcastInDim S1x256 ![1] bcast_S256_S1x256_1 : (⟨S256, .f32⟩ : BufTy).Contents (Elt F) → (⟨S1x256, .f32⟩ : BufTy).Contents (Elt F)),
    StableHlo.unary main_v267 main_v268 (broadcastInDim S25346x256 ![0, 1] bcast_S1x256_S25346x256_0_1 : (⟨S1x256, .f32⟩ : BufTy).Contents (Elt F) → (⟨S25346x256, .f32⟩ : BufTy).Contents (Elt F)),
    StableHlo.binary main_v266 main_v268 main_v269 (addf : (⟨S25346x256, .f32⟩ : BufTy).Contents (Elt F) → (⟨S25346x256, .f32⟩ : BufTy).Contents (Elt F) → (⟨S25346x256, .f32⟩ : BufTy).Contents (Elt F)),
    StableHlo.binary main_v224 main_v254 main_v270 ((fun a b => concatenate S74654x512 1 [⟨S74654x256, a⟩, ⟨S74654x256, b⟩] concatenates_S74654x256_S74654x256_S74654x512_d1) : (⟨S74654x256, .f32⟩ : BufTy).Contents (Elt F) → (⟨S74654x256, .f32⟩ : BufTy).Contents (Elt F) → (⟨S74654x512, .f32⟩ : BufTy).Contents (Elt F)),
    StableHlo.binary main_v265 main_v269 main_v271 ((fun a b => concatenate S25346x512 1 [⟨S25346x256, a⟩, ⟨S25346x256, b⟩] concatenates_S25346x256_S25346x256_S25346x512_d1) : (⟨S25346x256, .f32⟩ : BufTy).Contents (Elt F) → (⟨S25346x256, .f32⟩ : BufTy).Contents (Elt F) → (⟨S25346x512, .f32⟩ : BufTy).Contents (Elt F)),
    StableHlo.binary main_v270 main_v271 main_v272 ((fun a b => concatenate S100000x512 0 [⟨S74654x512, a⟩, ⟨S25346x512, b⟩] concatenates_S74654x512_S25346x512_S100000x512_d0) : (⟨S74654x512, .f32⟩ : BufTy).Contents (Elt F) → (⟨S25346x512, .f32⟩ : BufTy).Contents (Elt F) → (⟨S100000x512, .f32⟩ : BufTy).Contents (Elt F)),
    StableHlo.binary main_v272 main_arg31 main_v273 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)),
    StableHlo.unary main_arg32 main_v274 (broadcastInDim S1x256 ![1] bcast_S256_S1x256_1 : (⟨S256, .f32⟩ : BufTy).Contents (Elt F) → (⟨S1x256, .f32⟩ : BufTy).Contents (Elt F)),
    StableHlo.unary main_v274 main_v275 (broadcastInDim S100000x256 ![0, 1] bcast_S1x256_S100000x256_0_1 : (⟨S1x256, .f32⟩ : BufTy).Contents (Elt F) → (⟨S100000x256, .f32⟩ : BufTy).Contents (Elt F)),
    StableHlo.binary main_v273 main_v275 main_v276 (addf : (⟨S100000x256, .f32⟩ : BufTy).Contents (Elt F) → (⟨S100000x256, .f32⟩ : BufTy).Contents (Elt F) → (⟨S100000x256, .f32⟩ : BufTy).Contents (Elt F)),
    StableHlo.binary main_v98 main_v187 main_v277 (addf : (⟨S100000x256, .f32⟩ : BufTy).Contents (Elt F) → (⟨S100000x256, .f32⟩ : BufTy).Contents (Elt F) → (⟨S100000x256, .f32⟩ : BufTy).Contents (Elt F)),
    StableHlo.binary main_v277 main_v276 main_v278 (addf : (⟨S100000x256, .f32⟩ : BufTy).Contents (Elt F) → (⟨S100000x256, .f32⟩ : BufTy).Contents (Elt F) → (⟨S100000x256, .f32⟩ : BufTy).Contents (Elt F)),
    StableHlo.TRef.nullary main_call8.cst (constant S_ .f32 0x00000000#32),
    StableHlo.TRef.unary main_call8.cst main_call8.v0 (broadcastInDim S100000x256 ![] bcast_S_S100000x256),
    StableHlo.TRef.binary (StableHlo.TRef.of main_v278 : StableHlo.TRef sig ⟨S100000x256, .f32⟩) main_call8.v0 main_call8.v1 (cmpf .oge),
    StableHlo.TRef.nullary main_call8.cst_0 (constant S_ .f32 0x3C23D70A#32),
    StableHlo.TRef.unary main_call8.cst_0 main_call8.v2 (broadcastInDim S100000x256 ![] bcast_S_S100000x256),
    StableHlo.TRef.binary main_call8.v2 (StableHlo.TRef.of main_v278 : StableHlo.TRef sig ⟨S100000x256, .f32⟩) main_call8.v3 mulf,
    StableHlo.TRef.ternary main_call8.v1 (StableHlo.TRef.of main_v278 : StableHlo.TRef sig ⟨S100000x256, .f32⟩) main_call8.v3 main_call8.call0.v0 select,
    StableHlo.binary main_v279 main_arg33 main_v280 ((fun l r => Host.dotGeneral dot_S100000x256_S256x2_S100000x2_1_0_0_1_n_n none l r) : (⟨S100000x256, .f32⟩ : BufTy).Contents (Elt F) → (⟨S256x2, .f32⟩ : BufTy).Contents (Elt F) → (⟨S100000x2, .f32⟩ : BufTy).Contents (Elt F)),
    StableHlo.unary main_arg34 main_v281 (broadcastInDim S1x2 ![1] bcast_S2_S1x2_1 : (⟨S2, .f32⟩ : BufTy).Contents (Elt F) → (⟨S1x2, .f32⟩ : BufTy).Contents (Elt F)),
    StableHlo.unary main_v281 main_v282 (broadcastInDim S100000x2 ![0, 1] bcast_S1x2_S100000x2_0_1 : (⟨S1x2, .f32⟩ : BufTy).Contents (Elt F) → (⟨S100000x2, .f32⟩ : BufTy).Contents (Elt F)),
    StableHlo.binary main_v280 main_v282 main_v283 (addf : (⟨S100000x2, .f32⟩ : BufTy).Contents (Elt F) → (⟨S100000x2, .f32⟩ : BufTy).Contents (Elt F) → (⟨S100000x2, .f32⟩ : BufTy).Contents (Elt F)) ]

end Cert.ReferenceIdeal.RefRun

end
-- ==== Proof.RefEq.lean ====
/-
  Each window of the reference program's entry function is the straight line of its operations.
-/
import proofs.«116214_j36043365548318_1_alg».proof.Proof.RefOps

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxRecDepth 4096 in
set_option maxHeartbeats 4000000 in
/-- Window 0 is that straight line: the called functions' bodies unfolded at their calls, both sides are one
    chain of steps once sequencing is reassociated. -/
theorem main_part0_eq (c : Dev nD) : main_part0 (F := F) c = StableHlo.seq ops0 := by
  simp only [main_part0, fn_leaky_relu.body, fn_where.body, fn_relu.body, fn_relu_0.body, fn_relu_1.body,
    StableHlo.seq, bind_assoc, pure_bind]
  rfl

set_option maxRecDepth 4096 in
set_option maxHeartbeats 4000000 in
/-- Window 1 is that straight line: the called functions' bodies unfolded at their calls, both sides are one
    chain of steps once sequencing is reassociated. -/
theorem main_part1_eq (c : Dev nD) : main_part1 (F := F) c = StableHlo.seq ops1 := by
  simp only [main_part1, fn_leaky_relu.body, fn_where.body, fn_relu.body, fn_relu_0.body, fn_relu_1.body,
    StableHlo.seq, bind_assoc, pure_bind]
  rfl

set_option maxRecDepth 4096 in
set_option maxHeartbeats 4000000 in
/-- Window 2 is that straight line: the called functions' bodies unfolded at their calls, both sides are one
    chain of steps once sequencing is reassociated. -/
theorem main_part2_eq (c : Dev nD) : main_part2 (F := F) c = StableHlo.seq ops2 := by
  simp only [main_part2, fn_leaky_relu.body, fn_where.body, fn_relu.body, fn_relu_0.body, fn_relu_1.body,
    StableHlo.seq, bind_assoc, pure_bind]
  rfl

set_option maxRecDepth 4096 in
set_option maxHeartbeats 4000000 in
/-- Window 3 is that straight line: the called functions' bodies unfolded at their calls, both sides are one
    chain of steps once sequencing is reassociated. -/
theorem main_part3_eq (c : Dev nD) : main_part3 (F := F) c = StableHlo.seq ops3 := by
  simp only [main_part3, fn_leaky_relu.body, fn_where.body, fn_relu.body, fn_relu_0.body, fn_relu_1.body,
    StableHlo.seq, bind_assoc, pure_bind]
  rfl

set_option maxRecDepth 4096 in
set_option maxHeartbeats 4000000 in
/-- Window 4 is that straight line: the called functions' bodies unfolded at their calls, both sides are one
    chain of steps once sequencing is reassociated. -/
theorem main_part4_eq (c : Dev nD) : main_part4 (F := F) c = StableHlo.seq ops4 := by
  simp only [main_part4, fn_leaky_relu.body, fn_where.body, fn_relu.body, fn_relu_0.body, fn_relu_1.body,
    StableHlo.seq, bind_assoc, pure_bind]
  rfl

set_option maxRecDepth 4096 in
set_option maxHeartbeats 4000000 in
/-- Window 5 is that straight line: the called functions' bodies unfolded at their calls, both sides are one
    chain of steps once sequencing is reassociated. -/
theorem main_part5_eq (c : Dev nD) : main_part5 (F := F) c = StableHlo.seq ops5 := by
  simp only [main_part5, fn_leaky_relu.body, fn_where.body, fn_relu.body, fn_relu_0.body, fn_relu_1.body,
    StableHlo.seq, bind_assoc, pure_bind]

end Cert.ReferenceIdeal.RefRun

end
-- ==== Proof.RefFacts.lean ====
/-
  Three facts about every operation of the reference program's six lines: it touches TensorCore buffers only, it
  determines its result, and the one buffer it writes is numbered after the program's 35 arguments.
-/
import proofs.«116214_j36043365548318_1_alg».proof.Proof.RefOps
import proofs.«116214_j36043365548318_1_alg».proof.Proof.LibWrites

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxRecDepth 8192 in
/-- Every operation of window 0 reads and writes TensorCore buffers only. -/
theorem ops0_sub : (ops0 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub ..⟩

set_option maxRecDepth 8192 in
/-- Every operation of window 0 determines its result. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of window 0 writes one buffer of its own, numbered after the 35 arguments. -/
theorem ops0_writes : (ops0 : List (HloOp τ sig (Elt F))).Forall (StableHlo.WritesFrom 35) := by
  writes_own

set_option maxRecDepth 8192 in
/-- Every operation of window 1 reads and writes TensorCore buffers only. -/
theorem ops1_sub : (ops1 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩

set_option maxRecDepth 8192 in
/-- Every operation of window 1 determines its result. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of window 1 writes one buffer of its own, numbered after the 35 arguments. -/
theorem ops1_writes : (ops1 : List (HloOp τ sig (Elt F))).Forall (StableHlo.WritesFrom 35) := by
  writes_own

set_option maxRecDepth 8192 in
/-- Every operation of window 2 reads and writes TensorCore buffers only. -/
theorem ops2_sub : (ops2 : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub ..⟩

set_option maxRecDepth 8192 in
/-- Every operation of window 2 determines its result. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of window 2 writes one buffer of its own, numbered after the 35 arguments. -/
theorem ops2_writes : (ops2 : List (HloOp τ sig (Elt F))).Forall (StableHlo.WritesFrom 35) := by
  writes_own

set_option maxRecDepth 8192 in
/-- Every operation of window 3 reads and writes TensorCore buffers only. -/
theorem ops3_sub : (ops3 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩

set_option maxRecDepth 8192 in
/-- Every operation of window 3 determines its result. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of window 3 writes one buffer of its own, numbered after the 35 arguments. -/
theorem ops3_writes : (ops3 : List (HloOp τ sig (Elt F))).Forall (StableHlo.WritesFrom 35) := by
  writes_own

set_option maxRecDepth 8192 in
/-- Every operation of window 4 reads and writes TensorCore buffers only. -/
theorem ops4_sub : (ops4 : List (HloOp τ sig (Elt F))).Forall fun op => op.bufs ⊆ StableHlo.tcRefs τ sig :=
  ⟨StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub ..⟩

set_option maxRecDepth 8192 in
/-- Every operation of window 4 determines its result. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of window 4 writes one buffer of its own, numbered after the 35 arguments. -/
theorem ops4_writes : (ops4 : List (HloOp τ sig (Elt F))).Forall (StableHlo.WritesFrom 35) := by
  writes_own

set_option maxRecDepth 8192 in
/-- Every operation of window 5 reads and writes TensorCore buffers only. -/
theorem ops5_sub : (ops5 : List (HloOp τ sig (Elt F))).Forall fun op => op.bufs ⊆ StableHlo.tcRefs τ sig :=
  ⟨StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub .., StableHlo.unary_bufs_sub .., StableHlo.unary_bufs_sub .., StableHlo.binary_bufs_sub ..⟩

set_option maxRecDepth 8192 in
/-- Every operation of window 5 determines its result. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of window 5 writes one buffer of its own, numbered after the 35 arguments. -/
theorem ops5_writes : (ops5 : List (HloOp τ sig (Elt F))).Forall (StableHlo.WritesFrom 35) := by
  writes_own

end Cert.ReferenceIdeal.RefRun

end
-- ==== Proof.RefRun.lean ====
/-
  The run of the reference program: it is one straight line of host operations, so every weakly fair execution
  terminates with each buffer at the fold of the operations over the launch contents. The fold is kept as a chain
  of six folds, one per window; no operation writes an argument.
-/
import proofs.«116214_j36043365548318_1_alg».proof.Proof.RefEq
import proofs.«116214_j36043365548318_1_alg».proof.Proof.RefFacts

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The reference program's operations, window after window. -/
abbrev ops : List (HloOp τ sig (Elt F)) := ops0 ++ (ops1 ++ (ops2 ++ (ops3 ++ (ops4 ++ ops5))))

set_option maxRecDepth 4096 in
/-- The program is its six windows in order, hence the whole line. -/
theorem main_eq (c : Dev nD) : main (F := F) c = StableHlo.seq ops := by
  simp only [ops, StableHlo.seq_append, ← main_part0_eq c, ← main_part1_eq c, ← main_part2_eq c, ← main_part3_eq c,
    ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

/-- A property of every operation of each window holds of every operation of the line. -/
theorem ops_forall {p : HloOp τ sig (Elt F) → Prop} (h0 : (ops0 : List (HloOp τ sig (Elt F))).Forall p) (h1 : (ops1 : List (HloOp τ sig (Elt F))).Forall p)
    (h2 : (ops2 : List (HloOp τ sig (Elt F))).Forall p) (h3 : (ops3 : List (HloOp τ sig (Elt F))).Forall p) (h4 : (ops4 : List (HloOp τ sig (Elt F))).Forall p)
    (h5 : (ops5 : List (HloOp τ sig (Elt F))).Forall p) : (ops : List (HloOp τ sig (Elt F))).Forall p :=
  List.forall_iff_forall_mem.mpr fun op h => by
    simp only [ops, List.mem_append] at h
    rcases h with h | h | h | h | h | h
    exacts [List.forall_iff_forall_mem.mp h0 op h, List.forall_iff_forall_mem.mp h1 op h, List.forall_iff_forall_mem.mp h2 op h,
      List.forall_iff_forall_mem.mp h3 op h, List.forall_iff_forall_mem.mp h4 op h, List.forall_iff_forall_mem.mp h5 op h]

theorem ops_sub : (ops : List (HloOp τ sig (Elt F))).Forall fun op => op.bufs ⊆ StableHlo.tcRefs τ sig :=
  ops_forall ops0_sub ops1_sub ops2_sub ops3_sub ops4_sub ops5_sub

theorem ops_fresh : (ops : List (HloOp τ sig (Elt F))).Forall fun op => op.fresh = ∅ :=
  ops_forall ops0_fresh ops1_fresh ops2_fresh ops3_fresh ops4_fresh ops5_fresh

theorem ops_writes : (ops : List (HloOp τ sig (Elt F))).Forall (StableHlo.WritesFrom 35) :=
  ops_forall ops0_writes ops1_writes ops2_writes ops3_writes ops4_writes ops5_writes

section Chain

variable (m : (ℓ : Loc nD τ sig) → Buf (Elt F) ℓ)

/-- The device's buffer contents at launch. -/
abbrev R0 : Dev nD → Valuation τ sig (Elt F) := fun c b => m ((c : Dev nD), b)
/-- The contents after window 0. -/
abbrev R1 : Dev nD → Valuation τ sig (Elt F) := fun c => StableHlo.after ops0 (R0 m c)
/-- The contents after windows 0 and 1. -/
abbrev R2 : Dev nD → Valuation τ sig (Elt F) := fun c => StableHlo.after ops1 (R1 m c)
/-- The contents after windows 0 to 2. -/
abbrev R3 : Dev nD → Valuation τ sig (Elt F) := fun c => StableHlo.after ops2 (R2 m c)
/-- The contents after windows 0 to 3. -/
abbrev R4 : Dev nD → Valuation τ sig (Elt F) := fun c => StableHlo.after ops3 (R3 m c)
/-- The contents after windows 0 to 4. -/
abbrev R5 : Dev nD → Valuation τ sig (Elt F) := fun c => StableHlo.after ops4 (R4 m c)
/-- The contents after the whole program. -/
abbrev R6 : Dev nD → Valuation τ sig (Elt F) := fun c => StableHlo.after ops5 (R5 m c)

/-- The fold over the whole line is the chain of the windows' folds. -/
theorem after_ops (c : Dev nD) : StableHlo.after ops (StableHlo.launchContents m c) = R6 m c := by
  simp only [ops, StableHlo.after_two]

/-- No operation writes an argument: a reference numbered below 35 ends as it was at launch. -/
theorem kept (c : Dev nD) (r : Ref sig .tc) (hr : r.idx.val < 35) :
    StableHlo.after ops (StableHlo.launchContents m c) (Proc.devRef .tc r) = m ((c.tc : Thread nD τ).loc r) :=
  StableHlo.after_below 35 ops _ ops_writes r hr

end Chain

/-- On every device, for any float values, from any memory with zero counters: every weakly fair execution of the
    reference program terminates with its result at the chain of the windows' folds and its arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v283) = R6 m c (Proc.devRef .tc main_v283)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)) :=
  (θ_run defs _ _).mono (fun _ h c => ⟨(h c main_v283).trans (congrFun (after_ops m c) _),
      (h c main_arg0).trans (kept m c main_arg0 (by decide)),
      (h c main_arg1).trans (kept m c main_arg1 (by decide)),
      (h c main_arg2).trans (kept m c main_arg2 (by decide)),
      (h c main_arg3).trans (kept m c main_arg3 (by decide)),
      (h c main_arg4).trans (kept m c main_arg4 (by decide)),
      (h c main_arg5).trans (kept m c main_arg5 (by decide)),
      (h c main_arg6).trans (kept m c main_arg6 (by decide)),
      (h c main_arg7).trans (kept m c main_arg7 (by decide)),
      (h c main_arg8).trans (kept m c main_arg8 (by decide)),
      (h c main_arg9).trans (kept m c main_arg9 (by decide)),
      (h c main_arg10).trans (kept m c main_arg10 (by decide)),
      (h c main_arg11).trans (kept m c main_arg11 (by decide)),
      (h c main_arg12).trans (kept m c main_arg12 (by decide)),
      (h c main_arg13).trans (kept m c main_arg13 (by decide)),
      (h c main_arg14).trans (kept m c main_arg14 (by decide)),
      (h c main_arg15).trans (kept m c main_arg15 (by decide)),
      (h c main_arg16).trans (kept m c main_arg16 (by decide)),
      (h c main_arg17).trans (kept m c main_arg17 (by decide)),
      (h c main_arg18).trans (kept m c main_arg18 (by decide)),
      (h c main_arg19).trans (kept m c main_arg19 (by decide)),
      (h c main_arg20).trans (kept m c main_arg20 (by decide)),
      (h c main_arg21).trans (kept m c main_arg21 (by decide)),
      (h c main_arg22).trans (kept m c main_arg22 (by decide)),
      (h c main_arg23).trans (kept m c main_arg23 (by decide)),
      (h c main_arg24).trans (kept m c main_arg24 (by decide)),
      (h c main_arg25).trans (kept m c main_arg25 (by decide)),
      (h c main_arg26).trans (kept m c main_arg26 (by decide)),
      (h c main_arg27).trans (kept m c main_arg27 (by decide)),
      (h c main_arg28).trans (kept m c main_arg28 (by decide)),
      (h c main_arg29).trans (kept m c main_arg29 (by decide)),
      (h c main_arg30).trans (kept m c main_arg30 (by decide)),
      (h c main_arg31).trans (kept m c main_arg31 (by decide)),
      (h c main_arg32).trans (kept m c main_arg32 (by decide)),
      (h c main_arg33).trans (kept m c main_arg33 (by decide)),
      (h c main_arg34).trans (kept m c main_arg34 (by decide))⟩)
    (StableHlo.run_seq scopedRefs_eq scopedSems_eq defs main (fun _ => ops) main_eq (fun _ => ops_sub) m ρ
      (fun _ => List.forall_iff_forall_mem.mp ops_fresh))

/-- The run with the result dropped: the program terminates without a fault and its arguments end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)) :=
  (θ_run defs _ _).mono (fun _ h c => (h c).2) (run m ρ)

end Cert.ReferenceIdeal.RefRun

end
-- ==== Proof.RefAsc.lean ====
/-
  The reference program's 356 host operations write, in program order, the buffers numbered 35, 36, …, 390: the buffers
  are numbered in the order the program defines them, the 35 arguments first.
-/
import proofs.«116214_j36043365548318_1_alg».proof.Proof.RefRun
import proofs.«116214_j36043365548318_1_alg».proof.Proof.LibAscending
import Idealize.ShloMosaic.PureOps.Ideal

noncomputable section

namespace Cert.ReferenceIdeal.RefValue

open Cert.ReferenceIdeal Cert.ReferenceIdeal.Gen Cert.ReferenceIdeal.RefRun Idealize.ShloMosaic Idealize.ShloMosaic.TcCoe Idealize.SL.Sem

set_option maxRecDepth 65536 in
set_option maxHeartbeats 4000000 in
/-- The reference program's operations write, in order, the references numbered 35, 36, …. -/
theorem ops_asc : StableHlo.Ascending 35 (ops : List (HloOp τ sig (Elt Ideal))) := by
  simp only [ops, ops0, ops1, ops2, ops3, ops4, ops5, List.cons_append, List.nil_append, StableHlo.Ascending]
  repeat' constructor
  all_goals exact fun b hb => ⟨_, Finset.mem_singleton.mp hb, rfl⟩

end Cert.ReferenceIdeal.RefValue

end
-- ==== Proof.LibHostForms.lean ====
/-
  The host's printed forms of the dense layers, composed.

  On the host the leaky layer is a product, a bias broadcast twice and a select; the rectified two-input layer is the two
  inputs side by side against the whole weight, a bias and a maximum with a splat zero; the combining layer is one
  product of two pairs of inputs, each pair side by side, one pair above the other; the last layer is the leaky
  rectifier of a sum of three arrays, a product and a bias. Each is the corresponding layer function.
-/
import proofs.«116214_j36043365548318_1_alg».proof.Proof.HostLayers

noncomputable section

namespace Cert.HostLayers

open Idealize.ShloMosaic Idealize.ShloMosaic.ValueIdx Idealize.ShloMosaic.Pipeline Cert.Rows Cert.Gcn Cert.Layers

/-- The host's leaky layer: a product, a bias broadcast twice, and the select between the entry and its scaled copy. -/
theorem host_linLeaky {M K N : ℕ} (X : FVec Ideal (⟨2, ![M, K]⟩ : Shape) .f32) (W : FVec Ideal (⟨2, ![K, N]⟩ : Shape) .f32)
    (b : FVec Ideal (⟨1, ![N]⟩ : Shape) .f32)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (d0 : Fin 0 → Fin 2) (h0 : (⟨0, ![]⟩ : Shape).BroadcastsInDim (⟨2, ![M, N]⟩ : Shape) d0) :
    select (cmpf (F := Ideal) .oge
          (addf (F := Ideal) (Host.dotGeneral (DotDims.plain M K N) none X W)
            (broadcastInDim (⟨2, ![M, N]⟩ : Shape) d2 h2 (broadcastInDim (⟨2, ![1, N]⟩ : Shape) d1 h1 b)))
          (broadcastInDim (⟨2, ![M, N]⟩ : Shape) d0 h0 (constant (F := Ideal) (⟨0, ![]⟩ : Shape) .f32 0x00000000#32)))
        (addf (F := Ideal) (Host.dotGeneral (DotDims.plain M K N) none X W)
            (broadcastInDim (⟨2, ![M, N]⟩ : Shape) d2 h2 (broadcastInDim (⟨2, ![1, N]⟩ : Shape) d1 h1 b)))
        (mulf (F := Ideal) (broadcastInDim (⟨2, ![M, N]⟩ : Shape) d0 h0 (constant (F := Ideal) (⟨0, ![]⟩ : Shape) .f32 0x3C23D70A#32))
          (addf (F := Ideal) (Host.dotGeneral (DotDims.plain M K N) none X W)
            (broadcastInDim (⟨2, ![M, N]⟩ : Shape) d2 h2 (broadcastInDim (⟨2, ![1, N]⟩ : Shape) d1 h1 b))))
      = linLeaky X W (shapeCast (⟨2, ![1, N]⟩ : Shape) b hc) := by
  rw [host_leaky, host_linPlain X W b d1 hd1 h1 d2 hd2 h2 hc]
  rfl

/-- The host's rectified two-input layer: the two inputs side by side against the whole weight, a bias broadcast twice,
    and the maximum with a splat zero. -/
theorem host_dualRelu {M K1 K2 N : ℕ} (A : FVec Ideal (⟨2, ![M, K1]⟩ : Shape) .f32) (B : FVec Ideal (⟨2, ![M, K2]⟩ : Shape) .f32)
    (W : FVec Ideal (⟨2, ![K1 + K2, N]⟩ : Shape) .f32) (b : FVec Ideal (⟨1, ![N]⟩ : Shape) .f32)
    (hcat : Shape.Concatenates [(⟨2, ![M, K1]⟩ : Shape), ⟨2, ![M, K2]⟩] ⟨2, ![M, K1 + K2]⟩ 1)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (d0 : Fin 0 → Fin 2) (h0 : (⟨0, ![]⟩ : Shape).BroadcastsInDim (⟨2, ![M, N]⟩ : Shape) d0) :
    maximumf (F := Ideal)
        (addf (F := Ideal) (Host.dotGeneral (DotDims.plain M (K1 + K2) N) none
            (concatenate (⟨2, ![M, K1 + K2]⟩ : Shape) 1 [⟨_, A⟩, ⟨_, B⟩] hcat) W)
          (broadcastInDim (⟨2, ![M, N]⟩ : Shape) d2 h2 (broadcastInDim (⟨2, ![1, N]⟩ : Shape) d1 h1 b)))
        (broadcastInDim (⟨2, ![M, N]⟩ : Shape) d0 h0 (constant (F := Ideal) (⟨0, ![]⟩ : Shape) .f32 0x00000000#32))
      = dualRelu A B (rowsAt 0 K1 (by omega) W) (rowsAt K1 K2 (le_refl _) W) (shapeCast (⟨2, ![1, N]⟩ : Shape) b hc) := by
  rw [host_max, host_dualPlain A B W b hcat d1 hd1 h1 d2 hd2 h2 hc]
  rfl

/-- The combining layer: a one-product layer of two pairs of inputs, each pair side by side, one pair above the other,
    is the two-input layer of the first pair above that of the second. -/
theorem block_form {M1 M2 K1 K2 N : ℕ} (A : FVec Ideal (⟨2, ![M1, K1]⟩ : Shape) .f32) (B : FVec Ideal (⟨2, ![M1, K2]⟩ : Shape) .f32)
    (C : FVec Ideal (⟨2, ![M2, K1]⟩ : Shape) .f32) (D : FVec Ideal (⟨2, ![M2, K2]⟩ : Shape) .f32)
    (W : FVec Ideal (⟨2, ![K1 + K2, N]⟩ : Shape) .f32) (b : FVec Ideal (⟨2, ![1, N]⟩ : Shape) .f32)
    (hAB : Shape.Concatenates [(⟨2, ![M1, K1]⟩ : Shape), ⟨2, ![M1, K2]⟩] ⟨2, ![M1, K1 + K2]⟩ 1)
    (hCD : Shape.Concatenates [(⟨2, ![M2, K1]⟩ : Shape), ⟨2, ![M2, K2]⟩] ⟨2, ![M2, K1 + K2]⟩ 1)
    (hx : Shape.Concatenates [(⟨2, ![M1, K1 + K2]⟩ : Shape), ⟨2, ![M2, K1 + K2]⟩] ⟨2, ![M1 + M2, K1 + K2]⟩ 0)
    (hy : Shape.Concatenates [(⟨2, ![M1, N]⟩ : Shape), ⟨2, ![M2, N]⟩] ⟨2, ![M1 + M2, N]⟩ 0) :
    linPlain (concatenate (⟨2, ![M1 + M2, K1 + K2]⟩ : Shape) 0
          [⟨_, concatenate (⟨2, ![M1, K1 + K2]⟩ : Shape) 1 [⟨_, A⟩, ⟨_, B⟩] hAB⟩,
           ⟨_, concatenate (⟨2, ![M2, K1 + K2]⟩ : Shape) 1 [⟨_, C⟩, ⟨_, D⟩] hCD⟩] hx) W b
      = concatenate (⟨2, ![M1 + M2, N]⟩ : Shape) 0
          [⟨_, dualPlain A B (rowsAt 0 K1 (by omega) W) (rowsAt K1 K2 (le_refl _) W) b⟩,
           ⟨_, dualPlain C D (rowsAt 0 K1 (by omega) W) (rowsAt K1 K2 (le_refl _) W) b⟩] hy := by
  rw [linPlain_rows _ _ W _ hx hy,
    linPlain_cols A B _ W _ (fun r k => concat_cols_left A B hAB r k) (fun r k => concat_cols_right A B hAB r k),
    linPlain_cols C D _ W _ (fun r k => concat_cols_left C D hCD r k) (fun r k => concat_cols_right C D hCD r k)]

/-- The host's last layer: the leaky rectifier (as a select) of the sum of three arrays, a product, a bias broadcast twice. -/
theorem host_triOut {M K N : ℕ} (A B C : FVec Ideal (⟨2, ![M, K]⟩ : Shape) .f32) (W : FVec Ideal (⟨2, ![K, N]⟩ : Shape) .f32)
    (b : FVec Ideal (⟨1, ![N]⟩ : Shape) .f32)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (d0 : Fin 0 → Fin 2) (h0 : (⟨0, ![]⟩ : Shape).BroadcastsInDim (⟨2, ![M, K]⟩ : Shape) d0) :
    addf (F := Ideal) (Host.dotGeneral (DotDims.plain M K N) none
          (select (cmpf (F := Ideal) .oge (addf (F := Ideal) (addf (F := Ideal) A B) C)
              (broadcastInDim (⟨2, ![M, K]⟩ : Shape) d0 h0 (constant (F := Ideal) (⟨0, ![]⟩ : Shape) .f32 0x00000000#32)))
            (addf (F := Ideal) (addf (F := Ideal) A B) C)
            (mulf (F := Ideal) (broadcastInDim (⟨2, ![M, K]⟩ : Shape) d0 h0 (constant (F := Ideal) (⟨0, ![]⟩ : Shape) .f32 0x3C23D70A#32))
              (addf (F := Ideal) (addf (F := Ideal) A B) C))) W)
        (broadcastInDim (⟨2, ![M, N]⟩ : Shape) d2 h2 (broadcastInDim (⟨2, ![1, N]⟩ : Shape) d1 h1 b))
      = triOut A B C W (shapeCast (⟨2, ![1, N]⟩ : Shape) b hc) := by
  rw [host_leaky, host_linPlain _ W b d1 hd1 h1 d2 hd2 h2 hc]
  rfl

end Cert.HostLayers

end
-- ==== Proof.RefStages0.lean ====
/-
  The stages of relation 0 of the reference program and of its stem, one lemma each: after the whole program, from any contents,
  the buffer a stage writes holds the stage's term of what the buffers it reads hold.
-/
import proofs.«116214_j36043365548318_1_alg».proof.Proof.RefAsc
import proofs.«116214_j36043365548318_1_alg».proof.Proof.Stages
import proofs.«116214_j36043365548318_1_alg».proof.Proof.LibHostForms

noncomputable section

namespace Cert.ReferenceIdeal.RefValue

open Cert.ReferenceIdeal Cert.ReferenceIdeal.Gen Cert.ReferenceIdeal.RefRun Cert.ReferenceIdeal.Stages Idealize.ShloMosaic Idealize.ShloMosaic.TcCoe
  Idealize.SL.Sem Cert.Rows Cert.Gcn Cert.Layers Cert.HostLayers

set_option maxRecDepth 65536 in
set_option maxHeartbeats 4000000 in
/-- The first stem layer. -/
theorem e_v4 (V : Valuation τ sig (Elt Ideal)) :
    StableHlo.after (ops (F := Ideal)) V (Proc.devRef .tc main_v4)
      = linLeaky (StableHlo.after (ops (F := Ideal)) V (Proc.devRef .tc main_arg0)) (StableHlo.after (ops (F := Ideal)) V (Proc.devRef .tc main_arg19)) (row (StableHlo.after (ops (F := Ideal)) V (Proc.devRef .tc main_arg20))) := by
  rw [StableHlo.stage_read ops 35 0 11 ops_asc V main_v4 (by decide),
    StableHlo.after_cut ops 35 0 ops_asc V main_arg0 (by decide),
    StableHlo.after_cut ops 35 0 ops_asc V main_arg19 (by decide),
    StableHlo.after_cut ops 35 0 ops_asc V main_arg20 (by decide)]
  generalize StableHlo.after (List.take 0 ops) V = W
  simp only [ops, ops0, ops1, ops2, ops3, ops4, ops5, List.cons_append, List.nil_append, List.drop_succ_cons, List.drop_zero, List.take_succ_cons, List.take_zero]
  after_results_simp
  simp only [StableHlo.TRef.ofBuf, StableHlo.TRef.toBuf, cast_eq]
  exact host_linLeaky (M := 100000) (K := 256) (N := 256) _ _ _ ![1] rfl _ ![0, 1] (by decide) _ _ ![] _

set_option maxRecDepth 65536 in
set_option maxHeartbeats 4000000 in
/-- The second stem layer. -/
theorem e_v9 (V : Valuation τ sig (Elt Ideal)) :
    StableHlo.after (ops (F := Ideal)) V (Proc.devRef .tc main_v9)
      = linLeaky (StableHlo.after (ops (F := Ideal)) V (Proc.devRef .tc main_v4)) (StableHlo.after (ops (F := Ideal)) V (Proc.devRef .tc main_arg21)) (row (StableHlo.after (ops (F := Ideal)) V (Proc.devRef .tc main_arg22))) := by
  rw [StableHlo.stage_read ops 35 11 11 ops_asc V main_v9 (by decide),
    StableHlo.after_cut ops 35 11 ops_asc V main_v4 (by decide),
    StableHlo.after_cut ops 35 11 ops_asc V main_arg21 (by decide),
    StableHlo.after_cut ops 35 11 ops_asc V main_arg22 (by decide)]
  generalize StableHlo.after (List.take 11 ops) V = W
  simp only [ops, ops0, ops1, ops2, ops3, ops4, ops5, List.cons_append, List.nil_append, List.drop_succ_cons, List.drop_zero, List.take_succ_cons, List.take_zero]
  after_results_simp
  simp only [StableHlo.TRef.ofBuf, StableHlo.TRef.toBuf, cast_eq]
  exact host_linLeaky (M := 100000) (K := 256) (N := 256) _ _ _ ![1] rfl _ ![0, 1] (by decide) _ _ ![] _

set_option maxRecDepth 65536 in
set_option maxHeartbeats 4000000 in
/-- The kept nodes' rows of the features entering relation 0. -/
theorem e_v16 (V : Valuation τ sig (Elt Ideal)) :
    StableHlo.after (ops (F := Ideal)) V (Proc.devRef .tc main_v16)
      = kept0 (StableHlo.after (ops (F := Ideal)) V (Proc.devRef .tc main_v9)) (StableHlo.after (ops (F := Ideal)) V (Proc.devRef .tc main_arg1)) := by
  rw [StableHlo.stage_read ops 35 22 9 ops_asc V main_v16 (by decide),
    StableHlo.after_cut ops 35 22 ops_asc V main_v9 (by decide),
    StableHlo.after_cut ops 35 22 ops_asc V main_arg1 (by decide)]
  generalize StableHlo.after (List.take 22 ops) V = W
  simp only [ops, ops0, ops1, ops2, ops3, ops4, ops5, List.cons_append, List.nil_append, List.drop_succ_cons, List.drop_zero, List.take_succ_cons, List.take_zero]
  after_results_simp
  rfl

set_option maxRecDepth 65536 in
set_option maxHeartbeats 4000000 in
/-- The second Chebyshev term of the kept nodes' features. -/
theorem e_v40 (V : Valuation τ sig (Elt Ideal)) :
    StableHlo.after (ops (F := Ideal)) V (Proc.devRef .tc main_v40)
      = cheb0 (StableHlo.after (ops (F := Ideal)) V (Proc.devRef .tc main_v16)) (StableHlo.after (ops (F := Ideal)) V (Proc.devRef .tc main_arg3)) (StableHlo.after (ops (F := Ideal)) V (Proc.devRef .tc main_arg4)) (StableHlo.after (ops (F := Ideal)) V (Proc.devRef .tc main_arg5)) (StableHlo.after (ops (F := Ideal)) V (Proc.devRef .tc main_arg6)) := by
  rw [StableHlo.stage_read ops 35 31 29 ops_asc V main_v40 (by decide),
    StableHlo.after_cut ops 35 31 ops_asc V main_v16 (by decide),
    StableHlo.after_cut ops 35 31 ops_asc V main_arg3 (by decide),
    StableHlo.after_cut ops 35 31 ops_asc V main_arg4 (by decide),
    StableHlo.after_cut ops 35 31 ops_asc V main_arg5 (by decide),
    StableHlo.after_cut ops 35 31 ops_asc V main_arg6 (by decide)]
  generalize StableHlo.after (List.take 31 ops) V = W
  simp only [ops, ops0, ops1, ops2, ops3, ops4, ops5, List.cons_append, List.nil_append, List.drop_succ_cons, List.drop_zero, List.take_succ_cons, List.take_zero]
  after_results_simp
  rfl

set_option maxRecDepth 65536 in
set_option maxHeartbeats 4000000 in
/-- The first graph-convolution layer. -/
theorem e_v46 (V : Valuation τ sig (Elt Ideal)) :
    StableHlo.after (ops (F := Ideal)) V (Proc.devRef .tc main_v46)
      = dualRelu (StableHlo.after (ops (F := Ideal)) V (Proc.devRef .tc main_v16)) (StableHlo.after (ops (F := Ideal)) V (Proc.devRef .tc main_v40)) (top (StableHlo.after (ops (F := Ideal)) V (Proc.devRef .tc main_arg27))) (bot (StableHlo.after (ops (F := Ideal)) V (Proc.devRef .tc main_arg27))) (row (StableHlo.after (ops (F := Ideal)) V (Proc.devRef .tc main_arg28))) := by
  rw [StableHlo.stage_read ops 35 60 8 ops_asc V main_v46 (by decide),
    StableHlo.after_cut ops 35 60 ops_asc V main_v16 (by decide),
    StableHlo.after_cut ops 35 60 ops_asc V main_v40 (by decide),
    StableHlo.after_cut ops 35 60 ops_asc V main_arg27 (by decide),
    StableHlo.after_cut ops 35 60 ops_asc V main_arg28 (by decide)]
  generalize StableHlo.after (List.take 60 ops) V = W
  simp only [ops, ops0, ops1, ops2, ops3, ops4, ops5, List.cons_append, List.nil_append, List.drop_succ_cons, List.drop_zero, List.take_succ_cons, List.take_zero]
  after_results_simp
  simp only [StableHlo.TRef.ofBuf, StableHlo.TRef.toBuf, cast_eq]
  exact host_dualRelu (M := 69785) (K1 := 256) (K2 := 256) (N := 256) _ _ _ _ _ ![1] rfl _ ![0, 1] (by decide) _ _ ![] _

set_option maxRecDepth 65536 in
set_option maxHeartbeats 4000000 in
/-- The second Chebyshev term of the first layer's result. -/
theorem e_v70 (V : Valuation τ sig (Elt Ideal)) :
    StableHlo.after (ops (F := Ideal)) V (Proc.devRef .tc main_v70)
      = cheb0 (StableHlo.after (ops (F := Ideal)) V (Proc.devRef .tc main_v46)) (StableHlo.after (ops (F := Ideal)) V (Proc.devRef .tc main_arg3)) (StableHlo.after (ops (F := Ideal)) V (Proc.devRef .tc main_arg4)) (StableHlo.after (ops (F := Ideal)) V (Proc.devRef .tc main_arg5)) (StableHlo.after (ops (F := Ideal)) V (Proc.devRef .tc main_arg6)) := by
  rw [StableHlo.stage_read ops 35 68 29 ops_asc V main_v70 (by decide),
    StableHlo.after_cut ops 35 68 ops_asc V main_v46 (by decide),
    StableHlo.after_cut ops 35 68 ops_asc V main_arg3 (by decide),
    StableHlo.after_cut ops 35 68 ops_asc V main_arg4 (by decide),
    StableHlo.after_cut ops 35 68 ops_asc V main_arg5 (by decide),
    StableHlo.after_cut ops 35 68 ops_asc V main_arg6 (by decide)]
  generalize StableHlo.after (List.take 68 ops) V = W
  simp only [ops, ops0, ops1, ops2, ops3, ops4, ops5, List.cons_append, List.nil_append, List.drop_succ_cons, List.drop_zero, List.take_succ_cons, List.take_zero]
  after_results_simp
  rfl

set_option maxRecDepth 65536 in
set_option maxHeartbeats 4000000 in
/-- The second graph-convolution layer. -/
theorem e_v76 (V : Valuation τ sig (Elt Ideal)) :
    StableHlo.after (ops (F := Ideal)) V (Proc.devRef .tc main_v76)
      = dualRelu (StableHlo.after (ops (F := Ideal)) V (Proc.devRef .tc main_v46)) (StableHlo.after (ops (F := Ideal)) V (Proc.devRef .tc main_v70)) (top (StableHlo.after (ops (F := Ideal)) V (Proc.devRef .tc main_arg29))) (bot (StableHlo.after (ops (F := Ideal)) V (Proc.devRef .tc main_arg29))) (row (StableHlo.after (ops (F := Ideal)) V (Proc.devRef .tc main_arg30))) := by
  rw [StableHlo.stage_read ops 35 97 8 ops_asc V main_v76 (by decide),
    StableHlo.after_cut ops 35 97 ops_asc V main_v46 (by decide),
    StableHlo.after_cut ops 35 97 ops_asc V main_v70 (by decide),
    StableHlo.after_cut ops 35 97 ops_asc V main_arg29 (by decide),
    StableHlo.after_cut ops 35 97 ops_asc V main_arg30 (by decide)]
  generalize StableHlo.after (List.take 97 ops) V = W
  simp only [ops, ops0, ops1, ops2, ops3, ops4, ops5, List.cons_append, List.nil_append, List.drop_succ_cons, List.drop_zero, List.take_succ_cons, List.take_zero]
  after_results_simp
  simp only [StableHlo.TRef.ofBuf, StableHlo.TRef.toBuf, cast_eq]
  exact host_dualRelu (M := 69785) (K1 := 256) (K2 := 256) (N := 256) _ _ _ _ _ ![1] rfl _ ![0, 1] (by decide) _ _ ![] _

set_option maxRecDepth 65536 in
set_option maxHeartbeats 4000000 in
/-- The isolated nodes' rows of the features entering relation 0. -/
theorem e_v83 (V : Valuation τ sig (Elt Ideal)) :
    StableHlo.after (ops (F := Ideal)) V (Proc.devRef .tc main_v83)
      = isol0 (StableHlo.after (ops (F := Ideal)) V (Proc.devRef .tc main_v9)) (StableHlo.after (ops (F := Ideal)) V (Proc.devRef .tc main_arg2)) := by
  rw [StableHlo.stage_read ops 35 105 9 ops_asc V main_v83 (by decide),
    StableHlo.after_cut ops 35 105 ops_asc V main_v9 (by decide),
    StableHlo.after_cut ops 35 105 ops_asc V main_arg2 (by decide)]
  generalize StableHlo.after (List.take 105 ops) V = W
  simp only [ops, ops0, ops1, ops2, ops3, ops4, ops5, List.cons_append, List.nil_append, List.drop_succ_cons, List.drop_zero, List.take_succ_cons, List.take_zero]
  after_results_simp
  rfl

set_option maxRecDepth 65536 in
set_option maxHeartbeats 4000000 in
/-- The first plain layer on the isolated nodes. -/
theorem e_v87 (V : Valuation τ sig (Elt Ideal)) :
    StableHlo.after (ops (F := Ideal)) V (Proc.devRef .tc main_v87)
      = linPlain (StableHlo.after (ops (F := Ideal)) V (Proc.devRef .tc main_v83)) (StableHlo.after (ops (F := Ideal)) V (Proc.devRef .tc main_arg23)) (row (StableHlo.after (ops (F := Ideal)) V (Proc.devRef .tc main_arg24))) := by
  rw [StableHlo.stage_read ops 35 114 4 ops_asc V main_v87 (by decide),
    StableHlo.after_cut ops 35 114 ops_asc V main_v83 (by decide),
    StableHlo.after_cut ops 35 114 ops_asc V main_arg23 (by decide),
    StableHlo.after_cut ops 35 114 ops_asc V main_arg24 (by decide)]
  generalize StableHlo.after (List.take 114 ops) V = W
  simp only [ops, ops0, ops1, ops2, ops3, ops4, ops5, List.cons_append, List.nil_append, List.drop_succ_cons, List.drop_zero, List.take_succ_cons, List.take_zero]
  after_results_simp
  exact host_linPlain (M := 30215) (K := 256) (N := 256) _ _ _ ![1] rfl _ ![0, 1] (by decide) _ _

set_option maxRecDepth 65536 in
set_option maxHeartbeats 4000000 in
/-- The second plain layer on the isolated nodes. -/
theorem e_v91 (V : Valuation τ sig (Elt Ideal)) :
    StableHlo.after (ops (F := Ideal)) V (Proc.devRef .tc main_v91)
      = linPlain (StableHlo.after (ops (F := Ideal)) V (Proc.devRef .tc main_v87)) (StableHlo.after (ops (F := Ideal)) V (Proc.devRef .tc main_arg25)) (row (StableHlo.after (ops (F := Ideal)) V (Proc.devRef .tc main_arg26))) := by
  rw [StableHlo.stage_read ops 35 118 4 ops_asc V main_v91 (by decide),
    StableHlo.after_cut ops 35 118 ops_asc V main_v87 (by decide),
    StableHlo.after_cut ops 35 118 ops_asc V main_arg25 (by decide),
    StableHlo.after_cut ops 35 118 ops_asc V main_arg26 (by decide)]
  generalize StableHlo.after (List.take 118 ops) V = W
  simp only [ops, ops0, ops1, ops2, ops3, ops4, ops5, List.cons_append, List.nil_append, List.drop_succ_cons, List.drop_zero, List.take_succ_cons, List.take_zero]
  after_results_simp
  exact host_linPlain (M := 30215) (K := 256) (N := 256) _ _ _ ![1] rfl _ ![0, 1] (by decide) _ _

set_option maxRecDepth 65536 in
set_option maxHeartbeats 4000000 in
/-- The kept nodes' two features side by side. -/
theorem e_v92 (V : Valuation τ sig (Elt Ideal)) :
    StableHlo.after (ops (F := Ideal)) V (Proc.devRef .tc main_v92)
      = concatenate S69785x512 1 [⟨S69785x256, StableHlo.after (ops (F := Ideal)) V (Proc.devRef .tc main_v46)⟩, ⟨S69785x256, StableHlo.after (ops (F := Ideal)) V (Proc.devRef .tc main_v76)⟩]
          concatenates_S69785x256_S69785x256_S69785x512_d1 := by
  rw [StableHlo.stage_read ops 35 122 1 ops_asc V main_v92 (by decide),
    StableHlo.after_cut ops 35 122 ops_asc V main_v46 (by decide),
    StableHlo.after_cut ops 35 122 ops_asc V main_v76 (by decide)]
  generalize StableHlo.after (List.take 122 ops) V = W
  simp only [ops, ops0, ops1, ops2, ops3, ops4, ops5, List.cons_append, List.nil_append, List.drop_succ_cons, List.drop_zero, List.take_succ_cons, List.take_zero]
  after_results_simp

set_option maxRecDepth 65536 in
set_option maxHeartbeats 4000000 in
/-- The isolated nodes' two features side by side. -/
theorem e_v93 (V : Valuation τ sig (Elt Ideal)) :
    StableHlo.after (ops (F := Ideal)) V (Proc.devRef .tc main_v93)
      = concatenate S30215x512 1 [⟨S30215x256, StableHlo.after (ops (F := Ideal)) V (Proc.devRef .tc main_v87)⟩, ⟨S30215x256, StableHlo.after (ops (F := Ideal)) V (Proc.devRef .tc main_v91)⟩]
          concatenates_S30215x256_S30215x256_S30215x512_d1 := by
  rw [StableHlo.stage_read ops 35 123 1 ops_asc V main_v93 (by decide),
    StableHlo.after_cut ops 35 123 ops_asc V main_v87 (by decide),
    StableHlo.after_cut ops 35 123 ops_asc V main_v91 (by decide)]
  generalize StableHlo.after (List.take 123 ops) V = W
  simp only [ops, ops0, ops1, ops2, ops3, ops4, ops5, List.cons_append, List.nil_append, List.drop_succ_cons, List.drop_zero, List.take_succ_cons, List.take_zero]
  after_results_simp

set_option maxRecDepth 65536 in
set_option maxHeartbeats 4000000 in
/-- The kept nodes' rows above the isolated nodes' rows. -/
theorem e_v94 (V : Valuation τ sig (Elt Ideal)) :
    StableHlo.after (ops (F := Ideal)) V (Proc.devRef .tc main_v94)
      = concatenate S100000x512 0 [⟨S69785x512, StableHlo.after (ops (F := Ideal)) V (Proc.devRef .tc main_v92)⟩, ⟨S30215x512, StableHlo.after (ops (F := Ideal)) V (Proc.devRef .tc main_v93)⟩]
          concatenates_S69785x512_S30215x512_S100000x512_d0 := by
  rw [StableHlo.stage_read ops 35 124 1 ops_asc V main_v94 (by decide),
    StableHlo.after_cut ops 35 124 ops_asc V main_v92 (by decide),
    StableHlo.after_cut ops 35 124 ops_asc V main_v93 (by decide)]
  generalize StableHlo.after (List.take 124 ops) V = W
  simp only [ops, ops0, ops1, ops2, ops3, ops4, ops5, List.cons_append, List.nil_append, List.drop_succ_cons, List.drop_zero, List.take_succ_cons, List.take_zero]
  after_results_simp

set_option maxRecDepth 65536 in
set_option maxHeartbeats 4000000 in
/-- The combining layer, as one product. -/
theorem e_v98 (V : Valuation τ sig (Elt Ideal)) :
    StableHlo.after (ops (F := Ideal)) V (Proc.devRef .tc main_v98)
      = linPlain (StableHlo.after (ops (F := Ideal)) V (Proc.devRef .tc main_v94)) (StableHlo.after (ops (F := Ideal)) V (Proc.devRef .tc main_arg31)) (row (StableHlo.after (ops (F := Ideal)) V (Proc.devRef .tc main_arg32))) := by
  rw [StableHlo.stage_read ops 35 125 4 ops_asc V main_v98 (by decide),
    StableHlo.after_cut ops 35 125 ops_asc V main_v94 (by decide),
    StableHlo.after_cut ops 35 125 ops_asc V main_arg31 (by decide),
    StableHlo.after_cut ops 35 125 ops_asc V main_arg32 (by decide)]
  generalize StableHlo.after (List.take 125 ops) V = W
  simp only [ops, ops0, ops1, ops2, ops3, ops4, ops5, List.cons_append, List.nil_append, List.drop_succ_cons, List.drop_zero, List.take_succ_cons, List.take_zero]
  after_results_simp
  exact host_linPlain (M := 100000) (K := 512) (N := 256) _ _ _ ![1] rfl _ ![0, 1] (by decide) _ _

end Cert.ReferenceIdeal.RefValue

end
-- ==== Proof.RefStages1.lean ====
/-
  The stages of relation 1 of the reference program, one lemma each: after the whole program, from any contents,
  the buffer a stage writes holds the stage's term of what the buffers it reads hold.
-/
import proofs.«116214_j36043365548318_1_alg».proof.Proof.RefAsc
import proofs.«116214_j36043365548318_1_alg».proof.Proof.Stages
import proofs.«116214_j36043365548318_1_alg».proof.Proof.LibHostForms

noncomputable section

namespace Cert.ReferenceIdeal.RefValue

open Cert.ReferenceIdeal Cert.ReferenceIdeal.Gen Cert.ReferenceIdeal.RefRun Cert.ReferenceIdeal.Stages Idealize.ShloMosaic Idealize.ShloMosaic.TcCoe
  Idealize.SL.Sem Cert.Rows Cert.Gcn Cert.Layers Cert.HostLayers

set_option maxRecDepth 65536 in
set_option maxHeartbeats 4000000 in
/-- The kept nodes' rows of the features entering relation 1. -/
theorem e_v105 (V : Valuation τ sig (Elt Ideal)) :
    StableHlo.after (ops (F := Ideal)) V (Proc.devRef .tc main_v105)
      = kept1 (StableHlo.after (ops (F := Ideal)) V (Proc.devRef .tc main_v98)) (StableHlo.after (ops (F := Ideal)) V (Proc.devRef .tc main_arg7)) := by
  rw [StableHlo.stage_read ops 35 129 9 ops_asc V main_v105 (by decide),
    StableHlo.after_cut ops 35 129 ops_asc V main_v98 (by decide),
    StableHlo.after_cut ops 35 129 ops_asc V main_arg7 (by decide)]
  generalize StableHlo.after (List.take 129 ops) V = W
  simp only [ops, ops0, ops1, ops2, ops3, ops4, ops5, List.cons_append, List.nil_append, List.drop_succ_cons, List.drop_zero, List.take_succ_cons, List.take_zero]
  after_results_simp
  rfl

set_option maxRecDepth 65536 in
set_option maxHeartbeats 4000000 in
/-- The second Chebyshev term of the kept nodes' features. -/
theorem e_v129 (V : Valuation τ sig (Elt Ideal)) :
    StableHlo.after (ops (F := Ideal)) V (Proc.devRef .tc main_v129)
      = cheb1 (StableHlo.after (ops (F := Ideal)) V (Proc.devRef .tc main_v105)) (StableHlo.after (ops (F := Ideal)) V (Proc.devRef .tc main_arg9)) (StableHlo.after (ops (F := Ideal)) V (Proc.devRef .tc main_arg10)) (StableHlo.after (ops (F := Ideal)) V (Proc.devRef .tc main_arg11)) (StableHlo.after (ops (F := Ideal)) V (Proc.devRef .tc main_arg12)) := by
  rw [StableHlo.stage_read ops 35 138 29 ops_asc V main_v129 (by decide),
    StableHlo.after_cut ops 35 138 ops_asc V main_v105 (by decide),
    StableHlo.after_cut ops 35 138 ops_asc V main_arg9 (by decide),
    StableHlo.after_cut ops 35 138 ops_asc V main_arg10 (by decide),
    StableHlo.after_cut ops 35 138 ops_asc V main_arg11 (by decide),
    StableHlo.after_cut ops 35 138 ops_asc V main_arg12 (by decide)]
  generalize StableHlo.after (List.take 138 ops) V = W
  simp only [ops, ops0, ops1, ops2, ops3, ops4, ops5, List.cons_append, List.nil_append, List.drop_succ_cons, List.drop_zero, List.take_succ_cons, List.take_zero]
  after_results_simp
  rfl

set_option maxRecDepth 65536 in
set_option maxHeartbeats 4000000 in
/-- The first graph-convolution layer. -/
theorem e_v135 (V : Valuation τ sig (Elt Ideal)) :
    StableHlo.after (ops (F := Ideal)) V (Proc.devRef .tc main_v135)
      = dualRelu (StableHlo.after (ops (F := Ideal)) V (Proc.devRef .tc main_v105)) (StableHlo.after (ops (F := Ideal)) V (Proc.devRef .tc main_v129)) (top (StableHlo.after (ops (F := Ideal)) V (Proc.devRef .tc main_arg27))) (bot (StableHlo.after (ops (F := Ideal)) V (Proc.devRef .tc main_arg27))) (row (StableHlo.after (ops (F := Ideal)) V (Proc.devRef .tc main_arg28))) := by
  rw [StableHlo.stage_read ops 35 167 8 ops_asc V main_v135 (by decide),
    StableHlo.after_cut ops 35 167 ops_asc V main_v105 (by decide),
    StableHlo.after_cut ops 35 167 ops_asc V main_v129 (by decide),
    StableHlo.after_cut ops 35 167 ops_asc V main_arg27 (by decide),
    StableHlo.after_cut ops 35 167 ops_asc V main_arg28 (by decide)]
  generalize StableHlo.after (List.take 167 ops) V = W
  simp only [ops, ops0, ops1, ops2, ops3, ops4, ops5, List.cons_append, List.nil_append, List.drop_succ_cons, List.drop_zero, List.take_succ_cons, List.take_zero]
  after_results_simp
  simp only [StableHlo.TRef.ofBuf, StableHlo.TRef.toBuf, cast_eq]
  exact host_dualRelu (M := 79460) (K1 := 256) (K2 := 256) (N := 256) _ _ _ _ _ ![1] rfl _ ![0, 1] (by decide) _ _ ![] _

set_option maxRecDepth 65536 in
set_option maxHeartbeats 4000000 in
/-- The second Chebyshev term of the first layer's result. -/
theorem e_v159 (V : Valuation τ sig (Elt Ideal)) :
    StableHlo.after (ops (F := Ideal)) V (Proc.devRef .tc main_v159)
      = cheb1 (StableHlo.after (ops (F := Ideal)) V (Proc.devRef .tc main_v135)) (StableHlo.after (ops (F := Ideal)) V (Proc.devRef .tc main_arg9)) (StableHlo.after (ops (F := Ideal)) V (Proc.devRef .tc main_arg10)) (StableHlo.after (ops (F := Ideal)) V (Proc.devRef .tc main_arg11)) (StableHlo.after (ops (F := Ideal)) V (Proc.devRef .tc main_arg12)) := by
  rw [StableHlo.stage_read ops 35 175 29 ops_asc V main_v159 (by decide),
    StableHlo.after_cut ops 35 175 ops_asc V main_v135 (by decide),
    StableHlo.after_cut ops 35 175 ops_asc V main_arg9 (by decide),
    StableHlo.after_cut ops 35 175 ops_asc V main_arg10 (by decide),
    StableHlo.after_cut ops 35 175 ops_asc V main_arg11 (by decide),
    StableHlo.after_cut ops 35 175 ops_asc V main_arg12 (by decide)]
  generalize StableHlo.after (List.take 175 ops) V = W
  simp only [ops, ops0, ops1, ops2, ops3, ops4, ops5, List.cons_append, List.nil_append, List.drop_succ_cons, List.drop_zero, List.take_succ_cons, List.take_zero]
  after_results_simp
  rfl

set_option maxRecDepth 65536 in
set_option maxHeartbeats 4000000 in
/-- The second graph-convolution layer. -/
theorem e_v165 (V : Valuation τ sig (Elt Ideal)) :
    StableHlo.after (ops (F := Ideal)) V (Proc.devRef .tc main_v165)
      = dualRelu (StableHlo.after (ops (F := Ideal)) V (Proc.devRef .tc main_v135)) (StableHlo.after (ops (F := Ideal)) V (Proc.devRef .tc main_v159)) (top (StableHlo.after (ops (F := Ideal)) V (Proc.devRef .tc main_arg29))) (bot (StableHlo.after (ops (F := Ideal)) V (Proc.devRef .tc main_arg29))) (row (StableHlo.after (ops (F := Ideal)) V (Proc.devRef .tc main_arg30))) := by
  rw [StableHlo.stage_read ops 35 204 8 ops_asc V main_v165 (by decide),
    StableHlo.after_cut ops 35 204 ops_asc V main_v135 (by decide),
    StableHlo.after_cut ops 35 204 ops_asc V main_v159 (by decide),
    StableHlo.after_cut ops 35 204 ops_asc V main_arg29 (by decide),
    StableHlo.after_cut ops 35 204 ops_asc V main_arg30 (by decide)]
  generalize StableHlo.after (List.take 204 ops) V = W
  simp only [ops, ops0, ops1, ops2, ops3, ops4, ops5, List.cons_append, List.nil_append, List.drop_succ_cons, List.drop_zero, List.take_succ_cons, List.take_zero]
  after_results_simp
  simp only [StableHlo.TRef.ofBuf, StableHlo.TRef.toBuf, cast_eq]
  exact host_dualRelu (M := 79460) (K1 := 256) (K2 := 256) (N := 256) _ _ _ _ _ ![1] rfl _ ![0, 1] (by decide) _ _ ![] _

set_option maxRecDepth 65536 in
set_option maxHeartbeats 4000000 in
/-- The isolated nodes' rows of the features entering relation 1. -/
theorem e_v172 (V : Valuation τ sig (Elt Ideal)) :
    StableHlo.after (ops (F := Ideal)) V (Proc.devRef .tc main_v172)
      = isol1 (StableHlo.after (ops (F := Ideal)) V (Proc.devRef .tc main_v98)) (StableHlo.after (ops (F := Ideal)) V (Proc.devRef .tc main_arg8)) := by
  rw [StableHlo.stage_read ops 35 212 9 ops_asc V main_v172 (by decide),
    StableHlo.after_cut ops 35 212 ops_asc V main_v98 (by decide),
    StableHlo.after_cut ops 35 212 ops_asc V main_arg8 (by decide)]
  generalize StableHlo.after (List.take 212 ops) V = W
  simp only [ops, ops0, ops1, ops2, ops3, ops4, ops5, List.cons_append, List.nil_append, List.drop_succ_cons, List.drop_zero, List.take_succ_cons, List.take_zero]
  after_results_simp
  rfl

set_option maxRecDepth 65536 in
set_option maxHeartbeats 4000000 in
/-- The first plain layer on the isolated nodes. -/
theorem e_v176 (V : Valuation τ sig (Elt Ideal)) :
    StableHlo.after (ops (F := Ideal)) V (Proc.devRef .tc main_v176)
      = linPlain (StableHlo.after (ops (F := Ideal)) V (Proc.devRef .tc main_v172)) (StableHlo.after (ops (F := Ideal)) V (Proc.devRef .tc main_arg23)) (row (StableHlo.after (ops (F := Ideal)) V (Proc.devRef .tc main_arg24))) := by
  rw [StableHlo.stage_read ops 35 221 4 ops_asc V main_v176 (by decide),
    StableHlo.after_cut ops 35 221 ops_asc V main_v172 (by decide),
    StableHlo.after_cut ops 35 221 ops_asc V main_arg23 (by decide),
    StableHlo.after_cut ops 35 221 ops_asc V main_arg24 (by decide)]
  generalize StableHlo.after (List.take 221 ops) V = W
  simp only [ops, ops0, ops1, ops2, ops3, ops4, ops5, List.cons_append, List.nil_append, List.drop_succ_cons, List.drop_zero, List.take_succ_cons, List.take_zero]
  after_results_simp
  exact host_linPlain (M := 20540) (K := 256) (N := 256) _ _ _ ![1] rfl _ ![0, 1] (by decide) _ _

set_option maxRecDepth 65536 in
set_option maxHeartbeats 4000000 in
/-- The second plain layer on the isolated nodes. -/
theorem e_v180 (V : Valuation τ sig (Elt Ideal)) :
    StableHlo.after (ops (F := Ideal)) V (Proc.devRef .tc main_v180)
      = linPlain (StableHlo.after (ops (F := Ideal)) V (Proc.devRef .tc main_v176)) (StableHlo.after (ops (F := Ideal)) V (Proc.devRef .tc main_arg25)) (row (StableHlo.after (ops (F := Ideal)) V (Proc.devRef .tc main_arg26))) := by
  rw [StableHlo.stage_read ops 35 225 4 ops_asc V main_v180 (by decide),
    StableHlo.after_cut ops 35 225 ops_asc V main_v176 (by decide),
    StableHlo.after_cut ops 35 225 ops_asc V main_arg25 (by decide),
    StableHlo.after_cut ops 35 225 ops_asc V main_arg26 (by decide)]
  generalize StableHlo.after (List.take 225 ops) V = W
  simp only [ops, ops0, ops1, ops2, ops3, ops4, ops5, List.cons_append, List.nil_append, List.drop_succ_cons, List.drop_zero, List.take_succ_cons, List.take_zero]
  after_results_simp
  exact host_linPlain (M := 20540) (K := 256) (N := 256) _ _ _ ![1] rfl _ ![0, 1] (by decide) _ _

set_option maxRecDepth 65536 in
set_option maxHeartbeats 4000000 in
/-- The kept nodes' two features side by side. -/
theorem e_v181 (V : Valuation τ sig (Elt Ideal)) :
    StableHlo.after (ops (F := Ideal)) V (Proc.devRef .tc main_v181)
      = concatenate S79460x512 1 [⟨S79460x256, StableHlo.after (ops (F := Ideal)) V (Proc.devRef .tc main_v135)⟩, ⟨S79460x256, StableHlo.after (ops (F := Ideal)) V (Proc.devRef .tc main_v165)⟩]
          concatenates_S79460x256_S79460x256_S79460x512_d1 := by
  rw [StableHlo.stage_read ops 35 229 1 ops_asc V main_v181 (by decide),
    StableHlo.after_cut ops 35 229 ops_asc V main_v135 (by decide),
    StableHlo.after_cut ops 35 229 ops_asc V main_v165 (by decide)]
  generalize StableHlo.after (List.take 229 ops) V = W
  simp only [ops, ops0, ops1, ops2, ops3, ops4, ops5, List.cons_append, List.nil_append, List.drop_succ_cons, List.drop_zero, List.take_succ_cons, List.take_zero]
  after_results_simp

set_option maxRecDepth 65536 in
set_option maxHeartbeats 4000000 in
/-- The isolated nodes' two features side by side. -/
theorem e_v182 (V : Valuation τ sig (Elt Ideal)) :
    StableHlo.after (ops (F := Ideal)) V (Proc.devRef .tc main_v182)
      = concatenate S20540x512 1 [⟨S20540x256, StableHlo.after (ops (F := Ideal)) V (Proc.devRef .tc main_v176)⟩, ⟨S20540x256, StableHlo.after (ops (F := Ideal)) V (Proc.devRef .tc main_v180)⟩]
          concatenates_S20540x256_S20540x256_S20540x512_d1 := by
  rw [StableHlo.stage_read ops 35 230 1 ops_asc V main_v182 (by decide),
    StableHlo.after_cut ops 35 230 ops_asc V main_v176 (by decide),
    StableHlo.after_cut ops 35 230 ops_asc V main_v180 (by decide)]
  generalize StableHlo.after (List.take 230 ops) V = W
  simp only [ops, ops0, ops1, ops2, ops3, ops4, ops5, List.cons_append, List.nil_append, List.drop_succ_cons, List.drop_zero, List.take_succ_cons, List.take_zero]
  after_results_simp

set_option maxRecDepth 65536 in
set_option maxHeartbeats 4000000 in
/-- The kept nodes' rows above the isolated nodes' rows. -/
theorem e_v183 (V : Valuation τ sig (Elt Ideal)) :
    StableHlo.after (ops (F := Ideal)) V (Proc.devRef .tc main_v183)
      = concatenate S100000x512 0 [⟨S79460x512, StableHlo.after (ops (F := Ideal)) V (Proc.devRef .tc main_v181)⟩, ⟨S20540x512, StableHlo.after (ops (F := Ideal)) V (Proc.devRef .tc main_v182)⟩]
          concatenates_S79460x512_S20540x512_S100000x512_d0 := by
  rw [StableHlo.stage_read ops 35 231 1 ops_asc V main_v183 (by decide),
    StableHlo.after_cut ops 35 231 ops_asc V main_v181 (by decide),
    StableHlo.after_cut ops 35 231 ops_asc V main_v182 (by decide)]
  generalize StableHlo.after (List.take 231 ops) V = W
  simp only [ops, ops0, ops1, ops2, ops3, ops4, ops5, List.cons_append, List.nil_append, List.drop_succ_cons, List.drop_zero, List.take_succ_cons, List.take_zero]
  after_results_simp

set_option maxRecDepth 65536 in
set_option maxHeartbeats 4000000 in
/-- The combining layer, as one product. -/
theorem e_v187 (V : Valuation τ sig (Elt Ideal)) :
    StableHlo.after (ops (F := Ideal)) V (Proc.devRef .tc main_v187)
      = linPlain (StableHlo.after (ops (F := Ideal)) V (Proc.devRef .tc main_v183)) (StableHlo.after (ops (F := Ideal)) V (Proc.devRef .tc main_arg31)) (row (StableHlo.after (ops (F := Ideal)) V (Proc.devRef .tc main_arg32))) := by
  rw [StableHlo.stage_read ops 35 232 4 ops_asc V main_v187 (by decide),
    StableHlo.after_cut ops 35 232 ops_asc V main_v183 (by decide),
    StableHlo.after_cut ops 35 232 ops_asc V main_arg31 (by decide),
    StableHlo.after_cut ops 35 232 ops_asc V main_arg32 (by decide)]
  generalize StableHlo.after (List.take 232 ops) V = W
  simp only [ops, ops0, ops1, ops2, ops3, ops4, ops5, List.cons_append, List.nil_append, List.drop_succ_cons, List.drop_zero, List.take_succ_cons, List.take_zero]
  after_results_simp
  exact host_linPlain (M := 100000) (K := 512) (N := 256) _ _ _ ![1] rfl _ ![0, 1] (by decide) _ _

end Cert.ReferenceIdeal.RefValue

end
-- ==== Proof.RefStages2.lean ====
/-
  The stages of relation 2 of the reference program and of its last layer, one lemma each: after the whole program, from any contents,
  the buffer a stage writes holds the stage's term of what the buffers it reads hold.
-/
import proofs.«116214_j36043365548318_1_alg».proof.Proof.RefAsc
import proofs.«116214_j36043365548318_1_alg».proof.Proof.Stages
import proofs.«116214_j36043365548318_1_alg».proof.Proof.LibHostForms

noncomputable section

namespace Cert.ReferenceIdeal.RefValue

open Cert.ReferenceIdeal Cert.ReferenceIdeal.Gen Cert.ReferenceIdeal.RefRun Cert.ReferenceIdeal.Stages Idealize.ShloMosaic Idealize.ShloMosaic.TcCoe
  Idealize.SL.Sem Cert.Rows Cert.Gcn Cert.Layers Cert.HostLayers

set_option maxRecDepth 65536 in
set_option maxHeartbeats 4000000 in
/-- The kept nodes' rows of the features entering relation 2. -/
theorem e_v194 (V : Valuation τ sig (Elt Ideal)) :
    StableHlo.after (ops (F := Ideal)) V (Proc.devRef .tc main_v194)
      = kept2 (StableHlo.after (ops (F := Ideal)) V (Proc.devRef .tc main_v187)) (StableHlo.after (ops (F := Ideal)) V (Proc.devRef .tc main_arg13)) := by
  rw [StableHlo.stage_read ops 35 236 9 ops_asc V main_v194 (by decide),
    StableHlo.after_cut ops 35 236 ops_asc V main_v187 (by decide),
    StableHlo.after_cut ops 35 236 ops_asc V main_arg13 (by decide)]
  generalize StableHlo.after (List.take 236 ops) V = W
  simp only [ops, ops0, ops1, ops2, ops3, ops4, ops5, List.cons_append, List.nil_append, List.drop_succ_cons, List.drop_zero, List.take_succ_cons, List.take_zero]
  after_results_simp
  rfl

set_option maxRecDepth 65536 in
set_option maxHeartbeats 4000000 in
/-- The second Chebyshev term of the kept nodes' features. -/
theorem e_v218 (V : Valuation τ sig (Elt Ideal)) :
    StableHlo.after (ops (F := Ideal)) V (Proc.devRef .tc main_v218)
      = cheb2 (StableHlo.after (ops (F := Ideal)) V (Proc.devRef .tc main_v194)) (StableHlo.after (ops (F := Ideal)) V (Proc.devRef .tc main_arg15)) (StableHlo.after (ops (F := Ideal)) V (Proc.devRef .tc main_arg16)) (StableHlo.after (ops (F := Ideal)) V (Proc.devRef .tc main_arg17)) (StableHlo.after (ops (F := Ideal)) V (Proc.devRef .tc main_arg18)) := by
  rw [StableHlo.stage_read ops 35 245 29 ops_asc V main_v218 (by decide),
    StableHlo.after_cut ops 35 245 ops_asc V main_v194 (by decide),
    StableHlo.after_cut ops 35 245 ops_asc V main_arg15 (by decide),
    StableHlo.after_cut ops 35 245 ops_asc V main_arg16 (by decide),
    StableHlo.after_cut ops 35 245 ops_asc V main_arg17 (by decide),
    StableHlo.after_cut ops 35 245 ops_asc V main_arg18 (by decide)]
  generalize StableHlo.after (List.take 245 ops) V = W
  simp only [ops, ops0, ops1, ops2, ops3, ops4, ops5, List.cons_append, List.nil_append, List.drop_succ_cons, List.drop_zero, List.take_succ_cons, List.take_zero]
  after_results_simp
  rfl

set_option maxRecDepth 65536 in
set_option maxHeartbeats 4000000 in
/-- The first graph-convolution layer. -/
theorem e_v224 (V : Valuation τ sig (Elt Ideal)) :
    StableHlo.after (ops (F := Ideal)) V (Proc.devRef .tc main_v224)
      = dualRelu (StableHlo.after (ops (F := Ideal)) V (Proc.devRef .tc main_v194)) (StableHlo.after (ops (F := Ideal)) V (Proc.devRef .tc main_v218)) (top (StableHlo.after (ops (F := Ideal)) V (Proc.devRef .tc main_arg27))) (bot (StableHlo.after (ops (F := Ideal)) V (Proc.devRef .tc main_arg27))) (row (StableHlo.after (ops (F := Ideal)) V (Proc.devRef .tc main_arg28))) := by
  rw [StableHlo.stage_read ops 35 274 8 ops_asc V main_v224 (by decide),
    StableHlo.after_cut ops 35 274 ops_asc V main_v194 (by decide),
    StableHlo.after_cut ops 35 274 ops_asc V main_v218 (by decide),
    StableHlo.after_cut ops 35 274 ops_asc V main_arg27 (by decide),
    StableHlo.after_cut ops 35 274 ops_asc V main_arg28 (by decide)]
  generalize StableHlo.after (List.take 274 ops) V = W
  simp only [ops, ops0, ops1, ops2, ops3, ops4, ops5, List.cons_append, List.nil_append, List.drop_succ_cons, List.drop_zero, List.take_succ_cons, List.take_zero]
  after_results_simp
  simp only [StableHlo.TRef.ofBuf, StableHlo.TRef.toBuf, cast_eq]
  exact host_dualRelu (M := 74654) (K1 := 256) (K2 := 256) (N := 256) _ _ _ _ _ ![1] rfl _ ![0, 1] (by decide) _ _ ![] _

set_option maxRecDepth 65536 in
set_option maxHeartbeats 4000000 in
/-- The second Chebyshev term of the first layer's result. -/
theorem e_v248 (V : Valuation τ sig (Elt Ideal)) :
    StableHlo.after (ops (F := Ideal)) V (Proc.devRef .tc main_v248)
      = cheb2 (StableHlo.after (ops (F := Ideal)) V (Proc.devRef .tc main_v224)) (StableHlo.after (ops (F := Ideal)) V (Proc.devRef .tc main_arg15)) (StableHlo.after (ops (F := Ideal)) V (Proc.devRef .tc main_arg16)) (StableHlo.after (ops (F := Ideal)) V (Proc.devRef .tc main_arg17)) (StableHlo.after (ops (F := Ideal)) V (Proc.devRef .tc main_arg18)) := by
  rw [StableHlo.stage_read ops 35 282 29 ops_asc V main_v248 (by decide),
    StableHlo.after_cut ops 35 282 ops_asc V main_v224 (by decide),
    StableHlo.after_cut ops 35 282 ops_asc V main_arg15 (by decide),
    StableHlo.after_cut ops 35 282 ops_asc V main_arg16 (by decide),
    StableHlo.after_cut ops 35 282 ops_asc V main_arg17 (by decide),
    StableHlo.after_cut ops 35 282 ops_asc V main_arg18 (by decide)]
  generalize StableHlo.after (List.take 282 ops) V = W
  simp only [ops, ops0, ops1, ops2, ops3, ops4, ops5, List.cons_append, List.nil_append, List.drop_succ_cons, List.drop_zero, List.take_succ_cons, List.take_zero]
  after_results_simp
  rfl

set_option maxRecDepth 65536 in
set_option maxHeartbeats 4000000 in
/-- The second graph-convolution layer. -/
theorem e_v254 (V : Valuation τ sig (Elt Ideal)) :
    StableHlo.after (ops (F := Ideal)) V (Proc.devRef .tc main_v254)
      = dualRelu (StableHlo.after (ops (F := Ideal)) V (Proc.devRef .tc main_v224)) (StableHlo.after (ops (F := Ideal)) V (Proc.devRef .tc main_v248)) (top (StableHlo.after (ops (F := Ideal)) V (Proc.devRef .tc main_arg29))) (bot (StableHlo.after (ops (F := Ideal)) V (Proc.devRef .tc main_arg29))) (row (StableHlo.after (ops (F := Ideal)) V (Proc.devRef .tc main_arg30))) := by
  rw [StableHlo.stage_read ops 35 311 8 ops_asc V main_v254 (by decide),
    StableHlo.after_cut ops 35 311 ops_asc V main_v224 (by decide),
    StableHlo.after_cut ops 35 311 ops_asc V main_v248 (by decide),
    StableHlo.after_cut ops 35 311 ops_asc V main_arg29 (by decide),
    StableHlo.after_cut ops 35 311 ops_asc V main_arg30 (by decide)]
  generalize StableHlo.after (List.take 311 ops) V = W
  simp only [ops, ops0, ops1, ops2, ops3, ops4, ops5, List.cons_append, List.nil_append, List.drop_succ_cons, List.drop_zero, List.take_succ_cons, List.take_zero]
  after_results_simp
  simp only [StableHlo.TRef.ofBuf, StableHlo.TRef.toBuf, cast_eq]
  exact host_dualRelu (M := 74654) (K1 := 256) (K2 := 256) (N := 256) _ _ _ _ _ ![1] rfl _ ![0, 1] (by decide) _ _ ![] _

set_option maxRecDepth 65536 in
set_option maxHeartbeats 4000000 in
/-- The isolated nodes' rows of the features entering relation 2. -/
theorem e_v261 (V : Valuation τ sig (Elt Ideal)) :
    StableHlo.after (ops (F := Ideal)) V (Proc.devRef .tc main_v261)
      = isol2 (StableHlo.after (ops (F := Ideal)) V (Proc.devRef .tc main_v187)) (StableHlo.after (ops (F := Ideal)) V (Proc.devRef .tc main_arg14)) := by
  rw [StableHlo.stage_read ops 35 319 9 ops_asc V main_v261 (by decide),
    StableHlo.after_cut ops 35 319 ops_asc V main_v187 (by decide),
    StableHlo.after_cut ops 35 319 ops_asc V main_arg14 (by decide)]
  generalize StableHlo.after (List.take 319 ops) V = W
  simp only [ops, ops0, ops1, ops2, ops3, ops4, ops5, List.cons_append, List.nil_append, List.drop_succ_cons, List.drop_zero, List.take_succ_cons, List.take_zero]
  after_results_simp
  rfl

set_option maxRecDepth 65536 in
set_option maxHeartbeats 4000000 in
/-- The first plain layer on the isolated nodes. -/
theorem e_v265 (V : Valuation τ sig (Elt Ideal)) :
    StableHlo.after (ops (F := Ideal)) V (Proc.devRef .tc main_v265)
      = linPlain (StableHlo.after (ops (F := Ideal)) V (Proc.devRef .tc main_v261)) (StableHlo.after (ops (F := Ideal)) V (Proc.devRef .tc main_arg23)) (row (StableHlo.after (ops (F := Ideal)) V (Proc.devRef .tc main_arg24))) := by
  rw [StableHlo.stage_read ops 35 328 4 ops_asc V main_v265 (by decide),
    StableHlo.after_cut ops 35 328 ops_asc V main_v261 (by decide),
    StableHlo.after_cut ops 35 328 ops_asc V main_arg23 (by decide),
    StableHlo.after_cut ops 35 328 ops_asc V main_arg24 (by decide)]
  generalize StableHlo.after (List.take 328 ops) V = W
  simp only [ops, ops0, ops1, ops2, ops3, ops4, ops5, List.cons_append, List.nil_append, List.drop_succ_cons, List.drop_zero, List.take_succ_cons, List.take_zero]
  after_results_simp
  exact host_linPlain (M := 25346) (K := 256) (N := 256) _ _ _ ![1] rfl _ ![0, 1] (by decide) _ _

set_option maxRecDepth 65536 in
set_option maxHeartbeats 4000000 in
/-- The second plain layer on the isolated nodes. -/
theorem e_v269 (V : Valuation τ sig (Elt Ideal)) :
    StableHlo.after (ops (F := Ideal)) V (Proc.devRef .tc main_v269)
      = linPlain (StableHlo.after (ops (F := Ideal)) V (Proc.devRef .tc main_v265)) (StableHlo.after (ops (F := Ideal)) V (Proc.devRef .tc main_arg25)) (row (StableHlo.after (ops (F := Ideal)) V (Proc.devRef .tc main_arg26))) := by
  rw [StableHlo.stage_read ops 35 332 4 ops_asc V main_v269 (by decide),
    StableHlo.after_cut ops 35 332 ops_asc V main_v265 (by decide),
    StableHlo.after_cut ops 35 332 ops_asc V main_arg25 (by decide),
    StableHlo.after_cut ops 35 332 ops_asc V main_arg26 (by decide)]
  generalize StableHlo.after (List.take 332 ops) V = W
  simp only [ops, ops0, ops1, ops2, ops3, ops4, ops5, List.cons_append, List.nil_append, List.drop_succ_cons, List.drop_zero, List.take_succ_cons, List.take_zero]
  after_results_simp
  exact host_linPlain (M := 25346) (K := 256) (N := 256) _ _ _ ![1] rfl _ ![0, 1] (by decide) _ _

set_option maxRecDepth 65536 in
set_option maxHeartbeats 4000000 in
/-- The kept nodes' two features side by side. -/
theorem e_v270 (V : Valuation τ sig (Elt Ideal)) :
    StableHlo.after (ops (F := Ideal)) V (Proc.devRef .tc main_v270)
      = concatenate S74654x512 1 [⟨S74654x256, StableHlo.after (ops (F := Ideal)) V (Proc.devRef .tc main_v224)⟩, ⟨S74654x256, StableHlo.after (ops (F := Ideal)) V (Proc.devRef .tc main_v254)⟩]
          concatenates_S74654x256_S74654x256_S74654x512_d1 := by
  rw [StableHlo.stage_read ops 35 336 1 ops_asc V main_v270 (by decide),
    StableHlo.after_cut ops 35 336 ops_asc V main_v224 (by decide),
    StableHlo.after_cut ops 35 336 ops_asc V main_v254 (by decide)]
  generalize StableHlo.after (List.take 336 ops) V = W
  simp only [ops, ops0, ops1, ops2, ops3, ops4, ops5, List.cons_append, List.nil_append, List.drop_succ_cons, List.drop_zero, List.take_succ_cons, List.take_zero]
  after_results_simp

set_option maxRecDepth 65536 in
set_option maxHeartbeats 4000000 in
/-- The isolated nodes' two features side by side. -/
theorem e_v271 (V : Valuation τ sig (Elt Ideal)) :
    StableHlo.after (ops (F := Ideal)) V (Proc.devRef .tc main_v271)
      = concatenate S25346x512 1 [⟨S25346x256, StableHlo.after (ops (F := Ideal)) V (Proc.devRef .tc main_v265)⟩, ⟨S25346x256, StableHlo.after (ops (F := Ideal)) V (Proc.devRef .tc main_v269)⟩]
          concatenates_S25346x256_S25346x256_S25346x512_d1 := by
  rw [StableHlo.stage_read ops 35 337 1 ops_asc V main_v271 (by decide),
    StableHlo.after_cut ops 35 337 ops_asc V main_v265 (by decide),
    StableHlo.after_cut ops 35 337 ops_asc V main_v269 (by decide)]
  generalize StableHlo.after (List.take 337 ops) V = W
  simp only [ops, ops0, ops1, ops2, ops3, ops4, ops5, List.cons_append, List.nil_append, List.drop_succ_cons, List.drop_zero, List.take_succ_cons, List.take_zero]
  after_results_simp

set_option maxRecDepth 65536 in
set_option maxHeartbeats 4000000 in
/-- The kept nodes' rows above the isolated nodes' rows. -/
theorem e_v272 (V : Valuation τ sig (Elt Ideal)) :
    StableHlo.after (ops (F := Ideal)) V (Proc.devRef .tc main_v272)
      = concatenate S100000x512 0 [⟨S74654x512, StableHlo.after (ops (F := Ideal)) V (Proc.devRef .tc main_v270)⟩, ⟨S25346x512, StableHlo.after (ops (F := Ideal)) V (Proc.devRef .tc main_v271)⟩]
          concatenates_S74654x512_S25346x512_S100000x512_d0 := by
  rw [StableHlo.stage_read ops 35 338 1 ops_asc V main_v272 (by decide),
    StableHlo.after_cut ops 35 338 ops_asc V main_v270 (by decide),
    StableHlo.after_cut ops 35 338 ops_asc V main_v271 (by decide)]
  generalize StableHlo.after (List.take 338 ops) V = W
  simp only [ops, ops0, ops1, ops2, ops3, ops4, ops5, List.cons_append, List.nil_append, List.drop_succ_cons, List.drop_zero, List.take_succ_cons, List.take_zero]
  after_results_simp

set_option maxRecDepth 65536 in
set_option maxHeartbeats 4000000 in
/-- The combining layer, as one product. -/
theorem e_v276 (V : Valuation τ sig (Elt Ideal)) :
    StableHlo.after (ops (F := Ideal)) V (Proc.devRef .tc main_v276)
      = linPlain (StableHlo.after (ops (F := Ideal)) V (Proc.devRef .tc main_v272)) (StableHlo.after (ops (F := Ideal)) V (Proc.devRef .tc main_arg31)) (row (StableHlo.after (ops (F := Ideal)) V (Proc.devRef .tc main_arg32))) := by
  rw [StableHlo.stage_read ops 35 339 4 ops_asc V main_v276 (by decide),
    StableHlo.after_cut ops 35 339 ops_asc V main_v272 (by decide),
    StableHlo.after_cut ops 35 339 ops_asc V main_arg31 (by decide),
    StableHlo.after_cut ops 35 339 ops_asc V main_arg32 (by decide)]
  generalize StableHlo.after (List.take 339 ops) V = W
  simp only [ops, ops0, ops1, ops2, ops3, ops4, ops5, List.cons_append, List.nil_append, List.drop_succ_cons, List.drop_zero, List.take_succ_cons, List.take_zero]
  after_results_simp
  exact host_linPlain (M := 100000) (K := 512) (N := 256) _ _ _ ![1] rfl _ ![0, 1] (by decide) _ _

set_option maxRecDepth 65536 in
set_option maxHeartbeats 4000000 in
/-- The last layer on the three relations' blocks. -/
theorem e_v283 (V : Valuation τ sig (Elt Ideal)) :
    StableHlo.after (ops (F := Ideal)) V (Proc.devRef .tc main_v283)
      = triOut (StableHlo.after (ops (F := Ideal)) V (Proc.devRef .tc main_v98)) (StableHlo.after (ops (F := Ideal)) V (Proc.devRef .tc main_v187)) (StableHlo.after (ops (F := Ideal)) V (Proc.devRef .tc main_v276))
          (StableHlo.after (ops (F := Ideal)) V (Proc.devRef .tc main_arg33)) (shapeCast S1x2 (StableHlo.after (ops (F := Ideal)) V (Proc.devRef .tc main_arg34)) (by decide)) := by
  rw [StableHlo.stage_read ops 35 343 13 ops_asc V main_v283 (by decide),
    StableHlo.after_cut ops 35 343 ops_asc V main_v98 (by decide),
    StableHlo.after_cut ops 35 343 ops_asc V main_v187 (by decide),
    StableHlo.after_cut ops 35 343 ops_asc V main_v276 (by decide),
    StableHlo.after_cut ops 35 343 ops_asc V main_arg33 (by decide),
    StableHlo.after_cut ops 35 343 ops_asc V main_arg34 (by decide)]
  generalize StableHlo.after (List.take 343 ops) V = W
  simp only [ops, ops0, ops1, ops2, ops3, ops4, ops5, List.cons_append, List.nil_append, List.drop_succ_cons, List.drop_zero, List.take_succ_cons, List.take_zero]
  after_results_simp
  simp only [StableHlo.TRef.ofBuf, StableHlo.TRef.toBuf, cast_eq]
  exact host_triOut (M := 100000) (K := 256) (N := 2) _ _ _ _ _ ![1] rfl _ ![0, 1] (by decide) _ _ ![] _

end Cert.ReferenceIdeal.RefValue

end
-- ==== Proof.RefValue.lean ====
/-
  The reference program's result is the network's result of its arguments.

  After the whole program, from any contents, each stage's buffer holds the stage's term of the buffers it reads (the
  stage lemmas). Chained: the stem's buffer holds the stem of the arguments; each relation's block buffer holds the
  relation's block of the features entering it; the result buffer holds the last layer of the three blocks. No
  operation writes an argument, so from the launch contents this is the network's result of the arguments.
-/
import proofs.«116214_j36043365548318_1_alg».proof.Proof.RefStages0
import proofs.«116214_j36043365548318_1_alg».proof.Proof.RefStages1
import proofs.«116214_j36043365548318_1_alg».proof.Proof.RefStages2

noncomputable section

namespace Cert.ReferenceIdeal.RefValue

open Cert.ReferenceIdeal Cert.ReferenceIdeal.Gen Cert.ReferenceIdeal.RefRun Cert.ReferenceIdeal.Stages Idealize.ShloMosaic Idealize.ShloMosaic.TcCoe
  Idealize.SL.Sem Cert.Rows Cert.Gcn Cert.Layers Cert.HostLayers

/-- The node features after the stem. -/
theorem e_stem (V : Valuation τ sig (Elt Ideal)) :
    StableHlo.after (ops (F := Ideal)) V (Proc.devRef .tc main_v9)
      = stem (StableHlo.after (ops (F := Ideal)) V (Proc.devRef .tc main_arg0))
          (StableHlo.after (ops (F := Ideal)) V (Proc.devRef .tc main_arg19))
          (StableHlo.after (ops (F := Ideal)) V (Proc.devRef .tc main_arg20))
          (StableHlo.after (ops (F := Ideal)) V (Proc.devRef .tc main_arg21))
          (StableHlo.after (ops (F := Ideal)) V (Proc.devRef .tc main_arg22)) := by
  rw [e_v9, e_v4]
  rfl

set_option maxRecDepth 65536 in
set_option maxHeartbeats 4000000 in
/-- Relation 0's block of the features entering it: the stages of the relation chained, the combining layer split at the
    seam of its two row blocks and, in each, at the seam of its two column blocks. -/
theorem e_block0 (V : Valuation τ sig (Elt Ideal)) :
    StableHlo.after (ops (F := Ideal)) V (Proc.devRef .tc main_v98)
      = block0 (StableHlo.after (ops (F := Ideal)) V (Proc.devRef .tc main_v9))
          (StableHlo.after (ops (F := Ideal)) V (Proc.devRef .tc main_arg1))
          (StableHlo.after (ops (F := Ideal)) V (Proc.devRef .tc main_arg2))
          (StableHlo.after (ops (F := Ideal)) V (Proc.devRef .tc main_arg3))
          (StableHlo.after (ops (F := Ideal)) V (Proc.devRef .tc main_arg4))
          (StableHlo.after (ops (F := Ideal)) V (Proc.devRef .tc main_arg5))
          (StableHlo.after (ops (F := Ideal)) V (Proc.devRef .tc main_arg6))
          (StableHlo.after (ops (F := Ideal)) V (Proc.devRef .tc main_arg27))
          (StableHlo.after (ops (F := Ideal)) V (Proc.devRef .tc main_arg28))
          (StableHlo.after (ops (F := Ideal)) V (Proc.devRef .tc main_arg29))
          (StableHlo.after (ops (F := Ideal)) V (Proc.devRef .tc main_arg30))
          (StableHlo.after (ops (F := Ideal)) V (Proc.devRef .tc main_arg23))
          (StableHlo.after (ops (F := Ideal)) V (Proc.devRef .tc main_arg24))
          (StableHlo.after (ops (F := Ideal)) V (Proc.devRef .tc main_arg25))
          (StableHlo.after (ops (F := Ideal)) V (Proc.devRef .tc main_arg26))
          (StableHlo.after (ops (F := Ideal)) V (Proc.devRef .tc main_arg31))
          (StableHlo.after (ops (F := Ideal)) V (Proc.devRef .tc main_arg32)) := by
  rw [e_v98, e_v94, e_v92, e_v93, e_v76, e_v70, e_v46, e_v40, e_v16, e_v91, e_v87, e_v83]
  exact block_form (M1 := 69785) (M2 := 30215) (K1 := 256) (K2 := 256) (N := 256) _ _ _ _ _ _ _ _ _ _

set_option maxRecDepth 65536 in
set_option maxHeartbeats 4000000 in
/-- Relation 1's block of the features entering it: the stages of the relation chained, the combining layer split at the
    seam of its two row blocks and, in each, at the seam of its two column blocks. -/
theorem e_block1 (V : Valuation τ sig (Elt Ideal)) :
    StableHlo.after (ops (F := Ideal)) V (Proc.devRef .tc main_v187)
      = block1 (StableHlo.after (ops (F := Ideal)) V (Proc.devRef .tc main_v98))
          (StableHlo.after (ops (F := Ideal)) V (Proc.devRef .tc main_arg7))
          (StableHlo.after (ops (F := Ideal)) V (Proc.devRef .tc main_arg8))
          (StableHlo.after (ops (F := Ideal)) V (Proc.devRef .tc main_arg9))
          (StableHlo.after (ops (F := Ideal)) V (Proc.devRef .tc main_arg10))
          (StableHlo.after (ops (F := Ideal)) V (Proc.devRef .tc main_arg11))
          (StableHlo.after (ops (F := Ideal)) V (Proc.devRef .tc main_arg12))
          (StableHlo.after (ops (F := Ideal)) V (Proc.devRef .tc main_arg27))
          (StableHlo.after (ops (F := Ideal)) V (Proc.devRef .tc main_arg28))
          (StableHlo.after (ops (F := Ideal)) V (Proc.devRef .tc main_arg29))
          (StableHlo.after (ops (F := Ideal)) V (Proc.devRef .tc main_arg30))
          (StableHlo.after (ops (F := Ideal)) V (Proc.devRef .tc main_arg23))
          (StableHlo.after (ops (F := Ideal)) V (Proc.devRef .tc main_arg24))
          (StableHlo.after (ops (F := Ideal)) V (Proc.devRef .tc main_arg25))
          (StableHlo.after (ops (F := Ideal)) V (Proc.devRef .tc main_arg26))
          (StableHlo.after (ops (F := Ideal)) V (Proc.devRef .tc main_arg31))
          (StableHlo.after (ops (F := Ideal)) V (Proc.devRef .tc main_arg32)) := by
  rw [e_v187, e_v183, e_v181, e_v182, e_v165, e_v159, e_v135, e_v129, e_v105, e_v180, e_v176, e_v172]
  exact block_form (M1 := 79460) (M2 := 20540) (K1 := 256) (K2 := 256) (N := 256) _ _ _ _ _ _ _ _ _ _

set_option maxRecDepth 65536 in
set_option maxHeartbeats 4000000 in
/-- Relation 2's block of the features entering it: the stages of the relation chained, the combining layer split at the
    seam of its two row blocks and, in each, at the seam of its two column blocks. -/
theorem e_block2 (V : Valuation τ sig (Elt Ideal)) :
    StableHlo.after (ops (F := Ideal)) V (Proc.devRef .tc main_v276)
      = block2 (StableHlo.after (ops (F := Ideal)) V (Proc.devRef .tc main_v187))
          (StableHlo.after (ops (F := Ideal)) V (Proc.devRef .tc main_arg13))
          (StableHlo.after (ops (F := Ideal)) V (Proc.devRef .tc main_arg14))
          (StableHlo.after (ops (F := Ideal)) V (Proc.devRef .tc main_arg15))
          (StableHlo.after (ops (F := Ideal)) V (Proc.devRef .tc main_arg16))
          (StableHlo.after (ops (F := Ideal)) V (Proc.devRef .tc main_arg17))
          (StableHlo.after (ops (F := Ideal)) V (Proc.devRef .tc main_arg18))
          (StableHlo.after (ops (F := Ideal)) V (Proc.devRef .tc main_arg27))
          (StableHlo.after (ops (F := Ideal)) V (Proc.devRef .tc main_arg28))
          (StableHlo.after (ops (F := Ideal)) V (Proc.devRef .tc main_arg29))
          (StableHlo.after (ops (F := Ideal)) V (Proc.devRef .tc main_arg30))
          (StableHlo.after (ops (F := Ideal)) V (Proc.devRef .tc main_arg23))
          (StableHlo.after (ops (F := Ideal)) V (Proc.devRef .tc main_arg24))
          (StableHlo.after (ops (F := Ideal)) V (Proc.devRef .tc main_arg25))
          (StableHlo.after (ops (F := Ideal)) V (Proc.devRef .tc main_arg26))
          (StableHlo.after (ops (F := Ideal)) V (Proc.devRef .tc main_arg31))
          (StableHlo.after (ops (F := Ideal)) V (Proc.devRef .tc main_arg32)) := by
  rw [e_v276, e_v272, e_v270, e_v271, e_v254, e_v248, e_v224, e_v218, e_v194, e_v269, e_v265, e_v261]
  exact block_form (M1 := 74654) (M2 := 25346) (K1 := 256) (K2 := 256) (N := 256) _ _ _ _ _ _ _ _ _ _

set_option maxRecDepth 65536 in
set_option maxHeartbeats 4000000 in
/-- From any contents, the reference program leaves in its result buffer the network's result of what it leaves in
    its argument buffers. -/
theorem value_at (V : Valuation τ sig (Elt Ideal)) :
    StableHlo.after (ops (F := Ideal)) V (Proc.devRef .tc main_v283)
      = result (StableHlo.after (ops (F := Ideal)) V (Proc.devRef .tc main_arg0))
          (StableHlo.after (ops (F := Ideal)) V (Proc.devRef .tc main_arg1))
          (StableHlo.after (ops (F := Ideal)) V (Proc.devRef .tc main_arg2))
          (StableHlo.after (ops (F := Ideal)) V (Proc.devRef .tc main_arg3))
          (StableHlo.after (ops (F := Ideal)) V (Proc.devRef .tc main_arg4))
          (StableHlo.after (ops (F := Ideal)) V (Proc.devRef .tc main_arg5))
          (StableHlo.after (ops (F := Ideal)) V (Proc.devRef .tc main_arg6))
          (StableHlo.after (ops (F := Ideal)) V (Proc.devRef .tc main_arg7))
          (StableHlo.after (ops (F := Ideal)) V (Proc.devRef .tc main_arg8))
          (StableHlo.after (ops (F := Ideal)) V (Proc.devRef .tc main_arg9))
          (StableHlo.after (ops (F := Ideal)) V (Proc.devRef .tc main_arg10))
          (StableHlo.after (ops (F := Ideal)) V (Proc.devRef .tc main_arg11))
          (StableHlo.after (ops (F := Ideal)) V (Proc.devRef .tc main_arg12))
          (StableHlo.after (ops (F := Ideal)) V (Proc.devRef .tc main_arg13))
          (StableHlo.after (ops (F := Ideal)) V (Proc.devRef .tc main_arg14))
          (StableHlo.after (ops (F := Ideal)) V (Proc.devRef .tc main_arg15))
          (StableHlo.after (ops (F := Ideal)) V (Proc.devRef .tc main_arg16))
          (StableHlo.after (ops (F := Ideal)) V (Proc.devRef .tc main_arg17))
          (StableHlo.after (ops (F := Ideal)) V (Proc.devRef .tc main_arg18))
          (StableHlo.after (ops (F := Ideal)) V (Proc.devRef .tc main_arg19))
          (StableHlo.after (ops (F := Ideal)) V (Proc.devRef .tc main_arg20))
          (StableHlo.after (ops (F := Ideal)) V (Proc.devRef .tc main_arg21))
          (StableHlo.after (ops (F := Ideal)) V (Proc.devRef .tc main_arg22))
          (StableHlo.after (ops (F := Ideal)) V (Proc.devRef .tc main_arg23))
          (StableHlo.after (ops (F := Ideal)) V (Proc.devRef .tc main_arg24))
          (StableHlo.after (ops (F := Ideal)) V (Proc.devRef .tc main_arg25))
          (StableHlo.after (ops (F := Ideal)) V (Proc.devRef .tc main_arg26))
          (StableHlo.after (ops (F := Ideal)) V (Proc.devRef .tc main_arg27))
          (StableHlo.after (ops (F := Ideal)) V (Proc.devRef .tc main_arg28))
          (StableHlo.after (ops (F := Ideal)) V (Proc.devRef .tc main_arg29))
          (StableHlo.after (ops (F := Ideal)) V (Proc.devRef .tc main_arg30))
          (StableHlo.after (ops (F := Ideal)) V (Proc.devRef .tc main_arg31))
          (StableHlo.after (ops (F := Ideal)) V (Proc.devRef .tc main_arg32))
          (StableHlo.after (ops (F := Ideal)) V (Proc.devRef .tc main_arg33))
          (StableHlo.after (ops (F := Ideal)) V (Proc.devRef .tc main_arg34)) := by
  rw [e_v283, e_block2, e_block1, e_block0, e_stem]
  rfl

/-- An argument buffer ends as it was at launch. -/
theorem arg_kept (m : (ℓ : Loc nD τ sig) → Buf (Elt Ideal) ℓ) (c : Dev nD) (r : Ref sig .tc) (hr : r.idx.val < 35) :
    StableHlo.after (ops (F := Ideal)) (StableHlo.launchContents m c) (Proc.devRef .tc r) = m ((c.tc : Thread nD τ).loc r) :=
  StableHlo.after_cut ops 35 0 ops_asc _ r (by omega)

set_option maxRecDepth 65536 in
/-- The reference program's result is the network's result of its arguments' launch contents. -/
theorem value (m : (ℓ : Loc nD τ sig) → Buf (Elt Ideal) ℓ) (c : Dev nD) :
    R6 (F := Ideal) m c (Proc.devRef .tc main_v283)
      = result (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19))
          (m ((c.tc : Thread nD τ).loc main_arg20))
          (m ((c.tc : Thread nD τ).loc main_arg21))
          (m ((c.tc : Thread nD τ).loc main_arg22))
          (m ((c.tc : Thread nD τ).loc main_arg23))
          (m ((c.tc : Thread nD τ).loc main_arg24))
          (m ((c.tc : Thread nD τ).loc main_arg25))
          (m ((c.tc : Thread nD τ).loc main_arg26))
          (m ((c.tc : Thread nD τ).loc main_arg27))
          (m ((c.tc : Thread nD τ).loc main_arg28))
          (m ((c.tc : Thread nD τ).loc main_arg29))
          (m ((c.tc : Thread nD τ).loc main_arg30))
          (m ((c.tc : Thread nD τ).loc main_arg31))
          (m ((c.tc : Thread nD τ).loc main_arg32))
          (m ((c.tc : Thread nD τ).loc main_arg33))
          (m ((c.tc : Thread nD τ).loc main_arg34)) := by
  refine (congrFun (after_ops m c) _).symm.trans ((value_at _).trans ?_)
  rw [arg_kept m c main_arg0 (by decide),
    arg_kept m c main_arg1 (by decide),
    arg_kept m c main_arg2 (by decide),
    arg_kept m c main_arg3 (by decide),
    arg_kept m c main_arg4 (by decide),
    arg_kept m c main_arg5 (by decide),
    arg_kept m c main_arg6 (by decide),
    arg_kept m c main_arg7 (by decide),
    arg_kept m c main_arg8 (by decide),
    arg_kept m c main_arg9 (by decide),
    arg_kept m c main_arg10 (by decide),
    arg_kept m c main_arg11 (by decide),
    arg_kept m c main_arg12 (by decide),
    arg_kept m c main_arg13 (by decide),
    arg_kept m c main_arg14 (by decide),
    arg_kept m c main_arg15 (by decide),
    arg_kept m c main_arg16 (by decide),
    arg_kept m c main_arg17 (by decide),
    arg_kept m c main_arg18 (by decide),
    arg_kept m c main_arg19 (by decide),
    arg_kept m c main_arg20 (by decide),
    arg_kept m c main_arg21 (by decide),
    arg_kept m c main_arg22 (by decide),
    arg_kept m c main_arg23 (by decide),
    arg_kept m c main_arg24 (by decide),
    arg_kept m c main_arg25 (by decide),
    arg_kept m c main_arg26 (by decide),
    arg_kept m c main_arg27 (by decide),
    arg_kept m c main_arg28 (by decide),
    arg_kept m c main_arg29 (by decide),
    arg_kept m c main_arg30 (by decide),
    arg_kept m c main_arg31 (by decide),
    arg_kept m c main_arg32 (by decide),
    arg_kept m c main_arg33 (by decide),
    arg_kept m c main_arg34 (by decide)]

end Cert.ReferenceIdeal.RefValue

end
-- ==== Proof.lean ====
/-
  The certificate's proof.

  The word-level kernel and its idealization run, and leave their arguments as launched: the launch of each of the 21
  kernel calls at its grid points, among the host operations, each call's body run on its blocks. The reference runs as a
  line of host operations. No operation was rewritten when the kernel was idealized. At the exact instance both
  idealized programs end with the same array: the network's result as one function of the 35 arguments (Stages.lean) —
  on the kernel's side because every kernel call leaves in its output array the layer of the arrays it was entered
  with, computed on rows padded to a whole number of blocks and cut back, and a layer acts row by row; on the
  reference's side because a host dot product with a doubly broadcast bias and a maximum or a select is the same layer,
  and a product over two inputs laid side by side splits at the seam.
-/
import proofs.«116214_j36043365548318_1_alg».proof.Defs
import proofs.«116214_j36043365548318_1_alg».proof.Proof.Gen.Kernel
import proofs.«116214_j36043365548318_1_alg».proof.Proof.Gen.Kernel.Frame
import proofs.«116214_j36043365548318_1_alg».proof.Proof.Gen.KernelIdeal
import proofs.«116214_j36043365548318_1_alg».proof.Proof.Gen.KernelIdeal.Frame
import proofs.«116214_j36043365548318_1_alg».proof.Proof.Gen.ReferenceIdeal
import proofs.«116214_j36043365548318_1_alg».proof.Proof.Gen.Pre_finite_inputs
import proofs.«116214_j36043365548318_1_alg».proof.Proof.KerRun
import proofs.«116214_j36043365548318_1_alg».proof.Proof.KerValue
import proofs.«116214_j36043365548318_1_alg».proof.Proof.RefRun
import proofs.«116214_j36043365548318_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.RefRun.frame (F := Ideal) m ρ

/-- Both idealized programs, run from memories that agree on the arguments, end with the network's result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Stages.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)), ?_, ?_⟩
  · exact (θ_run (Cert.KernelIdeal.defs (F := Ideal)) _ _).mono
      (fun r h c => ⟨(h c).1.trans (Cert.KernelIdeal.KerValue.value m ρ c), (h c).2⟩)
      (Cert.KernelIdeal.KerRun.run (F := Ideal) m ρ)
  · refine (θ_run (Cert.ReferenceIdeal.defs (F := Ideal)) _ _).mono (fun r h c => ⟨(h c).1.trans ?_, (h c).2⟩)
      (Cert.ReferenceIdeal.RefRun.run (F := Ideal) m' ρ')
    obtain ⟨h0, h1, h2, h3, h4, h5, h6, h7, h8, h9, h10, h11, h12, h13, h14, h15, h16, h17, h18, h19, h20, h21, h22, h23, h24, h25, h26, h27, h28, h29, h30, h31, h32, h33, h34⟩ := hagree c
    rw [Cert.ReferenceIdeal.RefValue.value m' c, h0, h1, h2, h3, h4, h5, h6, h7, h8, h9, h10, h11, h12, h13, h14, h15, h16, h17, h18, h19, h20, h21, h22, h23, h24, h25, h26, h27, h28, h29, h30, h31, h32, h33, h34]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
